-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v285)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v285) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v433) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S4x128x64 : Shape := ⟨3, ![4, 128, 64]⟩
abbrev S4x64 : Shape := ⟨2, ![4, 64]⟩
abbrev S4x64x2 : Shape := ⟨3, ![4, 64, 2]⟩
abbrev S4x2 : Shape := ⟨2, ![4, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x2 : S_.BroadcastsInDim S4x64x2 (![] : Fin 0 → Fin S4x64x2.rank)
  reducesTo_S4x64x2_S_d0_1_2 : S4x64x2.ReducesTo [0, 1, 2] S_
  bcast_S_S4x2 : S_.BroadcastsInDim S4x2 (![] : Fin 0 → Fin S4x2.rank)
  reducesTo_S4x2_S_d0_1 : S4x2.ReducesTo [0, 1] S_

variable [Facts]

def fn_part4 {F : FTy → Type} [FloatOps F] (main_arg16 : FVec F S4x64 .f32) (main_arg17 : FVec F S4x64x2 .f32) (main_arg18 : FVec F S4x2 .f32) (main_v63 : IVec S_ 1) (main_v67 : IVec S_ 1) : IVec S_ 1 :=
  let main_v68 : IVec S_ 1 := andi main_v63 main_v67
  let main_v69 : FVec F S4x64 .f32 := Host.absf main_arg16
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  let main_v74 : FVec F S4x64x2 .f32 := Host.absf main_arg17
  let main_cst_28 : FVec F S_ .f32 := constant S_ .f32 0x7F800000#32
  let main_v75 : FVec F S4x64x2 .f32 := broadcastInDim S4x64x2 ![] bcast_S_S4x64x2 main_cst_28
  let main_v76 : IVec S4x64x2 1 := cmpf .olt main_v74 main_v75
  let main_c_29 : IVec S_ 1 := constantI S_ 1 1#1
  let main_v77 : IVec S_ 1 := (fun x v => Host.reduce IntOp.andi x v reducesTo_S4x64x2_S_d0_1_2 h_S_) main_v76 main_c_29
  let main_v78 : IVec S_ 1 := andi main_v73 main_v77
  let main_v79 : FVec F S4x2 .f32 := Host.absf main_arg18
  let main_cst_30 : FVec F S_ .f32 := constant S_ .f32 0x7F800000#32
  let main_v80 : FVec F S4x2 .f32 := broadcastInDim S4x2 ![] bcast_S_S4x2 main_cst_30
  let main_v81 : IVec S4x2 1 := cmpf .olt main_v79 main_v80
  let main_c_31 : IVec S_ 1 := constantI S_ 1 1#1
  let main_v82 : IVec S_ 1 := (fun x v => Host.reduce IntOp.andi x v reducesTo_S4x2_S_d0_1 h_S_) main_v81 main_c_31
  let main_v83 : IVec S_ 1 := andi main_v78 main_v82
  main_v83

def fn_part3 {F : FTy → Type} [FloatOps F] (main_arg13 : FVec F S3x64 .f32) (main_arg14 : FVec F S3x64 .f32) (main_arg15 : FVec F S4x128x64 .f32) (main_arg16 : FVec F S4x64 .f32) (main_arg17 : FVec F S4x64x2 .f32) (main_arg18 : FVec F S4x2 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S4x128x64 .f32 := Host.absf main_arg15
  let main_cst_24 : FVec F S_ .f32 := constant S_ .f32 0x7F800000#32
  let main_v65 : FVec F S4x128x64 .f32 := broadcastInDim S4x128x64 ![] bcast_S_S4x128x64 main_cst_24
  let main_v66 : IVec S4x128x64 1 := cmpf .olt main_v64 main_v65
  let main_c_25 : IVec S_ 1 := constantI S_ 1 1#1
  let main_v67 : IVec S_ 1 := (fun x v => Host.reduce IntOp.andi x v reducesTo_S4x128x64_S_d0_1_2 h_S_) main_v66 main_c_25
  fn_part4 (F := F) main_arg16 main_arg17 main_arg18 main_v63 main_v67

def fn_part2 {F : FTy → Type} [FloatOps F] (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S4x128x64 .f32) (main_arg16 : FVec F S4x64 .f32) (main_arg17 : FVec F S4x64x2 .f32) (main_arg18 : FVec F S4x2 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_v48 main_v49 main_v50

def fn_part1 {F : FTy → Type} [FloatOps F] (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S4x128x64 .f32) (main_arg16 : FVec F S4x64 .f32) (main_arg17 : FVec F S4x64x2 .f32) (main_arg18 : FVec F S4x2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S3x64x64 .f32) (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S4x128x64 .f32) (main_arg16 : FVec F S4x64 .f32) (main_arg17 : FVec F S4x64x2 .f32) (main_arg18 : FVec F S4x2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S4x128x64 : Shape := ⟨3, ![4, 128, 64]⟩
abbrev S4x64 : Shape := ⟨2, ![4, 64]⟩
abbrev S4x64x2 : Shape := ⟨3, ![4, 64, 2]⟩
abbrev S4x2 : Shape := ⟨2, ![4, 2]⟩
abbrev S1x64 : Shape := ⟨2, ![1, 64]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S800000x2 : Shape := ⟨2, ![800000, 2]⟩
abbrev S1x64x2 : Shape := ⟨3, ![1, 64, 2]⟩
abbrev S64x2 : Shape := ⟨2, ![64, 2]⟩
abbrev S1x2 : Shape := ⟨2, ![1, 2]⟩
abbrev S2 : Shape := ⟨1, ![2]⟩
abbrev S16000x64 : Shape := ⟨2, ![16000, 64]⟩
abbrev S16000x2 : Shape := ⟨2, ![16000, 2]⟩

abbrev nBuf : Space → Nat
  | .hbm => 556
  | .vmem => 152
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x64, .f32⟩
  | 4 => ⟨S64, .f32⟩
  | 5 => ⟨S3x64x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S4x128x64, .f32⟩
  | 16 => ⟨S4x64, .f32⟩
  | 17 => ⟨S4x64x2, .f32⟩
  | 18 => ⟨S4x2, .f32⟩
  | 19 => ⟨S1x64, .f32⟩
  | 20 => ⟨S50000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S1x64x64, .f32⟩
  | 35 => ⟨S64x64, .f32⟩
  | 36 => ⟨S1x64, .f32⟩
  | 37 => ⟨S64, .f32⟩
  | 38 => ⟨S1x64, .f32⟩
  | 39 => ⟨S50000x64, .f32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S50000x64, .f32⟩
  | 54 => ⟨S50000x64, .f32⟩
  | 55 => ⟨S50000x64, .f32⟩
  | 56 => ⟨S_, .f32⟩
  | 57 => ⟨S_, .f32⟩
  | 58 => ⟨S_, .f32⟩
  | 59 => ⟨S_, .f32⟩
  | 60 => ⟨S64, .f32⟩
  | 61 => ⟨S1x64, .f32⟩
  | 62 => ⟨S1x64, .f32⟩
  | 63 => ⟨S1x64, .f32⟩
  | 64 => ⟨S_, .f32⟩
  | 65 => ⟨S_, .i1⟩
  | 66 => ⟨S_, .f32⟩
  | 67 => ⟨S_, .f32⟩
  | 68 => ⟨S1x64, .f32⟩
  | 69 => ⟨S1x64, .f32⟩
  | 70 => ⟨S1x64, .f32⟩
  | 71 => ⟨S64, .f32⟩
  | 72 => ⟨S1x64, .f32⟩
  | 73 => ⟨S1x64, .f32⟩
  | 74 => ⟨S64, .f32⟩
  | 75 => ⟨S1x64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S50000x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S50000x64, .f32⟩
  | 96 => ⟨S50000x64, .f32⟩
  | 97 => ⟨S50000x64, .f32⟩
  | 98 => ⟨S_, .f32⟩
  | 99 => ⟨S_, .f32⟩
  | 100 => ⟨S_, .f32⟩
  | 101 => ⟨S_, .f32⟩
  | 102 => ⟨S64, .f32⟩
  | 103 => ⟨S1x64, .f32⟩
  | 104 => ⟨S1x64, .f32⟩
  | 105 => ⟨S1x64, .f32⟩
  | 106 => ⟨S_, .f32⟩
  | 107 => ⟨S_, .i1⟩
  | 108 => ⟨S_, .f32⟩
  | 109 => ⟨S_, .f32⟩
  | 110 => ⟨S1x64, .f32⟩
  | 111 => ⟨S1x64, .f32⟩
  | 112 => ⟨S1x64, .f32⟩
  | 113 => ⟨S64, .f32⟩
  | 114 => ⟨S1x64, .f32⟩
  | 115 => ⟨S1x64, .f32⟩
  | 116 => ⟨S64, .f32⟩
  | 117 => ⟨S1x64, .f32⟩
  | 118 => ⟨S50000x64, .f32⟩
  | 119 => ⟨S_, .f32⟩
  | 120 => ⟨S64, .f32⟩
  | 121 => ⟨S1x64, .f32⟩
  | 122 => ⟨S_, .f32⟩
  | 123 => ⟨S1x64, .f32⟩
  | 124 => ⟨S1x64, .f32⟩
  | 125 => ⟨S_, .i32⟩
  | 126 => ⟨S_, .f32⟩
  | 127 => ⟨S64, .f32⟩
  | _ => ⟨S50000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S_, .f32⟩
  | 9 => ⟨S_, .f32⟩
  | 10 => ⟨S_, .f32⟩
  | 11 => ⟨S64, .f32⟩
  | 12 => ⟨S1x64, .f32⟩
  | 13 => ⟨S1x64, .f32⟩
  | 14 => ⟨S1x64, .f32⟩
  | 15 => ⟨S_, .f32⟩
  | 16 => ⟨S_, .i1⟩
  | 17 => ⟨S_, .f32⟩
  | 18 => ⟨S_, .f32⟩
  | 19 => ⟨S1x64, .f32⟩
  | 20 => ⟨S1x64, .f32⟩
  | 21 => ⟨S1x64, .f32⟩
  | 22 => ⟨S64, .f32⟩
  | 23 => ⟨S1x64, .f32⟩
  | 24 => ⟨S1x64, .f32⟩
  | 25 => ⟨S64, .f32⟩
  | 26 => ⟨S1x64, .f32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S50000x64, .f32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S50000x64, .f32⟩
  | 61 => ⟨S50000x64, .f32⟩
  | 62 => ⟨S50000x64, .f32⟩
  | 63 => ⟨S_, .f32⟩
  | 64 => ⟨S_, .f32⟩
  | 65 => ⟨S_, .f32⟩
  | 66 => ⟨S_, .f32⟩
  | 67 => ⟨S64, .f32⟩
  | 68 => ⟨S1x64, .f32⟩
  | 69 => ⟨S1x64, .f32⟩
  | 70 => ⟨S1x64, .f32⟩
  | 71 => ⟨S_, .f32⟩
  | 72 => ⟨S_, .i1⟩
  | 73 => ⟨S_, .f32⟩
  | 74 => ⟨S_, .f32⟩
  | 75 => ⟨S1x64, .f32⟩
  | 76 => ⟨S1x64, .f32⟩
  | 77 => ⟨S1x64, .f32⟩
  | 78 => ⟨S64, .f32⟩
  | 79 => ⟨S1x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S50000x64, .f32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S_, .f32⟩
  | 107 => ⟨S_, .f32⟩
  | 108 => ⟨S_, .f32⟩
  | 109 => ⟨S64, .f32⟩
  | 110 => ⟨S1x64, .f32⟩
  | 111 => ⟨S1x64, .f32⟩
  | 112 => ⟨S1x64, .f32⟩
  | 113 => ⟨S_, .f32⟩
  | 114 => ⟨S_, .i1⟩
  | 115 => ⟨S_, .f32⟩
  | 116 => ⟨S_, .f32⟩
  | 117 => ⟨S1x64, .f32⟩
  | 118 => ⟨S1x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S50000x64, .f32⟩
  | 126 => ⟨S_, .f32⟩
  | 127 => ⟨S64, .f32⟩
  | _ => ⟨S50000x64, .f32⟩

abbrev hbmTy0_2 (i : Nat) : BufTy := match i % 128 with
  | 0 => ⟨S1x64, .f32⟩
  | 1 => ⟨S_, .f32⟩
  | 2 => ⟨S1x64, .f32⟩
  | 3 => ⟨S1x64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S50000x64, .f32⟩
  | 12 => ⟨S50000x64, .f32⟩
  | 13 => ⟨S50000x64, .f32⟩
  | 14 => ⟨S_, .f32⟩
  | 15 => ⟨S_, .f32⟩
  | 16 => ⟨S_, .f32⟩
  | 17 => ⟨S_, .f32⟩
  | 18 => ⟨S64, .f32⟩
  | 19 => ⟨S1x64, .f32⟩
  | 20 => ⟨S1x64, .f32⟩
  | 21 => ⟨S1x64, .f32⟩
  | 22 => ⟨S_, .f32⟩
  | 23 => ⟨S_, .i1⟩
  | 24 => ⟨S_, .f32⟩
  | 25 => ⟨S_, .f32⟩
  | 26 => ⟨S1x64, .f32⟩
  | 27 => ⟨S1x64, .f32⟩
  | 28 => ⟨S1x64, .f32⟩
  | 29 => ⟨S64, .f32⟩
  | 30 => ⟨S1x64, .f32⟩
  | 31 => ⟨S1x64, .f32⟩
  | 32 => ⟨S64, .f32⟩
  | 33 => ⟨S1x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S50000x64, .f32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S50000x64, .f32⟩
  | 68 => ⟨S50000x64, .f32⟩
  | 69 => ⟨S50000x64, .f32⟩
  | 70 => ⟨S_, .f32⟩
  | 71 => ⟨S_, .f32⟩
  | 72 => ⟨S_, .f32⟩
  | 73 => ⟨S_, .f32⟩
  | 74 => ⟨S64, .f32⟩
  | 75 => ⟨S1x64, .f32⟩
  | 76 => ⟨S1x64, .f32⟩
  | 77 => ⟨S1x64, .f32⟩
  | 78 => ⟨S_, .f32⟩
  | 79 => ⟨S_, .i1⟩
  | 80 => ⟨S_, .f32⟩
  | 81 => ⟨S_, .f32⟩
  | 82 => ⟨S1x64, .f32⟩
  | 83 => ⟨S1x64, .f32⟩
  | 84 => ⟨S1x64, .f32⟩
  | 85 => ⟨S64, .f32⟩
  | 86 => ⟨S1x64, .f32⟩
  | 87 => ⟨S1x64, .f32⟩
  | 88 => ⟨S64, .f32⟩
  | 89 => ⟨S1x64, .f32⟩
  | 90 => ⟨S1x64x64, .f32⟩
  | 91 => ⟨S64x64, .f32⟩
  | 92 => ⟨S1x64, .f32⟩
  | 93 => ⟨S64, .f32⟩
  | 94 => ⟨S1x64, .f32⟩
  | 95 => ⟨S50000x64, .f32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S_, .f32⟩
  | 114 => ⟨S_, .f32⟩
  | 115 => ⟨S_, .f32⟩
  | 116 => ⟨S64, .f32⟩
  | 117 => ⟨S1x64, .f32⟩
  | 118 => ⟨S1x64, .f32⟩
  | 119 => ⟨S1x64, .f32⟩
  | 120 => ⟨S_, .f32⟩
  | 121 => ⟨S_, .i1⟩
  | 122 => ⟨S_, .f32⟩
  | 123 => ⟨S_, .f32⟩
  | 124 => ⟨S1x64, .f32⟩
  | 125 => ⟨S1x64, .f32⟩
  | 126 => ⟨S1x64, .f32⟩
  | 127 => ⟨S64, .f32⟩
  | _ => ⟨S50000x64, .f32⟩

abbrev hbmTy0_3 (i : Nat) : BufTy := match i % 128 with
  | 0 => ⟨S1x64, .f32⟩
  | 1 => ⟨S1x64, .f32⟩
  | 2 => ⟨S64, .f32⟩
  | 3 => ⟨S1x64, .f32⟩
  | 4 => ⟨S50000x64, .f32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S50000x64, .f32⟩
  | 19 => ⟨S50000x64, .f32⟩
  | 20 => ⟨S50000x64, .f32⟩
  | 21 => ⟨S_, .f32⟩
  | 22 => ⟨S_, .f32⟩
  | 23 => ⟨S_, .f32⟩
  | 24 => ⟨S_, .f32⟩
  | 25 => ⟨S64, .f32⟩
  | 26 => ⟨S1x64, .f32⟩
  | 27 => ⟨S1x64, .f32⟩
  | 28 => ⟨S1x64, .f32⟩
  | 29 => ⟨S_, .f32⟩
  | 30 => ⟨S_, .i1⟩
  | 31 => ⟨S_, .f32⟩
  | 32 => ⟨S_, .f32⟩
  | 33 => ⟨S1x64, .f32⟩
  | 34 => ⟨S1x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S50000x64, .f32⟩
  | 42 => ⟨S_, .f32⟩
  | 43 => ⟨S800000x2, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S1x64x64, .f32⟩
  | 63 => ⟨S64x64, .f32⟩
  | 64 => ⟨S1x64x64, .f32⟩
  | 65 => ⟨S64x64, .f32⟩
  | 66 => ⟨S1x64, .f32⟩
  | 67 => ⟨S64, .f32⟩
  | 68 => ⟨S1x64, .f32⟩
  | 69 => ⟨S1x64x2, .f32⟩
  | 70 => ⟨S64x2, .f32⟩
  | 71 => ⟨S1x2, .f32⟩
  | 72 => ⟨S2, .f32⟩
  | 73 => ⟨S1x2, .f32⟩
  | 74 => ⟨S800000x2, .f32⟩
  | 75 => ⟨S800000x2, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S1x64x64, .f32⟩
  | 95 => ⟨S64x64, .f32⟩
  | 96 => ⟨S1x64x64, .f32⟩
  | 97 => ⟨S64x64, .f32⟩
  | 98 => ⟨S1x64, .f32⟩
  | 99 => ⟨S64, .f32⟩
  | 100 => ⟨S1x64, .f32⟩
  | 101 => ⟨S1x64x2, .f32⟩
  | 102 => ⟨S64x2, .f32⟩
  | 103 => ⟨S1x2, .f32⟩
  | 104 => ⟨S2, .f32⟩
  | 105 => ⟨S1x2, .f32⟩
  | 106 => ⟨S800000x2, .f32⟩
  | 107 => ⟨S800000x2, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S1x64x64, .f32⟩
  | 127 => ⟨S64x64, .f32⟩
  | _ => ⟨S50000x64, .f32⟩

abbrev hbmTy0_4 (i : Nat) : BufTy := match i % 128 with
  | 0 => ⟨S1x64x64, .f32⟩
  | 1 => ⟨S64x64, .f32⟩
  | 2 => ⟨S1x64, .f32⟩
  | 3 => ⟨S64, .f32⟩
  | 4 => ⟨S1x64, .f32⟩
  | 5 => ⟨S1x64x2, .f32⟩
  | 6 => ⟨S64x2, .f32⟩
  | 7 => ⟨S1x2, .f32⟩
  | 8 => ⟨S2, .f32⟩
  | 9 => ⟨S1x2, .f32⟩
  | 10 => ⟨S800000x2, .f32⟩
  | 11 => ⟨S800000x2, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S1x64x64, .f32⟩
  | 31 => ⟨S64x64, .f32⟩
  | 32 => ⟨S1x64x64, .f32⟩
  | 33 => ⟨S64x64, .f32⟩
  | 34 => ⟨S1x64, .f32⟩
  | 35 => ⟨S64, .f32⟩
  | 36 => ⟨S1x64, .f32⟩
  | 37 => ⟨S1x64x2, .f32⟩
  | 38 => ⟨S64x2, .f32⟩
  | 39 => ⟨S1x2, .f32⟩
  | 40 => ⟨S2, .f32⟩
  | 41 => ⟨S1x2, .f32⟩
  | 42 => ⟨S800000x2, .f32⟩
  | 43 => ⟨S800000x2, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev vmemTy0_0 (i : Nat) : BufTy := match i % 128 with
  | 0 => ⟨S10000x64, .f32⟩
  | 1 => ⟨S10000x64, .f32⟩
  | 2 => ⟨S64x64, .f32⟩
  | 3 => ⟨S1x64, .f32⟩
  | 4 => ⟨S10000x64, .f32⟩
  | 5 => ⟨S10000x64, .f32⟩
  | 6 => ⟨S10000x64, .f32⟩
  | 7 => ⟨S10000x64, .f32⟩
  | 8 => ⟨S10000x64, .f32⟩
  | 9 => ⟨S10000x64, .f32⟩
  | 10 => ⟨S64x64, .f32⟩
  | 11 => ⟨S1x64, .f32⟩
  | 12 => ⟨S10000x64, .f32⟩
  | 13 => ⟨S10000x64, .f32⟩
  | 14 => ⟨S10000x64, .f32⟩
  | 15 => ⟨S10000x64, .f32⟩
  | 16 => ⟨S1x64, .f32⟩
  | 17 => ⟨S1x64, .f32⟩
  | 18 => ⟨S1x64, .f32⟩
  | 19 => ⟨S1x64, .f32⟩
  | 20 => ⟨S64x64, .f32⟩
  | 21 => ⟨S1x64, .f32⟩
  | 22 => ⟨S10000x64, .f32⟩
  | 23 => ⟨S10000x64, .f32⟩
  | 24 => ⟨S10000x64, .f32⟩
  | 25 => ⟨S10000x64, .f32⟩
  | 26 => ⟨S1x64, .f32⟩
  | 27 => ⟨S1x64, .f32⟩
  | 28 => ⟨S1x64, .f32⟩
  | 29 => ⟨S1x64, .f32⟩
  | 30 => ⟨S10000x64, .f32⟩
  | 31 => ⟨S10000x64, .f32⟩
  | 32 => ⟨S10000x64, .f32⟩
  | 33 => ⟨S10000x64, .f32⟩
  | 34 => ⟨S1x64, .f32⟩
  | 35 => ⟨S1x64, .f32⟩
  | 36 => ⟨S1x64, .f32⟩
  | 37 => ⟨S1x64, .f32⟩
  | 38 => ⟨S10000x64, .f32⟩
  | 39 => ⟨S10000x64, .f32⟩
  | 40 => ⟨S10000x64, .f32⟩
  | 41 => ⟨S10000x64, .f32⟩
  | 42 => ⟨S10000x64, .f32⟩
  | 43 => ⟨S10000x64, .f32⟩
  | 44 => ⟨S64x64, .f32⟩
  | 45 => ⟨S1x64, .f32⟩
  | 46 => ⟨S10000x64, .f32⟩
  | 47 => ⟨S10000x64, .f32⟩
  | 48 => ⟨S10000x64, .f32⟩
  | 49 => ⟨S10000x64, .f32⟩
  | 50 => ⟨S1x64, .f32⟩
  | 51 => ⟨S1x64, .f32⟩
  | 52 => ⟨S1x64, .f32⟩
  | 53 => ⟨S1x64, .f32⟩
  | 54 => ⟨S64x64, .f32⟩
  | 55 => ⟨S1x64, .f32⟩
  | 56 => ⟨S10000x64, .f32⟩
  | 57 => ⟨S10000x64, .f32⟩
  | 58 => ⟨S10000x64, .f32⟩
  | 59 => ⟨S10000x64, .f32⟩
  | 60 => ⟨S1x64, .f32⟩
  | 61 => ⟨S1x64, .f32⟩
  | 62 => ⟨S1x64, .f32⟩
  | 63 => ⟨S1x64, .f32⟩
  | 64 => ⟨S10000x64, .f32⟩
  | 65 => ⟨S10000x64, .f32⟩
  | 66 => ⟨S10000x64, .f32⟩
  | 67 => ⟨S10000x64, .f32⟩
  | 68 => ⟨S1x64, .f32⟩
  | 69 => ⟨S1x64, .f32⟩
  | 70 => ⟨S1x64, .f32⟩
  | 71 => ⟨S1x64, .f32⟩
  | 72 => ⟨S10000x64, .f32⟩
  | 73 => ⟨S10000x64, .f32⟩
  | 74 => ⟨S10000x64, .f32⟩
  | 75 => ⟨S10000x64, .f32⟩
  | 76 => ⟨S10000x64, .f32⟩
  | 77 => ⟨S10000x64, .f32⟩
  | 78 => ⟨S64x64, .f32⟩
  | 79 => ⟨S1x64, .f32⟩
  | 80 => ⟨S10000x64, .f32⟩
  | 81 => ⟨S10000x64, .f32⟩
  | 82 => ⟨S10000x64, .f32⟩
  | 83 => ⟨S10000x64, .f32⟩
  | 84 => ⟨S1x64, .f32⟩
  | 85 => ⟨S1x64, .f32⟩
  | 86 => ⟨S1x64, .f32⟩
  | 87 => ⟨S1x64, .f32⟩
  | 88 => ⟨S64x64, .f32⟩
  | 89 => ⟨S1x64, .f32⟩
  | 90 => ⟨S10000x64, .f32⟩
  | 91 => ⟨S10000x64, .f32⟩
  | 92 => ⟨S10000x64, .f32⟩
  | 93 => ⟨S10000x64, .f32⟩
  | 94 => ⟨S1x64, .f32⟩
  | 95 => ⟨S1x64, .f32⟩
  | 96 => ⟨S1x64, .f32⟩
  | 97 => ⟨S1x64, .f32⟩
  | 98 => ⟨S10000x64, .f32⟩
  | 99 => ⟨S10000x64, .f32⟩
  | 100 => ⟨S10000x64, .f32⟩
  | 101 => ⟨S10000x64, .f32⟩
  | 102 => ⟨S1x64, .f32⟩
  | 103 => ⟨S1x64, .f32⟩
  | 104 => ⟨S1x64, .f32⟩
  | 105 => ⟨S1x64, .f32⟩
  | 106 => ⟨S10000x64, .f32⟩
  | 107 => ⟨S10000x64, .f32⟩
  | 108 => ⟨S16000x64, .f32⟩
  | 109 => ⟨S16000x64, .f32⟩
  | 110 => ⟨S16000x64, .f32⟩
  | 111 => ⟨S16000x64, .f32⟩
  | 112 => ⟨S64x64, .f32⟩
  | 113 => ⟨S64x64, .f32⟩
  | 114 => ⟨S1x64, .f32⟩
  | 115 => ⟨S64x2, .f32⟩
  | 116 => ⟨S1x2, .f32⟩
  | 117 => ⟨S16000x2, .f32⟩
  | 118 => ⟨S16000x2, .f32⟩
  | 119 => ⟨S16000x64, .f32⟩
  | 120 => ⟨S16000x64, .f32⟩
  | 121 => ⟨S16000x64, .f32⟩
  | 122 => ⟨S16000x64, .f32⟩
  | 123 => ⟨S64x64, .f32⟩
  | 124 => ⟨S64x64, .f32⟩
  | 125 => ⟨S1x64, .f32⟩
  | 126 => ⟨S64x2, .f32⟩
  | 127 => ⟨S1x2, .f32⟩
  | _ => ⟨S50000x64, .f32⟩

abbrev vmemTy0_1 (i : Nat) : BufTy := match i % 128 with
  | 0 => ⟨S16000x2, .f32⟩
  | 1 => ⟨S16000x2, .f32⟩
  | 2 => ⟨S16000x64, .f32⟩
  | 3 => ⟨S16000x64, .f32⟩
  | 4 => ⟨S16000x64, .f32⟩
  | 5 => ⟨S16000x64, .f32⟩
  | 6 => ⟨S64x64, .f32⟩
  | 7 => ⟨S64x64, .f32⟩
  | 8 => ⟨S1x64, .f32⟩
  | 9 => ⟨S64x2, .f32⟩
  | 10 => ⟨S1x2, .f32⟩
  | 11 => ⟨S16000x2, .f32⟩
  | 12 => ⟨S16000x2, .f32⟩
  | 13 => ⟨S16000x64, .f32⟩
  | 14 => ⟨S16000x64, .f32⟩
  | 15 => ⟨S16000x64, .f32⟩
  | 16 => ⟨S16000x64, .f32⟩
  | 17 => ⟨S64x64, .f32⟩
  | 18 => ⟨S64x64, .f32⟩
  | 19 => ⟨S1x64, .f32⟩
  | 20 => ⟨S64x2, .f32⟩
  | 21 => ⟨S1x2, .f32⟩
  | 22 => ⟨S16000x2, .f32⟩
  | 23 => ⟨S16000x2, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 152 → Bool
  | ⟨i, _⟩ => dmaSemScopedAt i

abbrev sig : RefSig :=
  ofTc nBuf bufTy 0 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_4 : Ref sig .tc := ⟨.hbm, 82, rfl⟩
abbrev main_v35 : Ref sig .tc := ⟨.hbm, 83, rfl⟩
abbrev main_v36 : Ref sig .tc := ⟨.hbm, 84, rfl⟩
abbrev main_cst_5 : Ref sig .tc := ⟨.hbm, 85, rfl⟩
abbrev main_v37 : Ref sig .tc := ⟨.hbm, 86, rfl⟩
abbrev main_v38 : Ref sig .tc := ⟨.hbm, 87, rfl⟩
abbrev main_c_6 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_cst_3 : Ref sig .tc := ⟨.hbm, 106, rfl⟩
abbrev main_call1_v13 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_7 : Ref sig .tc := ⟨.hbm, 119, rfl⟩
abbrev main_v47 : Ref sig .tc := ⟨.hbm, 120, rfl⟩
abbrev main_v48 : Ref sig .tc := ⟨.hbm, 121, rfl⟩
abbrev main_cst_8 : Ref sig .tc := ⟨.hbm, 122, rfl⟩
abbrev main_v49 : Ref sig .tc := ⟨.hbm, 123, rfl⟩
abbrev main_v50 : Ref sig .tc := ⟨.hbm, 124, rfl⟩
abbrev main_c_9 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_c_10 : Ref sig .tc := ⟨.hbm, 156, rfl⟩
abbrev main_v59 : Ref sig .tc := ⟨.hbm, 157, rfl⟩
abbrev main_v60 : Ref sig .tc := ⟨.hbm, 158, rfl⟩
abbrev main_c_11 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_cst_12 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_cst_13 : Ref sig .tc := ⟨.hbm, 175, rfl⟩
abbrev main_v75 : Ref sig .tc := ⟨.hbm, 176, rfl⟩
abbrev main_v76 : Ref sig .tc := ⟨.hbm, 177, rfl⟩
abbrev main_cst_14 : Ref sig .tc := ⟨.hbm, 178, rfl⟩
abbrev main_v77 : Ref sig .tc := ⟨.hbm, 179, rfl⟩
abbrev main_v78 : Ref sig .tc := ⟨.hbm, 180, rfl⟩
abbrev main_c_15 : Ref sig .tc := ⟨.hbm, 181, rfl⟩
abbrev main_call3_cst : Ref sig .tc := ⟨.hbm, 182, rfl⟩
abbrev main_call3_v0 : Ref sig .tc := ⟨.hbm, 183, rfl⟩
abbrev main_call3_v1 : Ref sig .tc := ⟨.hbm, 184, rfl⟩
abbrev main_call3_cst_0 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_v7 : Ref sig .tc := ⟨.hbm, 191, rfl⟩
abbrev main_call3_cst_1 : Ref sig .tc := ⟨.hbm, 192, rfl⟩
abbrev main_call3_v8 : Ref sig .tc := ⟨.hbm, 193, rfl⟩
abbrev main_call3_cst_2 : Ref sig .tc := ⟨.hbm, 194, rfl⟩
abbrev main_call3_v9 : Ref sig .tc := ⟨.hbm, 195, rfl⟩
abbrev main_call3_v10 : Ref sig .tc := ⟨.hbm, 196, rfl⟩
abbrev main_call3_v11 : Ref sig .tc := ⟨.hbm, 197, rfl⟩
abbrev main_call3_v12 : Ref sig .tc := ⟨.hbm, 198, rfl⟩
abbrev main_call3_cst_3 : Ref sig .tc := ⟨.hbm, 199, rfl⟩
abbrev main_call3_v13 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_cst_16 : Ref sig .tc := ⟨.hbm, 217, rfl⟩
abbrev main_v92 : Ref sig .tc := ⟨.hbm, 218, rfl⟩
abbrev main_v93 : Ref sig .tc := ⟨.hbm, 219, rfl⟩
abbrev main_cst_17 : Ref sig .tc := ⟨.hbm, 220, rfl⟩
abbrev main_v94 : Ref sig .tc := ⟨.hbm, 221, rfl⟩
abbrev main_v95 : Ref sig .tc := ⟨.hbm, 222, rfl⟩
abbrev main_c_18 : Ref sig .tc := ⟨.hbm, 223, rfl⟩
abbrev main_call4_cst : Ref sig .tc := ⟨.hbm, 224, rfl⟩
abbrev main_call4_v0 : Ref sig .tc := ⟨.hbm, 225, rfl⟩
abbrev main_call4_v1 : Ref sig .tc := ⟨.hbm, 226, rfl⟩
abbrev main_call4_cst_0 : Ref sig .tc := ⟨.hbm, 227, rfl⟩
abbrev main_call4_v2 : Ref sig .tc := ⟨.hbm, 228, rfl⟩
abbrev main_call4_v3 : Ref sig .tc := ⟨.hbm, 229, rfl⟩
abbrev main_call4_v4 : Ref sig .tc := ⟨.hbm, 230, rfl⟩
abbrev main_call4_v5 : Ref sig .tc := ⟨.hbm, 231, rfl⟩
abbrev main_call4_v6 : Ref sig .tc := ⟨.hbm, 232, rfl⟩
abbrev main_call4_v7 : Ref sig .tc := ⟨.hbm, 233, rfl⟩
abbrev main_call4_cst_1 : Ref sig .tc := ⟨.hbm, 234, rfl⟩
abbrev main_call4_v8 : Ref sig .tc := ⟨.hbm, 235, rfl⟩
abbrev main_call4_cst_2 : Ref sig .tc := ⟨.hbm, 236, rfl⟩
abbrev main_call4_v9 : Ref sig .tc := ⟨.hbm, 237, rfl⟩
abbrev main_call4_v10 : Ref sig .tc := ⟨.hbm, 238, rfl⟩
abbrev main_call4_v11 : Ref sig .tc := ⟨.hbm, 239, rfl⟩
abbrev main_call4_v12 : Ref sig .tc := ⟨.hbm, 240, rfl⟩
abbrev main_call4_cst_3 : Ref sig .tc := ⟨.hbm, 241, rfl⟩
abbrev main_call4_v13 : Ref sig .tc := ⟨.hbm, 242, rfl⟩
abbrev main_call4_cst_4 : Ref sig .tc := ⟨.hbm, 243, rfl⟩
abbrev main_call4_call0_v0 : Ref sig .tc := ⟨.hbm, 244, rfl⟩
abbrev main_call4_call0_v1 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_v99 : Ref sig .tc := ⟨.hbm, 249, rfl⟩
abbrev main_v100 : Ref sig .tc := ⟨.hbm, 250, rfl⟩
abbrev main_v101 : Ref sig .tc := ⟨.hbm, 251, rfl⟩
abbrev main_v102 : Ref sig .tc := ⟨.hbm, 252, rfl⟩
abbrev main_v103 : Ref sig .tc := ⟨.hbm, 253, rfl⟩
abbrev main_cst_19 : Ref sig .tc := ⟨.hbm, 254, rfl⟩
abbrev main_v104 : Ref sig .tc := ⟨.hbm, 255, rfl⟩
abbrev main_v105 : Ref sig .tc := ⟨.hbm, 256, rfl⟩
abbrev main_cst_20 : Ref sig .tc := ⟨.hbm, 257, rfl⟩
abbrev main_v106 : Ref sig .tc := ⟨.hbm, 258, rfl⟩
abbrev main_v107 : Ref sig .tc := ⟨.hbm, 259, rfl⟩
abbrev main_c_21 : Ref sig .tc := ⟨.hbm, 260, rfl⟩
abbrev main_call5_cst : Ref sig .tc := ⟨.hbm, 261, rfl⟩
abbrev main_call5_v0 : Ref sig .tc := ⟨.hbm, 262, rfl⟩
abbrev main_call5_v1 : Ref sig .tc := ⟨.hbm, 263, rfl⟩
abbrev main_call5_cst_0 : Ref sig .tc := ⟨.hbm, 264, rfl⟩
abbrev main_call5_v2 : Ref sig .tc := ⟨.hbm, 265, rfl⟩
abbrev main_call5_v3 : Ref sig .tc := ⟨.hbm, 266, rfl⟩
abbrev main_call5_v4 : Ref sig .tc := ⟨.hbm, 267, rfl⟩
abbrev main_call5_v5 : Ref sig .tc := ⟨.hbm, 268, rfl⟩
abbrev main_call5_v6 : Ref sig .tc := ⟨.hbm, 269, rfl⟩
abbrev main_call5_v7 : Ref sig .tc := ⟨.hbm, 270, rfl⟩
abbrev main_call5_cst_1 : Ref sig .tc := ⟨.hbm, 271, rfl⟩
abbrev main_call5_v8 : Ref sig .tc := ⟨.hbm, 272, rfl⟩
abbrev main_call5_cst_2 : Ref sig .tc := ⟨.hbm, 273, rfl⟩
abbrev main_call5_v9 : Ref sig .tc := ⟨.hbm, 274, rfl⟩
abbrev main_call5_v10 : Ref sig .tc := ⟨.hbm, 275, rfl⟩
abbrev main_call5_v11 : Ref sig .tc := ⟨.hbm, 276, rfl⟩
abbrev main_call5_v12 : Ref sig .tc := ⟨.hbm, 277, rfl⟩
abbrev main_call5_cst_3 : Ref sig .tc := ⟨.hbm, 278, rfl⟩
abbrev main_call5_v13 : Ref sig .tc := ⟨.hbm, 279, rfl⟩
abbrev main_call5_cst_4 : Ref sig .tc := ⟨.hbm, 280, rfl⟩
abbrev main_call5_call0_v0 : Ref sig .tc := ⟨.hbm, 281, rfl⟩
abbrev main_call5_call0_v1 : Ref sig .tc := ⟨.hbm, 282, rfl⟩
abbrev main_v108 : Ref sig .tc := ⟨.hbm, 283, rfl⟩
abbrev main_v109 : Ref sig .tc := ⟨.hbm, 284, rfl⟩
abbrev main_v110 : Ref sig .tc := ⟨.hbm, 285, rfl⟩
abbrev main_v111 : Ref sig .tc := ⟨.hbm, 286, rfl⟩
abbrev main_v112 : Ref sig .tc := ⟨.hbm, 287, rfl⟩
abbrev main_v113 : Ref sig .tc := ⟨.hbm, 288, rfl⟩
abbrev main_v114 : Ref sig .tc := ⟨.hbm, 289, rfl⟩
abbrev main_v115 : Ref sig .tc := ⟨.hbm, 290, rfl⟩
abbrev main_c_22 : Ref sig .tc := ⟨.hbm, 291, rfl⟩
abbrev main_v116 : Ref sig .tc := ⟨.hbm, 292, rfl⟩
abbrev main_v117 : Ref sig .tc := ⟨.hbm, 293, rfl⟩
abbrev main_c_23 : Ref sig .tc := ⟨.hbm, 294, rfl⟩
abbrev main_v118 : Ref sig .tc := ⟨.hbm, 295, rfl⟩
abbrev main_v119 : Ref sig .tc := ⟨.hbm, 296, rfl⟩
abbrev main_v120 : Ref sig .tc := ⟨.hbm, 297, rfl⟩
abbrev main_v121 : Ref sig .tc := ⟨.hbm, 298, rfl⟩
abbrev main_v122 : Ref sig .tc := ⟨.hbm, 299, rfl⟩
abbrev main_cst_24 : Ref sig .tc := ⟨.hbm, 300, rfl⟩
abbrev main_v123 : Ref sig .tc := ⟨.hbm, 301, rfl⟩
abbrev main_v124 : Ref sig .tc := ⟨.hbm, 302, rfl⟩
abbrev main_v125 : Ref sig .tc := ⟨.hbm, 303, rfl⟩
abbrev main_v126 : Ref sig .tc := ⟨.hbm, 304, rfl⟩
abbrev main_v127 : Ref sig .tc := ⟨.hbm, 305, rfl⟩
abbrev main_v128 : Ref sig .tc := ⟨.hbm, 306, rfl⟩
abbrev main_v129 : Ref sig .tc := ⟨.hbm, 307, rfl⟩
abbrev main_v130 : Ref sig .tc := ⟨.hbm, 308, rfl⟩
abbrev main_v131 : Ref sig .tc := ⟨.hbm, 309, rfl⟩
abbrev main_cst_25 : Ref sig .tc := ⟨.hbm, 310, rfl⟩
abbrev main_v132 : Ref sig .tc := ⟨.hbm, 311, rfl⟩
abbrev main_v133 : Ref sig .tc := ⟨.hbm, 312, rfl⟩
abbrev main_cst_26 : Ref sig .tc := ⟨.hbm, 313, rfl⟩
abbrev main_v134 : Ref sig .tc := ⟨.hbm, 314, rfl⟩
abbrev main_v135 : Ref sig .tc := ⟨.hbm, 315, rfl⟩
abbrev main_c_27 : Ref sig .tc := ⟨.hbm, 316, rfl⟩
abbrev main_call6_cst : Ref sig .tc := ⟨.hbm, 317, rfl⟩
abbrev main_call6_v0 : Ref sig .tc := ⟨.hbm, 318, rfl⟩
abbrev main_call6_v1 : Ref sig .tc := ⟨.hbm, 319, rfl⟩
abbrev main_call6_cst_0 : Ref sig .tc := ⟨.hbm, 320, rfl⟩
abbrev main_call6_v2 : Ref sig .tc := ⟨.hbm, 321, rfl⟩
abbrev main_call6_v3 : Ref sig .tc := ⟨.hbm, 322, rfl⟩
abbrev main_call6_v4 : Ref sig .tc := ⟨.hbm, 323, rfl⟩
abbrev main_call6_v5 : Ref sig .tc := ⟨.hbm, 324, rfl⟩
abbrev main_call6_v6 : Ref sig .tc := ⟨.hbm, 325, rfl⟩
abbrev main_call6_v7 : Ref sig .tc := ⟨.hbm, 326, rfl⟩
abbrev main_call6_cst_1 : Ref sig .tc := ⟨.hbm, 327, rfl⟩
abbrev main_call6_v8 : Ref sig .tc := ⟨.hbm, 328, rfl⟩
abbrev main_call6_cst_2 : Ref sig .tc := ⟨.hbm, 329, rfl⟩
abbrev main_call6_v9 : Ref sig .tc := ⟨.hbm, 330, rfl⟩
abbrev main_call6_v10 : Ref sig .tc := ⟨.hbm, 331, rfl⟩
abbrev main_call6_v11 : Ref sig .tc := ⟨.hbm, 332, rfl⟩
abbrev main_call6_v12 : Ref sig .tc := ⟨.hbm, 333, rfl⟩
abbrev main_call6_cst_3 : Ref sig .tc := ⟨.hbm, 334, rfl⟩
abbrev main_call6_v13 : Ref sig .tc := ⟨.hbm, 335, rfl⟩
abbrev main_call6_cst_4 : Ref sig .tc := ⟨.hbm, 336, rfl⟩
abbrev main_call6_call0_v0 : Ref sig .tc := ⟨.hbm, 337, rfl⟩
abbrev main_call6_call0_v1 : Ref sig .tc := ⟨.hbm, 338, rfl⟩
abbrev main_v136 : Ref sig .tc := ⟨.hbm, 339, rfl⟩
abbrev main_v137 : Ref sig .tc := ⟨.hbm, 340, rfl⟩
abbrev main_v138 : Ref sig .tc := ⟨.hbm, 341, rfl⟩
abbrev main_v139 : Ref sig .tc := ⟨.hbm, 342, rfl⟩
abbrev main_v140 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_v144 : Ref sig .tc := ⟨.hbm, 347, rfl⟩
abbrev main_v145 : Ref sig .tc := ⟨.hbm, 348, rfl⟩
abbrev main_v146 : Ref sig .tc := ⟨.hbm, 349, rfl⟩
abbrev main_v147 : Ref sig .tc := ⟨.hbm, 350, rfl⟩
abbrev main_v148 : Ref sig .tc := ⟨.hbm, 351, rfl⟩
abbrev main_cst_28 : Ref sig .tc := ⟨.hbm, 352, rfl⟩
abbrev main_v149 : Ref sig .tc := ⟨.hbm, 353, rfl⟩
abbrev main_v150 : Ref sig .tc := ⟨.hbm, 354, rfl⟩
abbrev main_cst_29 : Ref sig .tc := ⟨.hbm, 355, rfl⟩
abbrev main_v151 : Ref sig .tc := ⟨.hbm, 356, rfl⟩
abbrev main_v152 : Ref sig .tc := ⟨.hbm, 357, rfl⟩
abbrev main_c_30 : Ref sig .tc := ⟨.hbm, 358, rfl⟩
abbrev main_call7_cst : Ref sig .tc := ⟨.hbm, 359, rfl⟩
abbrev main_call7_v0 : Ref sig .tc := ⟨.hbm, 360, rfl⟩
abbrev main_call7_v1 : Ref sig .tc := ⟨.hbm, 361, rfl⟩
abbrev main_call7_cst_0 : Ref sig .tc := ⟨.hbm, 362, rfl⟩
abbrev main_call7_v2 : Ref sig .tc := ⟨.hbm, 363, rfl⟩
abbrev main_call7_v3 : Ref sig .tc := ⟨.hbm, 364, rfl⟩
abbrev main_call7_v4 : Ref sig .tc := ⟨.hbm, 365, rfl⟩
abbrev main_call7_v5 : Ref sig .tc := ⟨.hbm, 366, rfl⟩
abbrev main_call7_v6 : Ref sig .tc := ⟨.hbm, 367, rfl⟩
abbrev main_call7_v7 : Ref sig .tc := ⟨.hbm, 368, rfl⟩
abbrev main_call7_cst_1 : Ref sig .tc := ⟨.hbm, 369, rfl⟩
abbrev main_call7_v8 : Ref sig .tc := ⟨.hbm, 370, rfl⟩
abbrev main_call7_cst_2 : Ref sig .tc := ⟨.hbm, 371, rfl⟩
abbrev main_call7_v9 : Ref sig .tc := ⟨.hbm, 372, rfl⟩
abbrev main_call7_v10 : Ref sig .tc := ⟨.hbm, 373, rfl⟩
abbrev main_call7_v11 : Ref sig .tc := ⟨.hbm, 374, rfl⟩
abbrev main_call7_v12 : Ref sig .tc := ⟨.hbm, 375, rfl⟩
abbrev main_call7_cst_3 : Ref sig .tc := ⟨.hbm, 376, rfl⟩
abbrev main_call7_v13 : Ref sig .tc := ⟨.hbm, 377, rfl⟩
abbrev main_call7_cst_4 : Ref sig .tc := ⟨.hbm, 378, rfl⟩
abbrev main_call7_call0_v0 : Ref sig .tc := ⟨.hbm, 379, rfl⟩
abbrev main_call7_call0_v1 : Ref sig .tc := ⟨.hbm, 380, rfl⟩
abbrev main_v153 : Ref sig .tc := ⟨.hbm, 381, rfl⟩
abbrev main_v154 : Ref sig .tc := ⟨.hbm, 382, rfl⟩
abbrev main_v155 : Ref sig .tc := ⟨.hbm, 383, rfl⟩
abbrev main_v156 : Ref sig .tc := ⟨.hbm, 384, rfl⟩
abbrev main_v157 : Ref sig .tc := ⟨.hbm, 385, rfl⟩
abbrev main_v158 : Ref sig .tc := ⟨.hbm, 386, rfl⟩
abbrev main_v159 : Ref sig .tc := ⟨.hbm, 387, rfl⟩
abbrev main_v160 : Ref sig .tc := ⟨.hbm, 388, rfl⟩
abbrev main_cst_31 : Ref sig .tc := ⟨.hbm, 389, rfl⟩
abbrev main_v161 : Ref sig .tc := ⟨.hbm, 390, rfl⟩
abbrev main_v162 : Ref sig .tc := ⟨.hbm, 391, rfl⟩
abbrev main_cst_32 : Ref sig .tc := ⟨.hbm, 392, rfl⟩
abbrev main_v163 : Ref sig .tc := ⟨.hbm, 393, rfl⟩
abbrev main_v164 : Ref sig .tc := ⟨.hbm, 394, rfl⟩
abbrev main_c_33 : Ref sig .tc := ⟨.hbm, 395, rfl⟩
abbrev main_call8_cst : Ref sig .tc := ⟨.hbm, 396, rfl⟩
abbrev main_call8_v0 : Ref sig .tc := ⟨.hbm, 397, rfl⟩
abbrev main_call8_v1 : Ref sig .tc := ⟨.hbm, 398, rfl⟩
abbrev main_call8_cst_0 : Ref sig .tc := ⟨.hbm, 399, rfl⟩
abbrev main_call8_v2 : Ref sig .tc := ⟨.hbm, 400, rfl⟩
abbrev main_call8_v3 : Ref sig .tc := ⟨.hbm, 401, rfl⟩
abbrev main_call8_v4 : Ref sig .tc := ⟨.hbm, 402, rfl⟩
abbrev main_call8_v5 : Ref sig .tc := ⟨.hbm, 403, rfl⟩
abbrev main_call8_v6 : Ref sig .tc := ⟨.hbm, 404, rfl⟩
abbrev main_call8_v7 : Ref sig .tc := ⟨.hbm, 405, rfl⟩
abbrev main_call8_cst_1 : Ref sig .tc := ⟨.hbm, 406, rfl⟩
abbrev main_call8_v8 : Ref sig .tc := ⟨.hbm, 407, rfl⟩
abbrev main_call8_cst_2 : Ref sig .tc := ⟨.hbm, 408, rfl⟩
abbrev main_call8_v9 : Ref sig .tc := ⟨.hbm, 409, rfl⟩
abbrev main_call8_v10 : Ref sig .tc := ⟨.hbm, 410, rfl⟩
abbrev main_call8_v11 : Ref sig .tc := ⟨.hbm, 411, rfl⟩
abbrev main_call8_v12 : Ref sig .tc := ⟨.hbm, 412, rfl⟩
abbrev main_call8_cst_3 : Ref sig .tc := ⟨.hbm, 413, rfl⟩
abbrev main_call8_v13 : Ref sig .tc := ⟨.hbm, 414, rfl⟩
abbrev main_call8_cst_4 : Ref sig .tc := ⟨.hbm, 415, rfl⟩
abbrev main_call8_call0_v0 : Ref sig .tc := ⟨.hbm, 416, rfl⟩
abbrev main_call8_call0_v1 : Ref sig .tc := ⟨.hbm, 417, rfl⟩
abbrev main_v165 : Ref sig .tc := ⟨.hbm, 418, rfl⟩
abbrev main_v166 : Ref sig .tc := ⟨.hbm, 419, rfl⟩
abbrev main_v167 : Ref sig .tc := ⟨.hbm, 420, rfl⟩
abbrev main_v168 : Ref sig .tc := ⟨.hbm, 421, rfl⟩
abbrev main_v169 : Ref sig .tc := ⟨.hbm, 422, rfl⟩
abbrev main_v170 : Ref sig .tc := ⟨.hbm, 423, rfl⟩
abbrev main_v171 : Ref sig .tc := ⟨.hbm, 424, rfl⟩
abbrev main_v172 : Ref sig .tc := ⟨.hbm, 425, rfl⟩
abbrev main_cst_34 : Ref sig .tc := ⟨.hbm, 426, rfl⟩
abbrev main_v173 : Ref sig .tc := ⟨.hbm, 427, rfl⟩
abbrev main_c_35 : Ref sig .tc := ⟨.hbm, 428, rfl⟩
abbrev main_v174 : Ref sig .tc := ⟨.hbm, 429, rfl⟩
abbrev main_v175 : Ref sig .tc := ⟨.hbm, 430, rfl⟩
abbrev main_c_36 : Ref sig .tc := ⟨.hbm, 431, rfl⟩
abbrev main_v176 : Ref sig .tc := ⟨.hbm, 432, rfl⟩
abbrev main_v177 : Ref sig .tc := ⟨.hbm, 433, rfl⟩
abbrev main_v178 : Ref sig .tc := ⟨.hbm, 434, rfl⟩
abbrev main_v179 : Ref sig .tc := ⟨.hbm, 435, rfl⟩
abbrev main_v180 : Ref sig .tc := ⟨.hbm, 436, rfl⟩
abbrev main_c_37 : Ref sig .tc := ⟨.hbm, 437, rfl⟩
abbrev main_v181 : Ref sig .tc := ⟨.hbm, 438, rfl⟩
abbrev main_v182 : Ref sig .tc := ⟨.hbm, 439, rfl⟩
abbrev main_c_38 : Ref sig .tc := ⟨.hbm, 440, rfl⟩
abbrev main_v183 : Ref sig .tc := ⟨.hbm, 441, rfl⟩
abbrev main_v184 : Ref sig .tc := ⟨.hbm, 442, rfl⟩
abbrev main_v185 : Ref sig .tc := ⟨.hbm, 443, rfl⟩
abbrev main_v186 : Ref sig .tc := ⟨.hbm, 444, rfl⟩
abbrev main_v187 : Ref sig .tc := ⟨.hbm, 445, rfl⟩
abbrev main_v188 : Ref sig .tc := ⟨.hbm, 446, rfl⟩
abbrev main_v189 : Ref sig .tc := ⟨.hbm, 447, rfl⟩
abbrev main_v190 : Ref sig .tc := ⟨.hbm, 448, rfl⟩
abbrev main_v191 : Ref sig .tc := ⟨.hbm, 449, rfl⟩
abbrev main_v192 : Ref sig .tc := ⟨.hbm, 450, rfl⟩
abbrev main_v193 : Ref sig .tc := ⟨.hbm, 451, rfl⟩
abbrev main_v194 : Ref sig .tc := ⟨.hbm, 452, rfl⟩
abbrev main_v195 : Ref sig .tc := ⟨.hbm, 453, rfl⟩
abbrev main_v196 : Ref sig .tc := ⟨.hbm, 454, rfl⟩
abbrev main_v197 : Ref sig .tc := ⟨.hbm, 455, rfl⟩
abbrev main_v198 : Ref sig .tc := ⟨.hbm, 456, rfl⟩
abbrev main_v199 : Ref sig .tc := ⟨.hbm, 457, rfl⟩
abbrev main_v200 : Ref sig .tc := ⟨.hbm, 458, rfl⟩
abbrev main_v201 : Ref sig .tc := ⟨.hbm, 459, rfl⟩
abbrev main_c_39 : Ref sig .tc := ⟨.hbm, 460, rfl⟩
abbrev main_v202 : Ref sig .tc := ⟨.hbm, 461, rfl⟩
abbrev main_v203 : Ref sig .tc := ⟨.hbm, 462, rfl⟩
abbrev main_c_40 : Ref sig .tc := ⟨.hbm, 463, rfl⟩
abbrev main_v204 : Ref sig .tc := ⟨.hbm, 464, rfl⟩
abbrev main_v205 : Ref sig .tc := ⟨.hbm, 465, rfl⟩
abbrev main_v206 : Ref sig .tc := ⟨.hbm, 466, rfl⟩
abbrev main_v207 : Ref sig .tc := ⟨.hbm, 467, rfl⟩
abbrev main_v208 : Ref sig .tc := ⟨.hbm, 468, rfl⟩
abbrev main_c_41 : Ref sig .tc := ⟨.hbm, 469, rfl⟩
abbrev main_v209 : Ref sig .tc := ⟨.hbm, 470, rfl⟩
abbrev main_v210 : Ref sig .tc := ⟨.hbm, 471, rfl⟩
abbrev main_c_42 : Ref sig .tc := ⟨.hbm, 472, rfl⟩
abbrev main_v211 : Ref sig .tc := ⟨.hbm, 473, rfl⟩
abbrev main_v212 : Ref sig .tc := ⟨.hbm, 474, rfl⟩
abbrev main_v213 : Ref sig .tc := ⟨.hbm, 475, rfl⟩
abbrev main_v214 : Ref sig .tc := ⟨.hbm, 476, rfl⟩
abbrev main_v215 : Ref sig .tc := ⟨.hbm, 477, rfl⟩
abbrev main_v216 : Ref sig .tc := ⟨.hbm, 478, rfl⟩
abbrev main_v217 : Ref sig .tc := ⟨.hbm, 479, rfl⟩
abbrev main_v218 : Ref sig .tc := ⟨.hbm, 480, rfl⟩
abbrev main_v219 : Ref sig .tc := ⟨.hbm, 481, rfl⟩
abbrev main_v220 : Ref sig .tc := ⟨.hbm, 482, rfl⟩
abbrev main_v221 : Ref sig .tc := ⟨.hbm, 483, rfl⟩
abbrev main_v222 : Ref sig .tc := ⟨.hbm, 484, rfl⟩
abbrev main_v223 : Ref sig .tc := ⟨.hbm, 485, rfl⟩
abbrev main_v224 : Ref sig .tc := ⟨.hbm, 486, rfl⟩
abbrev main_v225 : Ref sig .tc := ⟨.hbm, 487, rfl⟩
abbrev main_v226 : Ref sig .tc := ⟨.hbm, 488, rfl⟩
abbrev main_v227 : Ref sig .tc := ⟨.hbm, 489, rfl⟩
abbrev main_v228 : Ref sig .tc := ⟨.hbm, 490, rfl⟩
abbrev main_v229 : Ref sig .tc := ⟨.hbm, 491, rfl⟩
abbrev main_c_43 : Ref sig .tc := ⟨.hbm, 492, rfl⟩
abbrev main_v230 : Ref sig .tc := ⟨.hbm, 493, rfl⟩
abbrev main_v231 : Ref sig .tc := ⟨.hbm, 494, rfl⟩
abbrev main_c_44 : Ref sig .tc := ⟨.hbm, 495, rfl⟩
abbrev main_v232 : Ref sig .tc := ⟨.hbm, 496, rfl⟩
abbrev main_v233 : Ref sig .tc := ⟨.hbm, 497, rfl⟩
abbrev main_v234 : Ref sig .tc := ⟨.hbm, 498, rfl⟩
abbrev main_v235 : Ref sig .tc := ⟨.hbm, 499, rfl⟩
abbrev main_v236 : Ref sig .tc := ⟨.hbm, 500, rfl⟩
abbrev main_c_45 : Ref sig .tc := ⟨.hbm, 501, rfl⟩
abbrev main_v237 : Ref sig .tc := ⟨.hbm, 502, rfl⟩
abbrev main_v238 : Ref sig .tc := ⟨.hbm, 503, rfl⟩
abbrev main_c_46 : Ref sig .tc := ⟨.hbm, 504, rfl⟩
abbrev main_v239 : Ref sig .tc := ⟨.hbm, 505, rfl⟩
abbrev main_v240 : Ref sig .tc := ⟨.hbm, 506, rfl⟩
abbrev main_v241 : Ref sig .tc := ⟨.hbm, 507, rfl⟩
abbrev main_v242 : Ref sig .tc := ⟨.hbm, 508, rfl⟩
abbrev main_v243 : Ref sig .tc := ⟨.hbm, 509, rfl⟩
abbrev main_v244 : Ref sig .tc := ⟨.hbm, 510, rfl⟩
abbrev main_v245 : Ref sig .tc := ⟨.hbm, 511, rfl⟩
abbrev main_v246 : Ref sig .tc := ⟨.hbm, 512, rfl⟩
abbrev main_v247 : Ref sig .tc := ⟨.hbm, 513, rfl⟩
abbrev main_v248 : Ref sig .tc := ⟨.hbm, 514, rfl⟩
abbrev main_v249 : Ref sig .tc := ⟨.hbm, 515, rfl⟩
abbrev main_v250 : Ref sig .tc := ⟨.hbm, 516, rfl⟩
abbrev main_v251 : Ref sig .tc := ⟨.hbm, 517, rfl⟩
abbrev main_v252 : Ref sig .tc := ⟨.hbm, 518, rfl⟩
abbrev main_v253 : Ref sig .tc := ⟨.hbm, 519, rfl⟩
abbrev main_v254 : Ref sig .tc := ⟨.hbm, 520, rfl⟩
abbrev main_v255 : Ref sig .tc := ⟨.hbm, 521, rfl⟩
abbrev main_v256 : Ref sig .tc := ⟨.hbm, 522, rfl⟩
abbrev main_v257 : Ref sig .tc := ⟨.hbm, 523, rfl⟩
abbrev main_c_47 : Ref sig .tc := ⟨.hbm, 524, rfl⟩
abbrev main_v258 : Ref sig .tc := ⟨.hbm, 525, rfl⟩
abbrev main_v259 : Ref sig .tc := ⟨.hbm, 526, rfl⟩
abbrev main_c_48 : Ref sig .tc := ⟨.hbm, 527, rfl⟩
abbrev main_v260 : Ref sig .tc := ⟨.hbm, 528, rfl⟩
abbrev main_v261 : Ref sig .tc := ⟨.hbm, 529, rfl⟩
abbrev main_v262 : Ref sig .tc := ⟨.hbm, 530, rfl⟩
abbrev main_v263 : Ref sig .tc := ⟨.hbm, 531, rfl⟩
abbrev main_v264 : Ref sig .tc := ⟨.hbm, 532, rfl⟩
abbrev main_c_49 : Ref sig .tc := ⟨.hbm, 533, rfl⟩
abbrev main_v265 : Ref sig .tc := ⟨.hbm, 534, rfl⟩
abbrev main_v266 : Ref sig .tc := ⟨.hbm, 535, rfl⟩
abbrev main_c_50 : Ref sig .tc := ⟨.hbm, 536, rfl⟩
abbrev main_v267 : Ref sig .tc := ⟨.hbm, 537, rfl⟩
abbrev main_v268 : Ref sig .tc := ⟨.hbm, 538, rfl⟩
abbrev main_v269 : Ref sig .tc := ⟨.hbm, 539, rfl⟩
abbrev main_v270 : Ref sig .tc := ⟨.hbm, 540, rfl⟩
abbrev main_v271 : Ref sig .tc := ⟨.hbm, 541, rfl⟩
abbrev main_v272 : Ref sig .tc := ⟨.hbm, 542, rfl⟩
abbrev main_v273 : Ref sig .tc := ⟨.hbm, 543, rfl⟩
abbrev main_v274 : Ref sig .tc := ⟨.hbm, 544, rfl⟩
abbrev main_v275 : Ref sig .tc := ⟨.hbm, 545, rfl⟩
abbrev main_v276 : Ref sig .tc := ⟨.hbm, 546, rfl⟩
abbrev main_v277 : Ref sig .tc := ⟨.hbm, 547, rfl⟩
abbrev main_v278 : Ref sig .tc := ⟨.hbm, 548, rfl⟩
abbrev main_v279 : Ref sig .tc := ⟨.hbm, 549, rfl⟩
abbrev main_v280 : Ref sig .tc := ⟨.hbm, 550, rfl⟩
abbrev main_v281 : Ref sig .tc := ⟨.hbm, 551, rfl⟩
abbrev main_v282 : Ref sig .tc := ⟨.hbm, 552, rfl⟩
abbrev main_v283 : Ref sig .tc := ⟨.hbm, 553, rfl⟩
abbrev main_v284 : Ref sig .tc := ⟨.hbm, 554, rfl⟩
abbrev main_v285 : Ref sig .tc := ⟨.hbm, 555, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg7_0 : Ref sig .tc := ⟨.vmem, 56, rfl⟩
abbrev cc6_stg7_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg5_0 : Ref sig .tc := ⟨.vmem, 72, rfl⟩
abbrev cc8_stg5_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg3_0 : Ref sig .tc := ⟨.vmem, 79, rfl⟩
abbrev cc9_stg4_0 : Ref sig .tc := ⟨.vmem, 80, rfl⟩
abbrev cc9_stg4_1 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg6_0 : Ref sig .tc := ⟨.vmem, 89, rfl⟩
abbrev cc10_stg7_0 : Ref sig .tc := ⟨.vmem, 90, rfl⟩
abbrev cc10_stg7_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg2_0 : Ref sig .tc := ⟨.vmem, 95, rfl⟩
abbrev cc11_stg3_0 : Ref sig .tc := ⟨.vmem, 96, rfl⟩
abbrev cc11_stg4_0 : Ref sig .tc := ⟨.vmem, 97, rfl⟩
abbrev cc11_stg5_0 : Ref sig .tc := ⟨.vmem, 98, rfl⟩
abbrev cc11_stg5_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg2_0 : Ref sig .tc := ⟨.vmem, 103, rfl⟩
abbrev cc12_stg3_0 : Ref sig .tc := ⟨.vmem, 104, rfl⟩
abbrev cc12_stg4_0 : Ref sig .tc := ⟨.vmem, 105, rfl⟩
abbrev cc12_stg5_0 : Ref sig .tc := ⟨.vmem, 106, rfl⟩
abbrev cc12_stg5_1 : Ref sig .tc := ⟨.vmem, 107, rfl⟩
abbrev cc13_stg0_0 : Ref sig .tc := ⟨.vmem, 108, rfl⟩
abbrev cc13_stg0_1 : Ref sig .tc := ⟨.vmem, 109, rfl⟩
abbrev cc13_stg1_0 : Ref sig .tc := ⟨.vmem, 110, rfl⟩
abbrev cc13_stg1_1 : Ref sig .tc := ⟨.vmem, 111, rfl⟩
abbrev cc13_stg2_0 : Ref sig .tc := ⟨.vmem, 112, rfl⟩
abbrev cc13_stg3_0 : Ref sig .tc := ⟨.vmem, 113, rfl⟩
abbrev cc13_stg4_0 : Ref sig .tc := ⟨.vmem, 114, rfl⟩
abbrev cc13_stg5_0 : Ref sig .tc := ⟨.vmem, 115, rfl⟩
abbrev cc13_stg6_0 : Ref sig .tc := ⟨.vmem, 116, rfl⟩
abbrev cc13_stg7_0 : Ref sig .tc := ⟨.vmem, 117, rfl⟩
abbrev cc13_stg7_1 : Ref sig .tc := ⟨.vmem, 118, rfl⟩
abbrev cc14_stg0_0 : Ref sig .tc := ⟨.vmem, 119, rfl⟩
abbrev cc14_stg0_1 : Ref sig .tc := ⟨.vmem, 120, rfl⟩
abbrev cc14_stg1_0 : Ref sig .tc := ⟨.vmem, 121, rfl⟩
abbrev cc14_stg1_1 : Ref sig .tc := ⟨.vmem, 122, rfl⟩
abbrev cc14_stg2_0 : Ref sig .tc := ⟨.vmem, 123, rfl⟩
abbrev cc14_stg3_0 : Ref sig .tc := ⟨.vmem, 124, rfl⟩
abbrev cc14_stg4_0 : Ref sig .tc := ⟨.vmem, 125, rfl⟩
abbrev cc14_stg5_0 : Ref sig .tc := ⟨.vmem, 126, rfl⟩
abbrev cc14_stg6_0 : Ref sig .tc := ⟨.vmem, 127, rfl⟩
abbrev cc14_stg7_0 : Ref sig .tc := ⟨.vmem, 128, rfl⟩
abbrev cc14_stg7_1 : Ref sig .tc := ⟨.vmem, 129, rfl⟩
abbrev cc15_stg0_0 : Ref sig .tc := ⟨.vmem, 130, rfl⟩
abbrev cc15_stg0_1 : Ref sig .tc := ⟨.vmem, 131, rfl⟩
abbrev cc15_stg1_0 : Ref sig .tc := ⟨.vmem, 132, rfl⟩
abbrev cc15_stg1_1 : Ref sig .tc := ⟨.vmem, 133, rfl⟩
abbrev cc15_stg2_0 : Ref sig .tc := ⟨.vmem, 134, rfl⟩
abbrev cc15_stg3_0 : Ref sig .tc := ⟨.vmem, 135, rfl⟩
abbrev cc15_stg4_0 : Ref sig .tc := ⟨.vmem, 136, rfl⟩
abbrev cc15_stg5_0 : Ref sig .tc := ⟨.vmem, 137, rfl⟩
abbrev cc15_stg6_0 : Ref sig .tc := ⟨.vmem, 138, rfl⟩
abbrev cc15_stg7_0 : Ref sig .tc := ⟨.vmem, 139, rfl⟩
abbrev cc15_stg7_1 : Ref sig .tc := ⟨.vmem, 140, rfl⟩
abbrev cc16_stg0_0 : Ref sig .tc := ⟨.vmem, 141, rfl⟩
abbrev cc16_stg0_1 : Ref sig .tc := ⟨.vmem, 142, rfl⟩
abbrev cc16_stg1_0 : Ref sig .tc := ⟨.vmem, 143, rfl⟩
abbrev cc16_stg1_1 : Ref sig .tc := ⟨.vmem, 144, rfl⟩
abbrev cc16_stg2_0 : Ref sig .tc := ⟨.vmem, 145, rfl⟩
abbrev cc16_stg3_0 : Ref sig .tc := ⟨.vmem, 146, rfl⟩
abbrev cc16_stg4_0 : Ref sig .tc := ⟨.vmem, 147, rfl⟩
abbrev cc16_stg5_0 : Ref sig .tc := ⟨.vmem, 148, rfl⟩
abbrev cc16_stg6_0 : Ref sig .tc := ⟨.vmem, 149, rfl⟩
abbrev cc16_stg7_0 : Ref sig .tc := ⟨.vmem, 150, rfl⟩
abbrev cc16_stg7_1 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem6_0 : DmaSem sig := 55
abbrev cc6_sem7_0 : DmaSem sig := 56
abbrev cc6_sem7_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem4_0 : DmaSem sig := 71
abbrev cc8_sem5_0 : DmaSem sig := 72
abbrev cc8_sem5_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem3_0 : DmaSem sig := 79
abbrev cc9_sem4_0 : DmaSem sig := 80
abbrev cc9_sem4_1 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem6_0 : DmaSem sig := 89
abbrev cc10_sem7_0 : DmaSem sig := 90
abbrev cc10_sem7_1 : DmaSem sig := 91
abbrev cc11_sem0_0 : DmaSem sig := 92
abbrev cc11_sem0_1 : DmaSem sig := 93
abbrev cc11_sem1_0 : DmaSem sig := 94
abbrev cc11_sem2_0 : DmaSem sig := 95
abbrev cc11_sem3_0 : DmaSem sig := 96
abbrev cc11_sem4_0 : DmaSem sig := 97
abbrev cc11_sem5_0 : DmaSem sig := 98
abbrev cc11_sem5_1 : DmaSem sig := 99
abbrev cc12_sem0_0 : DmaSem sig := 100
abbrev cc12_sem0_1 : DmaSem sig := 101
abbrev cc12_sem1_0 : DmaSem sig := 102
abbrev cc12_sem2_0 : DmaSem sig := 103
abbrev cc12_sem3_0 : DmaSem sig := 104
abbrev cc12_sem4_0 : DmaSem sig := 105
abbrev cc12_sem5_0 : DmaSem sig := 106
abbrev cc12_sem5_1 : DmaSem sig := 107
abbrev cc13_sem0_0 : DmaSem sig := 108
abbrev cc13_sem0_1 : DmaSem sig := 109
abbrev cc13_sem1_0 : DmaSem sig := 110
abbrev cc13_sem1_1 : DmaSem sig := 111
abbrev cc13_sem2_0 : DmaSem sig := 112
abbrev cc13_sem3_0 : DmaSem sig := 113
abbrev cc13_sem4_0 : DmaSem sig := 114
abbrev cc13_sem5_0 : DmaSem sig := 115
abbrev cc13_sem6_0 : DmaSem sig := 116
abbrev cc13_sem7_0 : DmaSem sig := 117
abbrev cc13_sem7_1 : DmaSem sig := 118
abbrev cc14_sem0_0 : DmaSem sig := 119
abbrev cc14_sem0_1 : DmaSem sig := 120
abbrev cc14_sem1_0 : DmaSem sig := 121
abbrev cc14_sem1_1 : DmaSem sig := 122
abbrev cc14_sem2_0 : DmaSem sig := 123
abbrev cc14_sem3_0 : DmaSem sig := 124
abbrev cc14_sem4_0 : DmaSem sig := 125
abbrev cc14_sem5_0 : DmaSem sig := 126
abbrev cc14_sem6_0 : DmaSem sig := 127
abbrev cc14_sem7_0 : DmaSem sig := 128
abbrev cc14_sem7_1 : DmaSem sig := 129
abbrev cc15_sem0_0 : DmaSem sig := 130
abbrev cc15_sem0_1 : DmaSem sig := 131
abbrev cc15_sem1_0 : DmaSem sig := 132
abbrev cc15_sem1_1 : DmaSem sig := 133
abbrev cc15_sem2_0 : DmaSem sig := 134
abbrev cc15_sem3_0 : DmaSem sig := 135
abbrev cc15_sem4_0 : DmaSem sig := 136
abbrev cc15_sem5_0 : DmaSem sig := 137
abbrev cc15_sem6_0 : DmaSem sig := 138
abbrev cc15_sem7_0 : DmaSem sig := 139
abbrev cc15_sem7_1 : DmaSem sig := 140
abbrev cc16_sem0_0 : DmaSem sig := 141
abbrev cc16_sem0_1 : DmaSem sig := 142
abbrev cc16_sem1_0 : DmaSem sig := 143
abbrev cc16_sem1_1 : DmaSem sig := 144
abbrev cc16_sem2_0 : DmaSem sig := 145
abbrev cc16_sem3_0 : DmaSem sig := 146
abbrev cc16_sem4_0 : DmaSem sig := 147
abbrev cc16_sem5_0 : DmaSem sig := 148
abbrev cc16_sem6_0 : DmaSem sig := 149
abbrev cc16_sem7_0 : DmaSem sig := 150
abbrev cc16_sem7_1 : DmaSem sig := 151

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S10000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S16000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S16000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S64x2 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x2 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S16000x2 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S16000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S16000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S64x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x2 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x2 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S16000x2 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S16000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S16000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S64x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S64x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S64x2 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x2 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S16000x2 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S16000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S16000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S64x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S64x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S64x2 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x2 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 2 → Memref sig .tc .vmem S16000x2 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  shapeCasts_S64x64_S64x64 : S64x64.ShapeCasts S64x64
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S800000x2 : S_.BroadcastsInDim S800000x2 (![] : Fin 0 → Fin S800000x2.rank)
  slices_S4x128x64_S1x64x64_0_0_0 : S4x128x64.Slices ![0, 0, 0] S1x64x64
  slices_S4x128x64_S1x64x64_0_64_0 : S4x128x64.Slices ![0, 64, 0] S1x64x64
  slices_S4x64_S1x64_0_0 : S4x64.Slices ![0, 0] S1x64
  slices_S4x64x2_S1x64x2_0_0_0 : S4x64x2.Slices ![0, 0, 0] S1x64x2
  shapeCasts_S1x64x2_S64x2 : S1x64x2.ShapeCasts S64x2
  slices_S4x2_S1x2_0_0 : S4x2.Slices ![0, 0] S1x2
  shapeCasts_S1x2_S2 : S1x2.ShapeCasts S2
  shapeCasts_S2_S1x2 : S2.ShapeCasts S1x2
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  broadcasts_S1x64_S16000x64 : S1x64.Broadcasts S16000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16000x2 : S1x2.Broadcasts S16000x2
  inb_S16000x2_S16000x2_0_0 : ∀ a, (![0, 0] : Fin 2 → Nat) a + S16000x2.size a ≤ S16000x2.size a
  h_S16000x2 : 0 < S16000x2.numel
  slices_S4x128x64_S1x64x64_1_0_0 : S4x128x64.Slices ![1, 0, 0] S1x64x64
  slices_S4x128x64_S1x64x64_1_64_0 : S4x128x64.Slices ![1, 64, 0] S1x64x64
  slices_S4x64_S1x64_1_0 : S4x64.Slices ![1, 0] S1x64
  slices_S4x64x2_S1x64x2_1_0_0 : S4x64x2.Slices ![1, 0, 0] S1x64x2
  slices_S4x2_S1x2_1_0 : S4x2.Slices ![1, 0] S1x2
  slices_S4x128x64_S1x64x64_2_0_0 : S4x128x64.Slices ![2, 0, 0] S1x64x64
  slices_S4x128x64_S1x64x64_2_64_0 : S4x128x64.Slices ![2, 64, 0] S1x64x64
  slices_S4x64_S1x64_2_0 : S4x64.Slices ![2, 0] S1x64
  slices_S4x64x2_S1x64x2_2_0_0 : S4x64x2.Slices ![2, 0, 0] S1x64x2
  slices_S4x2_S1x2_2_0 : S4x2.Slices ![2, 0] S1x2
  slices_S4x128x64_S1x64x64_3_0_0 : S4x128x64.Slices ![3, 0, 0] S1x64x64
  slices_S4x128x64_S1x64x64_3_64_0 : S4x128x64.Slices ![3, 64, 0] S1x64x64
  slices_S4x64_S1x64_3_0 : S4x64.Slices ![3, 0] S1x64
  slices_S4x64x2_S1x64x2_3_0_0 : S4x64x2.Slices ![3, 0, 0] S1x64x2
  slices_S4x2_S1x2_3_0 : S4x2.Slices ![3, 0] S1x2
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S16000x64_S64x64_S16000x64_1_0_0_1_n_n_wf : DotDims.WF S16000x64 S64x64 S16000x64 [1] [0] [0] [1] [] []
  dot_S16000x64_S64x2_S16000x2_1_0_0_1_n_n_wf : DotDims.WF S16000x64 S64x2 S16000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S50000x64.size a
  hwx2_7 : ∀ i : grid2.Coords, EltTy.bits .f32 = 32 ∨ (Rect.block (s := S50000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S50000x64.size a
  hwx5_4 : ∀ i : grid5.Coords, EltTy.bits .f32 = 32 ∨ (Rect.block (s := S50000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x64.size a ≤ S50000x64.size a
  hwx6_7 : ∀ i : grid6.Coords, EltTy.bits .f32 = 32 ∨ (Rect.block (s := S50000x64) S10000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S50000x64.size a
  hwx7_5 : ∀ i : grid7.Coords, EltTy.bits .f32 = 32 ∨ (Rect.block (s := S50000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S50000x64.size a
  hwx8_5 : ∀ i : grid8.Coords, EltTy.bits .f32 = 32 ∨ (Rect.block (s := S50000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S50000x64.size a
  hwx9_1 : ∀ i : grid9.Coords, EltTy.bits .f32 = 32 ∨ (Rect.block (s := S50000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x64.size a ≤ S50000x64.size a
  hwx9_4 : ∀ i : grid9.Coords, EltTy.bits .f32 = 32 ∨ (Rect.block (s := S50000x64) S10000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S10000x64.size a ≤ S50000x64.size a
  hwx10_7 : ∀ i : grid10.Coords, EltTy.bits .f32 = 32 ∨ (Rect.block (s := S50000x64) S10000x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S50000x64.size a
  hwx11_0 : ∀ i : grid11.Coords, EltTy.bits .f32 = 32 ∨ (Rect.block (s := S50000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S50000x64.size a
  hwx11_5 : ∀ i : grid11.Coords, EltTy.bits .f32 = 32 ∨ (Rect.block (s := S50000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S50000x64.size a
  hwx12_0 : ∀ i : grid12.Coords, EltTy.bits .f32 = 32 ∨ (Rect.block (s := S50000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x64.size a ≤ S50000x64.size a
  hwx12_5 : ∀ i : grid12.Coords, EltTy.bits .f32 = 32 ∨ (Rect.block (s := S50000x64) S10000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S16000x64.size a ≤ S800000x64.size a
  hwx13_0 : ∀ i : grid13.Coords, EltTy.bits .f32 = 32 ∨ (Rect.block (s := S800000x64) S16000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S16000x64.size a ≤ S800000x64.size a
  hwx13_1 : ∀ i : grid13.Coords, EltTy.bits .f32 = 32 ∨ (Rect.block (s := S800000x64) S16000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x64.size a ≤ S64x64.size a
  hwx13_2 : ∀ i : grid13.Coords, EltTy.bits .f32 = 32 ∨ (Rect.block (s := S64x64) S64x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x64.size a ≤ S64x64.size a
  hwx13_3 : ∀ i : grid13.Coords, EltTy.bits .f32 = 32 ∨ (Rect.block (s := S64x64) S64x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S64x2.size a ≤ S64x2.size a
  hwx13_5 : ∀ i : grid13.Coords, EltTy.bits .f32 = 32 ∨ (Rect.block (s := S64x2) S64x2.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x2.size a ≤ S1x2.size a
  hwx13_6 : ∀ i : grid13.Coords, EltTy.bits .f32 = 32 ∨ (Rect.block (s := S1x2) S1x2.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S16000x2.size a ≤ S800000x2.size a
  hwx13_7 : ∀ i : grid13.Coords, EltTy.bits .f32 = 32 ∨ (Rect.block (s := S800000x2) S16000x2.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S16000x64.size a ≤ S800000x64.size a
  hwx14_0 : ∀ i : grid14.Coords, EltTy.bits .f32 = 32 ∨ (Rect.block (s := S800000x64) S16000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S16000x64.size a ≤ S800000x64.size a
  hwx14_1 : ∀ i : grid14.Coords, EltTy.bits .f32 = 32 ∨ (Rect.block (s := S800000x64) S16000x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x64.size a ≤ S64x64.size a
  hwx14_2 : ∀ i : grid14.Coords, EltTy.bits .f32 = 32 ∨ (Rect.block (s := S64x64) S64x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x64.size a ≤ S64x64.size a
  hwx14_3 : ∀ i : grid14.Coords, EltTy.bits .f32 = 32 ∨ (Rect.block (s := S64x64) S64x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x2.size a ≤ S64x2.size a
  hwx14_5 : ∀ i : grid14.Coords, EltTy.bits .f32 = 32 ∨ (Rect.block (s := S64x2) S64x2.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x2.size a ≤ S1x2.size a
  hwx14_6 : ∀ i : grid14.Coords, EltTy.bits .f32 = 32 ∨ (Rect.block (s := S1x2) S1x2.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S16000x2.size a ≤ S800000x2.size a
  hwx14_7 : ∀ i : grid14.Coords, EltTy.bits .f32 = 32 ∨ (Rect.block (s := S800000x2) S16000x2.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S16000x64.size a ≤ S800000x64.size a
  hwx15_0 : ∀ i : grid15.Coords, EltTy.bits .f32 = 32 ∨ (Rect.block (s := S800000x64) S16000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S16000x64.size a ≤ S800000x64.size a
  hwx15_1 : ∀ i : grid15.Coords, EltTy.bits .f32 = 32 ∨ (Rect.block (s := S800000x64) S16000x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S64x64.size a ≤ S64x64.size a
  hwx15_2 : ∀ i : grid15.Coords, EltTy.bits .f32 = 32 ∨ (Rect.block (s := S64x64) S64x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S64x64.size a ≤ S64x64.size a
  hwx15_3 : ∀ i : grid15.Coords, EltTy.bits .f32 = 32 ∨ (Rect.block (s := S64x64) S64x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S64x2.size a ≤ S64x2.size a
  hwx15_5 : ∀ i : grid15.Coords, EltTy.bits .f32 = 32 ∨ (Rect.block (s := S64x2) S64x2.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x2.size a ≤ S1x2.size a
  hwx15_6 : ∀ i : grid15.Coords, EltTy.bits .f32 = 32 ∨ (Rect.block (s := S1x2) S1x2.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S16000x2.size a ≤ S800000x2.size a
  hwx15_7 : ∀ i : grid15.Coords, EltTy.bits .f32 = 32 ∨ (Rect.block (s := S800000x2) S16000x2.size (cc15_transform_7 i) (hinb15_7 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S16000x64.size a ≤ S800000x64.size a
  hwx16_0 : ∀ i : grid16.Coords, EltTy.bits .f32 = 32 ∨ (Rect.block (s := S800000x64) S16000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S16000x64.size a ≤ S800000x64.size a
  hwx16_1 : ∀ i : grid16.Coords, EltTy.bits .f32 = 32 ∨ (Rect.block (s := S800000x64) S16000x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S64x64.size a ≤ S64x64.size a
  hwx16_2 : ∀ i : grid16.Coords, EltTy.bits .f32 = 32 ∨ (Rect.block (s := S64x64) S64x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S64x64.size a ≤ S64x64.size a
  hwx16_3 : ∀ i : grid16.Coords, EltTy.bits .f32 = 32 ∨ (Rect.block (s := S64x64) S64x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S64x2.size a ≤ S64x2.size a
  hwx16_5 : ∀ i : grid16.Coords, EltTy.bits .f32 = 32 ∨ (Rect.block (s := S64x2) S64x2.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x2.size a ≤ S1x2.size a
  hwx16_6 : ∀ i : grid16.Coords, EltTy.bits .f32 = 32 ∨ (Rect.block (s := S1x2) S1x2.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S16000x2.size a ≤ S800000x2.size a
  hwx16_7 : ∀ i : grid16.Coords, EltTy.bits .f32 = 32 ∨ (Rect.block (s := S800000x2) S16000x2.size (cc16_transform_7 i) (hinb16_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x64_S64x2_S16000x2_1_0_0_1_n_n : DotDims S16000x64 S64x2 S16000x2 where
  lhsContracting := [1]
  rhsContracting := [0]
  lhsNonContracting := [0]
  rhsNonContracting := [1]
  lhsBatch := []
  rhsBatch := []
  wf := dot_S16000x64_S64x2_S16000x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v34) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v34) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v58) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v74) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v90) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v91) S10000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v91) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v99) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v103) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v108) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v111) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v114) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v115) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v127) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v130) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v131) S10000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v131) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v136) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v139) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v142) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v144) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v147) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v148) S10000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v148) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v152) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v153) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v156) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v159) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v160) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v160) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v164) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v165) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v168) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v171) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v172) S10000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v180) S16000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v187) S16000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v189) S64x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v191) S64x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v194) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v196) S64x2.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v199) S1x2.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v200) S16000x2.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v208) S16000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v215) S16000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v217) S64x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v219) S64x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v222) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v224) S64x2.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v227) S1x2.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v228) S16000x2.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v236) S16000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v243) S16000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v245) S64x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v247) S64x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v250) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v252) S64x2.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v255) S1x2.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v256) S16000x2.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

abbrev win16_0 : Pipeline.Window sig grid16 :=
  Pipeline.Window.ofSpec (Memref.whole main_v264) S16000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v271) S16000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v273) S64x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v275) S64x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v278) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v280) S64x2.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v283) S1x2.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v284) S16000x2.size cc16_transform_7 reads16_7 true false 2 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S4x128x64 : Shape := ⟨3, ![4, 128, 64]⟩
abbrev S4x64 : Shape := ⟨2, ![4, 64]⟩
abbrev S4x64x2 : Shape := ⟨3, ![4, 64, 2]⟩
abbrev S4x2 : Shape := ⟨2, ![4, 2]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64x64 : Shape := ⟨3, ![1, 64, 64]⟩
abbrev S800000x2 : Shape := ⟨2, ![800000, 2]⟩
abbrev S1x128x64 : Shape := ⟨3, ![1, 128, 64]⟩
abbrev S128x64 : Shape := ⟨2, ![128, 64]⟩
abbrev S1x64x2 : Shape := ⟨3, ![1, 64, 2]⟩
abbrev S64x2 : Shape := ⟨2, ![64, 2]⟩
abbrev S1x2 : Shape := ⟨2, ![1, 2]⟩
abbrev S2 : Shape := ⟨1, ![2]⟩

abbrev nBuf : Space → Nat
  | .hbm => 730
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x64, .f32⟩
  | 4 => ⟨S64, .f32⟩
  | 5 => ⟨S3x64x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S4x128x64, .f32⟩
  | 16 => ⟨S4x64, .f32⟩
  | 17 => ⟨S4x64x2, .f32⟩
  | 18 => ⟨S4x2, .f32⟩
  | 19 => ⟨S50000x64, .f32⟩
  | 20 => ⟨S1x64, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S50000x64, .f32⟩
  | 56 => ⟨S1x64x64, .f32⟩
  | 57 => ⟨S64x64, .f32⟩
  | 58 => ⟨S50000x64, .f32⟩
  | 59 => ⟨S1x64, .f32⟩
  | 60 => ⟨S64, .f32⟩
  | 61 => ⟨S1x64, .f32⟩
  | 62 => ⟨S50000x64, .f32⟩
  | 63 => ⟨S50000x64, .f32⟩
  | 64 => ⟨S1x64, .f32⟩
  | 65 => ⟨S64, .f32⟩
  | 66 => ⟨S1x64, .f32⟩
  | 67 => ⟨S64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S64, .f32⟩
  | 104 => ⟨S64, .f32⟩
  | 105 => ⟨S64, .f32⟩
  | 106 => ⟨S1x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S64, .f32⟩
  | 127 => ⟨S_, .f32⟩
  | _ => ⟨S50000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S50000x64, .f32⟩
  | 12 => ⟨S50000x64, .f32⟩
  | 13 => ⟨S50000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S64, .f32⟩
  | 35 => ⟨S64, .f32⟩
  | 36 => ⟨S64, .f32⟩
  | 37 => ⟨S1x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S1x64, .f32⟩
  | 47 => ⟨S64, .f32⟩
  | 48 => ⟨S1x64, .f32⟩
  | 49 => ⟨S64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S50000x64, .f32⟩
  | 63 => ⟨S50000x64, .f32⟩
  | 64 => ⟨S50000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_2 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S1x64, .f32⟩
  | 6 => ⟨S64, .f32⟩
  | 7 => ⟨S1x64, .f32⟩
  | 8 => ⟨S50000x64, .f32⟩
  | 9 => ⟨S50000x64, .f32⟩
  | 10 => ⟨S1x64, .f32⟩
  | 11 => ⟨S64, .f32⟩
  | 12 => ⟨S1x64, .f32⟩
  | 13 => ⟨S64, .f32⟩
  | 14 => ⟨S_, .f32⟩
  | 15 => ⟨S64, .f32⟩
  | 16 => ⟨S_, .f32⟩
  | 17 => ⟨S64, .f32⟩
  | 18 => ⟨S64, .f32⟩
  | 19 => ⟨S_, .i32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S50000x64, .f32⟩
  | 27 => ⟨S50000x64, .f32⟩
  | 28 => ⟨S50000x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S64, .f32⟩
  | 36 => ⟨S_, .f32⟩
  | 37 => ⟨S_, .i1⟩
  | 38 => ⟨S_, .f32⟩
  | 39 => ⟨S_, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S64, .f32⟩
  | 50 => ⟨S64, .f32⟩
  | 51 => ⟨S64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S1x64x64, .f32⟩
  | 62 => ⟨S64x64, .f32⟩
  | 63 => ⟨S50000x64, .f32⟩
  | 64 => ⟨S1x64, .f32⟩
  | 65 => ⟨S64, .f32⟩
  | 66 => ⟨S1x64, .f32⟩
  | 67 => ⟨S50000x64, .f32⟩
  | 68 => ⟨S50000x64, .f32⟩
  | 69 => ⟨S1x64, .f32⟩
  | 70 => ⟨S64, .f32⟩
  | 71 => ⟨S1x64, .f32⟩
  | 72 => ⟨S64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S64, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S1x64, .f32⟩
  | 121 => ⟨S64, .f32⟩
  | 122 => ⟨S1x64, .f32⟩
  | 123 => ⟨S64, .f32⟩
  | 124 => ⟨S_, .f32⟩
  | 125 => ⟨S64, .f32⟩
  | 126 => ⟨S_, .f32⟩
  | 127 => ⟨S64, .f32⟩
  | _ => ⟨S50000x64, .f32⟩

abbrev hbmTy0_3 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S50000x64, .f32⟩
  | 9 => ⟨S50000x64, .f32⟩
  | 10 => ⟨S50000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x64, .f32⟩
  | 76 => ⟨S1x64x64, .f32⟩
  | 77 => ⟨S64x64, .f32⟩
  | 78 => ⟨S50000x64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S64, .f32⟩
  | 86 => ⟨S1x64, .f32⟩
  | 87 => ⟨S64, .f32⟩
  | 88 => ⟨S_, .f32⟩
  | 89 => ⟨S64, .f32⟩
  | 90 => ⟨S_, .f32⟩
  | 91 => ⟨S64, .f32⟩
  | 92 => ⟨S64, .f32⟩
  | 93 => ⟨S_, .i32⟩
  | 94 => ⟨S_, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S50000x64, .f32⟩
  | 101 => ⟨S50000x64, .f32⟩
  | 102 => ⟨S50000x64, .f32⟩
  | 103 => ⟨S_, .f32⟩
  | 104 => ⟨S_, .f32⟩
  | 105 => ⟨S_, .f32⟩
  | 106 => ⟨S_, .f32⟩
  | 107 => ⟨S64, .f32⟩
  | 108 => ⟨S64, .f32⟩
  | 109 => ⟨S64, .f32⟩
  | 110 => ⟨S_, .f32⟩
  | 111 => ⟨S_, .i1⟩
  | 112 => ⟨S_, .f32⟩
  | 113 => ⟨S_, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S64, .f32⟩
  | 124 => ⟨S64, .f32⟩
  | 125 => ⟨S64, .f32⟩
  | 126 => ⟨S1x64, .f32⟩
  | 127 => ⟨S50000x64, .f32⟩
  | _ => ⟨S50000x64, .f32⟩

abbrev hbmTy0_4 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S1x64x64, .f32⟩
  | 8 => ⟨S64x64, .f32⟩
  | 9 => ⟨S50000x64, .f32⟩
  | 10 => ⟨S1x64, .f32⟩
  | 11 => ⟨S64, .f32⟩
  | 12 => ⟨S1x64, .f32⟩
  | 13 => ⟨S50000x64, .f32⟩
  | 14 => ⟨S50000x64, .f32⟩
  | 15 => ⟨S1x64, .f32⟩
  | 16 => ⟨S64, .f32⟩
  | 17 => ⟨S1x64, .f32⟩
  | 18 => ⟨S64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S1x64, .f32⟩
  | 67 => ⟨S64, .f32⟩
  | 68 => ⟨S1x64, .f32⟩
  | 69 => ⟨S64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S50000x64, .f32⟩
  | 83 => ⟨S50000x64, .f32⟩
  | 84 => ⟨S50000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S64, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S_, .i32⟩
  | 127 => ⟨S800000, .i32⟩
  | _ => ⟨S50000x64, .f32⟩

abbrev hbmTy0_5 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x128, .f32⟩
  | 8 => ⟨S_, .f32⟩
  | 9 => ⟨S800000x2, .f32⟩
  | 10 => ⟨S1x128x64, .f32⟩
  | 11 => ⟨S128x64, .f32⟩
  | 12 => ⟨S800000x64, .f32⟩
  | 13 => ⟨S1x64, .f32⟩
  | 14 => ⟨S64, .f32⟩
  | 15 => ⟨S1x64, .f32⟩
  | 16 => ⟨S800000x64, .f32⟩
  | 17 => ⟨S800000x64, .f32⟩
  | 18 => ⟨S_, .f32⟩
  | 19 => ⟨S800000x64, .f32⟩
  | 20 => ⟨S800000x64, .f32⟩
  | 21 => ⟨S1x64x2, .f32⟩
  | 22 => ⟨S64x2, .f32⟩
  | 23 => ⟨S800000x2, .f32⟩
  | 24 => ⟨S800000x2, .f32⟩
  | 25 => ⟨S1x2, .f32⟩
  | 26 => ⟨S2, .f32⟩
  | 27 => ⟨S1x2, .f32⟩
  | 28 => ⟨S800000x2, .f32⟩
  | 29 => ⟨S800000x2, .f32⟩
  | 30 => ⟨S1x128x64, .f32⟩
  | 31 => ⟨S128x64, .f32⟩
  | 32 => ⟨S800000x64, .f32⟩
  | 33 => ⟨S1x64, .f32⟩
  | 34 => ⟨S64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S1x64x2, .f32⟩
  | 42 => ⟨S64x2, .f32⟩
  | 43 => ⟨S800000x2, .f32⟩
  | 44 => ⟨S800000x2, .f32⟩
  | 45 => ⟨S1x2, .f32⟩
  | 46 => ⟨S2, .f32⟩
  | 47 => ⟨S1x2, .f32⟩
  | 48 => ⟨S800000x2, .f32⟩
  | 49 => ⟨S800000x2, .f32⟩
  | 50 => ⟨S1x128x64, .f32⟩
  | 51 => ⟨S128x64, .f32⟩
  | 52 => ⟨S800000x64, .f32⟩
  | 53 => ⟨S1x64, .f32⟩
  | 54 => ⟨S64, .f32⟩
  | 55 => ⟨S1x64, .f32⟩
  | 56 => ⟨S800000x64, .f32⟩
  | 57 => ⟨S800000x64, .f32⟩
  | 58 => ⟨S_, .f32⟩
  | 59 => ⟨S800000x64, .f32⟩
  | 60 => ⟨S800000x64, .f32⟩
  | 61 => ⟨S1x64x2, .f32⟩
  | 62 => ⟨S64x2, .f32⟩
  | 63 => ⟨S800000x2, .f32⟩
  | 64 => ⟨S800000x2, .f32⟩
  | 65 => ⟨S1x2, .f32⟩
  | 66 => ⟨S2, .f32⟩
  | 67 => ⟨S1x2, .f32⟩
  | 68 => ⟨S800000x2, .f32⟩
  | 69 => ⟨S800000x2, .f32⟩
  | 70 => ⟨S1x128x64, .f32⟩
  | 71 => ⟨S128x64, .f32⟩
  | 72 => ⟨S800000x64, .f32⟩
  | 73 => ⟨S1x64, .f32⟩
  | 74 => ⟨S64, .f32⟩
  | 75 => ⟨S1x64, .f32⟩
  | 76 => ⟨S800000x64, .f32⟩
  | 77 => ⟨S800000x64, .f32⟩
  | 78 => ⟨S_, .f32⟩
  | 79 => ⟨S800000x64, .f32⟩
  | 80 => ⟨S800000x64, .f32⟩
  | 81 => ⟨S1x64x2, .f32⟩
  | 82 => ⟨S64x2, .f32⟩
  | 83 => ⟨S800000x2, .f32⟩
  | 84 => ⟨S800000x2, .f32⟩
  | 85 => ⟨S1x2, .f32⟩
  | 86 => ⟨S2, .f32⟩
  | 87 => ⟨S1x2, .f32⟩
  | 88 => ⟨S800000x2, .f32⟩
  | 89 => ⟨S800000x2, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_c_7 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_cst_3 : Ref sig .tc := ⟨.hbm, 90, rfl⟩
abbrev main_call0_v12 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_8 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_call1_cst : Ref sig .tc := ⟨.hbm, 112, rfl⟩
abbrev main_call1_v0 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_9 : Ref sig .tc := ⟨.hbm, 127, rfl⟩
abbrev main_v74 : Ref sig .tc := ⟨.hbm, 128, rfl⟩
abbrev main_cst_10 : Ref sig .tc := ⟨.hbm, 129, rfl⟩
abbrev main_v75 : Ref sig .tc := ⟨.hbm, 130, rfl⟩
abbrev main_v76 : Ref sig .tc := ⟨.hbm, 131, rfl⟩
abbrev main_c_11 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_cst_2 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_cst_3 : Ref sig .tc := ⟨.hbm, 149, rfl⟩
abbrev main_call2_v12 : Ref sig .tc := ⟨.hbm, 150, rfl⟩
abbrev main_call2_cst_4 : Ref sig .tc := ⟨.hbm, 151, rfl⟩
abbrev main_call2_call0_v0 : Ref sig .tc := ⟨.hbm, 152, rfl⟩
abbrev main_call2_call0_v1 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_cst_12 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_call3_cst : Ref sig .tc := ⟨.hbm, 171, rfl⟩
abbrev main_call3_v0 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_cst_13 : Ref sig .tc := ⟨.hbm, 178, rfl⟩
abbrev main_v98 : Ref sig .tc := ⟨.hbm, 179, rfl⟩
abbrev main_cst_14 : Ref sig .tc := ⟨.hbm, 180, rfl⟩
abbrev main_v99 : Ref sig .tc := ⟨.hbm, 181, rfl⟩
abbrev main_v100 : Ref sig .tc := ⟨.hbm, 182, rfl⟩
abbrev main_c_15 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_cst_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_v7 : Ref sig .tc := ⟨.hbm, 193, rfl⟩
abbrev main_call4_cst_1 : Ref sig .tc := ⟨.hbm, 194, rfl⟩
abbrev main_call4_v8 : Ref sig .tc := ⟨.hbm, 195, rfl⟩
abbrev main_call4_cst_2 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_cst_3 : Ref sig .tc := ⟨.hbm, 200, rfl⟩
abbrev main_call4_v12 : Ref sig .tc := ⟨.hbm, 201, rfl⟩
abbrev main_call4_cst_4 : Ref sig .tc := ⟨.hbm, 202, rfl⟩
abbrev main_call4_call0_v0 : Ref sig .tc := ⟨.hbm, 203, rfl⟩
abbrev main_call4_call0_v1 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_cst_16 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_call5_cst : Ref sig .tc := ⟨.hbm, 222, rfl⟩
abbrev main_call5_v0 : Ref sig .tc := ⟨.hbm, 223, rfl⟩
abbrev main_v117 : Ref sig .tc := ⟨.hbm, 224, rfl⟩
abbrev main_c_17 : Ref sig .tc := ⟨.hbm, 225, rfl⟩
abbrev main_v118 : Ref sig .tc := ⟨.hbm, 226, rfl⟩
abbrev main_v119 : Ref sig .tc := ⟨.hbm, 227, rfl⟩
abbrev main_c_18 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_c_19 : Ref sig .tc := ⟨.hbm, 234, rfl⟩
abbrev main_v125 : Ref sig .tc := ⟨.hbm, 235, rfl⟩
abbrev main_v126 : Ref sig .tc := ⟨.hbm, 236, rfl⟩
abbrev main_c_20 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_c_21 : Ref sig .tc := ⟨.hbm, 244, rfl⟩
abbrev main_v133 : Ref sig .tc := ⟨.hbm, 245, rfl⟩
abbrev main_v134 : Ref sig .tc := ⟨.hbm, 246, rfl⟩
abbrev main_c_22 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_cst_23 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_cst_24 : Ref sig .tc := ⟨.hbm, 270, rfl⟩
abbrev main_v156 : Ref sig .tc := ⟨.hbm, 271, rfl⟩
abbrev main_cst_25 : Ref sig .tc := ⟨.hbm, 272, rfl⟩
abbrev main_v157 : Ref sig .tc := ⟨.hbm, 273, rfl⟩
abbrev main_v158 : Ref sig .tc := ⟨.hbm, 274, rfl⟩
abbrev main_c_26 : Ref sig .tc := ⟨.hbm, 275, rfl⟩
abbrev main_call6_cst : Ref sig .tc := ⟨.hbm, 276, rfl⟩
abbrev main_call6_v0 : Ref sig .tc := ⟨.hbm, 277, rfl⟩
abbrev main_call6_v1 : Ref sig .tc := ⟨.hbm, 278, rfl⟩
abbrev main_call6_cst_0 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_call6_v5 : Ref sig .tc := ⟨.hbm, 283, rfl⟩
abbrev main_call6_v6 : Ref sig .tc := ⟨.hbm, 284, rfl⟩
abbrev main_call6_v7 : Ref sig .tc := ⟨.hbm, 285, rfl⟩
abbrev main_call6_cst_1 : Ref sig .tc := ⟨.hbm, 286, rfl⟩
abbrev main_call6_v8 : Ref sig .tc := ⟨.hbm, 287, rfl⟩
abbrev main_call6_cst_2 : Ref sig .tc := ⟨.hbm, 288, rfl⟩
abbrev main_call6_v9 : Ref sig .tc := ⟨.hbm, 289, rfl⟩
abbrev main_call6_v10 : Ref sig .tc := ⟨.hbm, 290, rfl⟩
abbrev main_call6_v11 : Ref sig .tc := ⟨.hbm, 291, rfl⟩
abbrev main_call6_cst_3 : Ref sig .tc := ⟨.hbm, 292, rfl⟩
abbrev main_call6_v12 : Ref sig .tc := ⟨.hbm, 293, rfl⟩
abbrev main_call6_cst_4 : Ref sig .tc := ⟨.hbm, 294, rfl⟩
abbrev main_call6_call0_v0 : Ref sig .tc := ⟨.hbm, 295, rfl⟩
abbrev main_call6_call0_v1 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_cst_27 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_call7_cst : Ref sig .tc := ⟨.hbm, 314, rfl⟩
abbrev main_call7_v0 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_cst_28 : Ref sig .tc := ⟨.hbm, 329, rfl⟩
abbrev main_v188 : Ref sig .tc := ⟨.hbm, 330, rfl⟩
abbrev main_cst_29 : Ref sig .tc := ⟨.hbm, 331, rfl⟩
abbrev main_v189 : Ref sig .tc := ⟨.hbm, 332, rfl⟩
abbrev main_v190 : Ref sig .tc := ⟨.hbm, 333, rfl⟩
abbrev main_c_30 : Ref sig .tc := ⟨.hbm, 334, rfl⟩
abbrev main_call8_cst : Ref sig .tc := ⟨.hbm, 335, rfl⟩
abbrev main_call8_v0 : Ref sig .tc := ⟨.hbm, 336, rfl⟩
abbrev main_call8_v1 : Ref sig .tc := ⟨.hbm, 337, rfl⟩
abbrev main_call8_cst_0 : Ref sig .tc := ⟨.hbm, 338, rfl⟩
abbrev main_call8_v2 : Ref sig .tc := ⟨.hbm, 339, rfl⟩
abbrev main_call8_v3 : Ref sig .tc := ⟨.hbm, 340, rfl⟩
abbrev main_call8_v4 : Ref sig .tc := ⟨.hbm, 341, rfl⟩
abbrev main_call8_v5 : Ref sig .tc := ⟨.hbm, 342, rfl⟩
abbrev main_call8_v6 : Ref sig .tc := ⟨.hbm, 343, rfl⟩
abbrev main_call8_v7 : Ref sig .tc := ⟨.hbm, 344, rfl⟩
abbrev main_call8_cst_1 : Ref sig .tc := ⟨.hbm, 345, rfl⟩
abbrev main_call8_v8 : Ref sig .tc := ⟨.hbm, 346, rfl⟩
abbrev main_call8_cst_2 : Ref sig .tc := ⟨.hbm, 347, rfl⟩
abbrev main_call8_v9 : Ref sig .tc := ⟨.hbm, 348, rfl⟩
abbrev main_call8_v10 : Ref sig .tc := ⟨.hbm, 349, rfl⟩
abbrev main_call8_v11 : Ref sig .tc := ⟨.hbm, 350, rfl⟩
abbrev main_call8_cst_3 : Ref sig .tc := ⟨.hbm, 351, rfl⟩
abbrev main_call8_v12 : Ref sig .tc := ⟨.hbm, 352, rfl⟩
abbrev main_call8_cst_4 : Ref sig .tc := ⟨.hbm, 353, rfl⟩
abbrev main_call8_call0_v0 : Ref sig .tc := ⟨.hbm, 354, rfl⟩
abbrev main_call8_call0_v1 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_cst_31 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_call9_cst : Ref sig .tc := ⟨.hbm, 373, rfl⟩
abbrev main_call9_v0 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_cst_32 : Ref sig .tc := ⟨.hbm, 380, rfl⟩
abbrev main_v212 : Ref sig .tc := ⟨.hbm, 381, rfl⟩
abbrev main_cst_33 : Ref sig .tc := ⟨.hbm, 382, rfl⟩
abbrev main_v213 : Ref sig .tc := ⟨.hbm, 383, rfl⟩
abbrev main_v214 : Ref sig .tc := ⟨.hbm, 384, rfl⟩
abbrev main_c_34 : Ref sig .tc := ⟨.hbm, 385, rfl⟩
abbrev main_call10_cst : Ref sig .tc := ⟨.hbm, 386, rfl⟩
abbrev main_call10_v0 : Ref sig .tc := ⟨.hbm, 387, rfl⟩
abbrev main_call10_v1 : Ref sig .tc := ⟨.hbm, 388, rfl⟩
abbrev main_call10_cst_0 : Ref sig .tc := ⟨.hbm, 389, rfl⟩
abbrev main_call10_v2 : Ref sig .tc := ⟨.hbm, 390, rfl⟩
abbrev main_call10_v3 : Ref sig .tc := ⟨.hbm, 391, rfl⟩
abbrev main_call10_v4 : Ref sig .tc := ⟨.hbm, 392, rfl⟩
abbrev main_call10_v5 : Ref sig .tc := ⟨.hbm, 393, rfl⟩
abbrev main_call10_v6 : Ref sig .tc := ⟨.hbm, 394, rfl⟩
abbrev main_call10_v7 : Ref sig .tc := ⟨.hbm, 395, rfl⟩
abbrev main_call10_cst_1 : Ref sig .tc := ⟨.hbm, 396, rfl⟩
abbrev main_call10_v8 : Ref sig .tc := ⟨.hbm, 397, rfl⟩
abbrev main_call10_cst_2 : Ref sig .tc := ⟨.hbm, 398, rfl⟩
abbrev main_call10_v9 : Ref sig .tc := ⟨.hbm, 399, rfl⟩
abbrev main_call10_v10 : Ref sig .tc := ⟨.hbm, 400, rfl⟩
abbrev main_call10_v11 : Ref sig .tc := ⟨.hbm, 401, rfl⟩
abbrev main_call10_cst_3 : Ref sig .tc := ⟨.hbm, 402, rfl⟩
abbrev main_call10_v12 : Ref sig .tc := ⟨.hbm, 403, rfl⟩
abbrev main_call10_cst_4 : Ref sig .tc := ⟨.hbm, 404, rfl⟩
abbrev main_call10_call0_v0 : Ref sig .tc := ⟨.hbm, 405, rfl⟩
abbrev main_call10_call0_v1 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_v218 : Ref sig .tc := ⟨.hbm, 410, rfl⟩
abbrev main_v219 : Ref sig .tc := ⟨.hbm, 411, rfl⟩
abbrev main_v220 : Ref sig .tc := ⟨.hbm, 412, rfl⟩
abbrev main_v221 : Ref sig .tc := ⟨.hbm, 413, rfl⟩
abbrev main_cst_35 : Ref sig .tc := ⟨.hbm, 414, rfl⟩
abbrev main_v222 : Ref sig .tc := ⟨.hbm, 415, rfl⟩
abbrev main_v223 : Ref sig .tc := ⟨.hbm, 416, rfl⟩
abbrev main_v224 : Ref sig .tc := ⟨.hbm, 417, rfl⟩
abbrev main_v225 : Ref sig .tc := ⟨.hbm, 418, rfl⟩
abbrev main_v226 : Ref sig .tc := ⟨.hbm, 419, rfl⟩
abbrev main_v227 : Ref sig .tc := ⟨.hbm, 420, rfl⟩
abbrev main_v228 : Ref sig .tc := ⟨.hbm, 421, rfl⟩
abbrev main_v229 : Ref sig .tc := ⟨.hbm, 422, rfl⟩
abbrev main_v230 : Ref sig .tc := ⟨.hbm, 423, rfl⟩
abbrev main_call11_cst : Ref sig .tc := ⟨.hbm, 424, rfl⟩
abbrev main_call11_v0 : Ref sig .tc := ⟨.hbm, 425, rfl⟩
abbrev main_v231 : Ref sig .tc := ⟨.hbm, 426, rfl⟩
abbrev main_c_36 : Ref sig .tc := ⟨.hbm, 427, rfl⟩
abbrev main_v232 : Ref sig .tc := ⟨.hbm, 428, rfl⟩
abbrev main_v233 : Ref sig .tc := ⟨.hbm, 429, rfl⟩
abbrev main_c_37 : Ref sig .tc := ⟨.hbm, 430, rfl⟩
abbrev main_v234 : Ref sig .tc := ⟨.hbm, 431, rfl⟩
abbrev main_v235 : Ref sig .tc := ⟨.hbm, 432, rfl⟩
abbrev main_v236 : Ref sig .tc := ⟨.hbm, 433, rfl⟩
abbrev main_v237 : Ref sig .tc := ⟨.hbm, 434, rfl⟩
abbrev main_v238 : Ref sig .tc := ⟨.hbm, 435, rfl⟩
abbrev main_c_38 : Ref sig .tc := ⟨.hbm, 436, rfl⟩
abbrev main_v239 : Ref sig .tc := ⟨.hbm, 437, rfl⟩
abbrev main_v240 : Ref sig .tc := ⟨.hbm, 438, rfl⟩
abbrev main_c_39 : Ref sig .tc := ⟨.hbm, 439, rfl⟩
abbrev main_v241 : Ref sig .tc := ⟨.hbm, 440, rfl⟩
abbrev main_v242 : Ref sig .tc := ⟨.hbm, 441, rfl⟩
abbrev main_v243 : Ref sig .tc := ⟨.hbm, 442, rfl⟩
abbrev main_v244 : Ref sig .tc := ⟨.hbm, 443, rfl⟩
abbrev main_v245 : Ref sig .tc := ⟨.hbm, 444, rfl⟩
abbrev main_v246 : Ref sig .tc := ⟨.hbm, 445, rfl⟩
abbrev main_c_40 : Ref sig .tc := ⟨.hbm, 446, rfl⟩
abbrev main_v247 : Ref sig .tc := ⟨.hbm, 447, rfl⟩
abbrev main_v248 : Ref sig .tc := ⟨.hbm, 448, rfl⟩
abbrev main_c_41 : Ref sig .tc := ⟨.hbm, 449, rfl⟩
abbrev main_v249 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_cst_42 : Ref sig .tc := ⟨.hbm, 455, rfl⟩
abbrev main_v254 : Ref sig .tc := ⟨.hbm, 456, rfl⟩
abbrev main_v255 : Ref sig .tc := ⟨.hbm, 457, rfl⟩
abbrev main_v256 : Ref sig .tc := ⟨.hbm, 458, rfl⟩
abbrev main_v257 : Ref sig .tc := ⟨.hbm, 459, rfl⟩
abbrev main_v258 : Ref sig .tc := ⟨.hbm, 460, rfl⟩
abbrev main_v259 : Ref sig .tc := ⟨.hbm, 461, rfl⟩
abbrev main_v260 : Ref sig .tc := ⟨.hbm, 462, rfl⟩
abbrev main_v261 : Ref sig .tc := ⟨.hbm, 463, rfl⟩
abbrev main_v262 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_v266 : Ref sig .tc := ⟨.hbm, 468, rfl⟩
abbrev main_v267 : Ref sig .tc := ⟨.hbm, 469, rfl⟩
abbrev main_v268 : Ref sig .tc := ⟨.hbm, 470, rfl⟩
abbrev main_v269 : Ref sig .tc := ⟨.hbm, 471, rfl⟩
abbrev main_cst_43 : Ref sig .tc := ⟨.hbm, 472, rfl⟩
abbrev main_v270 : Ref sig .tc := ⟨.hbm, 473, rfl⟩
abbrev main_cst_44 : Ref sig .tc := ⟨.hbm, 474, rfl⟩
abbrev main_v271 : Ref sig .tc := ⟨.hbm, 475, rfl⟩
abbrev main_v272 : Ref sig .tc := ⟨.hbm, 476, rfl⟩
abbrev main_c_45 : Ref sig .tc := ⟨.hbm, 477, rfl⟩
abbrev main_call12_cst : Ref sig .tc := ⟨.hbm, 478, rfl⟩
abbrev main_call12_v0 : Ref sig .tc := ⟨.hbm, 479, rfl⟩
abbrev main_call12_v1 : Ref sig .tc := ⟨.hbm, 480, rfl⟩
abbrev main_call12_cst_0 : Ref sig .tc := ⟨.hbm, 481, rfl⟩
abbrev main_call12_v2 : Ref sig .tc := ⟨.hbm, 482, rfl⟩
abbrev main_call12_v3 : Ref sig .tc := ⟨.hbm, 483, rfl⟩
abbrev main_call12_v4 : Ref sig .tc := ⟨.hbm, 484, rfl⟩
abbrev main_call12_v5 : Ref sig .tc := ⟨.hbm, 485, rfl⟩
abbrev main_call12_v6 : Ref sig .tc := ⟨.hbm, 486, rfl⟩
abbrev main_call12_v7 : Ref sig .tc := ⟨.hbm, 487, rfl⟩
abbrev main_call12_cst_1 : Ref sig .tc := ⟨.hbm, 488, rfl⟩
abbrev main_call12_v8 : Ref sig .tc := ⟨.hbm, 489, rfl⟩
abbrev main_call12_cst_2 : Ref sig .tc := ⟨.hbm, 490, rfl⟩
abbrev main_call12_v9 : Ref sig .tc := ⟨.hbm, 491, rfl⟩
abbrev main_call12_v10 : Ref sig .tc := ⟨.hbm, 492, rfl⟩
abbrev main_call12_v11 : Ref sig .tc := ⟨.hbm, 493, rfl⟩
abbrev main_call12_cst_3 : Ref sig .tc := ⟨.hbm, 494, rfl⟩
abbrev main_call12_v12 : Ref sig .tc := ⟨.hbm, 495, rfl⟩
abbrev main_call12_cst_4 : Ref sig .tc := ⟨.hbm, 496, rfl⟩
abbrev main_call12_call0_v0 : Ref sig .tc := ⟨.hbm, 497, rfl⟩
abbrev main_call12_call0_v1 : Ref sig .tc := ⟨.hbm, 498, rfl⟩
abbrev main_v273 : Ref sig .tc := ⟨.hbm, 499, rfl⟩
abbrev main_v274 : Ref sig .tc := ⟨.hbm, 500, rfl⟩
abbrev main_v275 : Ref sig .tc := ⟨.hbm, 501, rfl⟩
abbrev main_v276 : Ref sig .tc := ⟨.hbm, 502, rfl⟩
abbrev main_v277 : Ref sig .tc := ⟨.hbm, 503, rfl⟩
abbrev main_v278 : Ref sig .tc := ⟨.hbm, 504, rfl⟩
abbrev main_v279 : Ref sig .tc := ⟨.hbm, 505, rfl⟩
abbrev main_cst_46 : Ref sig .tc := ⟨.hbm, 506, rfl⟩
abbrev main_v280 : Ref sig .tc := ⟨.hbm, 507, rfl⟩
abbrev main_v281 : Ref sig .tc := ⟨.hbm, 508, rfl⟩
abbrev main_v282 : Ref sig .tc := ⟨.hbm, 509, rfl⟩
abbrev main_v283 : Ref sig .tc := ⟨.hbm, 510, rfl⟩
abbrev main_v284 : Ref sig .tc := ⟨.hbm, 511, rfl⟩
abbrev main_v285 : Ref sig .tc := ⟨.hbm, 512, rfl⟩
abbrev main_v286 : Ref sig .tc := ⟨.hbm, 513, rfl⟩
abbrev main_v287 : Ref sig .tc := ⟨.hbm, 514, rfl⟩
abbrev main_v288 : Ref sig .tc := ⟨.hbm, 515, rfl⟩
abbrev main_call13_cst : Ref sig .tc := ⟨.hbm, 516, rfl⟩
abbrev main_call13_v0 : Ref sig .tc := ⟨.hbm, 517, rfl⟩
abbrev main_v289 : Ref sig .tc := ⟨.hbm, 518, rfl⟩
abbrev main_v290 : Ref sig .tc := ⟨.hbm, 519, rfl⟩
abbrev main_v291 : Ref sig .tc := ⟨.hbm, 520, rfl⟩
abbrev main_v292 : Ref sig .tc := ⟨.hbm, 521, rfl⟩
abbrev main_v293 : Ref sig .tc := ⟨.hbm, 522, rfl⟩
abbrev main_v294 : Ref sig .tc := ⟨.hbm, 523, rfl⟩
abbrev main_v295 : Ref sig .tc := ⟨.hbm, 524, rfl⟩
abbrev main_v296 : Ref sig .tc := ⟨.hbm, 525, rfl⟩
abbrev main_v297 : Ref sig .tc := ⟨.hbm, 526, rfl⟩
abbrev main_v298 : Ref sig .tc := ⟨.hbm, 527, rfl⟩
abbrev main_v299 : Ref sig .tc := ⟨.hbm, 528, rfl⟩
abbrev main_v300 : Ref sig .tc := ⟨.hbm, 529, rfl⟩
abbrev main_v301 : Ref sig .tc := ⟨.hbm, 530, rfl⟩
abbrev main_cst_47 : Ref sig .tc := ⟨.hbm, 531, rfl⟩
abbrev main_v302 : Ref sig .tc := ⟨.hbm, 532, rfl⟩
abbrev main_cst_48 : Ref sig .tc := ⟨.hbm, 533, rfl⟩
abbrev main_v303 : Ref sig .tc := ⟨.hbm, 534, rfl⟩
abbrev main_v304 : Ref sig .tc := ⟨.hbm, 535, rfl⟩
abbrev main_c_49 : Ref sig .tc := ⟨.hbm, 536, rfl⟩
abbrev main_call14_cst : Ref sig .tc := ⟨.hbm, 537, rfl⟩
abbrev main_call14_v0 : Ref sig .tc := ⟨.hbm, 538, rfl⟩
abbrev main_call14_v1 : Ref sig .tc := ⟨.hbm, 539, rfl⟩
abbrev main_call14_cst_0 : Ref sig .tc := ⟨.hbm, 540, rfl⟩
abbrev main_call14_v2 : Ref sig .tc := ⟨.hbm, 541, rfl⟩
abbrev main_call14_v3 : Ref sig .tc := ⟨.hbm, 542, rfl⟩
abbrev main_call14_v4 : Ref sig .tc := ⟨.hbm, 543, rfl⟩
abbrev main_call14_v5 : Ref sig .tc := ⟨.hbm, 544, rfl⟩
abbrev main_call14_v6 : Ref sig .tc := ⟨.hbm, 545, rfl⟩
abbrev main_call14_v7 : Ref sig .tc := ⟨.hbm, 546, rfl⟩
abbrev main_call14_cst_1 : Ref sig .tc := ⟨.hbm, 547, rfl⟩
abbrev main_call14_v8 : Ref sig .tc := ⟨.hbm, 548, rfl⟩
abbrev main_call14_cst_2 : Ref sig .tc := ⟨.hbm, 549, rfl⟩
abbrev main_call14_v9 : Ref sig .tc := ⟨.hbm, 550, rfl⟩
abbrev main_call14_v10 : Ref sig .tc := ⟨.hbm, 551, rfl⟩
abbrev main_call14_v11 : Ref sig .tc := ⟨.hbm, 552, rfl⟩
abbrev main_call14_cst_3 : Ref sig .tc := ⟨.hbm, 553, rfl⟩
abbrev main_call14_v12 : Ref sig .tc := ⟨.hbm, 554, rfl⟩
abbrev main_call14_cst_4 : Ref sig .tc := ⟨.hbm, 555, rfl⟩
abbrev main_call14_call0_v0 : Ref sig .tc := ⟨.hbm, 556, rfl⟩
abbrev main_call14_call0_v1 : Ref sig .tc := ⟨.hbm, 557, rfl⟩
abbrev main_v305 : Ref sig .tc := ⟨.hbm, 558, rfl⟩
abbrev main_v306 : Ref sig .tc := ⟨.hbm, 559, rfl⟩
abbrev main_v307 : Ref sig .tc := ⟨.hbm, 560, rfl⟩
abbrev main_v308 : Ref sig .tc := ⟨.hbm, 561, rfl⟩
abbrev main_v309 : Ref sig .tc := ⟨.hbm, 562, rfl⟩
abbrev main_v310 : Ref sig .tc := ⟨.hbm, 563, rfl⟩
abbrev main_v311 : Ref sig .tc := ⟨.hbm, 564, rfl⟩
abbrev main_cst_50 : Ref sig .tc := ⟨.hbm, 565, rfl⟩
abbrev main_v312 : Ref sig .tc := ⟨.hbm, 566, rfl⟩
abbrev main_v313 : Ref sig .tc := ⟨.hbm, 567, rfl⟩
abbrev main_v314 : Ref sig .tc := ⟨.hbm, 568, rfl⟩
abbrev main_v315 : Ref sig .tc := ⟨.hbm, 569, rfl⟩
abbrev main_v316 : Ref sig .tc := ⟨.hbm, 570, rfl⟩
abbrev main_v317 : Ref sig .tc := ⟨.hbm, 571, rfl⟩
abbrev main_v318 : Ref sig .tc := ⟨.hbm, 572, rfl⟩
abbrev main_v319 : Ref sig .tc := ⟨.hbm, 573, rfl⟩
abbrev main_v320 : Ref sig .tc := ⟨.hbm, 574, rfl⟩
abbrev main_call15_cst : Ref sig .tc := ⟨.hbm, 575, rfl⟩
abbrev main_call15_v0 : Ref sig .tc := ⟨.hbm, 576, rfl⟩
abbrev main_v321 : Ref sig .tc := ⟨.hbm, 577, rfl⟩
abbrev main_v322 : Ref sig .tc := ⟨.hbm, 578, rfl⟩
abbrev main_v323 : Ref sig .tc := ⟨.hbm, 579, rfl⟩
abbrev main_v324 : Ref sig .tc := ⟨.hbm, 580, rfl⟩
abbrev main_v325 : Ref sig .tc := ⟨.hbm, 581, rfl⟩
abbrev main_cst_51 : Ref sig .tc := ⟨.hbm, 582, rfl⟩
abbrev main_v326 : Ref sig .tc := ⟨.hbm, 583, rfl⟩
abbrev main_cst_52 : Ref sig .tc := ⟨.hbm, 584, rfl⟩
abbrev main_v327 : Ref sig .tc := ⟨.hbm, 585, rfl⟩
abbrev main_v328 : Ref sig .tc := ⟨.hbm, 586, rfl⟩
abbrev main_c_53 : Ref sig .tc := ⟨.hbm, 587, rfl⟩
abbrev main_call16_cst : Ref sig .tc := ⟨.hbm, 588, rfl⟩
abbrev main_call16_v0 : Ref sig .tc := ⟨.hbm, 589, rfl⟩
abbrev main_call16_v1 : Ref sig .tc := ⟨.hbm, 590, rfl⟩
abbrev main_call16_cst_0 : Ref sig .tc := ⟨.hbm, 591, rfl⟩
abbrev main_call16_v2 : Ref sig .tc := ⟨.hbm, 592, rfl⟩
abbrev main_call16_v3 : Ref sig .tc := ⟨.hbm, 593, rfl⟩
abbrev main_call16_v4 : Ref sig .tc := ⟨.hbm, 594, rfl⟩
abbrev main_call16_v5 : Ref sig .tc := ⟨.hbm, 595, rfl⟩
abbrev main_call16_v6 : Ref sig .tc := ⟨.hbm, 596, rfl⟩
abbrev main_call16_v7 : Ref sig .tc := ⟨.hbm, 597, rfl⟩
abbrev main_call16_cst_1 : Ref sig .tc := ⟨.hbm, 598, rfl⟩
abbrev main_call16_v8 : Ref sig .tc := ⟨.hbm, 599, rfl⟩
abbrev main_call16_cst_2 : Ref sig .tc := ⟨.hbm, 600, rfl⟩
abbrev main_call16_v9 : Ref sig .tc := ⟨.hbm, 601, rfl⟩
abbrev main_call16_v10 : Ref sig .tc := ⟨.hbm, 602, rfl⟩
abbrev main_call16_v11 : Ref sig .tc := ⟨.hbm, 603, rfl⟩
abbrev main_call16_cst_3 : Ref sig .tc := ⟨.hbm, 604, rfl⟩
abbrev main_call16_v12 : Ref sig .tc := ⟨.hbm, 605, rfl⟩
abbrev main_call16_cst_4 : Ref sig .tc := ⟨.hbm, 606, rfl⟩
abbrev main_call16_call0_v0 : Ref sig .tc := ⟨.hbm, 607, rfl⟩
abbrev main_call16_call0_v1 : Ref sig .tc := ⟨.hbm, 608, rfl⟩
abbrev main_v329 : Ref sig .tc := ⟨.hbm, 609, rfl⟩
abbrev main_v330 : Ref sig .tc := ⟨.hbm, 610, rfl⟩
abbrev main_v331 : Ref sig .tc := ⟨.hbm, 611, rfl⟩
abbrev main_v332 : Ref sig .tc := ⟨.hbm, 612, rfl⟩
abbrev main_v333 : Ref sig .tc := ⟨.hbm, 613, rfl⟩
abbrev main_v334 : Ref sig .tc := ⟨.hbm, 614, rfl⟩
abbrev main_v335 : Ref sig .tc := ⟨.hbm, 615, rfl⟩
abbrev main_cst_54 : Ref sig .tc := ⟨.hbm, 616, rfl⟩
abbrev main_v336 : Ref sig .tc := ⟨.hbm, 617, rfl⟩
abbrev main_v337 : Ref sig .tc := ⟨.hbm, 618, rfl⟩
abbrev main_v338 : Ref sig .tc := ⟨.hbm, 619, rfl⟩
abbrev main_v339 : Ref sig .tc := ⟨.hbm, 620, rfl⟩
abbrev main_v340 : Ref sig .tc := ⟨.hbm, 621, rfl⟩
abbrev main_v341 : Ref sig .tc := ⟨.hbm, 622, rfl⟩
abbrev main_v342 : Ref sig .tc := ⟨.hbm, 623, rfl⟩
abbrev main_v343 : Ref sig .tc := ⟨.hbm, 624, rfl⟩
abbrev main_v344 : Ref sig .tc := ⟨.hbm, 625, rfl⟩
abbrev main_call17_cst : Ref sig .tc := ⟨.hbm, 626, rfl⟩
abbrev main_call17_v0 : Ref sig .tc := ⟨.hbm, 627, rfl⟩
abbrev main_v345 : Ref sig .tc := ⟨.hbm, 628, rfl⟩
abbrev main_c_55 : Ref sig .tc := ⟨.hbm, 629, rfl⟩
abbrev main_v346 : Ref sig .tc := ⟨.hbm, 630, rfl⟩
abbrev main_v347 : Ref sig .tc := ⟨.hbm, 631, rfl⟩
abbrev main_c_56 : Ref sig .tc := ⟨.hbm, 632, rfl⟩
abbrev main_v348 : Ref sig .tc := ⟨.hbm, 633, rfl⟩
abbrev main_v349 : Ref sig .tc := ⟨.hbm, 634, rfl⟩
abbrev main_v350 : Ref sig .tc := ⟨.hbm, 635, rfl⟩
abbrev main_v351 : Ref sig .tc := ⟨.hbm, 636, rfl⟩
abbrev main_v352 : Ref sig .tc := ⟨.hbm, 637, rfl⟩
abbrev main_c_57 : Ref sig .tc := ⟨.hbm, 638, rfl⟩
abbrev main_v353 : Ref sig .tc := ⟨.hbm, 639, rfl⟩
abbrev main_v354 : Ref sig .tc := ⟨.hbm, 640, rfl⟩
abbrev main_c_58 : Ref sig .tc := ⟨.hbm, 641, rfl⟩
abbrev main_v355 : Ref sig .tc := ⟨.hbm, 642, rfl⟩
abbrev main_v356 : Ref sig .tc := ⟨.hbm, 643, rfl⟩
abbrev main_v357 : Ref sig .tc := ⟨.hbm, 644, rfl⟩
abbrev main_v358 : Ref sig .tc := ⟨.hbm, 645, rfl⟩
abbrev main_v359 : Ref sig .tc := ⟨.hbm, 646, rfl⟩
abbrev main_v360 : Ref sig .tc := ⟨.hbm, 647, rfl⟩
abbrev main_cst_59 : Ref sig .tc := ⟨.hbm, 648, rfl⟩
abbrev main_v361 : Ref sig .tc := ⟨.hbm, 649, rfl⟩
abbrev main_v362 : Ref sig .tc := ⟨.hbm, 650, rfl⟩
abbrev main_v363 : Ref sig .tc := ⟨.hbm, 651, rfl⟩
abbrev main_v364 : Ref sig .tc := ⟨.hbm, 652, rfl⟩
abbrev main_v365 : Ref sig .tc := ⟨.hbm, 653, rfl⟩
abbrev main_v366 : Ref sig .tc := ⟨.hbm, 654, rfl⟩
abbrev main_v367 : Ref sig .tc := ⟨.hbm, 655, rfl⟩
abbrev main_v368 : Ref sig .tc := ⟨.hbm, 656, rfl⟩
abbrev main_v369 : Ref sig .tc := ⟨.hbm, 657, rfl⟩
abbrev main_call18_cst : Ref sig .tc := ⟨.hbm, 658, rfl⟩
abbrev main_call18_v0 : Ref sig .tc := ⟨.hbm, 659, rfl⟩
abbrev main_v370 : Ref sig .tc := ⟨.hbm, 660, rfl⟩
abbrev main_v371 : Ref sig .tc := ⟨.hbm, 661, rfl⟩
abbrev main_v372 : Ref sig .tc := ⟨.hbm, 662, rfl⟩
abbrev main_v373 : Ref sig .tc := ⟨.hbm, 663, rfl⟩
abbrev main_v374 : Ref sig .tc := ⟨.hbm, 664, rfl⟩
abbrev main_v375 : Ref sig .tc := ⟨.hbm, 665, rfl⟩
abbrev main_v376 : Ref sig .tc := ⟨.hbm, 666, rfl⟩
abbrev main_v377 : Ref sig .tc := ⟨.hbm, 667, rfl⟩
abbrev main_v378 : Ref sig .tc := ⟨.hbm, 668, rfl⟩
abbrev main_v379 : Ref sig .tc := ⟨.hbm, 669, rfl⟩
abbrev main_v380 : Ref sig .tc := ⟨.hbm, 670, rfl⟩
abbrev main_v381 : Ref sig .tc := ⟨.hbm, 671, rfl⟩
abbrev main_v382 : Ref sig .tc := ⟨.hbm, 672, rfl⟩
abbrev main_v383 : Ref sig .tc := ⟨.hbm, 673, rfl⟩
abbrev main_v384 : Ref sig .tc := ⟨.hbm, 674, rfl⟩
abbrev main_v385 : Ref sig .tc := ⟨.hbm, 675, rfl⟩
abbrev main_v386 : Ref sig .tc := ⟨.hbm, 676, rfl⟩
abbrev main_v387 : Ref sig .tc := ⟨.hbm, 677, rfl⟩
abbrev main_call19_cst : Ref sig .tc := ⟨.hbm, 678, rfl⟩
abbrev main_call19_v0 : Ref sig .tc := ⟨.hbm, 679, rfl⟩
abbrev main_v388 : Ref sig .tc := ⟨.hbm, 680, rfl⟩
abbrev main_v389 : Ref sig .tc := ⟨.hbm, 681, rfl⟩
abbrev main_v390 : Ref sig .tc := ⟨.hbm, 682, rfl⟩
abbrev main_v391 : Ref sig .tc := ⟨.hbm, 683, rfl⟩
abbrev main_v392 : Ref sig .tc := ⟨.hbm, 684, rfl⟩
abbrev main_v393 : Ref sig .tc := ⟨.hbm, 685, rfl⟩
abbrev main_v394 : Ref sig .tc := ⟨.hbm, 686, rfl⟩
abbrev main_v395 : Ref sig .tc := ⟨.hbm, 687, rfl⟩
abbrev main_v396 : Ref sig .tc := ⟨.hbm, 688, rfl⟩
abbrev main_v397 : Ref sig .tc := ⟨.hbm, 689, rfl⟩
abbrev main_v398 : Ref sig .tc := ⟨.hbm, 690, rfl⟩
abbrev main_v399 : Ref sig .tc := ⟨.hbm, 691, rfl⟩
abbrev main_v400 : Ref sig .tc := ⟨.hbm, 692, rfl⟩
abbrev main_v401 : Ref sig .tc := ⟨.hbm, 693, rfl⟩
abbrev main_v402 : Ref sig .tc := ⟨.hbm, 694, rfl⟩
abbrev main_v403 : Ref sig .tc := ⟨.hbm, 695, rfl⟩
abbrev main_v404 : Ref sig .tc := ⟨.hbm, 696, rfl⟩
abbrev main_v405 : Ref sig .tc := ⟨.hbm, 697, rfl⟩
abbrev main_call20_cst : Ref sig .tc := ⟨.hbm, 698, rfl⟩
abbrev main_call20_v0 : Ref sig .tc := ⟨.hbm, 699, rfl⟩
abbrev main_v406 : Ref sig .tc := ⟨.hbm, 700, rfl⟩
abbrev main_v407 : Ref sig .tc := ⟨.hbm, 701, rfl⟩
abbrev main_v408 : Ref sig .tc := ⟨.hbm, 702, rfl⟩
abbrev main_v409 : Ref sig .tc := ⟨.hbm, 703, rfl⟩
abbrev main_v410 : Ref sig .tc := ⟨.hbm, 704, rfl⟩
abbrev main_v411 : Ref sig .tc := ⟨.hbm, 705, rfl⟩
abbrev main_v412 : Ref sig .tc := ⟨.hbm, 706, rfl⟩
abbrev main_v413 : Ref sig .tc := ⟨.hbm, 707, rfl⟩
abbrev main_v414 : Ref sig .tc := ⟨.hbm, 708, rfl⟩
abbrev main_v415 : Ref sig .tc := ⟨.hbm, 709, rfl⟩
abbrev main_v416 : Ref sig .tc := ⟨.hbm, 710, rfl⟩
abbrev main_v417 : Ref sig .tc := ⟨.hbm, 711, rfl⟩
abbrev main_v418 : Ref sig .tc := ⟨.hbm, 712, rfl⟩
abbrev main_v419 : Ref sig .tc := ⟨.hbm, 713, rfl⟩
abbrev main_v420 : Ref sig .tc := ⟨.hbm, 714, rfl⟩
abbrev main_v421 : Ref sig .tc := ⟨.hbm, 715, rfl⟩
abbrev main_v422 : Ref sig .tc := ⟨.hbm, 716, rfl⟩
abbrev main_v423 : Ref sig .tc := ⟨.hbm, 717, rfl⟩
abbrev main_call21_cst : Ref sig .tc := ⟨.hbm, 718, rfl⟩
abbrev main_call21_v0 : Ref sig .tc := ⟨.hbm, 719, rfl⟩
abbrev main_v424 : Ref sig .tc := ⟨.hbm, 720, rfl⟩
abbrev main_v425 : Ref sig .tc := ⟨.hbm, 721, rfl⟩
abbrev main_v426 : Ref sig .tc := ⟨.hbm, 722, rfl⟩
abbrev main_v427 : Ref sig .tc := ⟨.hbm, 723, rfl⟩
abbrev main_v428 : Ref sig .tc := ⟨.hbm, 724, rfl⟩
abbrev main_v429 : Ref sig .tc := ⟨.hbm, 725, rfl⟩
abbrev main_v430 : Ref sig .tc := ⟨.hbm, 726, rfl⟩
abbrev main_v431 : Ref sig .tc := ⟨.hbm, 727, rfl⟩
abbrev main_v432 : Ref sig .tc := ⟨.hbm, 728, rfl⟩
abbrev main_v433 : Ref sig .tc := ⟨.hbm, 729, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S800000x2 : S_.BroadcastsInDim S800000x2 (![] : Fin 0 → Fin S800000x2.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S4x64x2_S1x64x2_0_0_0 : S4x64x2.Slices ![0, 0, 0] S1x64x2
  shapeCasts_S1x64x2_S64x2 : S1x64x2.ShapeCasts S64x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  slices_S4x128x64_S1x128x64_1_0_0 : S4x128x64.Slices ![1, 0, 0] S1x128x64
  slices_S4x64_S1x64_1_0 : S4x64.Slices ![1, 0] S1x64
  slices_S4x64x2_S1x64x2_1_0_0 : S4x64x2.Slices ![1, 0, 0] S1x64x2
  slices_S4x2_S1x2_1_0 : S4x2.Slices ![1, 0] S1x2
  slices_S4x128x64_S1x128x64_2_0_0 : S4x128x64.Slices ![2, 0, 0] S1x128x64
  slices_S4x64_S1x64_2_0 : S4x64.Slices ![2, 0] S1x64
  slices_S4x64x2_S1x64x2_2_0_0 : S4x64x2.Slices ![2, 0, 0] S1x64x2
  slices_S4x2_S1x2_2_0 : S4x2.Slices ![2, 0] S1x2
  slices_S4x128x64_S1x128x64_3_0_0 : S4x128x64.Slices ![3, 0, 0] S1x128x64
  slices_S4x64_S1x64_3_0 : S4x64.Slices ![3, 0] S1x64
  slices_S4x64x2_S1x64x2_3_0_0 : S4x64x2.Slices ![3, 0, 0] S1x64x2
  slices_S4x2_S1x2_3_0 : S4x2.Slices ![3, 0] S1x2
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.KRun.lean ====
/-
  The kernel program's run, read at its result buffer.

  The program is seventeen TensorCore regions among stretches of host operations. Run from any memory with zero
  counters it terminates without a fault, and every unscoped buffer ends at the last boundary's contents: the fold
  of the host stretches and of the regions' written-back arrays over the launch memory. Read here at the result.
-/
import proofs.«107973_j83408264888790_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W53 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W53 m ρ c b)
    (hfin := fun c s' => by
      iintro ⟨⟨Hh, -⟩, HSI⟩
      unfold StableHlo.held
      imodintro
      iapply (pointsTo_read_all (Pipeline.ucRefs τ sig) (fun b => (((c : Thread nD τ)).1, b)) (W53 m ρ c) s')
      isplitl [Hh] <;> iassumption)
    (hQ := fun s h => h)

end Cert.KernelIdeal.RunVal

end
-- ==== Proof.KKeepBase.lean ====
/-
  Telling the kernel program's buffers apart by their index in the device's table: the index of every buffer the
  program names, and that buffers with different indices, or a buffer whose index is not among a list's, differ.
-/
import proofs.«107973_j83408264888790_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A buffer's index in the device's table. -/
def rix (b : Ref sig .tc) : ℕ := b.idx.val
/-- The table's length. -/
theorem nhbm : sig.nNear .tc .hbm = 556 := rfl
/-- A buffer whose index is not among a list's indices is not in the list. -/
theorem not_mem_of_rix {b : Ref sig .tc} {l : List (Ref sig .tc)} {ln : List ℕ} {n : ℕ}
    (hl : l.map rix = ln) (hb : rix b = n) (h : n ∉ ln) : b ∉ l :=
  fun hbl => h (hb ▸ hl ▸ List.mem_map_of_mem hbl)
/-- Buffers with different indices are different. -/
theorem ne_of_rix {b b' : Ref sig .tc} {n n' : ℕ} (hb : rix b = n) (hb' : rix b' = n') (h : n ≠ n') : b ≠ b' :=
  fun e => h (hb ▸ hb' ▸ congrArg rix e)
/-- The one buffer of a listed reference lies among the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem rix_v0 : rix main_v0 = 19 := by
  show ((19 : Fin (sig.nNear .tc .hbm)) : ℕ) = 19
  rw [Fin.coe_ofNat_eq_mod, nhbm]
theorem rix_c : rix main_c = 21 := by
  show ((21 : Fin (sig.nNear .tc .hbm)) : ℕ) = 21
  rw [Fin.coe_ofNat_eq_mod, nhbm]
theorem rix_v2 : rix main_v2 = 22 := by
  show ((22 : Fin (sig.nNear .tc .hbm)) : ℕ) = 22
  rw [Fin.coe_ofNat_eq_mod, nhbm]
theorem rix_v3 : rix main_v3 = 23 := by
  show ((23 : Fin (sig.nNear .tc .hbm)) : ℕ) = 23
  rw [Fin.coe_ofNat_eq_mod, nhbm]
theorem rix_c_0 : rix main_c_0 = 24 := by
  show ((24 : Fin (sig.nNear .tc .hbm)) : ℕ) = 24
  rw [Fin.coe_ofNat_eq_mod, nhbm]
theorem rix_v4 : rix main_v4 = 25 := by
  show ((25 : Fin (sig.nNear .tc .hbm)) : ℕ) = 25
  rw [Fin.coe_ofNat_eq_mod, nhbm]
theorem rix_v5 : rix main_v5 = 26 := by
  show ((26 : Fin (sig.nNear .tc .hbm)) : ℕ) = 26
  rw [Fin.coe_ofNat_eq_mod, nhbm]
theorem rix_v6 : rix main_v6 = 27 := by
  show ((27 : Fin (sig.nNear .tc .hbm)) : ℕ) = 27
  rw [Fin.coe_ofNat_eq_mod, nhbm]
theorem rix_v7 : rix main_v7 = 28 := by
  show ((28 : Fin (sig.nNear .tc .hbm)) : ℕ) = 28
  rw [Fin.coe_ofNat_eq_mod, nhbm]
theorem rix_v8 : rix main_v8 = 29 := by
  show ((29 : Fin (sig.nNear .tc .hbm)) : ℕ) = 29
  rw [Fin.coe_ofNat_eq_mod, nhbm]
theorem rix_cst : rix main_cst = 30 := by
  show ((30 : Fin (sig.nNear .tc .hbm)) : ℕ) = 30
  rw [Fin.coe_ofNat_eq_mod, nhbm]
theorem rix_v9 : rix main_v9 = 31 := by
  show ((31 : Fin (sig.nNear .tc .hbm)) : ℕ) = 31
  rw [Fin.coe_ofNat_eq_mod, nhbm]
theorem rix_v10 : rix main_v10 = 32 := by
  show ((32 : Fin (sig.nNear .tc .hbm)) : ℕ) = 32
  rw [Fin.coe_ofNat_eq_mod, nhbm]
theorem rix_v11 : rix main_v11 = 33 := by
  show ((33 : Fin (sig.nNear .tc .hbm)) : ℕ) = 33
  rw [Fin.coe_ofNat_eq_mod, nhbm]
theorem rix_v12 : rix main_v12 = 34 := by
  show ((34 : Fin (sig.nNear .tc .hbm)) : ℕ) = 34
  rw [Fin.coe_ofNat_eq_mod, nhbm]
theorem rix_v13 : rix main_v13 = 35 := by
  show ((35 : Fin (sig.nNear .tc .hbm)) : ℕ) = 35
  rw [Fin.coe_ofNat_eq_mod, nhbm]
theorem rix_v14 : rix main_v14 = 36 := by
  show ((36 : Fin (sig.nNear .tc .hbm)) : ℕ) = 36
  rw [Fin.coe_ofNat_eq_mod, nhbm]
theorem rix_v15 : rix main_v15 = 37 := by
  show ((37 : Fin (sig.nNear .tc .hbm)) : ℕ) = 37
  rw [Fin.coe_ofNat_eq_mod, nhbm]
theorem rix_v16 : rix main_v16 = 38 := by
  show ((38 : Fin (sig.nNear .tc .hbm)) : ℕ) = 38
  rw [Fin.coe_ofNat_eq_mod, nhbm]
theorem rix_cst_1 : rix main_cst_1 = 40 := by
  show ((40 : Fin (sig.nNear .tc .hbm)) : ℕ) = 40
  rw [Fin.coe_ofNat_eq_mod, nhbm]
theorem rix_v18 : rix main_v18 = 41 := by
  show ((41 : Fin (sig.nNear .tc .hbm)) : ℕ) = 41
  rw [Fin.coe_ofNat_eq_mod, nhbm]
theorem rix_v19 : rix main_v19 = 42 := by
  show ((42 : Fin (sig.nNear .tc .hbm)) : ℕ) = 42
  rw [Fin.coe_ofNat_eq_mod, nhbm]
theorem rix_cst_2 : rix main_cst_2 = 43 := by
  show ((43 : Fin (sig.nNear .tc .hbm)) : ℕ) = 43
  rw [Fin.coe_ofNat_eq_mod, nhbm]
theorem rix_v20 : rix main_v20 = 44 := by
  show ((44 : Fin (sig.nNear .tc .hbm)) : ℕ) = 44
  rw [Fin.coe_ofNat_eq_mod, nhbm]
theorem rix_v21 : rix main_v21 = 45 := by
  show ((45 : Fin (sig.nNear .tc .hbm)) : ℕ) = 45
  rw [Fin.coe_ofNat_eq_mod, nhbm]
theorem rix_c_3 : rix main_c_3 = 46 := by
  show ((46 : Fin (sig.nNear .tc .hbm)) : ℕ) = 46
  rw [Fin.coe_ofNat_eq_mod, nhbm]
theorem rix_call0_cst : rix main_call0_cst = 47 := by
  show ((47 : Fin (sig.nNear .tc .hbm)) : ℕ) = 47
  rw [Fin.coe_ofNat_eq_mod, nhbm]
theorem rix_call0_v0 : rix main_call0_v0 = 48 := by
  show ((48 : Fin (sig.nNear .tc .hbm)) : ℕ) = 48
  rw [Fin.coe_ofNat_eq_mod, nhbm]
theorem rix_call0_v1 : rix main_call0_v1 = 49 := by
  show ((49 : Fin (sig.nNear .tc .hbm)) : ℕ) = 49
  rw [Fin.coe_ofNat_eq_mod, nhbm]
theorem rix_call0_cst_0 : rix main_call0_cst_0 = 50 := by
  show ((50 : Fin (sig.nNear .tc .hbm)) : ℕ) = 50
  rw [Fin.coe_ofNat_eq_mod, nhbm]
theorem rix_call0_v2 : rix main_call0_v2 = 51 := by
  show ((51 : Fin (sig.nNear .tc .hbm)) : ℕ) = 51
  rw [Fin.coe_ofNat_eq_mod, nhbm]
theorem rix_call0_v3 : rix main_call0_v3 = 52 := by
  show ((52 : Fin (sig.nNear .tc .hbm)) : ℕ) = 52
  rw [Fin.coe_ofNat_eq_mod, nhbm]
theorem rix_call0_v4 : rix main_call0_v4 = 53 := by
  show ((53 : Fin (sig.nNear .tc .hbm)) : ℕ) = 53
  rw [Fin.coe_ofNat_eq_mod, nhbm]
theorem rix_call0_v5 : rix main_call0_v5 = 54 := by
  show ((54 : Fin (sig.nNear .tc .hbm)) : ℕ) = 54
  rw [Fin.coe_ofNat_eq_mod, nhbm]
theorem rix_call0_v6 : rix main_call0_v6 = 55 := by
  show ((55 : Fin (sig.nNear .tc .hbm)) : ℕ) = 55
  rw [Fin.coe_ofNat_eq_mod, nhbm]
theorem rix_call0_v7 : rix main_call0_v7 = 56 := by
  show ((56 : Fin (sig.nNear .tc .hbm)) : ℕ) = 56
  rw [Fin.coe_ofNat_eq_mod, nhbm]
theorem rix_call0_cst_1 : rix main_call0_cst_1 = 57 := by
  show ((57 : Fin (sig.nNear .tc .hbm)) : ℕ) = 57
  rw [Fin.coe_ofNat_eq_mod, nhbm]
theorem rix_call0_v8 : rix main_call0_v8 = 58 := by
  show ((58 : Fin (sig.nNear .tc .hbm)) : ℕ) = 58
  rw [Fin.coe_ofNat_eq_mod, nhbm]
theorem rix_call0_cst_2 : rix main_call0_cst_2 = 59 := by
  show ((59 : Fin (sig.nNear .tc .hbm)) : ℕ) = 59
  rw [Fin.coe_ofNat_eq_mod, nhbm]
theorem rix_call0_v9 : rix main_call0_v9 = 60 := by
  show ((60 : Fin (sig.nNear .tc .hbm)) : ℕ) = 60
  rw [Fin.coe_ofNat_eq_mod, nhbm]
theorem rix_call0_v10 : rix main_call0_v10 = 61 := by
  show ((61 : Fin (sig.nNear .tc .hbm)) : ℕ) = 61
  rw [Fin.coe_ofNat_eq_mod, nhbm]
theorem rix_call0_v11 : rix main_call0_v11 = 62 := by
  show ((62 : Fin (sig.nNear .tc .hbm)) : ℕ) = 62
  rw [Fin.coe_ofNat_eq_mod, nhbm]
theorem rix_call0_v12 : rix main_call0_v12 = 63 := by
  show ((63 : Fin (sig.nNear .tc .hbm)) : ℕ) = 63
  rw [Fin.coe_ofNat_eq_mod, nhbm]
theorem rix_call0_cst_3 : rix main_call0_cst_3 = 64 := by
  show ((64 : Fin (sig.nNear .tc .hbm)) : ℕ) = 64
  rw [Fin.coe_ofNat_eq_mod, nhbm]
theorem rix_call0_v13 : rix main_call0_v13 = 65 := by
  show ((65 : Fin (sig.nNear .tc .hbm)) : ℕ) = 65
  rw [Fin.coe_ofNat_eq_mod, nhbm]
theorem rix_call0_cst_4 : rix main_call0_cst_4 = 66 := by
  show ((66 : Fin (sig.nNear .tc .hbm)) : ℕ) = 66
  rw [Fin.coe_ofNat_eq_mod, nhbm]
theorem rix_call0_call0_v0 : rix main_call0_call0_v0 = 67 := by
  show ((67 : Fin (sig.nNear .tc .hbm)) : ℕ) = 67
  rw [Fin.coe_ofNat_eq_mod, nhbm]
theorem rix_call0_call0_v1 : rix main_call0_call0_v1 = 68 := by
  show ((68 : Fin (sig.nNear .tc .hbm)) : ℕ) = 68
  rw [Fin.coe_ofNat_eq_mod, nhbm]
theorem rix_v22 : rix main_v22 = 69 := by
  show ((69 : Fin (sig.nNear .tc .hbm)) : ℕ) = 69
  rw [Fin.coe_ofNat_eq_mod, nhbm]
theorem rix_v23 : rix main_v23 = 70 := by
  show ((70 : Fin (sig.nNear .tc .hbm)) : ℕ) = 70
  rw [Fin.coe_ofNat_eq_mod, nhbm]
theorem rix_v24 : rix main_v24 = 71 := by
  show ((71 : Fin (sig.nNear .tc .hbm)) : ℕ) = 71
  rw [Fin.coe_ofNat_eq_mod, nhbm]
theorem rix_v25 : rix main_v25 = 72 := by
  show ((72 : Fin (sig.nNear .tc .hbm)) : ℕ) = 72
  rw [Fin.coe_ofNat_eq_mod, nhbm]
theorem rix_v26 : rix main_v26 = 73 := by
  show ((73 : Fin (sig.nNear .tc .hbm)) : ℕ) = 73
  rw [Fin.coe_ofNat_eq_mod, nhbm]
theorem rix_v27 : rix main_v27 = 74 := by
  show ((74 : Fin (sig.nNear .tc .hbm)) : ℕ) = 74
  rw [Fin.coe_ofNat_eq_mod, nhbm]
theorem rix_v28 : rix main_v28 = 75 := by
  show ((75 : Fin (sig.nNear .tc .hbm)) : ℕ) = 75
  rw [Fin.coe_ofNat_eq_mod, nhbm]
theorem rix_v29 : rix main_v29 = 76 := by
  show ((76 : Fin (sig.nNear .tc .hbm)) : ℕ) = 76
  rw [Fin.coe_ofNat_eq_mod, nhbm]
theorem rix_v30 : rix main_v30 = 77 := by
  show ((77 : Fin (sig.nNear .tc .hbm)) : ℕ) = 77
  rw [Fin.coe_ofNat_eq_mod, nhbm]
theorem rix_v31 : rix main_v31 = 78 := by
  show ((78 : Fin (sig.nNear .tc .hbm)) : ℕ) = 78
  rw [Fin.coe_ofNat_eq_mod, nhbm]
theorem rix_v32 : rix main_v32 = 79 := by
  show ((79 : Fin (sig.nNear .tc .hbm)) : ℕ) = 79
  rw [Fin.coe_ofNat_eq_mod, nhbm]
theorem rix_v33 : rix main_v33 = 80 := by
  show ((80 : Fin (sig.nNear .tc .hbm)) : ℕ) = 80
  rw [Fin.coe_ofNat_eq_mod, nhbm]
theorem rix_cst_4 : rix main_cst_4 = 82 := by
  show ((82 : Fin (sig.nNear .tc .hbm)) : ℕ) = 82
  rw [Fin.coe_ofNat_eq_mod, nhbm]
theorem rix_v35 : rix main_v35 = 83 := by
  show ((83 : Fin (sig.nNear .tc .hbm)) : ℕ) = 83
  rw [Fin.coe_ofNat_eq_mod, nhbm]
theorem rix_v36 : rix main_v36 = 84 := by
  show ((84 : Fin (sig.nNear .tc .hbm)) : ℕ) = 84
  rw [Fin.coe_ofNat_eq_mod, nhbm]
theorem rix_cst_5 : rix main_cst_5 = 85 := by
  show ((85 : Fin (sig.nNear .tc .hbm)) : ℕ) = 85
  rw [Fin.coe_ofNat_eq_mod, nhbm]
theorem rix_v37 : rix main_v37 = 86 := by
  show ((86 : Fin (sig.nNear .tc .hbm)) : ℕ) = 86
  rw [Fin.coe_ofNat_eq_mod, nhbm]
theorem rix_v38 : rix main_v38 = 87 := by
  show ((87 : Fin (sig.nNear .tc .hbm)) : ℕ) = 87
  rw [Fin.coe_ofNat_eq_mod, nhbm]
theorem rix_c_6 : rix main_c_6 = 88 := by
  show ((88 : Fin (sig.nNear .tc .hbm)) : ℕ) = 88
  rw [Fin.coe_ofNat_eq_mod, nhbm]
theorem rix_call1_cst : rix main_call1_cst = 89 := by
  show ((89 : Fin (sig.nNear .tc .hbm)) : ℕ) = 89
  rw [Fin.coe_ofNat_eq_mod, nhbm]
theorem rix_call1_v0 : rix main_call1_v0 = 90 := by
  show ((90 : Fin (sig.nNear .tc .hbm)) : ℕ) = 90
  rw [Fin.coe_ofNat_eq_mod, nhbm]
theorem rix_call1_v1 : rix main_call1_v1 = 91 := by
  show ((91 : Fin (sig.nNear .tc .hbm)) : ℕ) = 91
  rw [Fin.coe_ofNat_eq_mod, nhbm]
theorem rix_call1_cst_0 : rix main_call1_cst_0 = 92 := by
  show ((92 : Fin (sig.nNear .tc .hbm)) : ℕ) = 92
  rw [Fin.coe_ofNat_eq_mod, nhbm]
theorem rix_call1_v2 : rix main_call1_v2 = 93 := by
  show ((93 : Fin (sig.nNear .tc .hbm)) : ℕ) = 93
  rw [Fin.coe_ofNat_eq_mod, nhbm]
theorem rix_call1_v3 : rix main_call1_v3 = 94 := by
  show ((94 : Fin (sig.nNear .tc .hbm)) : ℕ) = 94
  rw [Fin.coe_ofNat_eq_mod, nhbm]
theorem rix_call1_v4 : rix main_call1_v4 = 95 := by
  show ((95 : Fin (sig.nNear .tc .hbm)) : ℕ) = 95
  rw [Fin.coe_ofNat_eq_mod, nhbm]
theorem rix_call1_v5 : rix main_call1_v5 = 96 := by
  show ((96 : Fin (sig.nNear .tc .hbm)) : ℕ) = 96
  rw [Fin.coe_ofNat_eq_mod, nhbm]
theorem rix_call1_v6 : rix main_call1_v6 = 97 := by
  show ((97 : Fin (sig.nNear .tc .hbm)) : ℕ) = 97
  rw [Fin.coe_ofNat_eq_mod, nhbm]
theorem rix_call1_v7 : rix main_call1_v7 = 98 := by
  show ((98 : Fin (sig.nNear .tc .hbm)) : ℕ) = 98
  rw [Fin.coe_ofNat_eq_mod, nhbm]
theorem rix_call1_cst_1 : rix main_call1_cst_1 = 99 := by
  show ((99 : Fin (sig.nNear .tc .hbm)) : ℕ) = 99
  rw [Fin.coe_ofNat_eq_mod, nhbm]
theorem rix_call1_v8 : rix main_call1_v8 = 100 := by
  show ((100 : Fin (sig.nNear .tc .hbm)) : ℕ) = 100
  rw [Fin.coe_ofNat_eq_mod, nhbm]
theorem rix_call1_cst_2 : rix main_call1_cst_2 = 101 := by
  show ((101 : Fin (sig.nNear .tc .hbm)) : ℕ) = 101
  rw [Fin.coe_ofNat_eq_mod, nhbm]
theorem rix_call1_v9 : rix main_call1_v9 = 102 := by
  show ((102 : Fin (sig.nNear .tc .hbm)) : ℕ) = 102
  rw [Fin.coe_ofNat_eq_mod, nhbm]
theorem rix_call1_v10 : rix main_call1_v10 = 103 := by
  show ((103 : Fin (sig.nNear .tc .hbm)) : ℕ) = 103
  rw [Fin.coe_ofNat_eq_mod, nhbm]
theorem rix_call1_v11 : rix main_call1_v11 = 104 := by
  show ((104 : Fin (sig.nNear .tc .hbm)) : ℕ) = 104
  rw [Fin.coe_ofNat_eq_mod, nhbm]
theorem rix_call1_v12 : rix main_call1_v12 = 105 := by
  show ((105 : Fin (sig.nNear .tc .hbm)) : ℕ) = 105
  rw [Fin.coe_ofNat_eq_mod, nhbm]
theorem rix_call1_cst_3 : rix main_call1_cst_3 = 106 := by
  show ((106 : Fin (sig.nNear .tc .hbm)) : ℕ) = 106
  rw [Fin.coe_ofNat_eq_mod, nhbm]
theorem rix_call1_v13 : rix main_call1_v13 = 107 := by
  show ((107 : Fin (sig.nNear .tc .hbm)) : ℕ) = 107
  rw [Fin.coe_ofNat_eq_mod, nhbm]
theorem rix_call1_cst_4 : rix main_call1_cst_4 = 108 := by
  show ((108 : Fin (sig.nNear .tc .hbm)) : ℕ) = 108
  rw [Fin.coe_ofNat_eq_mod, nhbm]
theorem rix_call1_call0_v0 : rix main_call1_call0_v0 = 109 := by
  show ((109 : Fin (sig.nNear .tc .hbm)) : ℕ) = 109
  rw [Fin.coe_ofNat_eq_mod, nhbm]
theorem rix_call1_call0_v1 : rix main_call1_call0_v1 = 110 := by
  show ((110 : Fin (sig.nNear .tc .hbm)) : ℕ) = 110
  rw [Fin.coe_ofNat_eq_mod, nhbm]
theorem rix_v39 : rix main_v39 = 111 := by
  show ((111 : Fin (sig.nNear .tc .hbm)) : ℕ) = 111
  rw [Fin.coe_ofNat_eq_mod, nhbm]
theorem rix_v40 : rix main_v40 = 112 := by
  show ((112 : Fin (sig.nNear .tc .hbm)) : ℕ) = 112
  rw [Fin.coe_ofNat_eq_mod, nhbm]
theorem rix_v41 : rix main_v41 = 113 := by
  show ((113 : Fin (sig.nNear .tc .hbm)) : ℕ) = 113
  rw [Fin.coe_ofNat_eq_mod, nhbm]
theorem rix_v42 : rix main_v42 = 114 := by
  show ((114 : Fin (sig.nNear .tc .hbm)) : ℕ) = 114
  rw [Fin.coe_ofNat_eq_mod, nhbm]
theorem rix_v43 : rix main_v43 = 115 := by
  show ((115 : Fin (sig.nNear .tc .hbm)) : ℕ) = 115
  rw [Fin.coe_ofNat_eq_mod, nhbm]
theorem rix_v44 : rix main_v44 = 116 := by
  show ((116 : Fin (sig.nNear .tc .hbm)) : ℕ) = 116
  rw [Fin.coe_ofNat_eq_mod, nhbm]
theorem rix_v45 : rix main_v45 = 117 := by
  show ((117 : Fin (sig.nNear .tc .hbm)) : ℕ) = 117
  rw [Fin.coe_ofNat_eq_mod, nhbm]
theorem rix_cst_7 : rix main_cst_7 = 119 := by
  show ((119 : Fin (sig.nNear .tc .hbm)) : ℕ) = 119
  rw [Fin.coe_ofNat_eq_mod, nhbm]
theorem rix_v47 : rix main_v47 = 120 := by
  show ((120 : Fin (sig.nNear .tc .hbm)) : ℕ) = 120
  rw [Fin.coe_ofNat_eq_mod, nhbm]
theorem rix_v48 : rix main_v48 = 121 := by
  show ((121 : Fin (sig.nNear .tc .hbm)) : ℕ) = 121
  rw [Fin.coe_ofNat_eq_mod, nhbm]
theorem rix_cst_8 : rix main_cst_8 = 122 := by
  show ((122 : Fin (sig.nNear .tc .hbm)) : ℕ) = 122
  rw [Fin.coe_ofNat_eq_mod, nhbm]
theorem rix_v49 : rix main_v49 = 123 := by
  show ((123 : Fin (sig.nNear .tc .hbm)) : ℕ) = 123
  rw [Fin.coe_ofNat_eq_mod, nhbm]
theorem rix_v50 : rix main_v50 = 124 := by
  show ((124 : Fin (sig.nNear .tc .hbm)) : ℕ) = 124
  rw [Fin.coe_ofNat_eq_mod, nhbm]
theorem rix_c_9 : rix main_c_9 = 125 := by
  show ((125 : Fin (sig.nNear .tc .hbm)) : ℕ) = 125
  rw [Fin.coe_ofNat_eq_mod, nhbm]
theorem rix_call2_cst : rix main_call2_cst = 126 := by
  show ((126 : Fin (sig.nNear .tc .hbm)) : ℕ) = 126
  rw [Fin.coe_ofNat_eq_mod, nhbm]
theorem rix_call2_v0 : rix main_call2_v0 = 127 := by
  show ((127 : Fin (sig.nNear .tc .hbm)) : ℕ) = 127
  rw [Fin.coe_ofNat_eq_mod, nhbm]
theorem rix_call2_v1 : rix main_call2_v1 = 128 := by
  show ((128 : Fin (sig.nNear .tc .hbm)) : ℕ) = 128
  rw [Fin.coe_ofNat_eq_mod, nhbm]
theorem rix_call2_cst_0 : rix main_call2_cst_0 = 129 := by
  show ((129 : Fin (sig.nNear .tc .hbm)) : ℕ) = 129
  rw [Fin.coe_ofNat_eq_mod, nhbm]
theorem rix_call2_v2 : rix main_call2_v2 = 130 := by
  show ((130 : Fin (sig.nNear .tc .hbm)) : ℕ) = 130
  rw [Fin.coe_ofNat_eq_mod, nhbm]
theorem rix_call2_v3 : rix main_call2_v3 = 131 := by
  show ((131 : Fin (sig.nNear .tc .hbm)) : ℕ) = 131
  rw [Fin.coe_ofNat_eq_mod, nhbm]
theorem rix_call2_v4 : rix main_call2_v4 = 132 := by
  show ((132 : Fin (sig.nNear .tc .hbm)) : ℕ) = 132
  rw [Fin.coe_ofNat_eq_mod, nhbm]
theorem rix_call2_v5 : rix main_call2_v5 = 133 := by
  show ((133 : Fin (sig.nNear .tc .hbm)) : ℕ) = 133
  rw [Fin.coe_ofNat_eq_mod, nhbm]
theorem rix_call2_v6 : rix main_call2_v6 = 134 := by
  show ((134 : Fin (sig.nNear .tc .hbm)) : ℕ) = 134
  rw [Fin.coe_ofNat_eq_mod, nhbm]
theorem rix_call2_v7 : rix main_call2_v7 = 135 := by
  show ((135 : Fin (sig.nNear .tc .hbm)) : ℕ) = 135
  rw [Fin.coe_ofNat_eq_mod, nhbm]
theorem rix_call2_cst_1 : rix main_call2_cst_1 = 136 := by
  show ((136 : Fin (sig.nNear .tc .hbm)) : ℕ) = 136
  rw [Fin.coe_ofNat_eq_mod, nhbm]
theorem rix_call2_v8 : rix main_call2_v8 = 137 := by
  show ((137 : Fin (sig.nNear .tc .hbm)) : ℕ) = 137
  rw [Fin.coe_ofNat_eq_mod, nhbm]
theorem rix_call2_cst_2 : rix main_call2_cst_2 = 138 := by
  show ((138 : Fin (sig.nNear .tc .hbm)) : ℕ) = 138
  rw [Fin.coe_ofNat_eq_mod, nhbm]
theorem rix_call2_v9 : rix main_call2_v9 = 139 := by
  show ((139 : Fin (sig.nNear .tc .hbm)) : ℕ) = 139
  rw [Fin.coe_ofNat_eq_mod, nhbm]
theorem rix_call2_v10 : rix main_call2_v10 = 140 := by
  show ((140 : Fin (sig.nNear .tc .hbm)) : ℕ) = 140
  rw [Fin.coe_ofNat_eq_mod, nhbm]
theorem rix_call2_v11 : rix main_call2_v11 = 141 := by
  show ((141 : Fin (sig.nNear .tc .hbm)) : ℕ) = 141
  rw [Fin.coe_ofNat_eq_mod, nhbm]
theorem rix_call2_v12 : rix main_call2_v12 = 142 := by
  show ((142 : Fin (sig.nNear .tc .hbm)) : ℕ) = 142
  rw [Fin.coe_ofNat_eq_mod, nhbm]
theorem rix_call2_cst_3 : rix main_call2_cst_3 = 143 := by
  show ((143 : Fin (sig.nNear .tc .hbm)) : ℕ) = 143
  rw [Fin.coe_ofNat_eq_mod, nhbm]
theorem rix_call2_v13 : rix main_call2_v13 = 144 := by
  show ((144 : Fin (sig.nNear .tc .hbm)) : ℕ) = 144
  rw [Fin.coe_ofNat_eq_mod, nhbm]
theorem rix_call2_cst_4 : rix main_call2_cst_4 = 145 := by
  show ((145 : Fin (sig.nNear .tc .hbm)) : ℕ) = 145
  rw [Fin.coe_ofNat_eq_mod, nhbm]
theorem rix_call2_call0_v0 : rix main_call2_call0_v0 = 146 := by
  show ((146 : Fin (sig.nNear .tc .hbm)) : ℕ) = 146
  rw [Fin.coe_ofNat_eq_mod, nhbm]
theorem rix_call2_call0_v1 : rix main_call2_call0_v1 = 147 := by
  show ((147 : Fin (sig.nNear .tc .hbm)) : ℕ) = 147
  rw [Fin.coe_ofNat_eq_mod, nhbm]
theorem rix_v51 : rix main_v51 = 148 := by
  show ((148 : Fin (sig.nNear .tc .hbm)) : ℕ) = 148
  rw [Fin.coe_ofNat_eq_mod, nhbm]
theorem rix_v52 : rix main_v52 = 149 := by
  show ((149 : Fin (sig.nNear .tc .hbm)) : ℕ) = 149
  rw [Fin.coe_ofNat_eq_mod, nhbm]
theorem rix_v53 : rix main_v53 = 150 := by
  show ((150 : Fin (sig.nNear .tc .hbm)) : ℕ) = 150
  rw [Fin.coe_ofNat_eq_mod, nhbm]
theorem rix_v54 : rix main_v54 = 151 := by
  show ((151 : Fin (sig.nNear .tc .hbm)) : ℕ) = 151
  rw [Fin.coe_ofNat_eq_mod, nhbm]
theorem rix_v55 : rix main_v55 = 152 := by
  show ((152 : Fin (sig.nNear .tc .hbm)) : ℕ) = 152
  rw [Fin.coe_ofNat_eq_mod, nhbm]
theorem rix_v56 : rix main_v56 = 153 := by
  show ((153 : Fin (sig.nNear .tc .hbm)) : ℕ) = 153
  rw [Fin.coe_ofNat_eq_mod, nhbm]
theorem rix_v57 : rix main_v57 = 154 := by
  show ((154 : Fin (sig.nNear .tc .hbm)) : ℕ) = 154
  rw [Fin.coe_ofNat_eq_mod, nhbm]
theorem rix_c_10 : rix main_c_10 = 156 := by
  show ((156 : Fin (sig.nNear .tc .hbm)) : ℕ) = 156
  rw [Fin.coe_ofNat_eq_mod, nhbm]
theorem rix_v59 : rix main_v59 = 157 := by
  show ((157 : Fin (sig.nNear .tc .hbm)) : ℕ) = 157
  rw [Fin.coe_ofNat_eq_mod, nhbm]
theorem rix_v60 : rix main_v60 = 158 := by
  show ((158 : Fin (sig.nNear .tc .hbm)) : ℕ) = 158
  rw [Fin.coe_ofNat_eq_mod, nhbm]
theorem rix_c_11 : rix main_c_11 = 159 := by
  show ((159 : Fin (sig.nNear .tc .hbm)) : ℕ) = 159
  rw [Fin.coe_ofNat_eq_mod, nhbm]
theorem rix_v61 : rix main_v61 = 160 := by
  show ((160 : Fin (sig.nNear .tc .hbm)) : ℕ) = 160
  rw [Fin.coe_ofNat_eq_mod, nhbm]
theorem rix_v62 : rix main_v62 = 161 := by
  show ((161 : Fin (sig.nNear .tc .hbm)) : ℕ) = 161
  rw [Fin.coe_ofNat_eq_mod, nhbm]
theorem rix_v63 : rix main_v63 = 162 := by
  show ((162 : Fin (sig.nNear .tc .hbm)) : ℕ) = 162
  rw [Fin.coe_ofNat_eq_mod, nhbm]
theorem rix_v64 : rix main_v64 = 163 := by
  show ((163 : Fin (sig.nNear .tc .hbm)) : ℕ) = 163
  rw [Fin.coe_ofNat_eq_mod, nhbm]
theorem rix_v65 : rix main_v65 = 164 := by
  show ((164 : Fin (sig.nNear .tc .hbm)) : ℕ) = 164
  rw [Fin.coe_ofNat_eq_mod, nhbm]
theorem rix_cst_12 : rix main_cst_12 = 165 := by
  show ((165 : Fin (sig.nNear .tc .hbm)) : ℕ) = 165
  rw [Fin.coe_ofNat_eq_mod, nhbm]
theorem rix_v66 : rix main_v66 = 166 := by
  show ((166 : Fin (sig.nNear .tc .hbm)) : ℕ) = 166
  rw [Fin.coe_ofNat_eq_mod, nhbm]
theorem rix_v67 : rix main_v67 = 167 := by
  show ((167 : Fin (sig.nNear .tc .hbm)) : ℕ) = 167
  rw [Fin.coe_ofNat_eq_mod, nhbm]
theorem rix_v68 : rix main_v68 = 168 := by
  show ((168 : Fin (sig.nNear .tc .hbm)) : ℕ) = 168
  rw [Fin.coe_ofNat_eq_mod, nhbm]
theorem rix_v69 : rix main_v69 = 169 := by
  show ((169 : Fin (sig.nNear .tc .hbm)) : ℕ) = 169
  rw [Fin.coe_ofNat_eq_mod, nhbm]
theorem rix_v70 : rix main_v70 = 170 := by
  show ((170 : Fin (sig.nNear .tc .hbm)) : ℕ) = 170
  rw [Fin.coe_ofNat_eq_mod, nhbm]
theorem rix_v71 : rix main_v71 = 171 := by
  show ((171 : Fin (sig.nNear .tc .hbm)) : ℕ) = 171
  rw [Fin.coe_ofNat_eq_mod, nhbm]
theorem rix_v72 : rix main_v72 = 172 := by
  show ((172 : Fin (sig.nNear .tc .hbm)) : ℕ) = 172
  rw [Fin.coe_ofNat_eq_mod, nhbm]
theorem rix_v73 : rix main_v73 = 173 := by
  show ((173 : Fin (sig.nNear .tc .hbm)) : ℕ) = 173
  rw [Fin.coe_ofNat_eq_mod, nhbm]
theorem rix_cst_13 : rix main_cst_13 = 175 := by
  show ((175 : Fin (sig.nNear .tc .hbm)) : ℕ) = 175
  rw [Fin.coe_ofNat_eq_mod, nhbm]
theorem rix_v75 : rix main_v75 = 176 := by
  show ((176 : Fin (sig.nNear .tc .hbm)) : ℕ) = 176
  rw [Fin.coe_ofNat_eq_mod, nhbm]
theorem rix_v76 : rix main_v76 = 177 := by
  show ((177 : Fin (sig.nNear .tc .hbm)) : ℕ) = 177
  rw [Fin.coe_ofNat_eq_mod, nhbm]
theorem rix_cst_14 : rix main_cst_14 = 178 := by
  show ((178 : Fin (sig.nNear .tc .hbm)) : ℕ) = 178
  rw [Fin.coe_ofNat_eq_mod, nhbm]
theorem rix_v77 : rix main_v77 = 179 := by
  show ((179 : Fin (sig.nNear .tc .hbm)) : ℕ) = 179
  rw [Fin.coe_ofNat_eq_mod, nhbm]
theorem rix_v78 : rix main_v78 = 180 := by
  show ((180 : Fin (sig.nNear .tc .hbm)) : ℕ) = 180
  rw [Fin.coe_ofNat_eq_mod, nhbm]
theorem rix_c_15 : rix main_c_15 = 181 := by
  show ((181 : Fin (sig.nNear .tc .hbm)) : ℕ) = 181
  rw [Fin.coe_ofNat_eq_mod, nhbm]
theorem rix_call3_cst : rix main_call3_cst = 182 := by
  show ((182 : Fin (sig.nNear .tc .hbm)) : ℕ) = 182
  rw [Fin.coe_ofNat_eq_mod, nhbm]
theorem rix_call3_v0 : rix main_call3_v0 = 183 := by
  show ((183 : Fin (sig.nNear .tc .hbm)) : ℕ) = 183
  rw [Fin.coe_ofNat_eq_mod, nhbm]
theorem rix_call3_v1 : rix main_call3_v1 = 184 := by
  show ((184 : Fin (sig.nNear .tc .hbm)) : ℕ) = 184
  rw [Fin.coe_ofNat_eq_mod, nhbm]
theorem rix_call3_cst_0 : rix main_call3_cst_0 = 185 := by
  show ((185 : Fin (sig.nNear .tc .hbm)) : ℕ) = 185
  rw [Fin.coe_ofNat_eq_mod, nhbm]
theorem rix_call3_v2 : rix main_call3_v2 = 186 := by
  show ((186 : Fin (sig.nNear .tc .hbm)) : ℕ) = 186
  rw [Fin.coe_ofNat_eq_mod, nhbm]
theorem rix_call3_v3 : rix main_call3_v3 = 187 := by
  show ((187 : Fin (sig.nNear .tc .hbm)) : ℕ) = 187
  rw [Fin.coe_ofNat_eq_mod, nhbm]
theorem rix_call3_v4 : rix main_call3_v4 = 188 := by
  show ((188 : Fin (sig.nNear .tc .hbm)) : ℕ) = 188
  rw [Fin.coe_ofNat_eq_mod, nhbm]
theorem rix_call3_v5 : rix main_call3_v5 = 189 := by
  show ((189 : Fin (sig.nNear .tc .hbm)) : ℕ) = 189
  rw [Fin.coe_ofNat_eq_mod, nhbm]
theorem rix_call3_v6 : rix main_call3_v6 = 190 := by
  show ((190 : Fin (sig.nNear .tc .hbm)) : ℕ) = 190
  rw [Fin.coe_ofNat_eq_mod, nhbm]
theorem rix_call3_v7 : rix main_call3_v7 = 191 := by
  show ((191 : Fin (sig.nNear .tc .hbm)) : ℕ) = 191
  rw [Fin.coe_ofNat_eq_mod, nhbm]
theorem rix_call3_cst_1 : rix main_call3_cst_1 = 192 := by
  show ((192 : Fin (sig.nNear .tc .hbm)) : ℕ) = 192
  rw [Fin.coe_ofNat_eq_mod, nhbm]
theorem rix_call3_v8 : rix main_call3_v8 = 193 := by
  show ((193 : Fin (sig.nNear .tc .hbm)) : ℕ) = 193
  rw [Fin.coe_ofNat_eq_mod, nhbm]
theorem rix_call3_cst_2 : rix main_call3_cst_2 = 194 := by
  show ((194 : Fin (sig.nNear .tc .hbm)) : ℕ) = 194
  rw [Fin.coe_ofNat_eq_mod, nhbm]
theorem rix_call3_v9 : rix main_call3_v9 = 195 := by
  show ((195 : Fin (sig.nNear .tc .hbm)) : ℕ) = 195
  rw [Fin.coe_ofNat_eq_mod, nhbm]
theorem rix_call3_v10 : rix main_call3_v10 = 196 := by
  show ((196 : Fin (sig.nNear .tc .hbm)) : ℕ) = 196
  rw [Fin.coe_ofNat_eq_mod, nhbm]
theorem rix_call3_v11 : rix main_call3_v11 = 197 := by
  show ((197 : Fin (sig.nNear .tc .hbm)) : ℕ) = 197
  rw [Fin.coe_ofNat_eq_mod, nhbm]
theorem rix_call3_v12 : rix main_call3_v12 = 198 := by
  show ((198 : Fin (sig.nNear .tc .hbm)) : ℕ) = 198
  rw [Fin.coe_ofNat_eq_mod, nhbm]
theorem rix_call3_cst_3 : rix main_call3_cst_3 = 199 := by
  show ((199 : Fin (sig.nNear .tc .hbm)) : ℕ) = 199
  rw [Fin.coe_ofNat_eq_mod, nhbm]
theorem rix_call3_v13 : rix main_call3_v13 = 200 := by
  show ((200 : Fin (sig.nNear .tc .hbm)) : ℕ) = 200
  rw [Fin.coe_ofNat_eq_mod, nhbm]
theorem rix_call3_cst_4 : rix main_call3_cst_4 = 201 := by
  show ((201 : Fin (sig.nNear .tc .hbm)) : ℕ) = 201
  rw [Fin.coe_ofNat_eq_mod, nhbm]
theorem rix_call3_call0_v0 : rix main_call3_call0_v0 = 202 := by
  show ((202 : Fin (sig.nNear .tc .hbm)) : ℕ) = 202
  rw [Fin.coe_ofNat_eq_mod, nhbm]
theorem rix_call3_call0_v1 : rix main_call3_call0_v1 = 203 := by
  show ((203 : Fin (sig.nNear .tc .hbm)) : ℕ) = 203
  rw [Fin.coe_ofNat_eq_mod, nhbm]
theorem rix_v79 : rix main_v79 = 204 := by
  show ((204 : Fin (sig.nNear .tc .hbm)) : ℕ) = 204
  rw [Fin.coe_ofNat_eq_mod, nhbm]
theorem rix_v80 : rix main_v80 = 205 := by
  show ((205 : Fin (sig.nNear .tc .hbm)) : ℕ) = 205
  rw [Fin.coe_ofNat_eq_mod, nhbm]
theorem rix_v81 : rix main_v81 = 206 := by
  show ((206 : Fin (sig.nNear .tc .hbm)) : ℕ) = 206
  rw [Fin.coe_ofNat_eq_mod, nhbm]
theorem rix_v82 : rix main_v82 = 207 := by
  show ((207 : Fin (sig.nNear .tc .hbm)) : ℕ) = 207
  rw [Fin.coe_ofNat_eq_mod, nhbm]
theorem rix_v83 : rix main_v83 = 208 := by
  show ((208 : Fin (sig.nNear .tc .hbm)) : ℕ) = 208
  rw [Fin.coe_ofNat_eq_mod, nhbm]
theorem rix_v84 : rix main_v84 = 209 := by
  show ((209 : Fin (sig.nNear .tc .hbm)) : ℕ) = 209
  rw [Fin.coe_ofNat_eq_mod, nhbm]
theorem rix_v85 : rix main_v85 = 210 := by
  show ((210 : Fin (sig.nNear .tc .hbm)) : ℕ) = 210
  rw [Fin.coe_ofNat_eq_mod, nhbm]
theorem rix_v86 : rix main_v86 = 211 := by
  show ((211 : Fin (sig.nNear .tc .hbm)) : ℕ) = 211
  rw [Fin.coe_ofNat_eq_mod, nhbm]
theorem rix_v87 : rix main_v87 = 212 := by
  show ((212 : Fin (sig.nNear .tc .hbm)) : ℕ) = 212
  rw [Fin.coe_ofNat_eq_mod, nhbm]
theorem rix_v88 : rix main_v88 = 213 := by
  show ((213 : Fin (sig.nNear .tc .hbm)) : ℕ) = 213
  rw [Fin.coe_ofNat_eq_mod, nhbm]
theorem rix_v89 : rix main_v89 = 214 := by
  show ((214 : Fin (sig.nNear .tc .hbm)) : ℕ) = 214
  rw [Fin.coe_ofNat_eq_mod, nhbm]
theorem rix_v90 : rix main_v90 = 215 := by
  show ((215 : Fin (sig.nNear .tc .hbm)) : ℕ) = 215
  rw [Fin.coe_ofNat_eq_mod, nhbm]
theorem rix_cst_16 : rix main_cst_16 = 217 := by
  show ((217 : Fin (sig.nNear .tc .hbm)) : ℕ) = 217
  rw [Fin.coe_ofNat_eq_mod, nhbm]
theorem rix_v92 : rix main_v92 = 218 := by
  show ((218 : Fin (sig.nNear .tc .hbm)) : ℕ) = 218
  rw [Fin.coe_ofNat_eq_mod, nhbm]
theorem rix_v93 : rix main_v93 = 219 := by
  show ((219 : Fin (sig.nNear .tc .hbm)) : ℕ) = 219
  rw [Fin.coe_ofNat_eq_mod, nhbm]
theorem rix_cst_17 : rix main_cst_17 = 220 := by
  show ((220 : Fin (sig.nNear .tc .hbm)) : ℕ) = 220
  rw [Fin.coe_ofNat_eq_mod, nhbm]
theorem rix_v94 : rix main_v94 = 221 := by
  show ((221 : Fin (sig.nNear .tc .hbm)) : ℕ) = 221
  rw [Fin.coe_ofNat_eq_mod, nhbm]
theorem rix_v95 : rix main_v95 = 222 := by
  show ((222 : Fin (sig.nNear .tc .hbm)) : ℕ) = 222
  rw [Fin.coe_ofNat_eq_mod, nhbm]
theorem rix_c_18 : rix main_c_18 = 223 := by
  show ((223 : Fin (sig.nNear .tc .hbm)) : ℕ) = 223
  rw [Fin.coe_ofNat_eq_mod, nhbm]
theorem rix_call4_cst : rix main_call4_cst = 224 := by
  show ((224 : Fin (sig.nNear .tc .hbm)) : ℕ) = 224
  rw [Fin.coe_ofNat_eq_mod, nhbm]
theorem rix_call4_v0 : rix main_call4_v0 = 225 := by
  show ((225 : Fin (sig.nNear .tc .hbm)) : ℕ) = 225
  rw [Fin.coe_ofNat_eq_mod, nhbm]
theorem rix_call4_v1 : rix main_call4_v1 = 226 := by
  show ((226 : Fin (sig.nNear .tc .hbm)) : ℕ) = 226
  rw [Fin.coe_ofNat_eq_mod, nhbm]
theorem rix_call4_cst_0 : rix main_call4_cst_0 = 227 := by
  show ((227 : Fin (sig.nNear .tc .hbm)) : ℕ) = 227
  rw [Fin.coe_ofNat_eq_mod, nhbm]
theorem rix_call4_v2 : rix main_call4_v2 = 228 := by
  show ((228 : Fin (sig.nNear .tc .hbm)) : ℕ) = 228
  rw [Fin.coe_ofNat_eq_mod, nhbm]
theorem rix_call4_v3 : rix main_call4_v3 = 229 := by
  show ((229 : Fin (sig.nNear .tc .hbm)) : ℕ) = 229
  rw [Fin.coe_ofNat_eq_mod, nhbm]
theorem rix_call4_v4 : rix main_call4_v4 = 230 := by
  show ((230 : Fin (sig.nNear .tc .hbm)) : ℕ) = 230
  rw [Fin.coe_ofNat_eq_mod, nhbm]
theorem rix_call4_v5 : rix main_call4_v5 = 231 := by
  show ((231 : Fin (sig.nNear .tc .hbm)) : ℕ) = 231
  rw [Fin.coe_ofNat_eq_mod, nhbm]
theorem rix_call4_v6 : rix main_call4_v6 = 232 := by
  show ((232 : Fin (sig.nNear .tc .hbm)) : ℕ) = 232
  rw [Fin.coe_ofNat_eq_mod, nhbm]
theorem rix_call4_v7 : rix main_call4_v7 = 233 := by
  show ((233 : Fin (sig.nNear .tc .hbm)) : ℕ) = 233
  rw [Fin.coe_ofNat_eq_mod, nhbm]
theorem rix_call4_cst_1 : rix main_call4_cst_1 = 234 := by
  show ((234 : Fin (sig.nNear .tc .hbm)) : ℕ) = 234
  rw [Fin.coe_ofNat_eq_mod, nhbm]
theorem rix_call4_v8 : rix main_call4_v8 = 235 := by
  show ((235 : Fin (sig.nNear .tc .hbm)) : ℕ) = 235
  rw [Fin.coe_ofNat_eq_mod, nhbm]
theorem rix_call4_cst_2 : rix main_call4_cst_2 = 236 := by
  show ((236 : Fin (sig.nNear .tc .hbm)) : ℕ) = 236
  rw [Fin.coe_ofNat_eq_mod, nhbm]
theorem rix_call4_v9 : rix main_call4_v9 = 237 := by
  show ((237 : Fin (sig.nNear .tc .hbm)) : ℕ) = 237
  rw [Fin.coe_ofNat_eq_mod, nhbm]
theorem rix_call4_v10 : rix main_call4_v10 = 238 := by
  show ((238 : Fin (sig.nNear .tc .hbm)) : ℕ) = 238
  rw [Fin.coe_ofNat_eq_mod, nhbm]
theorem rix_call4_v11 : rix main_call4_v11 = 239 := by
  show ((239 : Fin (sig.nNear .tc .hbm)) : ℕ) = 239
  rw [Fin.coe_ofNat_eq_mod, nhbm]
theorem rix_call4_v12 : rix main_call4_v12 = 240 := by
  show ((240 : Fin (sig.nNear .tc .hbm)) : ℕ) = 240
  rw [Fin.coe_ofNat_eq_mod, nhbm]
theorem rix_call4_cst_3 : rix main_call4_cst_3 = 241 := by
  show ((241 : Fin (sig.nNear .tc .hbm)) : ℕ) = 241
  rw [Fin.coe_ofNat_eq_mod, nhbm]
theorem rix_call4_v13 : rix main_call4_v13 = 242 := by
  show ((242 : Fin (sig.nNear .tc .hbm)) : ℕ) = 242
  rw [Fin.coe_ofNat_eq_mod, nhbm]
theorem rix_call4_cst_4 : rix main_call4_cst_4 = 243 := by
  show ((243 : Fin (sig.nNear .tc .hbm)) : ℕ) = 243
  rw [Fin.coe_ofNat_eq_mod, nhbm]
theorem rix_call4_call0_v0 : rix main_call4_call0_v0 = 244 := by
  show ((244 : Fin (sig.nNear .tc .hbm)) : ℕ) = 244
  rw [Fin.coe_ofNat_eq_mod, nhbm]
theorem rix_call4_call0_v1 : rix main_call4_call0_v1 = 245 := by
  show ((245 : Fin (sig.nNear .tc .hbm)) : ℕ) = 245
  rw [Fin.coe_ofNat_eq_mod, nhbm]
theorem rix_v96 : rix main_v96 = 246 := by
  show ((246 : Fin (sig.nNear .tc .hbm)) : ℕ) = 246
  rw [Fin.coe_ofNat_eq_mod, nhbm]
theorem rix_v97 : rix main_v97 = 247 := by
  show ((247 : Fin (sig.nNear .tc .hbm)) : ℕ) = 247
  rw [Fin.coe_ofNat_eq_mod, nhbm]
theorem rix_v98 : rix main_v98 = 248 := by
  show ((248 : Fin (sig.nNear .tc .hbm)) : ℕ) = 248
  rw [Fin.coe_ofNat_eq_mod, nhbm]
theorem rix_v99 : rix main_v99 = 249 := by
  show ((249 : Fin (sig.nNear .tc .hbm)) : ℕ) = 249
  rw [Fin.coe_ofNat_eq_mod, nhbm]
theorem rix_v100 : rix main_v100 = 250 := by
  show ((250 : Fin (sig.nNear .tc .hbm)) : ℕ) = 250
  rw [Fin.coe_ofNat_eq_mod, nhbm]
theorem rix_v101 : rix main_v101 = 251 := by
  show ((251 : Fin (sig.nNear .tc .hbm)) : ℕ) = 251
  rw [Fin.coe_ofNat_eq_mod, nhbm]
theorem rix_v102 : rix main_v102 = 252 := by
  show ((252 : Fin (sig.nNear .tc .hbm)) : ℕ) = 252
  rw [Fin.coe_ofNat_eq_mod, nhbm]
theorem rix_cst_19 : rix main_cst_19 = 254 := by
  show ((254 : Fin (sig.nNear .tc .hbm)) : ℕ) = 254
  rw [Fin.coe_ofNat_eq_mod, nhbm]
theorem rix_v104 : rix main_v104 = 255 := by
  show ((255 : Fin (sig.nNear .tc .hbm)) : ℕ) = 255
  rw [Fin.coe_ofNat_eq_mod, nhbm]
theorem rix_v105 : rix main_v105 = 256 := by
  show ((256 : Fin (sig.nNear .tc .hbm)) : ℕ) = 256
  rw [Fin.coe_ofNat_eq_mod, nhbm]
theorem rix_cst_20 : rix main_cst_20 = 257 := by
  show ((257 : Fin (sig.nNear .tc .hbm)) : ℕ) = 257
  rw [Fin.coe_ofNat_eq_mod, nhbm]
theorem rix_v106 : rix main_v106 = 258 := by
  show ((258 : Fin (sig.nNear .tc .hbm)) : ℕ) = 258
  rw [Fin.coe_ofNat_eq_mod, nhbm]
theorem rix_v107 : rix main_v107 = 259 := by
  show ((259 : Fin (sig.nNear .tc .hbm)) : ℕ) = 259
  rw [Fin.coe_ofNat_eq_mod, nhbm]
theorem rix_c_21 : rix main_c_21 = 260 := by
  show ((260 : Fin (sig.nNear .tc .hbm)) : ℕ) = 260
  rw [Fin.coe_ofNat_eq_mod, nhbm]
theorem rix_call5_cst : rix main_call5_cst = 261 := by
  show ((261 : Fin (sig.nNear .tc .hbm)) : ℕ) = 261
  rw [Fin.coe_ofNat_eq_mod, nhbm]
theorem rix_call5_v0 : rix main_call5_v0 = 262 := by
  show ((262 : Fin (sig.nNear .tc .hbm)) : ℕ) = 262
  rw [Fin.coe_ofNat_eq_mod, nhbm]
theorem rix_call5_v1 : rix main_call5_v1 = 263 := by
  show ((263 : Fin (sig.nNear .tc .hbm)) : ℕ) = 263
  rw [Fin.coe_ofNat_eq_mod, nhbm]
theorem rix_call5_cst_0 : rix main_call5_cst_0 = 264 := by
  show ((264 : Fin (sig.nNear .tc .hbm)) : ℕ) = 264
  rw [Fin.coe_ofNat_eq_mod, nhbm]
theorem rix_call5_v2 : rix main_call5_v2 = 265 := by
  show ((265 : Fin (sig.nNear .tc .hbm)) : ℕ) = 265
  rw [Fin.coe_ofNat_eq_mod, nhbm]
theorem rix_call5_v3 : rix main_call5_v3 = 266 := by
  show ((266 : Fin (sig.nNear .tc .hbm)) : ℕ) = 266
  rw [Fin.coe_ofNat_eq_mod, nhbm]
theorem rix_call5_v4 : rix main_call5_v4 = 267 := by
  show ((267 : Fin (sig.nNear .tc .hbm)) : ℕ) = 267
  rw [Fin.coe_ofNat_eq_mod, nhbm]
theorem rix_call5_v5 : rix main_call5_v5 = 268 := by
  show ((268 : Fin (sig.nNear .tc .hbm)) : ℕ) = 268
  rw [Fin.coe_ofNat_eq_mod, nhbm]
theorem rix_call5_v6 : rix main_call5_v6 = 269 := by
  show ((269 : Fin (sig.nNear .tc .hbm)) : ℕ) = 269
  rw [Fin.coe_ofNat_eq_mod, nhbm]
theorem rix_call5_v7 : rix main_call5_v7 = 270 := by
  show ((270 : Fin (sig.nNear .tc .hbm)) : ℕ) = 270
  rw [Fin.coe_ofNat_eq_mod, nhbm]
theorem rix_call5_cst_1 : rix main_call5_cst_1 = 271 := by
  show ((271 : Fin (sig.nNear .tc .hbm)) : ℕ) = 271
  rw [Fin.coe_ofNat_eq_mod, nhbm]
theorem rix_call5_v8 : rix main_call5_v8 = 272 := by
  show ((272 : Fin (sig.nNear .tc .hbm)) : ℕ) = 272
  rw [Fin.coe_ofNat_eq_mod, nhbm]
theorem rix_call5_cst_2 : rix main_call5_cst_2 = 273 := by
  show ((273 : Fin (sig.nNear .tc .hbm)) : ℕ) = 273
  rw [Fin.coe_ofNat_eq_mod, nhbm]
theorem rix_call5_v9 : rix main_call5_v9 = 274 := by
  show ((274 : Fin (sig.nNear .tc .hbm)) : ℕ) = 274
  rw [Fin.coe_ofNat_eq_mod, nhbm]
theorem rix_call5_v10 : rix main_call5_v10 = 275 := by
  show ((275 : Fin (sig.nNear .tc .hbm)) : ℕ) = 275
  rw [Fin.coe_ofNat_eq_mod, nhbm]
theorem rix_call5_v11 : rix main_call5_v11 = 276 := by
  show ((276 : Fin (sig.nNear .tc .hbm)) : ℕ) = 276
  rw [Fin.coe_ofNat_eq_mod, nhbm]
theorem rix_call5_v12 : rix main_call5_v12 = 277 := by
  show ((277 : Fin (sig.nNear .tc .hbm)) : ℕ) = 277
  rw [Fin.coe_ofNat_eq_mod, nhbm]
theorem rix_call5_cst_3 : rix main_call5_cst_3 = 278 := by
  show ((278 : Fin (sig.nNear .tc .hbm)) : ℕ) = 278
  rw [Fin.coe_ofNat_eq_mod, nhbm]
theorem rix_call5_v13 : rix main_call5_v13 = 279 := by
  show ((279 : Fin (sig.nNear .tc .hbm)) : ℕ) = 279
  rw [Fin.coe_ofNat_eq_mod, nhbm]
theorem rix_call5_cst_4 : rix main_call5_cst_4 = 280 := by
  show ((280 : Fin (sig.nNear .tc .hbm)) : ℕ) = 280
  rw [Fin.coe_ofNat_eq_mod, nhbm]
theorem rix_call5_call0_v0 : rix main_call5_call0_v0 = 281 := by
  show ((281 : Fin (sig.nNear .tc .hbm)) : ℕ) = 281
  rw [Fin.coe_ofNat_eq_mod, nhbm]
theorem rix_call5_call0_v1 : rix main_call5_call0_v1 = 282 := by
  show ((282 : Fin (sig.nNear .tc .hbm)) : ℕ) = 282
  rw [Fin.coe_ofNat_eq_mod, nhbm]
theorem rix_v108 : rix main_v108 = 283 := by
  show ((283 : Fin (sig.nNear .tc .hbm)) : ℕ) = 283
  rw [Fin.coe_ofNat_eq_mod, nhbm]
theorem rix_v109 : rix main_v109 = 284 := by
  show ((284 : Fin (sig.nNear .tc .hbm)) : ℕ) = 284
  rw [Fin.coe_ofNat_eq_mod, nhbm]
theorem rix_v110 : rix main_v110 = 285 := by
  show ((285 : Fin (sig.nNear .tc .hbm)) : ℕ) = 285
  rw [Fin.coe_ofNat_eq_mod, nhbm]
theorem rix_v111 : rix main_v111 = 286 := by
  show ((286 : Fin (sig.nNear .tc .hbm)) : ℕ) = 286
  rw [Fin.coe_ofNat_eq_mod, nhbm]
theorem rix_v112 : rix main_v112 = 287 := by
  show ((287 : Fin (sig.nNear .tc .hbm)) : ℕ) = 287
  rw [Fin.coe_ofNat_eq_mod, nhbm]
theorem rix_v113 : rix main_v113 = 288 := by
  show ((288 : Fin (sig.nNear .tc .hbm)) : ℕ) = 288
  rw [Fin.coe_ofNat_eq_mod, nhbm]
theorem rix_v114 : rix main_v114 = 289 := by
  show ((289 : Fin (sig.nNear .tc .hbm)) : ℕ) = 289
  rw [Fin.coe_ofNat_eq_mod, nhbm]
theorem rix_c_22 : rix main_c_22 = 291 := by
  show ((291 : Fin (sig.nNear .tc .hbm)) : ℕ) = 291
  rw [Fin.coe_ofNat_eq_mod, nhbm]
theorem rix_v116 : rix main_v116 = 292 := by
  show ((292 : Fin (sig.nNear .tc .hbm)) : ℕ) = 292
  rw [Fin.coe_ofNat_eq_mod, nhbm]
theorem rix_v117 : rix main_v117 = 293 := by
  show ((293 : Fin (sig.nNear .tc .hbm)) : ℕ) = 293
  rw [Fin.coe_ofNat_eq_mod, nhbm]
theorem rix_c_23 : rix main_c_23 = 294 := by
  show ((294 : Fin (sig.nNear .tc .hbm)) : ℕ) = 294
  rw [Fin.coe_ofNat_eq_mod, nhbm]
theorem rix_v118 : rix main_v118 = 295 := by
  show ((295 : Fin (sig.nNear .tc .hbm)) : ℕ) = 295
  rw [Fin.coe_ofNat_eq_mod, nhbm]
theorem rix_v119 : rix main_v119 = 296 := by
  show ((296 : Fin (sig.nNear .tc .hbm)) : ℕ) = 296
  rw [Fin.coe_ofNat_eq_mod, nhbm]
theorem rix_v120 : rix main_v120 = 297 := by
  show ((297 : Fin (sig.nNear .tc .hbm)) : ℕ) = 297
  rw [Fin.coe_ofNat_eq_mod, nhbm]
theorem rix_v121 : rix main_v121 = 298 := by
  show ((298 : Fin (sig.nNear .tc .hbm)) : ℕ) = 298
  rw [Fin.coe_ofNat_eq_mod, nhbm]
theorem rix_v122 : rix main_v122 = 299 := by
  show ((299 : Fin (sig.nNear .tc .hbm)) : ℕ) = 299
  rw [Fin.coe_ofNat_eq_mod, nhbm]
theorem rix_cst_24 : rix main_cst_24 = 300 := by
  show ((300 : Fin (sig.nNear .tc .hbm)) : ℕ) = 300
  rw [Fin.coe_ofNat_eq_mod, nhbm]
theorem rix_v123 : rix main_v123 = 301 := by
  show ((301 : Fin (sig.nNear .tc .hbm)) : ℕ) = 301
  rw [Fin.coe_ofNat_eq_mod, nhbm]
theorem rix_v124 : rix main_v124 = 302 := by
  show ((302 : Fin (sig.nNear .tc .hbm)) : ℕ) = 302
  rw [Fin.coe_ofNat_eq_mod, nhbm]
theorem rix_v125 : rix main_v125 = 303 := by
  show ((303 : Fin (sig.nNear .tc .hbm)) : ℕ) = 303
  rw [Fin.coe_ofNat_eq_mod, nhbm]
theorem rix_v126 : rix main_v126 = 304 := by
  show ((304 : Fin (sig.nNear .tc .hbm)) : ℕ) = 304
  rw [Fin.coe_ofNat_eq_mod, nhbm]
theorem rix_v127 : rix main_v127 = 305 := by
  show ((305 : Fin (sig.nNear .tc .hbm)) : ℕ) = 305
  rw [Fin.coe_ofNat_eq_mod, nhbm]
theorem rix_v128 : rix main_v128 = 306 := by
  show ((306 : Fin (sig.nNear .tc .hbm)) : ℕ) = 306
  rw [Fin.coe_ofNat_eq_mod, nhbm]
theorem rix_v129 : rix main_v129 = 307 := by
  show ((307 : Fin (sig.nNear .tc .hbm)) : ℕ) = 307
  rw [Fin.coe_ofNat_eq_mod, nhbm]
theorem rix_v130 : rix main_v130 = 308 := by
  show ((308 : Fin (sig.nNear .tc .hbm)) : ℕ) = 308
  rw [Fin.coe_ofNat_eq_mod, nhbm]
theorem rix_cst_25 : rix main_cst_25 = 310 := by
  show ((310 : Fin (sig.nNear .tc .hbm)) : ℕ) = 310
  rw [Fin.coe_ofNat_eq_mod, nhbm]
theorem rix_v132 : rix main_v132 = 311 := by
  show ((311 : Fin (sig.nNear .tc .hbm)) : ℕ) = 311
  rw [Fin.coe_ofNat_eq_mod, nhbm]
theorem rix_v133 : rix main_v133 = 312 := by
  show ((312 : Fin (sig.nNear .tc .hbm)) : ℕ) = 312
  rw [Fin.coe_ofNat_eq_mod, nhbm]
theorem rix_cst_26 : rix main_cst_26 = 313 := by
  show ((313 : Fin (sig.nNear .tc .hbm)) : ℕ) = 313
  rw [Fin.coe_ofNat_eq_mod, nhbm]
theorem rix_v134 : rix main_v134 = 314 := by
  show ((314 : Fin (sig.nNear .tc .hbm)) : ℕ) = 314
  rw [Fin.coe_ofNat_eq_mod, nhbm]
theorem rix_v135 : rix main_v135 = 315 := by
  show ((315 : Fin (sig.nNear .tc .hbm)) : ℕ) = 315
  rw [Fin.coe_ofNat_eq_mod, nhbm]
theorem rix_c_27 : rix main_c_27 = 316 := by
  show ((316 : Fin (sig.nNear .tc .hbm)) : ℕ) = 316
  rw [Fin.coe_ofNat_eq_mod, nhbm]
theorem rix_call6_cst : rix main_call6_cst = 317 := by
  show ((317 : Fin (sig.nNear .tc .hbm)) : ℕ) = 317
  rw [Fin.coe_ofNat_eq_mod, nhbm]
theorem rix_call6_v0 : rix main_call6_v0 = 318 := by
  show ((318 : Fin (sig.nNear .tc .hbm)) : ℕ) = 318
  rw [Fin.coe_ofNat_eq_mod, nhbm]
theorem rix_call6_v1 : rix main_call6_v1 = 319 := by
  show ((319 : Fin (sig.nNear .tc .hbm)) : ℕ) = 319
  rw [Fin.coe_ofNat_eq_mod, nhbm]
theorem rix_call6_cst_0 : rix main_call6_cst_0 = 320 := by
  show ((320 : Fin (sig.nNear .tc .hbm)) : ℕ) = 320
  rw [Fin.coe_ofNat_eq_mod, nhbm]
theorem rix_call6_v2 : rix main_call6_v2 = 321 := by
  show ((321 : Fin (sig.nNear .tc .hbm)) : ℕ) = 321
  rw [Fin.coe_ofNat_eq_mod, nhbm]
theorem rix_call6_v3 : rix main_call6_v3 = 322 := by
  show ((322 : Fin (sig.nNear .tc .hbm)) : ℕ) = 322
  rw [Fin.coe_ofNat_eq_mod, nhbm]
theorem rix_call6_v4 : rix main_call6_v4 = 323 := by
  show ((323 : Fin (sig.nNear .tc .hbm)) : ℕ) = 323
  rw [Fin.coe_ofNat_eq_mod, nhbm]
theorem rix_call6_v5 : rix main_call6_v5 = 324 := by
  show ((324 : Fin (sig.nNear .tc .hbm)) : ℕ) = 324
  rw [Fin.coe_ofNat_eq_mod, nhbm]
theorem rix_call6_v6 : rix main_call6_v6 = 325 := by
  show ((325 : Fin (sig.nNear .tc .hbm)) : ℕ) = 325
  rw [Fin.coe_ofNat_eq_mod, nhbm]
theorem rix_call6_v7 : rix main_call6_v7 = 326 := by
  show ((326 : Fin (sig.nNear .tc .hbm)) : ℕ) = 326
  rw [Fin.coe_ofNat_eq_mod, nhbm]
theorem rix_call6_cst_1 : rix main_call6_cst_1 = 327 := by
  show ((327 : Fin (sig.nNear .tc .hbm)) : ℕ) = 327
  rw [Fin.coe_ofNat_eq_mod, nhbm]
theorem rix_call6_v8 : rix main_call6_v8 = 328 := by
  show ((328 : Fin (sig.nNear .tc .hbm)) : ℕ) = 328
  rw [Fin.coe_ofNat_eq_mod, nhbm]
theorem rix_call6_cst_2 : rix main_call6_cst_2 = 329 := by
  show ((329 : Fin (sig.nNear .tc .hbm)) : ℕ) = 329
  rw [Fin.coe_ofNat_eq_mod, nhbm]
theorem rix_call6_v9 : rix main_call6_v9 = 330 := by
  show ((330 : Fin (sig.nNear .tc .hbm)) : ℕ) = 330
  rw [Fin.coe_ofNat_eq_mod, nhbm]
theorem rix_call6_v10 : rix main_call6_v10 = 331 := by
  show ((331 : Fin (sig.nNear .tc .hbm)) : ℕ) = 331
  rw [Fin.coe_ofNat_eq_mod, nhbm]
theorem rix_call6_v11 : rix main_call6_v11 = 332 := by
  show ((332 : Fin (sig.nNear .tc .hbm)) : ℕ) = 332
  rw [Fin.coe_ofNat_eq_mod, nhbm]
theorem rix_call6_v12 : rix main_call6_v12 = 333 := by
  show ((333 : Fin (sig.nNear .tc .hbm)) : ℕ) = 333
  rw [Fin.coe_ofNat_eq_mod, nhbm]
theorem rix_call6_cst_3 : rix main_call6_cst_3 = 334 := by
  show ((334 : Fin (sig.nNear .tc .hbm)) : ℕ) = 334
  rw [Fin.coe_ofNat_eq_mod, nhbm]
theorem rix_call6_v13 : rix main_call6_v13 = 335 := by
  show ((335 : Fin (sig.nNear .tc .hbm)) : ℕ) = 335
  rw [Fin.coe_ofNat_eq_mod, nhbm]
theorem rix_call6_cst_4 : rix main_call6_cst_4 = 336 := by
  show ((336 : Fin (sig.nNear .tc .hbm)) : ℕ) = 336
  rw [Fin.coe_ofNat_eq_mod, nhbm]
theorem rix_call6_call0_v0 : rix main_call6_call0_v0 = 337 := by
  show ((337 : Fin (sig.nNear .tc .hbm)) : ℕ) = 337
  rw [Fin.coe_ofNat_eq_mod, nhbm]
theorem rix_call6_call0_v1 : rix main_call6_call0_v1 = 338 := by
  show ((338 : Fin (sig.nNear .tc .hbm)) : ℕ) = 338
  rw [Fin.coe_ofNat_eq_mod, nhbm]
theorem rix_v136 : rix main_v136 = 339 := by
  show ((339 : Fin (sig.nNear .tc .hbm)) : ℕ) = 339
  rw [Fin.coe_ofNat_eq_mod, nhbm]
theorem rix_v137 : rix main_v137 = 340 := by
  show ((340 : Fin (sig.nNear .tc .hbm)) : ℕ) = 340
  rw [Fin.coe_ofNat_eq_mod, nhbm]
theorem rix_v138 : rix main_v138 = 341 := by
  show ((341 : Fin (sig.nNear .tc .hbm)) : ℕ) = 341
  rw [Fin.coe_ofNat_eq_mod, nhbm]
theorem rix_v139 : rix main_v139 = 342 := by
  show ((342 : Fin (sig.nNear .tc .hbm)) : ℕ) = 342
  rw [Fin.coe_ofNat_eq_mod, nhbm]
theorem rix_v140 : rix main_v140 = 343 := by
  show ((343 : Fin (sig.nNear .tc .hbm)) : ℕ) = 343
  rw [Fin.coe_ofNat_eq_mod, nhbm]
theorem rix_v141 : rix main_v141 = 344 := by
  show ((344 : Fin (sig.nNear .tc .hbm)) : ℕ) = 344
  rw [Fin.coe_ofNat_eq_mod, nhbm]
theorem rix_v142 : rix main_v142 = 345 := by
  show ((345 : Fin (sig.nNear .tc .hbm)) : ℕ) = 345
  rw [Fin.coe_ofNat_eq_mod, nhbm]
theorem rix_v143 : rix main_v143 = 346 := by
  show ((346 : Fin (sig.nNear .tc .hbm)) : ℕ) = 346
  rw [Fin.coe_ofNat_eq_mod, nhbm]
theorem rix_v144 : rix main_v144 = 347 := by
  show ((347 : Fin (sig.nNear .tc .hbm)) : ℕ) = 347
  rw [Fin.coe_ofNat_eq_mod, nhbm]
theorem rix_v145 : rix main_v145 = 348 := by
  show ((348 : Fin (sig.nNear .tc .hbm)) : ℕ) = 348
  rw [Fin.coe_ofNat_eq_mod, nhbm]
theorem rix_v146 : rix main_v146 = 349 := by
  show ((349 : Fin (sig.nNear .tc .hbm)) : ℕ) = 349
  rw [Fin.coe_ofNat_eq_mod, nhbm]
theorem rix_v147 : rix main_v147 = 350 := by
  show ((350 : Fin (sig.nNear .tc .hbm)) : ℕ) = 350
  rw [Fin.coe_ofNat_eq_mod, nhbm]
theorem rix_cst_28 : rix main_cst_28 = 352 := by
  show ((352 : Fin (sig.nNear .tc .hbm)) : ℕ) = 352
  rw [Fin.coe_ofNat_eq_mod, nhbm]
theorem rix_v149 : rix main_v149 = 353 := by
  show ((353 : Fin (sig.nNear .tc .hbm)) : ℕ) = 353
  rw [Fin.coe_ofNat_eq_mod, nhbm]
theorem rix_v150 : rix main_v150 = 354 := by
  show ((354 : Fin (sig.nNear .tc .hbm)) : ℕ) = 354
  rw [Fin.coe_ofNat_eq_mod, nhbm]
theorem rix_cst_29 : rix main_cst_29 = 355 := by
  show ((355 : Fin (sig.nNear .tc .hbm)) : ℕ) = 355
  rw [Fin.coe_ofNat_eq_mod, nhbm]
theorem rix_v151 : rix main_v151 = 356 := by
  show ((356 : Fin (sig.nNear .tc .hbm)) : ℕ) = 356
  rw [Fin.coe_ofNat_eq_mod, nhbm]
theorem rix_v152 : rix main_v152 = 357 := by
  show ((357 : Fin (sig.nNear .tc .hbm)) : ℕ) = 357
  rw [Fin.coe_ofNat_eq_mod, nhbm]
theorem rix_c_30 : rix main_c_30 = 358 := by
  show ((358 : Fin (sig.nNear .tc .hbm)) : ℕ) = 358
  rw [Fin.coe_ofNat_eq_mod, nhbm]
theorem rix_call7_cst : rix main_call7_cst = 359 := by
  show ((359 : Fin (sig.nNear .tc .hbm)) : ℕ) = 359
  rw [Fin.coe_ofNat_eq_mod, nhbm]
theorem rix_call7_v0 : rix main_call7_v0 = 360 := by
  show ((360 : Fin (sig.nNear .tc .hbm)) : ℕ) = 360
  rw [Fin.coe_ofNat_eq_mod, nhbm]
theorem rix_call7_v1 : rix main_call7_v1 = 361 := by
  show ((361 : Fin (sig.nNear .tc .hbm)) : ℕ) = 361
  rw [Fin.coe_ofNat_eq_mod, nhbm]
theorem rix_call7_cst_0 : rix main_call7_cst_0 = 362 := by
  show ((362 : Fin (sig.nNear .tc .hbm)) : ℕ) = 362
  rw [Fin.coe_ofNat_eq_mod, nhbm]
theorem rix_call7_v2 : rix main_call7_v2 = 363 := by
  show ((363 : Fin (sig.nNear .tc .hbm)) : ℕ) = 363
  rw [Fin.coe_ofNat_eq_mod, nhbm]
theorem rix_call7_v3 : rix main_call7_v3 = 364 := by
  show ((364 : Fin (sig.nNear .tc .hbm)) : ℕ) = 364
  rw [Fin.coe_ofNat_eq_mod, nhbm]
theorem rix_call7_v4 : rix main_call7_v4 = 365 := by
  show ((365 : Fin (sig.nNear .tc .hbm)) : ℕ) = 365
  rw [Fin.coe_ofNat_eq_mod, nhbm]
theorem rix_call7_v5 : rix main_call7_v5 = 366 := by
  show ((366 : Fin (sig.nNear .tc .hbm)) : ℕ) = 366
  rw [Fin.coe_ofNat_eq_mod, nhbm]
theorem rix_call7_v6 : rix main_call7_v6 = 367 := by
  show ((367 : Fin (sig.nNear .tc .hbm)) : ℕ) = 367
  rw [Fin.coe_ofNat_eq_mod, nhbm]
theorem rix_call7_v7 : rix main_call7_v7 = 368 := by
  show ((368 : Fin (sig.nNear .tc .hbm)) : ℕ) = 368
  rw [Fin.coe_ofNat_eq_mod, nhbm]
theorem rix_call7_cst_1 : rix main_call7_cst_1 = 369 := by
  show ((369 : Fin (sig.nNear .tc .hbm)) : ℕ) = 369
  rw [Fin.coe_ofNat_eq_mod, nhbm]
theorem rix_call7_v8 : rix main_call7_v8 = 370 := by
  show ((370 : Fin (sig.nNear .tc .hbm)) : ℕ) = 370
  rw [Fin.coe_ofNat_eq_mod, nhbm]
theorem rix_call7_cst_2 : rix main_call7_cst_2 = 371 := by
  show ((371 : Fin (sig.nNear .tc .hbm)) : ℕ) = 371
  rw [Fin.coe_ofNat_eq_mod, nhbm]
theorem rix_call7_v9 : rix main_call7_v9 = 372 := by
  show ((372 : Fin (sig.nNear .tc .hbm)) : ℕ) = 372
  rw [Fin.coe_ofNat_eq_mod, nhbm]
theorem rix_call7_v10 : rix main_call7_v10 = 373 := by
  show ((373 : Fin (sig.nNear .tc .hbm)) : ℕ) = 373
  rw [Fin.coe_ofNat_eq_mod, nhbm]
theorem rix_call7_v11 : rix main_call7_v11 = 374 := by
  show ((374 : Fin (sig.nNear .tc .hbm)) : ℕ) = 374
  rw [Fin.coe_ofNat_eq_mod, nhbm]
theorem rix_call7_v12 : rix main_call7_v12 = 375 := by
  show ((375 : Fin (sig.nNear .tc .hbm)) : ℕ) = 375
  rw [Fin.coe_ofNat_eq_mod, nhbm]
theorem rix_call7_cst_3 : rix main_call7_cst_3 = 376 := by
  show ((376 : Fin (sig.nNear .tc .hbm)) : ℕ) = 376
  rw [Fin.coe_ofNat_eq_mod, nhbm]
theorem rix_call7_v13 : rix main_call7_v13 = 377 := by
  show ((377 : Fin (sig.nNear .tc .hbm)) : ℕ) = 377
  rw [Fin.coe_ofNat_eq_mod, nhbm]
theorem rix_call7_cst_4 : rix main_call7_cst_4 = 378 := by
  show ((378 : Fin (sig.nNear .tc .hbm)) : ℕ) = 378
  rw [Fin.coe_ofNat_eq_mod, nhbm]
theorem rix_call7_call0_v0 : rix main_call7_call0_v0 = 379 := by
  show ((379 : Fin (sig.nNear .tc .hbm)) : ℕ) = 379
  rw [Fin.coe_ofNat_eq_mod, nhbm]
theorem rix_call7_call0_v1 : rix main_call7_call0_v1 = 380 := by
  show ((380 : Fin (sig.nNear .tc .hbm)) : ℕ) = 380
  rw [Fin.coe_ofNat_eq_mod, nhbm]
theorem rix_v153 : rix main_v153 = 381 := by
  show ((381 : Fin (sig.nNear .tc .hbm)) : ℕ) = 381
  rw [Fin.coe_ofNat_eq_mod, nhbm]
theorem rix_v154 : rix main_v154 = 382 := by
  show ((382 : Fin (sig.nNear .tc .hbm)) : ℕ) = 382
  rw [Fin.coe_ofNat_eq_mod, nhbm]
theorem rix_v155 : rix main_v155 = 383 := by
  show ((383 : Fin (sig.nNear .tc .hbm)) : ℕ) = 383
  rw [Fin.coe_ofNat_eq_mod, nhbm]
theorem rix_v156 : rix main_v156 = 384 := by
  show ((384 : Fin (sig.nNear .tc .hbm)) : ℕ) = 384
  rw [Fin.coe_ofNat_eq_mod, nhbm]
theorem rix_v157 : rix main_v157 = 385 := by
  show ((385 : Fin (sig.nNear .tc .hbm)) : ℕ) = 385
  rw [Fin.coe_ofNat_eq_mod, nhbm]
theorem rix_v158 : rix main_v158 = 386 := by
  show ((386 : Fin (sig.nNear .tc .hbm)) : ℕ) = 386
  rw [Fin.coe_ofNat_eq_mod, nhbm]
theorem rix_v159 : rix main_v159 = 387 := by
  show ((387 : Fin (sig.nNear .tc .hbm)) : ℕ) = 387
  rw [Fin.coe_ofNat_eq_mod, nhbm]
theorem rix_cst_31 : rix main_cst_31 = 389 := by
  show ((389 : Fin (sig.nNear .tc .hbm)) : ℕ) = 389
  rw [Fin.coe_ofNat_eq_mod, nhbm]
theorem rix_v161 : rix main_v161 = 390 := by
  show ((390 : Fin (sig.nNear .tc .hbm)) : ℕ) = 390
  rw [Fin.coe_ofNat_eq_mod, nhbm]
theorem rix_v162 : rix main_v162 = 391 := by
  show ((391 : Fin (sig.nNear .tc .hbm)) : ℕ) = 391
  rw [Fin.coe_ofNat_eq_mod, nhbm]
theorem rix_cst_32 : rix main_cst_32 = 392 := by
  show ((392 : Fin (sig.nNear .tc .hbm)) : ℕ) = 392
  rw [Fin.coe_ofNat_eq_mod, nhbm]
theorem rix_v163 : rix main_v163 = 393 := by
  show ((393 : Fin (sig.nNear .tc .hbm)) : ℕ) = 393
  rw [Fin.coe_ofNat_eq_mod, nhbm]
theorem rix_v164 : rix main_v164 = 394 := by
  show ((394 : Fin (sig.nNear .tc .hbm)) : ℕ) = 394
  rw [Fin.coe_ofNat_eq_mod, nhbm]
theorem rix_c_33 : rix main_c_33 = 395 := by
  show ((395 : Fin (sig.nNear .tc .hbm)) : ℕ) = 395
  rw [Fin.coe_ofNat_eq_mod, nhbm]
theorem rix_call8_cst : rix main_call8_cst = 396 := by
  show ((396 : Fin (sig.nNear .tc .hbm)) : ℕ) = 396
  rw [Fin.coe_ofNat_eq_mod, nhbm]
theorem rix_call8_v0 : rix main_call8_v0 = 397 := by
  show ((397 : Fin (sig.nNear .tc .hbm)) : ℕ) = 397
  rw [Fin.coe_ofNat_eq_mod, nhbm]
theorem rix_call8_v1 : rix main_call8_v1 = 398 := by
  show ((398 : Fin (sig.nNear .tc .hbm)) : ℕ) = 398
  rw [Fin.coe_ofNat_eq_mod, nhbm]
theorem rix_call8_cst_0 : rix main_call8_cst_0 = 399 := by
  show ((399 : Fin (sig.nNear .tc .hbm)) : ℕ) = 399
  rw [Fin.coe_ofNat_eq_mod, nhbm]
theorem rix_call8_v2 : rix main_call8_v2 = 400 := by
  show ((400 : Fin (sig.nNear .tc .hbm)) : ℕ) = 400
  rw [Fin.coe_ofNat_eq_mod, nhbm]
theorem rix_call8_v3 : rix main_call8_v3 = 401 := by
  show ((401 : Fin (sig.nNear .tc .hbm)) : ℕ) = 401
  rw [Fin.coe_ofNat_eq_mod, nhbm]
theorem rix_call8_v4 : rix main_call8_v4 = 402 := by
  show ((402 : Fin (sig.nNear .tc .hbm)) : ℕ) = 402
  rw [Fin.coe_ofNat_eq_mod, nhbm]
theorem rix_call8_v5 : rix main_call8_v5 = 403 := by
  show ((403 : Fin (sig.nNear .tc .hbm)) : ℕ) = 403
  rw [Fin.coe_ofNat_eq_mod, nhbm]
theorem rix_call8_v6 : rix main_call8_v6 = 404 := by
  show ((404 : Fin (sig.nNear .tc .hbm)) : ℕ) = 404
  rw [Fin.coe_ofNat_eq_mod, nhbm]
theorem rix_call8_v7 : rix main_call8_v7 = 405 := by
  show ((405 : Fin (sig.nNear .tc .hbm)) : ℕ) = 405
  rw [Fin.coe_ofNat_eq_mod, nhbm]
theorem rix_call8_cst_1 : rix main_call8_cst_1 = 406 := by
  show ((406 : Fin (sig.nNear .tc .hbm)) : ℕ) = 406
  rw [Fin.coe_ofNat_eq_mod, nhbm]
theorem rix_call8_v8 : rix main_call8_v8 = 407 := by
  show ((407 : Fin (sig.nNear .tc .hbm)) : ℕ) = 407
  rw [Fin.coe_ofNat_eq_mod, nhbm]
theorem rix_call8_cst_2 : rix main_call8_cst_2 = 408 := by
  show ((408 : Fin (sig.nNear .tc .hbm)) : ℕ) = 408
  rw [Fin.coe_ofNat_eq_mod, nhbm]
theorem rix_call8_v9 : rix main_call8_v9 = 409 := by
  show ((409 : Fin (sig.nNear .tc .hbm)) : ℕ) = 409
  rw [Fin.coe_ofNat_eq_mod, nhbm]
theorem rix_call8_v10 : rix main_call8_v10 = 410 := by
  show ((410 : Fin (sig.nNear .tc .hbm)) : ℕ) = 410
  rw [Fin.coe_ofNat_eq_mod, nhbm]
theorem rix_call8_v11 : rix main_call8_v11 = 411 := by
  show ((411 : Fin (sig.nNear .tc .hbm)) : ℕ) = 411
  rw [Fin.coe_ofNat_eq_mod, nhbm]
theorem rix_call8_v12 : rix main_call8_v12 = 412 := by
  show ((412 : Fin (sig.nNear .tc .hbm)) : ℕ) = 412
  rw [Fin.coe_ofNat_eq_mod, nhbm]
theorem rix_call8_cst_3 : rix main_call8_cst_3 = 413 := by
  show ((413 : Fin (sig.nNear .tc .hbm)) : ℕ) = 413
  rw [Fin.coe_ofNat_eq_mod, nhbm]
theorem rix_call8_v13 : rix main_call8_v13 = 414 := by
  show ((414 : Fin (sig.nNear .tc .hbm)) : ℕ) = 414
  rw [Fin.coe_ofNat_eq_mod, nhbm]
theorem rix_call8_cst_4 : rix main_call8_cst_4 = 415 := by
  show ((415 : Fin (sig.nNear .tc .hbm)) : ℕ) = 415
  rw [Fin.coe_ofNat_eq_mod, nhbm]
theorem rix_call8_call0_v0 : rix main_call8_call0_v0 = 416 := by
  show ((416 : Fin (sig.nNear .tc .hbm)) : ℕ) = 416
  rw [Fin.coe_ofNat_eq_mod, nhbm]
theorem rix_call8_call0_v1 : rix main_call8_call0_v1 = 417 := by
  show ((417 : Fin (sig.nNear .tc .hbm)) : ℕ) = 417
  rw [Fin.coe_ofNat_eq_mod, nhbm]
theorem rix_v165 : rix main_v165 = 418 := by
  show ((418 : Fin (sig.nNear .tc .hbm)) : ℕ) = 418
  rw [Fin.coe_ofNat_eq_mod, nhbm]
theorem rix_v166 : rix main_v166 = 419 := by
  show ((419 : Fin (sig.nNear .tc .hbm)) : ℕ) = 419
  rw [Fin.coe_ofNat_eq_mod, nhbm]
theorem rix_v167 : rix main_v167 = 420 := by
  show ((420 : Fin (sig.nNear .tc .hbm)) : ℕ) = 420
  rw [Fin.coe_ofNat_eq_mod, nhbm]
theorem rix_v168 : rix main_v168 = 421 := by
  show ((421 : Fin (sig.nNear .tc .hbm)) : ℕ) = 421
  rw [Fin.coe_ofNat_eq_mod, nhbm]
theorem rix_v169 : rix main_v169 = 422 := by
  show ((422 : Fin (sig.nNear .tc .hbm)) : ℕ) = 422
  rw [Fin.coe_ofNat_eq_mod, nhbm]
theorem rix_v170 : rix main_v170 = 423 := by
  show ((423 : Fin (sig.nNear .tc .hbm)) : ℕ) = 423
  rw [Fin.coe_ofNat_eq_mod, nhbm]
theorem rix_v171 : rix main_v171 = 424 := by
  show ((424 : Fin (sig.nNear .tc .hbm)) : ℕ) = 424
  rw [Fin.coe_ofNat_eq_mod, nhbm]
theorem rix_cst_34 : rix main_cst_34 = 426 := by
  show ((426 : Fin (sig.nNear .tc .hbm)) : ℕ) = 426
  rw [Fin.coe_ofNat_eq_mod, nhbm]
theorem rix_v173 : rix main_v173 = 427 := by
  show ((427 : Fin (sig.nNear .tc .hbm)) : ℕ) = 427
  rw [Fin.coe_ofNat_eq_mod, nhbm]
theorem rix_c_35 : rix main_c_35 = 428 := by
  show ((428 : Fin (sig.nNear .tc .hbm)) : ℕ) = 428
  rw [Fin.coe_ofNat_eq_mod, nhbm]
theorem rix_v174 : rix main_v174 = 429 := by
  show ((429 : Fin (sig.nNear .tc .hbm)) : ℕ) = 429
  rw [Fin.coe_ofNat_eq_mod, nhbm]
theorem rix_v175 : rix main_v175 = 430 := by
  show ((430 : Fin (sig.nNear .tc .hbm)) : ℕ) = 430
  rw [Fin.coe_ofNat_eq_mod, nhbm]
theorem rix_c_36 : rix main_c_36 = 431 := by
  show ((431 : Fin (sig.nNear .tc .hbm)) : ℕ) = 431
  rw [Fin.coe_ofNat_eq_mod, nhbm]
theorem rix_v176 : rix main_v176 = 432 := by
  show ((432 : Fin (sig.nNear .tc .hbm)) : ℕ) = 432
  rw [Fin.coe_ofNat_eq_mod, nhbm]
theorem rix_v177 : rix main_v177 = 433 := by
  show ((433 : Fin (sig.nNear .tc .hbm)) : ℕ) = 433
  rw [Fin.coe_ofNat_eq_mod, nhbm]
theorem rix_v178 : rix main_v178 = 434 := by
  show ((434 : Fin (sig.nNear .tc .hbm)) : ℕ) = 434
  rw [Fin.coe_ofNat_eq_mod, nhbm]
theorem rix_v179 : rix main_v179 = 435 := by
  show ((435 : Fin (sig.nNear .tc .hbm)) : ℕ) = 435
  rw [Fin.coe_ofNat_eq_mod, nhbm]
theorem rix_v180 : rix main_v180 = 436 := by
  show ((436 : Fin (sig.nNear .tc .hbm)) : ℕ) = 436
  rw [Fin.coe_ofNat_eq_mod, nhbm]
theorem rix_c_37 : rix main_c_37 = 437 := by
  show ((437 : Fin (sig.nNear .tc .hbm)) : ℕ) = 437
  rw [Fin.coe_ofNat_eq_mod, nhbm]
theorem rix_v181 : rix main_v181 = 438 := by
  show ((438 : Fin (sig.nNear .tc .hbm)) : ℕ) = 438
  rw [Fin.coe_ofNat_eq_mod, nhbm]
theorem rix_v182 : rix main_v182 = 439 := by
  show ((439 : Fin (sig.nNear .tc .hbm)) : ℕ) = 439
  rw [Fin.coe_ofNat_eq_mod, nhbm]
theorem rix_c_38 : rix main_c_38 = 440 := by
  show ((440 : Fin (sig.nNear .tc .hbm)) : ℕ) = 440
  rw [Fin.coe_ofNat_eq_mod, nhbm]
theorem rix_v183 : rix main_v183 = 441 := by
  show ((441 : Fin (sig.nNear .tc .hbm)) : ℕ) = 441
  rw [Fin.coe_ofNat_eq_mod, nhbm]
theorem rix_v184 : rix main_v184 = 442 := by
  show ((442 : Fin (sig.nNear .tc .hbm)) : ℕ) = 442
  rw [Fin.coe_ofNat_eq_mod, nhbm]
theorem rix_v185 : rix main_v185 = 443 := by
  show ((443 : Fin (sig.nNear .tc .hbm)) : ℕ) = 443
  rw [Fin.coe_ofNat_eq_mod, nhbm]
theorem rix_v186 : rix main_v186 = 444 := by
  show ((444 : Fin (sig.nNear .tc .hbm)) : ℕ) = 444
  rw [Fin.coe_ofNat_eq_mod, nhbm]
theorem rix_v187 : rix main_v187 = 445 := by
  show ((445 : Fin (sig.nNear .tc .hbm)) : ℕ) = 445
  rw [Fin.coe_ofNat_eq_mod, nhbm]
theorem rix_v188 : rix main_v188 = 446 := by
  show ((446 : Fin (sig.nNear .tc .hbm)) : ℕ) = 446
  rw [Fin.coe_ofNat_eq_mod, nhbm]
theorem rix_v189 : rix main_v189 = 447 := by
  show ((447 : Fin (sig.nNear .tc .hbm)) : ℕ) = 447
  rw [Fin.coe_ofNat_eq_mod, nhbm]
theorem rix_v190 : rix main_v190 = 448 := by
  show ((448 : Fin (sig.nNear .tc .hbm)) : ℕ) = 448
  rw [Fin.coe_ofNat_eq_mod, nhbm]
theorem rix_v191 : rix main_v191 = 449 := by
  show ((449 : Fin (sig.nNear .tc .hbm)) : ℕ) = 449
  rw [Fin.coe_ofNat_eq_mod, nhbm]
theorem rix_v192 : rix main_v192 = 450 := by
  show ((450 : Fin (sig.nNear .tc .hbm)) : ℕ) = 450
  rw [Fin.coe_ofNat_eq_mod, nhbm]
theorem rix_v193 : rix main_v193 = 451 := by
  show ((451 : Fin (sig.nNear .tc .hbm)) : ℕ) = 451
  rw [Fin.coe_ofNat_eq_mod, nhbm]
theorem rix_v194 : rix main_v194 = 452 := by
  show ((452 : Fin (sig.nNear .tc .hbm)) : ℕ) = 452
  rw [Fin.coe_ofNat_eq_mod, nhbm]
theorem rix_v195 : rix main_v195 = 453 := by
  show ((453 : Fin (sig.nNear .tc .hbm)) : ℕ) = 453
  rw [Fin.coe_ofNat_eq_mod, nhbm]
theorem rix_v196 : rix main_v196 = 454 := by
  show ((454 : Fin (sig.nNear .tc .hbm)) : ℕ) = 454
  rw [Fin.coe_ofNat_eq_mod, nhbm]
theorem rix_v197 : rix main_v197 = 455 := by
  show ((455 : Fin (sig.nNear .tc .hbm)) : ℕ) = 455
  rw [Fin.coe_ofNat_eq_mod, nhbm]
theorem rix_v198 : rix main_v198 = 456 := by
  show ((456 : Fin (sig.nNear .tc .hbm)) : ℕ) = 456
  rw [Fin.coe_ofNat_eq_mod, nhbm]
theorem rix_v199 : rix main_v199 = 457 := by
  show ((457 : Fin (sig.nNear .tc .hbm)) : ℕ) = 457
  rw [Fin.coe_ofNat_eq_mod, nhbm]
theorem rix_v201 : rix main_v201 = 459 := by
  show ((459 : Fin (sig.nNear .tc .hbm)) : ℕ) = 459
  rw [Fin.coe_ofNat_eq_mod, nhbm]
theorem rix_c_39 : rix main_c_39 = 460 := by
  show ((460 : Fin (sig.nNear .tc .hbm)) : ℕ) = 460
  rw [Fin.coe_ofNat_eq_mod, nhbm]
theorem rix_v202 : rix main_v202 = 461 := by
  show ((461 : Fin (sig.nNear .tc .hbm)) : ℕ) = 461
  rw [Fin.coe_ofNat_eq_mod, nhbm]
theorem rix_v203 : rix main_v203 = 462 := by
  show ((462 : Fin (sig.nNear .tc .hbm)) : ℕ) = 462
  rw [Fin.coe_ofNat_eq_mod, nhbm]
theorem rix_c_40 : rix main_c_40 = 463 := by
  show ((463 : Fin (sig.nNear .tc .hbm)) : ℕ) = 463
  rw [Fin.coe_ofNat_eq_mod, nhbm]
theorem rix_v204 : rix main_v204 = 464 := by
  show ((464 : Fin (sig.nNear .tc .hbm)) : ℕ) = 464
  rw [Fin.coe_ofNat_eq_mod, nhbm]
theorem rix_v205 : rix main_v205 = 465 := by
  show ((465 : Fin (sig.nNear .tc .hbm)) : ℕ) = 465
  rw [Fin.coe_ofNat_eq_mod, nhbm]
theorem rix_v206 : rix main_v206 = 466 := by
  show ((466 : Fin (sig.nNear .tc .hbm)) : ℕ) = 466
  rw [Fin.coe_ofNat_eq_mod, nhbm]
theorem rix_v207 : rix main_v207 = 467 := by
  show ((467 : Fin (sig.nNear .tc .hbm)) : ℕ) = 467
  rw [Fin.coe_ofNat_eq_mod, nhbm]
theorem rix_v208 : rix main_v208 = 468 := by
  show ((468 : Fin (sig.nNear .tc .hbm)) : ℕ) = 468
  rw [Fin.coe_ofNat_eq_mod, nhbm]
theorem rix_c_41 : rix main_c_41 = 469 := by
  show ((469 : Fin (sig.nNear .tc .hbm)) : ℕ) = 469
  rw [Fin.coe_ofNat_eq_mod, nhbm]
theorem rix_v209 : rix main_v209 = 470 := by
  show ((470 : Fin (sig.nNear .tc .hbm)) : ℕ) = 470
  rw [Fin.coe_ofNat_eq_mod, nhbm]
theorem rix_v210 : rix main_v210 = 471 := by
  show ((471 : Fin (sig.nNear .tc .hbm)) : ℕ) = 471
  rw [Fin.coe_ofNat_eq_mod, nhbm]
theorem rix_c_42 : rix main_c_42 = 472 := by
  show ((472 : Fin (sig.nNear .tc .hbm)) : ℕ) = 472
  rw [Fin.coe_ofNat_eq_mod, nhbm]
theorem rix_v211 : rix main_v211 = 473 := by
  show ((473 : Fin (sig.nNear .tc .hbm)) : ℕ) = 473
  rw [Fin.coe_ofNat_eq_mod, nhbm]
theorem rix_v212 : rix main_v212 = 474 := by
  show ((474 : Fin (sig.nNear .tc .hbm)) : ℕ) = 474
  rw [Fin.coe_ofNat_eq_mod, nhbm]
theorem rix_v213 : rix main_v213 = 475 := by
  show ((475 : Fin (sig.nNear .tc .hbm)) : ℕ) = 475
  rw [Fin.coe_ofNat_eq_mod, nhbm]
theorem rix_v214 : rix main_v214 = 476 := by
  show ((476 : Fin (sig.nNear .tc .hbm)) : ℕ) = 476
  rw [Fin.coe_ofNat_eq_mod, nhbm]
theorem rix_v215 : rix main_v215 = 477 := by
  show ((477 : Fin (sig.nNear .tc .hbm)) : ℕ) = 477
  rw [Fin.coe_ofNat_eq_mod, nhbm]
theorem rix_v216 : rix main_v216 = 478 := by
  show ((478 : Fin (sig.nNear .tc .hbm)) : ℕ) = 478
  rw [Fin.coe_ofNat_eq_mod, nhbm]
theorem rix_v217 : rix main_v217 = 479 := by
  show ((479 : Fin (sig.nNear .tc .hbm)) : ℕ) = 479
  rw [Fin.coe_ofNat_eq_mod, nhbm]
theorem rix_v218 : rix main_v218 = 480 := by
  show ((480 : Fin (sig.nNear .tc .hbm)) : ℕ) = 480
  rw [Fin.coe_ofNat_eq_mod, nhbm]
theorem rix_v219 : rix main_v219 = 481 := by
  show ((481 : Fin (sig.nNear .tc .hbm)) : ℕ) = 481
  rw [Fin.coe_ofNat_eq_mod, nhbm]
theorem rix_v220 : rix main_v220 = 482 := by
  show ((482 : Fin (sig.nNear .tc .hbm)) : ℕ) = 482
  rw [Fin.coe_ofNat_eq_mod, nhbm]
theorem rix_v221 : rix main_v221 = 483 := by
  show ((483 : Fin (sig.nNear .tc .hbm)) : ℕ) = 483
  rw [Fin.coe_ofNat_eq_mod, nhbm]
theorem rix_v222 : rix main_v222 = 484 := by
  show ((484 : Fin (sig.nNear .tc .hbm)) : ℕ) = 484
  rw [Fin.coe_ofNat_eq_mod, nhbm]
theorem rix_v223 : rix main_v223 = 485 := by
  show ((485 : Fin (sig.nNear .tc .hbm)) : ℕ) = 485
  rw [Fin.coe_ofNat_eq_mod, nhbm]
theorem rix_v224 : rix main_v224 = 486 := by
  show ((486 : Fin (sig.nNear .tc .hbm)) : ℕ) = 486
  rw [Fin.coe_ofNat_eq_mod, nhbm]
theorem rix_v225 : rix main_v225 = 487 := by
  show ((487 : Fin (sig.nNear .tc .hbm)) : ℕ) = 487
  rw [Fin.coe_ofNat_eq_mod, nhbm]
theorem rix_v226 : rix main_v226 = 488 := by
  show ((488 : Fin (sig.nNear .tc .hbm)) : ℕ) = 488
  rw [Fin.coe_ofNat_eq_mod, nhbm]
theorem rix_v227 : rix main_v227 = 489 := by
  show ((489 : Fin (sig.nNear .tc .hbm)) : ℕ) = 489
  rw [Fin.coe_ofNat_eq_mod, nhbm]
theorem rix_v229 : rix main_v229 = 491 := by
  show ((491 : Fin (sig.nNear .tc .hbm)) : ℕ) = 491
  rw [Fin.coe_ofNat_eq_mod, nhbm]
theorem rix_c_43 : rix main_c_43 = 492 := by
  show ((492 : Fin (sig.nNear .tc .hbm)) : ℕ) = 492
  rw [Fin.coe_ofNat_eq_mod, nhbm]
theorem rix_v230 : rix main_v230 = 493 := by
  show ((493 : Fin (sig.nNear .tc .hbm)) : ℕ) = 493
  rw [Fin.coe_ofNat_eq_mod, nhbm]
theorem rix_v231 : rix main_v231 = 494 := by
  show ((494 : Fin (sig.nNear .tc .hbm)) : ℕ) = 494
  rw [Fin.coe_ofNat_eq_mod, nhbm]
theorem rix_c_44 : rix main_c_44 = 495 := by
  show ((495 : Fin (sig.nNear .tc .hbm)) : ℕ) = 495
  rw [Fin.coe_ofNat_eq_mod, nhbm]
theorem rix_v232 : rix main_v232 = 496 := by
  show ((496 : Fin (sig.nNear .tc .hbm)) : ℕ) = 496
  rw [Fin.coe_ofNat_eq_mod, nhbm]
theorem rix_v233 : rix main_v233 = 497 := by
  show ((497 : Fin (sig.nNear .tc .hbm)) : ℕ) = 497
  rw [Fin.coe_ofNat_eq_mod, nhbm]
theorem rix_v234 : rix main_v234 = 498 := by
  show ((498 : Fin (sig.nNear .tc .hbm)) : ℕ) = 498
  rw [Fin.coe_ofNat_eq_mod, nhbm]
theorem rix_v235 : rix main_v235 = 499 := by
  show ((499 : Fin (sig.nNear .tc .hbm)) : ℕ) = 499
  rw [Fin.coe_ofNat_eq_mod, nhbm]
theorem rix_v236 : rix main_v236 = 500 := by
  show ((500 : Fin (sig.nNear .tc .hbm)) : ℕ) = 500
  rw [Fin.coe_ofNat_eq_mod, nhbm]
theorem rix_c_45 : rix main_c_45 = 501 := by
  show ((501 : Fin (sig.nNear .tc .hbm)) : ℕ) = 501
  rw [Fin.coe_ofNat_eq_mod, nhbm]
theorem rix_v237 : rix main_v237 = 502 := by
  show ((502 : Fin (sig.nNear .tc .hbm)) : ℕ) = 502
  rw [Fin.coe_ofNat_eq_mod, nhbm]
theorem rix_v238 : rix main_v238 = 503 := by
  show ((503 : Fin (sig.nNear .tc .hbm)) : ℕ) = 503
  rw [Fin.coe_ofNat_eq_mod, nhbm]
theorem rix_c_46 : rix main_c_46 = 504 := by
  show ((504 : Fin (sig.nNear .tc .hbm)) : ℕ) = 504
  rw [Fin.coe_ofNat_eq_mod, nhbm]
theorem rix_v239 : rix main_v239 = 505 := by
  show ((505 : Fin (sig.nNear .tc .hbm)) : ℕ) = 505
  rw [Fin.coe_ofNat_eq_mod, nhbm]
theorem rix_v240 : rix main_v240 = 506 := by
  show ((506 : Fin (sig.nNear .tc .hbm)) : ℕ) = 506
  rw [Fin.coe_ofNat_eq_mod, nhbm]
theorem rix_v241 : rix main_v241 = 507 := by
  show ((507 : Fin (sig.nNear .tc .hbm)) : ℕ) = 507
  rw [Fin.coe_ofNat_eq_mod, nhbm]
theorem rix_v242 : rix main_v242 = 508 := by
  show ((508 : Fin (sig.nNear .tc .hbm)) : ℕ) = 508
  rw [Fin.coe_ofNat_eq_mod, nhbm]
theorem rix_v243 : rix main_v243 = 509 := by
  show ((509 : Fin (sig.nNear .tc .hbm)) : ℕ) = 509
  rw [Fin.coe_ofNat_eq_mod, nhbm]
theorem rix_v244 : rix main_v244 = 510 := by
  show ((510 : Fin (sig.nNear .tc .hbm)) : ℕ) = 510
  rw [Fin.coe_ofNat_eq_mod, nhbm]
theorem rix_v245 : rix main_v245 = 511 := by
  show ((511 : Fin (sig.nNear .tc .hbm)) : ℕ) = 511
  rw [Fin.coe_ofNat_eq_mod, nhbm]
theorem rix_v246 : rix main_v246 = 512 := by
  show ((512 : Fin (sig.nNear .tc .hbm)) : ℕ) = 512
  rw [Fin.coe_ofNat_eq_mod, nhbm]
theorem rix_v247 : rix main_v247 = 513 := by
  show ((513 : Fin (sig.nNear .tc .hbm)) : ℕ) = 513
  rw [Fin.coe_ofNat_eq_mod, nhbm]
theorem rix_v248 : rix main_v248 = 514 := by
  show ((514 : Fin (sig.nNear .tc .hbm)) : ℕ) = 514
  rw [Fin.coe_ofNat_eq_mod, nhbm]
theorem rix_v249 : rix main_v249 = 515 := by
  show ((515 : Fin (sig.nNear .tc .hbm)) : ℕ) = 515
  rw [Fin.coe_ofNat_eq_mod, nhbm]
theorem rix_v250 : rix main_v250 = 516 := by
  show ((516 : Fin (sig.nNear .tc .hbm)) : ℕ) = 516
  rw [Fin.coe_ofNat_eq_mod, nhbm]
theorem rix_v251 : rix main_v251 = 517 := by
  show ((517 : Fin (sig.nNear .tc .hbm)) : ℕ) = 517
  rw [Fin.coe_ofNat_eq_mod, nhbm]
theorem rix_v252 : rix main_v252 = 518 := by
  show ((518 : Fin (sig.nNear .tc .hbm)) : ℕ) = 518
  rw [Fin.coe_ofNat_eq_mod, nhbm]
theorem rix_v253 : rix main_v253 = 519 := by
  show ((519 : Fin (sig.nNear .tc .hbm)) : ℕ) = 519
  rw [Fin.coe_ofNat_eq_mod, nhbm]
theorem rix_v254 : rix main_v254 = 520 := by
  show ((520 : Fin (sig.nNear .tc .hbm)) : ℕ) = 520
  rw [Fin.coe_ofNat_eq_mod, nhbm]
theorem rix_v255 : rix main_v255 = 521 := by
  show ((521 : Fin (sig.nNear .tc .hbm)) : ℕ) = 521
  rw [Fin.coe_ofNat_eq_mod, nhbm]
theorem rix_v257 : rix main_v257 = 523 := by
  show ((523 : Fin (sig.nNear .tc .hbm)) : ℕ) = 523
  rw [Fin.coe_ofNat_eq_mod, nhbm]
theorem rix_c_47 : rix main_c_47 = 524 := by
  show ((524 : Fin (sig.nNear .tc .hbm)) : ℕ) = 524
  rw [Fin.coe_ofNat_eq_mod, nhbm]
theorem rix_v258 : rix main_v258 = 525 := by
  show ((525 : Fin (sig.nNear .tc .hbm)) : ℕ) = 525
  rw [Fin.coe_ofNat_eq_mod, nhbm]
theorem rix_v259 : rix main_v259 = 526 := by
  show ((526 : Fin (sig.nNear .tc .hbm)) : ℕ) = 526
  rw [Fin.coe_ofNat_eq_mod, nhbm]
theorem rix_c_48 : rix main_c_48 = 527 := by
  show ((527 : Fin (sig.nNear .tc .hbm)) : ℕ) = 527
  rw [Fin.coe_ofNat_eq_mod, nhbm]
theorem rix_v260 : rix main_v260 = 528 := by
  show ((528 : Fin (sig.nNear .tc .hbm)) : ℕ) = 528
  rw [Fin.coe_ofNat_eq_mod, nhbm]
theorem rix_v261 : rix main_v261 = 529 := by
  show ((529 : Fin (sig.nNear .tc .hbm)) : ℕ) = 529
  rw [Fin.coe_ofNat_eq_mod, nhbm]
theorem rix_v262 : rix main_v262 = 530 := by
  show ((530 : Fin (sig.nNear .tc .hbm)) : ℕ) = 530
  rw [Fin.coe_ofNat_eq_mod, nhbm]
theorem rix_v263 : rix main_v263 = 531 := by
  show ((531 : Fin (sig.nNear .tc .hbm)) : ℕ) = 531
  rw [Fin.coe_ofNat_eq_mod, nhbm]
theorem rix_v264 : rix main_v264 = 532 := by
  show ((532 : Fin (sig.nNear .tc .hbm)) : ℕ) = 532
  rw [Fin.coe_ofNat_eq_mod, nhbm]
theorem rix_c_49 : rix main_c_49 = 533 := by
  show ((533 : Fin (sig.nNear .tc .hbm)) : ℕ) = 533
  rw [Fin.coe_ofNat_eq_mod, nhbm]
theorem rix_v265 : rix main_v265 = 534 := by
  show ((534 : Fin (sig.nNear .tc .hbm)) : ℕ) = 534
  rw [Fin.coe_ofNat_eq_mod, nhbm]
theorem rix_v266 : rix main_v266 = 535 := by
  show ((535 : Fin (sig.nNear .tc .hbm)) : ℕ) = 535
  rw [Fin.coe_ofNat_eq_mod, nhbm]
theorem rix_c_50 : rix main_c_50 = 536 := by
  show ((536 : Fin (sig.nNear .tc .hbm)) : ℕ) = 536
  rw [Fin.coe_ofNat_eq_mod, nhbm]
theorem rix_v267 : rix main_v267 = 537 := by
  show ((537 : Fin (sig.nNear .tc .hbm)) : ℕ) = 537
  rw [Fin.coe_ofNat_eq_mod, nhbm]
theorem rix_v268 : rix main_v268 = 538 := by
  show ((538 : Fin (sig.nNear .tc .hbm)) : ℕ) = 538
  rw [Fin.coe_ofNat_eq_mod, nhbm]
theorem rix_v269 : rix main_v269 = 539 := by
  show ((539 : Fin (sig.nNear .tc .hbm)) : ℕ) = 539
  rw [Fin.coe_ofNat_eq_mod, nhbm]
theorem rix_v270 : rix main_v270 = 540 := by
  show ((540 : Fin (sig.nNear .tc .hbm)) : ℕ) = 540
  rw [Fin.coe_ofNat_eq_mod, nhbm]
theorem rix_v271 : rix main_v271 = 541 := by
  show ((541 : Fin (sig.nNear .tc .hbm)) : ℕ) = 541
  rw [Fin.coe_ofNat_eq_mod, nhbm]
theorem rix_v272 : rix main_v272 = 542 := by
  show ((542 : Fin (sig.nNear .tc .hbm)) : ℕ) = 542
  rw [Fin.coe_ofNat_eq_mod, nhbm]
theorem rix_v273 : rix main_v273 = 543 := by
  show ((543 : Fin (sig.nNear .tc .hbm)) : ℕ) = 543
  rw [Fin.coe_ofNat_eq_mod, nhbm]
theorem rix_v274 : rix main_v274 = 544 := by
  show ((544 : Fin (sig.nNear .tc .hbm)) : ℕ) = 544
  rw [Fin.coe_ofNat_eq_mod, nhbm]
theorem rix_v275 : rix main_v275 = 545 := by
  show ((545 : Fin (sig.nNear .tc .hbm)) : ℕ) = 545
  rw [Fin.coe_ofNat_eq_mod, nhbm]
theorem rix_v276 : rix main_v276 = 546 := by
  show ((546 : Fin (sig.nNear .tc .hbm)) : ℕ) = 546
  rw [Fin.coe_ofNat_eq_mod, nhbm]
theorem rix_v277 : rix main_v277 = 547 := by
  show ((547 : Fin (sig.nNear .tc .hbm)) : ℕ) = 547
  rw [Fin.coe_ofNat_eq_mod, nhbm]
theorem rix_v278 : rix main_v278 = 548 := by
  show ((548 : Fin (sig.nNear .tc .hbm)) : ℕ) = 548
  rw [Fin.coe_ofNat_eq_mod, nhbm]
theorem rix_v279 : rix main_v279 = 549 := by
  show ((549 : Fin (sig.nNear .tc .hbm)) : ℕ) = 549
  rw [Fin.coe_ofNat_eq_mod, nhbm]
theorem rix_v280 : rix main_v280 = 550 := by
  show ((550 : Fin (sig.nNear .tc .hbm)) : ℕ) = 550
  rw [Fin.coe_ofNat_eq_mod, nhbm]
theorem rix_v281 : rix main_v281 = 551 := by
  show ((551 : Fin (sig.nNear .tc .hbm)) : ℕ) = 551
  rw [Fin.coe_ofNat_eq_mod, nhbm]
theorem rix_v282 : rix main_v282 = 552 := by
  show ((552 : Fin (sig.nNear .tc .hbm)) : ℕ) = 552
  rw [Fin.coe_ofNat_eq_mod, nhbm]
theorem rix_v283 : rix main_v283 = 553 := by
  show ((553 : Fin (sig.nNear .tc .hbm)) : ℕ) = 553
  rw [Fin.coe_ofNat_eq_mod, nhbm]
theorem rix_v285 : rix main_v285 = 555 := by
  show ((555 : Fin (sig.nNear .tc .hbm)) : ℕ) = 555
  rw [Fin.coe_ofNat_eq_mod, nhbm]
theorem rix_arg0 : rix main_arg0 = 0 := by
  show ((0 : Fin (sig.nNear .tc .hbm)) : ℕ) = 0
  rw [Fin.coe_ofNat_eq_mod, nhbm]
theorem rix_arg3 : rix main_arg3 = 3 := by
  show ((3 : Fin (sig.nNear .tc .hbm)) : ℕ) = 3
  rw [Fin.coe_ofNat_eq_mod, nhbm]
theorem rix_v1 : rix main_v1 = 20 := by
  show ((20 : Fin (sig.nNear .tc .hbm)) : ℕ) = 20
  rw [Fin.coe_ofNat_eq_mod, nhbm]
theorem rix_v17 : rix main_v17 = 39 := by
  show ((39 : Fin (sig.nNear .tc .hbm)) : ℕ) = 39
  rw [Fin.coe_ofNat_eq_mod, nhbm]
theorem rix_v34 : rix main_v34 = 81 := by
  show ((81 : Fin (sig.nNear .tc .hbm)) : ℕ) = 81
  rw [Fin.coe_ofNat_eq_mod, nhbm]
theorem rix_v46 : rix main_v46 = 118 := by
  show ((118 : Fin (sig.nNear .tc .hbm)) : ℕ) = 118
  rw [Fin.coe_ofNat_eq_mod, nhbm]
theorem rix_v58 : rix main_v58 = 155 := by
  show ((155 : Fin (sig.nNear .tc .hbm)) : ℕ) = 155
  rw [Fin.coe_ofNat_eq_mod, nhbm]
theorem rix_v74 : rix main_v74 = 174 := by
  show ((174 : Fin (sig.nNear .tc .hbm)) : ℕ) = 174
  rw [Fin.coe_ofNat_eq_mod, nhbm]
theorem rix_v91 : rix main_v91 = 216 := by
  show ((216 : Fin (sig.nNear .tc .hbm)) : ℕ) = 216
  rw [Fin.coe_ofNat_eq_mod, nhbm]
theorem rix_v103 : rix main_v103 = 253 := by
  show ((253 : Fin (sig.nNear .tc .hbm)) : ℕ) = 253
  rw [Fin.coe_ofNat_eq_mod, nhbm]
theorem rix_v115 : rix main_v115 = 290 := by
  show ((290 : Fin (sig.nNear .tc .hbm)) : ℕ) = 290
  rw [Fin.coe_ofNat_eq_mod, nhbm]
theorem rix_v131 : rix main_v131 = 309 := by
  show ((309 : Fin (sig.nNear .tc .hbm)) : ℕ) = 309
  rw [Fin.coe_ofNat_eq_mod, nhbm]
theorem rix_v148 : rix main_v148 = 351 := by
  show ((351 : Fin (sig.nNear .tc .hbm)) : ℕ) = 351
  rw [Fin.coe_ofNat_eq_mod, nhbm]
theorem rix_v160 : rix main_v160 = 388 := by
  show ((388 : Fin (sig.nNear .tc .hbm)) : ℕ) = 388
  rw [Fin.coe_ofNat_eq_mod, nhbm]
theorem rix_v172 : rix main_v172 = 425 := by
  show ((425 : Fin (sig.nNear .tc .hbm)) : ℕ) = 425
  rw [Fin.coe_ofNat_eq_mod, nhbm]
theorem rix_v200 : rix main_v200 = 458 := by
  show ((458 : Fin (sig.nNear .tc .hbm)) : ℕ) = 458
  rw [Fin.coe_ofNat_eq_mod, nhbm]
theorem rix_v228 : rix main_v228 = 490 := by
  show ((490 : Fin (sig.nNear .tc .hbm)) : ℕ) = 490
  rw [Fin.coe_ofNat_eq_mod, nhbm]
theorem rix_v256 : rix main_v256 = 522 := by
  show ((522 : Fin (sig.nNear .tc .hbm)) : ℕ) = 522
  rw [Fin.coe_ofNat_eq_mod, nhbm]
theorem rix_v284 : rix main_v284 = 554 := by
  show ((554 : Fin (sig.nNear .tc .hbm)) : ℕ) = 554
  rw [Fin.coe_ofNat_eq_mod, nhbm]
theorem rix_arg1 : rix main_arg1 = 1 := by
  show ((1 : Fin (sig.nNear .tc .hbm)) : ℕ) = 1
  rw [Fin.coe_ofNat_eq_mod, nhbm]
theorem rix_arg2 : rix main_arg2 = 2 := by
  show ((2 : Fin (sig.nNear .tc .hbm)) : ℕ) = 2
  rw [Fin.coe_ofNat_eq_mod, nhbm]
theorem rix_arg4 : rix main_arg4 = 4 := by
  show ((4 : Fin (sig.nNear .tc .hbm)) : ℕ) = 4
  rw [Fin.coe_ofNat_eq_mod, nhbm]
theorem rix_arg5 : rix main_arg5 = 5 := by
  show ((5 : Fin (sig.nNear .tc .hbm)) : ℕ) = 5
  rw [Fin.coe_ofNat_eq_mod, nhbm]
theorem rix_arg6 : rix main_arg6 = 6 := by
  show ((6 : Fin (sig.nNear .tc .hbm)) : ℕ) = 6
  rw [Fin.coe_ofNat_eq_mod, nhbm]
theorem rix_arg7 : rix main_arg7 = 7 := by
  show ((7 : Fin (sig.nNear .tc .hbm)) : ℕ) = 7
  rw [Fin.coe_ofNat_eq_mod, nhbm]
theorem rix_arg8 : rix main_arg8 = 8 := by
  show ((8 : Fin (sig.nNear .tc .hbm)) : ℕ) = 8
  rw [Fin.coe_ofNat_eq_mod, nhbm]
theorem rix_arg9 : rix main_arg9 = 9 := by
  show ((9 : Fin (sig.nNear .tc .hbm)) : ℕ) = 9
  rw [Fin.coe_ofNat_eq_mod, nhbm]
theorem rix_arg10 : rix main_arg10 = 10 := by
  show ((10 : Fin (sig.nNear .tc .hbm)) : ℕ) = 10
  rw [Fin.coe_ofNat_eq_mod, nhbm]
theorem rix_arg11 : rix main_arg11 = 11 := by
  show ((11 : Fin (sig.nNear .tc .hbm)) : ℕ) = 11
  rw [Fin.coe_ofNat_eq_mod, nhbm]
theorem rix_arg12 : rix main_arg12 = 12 := by
  show ((12 : Fin (sig.nNear .tc .hbm)) : ℕ) = 12
  rw [Fin.coe_ofNat_eq_mod, nhbm]
theorem rix_arg13 : rix main_arg13 = 13 := by
  show ((13 : Fin (sig.nNear .tc .hbm)) : ℕ) = 13
  rw [Fin.coe_ofNat_eq_mod, nhbm]
theorem rix_arg14 : rix main_arg14 = 14 := by
  show ((14 : Fin (sig.nNear .tc .hbm)) : ℕ) = 14
  rw [Fin.coe_ofNat_eq_mod, nhbm]
theorem rix_arg15 : rix main_arg15 = 15 := by
  show ((15 : Fin (sig.nNear .tc .hbm)) : ℕ) = 15
  rw [Fin.coe_ofNat_eq_mod, nhbm]
theorem rix_arg16 : rix main_arg16 = 16 := by
  show ((16 : Fin (sig.nNear .tc .hbm)) : ℕ) = 16
  rw [Fin.coe_ofNat_eq_mod, nhbm]
theorem rix_arg17 : rix main_arg17 = 17 := by
  show ((17 : Fin (sig.nNear .tc .hbm)) : ℕ) = 17
  rw [Fin.coe_ofNat_eq_mod, nhbm]
theorem rix_arg18 : rix main_arg18 = 18 := by
  show ((18 : Fin (sig.nNear .tc .hbm)) : ℕ) = 18
  rw [Fin.coe_ofNat_eq_mod, nhbm]

/-- The argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- Their indices. -/
def argIx : List ℕ := [0, 1, 2, 3, 4, 5, 6, 7, 8, 9, 10, 11, 12, 13, 14, 15, 16, 17, 18]
theorem argRefs_ix : argRefs.map rix = argIx := by
  simp only [argRefs, argIx, List.map_cons, List.map_nil, rix_arg0, rix_arg1, rix_arg2, rix_arg3, rix_arg4, rix_arg5, rix_arg6, rix_arg7, rix_arg8, rix_arg9, rix_arg10, rix_arg11, rix_arg12, rix_arg13, rix_arg14, rix_arg15, rix_arg16, rix_arg17, rix_arg18]
/-- An argument array is not in a list none of whose indices is an argument's. -/
theorem not_mem_of_arg {l : List (Ref sig .tc)} {ln : List ℕ} (hl : l.map rix = ln) (hd : ∀ n ∈ argIx, n ∉ ln)
    {b : Ref sig .tc} (hb : b ∈ argRefs) : b ∉ l :=
  fun hbl => hd (rix b) (argRefs_ix ▸ List.mem_map_of_mem hb) (hl ▸ List.mem_map_of_mem hbl)
/-- An argument array is not a buffer whose index is no argument's. -/
theorem ne_of_arg {o : Ref sig .tc} {n : ℕ} (ho : rix o = n) (hd : ∀ k ∈ argIx, k ≠ n)
    {b : Ref sig .tc} (hb : b ∈ argRefs) : b ≠ o :=
  fun e => hd (rix b) (argRefs_ix ▸ List.mem_map_of_mem hb) (ho ▸ congrArg rix e)

end Cert.KernelIdeal.Keep

end
-- ==== Proof.KKeepH0.lean ====
/-
  Host stretches of the kernel program (one third of them): the buffers each writes, by name and by index; every
  operation of the stretch writes one of them; so the stretch leaves every other buffer as it was.
-/
import proofs.«107973_j83408264888790_1_alg».proof.Proof.KKeepBase

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers the stretch `hostOps0` writes, and their indices. -/
def wr_hostOps0 : List (Ref sig .tc) := [main_v0]
def wi_hostOps0 : List ℕ := [19]
theorem wr_hostOps0_ix : wr_hostOps0.map rix = wi_hostOps0 := by
  simp only [wr_hostOps0, wi_hostOps0, List.map_cons, List.map_nil, rix_v0]
theorem hostOps0_wr : (hostOps0 : List (HloOp τ sig (Elt F))).Forall fun op => op.writes ⊆ ((wr_hostOps0).map (Proc.devRef (τ := τ) .tc)).toFinset :=
  single_sub_of_mem (y := main_v0) (by simp only [wr_hostOps0, List.mem_cons, eq_self_iff_true, true_or, or_true])
theorem keep1 (c : Dev nD) (b : Ref sig .tc) (hb : b ∉ wr_hostOps0) :
    W1 m ρ c (Proc.devRef .tc b) = W0 m ρ c (Proc.devRef .tc b) :=
  StableHlo.after_of_writes_sub hostOps0 (W0 m ρ c) hostOps0_wr hb

/-- The buffers the stretch `hostOps2_1` writes, and their indices. -/
def wr_hostOps2_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v22]
def wi_hostOps2_1 : List ℕ := [47, 48, 49, 50, 51, 52, 53, 54, 55, 56, 57, 58, 59, 60, 61, 62, 63, 64, 65, 66, 67, 68, 69]
theorem wr_hostOps2_1_ix : wr_hostOps2_1.map rix = wi_hostOps2_1 := by
  simp only [wr_hostOps2_1, wi_hostOps2_1, List.map_cons, List.map_nil, rix_call0_cst, rix_call0_v0, rix_call0_v1, rix_call0_cst_0, rix_call0_v2, rix_call0_v3, rix_call0_v4, rix_call0_v5, rix_call0_v6, rix_call0_v7, rix_call0_cst_1, rix_call0_v8, rix_call0_cst_2, rix_call0_v9, rix_call0_v10, rix_call0_v11, rix_call0_v12, rix_call0_cst_3, rix_call0_v13, rix_call0_cst_4, rix_call0_call0_v0, rix_call0_call0_v1, rix_v22]
theorem hostOps2_1_wr : (hostOps2_1 : List (HloOp τ sig (Elt F))).Forall fun op => op.writes ⊆ ((wr_hostOps2_1).map (Proc.devRef (τ := τ) .tc)).toFinset :=
  ⟨single_sub_of_mem (y := main_call0_cst) (by simp only [wr_hostOps2_1, List.mem_cons, eq_self_iff_true, true_or, or_true]),
    single_sub_of_mem (y := main_call0_v0) (by simp only [wr_hostOps2_1, List.mem_cons, eq_self_iff_true, true_or, or_true]),
    single_sub_of_mem (y := main_call0_v1) (by simp only [wr_hostOps2_1, List.mem_cons, eq_self_iff_true, true_or, or_true]),
    single_sub_of_mem (y := main_call0_cst_0) (by simp only [wr_hostOps2_1, List.mem_cons, eq_self_iff_true, true_or, or_true]),
    single_sub_of_mem (y := main_call0_v2) (by simp only [wr_hostOps2_1, List.mem_cons, eq_self_iff_true, true_or, or_true]),
    single_sub_of_mem (y := main_call0_v3) (by simp only [wr_hostOps2_1, List.mem_cons, eq_self_iff_true, true_or, or_true]),
    single_sub_of_mem (y := main_call0_v4) (by simp only [wr_hostOps2_1, List.mem_cons, eq_self_iff_true, true_or, or_true]),
    single_sub_of_mem (y := main_call0_v5) (by simp only [wr_hostOps2_1, List.mem_cons, eq_self_iff_true, true_or, or_true]),
    single_sub_of_mem (y := main_call0_v6) (by simp only [wr_hostOps2_1, List.mem_cons, eq_self_iff_true, true_or, or_true]),
    single_sub_of_mem (y := main_call0_v7) (by simp only [wr_hostOps2_1, List.mem_cons, eq_self_iff_true, true_or, or_true]),
    single_sub_of_mem (y := main_call0_cst_1) (by simp only [wr_hostOps2_1, List.mem_cons, eq_self_iff_true, true_or, or_true]),
    single_sub_of_mem (y := main_call0_v8) (by simp only [wr_hostOps2_1, List.mem_cons, eq_self_iff_true, true_or, or_true]),
    single_sub_of_mem (y := main_call0_cst_2) (by simp only [wr_hostOps2_1, List.mem_cons, eq_self_iff_true, true_or, or_true]),
    single_sub_of_mem (y := main_call0_v9) (by simp only [wr_hostOps2_1, List.mem_cons, eq_self_iff_true, true_or, or_true]),
    single_sub_of_mem (y := main_call0_v10) (by simp only [wr_hostOps2_1, List.mem_cons, eq_self_iff_true, true_or, or_true]),
    single_sub_of_mem (y := main_call0_v11) (by simp only [wr_hostOps2_1, List.mem_cons, eq_self_iff_true, true_or, or_true]),
    single_sub_of_mem (y := main_call0_v12) (by simp only [wr_hostOps2_1, List.mem_cons, eq_self_iff_true, true_or, or_true]),
    single_sub_of_mem (y := main_call0_cst_3) (by simp only [wr_hostOps2_1, List.mem_cons, eq_self_iff_true, true_or, or_true]),
    single_sub_of_mem (y := main_call0_v13) (by simp only [wr_hostOps2_1, List.mem_cons, eq_self_iff_true, true_or, or_true]),
    single_sub_of_mem (y := main_call0_cst_4) (by simp only [wr_hostOps2_1, List.mem_cons, eq_self_iff_true, true_or, or_true]),
    single_sub_of_mem (y := main_call0_call0_v0) (by simp only [wr_hostOps2_1, List.mem_cons, eq_self_iff_true, true_or, or_true]),
    single_sub_of_mem (y := main_call0_call0_v1) (by simp only [wr_hostOps2_1, List.mem_cons, eq_self_iff_true, true_or, or_true]),
    single_sub_of_mem (y := main_v22) (by simp only [wr_hostOps2_1, List.mem_cons, eq_self_iff_true, true_or, or_true])⟩
theorem keep6 (c : Dev nD) (b : Ref sig .tc) (hb : b ∉ wr_hostOps2_1) :
    W6 m ρ c (Proc.devRef .tc b) = W5 m ρ c (Proc.devRef .tc b) :=
  StableHlo.after_of_writes_sub hostOps2_1 (W5 m ρ c) hostOps2_1_wr hb

/-- The buffers the stretch `hostOps3_1` writes, and their indices. -/
def wr_hostOps3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v39]
def wi_hostOps3_1 : List ℕ := [89, 90, 91, 92, 93, 94, 95, 96, 97, 98, 99, 100, 101, 102, 103, 104, 105, 106, 107, 108, 109, 110, 111]
theorem wr_hostOps3_1_ix : wr_hostOps3_1.map rix = wi_hostOps3_1 := by
  simp only [wr_hostOps3_1, wi_hostOps3_1, List.map_cons, List.map_nil, rix_call1_cst, rix_call1_v0, rix_call1_v1, rix_call1_cst_0, rix_call1_v2, rix_call1_v3, rix_call1_v4, rix_call1_v5, rix_call1_v6, rix_call1_v7, rix_call1_cst_1, rix_call1_v8, rix_call1_cst_2, rix_call1_v9, rix_call1_v10, rix_call1_v11, rix_call1_v12, rix_call1_cst_3, rix_call1_v13, rix_call1_cst_4, rix_call1_call0_v0, rix_call1_call0_v1, rix_v39]
theorem hostOps3_1_wr : (hostOps3_1 : List (HloOp τ sig (Elt F))).Forall fun op => op.writes ⊆ ((wr_hostOps3_1).map (Proc.devRef (τ := τ) .tc)).toFinset :=
  ⟨single_sub_of_mem (y := main_call1_cst) (by simp only [wr_hostOps3_1, List.mem_cons, eq_self_iff_true, true_or, or_true]),
    single_sub_of_mem (y := main_call1_v0) (by simp only [wr_hostOps3_1, List.mem_cons, eq_self_iff_true, true_or, or_true]),
    single_sub_of_mem (y := main_call1_v1) (by simp only [wr_hostOps3_1, List.mem_cons, eq_self_iff_true, true_or, or_true]),
    single_sub_of_mem (y := main_call1_cst_0) (by simp only [wr_hostOps3_1, List.mem_cons, eq_self_iff_true, true_or, or_true]),
    single_sub_of_mem (y := main_call1_v2) (by simp only [wr_hostOps3_1, List.mem_cons, eq_self_iff_true, true_or, or_true]),
    single_sub_of_mem (y := main_call1_v3) (by simp only [wr_hostOps3_1, List.mem_cons, eq_self_iff_true, true_or, or_true]),
    single_sub_of_mem (y := main_call1_v4) (by simp only [wr_hostOps3_1, List.mem_cons, eq_self_iff_true, true_or, or_true]),
    single_sub_of_mem (y := main_call1_v5) (by simp only [wr_hostOps3_1, List.mem_cons, eq_self_iff_true, true_or, or_true]),
    single_sub_of_mem (y := main_call1_v6) (by simp only [wr_hostOps3_1, List.mem_cons, eq_self_iff_true, true_or, or_true]),
    single_sub_of_mem (y := main_call1_v7) (by simp only [wr_hostOps3_1, List.mem_cons, eq_self_iff_true, true_or, or_true]),
    single_sub_of_mem (y := main_call1_cst_1) (by simp only [wr_hostOps3_1, List.mem_cons, eq_self_iff_true, true_or, or_true]),
    single_sub_of_mem (y := main_call1_v8) (by simp only [wr_hostOps3_1, List.mem_cons, eq_self_iff_true, true_or, or_true]),
    single_sub_of_mem (y := main_call1_cst_2) (by simp only [wr_hostOps3_1, List.mem_cons, eq_self_iff_true, true_or, or_true]),
    single_sub_of_mem (y := main_call1_v9) (by simp only [wr_hostOps3_1, List.mem_cons, eq_self_iff_true, true_or, or_true]),
    single_sub_of_mem (y := main_call1_v10) (by simp only [wr_hostOps3_1, List.mem_cons, eq_self_iff_true, true_or, or_true]),
    single_sub_of_mem (y := main_call1_v11) (by simp only [wr_hostOps3_1, List.mem_cons, eq_self_iff_true, true_or, or_true]),
    single_sub_of_mem (y := main_call1_v12) (by simp only [wr_hostOps3_1, List.mem_cons, eq_self_iff_true, true_or, or_true]),
    single_sub_of_mem (y := main_call1_cst_3) (by simp only [wr_hostOps3_1, List.mem_cons, eq_self_iff_true, true_or, or_true]),
    single_sub_of_mem (y := main_call1_v13) (by simp only [wr_hostOps3_1, List.mem_cons, eq_self_iff_true, true_or, or_true]),
    single_sub_of_mem (y := main_call1_cst_4) (by simp only [wr_hostOps3_1, List.mem_cons, eq_self_iff_true, true_or, or_true]),
    single_sub_of_mem (y := main_call1_call0_v0) (by simp only [wr_hostOps3_1, List.mem_cons, eq_self_iff_true, true_or, or_true]),
    single_sub_of_mem (y := main_call1_call0_v1) (by simp only [wr_hostOps3_1, List.mem_cons, eq_self_iff_true, true_or, or_true]),
    single_sub_of_mem (y := main_v39) (by simp only [wr_hostOps3_1, List.mem_cons, eq_self_iff_true, true_or, or_true])⟩
theorem keep10 (c : Dev nD) (b : Ref sig .tc) (hb : b ∉ wr_hostOps3_1) :
    W10 m ρ c (Proc.devRef .tc b) = W9 m ρ c (Proc.devRef .tc b) :=
  StableHlo.after_of_writes_sub hostOps3_1 (W9 m ρ c) hostOps3_1_wr hb

/-- The buffers the stretch `hostOps4_1` writes, and their indices. -/
def wr_hostOps4_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v51]
def wi_hostOps4_1 : List ℕ := [126, 127, 128, 129, 130, 131, 132, 133, 134, 135, 136, 137, 138, 139, 140, 141, 142, 143, 144, 145, 146, 147, 148]
theorem wr_hostOps4_1_ix : wr_hostOps4_1.map rix = wi_hostOps4_1 := by
  simp only [wr_hostOps4_1, wi_hostOps4_1, List.map_cons, List.map_nil, rix_call2_cst, rix_call2_v0, rix_call2_v1, rix_call2_cst_0, rix_call2_v2, rix_call2_v3, rix_call2_v4, rix_call2_v5, rix_call2_v6, rix_call2_v7, rix_call2_cst_1, rix_call2_v8, rix_call2_cst_2, rix_call2_v9, rix_call2_v10, rix_call2_v11, rix_call2_v12, rix_call2_cst_3, rix_call2_v13, rix_call2_cst_4, rix_call2_call0_v0, rix_call2_call0_v1, rix_v51]
theorem hostOps4_1_wr : (hostOps4_1 : List (HloOp τ sig (Elt F))).Forall fun op => op.writes ⊆ ((wr_hostOps4_1).map (Proc.devRef (τ := τ) .tc)).toFinset :=
  ⟨single_sub_of_mem (y := main_call2_cst) (by simp only [wr_hostOps4_1, List.mem_cons, eq_self_iff_true, true_or, or_true]),
    single_sub_of_mem (y := main_call2_v0) (by simp only [wr_hostOps4_1, List.mem_cons, eq_self_iff_true, true_or, or_true]),
    single_sub_of_mem (y := main_call2_v1) (by simp only [wr_hostOps4_1, List.mem_cons, eq_self_iff_true, true_or, or_true]),
    single_sub_of_mem (y := main_call2_cst_0) (by simp only [wr_hostOps4_1, List.mem_cons, eq_self_iff_true, true_or, or_true]),
    single_sub_of_mem (y := main_call2_v2) (by simp only [wr_hostOps4_1, List.mem_cons, eq_self_iff_true, true_or, or_true]),
    single_sub_of_mem (y := main_call2_v3) (by simp only [wr_hostOps4_1, List.mem_cons, eq_self_iff_true, true_or, or_true]),
    single_sub_of_mem (y := main_call2_v4) (by simp only [wr_hostOps4_1, List.mem_cons, eq_self_iff_true, true_or, or_true]),
    single_sub_of_mem (y := main_call2_v5) (by simp only [wr_hostOps4_1, List.mem_cons, eq_self_iff_true, true_or, or_true]),
    single_sub_of_mem (y := main_call2_v6) (by simp only [wr_hostOps4_1, List.mem_cons, eq_self_iff_true, true_or, or_true]),
    single_sub_of_mem (y := main_call2_v7) (by simp only [wr_hostOps4_1, List.mem_cons, eq_self_iff_true, true_or, or_true]),
    single_sub_of_mem (y := main_call2_cst_1) (by simp only [wr_hostOps4_1, List.mem_cons, eq_self_iff_true, true_or, or_true]),
    single_sub_of_mem (y := main_call2_v8) (by simp only [wr_hostOps4_1, List.mem_cons, eq_self_iff_true, true_or, or_true]),
    single_sub_of_mem (y := main_call2_cst_2) (by simp only [wr_hostOps4_1, List.mem_cons, eq_self_iff_true, true_or, or_true]),
    single_sub_of_mem (y := main_call2_v9) (by simp only [wr_hostOps4_1, List.mem_cons, eq_self_iff_true, true_or, or_true]),
    single_sub_of_mem (y := main_call2_v10) (by simp only [wr_hostOps4_1, List.mem_cons, eq_self_iff_true, true_or, or_true]),
    single_sub_of_mem (y := main_call2_v11) (by simp only [wr_hostOps4_1, List.mem_cons, eq_self_iff_true, true_or, or_true]),
    single_sub_of_mem (y := main_call2_v12) (by simp only [wr_hostOps4_1, List.mem_cons, eq_self_iff_true, true_or, or_true]),
    single_sub_of_mem (y := main_call2_cst_3) (by simp only [wr_hostOps4_1, List.mem_cons, eq_self_iff_true, true_or, or_true]),
    single_sub_of_mem (y := main_call2_v13) (by simp only [wr_hostOps4_1, List.mem_cons, eq_self_iff_true, true_or, or_true]),
    single_sub_of_mem (y := main_call2_cst_4) (by simp only [wr_hostOps4_1, List.mem_cons, eq_self_iff_true, true_or, or_true]),
    single_sub_of_mem (y := main_call2_call0_v0) (by simp only [wr_hostOps4_1, List.mem_cons, eq_self_iff_true, true_or, or_true]),
    single_sub_of_mem (y := main_call2_call0_v1) (by simp only [wr_hostOps4_1, List.mem_cons, eq_self_iff_true, true_or, or_true]),
    single_sub_of_mem (y := main_v51) (by simp only [wr_hostOps4_1, List.mem_cons, eq_self_iff_true, true_or, or_true])⟩
theorem keep14 (c : Dev nD) (b : Ref sig .tc) (hb : b ∉ wr_hostOps4_1) :
    W14 m ρ c (Proc.devRef .tc b) = W13 m ρ c (Proc.devRef .tc b) :=
  StableHlo.after_of_writes_sub hostOps4_1 (W13 m ρ c) hostOps4_1_wr hb

/-- The buffers the stretch `hostOps6` writes, and their indices. -/
def wr_hostOps6 : List (Ref sig .tc) := [main_cst_13, main_v75, main_v76, main_cst_14, main_v77, main_v78, main_c_15]
def wi_hostOps6 : List ℕ := [175, 176, 177, 178, 179, 180, 181]
theorem wr_hostOps6_ix : wr_hostOps6.map rix = wi_hostOps6 := by
  simp only [wr_hostOps6, wi_hostOps6, List.map_cons, List.map_nil, rix_cst_13, rix_v75, rix_v76, rix_cst_14, rix_v77, rix_v78, rix_c_15]
theorem hostOps6_wr : (hostOps6 : List (HloOp τ sig (Elt F))).Forall fun op => op.writes ⊆ ((wr_hostOps6).map (Proc.devRef (τ := τ) .tc)).toFinset :=
  ⟨single_sub_of_mem (y := main_cst_13) (by simp only [wr_hostOps6, List.mem_cons, eq_self_iff_true, true_or, or_true]),
    single_sub_of_mem (y := main_v75) (by simp only [wr_hostOps6, List.mem_cons, eq_self_iff_true, true_or, or_true]),
    single_sub_of_mem (y := main_v76) (by simp only [wr_hostOps6, List.mem_cons, eq_self_iff_true, true_or, or_true]),
    single_sub_of_mem (y := main_cst_14) (by simp only [wr_hostOps6, List.mem_cons, eq_self_iff_true, true_or, or_true]),
    single_sub_of_mem (y := main_v77) (by simp only [wr_hostOps6, List.mem_cons, eq_self_iff_true, true_or, or_true]),
    single_sub_of_mem (y := main_v78) (by simp only [wr_hostOps6, List.mem_cons, eq_self_iff_true, true_or, or_true]),
    single_sub_of_mem (y := main_c_15) (by simp only [wr_hostOps6, List.mem_cons, eq_self_iff_true, true_or, or_true])⟩
theorem keep19 (c : Dev nD) (b : Ref sig .tc) (hb : b ∉ wr_hostOps6) :
    W19 m ρ c (Proc.devRef .tc b) = W18 m ρ c (Proc.devRef .tc b) :=
  StableHlo.after_of_writes_sub hostOps6 (W18 m ρ c) hostOps6_wr hb

/-- The buffers the stretch `hostOps7` writes, and their indices. -/
def wr_hostOps7 : List (Ref sig .tc) := [main_cst_16, main_v92, main_v93, main_cst_17, main_v94, main_v95, main_c_18]
def wi_hostOps7 : List ℕ := [217, 218, 219, 220, 221, 222, 223]
theorem wr_hostOps7_ix : wr_hostOps7.map rix = wi_hostOps7 := by
  simp only [wr_hostOps7, wi_hostOps7, List.map_cons, List.map_nil, rix_cst_16, rix_v92, rix_v93, rix_cst_17, rix_v94, rix_v95, rix_c_18]
theorem hostOps7_wr : (hostOps7 : List (HloOp τ sig (Elt F))).Forall fun op => op.writes ⊆ ((wr_hostOps7).map (Proc.devRef (τ := τ) .tc)).toFinset :=
  ⟨single_sub_of_mem (y := main_cst_16) (by simp only [wr_hostOps7, List.mem_cons, eq_self_iff_true, true_or, or_true]),
    single_sub_of_mem (y := main_v92) (by simp only [wr_hostOps7, List.mem_cons, eq_self_iff_true, true_or, or_true]),
    single_sub_of_mem (y := main_v93) (by simp only [wr_hostOps7, List.mem_cons, eq_self_iff_true, true_or, or_true]),
    single_sub_of_mem (y := main_cst_17) (by simp only [wr_hostOps7, List.mem_cons, eq_self_iff_true, true_or, or_true]),
    single_sub_of_mem (y := main_v94) (by simp only [wr_hostOps7, List.mem_cons, eq_self_iff_true, true_or, or_true]),
    single_sub_of_mem (y := main_v95) (by simp only [wr_hostOps7, List.mem_cons, eq_self_iff_true, true_or, or_true]),
    single_sub_of_mem (y := main_c_18) (by simp only [wr_hostOps7, List.mem_cons, eq_self_iff_true, true_or, or_true])⟩
theorem keep23 (c : Dev nD) (b : Ref sig .tc) (hb : b ∉ wr_hostOps7) :
    W23 m ρ c (Proc.devRef .tc b) = W22 m ρ c (Proc.devRef .tc b) :=
  StableHlo.after_of_writes_sub hostOps7 (W22 m ρ c) hostOps7_wr hb

/-- The buffers the stretch `hostOps8` writes, and their indices. -/
def wr_hostOps8 : List (Ref sig .tc) := [main_cst_19, main_v104, main_v105, main_cst_20, main_v106, main_v107, main_c_21]
def wi_hostOps8 : List ℕ := [254, 255, 256, 257, 258, 259, 260]
theorem wr_hostOps8_ix : wr_hostOps8.map rix = wi_hostOps8 := by
  simp only [wr_hostOps8, wi_hostOps8, List.map_cons, List.map_nil, rix_cst_19, rix_v104, rix_v105, rix_cst_20, rix_v106, rix_v107, rix_c_21]
theorem hostOps8_wr : (hostOps8 : List (HloOp τ sig (Elt F))).Forall fun op => op.writes ⊆ ((wr_hostOps8).map (Proc.devRef (τ := τ) .tc)).toFinset :=
  ⟨single_sub_of_mem (y := main_cst_19) (by simp only [wr_hostOps8, List.mem_cons, eq_self_iff_true, true_or, or_true]),
    single_sub_of_mem (y := main_v104) (by simp only [wr_hostOps8, List.mem_cons, eq_self_iff_true, true_or, or_true]),
    single_sub_of_mem (y := main_v105) (by simp only [wr_hostOps8, List.mem_cons, eq_self_iff_true, true_or, or_true]),
    single_sub_of_mem (y := main_cst_20) (by simp only [wr_hostOps8, List.mem_cons, eq_self_iff_true, true_or, or_true]),
    single_sub_of_mem (y := main_v106) (by simp only [wr_hostOps8, List.mem_cons, eq_self_iff_true, true_or, or_true]),
    single_sub_of_mem (y := main_v107) (by simp only [wr_hostOps8, List.mem_cons, eq_self_iff_true, true_or, or_true]),
    single_sub_of_mem (y := main_c_21) (by simp only [wr_hostOps8, List.mem_cons, eq_self_iff_true, true_or, or_true])⟩
theorem keep27 (c : Dev nD) (b : Ref sig .tc) (hb : b ∉ wr_hostOps8) :
    W27 m ρ c (Proc.devRef .tc b) = W26 m ρ c (Proc.devRef .tc b) :=
  StableHlo.after_of_writes_sub hostOps8 (W26 m ρ c) hostOps8_wr hb

/-- The buffers the stretch `hostOps9` writes, and their indices. -/
def wr_hostOps9 : List (Ref sig .tc) := [main_c_22, main_v116, main_v117, main_c_23, main_v118, main_v119, main_v120, main_v121, main_v122, main_cst_24, main_v123, main_v124, main_v125, main_v126, main_v127, main_v128, main_v129, main_v130]
def wi_hostOps9 : List ℕ := [291, 292, 293, 294, 295, 296, 297, 298, 299, 300, 301, 302, 303, 304, 305, 306, 307, 308]
theorem wr_hostOps9_ix : wr_hostOps9.map rix = wi_hostOps9 := by
  simp only [wr_hostOps9, wi_hostOps9, List.map_cons, List.map_nil, rix_c_22, rix_v116, rix_v117, rix_c_23, rix_v118, rix_v119, rix_v120, rix_v121, rix_v122, rix_cst_24, rix_v123, rix_v124, rix_v125, rix_v126, rix_v127, rix_v128, rix_v129, rix_v130]
theorem hostOps9_wr : (hostOps9 : List (HloOp τ sig (Elt F))).Forall fun op => op.writes ⊆ ((wr_hostOps9).map (Proc.devRef (τ := τ) .tc)).toFinset :=
  ⟨single_sub_of_mem (y := main_c_22) (by simp only [wr_hostOps9, List.mem_cons, eq_self_iff_true, true_or, or_true]),
    single_sub_of_mem (y := main_v116) (by simp only [wr_hostOps9, List.mem_cons, eq_self_iff_true, true_or, or_true]),
    single_sub_of_mem (y := main_v117) (by simp only [wr_hostOps9, List.mem_cons, eq_self_iff_true, true_or, or_true]),
    single_sub_of_mem (y := main_c_23) (by simp only [wr_hostOps9, List.mem_cons, eq_self_iff_true, true_or, or_true]),
    single_sub_of_mem (y := main_v118) (by simp only [wr_hostOps9, List.mem_cons, eq_self_iff_true, true_or, or_true]),
    single_sub_of_mem (y := main_v119) (by simp only [wr_hostOps9, List.mem_cons, eq_self_iff_true, true_or, or_true]),
    single_sub_of_mem (y := main_v120) (by simp only [wr_hostOps9, List.mem_cons, eq_self_iff_true, true_or, or_true]),
    single_sub_of_mem (y := main_v121) (by simp only [wr_hostOps9, List.mem_cons, eq_self_iff_true, true_or, or_true]),
    single_sub_of_mem (y := main_v122) (by simp only [wr_hostOps9, List.mem_cons, eq_self_iff_true, true_or, or_true]),
    single_sub_of_mem (y := main_cst_24) (by simp only [wr_hostOps9, List.mem_cons, eq_self_iff_true, true_or, or_true]),
    single_sub_of_mem (y := main_v123) (by simp only [wr_hostOps9, List.mem_cons, eq_self_iff_true, true_or, or_true]),
    single_sub_of_mem (y := main_v124) (by simp only [wr_hostOps9, List.mem_cons, eq_self_iff_true, true_or, or_true]),
    single_sub_of_mem (y := main_v125) (by simp only [wr_hostOps9, List.mem_cons, eq_self_iff_true, true_or, or_true]),
    single_sub_of_mem (y := main_v126) (by simp only [wr_hostOps9, List.mem_cons, eq_self_iff_true, true_or, or_true]),
    single_sub_of_mem (y := main_v127) (by simp only [wr_hostOps9, List.mem_cons, eq_self_iff_true, true_or, or_true]),
    single_sub_of_mem (y := main_v128) (by simp only [wr_hostOps9, List.mem_cons, eq_self_iff_true, true_or, or_true]),
    single_sub_of_mem (y := main_v129) (by simp only [wr_hostOps9, List.mem_cons, eq_self_iff_true, true_or, or_true]),
    single_sub_of_mem (y := main_v130) (by simp only [wr_hostOps9, List.mem_cons, eq_self_iff_true, true_or, or_true])⟩
theorem keep31 (c : Dev nD) (b : Ref sig .tc) (hb : b ∉ wr_hostOps9) :
    W31 m ρ c (Proc.devRef .tc b) = W30 m ρ c (Proc.devRef .tc b) :=
  StableHlo.after_of_writes_sub hostOps9 (W30 m ρ c) hostOps9_wr hb

/-- The buffers the stretch `hostOps10_2` writes, and their indices. -/
def wr_hostOps10_2 : List (Ref sig .tc) := [main_v137, main_v138, main_v139, main_v140, main_v141, main_v142, main_v143, main_v144, main_v145, main_v146, main_v147]
def wi_hostOps10_2 : List ℕ := [340, 341, 342, 343, 344, 345, 346, 347, 348, 349, 350]
theorem wr_hostOps10_2_ix : wr_hostOps10_2.map rix = wi_hostOps10_2 := by
  simp only [wr_hostOps10_2, wi_hostOps10_2, List.map_cons, List.map_nil, rix_v137, rix_v138, rix_v139, rix_v140, rix_v141, rix_v142, rix_v143, rix_v144, rix_v145, rix_v146, rix_v147]
theorem hostOps10_2_wr : (hostOps10_2 : List (HloOp τ sig (Elt F))).Forall fun op => op.writes ⊆ ((wr_hostOps10_2).map (Proc.devRef (τ := τ) .tc)).toFinset :=
  ⟨single_sub_of_mem (y := main_v137) (by simp only [wr_hostOps10_2, List.mem_cons, eq_self_iff_true, true_or, or_true]),
    single_sub_of_mem (y := main_v138) (by simp only [wr_hostOps10_2, List.mem_cons, eq_self_iff_true, true_or, or_true]),
    single_sub_of_mem (y := main_v139) (by simp only [wr_hostOps10_2, List.mem_cons, eq_self_iff_true, true_or, or_true]),
    single_sub_of_mem (y := main_v140) (by simp only [wr_hostOps10_2, List.mem_cons, eq_self_iff_true, true_or, or_true]),
    single_sub_of_mem (y := main_v141) (by simp only [wr_hostOps10_2, List.mem_cons, eq_self_iff_true, true_or, or_true]),
    single_sub_of_mem (y := main_v142) (by simp only [wr_hostOps10_2, List.mem_cons, eq_self_iff_true, true_or, or_true]),
    single_sub_of_mem (y := main_v143) (by simp only [wr_hostOps10_2, List.mem_cons, eq_self_iff_true, true_or, or_true]),
    single_sub_of_mem (y := main_v144) (by simp only [wr_hostOps10_2, List.mem_cons, eq_self_iff_true, true_or, or_true]),
    single_sub_of_mem (y := main_v145) (by simp only [wr_hostOps10_2, List.mem_cons, eq_self_iff_true, true_or, or_true]),
    single_sub_of_mem (y := main_v146) (by simp only [wr_hostOps10_2, List.mem_cons, eq_self_iff_true, true_or, or_true]),
    single_sub_of_mem (y := main_v147) (by simp only [wr_hostOps10_2, List.mem_cons, eq_self_iff_true, true_or, or_true])⟩
theorem keep35 (c : Dev nD) (b : Ref sig .tc) (hb : b ∉ wr_hostOps10_2) :
    W35 m ρ c (Proc.devRef .tc b) = W34 m ρ c (Proc.devRef .tc b) :=
  StableHlo.after_of_writes_sub hostOps10_2 (W34 m ρ c) hostOps10_2_wr hb

/-- The buffers the stretch `hostOps11_2` writes, and their indices. -/
def wr_hostOps11_2 : List (Ref sig .tc) := [main_v154, main_v155, main_v156, main_v157, main_v158, main_v159]
def wi_hostOps11_2 : List ℕ := [382, 383, 384, 385, 386, 387]
theorem wr_hostOps11_2_ix : wr_hostOps11_2.map rix = wi_hostOps11_2 := by
  simp only [wr_hostOps11_2, wi_hostOps11_2, List.map_cons, List.map_nil, rix_v154, rix_v155, rix_v156, rix_v157, rix_v158, rix_v159]
theorem hostOps11_2_wr : (hostOps11_2 : List (HloOp τ sig (Elt F))).Forall fun op => op.writes ⊆ ((wr_hostOps11_2).map (Proc.devRef (τ := τ) .tc)).toFinset :=
  ⟨single_sub_of_mem (y := main_v154) (by simp only [wr_hostOps11_2, List.mem_cons, eq_self_iff_true, true_or, or_true]),
    single_sub_of_mem (y := main_v155) (by simp only [wr_hostOps11_2, List.mem_cons, eq_self_iff_true, true_or, or_true]),
    single_sub_of_mem (y := main_v156) (by simp only [wr_hostOps11_2, List.mem_cons, eq_self_iff_true, true_or, or_true]),
    single_sub_of_mem (y := main_v157) (by simp only [wr_hostOps11_2, List.mem_cons, eq_self_iff_true, true_or, or_true]),
    single_sub_of_mem (y := main_v158) (by simp only [wr_hostOps11_2, List.mem_cons, eq_self_iff_true, true_or, or_true]),
    single_sub_of_mem (y := main_v159) (by simp only [wr_hostOps11_2, List.mem_cons, eq_self_iff_true, true_or, or_true])⟩
theorem keep39 (c : Dev nD) (b : Ref sig .tc) (hb : b ∉ wr_hostOps11_2) :
    W39 m ρ c (Proc.devRef .tc b) = W38 m ρ c (Proc.devRef .tc b) :=
  StableHlo.after_of_writes_sub hostOps11_2 (W38 m ρ c) hostOps11_2_wr hb

/-- The buffers the stretch `hostOps12_2` writes, and their indices. -/
def wr_hostOps12_2 : List (Ref sig .tc) := [main_v166, main_v167, main_v168, main_v169, main_v170, main_v171]
def wi_hostOps12_2 : List ℕ := [419, 420, 421, 422, 423, 424]
theorem wr_hostOps12_2_ix : wr_hostOps12_2.map rix = wi_hostOps12_2 := by
  simp only [wr_hostOps12_2, wi_hostOps12_2, List.map_cons, List.map_nil, rix_v166, rix_v167, rix_v168, rix_v169, rix_v170, rix_v171]
theorem hostOps12_2_wr : (hostOps12_2 : List (HloOp τ sig (Elt F))).Forall fun op => op.writes ⊆ ((wr_hostOps12_2).map (Proc.devRef (τ := τ) .tc)).toFinset :=
  ⟨single_sub_of_mem (y := main_v166) (by simp only [wr_hostOps12_2, List.mem_cons, eq_self_iff_true, true_or, or_true]),
    single_sub_of_mem (y := main_v167) (by simp only [wr_hostOps12_2, List.mem_cons, eq_self_iff_true, true_or, or_true]),
    single_sub_of_mem (y := main_v168) (by simp only [wr_hostOps12_2, List.mem_cons, eq_self_iff_true, true_or, or_true]),
    single_sub_of_mem (y := main_v169) (by simp only [wr_hostOps12_2, List.mem_cons, eq_self_iff_true, true_or, or_true]),
    single_sub_of_mem (y := main_v170) (by simp only [wr_hostOps12_2, List.mem_cons, eq_self_iff_true, true_or, or_true]),
    single_sub_of_mem (y := main_v171) (by simp only [wr_hostOps12_2, List.mem_cons, eq_self_iff_true, true_or, or_true])⟩
theorem keep43 (c : Dev nD) (b : Ref sig .tc) (hb : b ∉ wr_hostOps12_2) :
    W43 m ρ c (Proc.devRef .tc b) = W42 m ρ c (Proc.devRef .tc b) :=
  StableHlo.after_of_writes_sub hostOps12_2 (W42 m ρ c) hostOps12_2_wr hb

/-- The buffers the stretch `hostOps15` writes, and their indices. -/
def wr_hostOps15 : List (Ref sig .tc) := [main_v229, main_c_43, main_v230, main_v231, main_c_44, main_v232, main_v233, main_v234, main_v235, main_v236, main_c_45, main_v237, main_v238, main_c_46, main_v239, main_v240, main_v241, main_v242, main_v243, main_v244, main_v245, main_v246, main_v247, main_v248, main_v249, main_v250, main_v251, main_v252, main_v253, main_v254, main_v255]
def wi_hostOps15 : List ℕ := [491, 492, 493, 494, 495, 496, 497, 498, 499, 500, 501, 502, 503, 504, 505, 506, 507, 508, 509, 510, 511, 512, 513, 514, 515, 516, 517, 518, 519, 520, 521]
theorem wr_hostOps15_ix : wr_hostOps15.map rix = wi_hostOps15 := by
  simp only [wr_hostOps15, wi_hostOps15, List.map_cons, List.map_nil, rix_v229, rix_c_43, rix_v230, rix_v231, rix_c_44, rix_v232, rix_v233, rix_v234, rix_v235, rix_v236, rix_c_45, rix_v237, rix_v238, rix_c_46, rix_v239, rix_v240, rix_v241, rix_v242, rix_v243, rix_v244, rix_v245, rix_v246, rix_v247, rix_v248, rix_v249, rix_v250, rix_v251, rix_v252, rix_v253, rix_v254, rix_v255]
theorem hostOps15_wr : (hostOps15 : List (HloOp τ sig (Elt F))).Forall fun op => op.writes ⊆ ((wr_hostOps15).map (Proc.devRef (τ := τ) .tc)).toFinset :=
  ⟨single_sub_of_mem (y := main_v229) (by simp only [wr_hostOps15, List.mem_cons, eq_self_iff_true, true_or, or_true]),
    single_sub_of_mem (y := main_c_43) (by simp only [wr_hostOps15, List.mem_cons, eq_self_iff_true, true_or, or_true]),
    single_sub_of_mem (y := main_v230) (by simp only [wr_hostOps15, List.mem_cons, eq_self_iff_true, true_or, or_true]),
    single_sub_of_mem (y := main_v231) (by simp only [wr_hostOps15, List.mem_cons, eq_self_iff_true, true_or, or_true]),
    single_sub_of_mem (y := main_c_44) (by simp only [wr_hostOps15, List.mem_cons, eq_self_iff_true, true_or, or_true]),
    single_sub_of_mem (y := main_v232) (by simp only [wr_hostOps15, List.mem_cons, eq_self_iff_true, true_or, or_true]),
    single_sub_of_mem (y := main_v233) (by simp only [wr_hostOps15, List.mem_cons, eq_self_iff_true, true_or, or_true]),
    single_sub_of_mem (y := main_v234) (by simp only [wr_hostOps15, List.mem_cons, eq_self_iff_true, true_or, or_true]),
    single_sub_of_mem (y := main_v235) (by simp only [wr_hostOps15, List.mem_cons, eq_self_iff_true, true_or, or_true]),
    single_sub_of_mem (y := main_v236) (by simp only [wr_hostOps15, List.mem_cons, eq_self_iff_true, true_or, or_true]),
    single_sub_of_mem (y := main_c_45) (by simp only [wr_hostOps15, List.mem_cons, eq_self_iff_true, true_or, or_true]),
    single_sub_of_mem (y := main_v237) (by simp only [wr_hostOps15, List.mem_cons, eq_self_iff_true, true_or, or_true]),
    single_sub_of_mem (y := main_v238) (by simp only [wr_hostOps15, List.mem_cons, eq_self_iff_true, true_or, or_true]),
    single_sub_of_mem (y := main_c_46) (by simp only [wr_hostOps15, List.mem_cons, eq_self_iff_true, true_or, or_true]),
    single_sub_of_mem (y := main_v239) (by simp only [wr_hostOps15, List.mem_cons, eq_self_iff_true, true_or, or_true]),
    single_sub_of_mem (y := main_v240) (by simp only [wr_hostOps15, List.mem_cons, eq_self_iff_true, true_or, or_true]),
    single_sub_of_mem (y := main_v241) (by simp only [wr_hostOps15, List.mem_cons, eq_self_iff_true, true_or, or_true]),
    single_sub_of_mem (y := main_v242) (by simp only [wr_hostOps15, List.mem_cons, eq_self_iff_true, true_or, or_true]),
    single_sub_of_mem (y := main_v243) (by simp only [wr_hostOps15, List.mem_cons, eq_self_iff_true, true_or, or_true]),
    single_sub_of_mem (y := main_v244) (by simp only [wr_hostOps15, List.mem_cons, eq_self_iff_true, true_or, or_true]),
    single_sub_of_mem (y := main_v245) (by simp only [wr_hostOps15, List.mem_cons, eq_self_iff_true, true_or, or_true]),
    single_sub_of_mem (y := main_v246) (by simp only [wr_hostOps15, List.mem_cons, eq_self_iff_true, true_or, or_true]),
    single_sub_of_mem (y := main_v247) (by simp only [wr_hostOps15, List.mem_cons, eq_self_iff_true, true_or, or_true]),
    single_sub_of_mem (y := main_v248) (by simp only [wr_hostOps15, List.mem_cons, eq_self_iff_true, true_or, or_true]),
    single_sub_of_mem (y := main_v249) (by simp only [wr_hostOps15, List.mem_cons, eq_self_iff_true, true_or, or_true]),
    single_sub_of_mem (y := main_v250) (by simp only [wr_hostOps15, List.mem_cons, eq_self_iff_true, true_or, or_true]),
    single_sub_of_mem (y := main_v251) (by simp only [wr_hostOps15, List.mem_cons, eq_self_iff_true, true_or, or_true]),
    single_sub_of_mem (y := main_v252) (by simp only [wr_hostOps15, List.mem_cons, eq_self_iff_true, true_or, or_true]),
    single_sub_of_mem (y := main_v253) (by simp only [wr_hostOps15, List.mem_cons, eq_self_iff_true, true_or, or_true]),
    single_sub_of_mem (y := main_v254) (by simp only [wr_hostOps15, List.mem_cons, eq_self_iff_true, true_or, or_true]),
    single_sub_of_mem (y := main_v255) (by simp only [wr_hostOps15, List.mem_cons, eq_self_iff_true, true_or, or_true])⟩
theorem keep49 (c : Dev nD) (b : Ref sig .tc) (hb : b ∉ wr_hostOps15) :
    W49 m ρ c (Proc.devRef .tc b) = W48 m ρ c (Proc.devRef .tc b) :=
  StableHlo.after_of_writes_sub hostOps15 (W48 m ρ c) hostOps15_wr hb

end Cert.KernelIdeal.Keep

end
-- ==== Proof.KKeepH1.lean ====
/-
  Host stretches of the kernel program (one third of them): the buffers each writes, by name and by index; every
  operation of the stretch writes one of them; so the stretch leaves every other buffer as it was.
-/
import proofs.«107973_j83408264888790_1_alg».proof.Proof.KKeepBase

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers the stretch `hostOps1` writes, and their indices. -/
def wr_hostOps1 : List (Ref sig .tc) := [main_c, main_v2, main_v3, main_c_0, main_v4, main_v5, main_v6, main_v7, main_v8, main_cst, main_v9, main_v10, main_v11, main_v12, main_v13, main_v14, main_v15, main_v16]
def wi_hostOps1 : List ℕ := [21, 22, 23, 24, 25, 26, 27, 28, 29, 30, 31, 32, 33, 34, 35, 36, 37, 38]
theorem wr_hostOps1_ix : wr_hostOps1.map rix = wi_hostOps1 := by
  simp only [wr_hostOps1, wi_hostOps1, List.map_cons, List.map_nil, rix_c, rix_v2, rix_v3, rix_c_0, rix_v4, rix_v5, rix_v6, rix_v7, rix_v8, rix_cst, rix_v9, rix_v10, rix_v11, rix_v12, rix_v13, rix_v14, rix_v15, rix_v16]
theorem hostOps1_wr : (hostOps1 : List (HloOp τ sig (Elt F))).Forall fun op => op.writes ⊆ ((wr_hostOps1).map (Proc.devRef (τ := τ) .tc)).toFinset :=
  ⟨single_sub_of_mem (y := main_c) (by simp only [wr_hostOps1, List.mem_cons, eq_self_iff_true, true_or, or_true]),
    single_sub_of_mem (y := main_v2) (by simp only [wr_hostOps1, List.mem_cons, eq_self_iff_true, true_or, or_true]),
    single_sub_of_mem (y := main_v3) (by simp only [wr_hostOps1, List.mem_cons, eq_self_iff_true, true_or, or_true]),
    single_sub_of_mem (y := main_c_0) (by simp only [wr_hostOps1, List.mem_cons, eq_self_iff_true, true_or, or_true]),
    single_sub_of_mem (y := main_v4) (by simp only [wr_hostOps1, List.mem_cons, eq_self_iff_true, true_or, or_true]),
    single_sub_of_mem (y := main_v5) (by simp only [wr_hostOps1, List.mem_cons, eq_self_iff_true, true_or, or_true]),
    single_sub_of_mem (y := main_v6) (by simp only [wr_hostOps1, List.mem_cons, eq_self_iff_true, true_or, or_true]),
    single_sub_of_mem (y := main_v7) (by simp only [wr_hostOps1, List.mem_cons, eq_self_iff_true, true_or, or_true]),
    single_sub_of_mem (y := main_v8) (by simp only [wr_hostOps1, List.mem_cons, eq_self_iff_true, true_or, or_true]),
    single_sub_of_mem (y := main_cst) (by simp only [wr_hostOps1, List.mem_cons, eq_self_iff_true, true_or, or_true]),
    single_sub_of_mem (y := main_v9) (by simp only [wr_hostOps1, List.mem_cons, eq_self_iff_true, true_or, or_true]),
    single_sub_of_mem (y := main_v10) (by simp only [wr_hostOps1, List.mem_cons, eq_self_iff_true, true_or, or_true]),
    single_sub_of_mem (y := main_v11) (by simp only [wr_hostOps1, List.mem_cons, eq_self_iff_true, true_or, or_true]),
    single_sub_of_mem (y := main_v12) (by simp only [wr_hostOps1, List.mem_cons, eq_self_iff_true, true_or, or_true]),
    single_sub_of_mem (y := main_v13) (by simp only [wr_hostOps1, List.mem_cons, eq_self_iff_true, true_or, or_true]),
    single_sub_of_mem (y := main_v14) (by simp only [wr_hostOps1, List.mem_cons, eq_self_iff_true, true_or, or_true]),
    single_sub_of_mem (y := main_v15) (by simp only [wr_hostOps1, List.mem_cons, eq_self_iff_true, true_or, or_true]),
    single_sub_of_mem (y := main_v16) (by simp only [wr_hostOps1, List.mem_cons, eq_self_iff_true, true_or, or_true])⟩
theorem keep3 (c : Dev nD) (b : Ref sig .tc) (hb : b ∉ wr_hostOps1) :
    W3 m ρ c (Proc.devRef .tc b) = W2 m ρ c (Proc.devRef .tc b) :=
  StableHlo.after_of_writes_sub hostOps1 (W2 m ρ c) hostOps1_wr hb

/-- The buffers the stretch `hostOps2_2` writes, and their indices. -/
def wr_hostOps2_2 : List (Ref sig .tc) := [main_v23, main_v24, main_v25, main_v26, main_v27, main_v28, main_v29, main_v30, main_v31, main_v32, main_v33]
def wi_hostOps2_2 : List ℕ := [70, 71, 72, 73, 74, 75, 76, 77, 78, 79, 80]
theorem wr_hostOps2_2_ix : wr_hostOps2_2.map rix = wi_hostOps2_2 := by
  simp only [wr_hostOps2_2, wi_hostOps2_2, List.map_cons, List.map_nil, rix_v23, rix_v24, rix_v25, rix_v26, rix_v27, rix_v28, rix_v29, rix_v30, rix_v31, rix_v32, rix_v33]
theorem hostOps2_2_wr : (hostOps2_2 : List (HloOp τ sig (Elt F))).Forall fun op => op.writes ⊆ ((wr_hostOps2_2).map (Proc.devRef (τ := τ) .tc)).toFinset :=
  ⟨single_sub_of_mem (y := main_v23) (by simp only [wr_hostOps2_2, List.mem_cons, eq_self_iff_true, true_or, or_true]),
    single_sub_of_mem (y := main_v24) (by simp only [wr_hostOps2_2, List.mem_cons, eq_self_iff_true, true_or, or_true]),
    single_sub_of_mem (y := main_v25) (by simp only [wr_hostOps2_2, List.mem_cons, eq_self_iff_true, true_or, or_true]),
    single_sub_of_mem (y := main_v26) (by simp only [wr_hostOps2_2, List.mem_cons, eq_self_iff_true, true_or, or_true]),
    single_sub_of_mem (y := main_v27) (by simp only [wr_hostOps2_2, List.mem_cons, eq_self_iff_true, true_or, or_true]),
    single_sub_of_mem (y := main_v28) (by simp only [wr_hostOps2_2, List.mem_cons, eq_self_iff_true, true_or, or_true]),
    single_sub_of_mem (y := main_v29) (by simp only [wr_hostOps2_2, List.mem_cons, eq_self_iff_true, true_or, or_true]),
    single_sub_of_mem (y := main_v30) (by simp only [wr_hostOps2_2, List.mem_cons, eq_self_iff_true, true_or, or_true]),
    single_sub_of_mem (y := main_v31) (by simp only [wr_hostOps2_2, List.mem_cons, eq_self_iff_true, true_or, or_true]),
    single_sub_of_mem (y := main_v32) (by simp only [wr_hostOps2_2, List.mem_cons, eq_self_iff_true, true_or, or_true]),
    single_sub_of_mem (y := main_v33) (by simp only [wr_hostOps2_2, List.mem_cons, eq_self_iff_true, true_or, or_true])⟩
theorem keep7 (c : Dev nD) (b : Ref sig .tc) (hb : b ∉ wr_hostOps2_2) :
    W7 m ρ c (Proc.devRef .tc b) = W6 m ρ c (Proc.devRef .tc b) :=
  StableHlo.after_of_writes_sub hostOps2_2 (W6 m ρ c) hostOps2_2_wr hb

/-- The buffers the stretch `hostOps3_2` writes, and their indices. -/
def wr_hostOps3_2 : List (Ref sig .tc) := [main_v40, main_v41, main_v42, main_v43, main_v44, main_v45]
def wi_hostOps3_2 : List ℕ := [112, 113, 114, 115, 116, 117]
theorem wr_hostOps3_2_ix : wr_hostOps3_2.map rix = wi_hostOps3_2 := by
  simp only [wr_hostOps3_2, wi_hostOps3_2, List.map_cons, List.map_nil, rix_v40, rix_v41, rix_v42, rix_v43, rix_v44, rix_v45]
theorem hostOps3_2_wr : (hostOps3_2 : List (HloOp τ sig (Elt F))).Forall fun op => op.writes ⊆ ((wr_hostOps3_2).map (Proc.devRef (τ := τ) .tc)).toFinset :=
  ⟨single_sub_of_mem (y := main_v40) (by simp only [wr_hostOps3_2, List.mem_cons, eq_self_iff_true, true_or, or_true]),
    single_sub_of_mem (y := main_v41) (by simp only [wr_hostOps3_2, List.mem_cons, eq_self_iff_true, true_or, or_true]),
    single_sub_of_mem (y := main_v42) (by simp only [wr_hostOps3_2, List.mem_cons, eq_self_iff_true, true_or, or_true]),
    single_sub_of_mem (y := main_v43) (by simp only [wr_hostOps3_2, List.mem_cons, eq_self_iff_true, true_or, or_true]),
    single_sub_of_mem (y := main_v44) (by simp only [wr_hostOps3_2, List.mem_cons, eq_self_iff_true, true_or, or_true]),
    single_sub_of_mem (y := main_v45) (by simp only [wr_hostOps3_2, List.mem_cons, eq_self_iff_true, true_or, or_true])⟩
theorem keep11 (c : Dev nD) (b : Ref sig .tc) (hb : b ∉ wr_hostOps3_2) :
    W11 m ρ c (Proc.devRef .tc b) = W10 m ρ c (Proc.devRef .tc b) :=
  StableHlo.after_of_writes_sub hostOps3_2 (W10 m ρ c) hostOps3_2_wr hb

/-- The buffers the stretch `hostOps4_2` writes, and their indices. -/
def wr_hostOps4_2 : List (Ref sig .tc) := [main_v52, main_v53, main_v54, main_v55, main_v56, main_v57]
def wi_hostOps4_2 : List ℕ := [149, 150, 151, 152, 153, 154]
theorem wr_hostOps4_2_ix : wr_hostOps4_2.map rix = wi_hostOps4_2 := by
  simp only [wr_hostOps4_2, wi_hostOps4_2, List.map_cons, List.map_nil, rix_v52, rix_v53, rix_v54, rix_v55, rix_v56, rix_v57]
theorem hostOps4_2_wr : (hostOps4_2 : List (HloOp τ sig (Elt F))).Forall fun op => op.writes ⊆ ((wr_hostOps4_2).map (Proc.devRef (τ := τ) .tc)).toFinset :=
  ⟨single_sub_of_mem (y := main_v52) (by simp only [wr_hostOps4_2, List.mem_cons, eq_self_iff_true, true_or, or_true]),
    single_sub_of_mem (y := main_v53) (by simp only [wr_hostOps4_2, List.mem_cons, eq_self_iff_true, true_or, or_true]),
    single_sub_of_mem (y := main_v54) (by simp only [wr_hostOps4_2, List.mem_cons, eq_self_iff_true, true_or, or_true]),
    single_sub_of_mem (y := main_v55) (by simp only [wr_hostOps4_2, List.mem_cons, eq_self_iff_true, true_or, or_true]),
    single_sub_of_mem (y := main_v56) (by simp only [wr_hostOps4_2, List.mem_cons, eq_self_iff_true, true_or, or_true]),
    single_sub_of_mem (y := main_v57) (by simp only [wr_hostOps4_2, List.mem_cons, eq_self_iff_true, true_or, or_true])⟩
theorem keep15 (c : Dev nD) (b : Ref sig .tc) (hb : b ∉ wr_hostOps4_2) :
    W15 m ρ c (Proc.devRef .tc b) = W14 m ρ c (Proc.devRef .tc b) :=
  StableHlo.after_of_writes_sub hostOps4_2 (W14 m ρ c) hostOps4_2_wr hb

/-- The buffers the stretch `hostOps6_1` writes, and their indices. -/
def wr_hostOps6_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v79]
def wi_hostOps6_1 : List ℕ := [182, 183, 184, 185, 186, 187, 188, 189, 190, 191, 192, 193, 194, 195, 196, 197, 198, 199, 200, 201, 202, 203, 204]
theorem wr_hostOps6_1_ix : wr_hostOps6_1.map rix = wi_hostOps6_1 := by
  simp only [wr_hostOps6_1, wi_hostOps6_1, List.map_cons, List.map_nil, rix_call3_cst, rix_call3_v0, rix_call3_v1, rix_call3_cst_0, rix_call3_v2, rix_call3_v3, rix_call3_v4, rix_call3_v5, rix_call3_v6, rix_call3_v7, rix_call3_cst_1, rix_call3_v8, rix_call3_cst_2, rix_call3_v9, rix_call3_v10, rix_call3_v11, rix_call3_v12, rix_call3_cst_3, rix_call3_v13, rix_call3_cst_4, rix_call3_call0_v0, rix_call3_call0_v1, rix_v79]
theorem hostOps6_1_wr : (hostOps6_1 : List (HloOp τ sig (Elt F))).Forall fun op => op.writes ⊆ ((wr_hostOps6_1).map (Proc.devRef (τ := τ) .tc)).toFinset :=
  ⟨single_sub_of_mem (y := main_call3_cst) (by simp only [wr_hostOps6_1, List.mem_cons, eq_self_iff_true, true_or, or_true]),
    single_sub_of_mem (y := main_call3_v0) (by simp only [wr_hostOps6_1, List.mem_cons, eq_self_iff_true, true_or, or_true]),
    single_sub_of_mem (y := main_call3_v1) (by simp only [wr_hostOps6_1, List.mem_cons, eq_self_iff_true, true_or, or_true]),
    single_sub_of_mem (y := main_call3_cst_0) (by simp only [wr_hostOps6_1, List.mem_cons, eq_self_iff_true, true_or, or_true]),
    single_sub_of_mem (y := main_call3_v2) (by simp only [wr_hostOps6_1, List.mem_cons, eq_self_iff_true, true_or, or_true]),
    single_sub_of_mem (y := main_call3_v3) (by simp only [wr_hostOps6_1, List.mem_cons, eq_self_iff_true, true_or, or_true]),
    single_sub_of_mem (y := main_call3_v4) (by simp only [wr_hostOps6_1, List.mem_cons, eq_self_iff_true, true_or, or_true]),
    single_sub_of_mem (y := main_call3_v5) (by simp only [wr_hostOps6_1, List.mem_cons, eq_self_iff_true, true_or, or_true]),
    single_sub_of_mem (y := main_call3_v6) (by simp only [wr_hostOps6_1, List.mem_cons, eq_self_iff_true, true_or, or_true]),
    single_sub_of_mem (y := main_call3_v7) (by simp only [wr_hostOps6_1, List.mem_cons, eq_self_iff_true, true_or, or_true]),
    single_sub_of_mem (y := main_call3_cst_1) (by simp only [wr_hostOps6_1, List.mem_cons, eq_self_iff_true, true_or, or_true]),
    single_sub_of_mem (y := main_call3_v8) (by simp only [wr_hostOps6_1, List.mem_cons, eq_self_iff_true, true_or, or_true]),
    single_sub_of_mem (y := main_call3_cst_2) (by simp only [wr_hostOps6_1, List.mem_cons, eq_self_iff_true, true_or, or_true]),
    single_sub_of_mem (y := main_call3_v9) (by simp only [wr_hostOps6_1, List.mem_cons, eq_self_iff_true, true_or, or_true]),
    single_sub_of_mem (y := main_call3_v10) (by simp only [wr_hostOps6_1, List.mem_cons, eq_self_iff_true, true_or, or_true]),
    single_sub_of_mem (y := main_call3_v11) (by simp only [wr_hostOps6_1, List.mem_cons, eq_self_iff_true, true_or, or_true]),
    single_sub_of_mem (y := main_call3_v12) (by simp only [wr_hostOps6_1, List.mem_cons, eq_self_iff_true, true_or, or_true]),
    single_sub_of_mem (y := main_call3_cst_3) (by simp only [wr_hostOps6_1, List.mem_cons, eq_self_iff_true, true_or, or_true]),
    single_sub_of_mem (y := main_call3_v13) (by simp only [wr_hostOps6_1, List.mem_cons, eq_self_iff_true, true_or, or_true]),
    single_sub_of_mem (y := main_call3_cst_4) (by simp only [wr_hostOps6_1, List.mem_cons, eq_self_iff_true, true_or, or_true]),
    single_sub_of_mem (y := main_call3_call0_v0) (by simp only [wr_hostOps6_1, List.mem_cons, eq_self_iff_true, true_or, or_true]),
    single_sub_of_mem (y := main_call3_call0_v1) (by simp only [wr_hostOps6_1, List.mem_cons, eq_self_iff_true, true_or, or_true]),
    single_sub_of_mem (y := main_v79) (by simp only [wr_hostOps6_1, List.mem_cons, eq_self_iff_true, true_or, or_true])⟩
theorem keep20 (c : Dev nD) (b : Ref sig .tc) (hb : b ∉ wr_hostOps6_1) :
    W20 m ρ c (Proc.devRef .tc b) = W19 m ρ c (Proc.devRef .tc b) :=
  StableHlo.after_of_writes_sub hostOps6_1 (W19 m ρ c) hostOps6_1_wr hb

/-- The buffers the stretch `hostOps7_1` writes, and their indices. -/
def wr_hostOps7_1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v96]
def wi_hostOps7_1 : List ℕ := [224, 225, 226, 227, 228, 229, 230, 231, 232, 233, 234, 235, 236, 237, 238, 239, 240, 241, 242, 243, 244, 245, 246]
theorem wr_hostOps7_1_ix : wr_hostOps7_1.map rix = wi_hostOps7_1 := by
  simp only [wr_hostOps7_1, wi_hostOps7_1, List.map_cons, List.map_nil, rix_call4_cst, rix_call4_v0, rix_call4_v1, rix_call4_cst_0, rix_call4_v2, rix_call4_v3, rix_call4_v4, rix_call4_v5, rix_call4_v6, rix_call4_v7, rix_call4_cst_1, rix_call4_v8, rix_call4_cst_2, rix_call4_v9, rix_call4_v10, rix_call4_v11, rix_call4_v12, rix_call4_cst_3, rix_call4_v13, rix_call4_cst_4, rix_call4_call0_v0, rix_call4_call0_v1, rix_v96]
theorem hostOps7_1_wr : (hostOps7_1 : List (HloOp τ sig (Elt F))).Forall fun op => op.writes ⊆ ((wr_hostOps7_1).map (Proc.devRef (τ := τ) .tc)).toFinset :=
  ⟨single_sub_of_mem (y := main_call4_cst) (by simp only [wr_hostOps7_1, List.mem_cons, eq_self_iff_true, true_or, or_true]),
    single_sub_of_mem (y := main_call4_v0) (by simp only [wr_hostOps7_1, List.mem_cons, eq_self_iff_true, true_or, or_true]),
    single_sub_of_mem (y := main_call4_v1) (by simp only [wr_hostOps7_1, List.mem_cons, eq_self_iff_true, true_or, or_true]),
    single_sub_of_mem (y := main_call4_cst_0) (by simp only [wr_hostOps7_1, List.mem_cons, eq_self_iff_true, true_or, or_true]),
    single_sub_of_mem (y := main_call4_v2) (by simp only [wr_hostOps7_1, List.mem_cons, eq_self_iff_true, true_or, or_true]),
    single_sub_of_mem (y := main_call4_v3) (by simp only [wr_hostOps7_1, List.mem_cons, eq_self_iff_true, true_or, or_true]),
    single_sub_of_mem (y := main_call4_v4) (by simp only [wr_hostOps7_1, List.mem_cons, eq_self_iff_true, true_or, or_true]),
    single_sub_of_mem (y := main_call4_v5) (by simp only [wr_hostOps7_1, List.mem_cons, eq_self_iff_true, true_or, or_true]),
    single_sub_of_mem (y := main_call4_v6) (by simp only [wr_hostOps7_1, List.mem_cons, eq_self_iff_true, true_or, or_true]),
    single_sub_of_mem (y := main_call4_v7) (by simp only [wr_hostOps7_1, List.mem_cons, eq_self_iff_true, true_or, or_true]),
    single_sub_of_mem (y := main_call4_cst_1) (by simp only [wr_hostOps7_1, List.mem_cons, eq_self_iff_true, true_or, or_true]),
    single_sub_of_mem (y := main_call4_v8) (by simp only [wr_hostOps7_1, List.mem_cons, eq_self_iff_true, true_or, or_true]),
    single_sub_of_mem (y := main_call4_cst_2) (by simp only [wr_hostOps7_1, List.mem_cons, eq_self_iff_true, true_or, or_true]),
    single_sub_of_mem (y := main_call4_v9) (by simp only [wr_hostOps7_1, List.mem_cons, eq_self_iff_true, true_or, or_true]),
    single_sub_of_mem (y := main_call4_v10) (by simp only [wr_hostOps7_1, List.mem_cons, eq_self_iff_true, true_or, or_true]),
    single_sub_of_mem (y := main_call4_v11) (by simp only [wr_hostOps7_1, List.mem_cons, eq_self_iff_true, true_or, or_true]),
    single_sub_of_mem (y := main_call4_v12) (by simp only [wr_hostOps7_1, List.mem_cons, eq_self_iff_true, true_or, or_true]),
    single_sub_of_mem (y := main_call4_cst_3) (by simp only [wr_hostOps7_1, List.mem_cons, eq_self_iff_true, true_or, or_true]),
    single_sub_of_mem (y := main_call4_v13) (by simp only [wr_hostOps7_1, List.mem_cons, eq_self_iff_true, true_or, or_true]),
    single_sub_of_mem (y := main_call4_cst_4) (by simp only [wr_hostOps7_1, List.mem_cons, eq_self_iff_true, true_or, or_true]),
    single_sub_of_mem (y := main_call4_call0_v0) (by simp only [wr_hostOps7_1, List.mem_cons, eq_self_iff_true, true_or, or_true]),
    single_sub_of_mem (y := main_call4_call0_v1) (by simp only [wr_hostOps7_1, List.mem_cons, eq_self_iff_true, true_or, or_true]),
    single_sub_of_mem (y := main_v96) (by simp only [wr_hostOps7_1, List.mem_cons, eq_self_iff_true, true_or, or_true])⟩
theorem keep24 (c : Dev nD) (b : Ref sig .tc) (hb : b ∉ wr_hostOps7_1) :
    W24 m ρ c (Proc.devRef .tc b) = W23 m ρ c (Proc.devRef .tc b) :=
  StableHlo.after_of_writes_sub hostOps7_1 (W23 m ρ c) hostOps7_1_wr hb

/-- The buffers the stretch `hostOps8_1` writes, and their indices. -/
def wr_hostOps8_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v108]
def wi_hostOps8_1 : List ℕ := [261, 262, 263, 264, 265, 266, 267, 268, 269, 270, 271, 272, 273, 274, 275, 276, 277, 278, 279, 280, 281, 282, 283]
theorem wr_hostOps8_1_ix : wr_hostOps8_1.map rix = wi_hostOps8_1 := by
  simp only [wr_hostOps8_1, wi_hostOps8_1, List.map_cons, List.map_nil, rix_call5_cst, rix_call5_v0, rix_call5_v1, rix_call5_cst_0, rix_call5_v2, rix_call5_v3, rix_call5_v4, rix_call5_v5, rix_call5_v6, rix_call5_v7, rix_call5_cst_1, rix_call5_v8, rix_call5_cst_2, rix_call5_v9, rix_call5_v10, rix_call5_v11, rix_call5_v12, rix_call5_cst_3, rix_call5_v13, rix_call5_cst_4, rix_call5_call0_v0, rix_call5_call0_v1, rix_v108]
theorem hostOps8_1_wr : (hostOps8_1 : List (HloOp τ sig (Elt F))).Forall fun op => op.writes ⊆ ((wr_hostOps8_1).map (Proc.devRef (τ := τ) .tc)).toFinset :=
  ⟨single_sub_of_mem (y := main_call5_cst) (by simp only [wr_hostOps8_1, List.mem_cons, eq_self_iff_true, true_or, or_true]),
    single_sub_of_mem (y := main_call5_v0) (by simp only [wr_hostOps8_1, List.mem_cons, eq_self_iff_true, true_or, or_true]),
    single_sub_of_mem (y := main_call5_v1) (by simp only [wr_hostOps8_1, List.mem_cons, eq_self_iff_true, true_or, or_true]),
    single_sub_of_mem (y := main_call5_cst_0) (by simp only [wr_hostOps8_1, List.mem_cons, eq_self_iff_true, true_or, or_true]),
    single_sub_of_mem (y := main_call5_v2) (by simp only [wr_hostOps8_1, List.mem_cons, eq_self_iff_true, true_or, or_true]),
    single_sub_of_mem (y := main_call5_v3) (by simp only [wr_hostOps8_1, List.mem_cons, eq_self_iff_true, true_or, or_true]),
    single_sub_of_mem (y := main_call5_v4) (by simp only [wr_hostOps8_1, List.mem_cons, eq_self_iff_true, true_or, or_true]),
    single_sub_of_mem (y := main_call5_v5) (by simp only [wr_hostOps8_1, List.mem_cons, eq_self_iff_true, true_or, or_true]),
    single_sub_of_mem (y := main_call5_v6) (by simp only [wr_hostOps8_1, List.mem_cons, eq_self_iff_true, true_or, or_true]),
    single_sub_of_mem (y := main_call5_v7) (by simp only [wr_hostOps8_1, List.mem_cons, eq_self_iff_true, true_or, or_true]),
    single_sub_of_mem (y := main_call5_cst_1) (by simp only [wr_hostOps8_1, List.mem_cons, eq_self_iff_true, true_or, or_true]),
    single_sub_of_mem (y := main_call5_v8) (by simp only [wr_hostOps8_1, List.mem_cons, eq_self_iff_true, true_or, or_true]),
    single_sub_of_mem (y := main_call5_cst_2) (by simp only [wr_hostOps8_1, List.mem_cons, eq_self_iff_true, true_or, or_true]),
    single_sub_of_mem (y := main_call5_v9) (by simp only [wr_hostOps8_1, List.mem_cons, eq_self_iff_true, true_or, or_true]),
    single_sub_of_mem (y := main_call5_v10) (by simp only [wr_hostOps8_1, List.mem_cons, eq_self_iff_true, true_or, or_true]),
    single_sub_of_mem (y := main_call5_v11) (by simp only [wr_hostOps8_1, List.mem_cons, eq_self_iff_true, true_or, or_true]),
    single_sub_of_mem (y := main_call5_v12) (by simp only [wr_hostOps8_1, List.mem_cons, eq_self_iff_true, true_or, or_true]),
    single_sub_of_mem (y := main_call5_cst_3) (by simp only [wr_hostOps8_1, List.mem_cons, eq_self_iff_true, true_or, or_true]),
    single_sub_of_mem (y := main_call5_v13) (by simp only [wr_hostOps8_1, List.mem_cons, eq_self_iff_true, true_or, or_true]),
    single_sub_of_mem (y := main_call5_cst_4) (by simp only [wr_hostOps8_1, List.mem_cons, eq_self_iff_true, true_or, or_true]),
    single_sub_of_mem (y := main_call5_call0_v0) (by simp only [wr_hostOps8_1, List.mem_cons, eq_self_iff_true, true_or, or_true]),
    single_sub_of_mem (y := main_call5_call0_v1) (by simp only [wr_hostOps8_1, List.mem_cons, eq_self_iff_true, true_or, or_true]),
    single_sub_of_mem (y := main_v108) (by simp only [wr_hostOps8_1, List.mem_cons, eq_self_iff_true, true_or, or_true])⟩
theorem keep28 (c : Dev nD) (b : Ref sig .tc) (hb : b ∉ wr_hostOps8_1) :
    W28 m ρ c (Proc.devRef .tc b) = W27 m ρ c (Proc.devRef .tc b) :=
  StableHlo.after_of_writes_sub hostOps8_1 (W27 m ρ c) hostOps8_1_wr hb

/-- The buffers the stretch `hostOps10` writes, and their indices. -/
def wr_hostOps10 : List (Ref sig .tc) := [main_cst_25, main_v132, main_v133, main_cst_26, main_v134, main_v135, main_c_27]
def wi_hostOps10 : List ℕ := [310, 311, 312, 313, 314, 315, 316]
theorem wr_hostOps10_ix : wr_hostOps10.map rix = wi_hostOps10 := by
  simp only [wr_hostOps10, wi_hostOps10, List.map_cons, List.map_nil, rix_cst_25, rix_v132, rix_v133, rix_cst_26, rix_v134, rix_v135, rix_c_27]
theorem hostOps10_wr : (hostOps10 : List (HloOp τ sig (Elt F))).Forall fun op => op.writes ⊆ ((wr_hostOps10).map (Proc.devRef (τ := τ) .tc)).toFinset :=
  ⟨single_sub_of_mem (y := main_cst_25) (by simp only [wr_hostOps10, List.mem_cons, eq_self_iff_true, true_or, or_true]),
    single_sub_of_mem (y := main_v132) (by simp only [wr_hostOps10, List.mem_cons, eq_self_iff_true, true_or, or_true]),
    single_sub_of_mem (y := main_v133) (by simp only [wr_hostOps10, List.mem_cons, eq_self_iff_true, true_or, or_true]),
    single_sub_of_mem (y := main_cst_26) (by simp only [wr_hostOps10, List.mem_cons, eq_self_iff_true, true_or, or_true]),
    single_sub_of_mem (y := main_v134) (by simp only [wr_hostOps10, List.mem_cons, eq_self_iff_true, true_or, or_true]),
    single_sub_of_mem (y := main_v135) (by simp only [wr_hostOps10, List.mem_cons, eq_self_iff_true, true_or, or_true]),
    single_sub_of_mem (y := main_c_27) (by simp only [wr_hostOps10, List.mem_cons, eq_self_iff_true, true_or, or_true])⟩
theorem keep33 (c : Dev nD) (b : Ref sig .tc) (hb : b ∉ wr_hostOps10) :
    W33 m ρ c (Proc.devRef .tc b) = W32 m ρ c (Proc.devRef .tc b) :=
  StableHlo.after_of_writes_sub hostOps10 (W32 m ρ c) hostOps10_wr hb

/-- The buffers the stretch `hostOps11` writes, and their indices. -/
def wr_hostOps11 : List (Ref sig .tc) := [main_cst_28, main_v149, main_v150, main_cst_29, main_v151, main_v152, main_c_30]
def wi_hostOps11 : List ℕ := [352, 353, 354, 355, 356, 357, 358]
theorem wr_hostOps11_ix : wr_hostOps11.map rix = wi_hostOps11 := by
  simp only [wr_hostOps11, wi_hostOps11, List.map_cons, List.map_nil, rix_cst_28, rix_v149, rix_v150, rix_cst_29, rix_v151, rix_v152, rix_c_30]
theorem hostOps11_wr : (hostOps11 : List (HloOp τ sig (Elt F))).Forall fun op => op.writes ⊆ ((wr_hostOps11).map (Proc.devRef (τ := τ) .tc)).toFinset :=
  ⟨single_sub_of_mem (y := main_cst_28) (by simp only [wr_hostOps11, List.mem_cons, eq_self_iff_true, true_or, or_true]),
    single_sub_of_mem (y := main_v149) (by simp only [wr_hostOps11, List.mem_cons, eq_self_iff_true, true_or, or_true]),
    single_sub_of_mem (y := main_v150) (by simp only [wr_hostOps11, List.mem_cons, eq_self_iff_true, true_or, or_true]),
    single_sub_of_mem (y := main_cst_29) (by simp only [wr_hostOps11, List.mem_cons, eq_self_iff_true, true_or, or_true]),
    single_sub_of_mem (y := main_v151) (by simp only [wr_hostOps11, List.mem_cons, eq_self_iff_true, true_or, or_true]),
    single_sub_of_mem (y := main_v152) (by simp only [wr_hostOps11, List.mem_cons, eq_self_iff_true, true_or, or_true]),
    single_sub_of_mem (y := main_c_30) (by simp only [wr_hostOps11, List.mem_cons, eq_self_iff_true, true_or, or_true])⟩
theorem keep37 (c : Dev nD) (b : Ref sig .tc) (hb : b ∉ wr_hostOps11) :
    W37 m ρ c (Proc.devRef .tc b) = W36 m ρ c (Proc.devRef .tc b) :=
  StableHlo.after_of_writes_sub hostOps11 (W36 m ρ c) hostOps11_wr hb

/-- The buffers the stretch `hostOps12` writes, and their indices. -/
def wr_hostOps12 : List (Ref sig .tc) := [main_cst_31, main_v161, main_v162, main_cst_32, main_v163, main_v164, main_c_33]
def wi_hostOps12 : List ℕ := [389, 390, 391, 392, 393, 394, 395]
theorem wr_hostOps12_ix : wr_hostOps12.map rix = wi_hostOps12 := by
  simp only [wr_hostOps12, wi_hostOps12, List.map_cons, List.map_nil, rix_cst_31, rix_v161, rix_v162, rix_cst_32, rix_v163, rix_v164, rix_c_33]
theorem hostOps12_wr : (hostOps12 : List (HloOp τ sig (Elt F))).Forall fun op => op.writes ⊆ ((wr_hostOps12).map (Proc.devRef (τ := τ) .tc)).toFinset :=
  ⟨single_sub_of_mem (y := main_cst_31) (by simp only [wr_hostOps12, List.mem_cons, eq_self_iff_true, true_or, or_true]),
    single_sub_of_mem (y := main_v161) (by simp only [wr_hostOps12, List.mem_cons, eq_self_iff_true, true_or, or_true]),
    single_sub_of_mem (y := main_v162) (by simp only [wr_hostOps12, List.mem_cons, eq_self_iff_true, true_or, or_true]),
    single_sub_of_mem (y := main_cst_32) (by simp only [wr_hostOps12, List.mem_cons, eq_self_iff_true, true_or, or_true]),
    single_sub_of_mem (y := main_v163) (by simp only [wr_hostOps12, List.mem_cons, eq_self_iff_true, true_or, or_true]),
    single_sub_of_mem (y := main_v164) (by simp only [wr_hostOps12, List.mem_cons, eq_self_iff_true, true_or, or_true]),
    single_sub_of_mem (y := main_c_33) (by simp only [wr_hostOps12, List.mem_cons, eq_self_iff_true, true_or, or_true])⟩
theorem keep41 (c : Dev nD) (b : Ref sig .tc) (hb : b ∉ wr_hostOps12) :
    W41 m ρ c (Proc.devRef .tc b) = W40 m ρ c (Proc.devRef .tc b) :=
  StableHlo.after_of_writes_sub hostOps12 (W40 m ρ c) hostOps12_wr hb

/-- The buffers the stretch `hostOps13` writes, and their indices. -/
def wr_hostOps13 : List (Ref sig .tc) := [main_cst_34, main_v173, main_c_35, main_v174, main_v175, main_c_36, main_v176, main_v177, main_v178, main_v179, main_v180, main_c_37, main_v181, main_v182, main_c_38, main_v183, main_v184, main_v185, main_v186, main_v187, main_v188, main_v189, main_v190, main_v191, main_v192, main_v193, main_v194, main_v195, main_v196, main_v197, main_v198, main_v199]
def wi_hostOps13 : List ℕ := [426, 427, 428, 429, 430, 431, 432, 433, 434, 435, 436, 437, 438, 439, 440, 441, 442, 443, 444, 445, 446, 447, 448, 449, 450, 451, 452, 453, 454, 455, 456, 457]
theorem wr_hostOps13_ix : wr_hostOps13.map rix = wi_hostOps13 := by
  simp only [wr_hostOps13, wi_hostOps13, List.map_cons, List.map_nil, rix_cst_34, rix_v173, rix_c_35, rix_v174, rix_v175, rix_c_36, rix_v176, rix_v177, rix_v178, rix_v179, rix_v180, rix_c_37, rix_v181, rix_v182, rix_c_38, rix_v183, rix_v184, rix_v185, rix_v186, rix_v187, rix_v188, rix_v189, rix_v190, rix_v191, rix_v192, rix_v193, rix_v194, rix_v195, rix_v196, rix_v197, rix_v198, rix_v199]
theorem hostOps13_wr : (hostOps13 : List (HloOp τ sig (Elt F))).Forall fun op => op.writes ⊆ ((wr_hostOps13).map (Proc.devRef (τ := τ) .tc)).toFinset :=
  ⟨single_sub_of_mem (y := main_cst_34) (by simp only [wr_hostOps13, List.mem_cons, eq_self_iff_true, true_or, or_true]),
    single_sub_of_mem (y := main_v173) (by simp only [wr_hostOps13, List.mem_cons, eq_self_iff_true, true_or, or_true]),
    single_sub_of_mem (y := main_c_35) (by simp only [wr_hostOps13, List.mem_cons, eq_self_iff_true, true_or, or_true]),
    single_sub_of_mem (y := main_v174) (by simp only [wr_hostOps13, List.mem_cons, eq_self_iff_true, true_or, or_true]),
    single_sub_of_mem (y := main_v175) (by simp only [wr_hostOps13, List.mem_cons, eq_self_iff_true, true_or, or_true]),
    single_sub_of_mem (y := main_c_36) (by simp only [wr_hostOps13, List.mem_cons, eq_self_iff_true, true_or, or_true]),
    single_sub_of_mem (y := main_v176) (by simp only [wr_hostOps13, List.mem_cons, eq_self_iff_true, true_or, or_true]),
    single_sub_of_mem (y := main_v177) (by simp only [wr_hostOps13, List.mem_cons, eq_self_iff_true, true_or, or_true]),
    single_sub_of_mem (y := main_v178) (by simp only [wr_hostOps13, List.mem_cons, eq_self_iff_true, true_or, or_true]),
    single_sub_of_mem (y := main_v179) (by simp only [wr_hostOps13, List.mem_cons, eq_self_iff_true, true_or, or_true]),
    single_sub_of_mem (y := main_v180) (by simp only [wr_hostOps13, List.mem_cons, eq_self_iff_true, true_or, or_true]),
    single_sub_of_mem (y := main_c_37) (by simp only [wr_hostOps13, List.mem_cons, eq_self_iff_true, true_or, or_true]),
    single_sub_of_mem (y := main_v181) (by simp only [wr_hostOps13, List.mem_cons, eq_self_iff_true, true_or, or_true]),
    single_sub_of_mem (y := main_v182) (by simp only [wr_hostOps13, List.mem_cons, eq_self_iff_true, true_or, or_true]),
    single_sub_of_mem (y := main_c_38) (by simp only [wr_hostOps13, List.mem_cons, eq_self_iff_true, true_or, or_true]),
    single_sub_of_mem (y := main_v183) (by simp only [wr_hostOps13, List.mem_cons, eq_self_iff_true, true_or, or_true]),
    single_sub_of_mem (y := main_v184) (by simp only [wr_hostOps13, List.mem_cons, eq_self_iff_true, true_or, or_true]),
    single_sub_of_mem (y := main_v185) (by simp only [wr_hostOps13, List.mem_cons, eq_self_iff_true, true_or, or_true]),
    single_sub_of_mem (y := main_v186) (by simp only [wr_hostOps13, List.mem_cons, eq_self_iff_true, true_or, or_true]),
    single_sub_of_mem (y := main_v187) (by simp only [wr_hostOps13, List.mem_cons, eq_self_iff_true, true_or, or_true]),
    single_sub_of_mem (y := main_v188) (by simp only [wr_hostOps13, List.mem_cons, eq_self_iff_true, true_or, or_true]),
    single_sub_of_mem (y := main_v189) (by simp only [wr_hostOps13, List.mem_cons, eq_self_iff_true, true_or, or_true]),
    single_sub_of_mem (y := main_v190) (by simp only [wr_hostOps13, List.mem_cons, eq_self_iff_true, true_or, or_true]),
    single_sub_of_mem (y := main_v191) (by simp only [wr_hostOps13, List.mem_cons, eq_self_iff_true, true_or, or_true]),
    single_sub_of_mem (y := main_v192) (by simp only [wr_hostOps13, List.mem_cons, eq_self_iff_true, true_or, or_true]),
    single_sub_of_mem (y := main_v193) (by simp only [wr_hostOps13, List.mem_cons, eq_self_iff_true, true_or, or_true]),
    single_sub_of_mem (y := main_v194) (by simp only [wr_hostOps13, List.mem_cons, eq_self_iff_true, true_or, or_true]),
    single_sub_of_mem (y := main_v195) (by simp only [wr_hostOps13, List.mem_cons, eq_self_iff_true, true_or, or_true]),
    single_sub_of_mem (y := main_v196) (by simp only [wr_hostOps13, List.mem_cons, eq_self_iff_true, true_or, or_true]),
    single_sub_of_mem (y := main_v197) (by simp only [wr_hostOps13, List.mem_cons, eq_self_iff_true, true_or, or_true]),
    single_sub_of_mem (y := main_v198) (by simp only [wr_hostOps13, List.mem_cons, eq_self_iff_true, true_or, or_true]),
    single_sub_of_mem (y := main_v199) (by simp only [wr_hostOps13, List.mem_cons, eq_self_iff_true, true_or, or_true])⟩
theorem keep45 (c : Dev nD) (b : Ref sig .tc) (hb : b ∉ wr_hostOps13) :
    W45 m ρ c (Proc.devRef .tc b) = W44 m ρ c (Proc.devRef .tc b) :=
  StableHlo.after_of_writes_sub hostOps13 (W44 m ρ c) hostOps13_wr hb

/-- The buffers the stretch `hostOps16` writes, and their indices. -/
def wr_hostOps16 : List (Ref sig .tc) := [main_v257, main_c_47, main_v258, main_v259, main_c_48, main_v260, main_v261, main_v262, main_v263, main_v264, main_c_49, main_v265, main_v266, main_c_50, main_v267, main_v268, main_v269, main_v270, main_v271, main_v272, main_v273, main_v274, main_v275, main_v276, main_v277, main_v278, main_v279, main_v280, main_v281, main_v282, main_v283]
def wi_hostOps16 : List ℕ := [523, 524, 525, 526, 527, 528, 529, 530, 531, 532, 533, 534, 535, 536, 537, 538, 539, 540, 541, 542, 543, 544, 545, 546, 547, 548, 549, 550, 551, 552, 553]
theorem wr_hostOps16_ix : wr_hostOps16.map rix = wi_hostOps16 := by
  simp only [wr_hostOps16, wi_hostOps16, List.map_cons, List.map_nil, rix_v257, rix_c_47, rix_v258, rix_v259, rix_c_48, rix_v260, rix_v261, rix_v262, rix_v263, rix_v264, rix_c_49, rix_v265, rix_v266, rix_c_50, rix_v267, rix_v268, rix_v269, rix_v270, rix_v271, rix_v272, rix_v273, rix_v274, rix_v275, rix_v276, rix_v277, rix_v278, rix_v279, rix_v280, rix_v281, rix_v282, rix_v283]
theorem hostOps16_wr : (hostOps16 : List (HloOp τ sig (Elt F))).Forall fun op => op.writes ⊆ ((wr_hostOps16).map (Proc.devRef (τ := τ) .tc)).toFinset :=
  ⟨single_sub_of_mem (y := main_v257) (by simp only [wr_hostOps16, List.mem_cons, eq_self_iff_true, true_or, or_true]),
    single_sub_of_mem (y := main_c_47) (by simp only [wr_hostOps16, List.mem_cons, eq_self_iff_true, true_or, or_true]),
    single_sub_of_mem (y := main_v258) (by simp only [wr_hostOps16, List.mem_cons, eq_self_iff_true, true_or, or_true]),
    single_sub_of_mem (y := main_v259) (by simp only [wr_hostOps16, List.mem_cons, eq_self_iff_true, true_or, or_true]),
    single_sub_of_mem (y := main_c_48) (by simp only [wr_hostOps16, List.mem_cons, eq_self_iff_true, true_or, or_true]),
    single_sub_of_mem (y := main_v260) (by simp only [wr_hostOps16, List.mem_cons, eq_self_iff_true, true_or, or_true]),
    single_sub_of_mem (y := main_v261) (by simp only [wr_hostOps16, List.mem_cons, eq_self_iff_true, true_or, or_true]),
    single_sub_of_mem (y := main_v262) (by simp only [wr_hostOps16, List.mem_cons, eq_self_iff_true, true_or, or_true]),
    single_sub_of_mem (y := main_v263) (by simp only [wr_hostOps16, List.mem_cons, eq_self_iff_true, true_or, or_true]),
    single_sub_of_mem (y := main_v264) (by simp only [wr_hostOps16, List.mem_cons, eq_self_iff_true, true_or, or_true]),
    single_sub_of_mem (y := main_c_49) (by simp only [wr_hostOps16, List.mem_cons, eq_self_iff_true, true_or, or_true]),
    single_sub_of_mem (y := main_v265) (by simp only [wr_hostOps16, List.mem_cons, eq_self_iff_true, true_or, or_true]),
    single_sub_of_mem (y := main_v266) (by simp only [wr_hostOps16, List.mem_cons, eq_self_iff_true, true_or, or_true]),
    single_sub_of_mem (y := main_c_50) (by simp only [wr_hostOps16, List.mem_cons, eq_self_iff_true, true_or, or_true]),
    single_sub_of_mem (y := main_v267) (by simp only [wr_hostOps16, List.mem_cons, eq_self_iff_true, true_or, or_true]),
    single_sub_of_mem (y := main_v268) (by simp only [wr_hostOps16, List.mem_cons, eq_self_iff_true, true_or, or_true]),
    single_sub_of_mem (y := main_v269) (by simp only [wr_hostOps16, List.mem_cons, eq_self_iff_true, true_or, or_true]),
    single_sub_of_mem (y := main_v270) (by simp only [wr_hostOps16, List.mem_cons, eq_self_iff_true, true_or, or_true]),
    single_sub_of_mem (y := main_v271) (by simp only [wr_hostOps16, List.mem_cons, eq_self_iff_true, true_or, or_true]),
    single_sub_of_mem (y := main_v272) (by simp only [wr_hostOps16, List.mem_cons, eq_self_iff_true, true_or, or_true]),
    single_sub_of_mem (y := main_v273) (by simp only [wr_hostOps16, List.mem_cons, eq_self_iff_true, true_or, or_true]),
    single_sub_of_mem (y := main_v274) (by simp only [wr_hostOps16, List.mem_cons, eq_self_iff_true, true_or, or_true]),
    single_sub_of_mem (y := main_v275) (by simp only [wr_hostOps16, List.mem_cons, eq_self_iff_true, true_or, or_true]),
    single_sub_of_mem (y := main_v276) (by simp only [wr_hostOps16, List.mem_cons, eq_self_iff_true, true_or, or_true]),
    single_sub_of_mem (y := main_v277) (by simp only [wr_hostOps16, List.mem_cons, eq_self_iff_true, true_or, or_true]),
    single_sub_of_mem (y := main_v278) (by simp only [wr_hostOps16, List.mem_cons, eq_self_iff_true, true_or, or_true]),
    single_sub_of_mem (y := main_v279) (by simp only [wr_hostOps16, List.mem_cons, eq_self_iff_true, true_or, or_true]),
    single_sub_of_mem (y := main_v280) (by simp only [wr_hostOps16, List.mem_cons, eq_self_iff_true, true_or, or_true]),
    single_sub_of_mem (y := main_v281) (by simp only [wr_hostOps16, List.mem_cons, eq_self_iff_true, true_or, or_true]),
    single_sub_of_mem (y := main_v282) (by simp only [wr_hostOps16, List.mem_cons, eq_self_iff_true, true_or, or_true]),
    single_sub_of_mem (y := main_v283) (by simp only [wr_hostOps16, List.mem_cons, eq_self_iff_true, true_or, or_true])⟩
theorem keep51 (c : Dev nD) (b : Ref sig .tc) (hb : b ∉ wr_hostOps16) :
    W51 m ρ c (Proc.devRef .tc b) = W50 m ρ c (Proc.devRef .tc b) :=
  StableHlo.after_of_writes_sub hostOps16 (W50 m ρ c) hostOps16_wr hb

end Cert.KernelIdeal.Keep

end
-- ==== Proof.KKeepH2.lean ====
/-
  Host stretches of the kernel program (one third of them): the buffers each writes, by name and by index; every
  operation of the stretch writes one of them; so the stretch leaves every other buffer as it was.
-/
import proofs.«107973_j83408264888790_1_alg».proof.Proof.KKeepBase

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers the stretch `hostOps2` writes, and their indices. -/
def wr_hostOps2 : List (Ref sig .tc) := [main_cst_1, main_v18, main_v19, main_cst_2, main_v20, main_v21, main_c_3]
def wi_hostOps2 : List ℕ := [40, 41, 42, 43, 44, 45, 46]
theorem wr_hostOps2_ix : wr_hostOps2.map rix = wi_hostOps2 := by
  simp only [wr_hostOps2, wi_hostOps2, List.map_cons, List.map_nil, rix_cst_1, rix_v18, rix_v19, rix_cst_2, rix_v20, rix_v21, rix_c_3]
theorem hostOps2_wr : (hostOps2 : List (HloOp τ sig (Elt F))).Forall fun op => op.writes ⊆ ((wr_hostOps2).map (Proc.devRef (τ := τ) .tc)).toFinset :=
  ⟨single_sub_of_mem (y := main_cst_1) (by simp only [wr_hostOps2, List.mem_cons, eq_self_iff_true, true_or, or_true]),
    single_sub_of_mem (y := main_v18) (by simp only [wr_hostOps2, List.mem_cons, eq_self_iff_true, true_or, or_true]),
    single_sub_of_mem (y := main_v19) (by simp only [wr_hostOps2, List.mem_cons, eq_self_iff_true, true_or, or_true]),
    single_sub_of_mem (y := main_cst_2) (by simp only [wr_hostOps2, List.mem_cons, eq_self_iff_true, true_or, or_true]),
    single_sub_of_mem (y := main_v20) (by simp only [wr_hostOps2, List.mem_cons, eq_self_iff_true, true_or, or_true]),
    single_sub_of_mem (y := main_v21) (by simp only [wr_hostOps2, List.mem_cons, eq_self_iff_true, true_or, or_true]),
    single_sub_of_mem (y := main_c_3) (by simp only [wr_hostOps2, List.mem_cons, eq_self_iff_true, true_or, or_true])⟩
theorem keep5 (c : Dev nD) (b : Ref sig .tc) (hb : b ∉ wr_hostOps2) :
    W5 m ρ c (Proc.devRef .tc b) = W4 m ρ c (Proc.devRef .tc b) :=
  StableHlo.after_of_writes_sub hostOps2 (W4 m ρ c) hostOps2_wr hb

/-- The buffers the stretch `hostOps3` writes, and their indices. -/
def wr_hostOps3 : List (Ref sig .tc) := [main_cst_4, main_v35, main_v36, main_cst_5, main_v37, main_v38, main_c_6]
def wi_hostOps3 : List ℕ := [82, 83, 84, 85, 86, 87, 88]
theorem wr_hostOps3_ix : wr_hostOps3.map rix = wi_hostOps3 := by
  simp only [wr_hostOps3, wi_hostOps3, List.map_cons, List.map_nil, rix_cst_4, rix_v35, rix_v36, rix_cst_5, rix_v37, rix_v38, rix_c_6]
theorem hostOps3_wr : (hostOps3 : List (HloOp τ sig (Elt F))).Forall fun op => op.writes ⊆ ((wr_hostOps3).map (Proc.devRef (τ := τ) .tc)).toFinset :=
  ⟨single_sub_of_mem (y := main_cst_4) (by simp only [wr_hostOps3, List.mem_cons, eq_self_iff_true, true_or, or_true]),
    single_sub_of_mem (y := main_v35) (by simp only [wr_hostOps3, List.mem_cons, eq_self_iff_true, true_or, or_true]),
    single_sub_of_mem (y := main_v36) (by simp only [wr_hostOps3, List.mem_cons, eq_self_iff_true, true_or, or_true]),
    single_sub_of_mem (y := main_cst_5) (by simp only [wr_hostOps3, List.mem_cons, eq_self_iff_true, true_or, or_true]),
    single_sub_of_mem (y := main_v37) (by simp only [wr_hostOps3, List.mem_cons, eq_self_iff_true, true_or, or_true]),
    single_sub_of_mem (y := main_v38) (by simp only [wr_hostOps3, List.mem_cons, eq_self_iff_true, true_or, or_true]),
    single_sub_of_mem (y := main_c_6) (by simp only [wr_hostOps3, List.mem_cons, eq_self_iff_true, true_or, or_true])⟩
theorem keep9 (c : Dev nD) (b : Ref sig .tc) (hb : b ∉ wr_hostOps3) :
    W9 m ρ c (Proc.devRef .tc b) = W8 m ρ c (Proc.devRef .tc b) :=
  StableHlo.after_of_writes_sub hostOps3 (W8 m ρ c) hostOps3_wr hb

/-- The buffers the stretch `hostOps4` writes, and their indices. -/
def wr_hostOps4 : List (Ref sig .tc) := [main_cst_7, main_v47, main_v48, main_cst_8, main_v49, main_v50, main_c_9]
def wi_hostOps4 : List ℕ := [119, 120, 121, 122, 123, 124, 125]
theorem wr_hostOps4_ix : wr_hostOps4.map rix = wi_hostOps4 := by
  simp only [wr_hostOps4, wi_hostOps4, List.map_cons, List.map_nil, rix_cst_7, rix_v47, rix_v48, rix_cst_8, rix_v49, rix_v50, rix_c_9]
theorem hostOps4_wr : (hostOps4 : List (HloOp τ sig (Elt F))).Forall fun op => op.writes ⊆ ((wr_hostOps4).map (Proc.devRef (τ := τ) .tc)).toFinset :=
  ⟨single_sub_of_mem (y := main_cst_7) (by simp only [wr_hostOps4, List.mem_cons, eq_self_iff_true, true_or, or_true]),
    single_sub_of_mem (y := main_v47) (by simp only [wr_hostOps4, List.mem_cons, eq_self_iff_true, true_or, or_true]),
    single_sub_of_mem (y := main_v48) (by simp only [wr_hostOps4, List.mem_cons, eq_self_iff_true, true_or, or_true]),
    single_sub_of_mem (y := main_cst_8) (by simp only [wr_hostOps4, List.mem_cons, eq_self_iff_true, true_or, or_true]),
    single_sub_of_mem (y := main_v49) (by simp only [wr_hostOps4, List.mem_cons, eq_self_iff_true, true_or, or_true]),
    single_sub_of_mem (y := main_v50) (by simp only [wr_hostOps4, List.mem_cons, eq_self_iff_true, true_or, or_true]),
    single_sub_of_mem (y := main_c_9) (by simp only [wr_hostOps4, List.mem_cons, eq_self_iff_true, true_or, or_true])⟩
theorem keep13 (c : Dev nD) (b : Ref sig .tc) (hb : b ∉ wr_hostOps4) :
    W13 m ρ c (Proc.devRef .tc b) = W12 m ρ c (Proc.devRef .tc b) :=
  StableHlo.after_of_writes_sub hostOps4 (W12 m ρ c) hostOps4_wr hb

/-- The buffers the stretch `hostOps5` writes, and their indices. -/
def wr_hostOps5 : List (Ref sig .tc) := [main_c_10, main_v59, main_v60, main_c_11, main_v61, main_v62, main_v63, main_v64, main_v65, main_cst_12, main_v66, main_v67, main_v68, main_v69, main_v70, main_v71, main_v72, main_v73]
def wi_hostOps5 : List ℕ := [156, 157, 158, 159, 160, 161, 162, 163, 164, 165, 166, 167, 168, 169, 170, 171, 172, 173]
theorem wr_hostOps5_ix : wr_hostOps5.map rix = wi_hostOps5 := by
  simp only [wr_hostOps5, wi_hostOps5, List.map_cons, List.map_nil, rix_c_10, rix_v59, rix_v60, rix_c_11, rix_v61, rix_v62, rix_v63, rix_v64, rix_v65, rix_cst_12, rix_v66, rix_v67, rix_v68, rix_v69, rix_v70, rix_v71, rix_v72, rix_v73]
theorem hostOps5_wr : (hostOps5 : List (HloOp τ sig (Elt F))).Forall fun op => op.writes ⊆ ((wr_hostOps5).map (Proc.devRef (τ := τ) .tc)).toFinset :=
  ⟨single_sub_of_mem (y := main_c_10) (by simp only [wr_hostOps5, List.mem_cons, eq_self_iff_true, true_or, or_true]),
    single_sub_of_mem (y := main_v59) (by simp only [wr_hostOps5, List.mem_cons, eq_self_iff_true, true_or, or_true]),
    single_sub_of_mem (y := main_v60) (by simp only [wr_hostOps5, List.mem_cons, eq_self_iff_true, true_or, or_true]),
    single_sub_of_mem (y := main_c_11) (by simp only [wr_hostOps5, List.mem_cons, eq_self_iff_true, true_or, or_true]),
    single_sub_of_mem (y := main_v61) (by simp only [wr_hostOps5, List.mem_cons, eq_self_iff_true, true_or, or_true]),
    single_sub_of_mem (y := main_v62) (by simp only [wr_hostOps5, List.mem_cons, eq_self_iff_true, true_or, or_true]),
    single_sub_of_mem (y := main_v63) (by simp only [wr_hostOps5, List.mem_cons, eq_self_iff_true, true_or, or_true]),
    single_sub_of_mem (y := main_v64) (by simp only [wr_hostOps5, List.mem_cons, eq_self_iff_true, true_or, or_true]),
    single_sub_of_mem (y := main_v65) (by simp only [wr_hostOps5, List.mem_cons, eq_self_iff_true, true_or, or_true]),
    single_sub_of_mem (y := main_cst_12) (by simp only [wr_hostOps5, List.mem_cons, eq_self_iff_true, true_or, or_true]),
    single_sub_of_mem (y := main_v66) (by simp only [wr_hostOps5, List.mem_cons, eq_self_iff_true, true_or, or_true]),
    single_sub_of_mem (y := main_v67) (by simp only [wr_hostOps5, List.mem_cons, eq_self_iff_true, true_or, or_true]),
    single_sub_of_mem (y := main_v68) (by simp only [wr_hostOps5, List.mem_cons, eq_self_iff_true, true_or, or_true]),
    single_sub_of_mem (y := main_v69) (by simp only [wr_hostOps5, List.mem_cons, eq_self_iff_true, true_or, or_true]),
    single_sub_of_mem (y := main_v70) (by simp only [wr_hostOps5, List.mem_cons, eq_self_iff_true, true_or, or_true]),
    single_sub_of_mem (y := main_v71) (by simp only [wr_hostOps5, List.mem_cons, eq_self_iff_true, true_or, or_true]),
    single_sub_of_mem (y := main_v72) (by simp only [wr_hostOps5, List.mem_cons, eq_self_iff_true, true_or, or_true]),
    single_sub_of_mem (y := main_v73) (by simp only [wr_hostOps5, List.mem_cons, eq_self_iff_true, true_or, or_true])⟩
theorem keep17 (c : Dev nD) (b : Ref sig .tc) (hb : b ∉ wr_hostOps5) :
    W17 m ρ c (Proc.devRef .tc b) = W16 m ρ c (Proc.devRef .tc b) :=
  StableHlo.after_of_writes_sub hostOps5 (W16 m ρ c) hostOps5_wr hb

/-- The buffers the stretch `hostOps6_2` writes, and their indices. -/
def wr_hostOps6_2 : List (Ref sig .tc) := [main_v80, main_v81, main_v82, main_v83, main_v84, main_v85, main_v86, main_v87, main_v88, main_v89, main_v90]
def wi_hostOps6_2 : List ℕ := [205, 206, 207, 208, 209, 210, 211, 212, 213, 214, 215]
theorem wr_hostOps6_2_ix : wr_hostOps6_2.map rix = wi_hostOps6_2 := by
  simp only [wr_hostOps6_2, wi_hostOps6_2, List.map_cons, List.map_nil, rix_v80, rix_v81, rix_v82, rix_v83, rix_v84, rix_v85, rix_v86, rix_v87, rix_v88, rix_v89, rix_v90]
theorem hostOps6_2_wr : (hostOps6_2 : List (HloOp τ sig (Elt F))).Forall fun op => op.writes ⊆ ((wr_hostOps6_2).map (Proc.devRef (τ := τ) .tc)).toFinset :=
  ⟨single_sub_of_mem (y := main_v80) (by simp only [wr_hostOps6_2, List.mem_cons, eq_self_iff_true, true_or, or_true]),
    single_sub_of_mem (y := main_v81) (by simp only [wr_hostOps6_2, List.mem_cons, eq_self_iff_true, true_or, or_true]),
    single_sub_of_mem (y := main_v82) (by simp only [wr_hostOps6_2, List.mem_cons, eq_self_iff_true, true_or, or_true]),
    single_sub_of_mem (y := main_v83) (by simp only [wr_hostOps6_2, List.mem_cons, eq_self_iff_true, true_or, or_true]),
    single_sub_of_mem (y := main_v84) (by simp only [wr_hostOps6_2, List.mem_cons, eq_self_iff_true, true_or, or_true]),
    single_sub_of_mem (y := main_v85) (by simp only [wr_hostOps6_2, List.mem_cons, eq_self_iff_true, true_or, or_true]),
    single_sub_of_mem (y := main_v86) (by simp only [wr_hostOps6_2, List.mem_cons, eq_self_iff_true, true_or, or_true]),
    single_sub_of_mem (y := main_v87) (by simp only [wr_hostOps6_2, List.mem_cons, eq_self_iff_true, true_or, or_true]),
    single_sub_of_mem (y := main_v88) (by simp only [wr_hostOps6_2, List.mem_cons, eq_self_iff_true, true_or, or_true]),
    single_sub_of_mem (y := main_v89) (by simp only [wr_hostOps6_2, List.mem_cons, eq_self_iff_true, true_or, or_true]),
    single_sub_of_mem (y := main_v90) (by simp only [wr_hostOps6_2, List.mem_cons, eq_self_iff_true, true_or, or_true])⟩
theorem keep21 (c : Dev nD) (b : Ref sig .tc) (hb : b ∉ wr_hostOps6_2) :
    W21 m ρ c (Proc.devRef .tc b) = W20 m ρ c (Proc.devRef .tc b) :=
  StableHlo.after_of_writes_sub hostOps6_2 (W20 m ρ c) hostOps6_2_wr hb

/-- The buffers the stretch `hostOps7_2` writes, and their indices. -/
def wr_hostOps7_2 : List (Ref sig .tc) := [main_v97, main_v98, main_v99, main_v100, main_v101, main_v102]
def wi_hostOps7_2 : List ℕ := [247, 248, 249, 250, 251, 252]
theorem wr_hostOps7_2_ix : wr_hostOps7_2.map rix = wi_hostOps7_2 := by
  simp only [wr_hostOps7_2, wi_hostOps7_2, List.map_cons, List.map_nil, rix_v97, rix_v98, rix_v99, rix_v100, rix_v101, rix_v102]
theorem hostOps7_2_wr : (hostOps7_2 : List (HloOp τ sig (Elt F))).Forall fun op => op.writes ⊆ ((wr_hostOps7_2).map (Proc.devRef (τ := τ) .tc)).toFinset :=
  ⟨single_sub_of_mem (y := main_v97) (by simp only [wr_hostOps7_2, List.mem_cons, eq_self_iff_true, true_or, or_true]),
    single_sub_of_mem (y := main_v98) (by simp only [wr_hostOps7_2, List.mem_cons, eq_self_iff_true, true_or, or_true]),
    single_sub_of_mem (y := main_v99) (by simp only [wr_hostOps7_2, List.mem_cons, eq_self_iff_true, true_or, or_true]),
    single_sub_of_mem (y := main_v100) (by simp only [wr_hostOps7_2, List.mem_cons, eq_self_iff_true, true_or, or_true]),
    single_sub_of_mem (y := main_v101) (by simp only [wr_hostOps7_2, List.mem_cons, eq_self_iff_true, true_or, or_true]),
    single_sub_of_mem (y := main_v102) (by simp only [wr_hostOps7_2, List.mem_cons, eq_self_iff_true, true_or, or_true])⟩
theorem keep25 (c : Dev nD) (b : Ref sig .tc) (hb : b ∉ wr_hostOps7_2) :
    W25 m ρ c (Proc.devRef .tc b) = W24 m ρ c (Proc.devRef .tc b) :=
  StableHlo.after_of_writes_sub hostOps7_2 (W24 m ρ c) hostOps7_2_wr hb

/-- The buffers the stretch `hostOps8_2` writes, and their indices. -/
def wr_hostOps8_2 : List (Ref sig .tc) := [main_v109, main_v110, main_v111, main_v112, main_v113, main_v114]
def wi_hostOps8_2 : List ℕ := [284, 285, 286, 287, 288, 289]
theorem wr_hostOps8_2_ix : wr_hostOps8_2.map rix = wi_hostOps8_2 := by
  simp only [wr_hostOps8_2, wi_hostOps8_2, List.map_cons, List.map_nil, rix_v109, rix_v110, rix_v111, rix_v112, rix_v113, rix_v114]
theorem hostOps8_2_wr : (hostOps8_2 : List (HloOp τ sig (Elt F))).Forall fun op => op.writes ⊆ ((wr_hostOps8_2).map (Proc.devRef (τ := τ) .tc)).toFinset :=
  ⟨single_sub_of_mem (y := main_v109) (by simp only [wr_hostOps8_2, List.mem_cons, eq_self_iff_true, true_or, or_true]),
    single_sub_of_mem (y := main_v110) (by simp only [wr_hostOps8_2, List.mem_cons, eq_self_iff_true, true_or, or_true]),
    single_sub_of_mem (y := main_v111) (by simp only [wr_hostOps8_2, List.mem_cons, eq_self_iff_true, true_or, or_true]),
    single_sub_of_mem (y := main_v112) (by simp only [wr_hostOps8_2, List.mem_cons, eq_self_iff_true, true_or, or_true]),
    single_sub_of_mem (y := main_v113) (by simp only [wr_hostOps8_2, List.mem_cons, eq_self_iff_true, true_or, or_true]),
    single_sub_of_mem (y := main_v114) (by simp only [wr_hostOps8_2, List.mem_cons, eq_self_iff_true, true_or, or_true])⟩
theorem keep29 (c : Dev nD) (b : Ref sig .tc) (hb : b ∉ wr_hostOps8_2) :
    W29 m ρ c (Proc.devRef .tc b) = W28 m ρ c (Proc.devRef .tc b) :=
  StableHlo.after_of_writes_sub hostOps8_2 (W28 m ρ c) hostOps8_2_wr hb

/-- The buffers the stretch `hostOps10_1` writes, and their indices. -/
def wr_hostOps10_1 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v136]
def wi_hostOps10_1 : List ℕ := [317, 318, 319, 320, 321, 322, 323, 324, 325, 326, 327, 328, 329, 330, 331, 332, 333, 334, 335, 336, 337, 338, 339]
theorem wr_hostOps10_1_ix : wr_hostOps10_1.map rix = wi_hostOps10_1 := by
  simp only [wr_hostOps10_1, wi_hostOps10_1, List.map_cons, List.map_nil, rix_call6_cst, rix_call6_v0, rix_call6_v1, rix_call6_cst_0, rix_call6_v2, rix_call6_v3, rix_call6_v4, rix_call6_v5, rix_call6_v6, rix_call6_v7, rix_call6_cst_1, rix_call6_v8, rix_call6_cst_2, rix_call6_v9, rix_call6_v10, rix_call6_v11, rix_call6_v12, rix_call6_cst_3, rix_call6_v13, rix_call6_cst_4, rix_call6_call0_v0, rix_call6_call0_v1, rix_v136]
theorem hostOps10_1_wr : (hostOps10_1 : List (HloOp τ sig (Elt F))).Forall fun op => op.writes ⊆ ((wr_hostOps10_1).map (Proc.devRef (τ := τ) .tc)).toFinset :=
  ⟨single_sub_of_mem (y := main_call6_cst) (by simp only [wr_hostOps10_1, List.mem_cons, eq_self_iff_true, true_or, or_true]),
    single_sub_of_mem (y := main_call6_v0) (by simp only [wr_hostOps10_1, List.mem_cons, eq_self_iff_true, true_or, or_true]),
    single_sub_of_mem (y := main_call6_v1) (by simp only [wr_hostOps10_1, List.mem_cons, eq_self_iff_true, true_or, or_true]),
    single_sub_of_mem (y := main_call6_cst_0) (by simp only [wr_hostOps10_1, List.mem_cons, eq_self_iff_true, true_or, or_true]),
    single_sub_of_mem (y := main_call6_v2) (by simp only [wr_hostOps10_1, List.mem_cons, eq_self_iff_true, true_or, or_true]),
    single_sub_of_mem (y := main_call6_v3) (by simp only [wr_hostOps10_1, List.mem_cons, eq_self_iff_true, true_or, or_true]),
    single_sub_of_mem (y := main_call6_v4) (by simp only [wr_hostOps10_1, List.mem_cons, eq_self_iff_true, true_or, or_true]),
    single_sub_of_mem (y := main_call6_v5) (by simp only [wr_hostOps10_1, List.mem_cons, eq_self_iff_true, true_or, or_true]),
    single_sub_of_mem (y := main_call6_v6) (by simp only [wr_hostOps10_1, List.mem_cons, eq_self_iff_true, true_or, or_true]),
    single_sub_of_mem (y := main_call6_v7) (by simp only [wr_hostOps10_1, List.mem_cons, eq_self_iff_true, true_or, or_true]),
    single_sub_of_mem (y := main_call6_cst_1) (by simp only [wr_hostOps10_1, List.mem_cons, eq_self_iff_true, true_or, or_true]),
    single_sub_of_mem (y := main_call6_v8) (by simp only [wr_hostOps10_1, List.mem_cons, eq_self_iff_true, true_or, or_true]),
    single_sub_of_mem (y := main_call6_cst_2) (by simp only [wr_hostOps10_1, List.mem_cons, eq_self_iff_true, true_or, or_true]),
    single_sub_of_mem (y := main_call6_v9) (by simp only [wr_hostOps10_1, List.mem_cons, eq_self_iff_true, true_or, or_true]),
    single_sub_of_mem (y := main_call6_v10) (by simp only [wr_hostOps10_1, List.mem_cons, eq_self_iff_true, true_or, or_true]),
    single_sub_of_mem (y := main_call6_v11) (by simp only [wr_hostOps10_1, List.mem_cons, eq_self_iff_true, true_or, or_true]),
    single_sub_of_mem (y := main_call6_v12) (by simp only [wr_hostOps10_1, List.mem_cons, eq_self_iff_true, true_or, or_true]),
    single_sub_of_mem (y := main_call6_cst_3) (by simp only [wr_hostOps10_1, List.mem_cons, eq_self_iff_true, true_or, or_true]),
    single_sub_of_mem (y := main_call6_v13) (by simp only [wr_hostOps10_1, List.mem_cons, eq_self_iff_true, true_or, or_true]),
    single_sub_of_mem (y := main_call6_cst_4) (by simp only [wr_hostOps10_1, List.mem_cons, eq_self_iff_true, true_or, or_true]),
    single_sub_of_mem (y := main_call6_call0_v0) (by simp only [wr_hostOps10_1, List.mem_cons, eq_self_iff_true, true_or, or_true]),
    single_sub_of_mem (y := main_call6_call0_v1) (by simp only [wr_hostOps10_1, List.mem_cons, eq_self_iff_true, true_or, or_true]),
    single_sub_of_mem (y := main_v136) (by simp only [wr_hostOps10_1, List.mem_cons, eq_self_iff_true, true_or, or_true])⟩
theorem keep34 (c : Dev nD) (b : Ref sig .tc) (hb : b ∉ wr_hostOps10_1) :
    W34 m ρ c (Proc.devRef .tc b) = W33 m ρ c (Proc.devRef .tc b) :=
  StableHlo.after_of_writes_sub hostOps10_1 (W33 m ρ c) hostOps10_1_wr hb

/-- The buffers the stretch `hostOps11_1` writes, and their indices. -/
def wr_hostOps11_1 : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v153]
def wi_hostOps11_1 : List ℕ := [359, 360, 361, 362, 363, 364, 365, 366, 367, 368, 369, 370, 371, 372, 373, 374, 375, 376, 377, 378, 379, 380, 381]
theorem wr_hostOps11_1_ix : wr_hostOps11_1.map rix = wi_hostOps11_1 := by
  simp only [wr_hostOps11_1, wi_hostOps11_1, List.map_cons, List.map_nil, rix_call7_cst, rix_call7_v0, rix_call7_v1, rix_call7_cst_0, rix_call7_v2, rix_call7_v3, rix_call7_v4, rix_call7_v5, rix_call7_v6, rix_call7_v7, rix_call7_cst_1, rix_call7_v8, rix_call7_cst_2, rix_call7_v9, rix_call7_v10, rix_call7_v11, rix_call7_v12, rix_call7_cst_3, rix_call7_v13, rix_call7_cst_4, rix_call7_call0_v0, rix_call7_call0_v1, rix_v153]
theorem hostOps11_1_wr : (hostOps11_1 : List (HloOp τ sig (Elt F))).Forall fun op => op.writes ⊆ ((wr_hostOps11_1).map (Proc.devRef (τ := τ) .tc)).toFinset :=
  ⟨single_sub_of_mem (y := main_call7_cst) (by simp only [wr_hostOps11_1, List.mem_cons, eq_self_iff_true, true_or, or_true]),
    single_sub_of_mem (y := main_call7_v0) (by simp only [wr_hostOps11_1, List.mem_cons, eq_self_iff_true, true_or, or_true]),
    single_sub_of_mem (y := main_call7_v1) (by simp only [wr_hostOps11_1, List.mem_cons, eq_self_iff_true, true_or, or_true]),
    single_sub_of_mem (y := main_call7_cst_0) (by simp only [wr_hostOps11_1, List.mem_cons, eq_self_iff_true, true_or, or_true]),
    single_sub_of_mem (y := main_call7_v2) (by simp only [wr_hostOps11_1, List.mem_cons, eq_self_iff_true, true_or, or_true]),
    single_sub_of_mem (y := main_call7_v3) (by simp only [wr_hostOps11_1, List.mem_cons, eq_self_iff_true, true_or, or_true]),
    single_sub_of_mem (y := main_call7_v4) (by simp only [wr_hostOps11_1, List.mem_cons, eq_self_iff_true, true_or, or_true]),
    single_sub_of_mem (y := main_call7_v5) (by simp only [wr_hostOps11_1, List.mem_cons, eq_self_iff_true, true_or, or_true]),
    single_sub_of_mem (y := main_call7_v6) (by simp only [wr_hostOps11_1, List.mem_cons, eq_self_iff_true, true_or, or_true]),
    single_sub_of_mem (y := main_call7_v7) (by simp only [wr_hostOps11_1, List.mem_cons, eq_self_iff_true, true_or, or_true]),
    single_sub_of_mem (y := main_call7_cst_1) (by simp only [wr_hostOps11_1, List.mem_cons, eq_self_iff_true, true_or, or_true]),
    single_sub_of_mem (y := main_call7_v8) (by simp only [wr_hostOps11_1, List.mem_cons, eq_self_iff_true, true_or, or_true]),
    single_sub_of_mem (y := main_call7_cst_2) (by simp only [wr_hostOps11_1, List.mem_cons, eq_self_iff_true, true_or, or_true]),
    single_sub_of_mem (y := main_call7_v9) (by simp only [wr_hostOps11_1, List.mem_cons, eq_self_iff_true, true_or, or_true]),
    single_sub_of_mem (y := main_call7_v10) (by simp only [wr_hostOps11_1, List.mem_cons, eq_self_iff_true, true_or, or_true]),
    single_sub_of_mem (y := main_call7_v11) (by simp only [wr_hostOps11_1, List.mem_cons, eq_self_iff_true, true_or, or_true]),
    single_sub_of_mem (y := main_call7_v12) (by simp only [wr_hostOps11_1, List.mem_cons, eq_self_iff_true, true_or, or_true]),
    single_sub_of_mem (y := main_call7_cst_3) (by simp only [wr_hostOps11_1, List.mem_cons, eq_self_iff_true, true_or, or_true]),
    single_sub_of_mem (y := main_call7_v13) (by simp only [wr_hostOps11_1, List.mem_cons, eq_self_iff_true, true_or, or_true]),
    single_sub_of_mem (y := main_call7_cst_4) (by simp only [wr_hostOps11_1, List.mem_cons, eq_self_iff_true, true_or, or_true]),
    single_sub_of_mem (y := main_call7_call0_v0) (by simp only [wr_hostOps11_1, List.mem_cons, eq_self_iff_true, true_or, or_true]),
    single_sub_of_mem (y := main_call7_call0_v1) (by simp only [wr_hostOps11_1, List.mem_cons, eq_self_iff_true, true_or, or_true]),
    single_sub_of_mem (y := main_v153) (by simp only [wr_hostOps11_1, List.mem_cons, eq_self_iff_true, true_or, or_true])⟩
theorem keep38 (c : Dev nD) (b : Ref sig .tc) (hb : b ∉ wr_hostOps11_1) :
    W38 m ρ c (Proc.devRef .tc b) = W37 m ρ c (Proc.devRef .tc b) :=
  StableHlo.after_of_writes_sub hostOps11_1 (W37 m ρ c) hostOps11_1_wr hb

/-- The buffers the stretch `hostOps12_1` writes, and their indices. -/
def wr_hostOps12_1 : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v165]
def wi_hostOps12_1 : List ℕ := [396, 397, 398, 399, 400, 401, 402, 403, 404, 405, 406, 407, 408, 409, 410, 411, 412, 413, 414, 415, 416, 417, 418]
theorem wr_hostOps12_1_ix : wr_hostOps12_1.map rix = wi_hostOps12_1 := by
  simp only [wr_hostOps12_1, wi_hostOps12_1, List.map_cons, List.map_nil, rix_call8_cst, rix_call8_v0, rix_call8_v1, rix_call8_cst_0, rix_call8_v2, rix_call8_v3, rix_call8_v4, rix_call8_v5, rix_call8_v6, rix_call8_v7, rix_call8_cst_1, rix_call8_v8, rix_call8_cst_2, rix_call8_v9, rix_call8_v10, rix_call8_v11, rix_call8_v12, rix_call8_cst_3, rix_call8_v13, rix_call8_cst_4, rix_call8_call0_v0, rix_call8_call0_v1, rix_v165]
theorem hostOps12_1_wr : (hostOps12_1 : List (HloOp τ sig (Elt F))).Forall fun op => op.writes ⊆ ((wr_hostOps12_1).map (Proc.devRef (τ := τ) .tc)).toFinset :=
  ⟨single_sub_of_mem (y := main_call8_cst) (by simp only [wr_hostOps12_1, List.mem_cons, eq_self_iff_true, true_or, or_true]),
    single_sub_of_mem (y := main_call8_v0) (by simp only [wr_hostOps12_1, List.mem_cons, eq_self_iff_true, true_or, or_true]),
    single_sub_of_mem (y := main_call8_v1) (by simp only [wr_hostOps12_1, List.mem_cons, eq_self_iff_true, true_or, or_true]),
    single_sub_of_mem (y := main_call8_cst_0) (by simp only [wr_hostOps12_1, List.mem_cons, eq_self_iff_true, true_or, or_true]),
    single_sub_of_mem (y := main_call8_v2) (by simp only [wr_hostOps12_1, List.mem_cons, eq_self_iff_true, true_or, or_true]),
    single_sub_of_mem (y := main_call8_v3) (by simp only [wr_hostOps12_1, List.mem_cons, eq_self_iff_true, true_or, or_true]),
    single_sub_of_mem (y := main_call8_v4) (by simp only [wr_hostOps12_1, List.mem_cons, eq_self_iff_true, true_or, or_true]),
    single_sub_of_mem (y := main_call8_v5) (by simp only [wr_hostOps12_1, List.mem_cons, eq_self_iff_true, true_or, or_true]),
    single_sub_of_mem (y := main_call8_v6) (by simp only [wr_hostOps12_1, List.mem_cons, eq_self_iff_true, true_or, or_true]),
    single_sub_of_mem (y := main_call8_v7) (by simp only [wr_hostOps12_1, List.mem_cons, eq_self_iff_true, true_or, or_true]),
    single_sub_of_mem (y := main_call8_cst_1) (by simp only [wr_hostOps12_1, List.mem_cons, eq_self_iff_true, true_or, or_true]),
    single_sub_of_mem (y := main_call8_v8) (by simp only [wr_hostOps12_1, List.mem_cons, eq_self_iff_true, true_or, or_true]),
    single_sub_of_mem (y := main_call8_cst_2) (by simp only [wr_hostOps12_1, List.mem_cons, eq_self_iff_true, true_or, or_true]),
    single_sub_of_mem (y := main_call8_v9) (by simp only [wr_hostOps12_1, List.mem_cons, eq_self_iff_true, true_or, or_true]),
    single_sub_of_mem (y := main_call8_v10) (by simp only [wr_hostOps12_1, List.mem_cons, eq_self_iff_true, true_or, or_true]),
    single_sub_of_mem (y := main_call8_v11) (by simp only [wr_hostOps12_1, List.mem_cons, eq_self_iff_true, true_or, or_true]),
    single_sub_of_mem (y := main_call8_v12) (by simp only [wr_hostOps12_1, List.mem_cons, eq_self_iff_true, true_or, or_true]),
    single_sub_of_mem (y := main_call8_cst_3) (by simp only [wr_hostOps12_1, List.mem_cons, eq_self_iff_true, true_or, or_true]),
    single_sub_of_mem (y := main_call8_v13) (by simp only [wr_hostOps12_1, List.mem_cons, eq_self_iff_true, true_or, or_true]),
    single_sub_of_mem (y := main_call8_cst_4) (by simp only [wr_hostOps12_1, List.mem_cons, eq_self_iff_true, true_or, or_true]),
    single_sub_of_mem (y := main_call8_call0_v0) (by simp only [wr_hostOps12_1, List.mem_cons, eq_self_iff_true, true_or, or_true]),
    single_sub_of_mem (y := main_call8_call0_v1) (by simp only [wr_hostOps12_1, List.mem_cons, eq_self_iff_true, true_or, or_true]),
    single_sub_of_mem (y := main_v165) (by simp only [wr_hostOps12_1, List.mem_cons, eq_self_iff_true, true_or, or_true])⟩
theorem keep42 (c : Dev nD) (b : Ref sig .tc) (hb : b ∉ wr_hostOps12_1) :
    W42 m ρ c (Proc.devRef .tc b) = W41 m ρ c (Proc.devRef .tc b) :=
  StableHlo.after_of_writes_sub hostOps12_1 (W41 m ρ c) hostOps12_1_wr hb

/-- The buffers the stretch `hostOps14` writes, and their indices. -/
def wr_hostOps14 : List (Ref sig .tc) := [main_v201, main_c_39, main_v202, main_v203, main_c_40, main_v204, main_v205, main_v206, main_v207, main_v208, main_c_41, main_v209, main_v210, main_c_42, main_v211, main_v212, main_v213, main_v214, main_v215, main_v216, main_v217, main_v218, main_v219, main_v220, main_v221, main_v222, main_v223, main_v224, main_v225, main_v226, main_v227]
def wi_hostOps14 : List ℕ := [459, 460, 461, 462, 463, 464, 465, 466, 467, 468, 469, 470, 471, 472, 473, 474, 475, 476, 477, 478, 479, 480, 481, 482, 483, 484, 485, 486, 487, 488, 489]
theorem wr_hostOps14_ix : wr_hostOps14.map rix = wi_hostOps14 := by
  simp only [wr_hostOps14, wi_hostOps14, List.map_cons, List.map_nil, rix_v201, rix_c_39, rix_v202, rix_v203, rix_c_40, rix_v204, rix_v205, rix_v206, rix_v207, rix_v208, rix_c_41, rix_v209, rix_v210, rix_c_42, rix_v211, rix_v212, rix_v213, rix_v214, rix_v215, rix_v216, rix_v217, rix_v218, rix_v219, rix_v220, rix_v221, rix_v222, rix_v223, rix_v224, rix_v225, rix_v226, rix_v227]
theorem hostOps14_wr : (hostOps14 : List (HloOp τ sig (Elt F))).Forall fun op => op.writes ⊆ ((wr_hostOps14).map (Proc.devRef (τ := τ) .tc)).toFinset :=
  ⟨single_sub_of_mem (y := main_v201) (by simp only [wr_hostOps14, List.mem_cons, eq_self_iff_true, true_or, or_true]),
    single_sub_of_mem (y := main_c_39) (by simp only [wr_hostOps14, List.mem_cons, eq_self_iff_true, true_or, or_true]),
    single_sub_of_mem (y := main_v202) (by simp only [wr_hostOps14, List.mem_cons, eq_self_iff_true, true_or, or_true]),
    single_sub_of_mem (y := main_v203) (by simp only [wr_hostOps14, List.mem_cons, eq_self_iff_true, true_or, or_true]),
    single_sub_of_mem (y := main_c_40) (by simp only [wr_hostOps14, List.mem_cons, eq_self_iff_true, true_or, or_true]),
    single_sub_of_mem (y := main_v204) (by simp only [wr_hostOps14, List.mem_cons, eq_self_iff_true, true_or, or_true]),
    single_sub_of_mem (y := main_v205) (by simp only [wr_hostOps14, List.mem_cons, eq_self_iff_true, true_or, or_true]),
    single_sub_of_mem (y := main_v206) (by simp only [wr_hostOps14, List.mem_cons, eq_self_iff_true, true_or, or_true]),
    single_sub_of_mem (y := main_v207) (by simp only [wr_hostOps14, List.mem_cons, eq_self_iff_true, true_or, or_true]),
    single_sub_of_mem (y := main_v208) (by simp only [wr_hostOps14, List.mem_cons, eq_self_iff_true, true_or, or_true]),
    single_sub_of_mem (y := main_c_41) (by simp only [wr_hostOps14, List.mem_cons, eq_self_iff_true, true_or, or_true]),
    single_sub_of_mem (y := main_v209) (by simp only [wr_hostOps14, List.mem_cons, eq_self_iff_true, true_or, or_true]),
    single_sub_of_mem (y := main_v210) (by simp only [wr_hostOps14, List.mem_cons, eq_self_iff_true, true_or, or_true]),
    single_sub_of_mem (y := main_c_42) (by simp only [wr_hostOps14, List.mem_cons, eq_self_iff_true, true_or, or_true]),
    single_sub_of_mem (y := main_v211) (by simp only [wr_hostOps14, List.mem_cons, eq_self_iff_true, true_or, or_true]),
    single_sub_of_mem (y := main_v212) (by simp only [wr_hostOps14, List.mem_cons, eq_self_iff_true, true_or, or_true]),
    single_sub_of_mem (y := main_v213) (by simp only [wr_hostOps14, List.mem_cons, eq_self_iff_true, true_or, or_true]),
    single_sub_of_mem (y := main_v214) (by simp only [wr_hostOps14, List.mem_cons, eq_self_iff_true, true_or, or_true]),
    single_sub_of_mem (y := main_v215) (by simp only [wr_hostOps14, List.mem_cons, eq_self_iff_true, true_or, or_true]),
    single_sub_of_mem (y := main_v216) (by simp only [wr_hostOps14, List.mem_cons, eq_self_iff_true, true_or, or_true]),
    single_sub_of_mem (y := main_v217) (by simp only [wr_hostOps14, List.mem_cons, eq_self_iff_true, true_or, or_true]),
    single_sub_of_mem (y := main_v218) (by simp only [wr_hostOps14, List.mem_cons, eq_self_iff_true, true_or, or_true]),
    single_sub_of_mem (y := main_v219) (by simp only [wr_hostOps14, List.mem_cons, eq_self_iff_true, true_or, or_true]),
    single_sub_of_mem (y := main_v220) (by simp only [wr_hostOps14, List.mem_cons, eq_self_iff_true, true_or, or_true]),
    single_sub_of_mem (y := main_v221) (by simp only [wr_hostOps14, List.mem_cons, eq_self_iff_true, true_or, or_true]),
    single_sub_of_mem (y := main_v222) (by simp only [wr_hostOps14, List.mem_cons, eq_self_iff_true, true_or, or_true]),
    single_sub_of_mem (y := main_v223) (by simp only [wr_hostOps14, List.mem_cons, eq_self_iff_true, true_or, or_true]),
    single_sub_of_mem (y := main_v224) (by simp only [wr_hostOps14, List.mem_cons, eq_self_iff_true, true_or, or_true]),
    single_sub_of_mem (y := main_v225) (by simp only [wr_hostOps14, List.mem_cons, eq_self_iff_true, true_or, or_true]),
    single_sub_of_mem (y := main_v226) (by simp only [wr_hostOps14, List.mem_cons, eq_self_iff_true, true_or, or_true]),
    single_sub_of_mem (y := main_v227) (by simp only [wr_hostOps14, List.mem_cons, eq_self_iff_true, true_or, or_true])⟩
theorem keep47 (c : Dev nD) (b : Ref sig .tc) (hb : b ∉ wr_hostOps14) :
    W47 m ρ c (Proc.devRef .tc b) = W46 m ρ c (Proc.devRef .tc b) :=
  StableHlo.after_of_writes_sub hostOps14 (W46 m ρ c) hostOps14_wr hb

/-- The buffers the stretch `hostOps17` writes, and their indices. -/
def wr_hostOps17 : List (Ref sig .tc) := [main_v285]
def wi_hostOps17 : List ℕ := [555]
theorem wr_hostOps17_ix : wr_hostOps17.map rix = wi_hostOps17 := by
  simp only [wr_hostOps17, wi_hostOps17, List.map_cons, List.map_nil, rix_v285]
theorem hostOps17_wr : (hostOps17 : List (HloOp τ sig (Elt F))).Forall fun op => op.writes ⊆ ((wr_hostOps17).map (Proc.devRef (τ := τ) .tc)).toFinset :=
  single_sub_of_mem (y := main_v285) (by simp only [wr_hostOps17, List.mem_cons, eq_self_iff_true, true_or, or_true])
theorem keep53 (c : Dev nD) (b : Ref sig .tc) (hb : b ∉ wr_hostOps17) :
    W53 m ρ c (Proc.devRef .tc b) = W52 m ρ c (Proc.devRef .tc b) :=
  StableHlo.after_of_writes_sub hostOps17 (W52 m ρ c) hostOps17_wr hb

end Cert.KernelIdeal.Keep

end
-- ==== Proof.KKeepR0.lean ====
/-
  Regions of the kernel program (half of them): a region leaves every buffer but its output array as it was — an
  input window's array is written back unchanged, and a buffer that is no window's array is not touched.
-/
import proofs.«107973_j83408264888790_1_alg».proof.Proof.KKeepBase

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem keep2 (c : Dev nD) (b : Ref sig .tc) (hb : b ≠ main_v1) :
    W2 m ρ c (Proc.devRef .tc b) = W1 m ρ c (Proc.devRef .tc b) := by
  by_cases h0 : b = main_arg0
  · subst h0
    exact (W2_arr m ρ c (0 : Fin cfg0.W)).trans (((dat0 (V1 m ρ) c).arrAt_in (0 : Fin cfg0.W) rfl _).trans (A_eq0 (V1 m ρ) c (0 : Fin cfg0.W)))
  by_cases h1 : b = main_arg3
  · subst h1
    exact (W2_arr m ρ c (1 : Fin cfg0.W)).trans (((dat0 (V1 m ρ) c).arrAt_in (1 : Fin cfg0.W) rfl _).trans (A_eq0 (V1 m ρ) c (1 : Fin cfg0.W)))
  by_cases h2 : b = main_v0
  · subst h2
    exact (W2_arr m ρ c (2 : Fin cfg0.W)).trans (((dat0 (V1 m ρ) c).arrAt_in (2 : Fin cfg0.W) rfl _).trans (A_eq0 (V1 m ρ) c (2 : Fin cfg0.W)))
  refine W2_of_ne m ρ c b (fun w e => ?_)
  match w, e with
  | ⟨0, _⟩, e => exact h0 e.symm
  | ⟨1, _⟩, e => exact h1 e.symm
  | ⟨2, _⟩, e => exact h2 e.symm
  | ⟨3, _⟩, e => exact hb e.symm

theorem keep8 (c : Dev nD) (b : Ref sig .tc) (hb : b ≠ main_v34) :
    W8 m ρ c (Proc.devRef .tc b) = W7 m ρ c (Proc.devRef .tc b) := by
  by_cases h0 : b = main_v17
  · subst h0
    exact (W8_arr m ρ c (0 : Fin cfg2.W)).trans (((dat2 (V7 m ρ) c).arrAt_in (0 : Fin cfg2.W) rfl _).trans (A_eq2 (V7 m ρ) c (0 : Fin cfg2.W)))
  by_cases h1 : b = main_v21
  · subst h1
    exact (W8_arr m ρ c (1 : Fin cfg2.W)).trans (((dat2 (V7 m ρ) c).arrAt_in (1 : Fin cfg2.W) rfl _).trans (A_eq2 (V7 m ρ) c (1 : Fin cfg2.W)))
  by_cases h2 : b = main_v22
  · subst h2
    exact (W8_arr m ρ c (2 : Fin cfg2.W)).trans (((dat2 (V7 m ρ) c).arrAt_in (2 : Fin cfg2.W) rfl _).trans (A_eq2 (V7 m ρ) c (2 : Fin cfg2.W)))
  by_cases h3 : b = main_v25
  · subst h3
    exact (W8_arr m ρ c (3 : Fin cfg2.W)).trans (((dat2 (V7 m ρ) c).arrAt_in (3 : Fin cfg2.W) rfl _).trans (A_eq2 (V7 m ρ) c (3 : Fin cfg2.W)))
  by_cases h4 : b = main_v28
  · subst h4
    exact (W8_arr m ρ c (4 : Fin cfg2.W)).trans (((dat2 (V7 m ρ) c).arrAt_in (4 : Fin cfg2.W) rfl _).trans (A_eq2 (V7 m ρ) c (4 : Fin cfg2.W)))
  by_cases h5 : b = main_v30
  · subst h5
    exact (W8_arr m ρ c (5 : Fin cfg2.W)).trans (((dat2 (V7 m ρ) c).arrAt_in (5 : Fin cfg2.W) rfl _).trans (A_eq2 (V7 m ρ) c (5 : Fin cfg2.W)))
  by_cases h6 : b = main_v33
  · subst h6
    exact (W8_arr m ρ c (6 : Fin cfg2.W)).trans (((dat2 (V7 m ρ) c).arrAt_in (6 : Fin cfg2.W) rfl _).trans (A_eq2 (V7 m ρ) c (6 : Fin cfg2.W)))
  refine W8_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

theorem keep16 (c : Dev nD) (b : Ref sig .tc) (hb : b ≠ main_v58) :
    W16 m ρ c (Proc.devRef .tc b) = W15 m ρ c (Proc.devRef .tc b) := by
  by_cases h0 : b = main_v46
  · subst h0
    exact (W16_arr m ρ c (0 : Fin cfg4.W)).trans (((dat4 (V15 m ρ) c).arrAt_in (0 : Fin cfg4.W) rfl _).trans (A_eq4 (V15 m ρ) c (0 : Fin cfg4.W)))
  by_cases h1 : b = main_v50
  · subst h1
    exact (W16_arr m ρ c (1 : Fin cfg4.W)).trans (((dat4 (V15 m ρ) c).arrAt_in (1 : Fin cfg4.W) rfl _).trans (A_eq4 (V15 m ρ) c (1 : Fin cfg4.W)))
  by_cases h2 : b = main_v51
  · subst h2
    exact (W16_arr m ρ c (2 : Fin cfg4.W)).trans (((dat4 (V15 m ρ) c).arrAt_in (2 : Fin cfg4.W) rfl _).trans (A_eq4 (V15 m ρ) c (2 : Fin cfg4.W)))
  by_cases h3 : b = main_v54
  · subst h3
    exact (W16_arr m ρ c (3 : Fin cfg4.W)).trans (((dat4 (V15 m ρ) c).arrAt_in (3 : Fin cfg4.W) rfl _).trans (A_eq4 (V15 m ρ) c (3 : Fin cfg4.W)))
  by_cases h4 : b = main_v57
  · subst h4
    exact (W16_arr m ρ c (4 : Fin cfg4.W)).trans (((dat4 (V15 m ρ) c).arrAt_in (4 : Fin cfg4.W) rfl _).trans (A_eq4 (V15 m ρ) c (4 : Fin cfg4.W)))
  refine W16_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep22 (c : Dev nD) (b : Ref sig .tc) (hb : b ≠ main_v91) :
    W22 m ρ c (Proc.devRef .tc b) = W21 m ρ c (Proc.devRef .tc b) := by
  by_cases h0 : b = main_v74
  · subst h0
    exact (W22_arr m ρ c (0 : Fin cfg6.W)).trans (((dat6 (V21 m ρ) c).arrAt_in (0 : Fin cfg6.W) rfl _).trans (A_eq6 (V21 m ρ) c (0 : Fin cfg6.W)))
  by_cases h1 : b = main_v78
  · subst h1
    exact (W22_arr m ρ c (1 : Fin cfg6.W)).trans (((dat6 (V21 m ρ) c).arrAt_in (1 : Fin cfg6.W) rfl _).trans (A_eq6 (V21 m ρ) c (1 : Fin cfg6.W)))
  by_cases h2 : b = main_v79
  · subst h2
    exact (W22_arr m ρ c (2 : Fin cfg6.W)).trans (((dat6 (V21 m ρ) c).arrAt_in (2 : Fin cfg6.W) rfl _).trans (A_eq6 (V21 m ρ) c (2 : Fin cfg6.W)))
  by_cases h3 : b = main_v82
  · subst h3
    exact (W22_arr m ρ c (3 : Fin cfg6.W)).trans (((dat6 (V21 m ρ) c).arrAt_in (3 : Fin cfg6.W) rfl _).trans (A_eq6 (V21 m ρ) c (3 : Fin cfg6.W)))
  by_cases h4 : b = main_v85
  · subst h4
    exact (W22_arr m ρ c (4 : Fin cfg6.W)).trans (((dat6 (V21 m ρ) c).arrAt_in (4 : Fin cfg6.W) rfl _).trans (A_eq6 (V21 m ρ) c (4 : Fin cfg6.W)))
  by_cases h5 : b = main_v87
  · subst h5
    exact (W22_arr m ρ c (5 : Fin cfg6.W)).trans (((dat6 (V21 m ρ) c).arrAt_in (5 : Fin cfg6.W) rfl _).trans (A_eq6 (V21 m ρ) c (5 : Fin cfg6.W)))
  by_cases h6 : b = main_v90
  · subst h6
    exact (W22_arr m ρ c (6 : Fin cfg6.W)).trans (((dat6 (V21 m ρ) c).arrAt_in (6 : Fin cfg6.W) rfl _).trans (A_eq6 (V21 m ρ) c (6 : Fin cfg6.W)))
  refine W22_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

theorem keep30 (c : Dev nD) (b : Ref sig .tc) (hb : b ≠ main_v115) :
    W30 m ρ c (Proc.devRef .tc b) = W29 m ρ c (Proc.devRef .tc b) := by
  by_cases h0 : b = main_v103
  · subst h0
    exact (W30_arr m ρ c (0 : Fin cfg8.W)).trans (((dat8 (V29 m ρ) c).arrAt_in (0 : Fin cfg8.W) rfl _).trans (A_eq8 (V29 m ρ) c (0 : Fin cfg8.W)))
  by_cases h1 : b = main_v107
  · subst h1
    exact (W30_arr m ρ c (1 : Fin cfg8.W)).trans (((dat8 (V29 m ρ) c).arrAt_in (1 : Fin cfg8.W) rfl _).trans (A_eq8 (V29 m ρ) c (1 : Fin cfg8.W)))
  by_cases h2 : b = main_v108
  · subst h2
    exact (W30_arr m ρ c (2 : Fin cfg8.W)).trans (((dat8 (V29 m ρ) c).arrAt_in (2 : Fin cfg8.W) rfl _).trans (A_eq8 (V29 m ρ) c (2 : Fin cfg8.W)))
  by_cases h3 : b = main_v111
  · subst h3
    exact (W30_arr m ρ c (3 : Fin cfg8.W)).trans (((dat8 (V29 m ρ) c).arrAt_in (3 : Fin cfg8.W) rfl _).trans (A_eq8 (V29 m ρ) c (3 : Fin cfg8.W)))
  by_cases h4 : b = main_v114
  · subst h4
    exact (W30_arr m ρ c (4 : Fin cfg8.W)).trans (((dat8 (V29 m ρ) c).arrAt_in (4 : Fin cfg8.W) rfl _).trans (A_eq8 (V29 m ρ) c (4 : Fin cfg8.W)))
  refine W30_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep36 (c : Dev nD) (b : Ref sig .tc) (hb : b ≠ main_v148) :
    W36 m ρ c (Proc.devRef .tc b) = W35 m ρ c (Proc.devRef .tc b) := by
  by_cases h0 : b = main_v131
  · subst h0
    exact (W36_arr m ρ c (0 : Fin cfg10.W)).trans (((dat10 (V35 m ρ) c).arrAt_in (0 : Fin cfg10.W) rfl _).trans (A_eq10 (V35 m ρ) c (0 : Fin cfg10.W)))
  by_cases h1 : b = main_v135
  · subst h1
    exact (W36_arr m ρ c (1 : Fin cfg10.W)).trans (((dat10 (V35 m ρ) c).arrAt_in (1 : Fin cfg10.W) rfl _).trans (A_eq10 (V35 m ρ) c (1 : Fin cfg10.W)))
  by_cases h2 : b = main_v136
  · subst h2
    exact (W36_arr m ρ c (2 : Fin cfg10.W)).trans (((dat10 (V35 m ρ) c).arrAt_in (2 : Fin cfg10.W) rfl _).trans (A_eq10 (V35 m ρ) c (2 : Fin cfg10.W)))
  by_cases h3 : b = main_v139
  · subst h3
    exact (W36_arr m ρ c (3 : Fin cfg10.W)).trans (((dat10 (V35 m ρ) c).arrAt_in (3 : Fin cfg10.W) rfl _).trans (A_eq10 (V35 m ρ) c (3 : Fin cfg10.W)))
  by_cases h4 : b = main_v142
  · subst h4
    exact (W36_arr m ρ c (4 : Fin cfg10.W)).trans (((dat10 (V35 m ρ) c).arrAt_in (4 : Fin cfg10.W) rfl _).trans (A_eq10 (V35 m ρ) c (4 : Fin cfg10.W)))
  by_cases h5 : b = main_v144
  · subst h5
    exact (W36_arr m ρ c (5 : Fin cfg10.W)).trans (((dat10 (V35 m ρ) c).arrAt_in (5 : Fin cfg10.W) rfl _).trans (A_eq10 (V35 m ρ) c (5 : Fin cfg10.W)))
  by_cases h6 : b = main_v147
  · subst h6
    exact (W36_arr m ρ c (6 : Fin cfg10.W)).trans (((dat10 (V35 m ρ) c).arrAt_in (6 : Fin cfg10.W) rfl _).trans (A_eq10 (V35 m ρ) c (6 : Fin cfg10.W)))
  refine W36_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

theorem keep44 (c : Dev nD) (b : Ref sig .tc) (hb : b ≠ main_v172) :
    W44 m ρ c (Proc.devRef .tc b) = W43 m ρ c (Proc.devRef .tc b) := by
  by_cases h0 : b = main_v160
  · subst h0
    exact (W44_arr m ρ c (0 : Fin cfg12.W)).trans (((dat12 (V43 m ρ) c).arrAt_in (0 : Fin cfg12.W) rfl _).trans (A_eq12 (V43 m ρ) c (0 : Fin cfg12.W)))
  by_cases h1 : b = main_v164
  · subst h1
    exact (W44_arr m ρ c (1 : Fin cfg12.W)).trans (((dat12 (V43 m ρ) c).arrAt_in (1 : Fin cfg12.W) rfl _).trans (A_eq12 (V43 m ρ) c (1 : Fin cfg12.W)))
  by_cases h2 : b = main_v165
  · subst h2
    exact (W44_arr m ρ c (2 : Fin cfg12.W)).trans (((dat12 (V43 m ρ) c).arrAt_in (2 : Fin cfg12.W) rfl _).trans (A_eq12 (V43 m ρ) c (2 : Fin cfg12.W)))
  by_cases h3 : b = main_v168
  · subst h3
    exact (W44_arr m ρ c (3 : Fin cfg12.W)).trans (((dat12 (V43 m ρ) c).arrAt_in (3 : Fin cfg12.W) rfl _).trans (A_eq12 (V43 m ρ) c (3 : Fin cfg12.W)))
  by_cases h4 : b = main_v171
  · subst h4
    exact (W44_arr m ρ c (4 : Fin cfg12.W)).trans (((dat12 (V43 m ρ) c).arrAt_in (4 : Fin cfg12.W) rfl _).trans (A_eq12 (V43 m ρ) c (4 : Fin cfg12.W)))
  refine W44_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep48 (c : Dev nD) (b : Ref sig .tc) (hb : b ≠ main_v228) :
    W48 m ρ c (Proc.devRef .tc b) = W47 m ρ c (Proc.devRef .tc b) := by
  by_cases h0 : b = main_v208
  · subst h0
    exact (W48_arr m ρ c (0 : Fin cfg14.W)).trans (((dat14 (V47 m ρ) c).arrAt_in (0 : Fin cfg14.W) rfl _).trans (A_eq14 (V47 m ρ) c (0 : Fin cfg14.W)))
  by_cases h1 : b = main_v215
  · subst h1
    exact (W48_arr m ρ c (1 : Fin cfg14.W)).trans (((dat14 (V47 m ρ) c).arrAt_in (1 : Fin cfg14.W) rfl _).trans (A_eq14 (V47 m ρ) c (1 : Fin cfg14.W)))
  by_cases h2 : b = main_v217
  · subst h2
    exact (W48_arr m ρ c (2 : Fin cfg14.W)).trans (((dat14 (V47 m ρ) c).arrAt_in (2 : Fin cfg14.W) rfl _).trans (A_eq14 (V47 m ρ) c (2 : Fin cfg14.W)))
  by_cases h3 : b = main_v219
  · subst h3
    exact (W48_arr m ρ c (3 : Fin cfg14.W)).trans (((dat14 (V47 m ρ) c).arrAt_in (3 : Fin cfg14.W) rfl _).trans (A_eq14 (V47 m ρ) c (3 : Fin cfg14.W)))
  by_cases h4 : b = main_v222
  · subst h4
    exact (W48_arr m ρ c (4 : Fin cfg14.W)).trans (((dat14 (V47 m ρ) c).arrAt_in (4 : Fin cfg14.W) rfl _).trans (A_eq14 (V47 m ρ) c (4 : Fin cfg14.W)))
  by_cases h5 : b = main_v224
  · subst h5
    exact (W48_arr m ρ c (5 : Fin cfg14.W)).trans (((dat14 (V47 m ρ) c).arrAt_in (5 : Fin cfg14.W) rfl _).trans (A_eq14 (V47 m ρ) c (5 : Fin cfg14.W)))
  by_cases h6 : b = main_v227
  · subst h6
    exact (W48_arr m ρ c (6 : Fin cfg14.W)).trans (((dat14 (V47 m ρ) c).arrAt_in (6 : Fin cfg14.W) rfl _).trans (A_eq14 (V47 m ρ) c (6 : Fin cfg14.W)))
  refine W48_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

theorem keep52 (c : Dev nD) (b : Ref sig .tc) (hb : b ≠ main_v284) :
    W52 m ρ c (Proc.devRef .tc b) = W51 m ρ c (Proc.devRef .tc b) := by
  by_cases h0 : b = main_v264
  · subst h0
    exact (W52_arr m ρ c (0 : Fin cfg16.W)).trans (((dat16 (V51 m ρ) c).arrAt_in (0 : Fin cfg16.W) rfl _).trans (A_eq16 (V51 m ρ) c (0 : Fin cfg16.W)))
  by_cases h1 : b = main_v271
  · subst h1
    exact (W52_arr m ρ c (1 : Fin cfg16.W)).trans (((dat16 (V51 m ρ) c).arrAt_in (1 : Fin cfg16.W) rfl _).trans (A_eq16 (V51 m ρ) c (1 : Fin cfg16.W)))
  by_cases h2 : b = main_v273
  · subst h2
    exact (W52_arr m ρ c (2 : Fin cfg16.W)).trans (((dat16 (V51 m ρ) c).arrAt_in (2 : Fin cfg16.W) rfl _).trans (A_eq16 (V51 m ρ) c (2 : Fin cfg16.W)))
  by_cases h3 : b = main_v275
  · subst h3
    exact (W52_arr m ρ c (3 : Fin cfg16.W)).trans (((dat16 (V51 m ρ) c).arrAt_in (3 : Fin cfg16.W) rfl _).trans (A_eq16 (V51 m ρ) c (3 : Fin cfg16.W)))
  by_cases h4 : b = main_v278
  · subst h4
    exact (W52_arr m ρ c (4 : Fin cfg16.W)).trans (((dat16 (V51 m ρ) c).arrAt_in (4 : Fin cfg16.W) rfl _).trans (A_eq16 (V51 m ρ) c (4 : Fin cfg16.W)))
  by_cases h5 : b = main_v280
  · subst h5
    exact (W52_arr m ρ c (5 : Fin cfg16.W)).trans (((dat16 (V51 m ρ) c).arrAt_in (5 : Fin cfg16.W) rfl _).trans (A_eq16 (V51 m ρ) c (5 : Fin cfg16.W)))
  by_cases h6 : b = main_v283
  · subst h6
    exact (W52_arr m ρ c (6 : Fin cfg16.W)).trans (((dat16 (V51 m ρ) c).arrAt_in (6 : Fin cfg16.W) rfl _).trans (A_eq16 (V51 m ρ) c (6 : Fin cfg16.W)))
  refine W52_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

end Cert.KernelIdeal.Keep

end
-- ==== Proof.KKeepR1.lean ====
/-
  Regions of the kernel program (half of them): a region leaves every buffer but its output array as it was — an
  input window's array is written back unchanged, and a buffer that is no window's array is not touched.
-/
import proofs.«107973_j83408264888790_1_alg».proof.Proof.KKeepBase

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem keep4 (c : Dev nD) (b : Ref sig .tc) (hb : b ≠ main_v17) :
    W4 m ρ c (Proc.devRef .tc b) = W3 m ρ c (Proc.devRef .tc b) := by
  by_cases h0 : b = main_v1
  · subst h0
    exact (W4_arr m ρ c (0 : Fin cfg1.W)).trans (((dat1 (V3 m ρ) c).arrAt_in (0 : Fin cfg1.W) rfl _).trans (A_eq1 (V3 m ρ) c (0 : Fin cfg1.W)))
  by_cases h1 : b = main_v11
  · subst h1
    exact (W4_arr m ρ c (1 : Fin cfg1.W)).trans (((dat1 (V3 m ρ) c).arrAt_in (1 : Fin cfg1.W) rfl _).trans (A_eq1 (V3 m ρ) c (1 : Fin cfg1.W)))
  by_cases h2 : b = main_v13
  · subst h2
    exact (W4_arr m ρ c (2 : Fin cfg1.W)).trans (((dat1 (V3 m ρ) c).arrAt_in (2 : Fin cfg1.W) rfl _).trans (A_eq1 (V3 m ρ) c (2 : Fin cfg1.W)))
  by_cases h3 : b = main_v16
  · subst h3
    exact (W4_arr m ρ c (3 : Fin cfg1.W)).trans (((dat1 (V3 m ρ) c).arrAt_in (3 : Fin cfg1.W) rfl _).trans (A_eq1 (V3 m ρ) c (3 : Fin cfg1.W)))
  refine W4_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact hb e.symm

theorem keep12 (c : Dev nD) (b : Ref sig .tc) (hb : b ≠ main_v46) :
    W12 m ρ c (Proc.devRef .tc b) = W11 m ρ c (Proc.devRef .tc b) := by
  by_cases h0 : b = main_v34
  · subst h0
    exact (W12_arr m ρ c (0 : Fin cfg3.W)).trans (((dat3 (V11 m ρ) c).arrAt_in (0 : Fin cfg3.W) rfl _).trans (A_eq3 (V11 m ρ) c (0 : Fin cfg3.W)))
  by_cases h1 : b = main_v38
  · subst h1
    exact (W12_arr m ρ c (1 : Fin cfg3.W)).trans (((dat3 (V11 m ρ) c).arrAt_in (1 : Fin cfg3.W) rfl _).trans (A_eq3 (V11 m ρ) c (1 : Fin cfg3.W)))
  by_cases h2 : b = main_v39
  · subst h2
    exact (W12_arr m ρ c (2 : Fin cfg3.W)).trans (((dat3 (V11 m ρ) c).arrAt_in (2 : Fin cfg3.W) rfl _).trans (A_eq3 (V11 m ρ) c (2 : Fin cfg3.W)))
  by_cases h3 : b = main_v42
  · subst h3
    exact (W12_arr m ρ c (3 : Fin cfg3.W)).trans (((dat3 (V11 m ρ) c).arrAt_in (3 : Fin cfg3.W) rfl _).trans (A_eq3 (V11 m ρ) c (3 : Fin cfg3.W)))
  by_cases h4 : b = main_v45
  · subst h4
    exact (W12_arr m ρ c (4 : Fin cfg3.W)).trans (((dat3 (V11 m ρ) c).arrAt_in (4 : Fin cfg3.W) rfl _).trans (A_eq3 (V11 m ρ) c (4 : Fin cfg3.W)))
  refine W12_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep18 (c : Dev nD) (b : Ref sig .tc) (hb : b ≠ main_v74) :
    W18 m ρ c (Proc.devRef .tc b) = W17 m ρ c (Proc.devRef .tc b) := by
  by_cases h0 : b = main_v58
  · subst h0
    exact (W18_arr m ρ c (0 : Fin cfg5.W)).trans (((dat5 (V17 m ρ) c).arrAt_in (0 : Fin cfg5.W) rfl _).trans (A_eq5 (V17 m ρ) c (0 : Fin cfg5.W)))
  by_cases h1 : b = main_v68
  · subst h1
    exact (W18_arr m ρ c (1 : Fin cfg5.W)).trans (((dat5 (V17 m ρ) c).arrAt_in (1 : Fin cfg5.W) rfl _).trans (A_eq5 (V17 m ρ) c (1 : Fin cfg5.W)))
  by_cases h2 : b = main_v70
  · subst h2
    exact (W18_arr m ρ c (2 : Fin cfg5.W)).trans (((dat5 (V17 m ρ) c).arrAt_in (2 : Fin cfg5.W) rfl _).trans (A_eq5 (V17 m ρ) c (2 : Fin cfg5.W)))
  by_cases h3 : b = main_v73
  · subst h3
    exact (W18_arr m ρ c (3 : Fin cfg5.W)).trans (((dat5 (V17 m ρ) c).arrAt_in (3 : Fin cfg5.W) rfl _).trans (A_eq5 (V17 m ρ) c (3 : Fin cfg5.W)))
  refine W18_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact hb e.symm

theorem keep26 (c : Dev nD) (b : Ref sig .tc) (hb : b ≠ main_v103) :
    W26 m ρ c (Proc.devRef .tc b) = W25 m ρ c (Proc.devRef .tc b) := by
  by_cases h0 : b = main_v91
  · subst h0
    exact (W26_arr m ρ c (0 : Fin cfg7.W)).trans (((dat7 (V25 m ρ) c).arrAt_in (0 : Fin cfg7.W) rfl _).trans (A_eq7 (V25 m ρ) c (0 : Fin cfg7.W)))
  by_cases h1 : b = main_v95
  · subst h1
    exact (W26_arr m ρ c (1 : Fin cfg7.W)).trans (((dat7 (V25 m ρ) c).arrAt_in (1 : Fin cfg7.W) rfl _).trans (A_eq7 (V25 m ρ) c (1 : Fin cfg7.W)))
  by_cases h2 : b = main_v96
  · subst h2
    exact (W26_arr m ρ c (2 : Fin cfg7.W)).trans (((dat7 (V25 m ρ) c).arrAt_in (2 : Fin cfg7.W) rfl _).trans (A_eq7 (V25 m ρ) c (2 : Fin cfg7.W)))
  by_cases h3 : b = main_v99
  · subst h3
    exact (W26_arr m ρ c (3 : Fin cfg7.W)).trans (((dat7 (V25 m ρ) c).arrAt_in (3 : Fin cfg7.W) rfl _).trans (A_eq7 (V25 m ρ) c (3 : Fin cfg7.W)))
  by_cases h4 : b = main_v102
  · subst h4
    exact (W26_arr m ρ c (4 : Fin cfg7.W)).trans (((dat7 (V25 m ρ) c).arrAt_in (4 : Fin cfg7.W) rfl _).trans (A_eq7 (V25 m ρ) c (4 : Fin cfg7.W)))
  refine W26_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep32 (c : Dev nD) (b : Ref sig .tc) (hb : b ≠ main_v131) :
    W32 m ρ c (Proc.devRef .tc b) = W31 m ρ c (Proc.devRef .tc b) := by
  by_cases h0 : b = main_v115
  · subst h0
    exact (W32_arr m ρ c (0 : Fin cfg9.W)).trans (((dat9 (V31 m ρ) c).arrAt_in (0 : Fin cfg9.W) rfl _).trans (A_eq9 (V31 m ρ) c (0 : Fin cfg9.W)))
  by_cases h1 : b = main_v125
  · subst h1
    exact (W32_arr m ρ c (1 : Fin cfg9.W)).trans (((dat9 (V31 m ρ) c).arrAt_in (1 : Fin cfg9.W) rfl _).trans (A_eq9 (V31 m ρ) c (1 : Fin cfg9.W)))
  by_cases h2 : b = main_v127
  · subst h2
    exact (W32_arr m ρ c (2 : Fin cfg9.W)).trans (((dat9 (V31 m ρ) c).arrAt_in (2 : Fin cfg9.W) rfl _).trans (A_eq9 (V31 m ρ) c (2 : Fin cfg9.W)))
  by_cases h3 : b = main_v130
  · subst h3
    exact (W32_arr m ρ c (3 : Fin cfg9.W)).trans (((dat9 (V31 m ρ) c).arrAt_in (3 : Fin cfg9.W) rfl _).trans (A_eq9 (V31 m ρ) c (3 : Fin cfg9.W)))
  refine W32_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact hb e.symm

theorem keep40 (c : Dev nD) (b : Ref sig .tc) (hb : b ≠ main_v160) :
    W40 m ρ c (Proc.devRef .tc b) = W39 m ρ c (Proc.devRef .tc b) := by
  by_cases h0 : b = main_v148
  · subst h0
    exact (W40_arr m ρ c (0 : Fin cfg11.W)).trans (((dat11 (V39 m ρ) c).arrAt_in (0 : Fin cfg11.W) rfl _).trans (A_eq11 (V39 m ρ) c (0 : Fin cfg11.W)))
  by_cases h1 : b = main_v152
  · subst h1
    exact (W40_arr m ρ c (1 : Fin cfg11.W)).trans (((dat11 (V39 m ρ) c).arrAt_in (1 : Fin cfg11.W) rfl _).trans (A_eq11 (V39 m ρ) c (1 : Fin cfg11.W)))
  by_cases h2 : b = main_v153
  · subst h2
    exact (W40_arr m ρ c (2 : Fin cfg11.W)).trans (((dat11 (V39 m ρ) c).arrAt_in (2 : Fin cfg11.W) rfl _).trans (A_eq11 (V39 m ρ) c (2 : Fin cfg11.W)))
  by_cases h3 : b = main_v156
  · subst h3
    exact (W40_arr m ρ c (3 : Fin cfg11.W)).trans (((dat11 (V39 m ρ) c).arrAt_in (3 : Fin cfg11.W) rfl _).trans (A_eq11 (V39 m ρ) c (3 : Fin cfg11.W)))
  by_cases h4 : b = main_v159
  · subst h4
    exact (W40_arr m ρ c (4 : Fin cfg11.W)).trans (((dat11 (V39 m ρ) c).arrAt_in (4 : Fin cfg11.W) rfl _).trans (A_eq11 (V39 m ρ) c (4 : Fin cfg11.W)))
  refine W40_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact hb e.symm

theorem keep46 (c : Dev nD) (b : Ref sig .tc) (hb : b ≠ main_v200) :
    W46 m ρ c (Proc.devRef .tc b) = W45 m ρ c (Proc.devRef .tc b) := by
  by_cases h0 : b = main_v180
  · subst h0
    exact (W46_arr m ρ c (0 : Fin cfg13.W)).trans (((dat13 (V45 m ρ) c).arrAt_in (0 : Fin cfg13.W) rfl _).trans (A_eq13 (V45 m ρ) c (0 : Fin cfg13.W)))
  by_cases h1 : b = main_v187
  · subst h1
    exact (W46_arr m ρ c (1 : Fin cfg13.W)).trans (((dat13 (V45 m ρ) c).arrAt_in (1 : Fin cfg13.W) rfl _).trans (A_eq13 (V45 m ρ) c (1 : Fin cfg13.W)))
  by_cases h2 : b = main_v189
  · subst h2
    exact (W46_arr m ρ c (2 : Fin cfg13.W)).trans (((dat13 (V45 m ρ) c).arrAt_in (2 : Fin cfg13.W) rfl _).trans (A_eq13 (V45 m ρ) c (2 : Fin cfg13.W)))
  by_cases h3 : b = main_v191
  · subst h3
    exact (W46_arr m ρ c (3 : Fin cfg13.W)).trans (((dat13 (V45 m ρ) c).arrAt_in (3 : Fin cfg13.W) rfl _).trans (A_eq13 (V45 m ρ) c (3 : Fin cfg13.W)))
  by_cases h4 : b = main_v194
  · subst h4
    exact (W46_arr m ρ c (4 : Fin cfg13.W)).trans (((dat13 (V45 m ρ) c).arrAt_in (4 : Fin cfg13.W) rfl _).trans (A_eq13 (V45 m ρ) c (4 : Fin cfg13.W)))
  by_cases h5 : b = main_v196
  · subst h5
    exact (W46_arr m ρ c (5 : Fin cfg13.W)).trans (((dat13 (V45 m ρ) c).arrAt_in (5 : Fin cfg13.W) rfl _).trans (A_eq13 (V45 m ρ) c (5 : Fin cfg13.W)))
  by_cases h6 : b = main_v199
  · subst h6
    exact (W46_arr m ρ c (6 : Fin cfg13.W)).trans (((dat13 (V45 m ρ) c).arrAt_in (6 : Fin cfg13.W) rfl _).trans (A_eq13 (V45 m ρ) c (6 : Fin cfg13.W)))
  refine W46_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

theorem keep50 (c : Dev nD) (b : Ref sig .tc) (hb : b ≠ main_v256) :
    W50 m ρ c (Proc.devRef .tc b) = W49 m ρ c (Proc.devRef .tc b) := by
  by_cases h0 : b = main_v236
  · subst h0
    exact (W50_arr m ρ c (0 : Fin cfg15.W)).trans (((dat15 (V49 m ρ) c).arrAt_in (0 : Fin cfg15.W) rfl _).trans (A_eq15 (V49 m ρ) c (0 : Fin cfg15.W)))
  by_cases h1 : b = main_v243
  · subst h1
    exact (W50_arr m ρ c (1 : Fin cfg15.W)).trans (((dat15 (V49 m ρ) c).arrAt_in (1 : Fin cfg15.W) rfl _).trans (A_eq15 (V49 m ρ) c (1 : Fin cfg15.W)))
  by_cases h2 : b = main_v245
  · subst h2
    exact (W50_arr m ρ c (2 : Fin cfg15.W)).trans (((dat15 (V49 m ρ) c).arrAt_in (2 : Fin cfg15.W) rfl _).trans (A_eq15 (V49 m ρ) c (2 : Fin cfg15.W)))
  by_cases h3 : b = main_v247
  · subst h3
    exact (W50_arr m ρ c (3 : Fin cfg15.W)).trans (((dat15 (V49 m ρ) c).arrAt_in (3 : Fin cfg15.W) rfl _).trans (A_eq15 (V49 m ρ) c (3 : Fin cfg15.W)))
  by_cases h4 : b = main_v250
  · subst h4
    exact (W50_arr m ρ c (4 : Fin cfg15.W)).trans (((dat15 (V49 m ρ) c).arrAt_in (4 : Fin cfg15.W) rfl _).trans (A_eq15 (V49 m ρ) c (4 : Fin cfg15.W)))
  by_cases h5 : b = main_v252
  · subst h5
    exact (W50_arr m ρ c (5 : Fin cfg15.W)).trans (((dat15 (V49 m ρ) c).arrAt_in (5 : Fin cfg15.W) rfl _).trans (A_eq15 (V49 m ρ) c (5 : Fin cfg15.W)))
  by_cases h6 : b = main_v255
  · subst h6
    exact (W50_arr m ρ c (6 : Fin cfg15.W)).trans (((dat15 (V49 m ρ) c).arrAt_in (6 : Fin cfg15.W) rfl _).trans (A_eq15 (V49 m ρ) c (6 : Fin cfg15.W)))
  refine W50_of_ne m ρ c b (fun w e => ?_)
  match w, e with
  | ⟨0, _⟩, e => exact h0 e.symm
  | ⟨1, _⟩, e => exact h1 e.symm
  | ⟨2, _⟩, e => exact h2 e.symm
  | ⟨3, _⟩, e => exact h3 e.symm
  | ⟨4, _⟩, e => exact h4 e.symm
  | ⟨5, _⟩, e => exact h5 e.symm
  | ⟨6, _⟩, e => exact h6 e.symm
  | ⟨7, _⟩, e => exact hb e.symm

end Cert.KernelIdeal.Keep

end
-- ==== Proof.KKeep.lean ====
/-
  Which boundaries of the kernel program leave a buffer alone.

  The program is a chain of host stretches and regions; every buffer is written once. A host stretch leaves every
  buffer it does not name as a result as it was; a region leaves every buffer but its output array as it was. So a
  value, once defined, is read unchanged at every later boundary, and — here — the argument arrays are the launch
  memory's at every boundary.
-/
import proofs.«107973_j83408264888790_1_alg».proof.Proof.KKeepBase
import proofs.«107973_j83408264888790_1_alg».proof.Proof.KKeepH0
import proofs.«107973_j83408264888790_1_alg».proof.Proof.KKeepH1
import proofs.«107973_j83408264888790_1_alg».proof.Proof.KKeepH2
import proofs.«107973_j83408264888790_1_alg».proof.Proof.KKeepR0
import proofs.«107973_j83408264888790_1_alg».proof.Proof.KKeepR1

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem args0 (c : Dev nD) (b : Ref sig .tc) (hb : b ∈ argRefs) :
    W0 m ρ c (Proc.devRef .tc b) = m ((c : Thread nD τ).loc b) := rfl
theorem args1 (c : Dev nD) (b : Ref sig .tc) (hb : b ∈ argRefs) :
    W1 m ρ c (Proc.devRef .tc b) = m ((c : Thread nD τ).loc b) :=
  (keep1 m ρ c b (not_mem_of_arg wr_hostOps0_ix (by decide) hb)).trans (args0 m ρ c b hb)
theorem args2 (c : Dev nD) (b : Ref sig .tc) (hb : b ∈ argRefs) :
    W2 m ρ c (Proc.devRef .tc b) = m ((c : Thread nD τ).loc b) :=
  (keep2 m ρ c b (ne_of_arg rix_v1 (by decide) hb)).trans (args1 m ρ c b hb)
theorem args3 (c : Dev nD) (b : Ref sig .tc) (hb : b ∈ argRefs) :
    W3 m ρ c (Proc.devRef .tc b) = m ((c : Thread nD τ).loc b) :=
  (keep3 m ρ c b (not_mem_of_arg wr_hostOps1_ix (by decide) hb)).trans (args2 m ρ c b hb)
theorem args4 (c : Dev nD) (b : Ref sig .tc) (hb : b ∈ argRefs) :
    W4 m ρ c (Proc.devRef .tc b) = m ((c : Thread nD τ).loc b) :=
  (keep4 m ρ c b (ne_of_arg rix_v17 (by decide) hb)).trans (args3 m ρ c b hb)
theorem args5 (c : Dev nD) (b : Ref sig .tc) (hb : b ∈ argRefs) :
    W5 m ρ c (Proc.devRef .tc b) = m ((c : Thread nD τ).loc b) :=
  (keep5 m ρ c b (not_mem_of_arg wr_hostOps2_ix (by decide) hb)).trans (args4 m ρ c b hb)
theorem args6 (c : Dev nD) (b : Ref sig .tc) (hb : b ∈ argRefs) :
    W6 m ρ c (Proc.devRef .tc b) = m ((c : Thread nD τ).loc b) :=
  (keep6 m ρ c b (not_mem_of_arg wr_hostOps2_1_ix (by decide) hb)).trans (args5 m ρ c b hb)
theorem args7 (c : Dev nD) (b : Ref sig .tc) (hb : b ∈ argRefs) :
    W7 m ρ c (Proc.devRef .tc b) = m ((c : Thread nD τ).loc b) :=
  (keep7 m ρ c b (not_mem_of_arg wr_hostOps2_2_ix (by decide) hb)).trans (args6 m ρ c b hb)
theorem args8 (c : Dev nD) (b : Ref sig .tc) (hb : b ∈ argRefs) :
    W8 m ρ c (Proc.devRef .tc b) = m ((c : Thread nD τ).loc b) :=
  (keep8 m ρ c b (ne_of_arg rix_v34 (by decide) hb)).trans (args7 m ρ c b hb)
theorem args9 (c : Dev nD) (b : Ref sig .tc) (hb : b ∈ argRefs) :
    W9 m ρ c (Proc.devRef .tc b) = m ((c : Thread nD τ).loc b) :=
  (keep9 m ρ c b (not_mem_of_arg wr_hostOps3_ix (by decide) hb)).trans (args8 m ρ c b hb)
theorem args10 (c : Dev nD) (b : Ref sig .tc) (hb : b ∈ argRefs) :
    W10 m ρ c (Proc.devRef .tc b) = m ((c : Thread nD τ).loc b) :=
  (keep10 m ρ c b (not_mem_of_arg wr_hostOps3_1_ix (by decide) hb)).trans (args9 m ρ c b hb)
theorem args11 (c : Dev nD) (b : Ref sig .tc) (hb : b ∈ argRefs) :
    W11 m ρ c (Proc.devRef .tc b) = m ((c : Thread nD τ).loc b) :=
  (keep11 m ρ c b (not_mem_of_arg wr_hostOps3_2_ix (by decide) hb)).trans (args10 m ρ c b hb)
theorem args12 (c : Dev nD) (b : Ref sig .tc) (hb : b ∈ argRefs) :
    W12 m ρ c (Proc.devRef .tc b) = m ((c : Thread nD τ).loc b) :=
  (keep12 m ρ c b (ne_of_arg rix_v46 (by decide) hb)).trans (args11 m ρ c b hb)
theorem args13 (c : Dev nD) (b : Ref sig .tc) (hb : b ∈ argRefs) :
    W13 m ρ c (Proc.devRef .tc b) = m ((c : Thread nD τ).loc b) :=
  (keep13 m ρ c b (not_mem_of_arg wr_hostOps4_ix (by decide) hb)).trans (args12 m ρ c b hb)
theorem args14 (c : Dev nD) (b : Ref sig .tc) (hb : b ∈ argRefs) :
    W14 m ρ c (Proc.devRef .tc b) = m ((c : Thread nD τ).loc b) :=
  (keep14 m ρ c b (not_mem_of_arg wr_hostOps4_1_ix (by decide) hb)).trans (args13 m ρ c b hb)
theorem args15 (c : Dev nD) (b : Ref sig .tc) (hb : b ∈ argRefs) :
    W15 m ρ c (Proc.devRef .tc b) = m ((c : Thread nD τ).loc b) :=
  (keep15 m ρ c b (not_mem_of_arg wr_hostOps4_2_ix (by decide) hb)).trans (args14 m ρ c b hb)
theorem args16 (c : Dev nD) (b : Ref sig .tc) (hb : b ∈ argRefs) :
    W16 m ρ c (Proc.devRef .tc b) = m ((c : Thread nD τ).loc b) :=
  (keep16 m ρ c b (ne_of_arg rix_v58 (by decide) hb)).trans (args15 m ρ c b hb)
theorem args17 (c : Dev nD) (b : Ref sig .tc) (hb : b ∈ argRefs) :
    W17 m ρ c (Proc.devRef .tc b) = m ((c : Thread nD τ).loc b) :=
  (keep17 m ρ c b (not_mem_of_arg wr_hostOps5_ix (by decide) hb)).trans (args16 m ρ c b hb)
theorem args18 (c : Dev nD) (b : Ref sig .tc) (hb : b ∈ argRefs) :
    W18 m ρ c (Proc.devRef .tc b) = m ((c : Thread nD τ).loc b) :=
  (keep18 m ρ c b (ne_of_arg rix_v74 (by decide) hb)).trans (args17 m ρ c b hb)
theorem args19 (c : Dev nD) (b : Ref sig .tc) (hb : b ∈ argRefs) :
    W19 m ρ c (Proc.devRef .tc b) = m ((c : Thread nD τ).loc b) :=
  (keep19 m ρ c b (not_mem_of_arg wr_hostOps6_ix (by decide) hb)).trans (args18 m ρ c b hb)
theorem args20 (c : Dev nD) (b : Ref sig .tc) (hb : b ∈ argRefs) :
    W20 m ρ c (Proc.devRef .tc b) = m ((c : Thread nD τ).loc b) :=
  (keep20 m ρ c b (not_mem_of_arg wr_hostOps6_1_ix (by decide) hb)).trans (args19 m ρ c b hb)
theorem args21 (c : Dev nD) (b : Ref sig .tc) (hb : b ∈ argRefs) :
    W21 m ρ c (Proc.devRef .tc b) = m ((c : Thread nD τ).loc b) :=
  (keep21 m ρ c b (not_mem_of_arg wr_hostOps6_2_ix (by decide) hb)).trans (args20 m ρ c b hb)
theorem args22 (c : Dev nD) (b : Ref sig .tc) (hb : b ∈ argRefs) :
    W22 m ρ c (Proc.devRef .tc b) = m ((c : Thread nD τ).loc b) :=
  (keep22 m ρ c b (ne_of_arg rix_v91 (by decide) hb)).trans (args21 m ρ c b hb)
theorem args23 (c : Dev nD) (b : Ref sig .tc) (hb : b ∈ argRefs) :
    W23 m ρ c (Proc.devRef .tc b) = m ((c : Thread nD τ).loc b) :=
  (keep23 m ρ c b (not_mem_of_arg wr_hostOps7_ix (by decide) hb)).trans (args22 m ρ c b hb)
theorem args24 (c : Dev nD) (b : Ref sig .tc) (hb : b ∈ argRefs) :
    W24 m ρ c (Proc.devRef .tc b) = m ((c : Thread nD τ).loc b) :=
  (keep24 m ρ c b (not_mem_of_arg wr_hostOps7_1_ix (by decide) hb)).trans (args23 m ρ c b hb)
theorem args25 (c : Dev nD) (b : Ref sig .tc) (hb : b ∈ argRefs) :
    W25 m ρ c (Proc.devRef .tc b) = m ((c : Thread nD τ).loc b) :=
  (keep25 m ρ c b (not_mem_of_arg wr_hostOps7_2_ix (by decide) hb)).trans (args24 m ρ c b hb)
theorem args26 (c : Dev nD) (b : Ref sig .tc) (hb : b ∈ argRefs) :
    W26 m ρ c (Proc.devRef .tc b) = m ((c : Thread nD τ).loc b) :=
  (keep26 m ρ c b (ne_of_arg rix_v103 (by decide) hb)).trans (args25 m ρ c b hb)
theorem args27 (c : Dev nD) (b : Ref sig .tc) (hb : b ∈ argRefs) :
    W27 m ρ c (Proc.devRef .tc b) = m ((c : Thread nD τ).loc b) :=
  (keep27 m ρ c b (not_mem_of_arg wr_hostOps8_ix (by decide) hb)).trans (args26 m ρ c b hb)
theorem args28 (c : Dev nD) (b : Ref sig .tc) (hb : b ∈ argRefs) :
    W28 m ρ c (Proc.devRef .tc b) = m ((c : Thread nD τ).loc b) :=
  (keep28 m ρ c b (not_mem_of_arg wr_hostOps8_1_ix (by decide) hb)).trans (args27 m ρ c b hb)
theorem args29 (c : Dev nD) (b : Ref sig .tc) (hb : b ∈ argRefs) :
    W29 m ρ c (Proc.devRef .tc b) = m ((c : Thread nD τ).loc b) :=
  (keep29 m ρ c b (not_mem_of_arg wr_hostOps8_2_ix (by decide) hb)).trans (args28 m ρ c b hb)
theorem args30 (c : Dev nD) (b : Ref sig .tc) (hb : b ∈ argRefs) :
    W30 m ρ c (Proc.devRef .tc b) = m ((c : Thread nD τ).loc b) :=
  (keep30 m ρ c b (ne_of_arg rix_v115 (by decide) hb)).trans (args29 m ρ c b hb)
theorem args31 (c : Dev nD) (b : Ref sig .tc) (hb : b ∈ argRefs) :
    W31 m ρ c (Proc.devRef .tc b) = m ((c : Thread nD τ).loc b) :=
  (keep31 m ρ c b (not_mem_of_arg wr_hostOps9_ix (by decide) hb)).trans (args30 m ρ c b hb)
theorem args32 (c : Dev nD) (b : Ref sig .tc) (hb : b ∈ argRefs) :
    W32 m ρ c (Proc.devRef .tc b) = m ((c : Thread nD τ).loc b) :=
  (keep32 m ρ c b (ne_of_arg rix_v131 (by decide) hb)).trans (args31 m ρ c b hb)
theorem args33 (c : Dev nD) (b : Ref sig .tc) (hb : b ∈ argRefs) :
    W33 m ρ c (Proc.devRef .tc b) = m ((c : Thread nD τ).loc b) :=
  (keep33 m ρ c b (not_mem_of_arg wr_hostOps10_ix (by decide) hb)).trans (args32 m ρ c b hb)
theorem args34 (c : Dev nD) (b : Ref sig .tc) (hb : b ∈ argRefs) :
    W34 m ρ c (Proc.devRef .tc b) = m ((c : Thread nD τ).loc b) :=
  (keep34 m ρ c b (not_mem_of_arg wr_hostOps10_1_ix (by decide) hb)).trans (args33 m ρ c b hb)
theorem args35 (c : Dev nD) (b : Ref sig .tc) (hb : b ∈ argRefs) :
    W35 m ρ c (Proc.devRef .tc b) = m ((c : Thread nD τ).loc b) :=
  (keep35 m ρ c b (not_mem_of_arg wr_hostOps10_2_ix (by decide) hb)).trans (args34 m ρ c b hb)
theorem args36 (c : Dev nD) (b : Ref sig .tc) (hb : b ∈ argRefs) :
    W36 m ρ c (Proc.devRef .tc b) = m ((c : Thread nD τ).loc b) :=
  (keep36 m ρ c b (ne_of_arg rix_v148 (by decide) hb)).trans (args35 m ρ c b hb)
theorem args37 (c : Dev nD) (b : Ref sig .tc) (hb : b ∈ argRefs) :
    W37 m ρ c (Proc.devRef .tc b) = m ((c : Thread nD τ).loc b) :=
  (keep37 m ρ c b (not_mem_of_arg wr_hostOps11_ix (by decide) hb)).trans (args36 m ρ c b hb)
theorem args38 (c : Dev nD) (b : Ref sig .tc) (hb : b ∈ argRefs) :
    W38 m ρ c (Proc.devRef .tc b) = m ((c : Thread nD τ).loc b) :=
  (keep38 m ρ c b (not_mem_of_arg wr_hostOps11_1_ix (by decide) hb)).trans (args37 m ρ c b hb)
theorem args39 (c : Dev nD) (b : Ref sig .tc) (hb : b ∈ argRefs) :
    W39 m ρ c (Proc.devRef .tc b) = m ((c : Thread nD τ).loc b) :=
  (keep39 m ρ c b (not_mem_of_arg wr_hostOps11_2_ix (by decide) hb)).trans (args38 m ρ c b hb)
theorem args40 (c : Dev nD) (b : Ref sig .tc) (hb : b ∈ argRefs) :
    W40 m ρ c (Proc.devRef .tc b) = m ((c : Thread nD τ).loc b) :=
  (keep40 m ρ c b (ne_of_arg rix_v160 (by decide) hb)).trans (args39 m ρ c b hb)
theorem args41 (c : Dev nD) (b : Ref sig .tc) (hb : b ∈ argRefs) :
    W41 m ρ c (Proc.devRef .tc b) = m ((c : Thread nD τ).loc b) :=
  (keep41 m ρ c b (not_mem_of_arg wr_hostOps12_ix (by decide) hb)).trans (args40 m ρ c b hb)
theorem args42 (c : Dev nD) (b : Ref sig .tc) (hb : b ∈ argRefs) :
    W42 m ρ c (Proc.devRef .tc b) = m ((c : Thread nD τ).loc b) :=
  (keep42 m ρ c b (not_mem_of_arg wr_hostOps12_1_ix (by decide) hb)).trans (args41 m ρ c b hb)
theorem args43 (c : Dev nD) (b : Ref sig .tc) (hb : b ∈ argRefs) :
    W43 m ρ c (Proc.devRef .tc b) = m ((c : Thread nD τ).loc b) :=
  (keep43 m ρ c b (not_mem_of_arg wr_hostOps12_2_ix (by decide) hb)).trans (args42 m ρ c b hb)
theorem args44 (c : Dev nD) (b : Ref sig .tc) (hb : b ∈ argRefs) :
    W44 m ρ c (Proc.devRef .tc b) = m ((c : Thread nD τ).loc b) :=
  (keep44 m ρ c b (ne_of_arg rix_v172 (by decide) hb)).trans (args43 m ρ c b hb)
theorem args45 (c : Dev nD) (b : Ref sig .tc) (hb : b ∈ argRefs) :
    W45 m ρ c (Proc.devRef .tc b) = m ((c : Thread nD τ).loc b) :=
  (keep45 m ρ c b (not_mem_of_arg wr_hostOps13_ix (by decide) hb)).trans (args44 m ρ c b hb)
theorem args46 (c : Dev nD) (b : Ref sig .tc) (hb : b ∈ argRefs) :
    W46 m ρ c (Proc.devRef .tc b) = m ((c : Thread nD τ).loc b) :=
  (keep46 m ρ c b (ne_of_arg rix_v200 (by decide) hb)).trans (args45 m ρ c b hb)
theorem args47 (c : Dev nD) (b : Ref sig .tc) (hb : b ∈ argRefs) :
    W47 m ρ c (Proc.devRef .tc b) = m ((c : Thread nD τ).loc b) :=
  (keep47 m ρ c b (not_mem_of_arg wr_hostOps14_ix (by decide) hb)).trans (args46 m ρ c b hb)
theorem args48 (c : Dev nD) (b : Ref sig .tc) (hb : b ∈ argRefs) :
    W48 m ρ c (Proc.devRef .tc b) = m ((c : Thread nD τ).loc b) :=
  (keep48 m ρ c b (ne_of_arg rix_v228 (by decide) hb)).trans (args47 m ρ c b hb)
theorem args49 (c : Dev nD) (b : Ref sig .tc) (hb : b ∈ argRefs) :
    W49 m ρ c (Proc.devRef .tc b) = m ((c : Thread nD τ).loc b) :=
  (keep49 m ρ c b (not_mem_of_arg wr_hostOps15_ix (by decide) hb)).trans (args48 m ρ c b hb)
theorem args50 (c : Dev nD) (b : Ref sig .tc) (hb : b ∈ argRefs) :
    W50 m ρ c (Proc.devRef .tc b) = m ((c : Thread nD τ).loc b) :=
  (keep50 m ρ c b (ne_of_arg rix_v256 (by decide) hb)).trans (args49 m ρ c b hb)
theorem args51 (c : Dev nD) (b : Ref sig .tc) (hb : b ∈ argRefs) :
    W51 m ρ c (Proc.devRef .tc b) = m ((c : Thread nD τ).loc b) :=
  (keep51 m ρ c b (not_mem_of_arg wr_hostOps16_ix (by decide) hb)).trans (args50 m ρ c b hb)
theorem args52 (c : Dev nD) (b : Ref sig .tc) (hb : b ∈ argRefs) :
    W52 m ρ c (Proc.devRef .tc b) = m ((c : Thread nD τ).loc b) :=
  (keep52 m ρ c b (ne_of_arg rix_v284 (by decide) hb)).trans (args51 m ρ c b hb)
theorem args53 (c : Dev nD) (b : Ref sig .tc) (hb : b ∈ argRefs) :
    W53 m ρ c (Proc.devRef .tc b) = m ((c : Thread nD τ).loc b) :=
  (keep53 m ρ c b (not_mem_of_arg wr_hostOps17_ix (by decide) hb)).trans (args52 m ρ c b hb)
end Cert.KernelIdeal.Keep

end
-- ==== Proof.KHost.lean ====
/-
  The kernel program's host stretches, read one result at a time.

  Between its regions the program gathers node rows at the edges' endpoints and sums them into the nodes, takes
  each feature's batch mean and variance (kept as [1, 64] rows), cuts one layer's matrices and vectors out of the
  stacked parameters, and adds up the four score contributions. Each stretch's result buffer, after the stretch
  has run from any contents, is the named function of the buffers it reads.
-/
import proofs.«107973_j83408264888790_1_alg».proof.Proof.Gen.KernelIdeal.Launch
import Idealize.ShloMosaic.Lib.StableHlo.Run
import Idealize.ShloMosaic.PureOps.Ideal

set_option maxRecDepth 16384

noncomputable section

namespace Cert.KernelIdeal.KH

open Cert.KernelIdeal Cert.KernelIdeal.Gen
open Idealize.ShloMosaic Idealize.ShloMosaic.TcCoe Idealize.SL.Sem Idealize.ShloMosaic.StableHlo

/-- Contents of a buffer of shape s and element type e, at exact arithmetic. -/
abbrev C (s : Shape) (e : EltTy) := (⟨s, e⟩ : BufTy).Contents (Elt Ideal)

/-- An all-zero node array. -/
def zerosN : C S50000x64 .f32 := broadcastInDim S50000x64 ![] bcast_S_S50000x64 (constant (F := Ideal) S_ .f32 0x00000000#32)
/-- An all-zero score array. -/
def zerosE : C S800000x2 .f32 := broadcastInDim S800000x2 ![] bcast_S_S800000x2 (constant (F := Ideal) S_ .f32 0x00000000#32)
/-- The zero the variance's divisor is corrected by. -/
def zeroI : C S_ .i32 := constantI S_ 32 0#32
/-- An edge-endpoint vector as gather indices: negative entries wrapped by the node count, laid out as a column. -/
def nidx (s : C S800000 .i32) : C S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The node rows at the edges' endpoints. -/
def gat (s : C S800000 .i32) (x : C S50000x64 .f32) : C S800000x64 .f32 :=
  Host.gather gather_S50000x64_S800000x1_S800000x64_1_0_n_n_0_1_164 x (nidx s)
/-- Each node's sum of the rows gathered at the edges that end in it. -/
def agg (s d : C S800000 .i32) (x : C S50000x64 .f32) : C S50000x64 .f32 :=
  Host.scatterAdd (F := Ideal) (φ := .f32) scatter_S50000x64_S800000x1_S800000x64_1_0_0_1 zerosN
    (broadcastInDim S800000x1 ![0] bcast_S800000_S800000x1_0 d) (gat s x)
/-- The batch mean of each feature, kept as a [1, 64] row. -/
def meanRow (x : C S50000x64 .f32) : C S1x64 .f32 :=
  Host.divf (F := Ideal) (broadcastInDim S1x64 ![1] bcast_S64_S1x64_1
      (Host.reduceAdd (F := Ideal) x (constant (F := Ideal) S_ .f32 0x00000000#32) reducesTo_S50000x64_S64_d0 h_S_))
    (broadcastInDim S1x64 ![] bcast_S_S1x64 (constant (F := Ideal) S_ .f32 0x47435000#32))
/-- The batch variance of each feature (divisor the row count less the correction), kept as a [1, 64] row. -/
def varRow (x : C S50000x64 .f32) (ddof : C S_ .i32) : C S1x64 .f32 :=
  (fun p a b => select (broadcastInDim S1x64 ![] bcast_S_S1x64 p) a b)
    (cmpf .ogt (subf (constant (F := Ideal) S_ .f32 0x47435000#32) (sitofp (F := Ideal) .f32 ddof)) (constant (F := Ideal) S_ .f32 0x00000000#32))
    (Host.divf (F := Ideal) (broadcastInDim S1x64 ![1] bcast_S64_S1x64_1
        ((fun x v => Host.reduceAdd (F := Ideal) x v reducesTo_S50000x64_S64_d0 h_S_)
          (mulf (subf x (broadcastInDim S50000x64 ![0, 1] bcast_S1x64_S50000x64_0_1 (meanRow x)))
            (subf x (broadcastInDim S50000x64 ![0, 1] bcast_S1x64_S50000x64_0_1 (meanRow x))))
          (constant (F := Ideal) S_ .f32 0x00000000#32)))
      (broadcastInDim S1x64 ![] bcast_S_S1x64 (subf (constant (F := Ideal) S_ .f32 0x47435000#32) (sitofp (F := Ideal) .f32 ddof))))
    (broadcastInDim S1x64 ![] bcast_S_S1x64 (id (constant (F := Ideal) S_ .f32 0x7FC00000#32)))
/-- A vector laid out as a [1, 64] row. -/
def rowOf (v : C S64 .f32) : C S1x64 .f32 := shapeCast S1x64 v shapeCasts_S64_S1x64
/-- A vector laid out as a [1, 2] row. -/
def rowOf2 (v : C S2 .f32) : C S1x2 .f32 := shapeCast S1x2 v shapeCasts_S2_S1x2
/-- One layer's vector out of a stacked [3, 64] parameter. -/
def vslice (off : Fin 2 → ℕ) (h : S3x64.Slices off S1x64) (B : C S3x64 .f32) : C S64 .f32 :=
  shapeCast S64 (extractStridedSlice S1x64 off B h) shapeCasts_S1x64_S64
/-- One layer's matrix out of a stacked [3, 64, 64] parameter. -/
def wslice (off : Fin 3 → ℕ) (h : S3x64x64.Slices off S1x64x64) (W : C S3x64x64 .f32) : C S64x64 .f32 :=
  shapeCast S64x64 (extractStridedSlice S1x64x64 off W h) shapeCasts_S1x64x64_S64x64
/-- Half of one perceptron's first matrix out of the stacked [4, 128, 64] parameter. -/
def pw1 (off : Fin 3 → ℕ) (h : S4x128x64.Slices off S1x64x64) (W : C S4x128x64 .f32) : C S64x64 .f32 :=
  shapeCast S64x64 (extractStridedSlice S1x64x64 off W h) shapeCasts_S1x64x64_S64x64
/-- One perceptron's first bias out of the stacked [4, 64] parameter. -/
def pvec (off : Fin 2 → ℕ) (h : S4x64.Slices off S1x64) (B : C S4x64 .f32) : C S64 .f32 :=
  shapeCast S64 (extractStridedSlice S1x64 off B h) shapeCasts_S1x64_S64
/-- One perceptron's second matrix out of the stacked [4, 64, 2] parameter. -/
def pw2 (off : Fin 3 → ℕ) (h : S4x64x2.Slices off S1x64x2) (W : C S4x64x2 .f32) : C S64x2 .f32 :=
  shapeCast S64x2 (extractStridedSlice S1x64x2 off W h) shapeCasts_S1x64x2_S64x2
/-- One perceptron's second bias out of the stacked [4, 2] parameter. -/
def pvec2 (off : Fin 2 → ℕ) (h : S4x2.Slices off S1x2) (B : C S4x2 .f32) : C S2 .f32 :=
  shapeCast S2 (extractStridedSlice S1x2 off B h) shapeCasts_S1x2_S2

variable (V : Valuation τ sig (Elt Ideal))

attribute [local irreducible] Host.gather Host.scatterAdd Host.reduceAdd

set_option maxHeartbeats 2000000 in
theorem h0_v0 : StableHlo.after (hostOps0 (F := Ideal)) V (Proc.devRef .tc main_v0)
    = rowOf (V (Proc.devRef .tc main_arg4)) := by
  generalize hR : (_ : (_ : BufTy).Contents (Elt Ideal)) = R
  after_results
  all_goals (subst hR; rfl)
set_option maxHeartbeats 2000000 in
theorem h1_agg : StableHlo.after (hostOps1 (F := Ideal)) V (Proc.devRef .tc main_v11)
    = agg (V (Proc.devRef .tc main_arg1)) (V (Proc.devRef .tc main_arg2)) (V (Proc.devRef .tc main_v1)) := by
  generalize hR : (_ : (_ : BufTy).Contents (Elt Ideal)) = R
  after_results
  all_goals (subst hR; rfl)
set_option maxHeartbeats 2000000 in
theorem h1_w1 : StableHlo.after (hostOps1 (F := Ideal)) V (Proc.devRef .tc main_v13)
    = wslice ![0, 0, 0] slices_S3x64x64_S1x64x64_0_0_0 (V (Proc.devRef .tc main_arg5)) := by
  generalize hR : (_ : (_ : BufTy).Contents (Elt Ideal)) = R
  after_results
  all_goals (subst hR; rfl)
set_option maxHeartbeats 2000000 in
theorem h1_b1 : StableHlo.after (hostOps1 (F := Ideal)) V (Proc.devRef .tc main_v16)
    = rowOf (vslice ![0, 0] slices_S3x64_S1x64_0_0 (V (Proc.devRef .tc main_arg6))) := by
  generalize hR : (_ : (_ : BufTy).Contents (Elt Ideal)) = R
  after_results
  all_goals (subst hR; rfl)
set_option maxHeartbeats 2000000 in
theorem h2_mean : StableHlo.after (hostOps2 (F := Ideal)) V (Proc.devRef .tc main_v21)
    = meanRow (V (Proc.devRef .tc main_v17)) := by
  generalize hR : (_ : (_ : BufTy).Contents (Elt Ideal)) = R
  after_results
  all_goals (subst hR; rfl)
set_option maxHeartbeats 2000000 in
theorem h2_c : StableHlo.after (hostOps2 (F := Ideal)) V (Proc.devRef .tc main_c_3)
    = zeroI := by
  generalize hR : (_ : (_ : BufTy).Contents (Elt Ideal)) = R
  after_results
  all_goals (subst hR; rfl)
set_option maxHeartbeats 2000000 in
theorem h2_var : StableHlo.after (hostOps2_1 (F := Ideal)) V (Proc.devRef .tc main_v22)
    = varRow (V (Proc.devRef .tc main_v17)) (V (Proc.devRef .tc main_c_3)) := by
  generalize hR : (_ : (_ : BufTy).Contents (Elt Ideal)) = R
  after_results
  all_goals (subst hR; rfl)
set_option maxHeartbeats 2000000 in
theorem h2_g : StableHlo.after (hostOps2_2 (F := Ideal)) V (Proc.devRef .tc main_v25)
    = rowOf (vslice ![0, 0] slices_S3x64_S1x64_0_0 (V (Proc.devRef .tc main_arg7))) := by
  generalize hR : (_ : (_ : BufTy).Contents (Elt Ideal)) = R
  after_results
  all_goals (subst hR; rfl)
set_option maxHeartbeats 2000000 in
theorem h2_sh : StableHlo.after (hostOps2_2 (F := Ideal)) V (Proc.devRef .tc main_v28)
    = rowOf (vslice ![0, 0] slices_S3x64_S1x64_0_0 (V (Proc.devRef .tc main_arg8))) := by
  generalize hR : (_ : (_ : BufTy).Contents (Elt Ideal)) = R
  after_results
  all_goals (subst hR; rfl)
set_option maxHeartbeats 2000000 in
theorem h2_w2 : StableHlo.after (hostOps2_2 (F := Ideal)) V (Proc.devRef .tc main_v30)
    = wslice ![0, 0, 0] slices_S3x64x64_S1x64x64_0_0_0 (V (Proc.devRef .tc main_arg9)) := by
  generalize hR : (_ : (_ : BufTy).Contents (Elt Ideal)) = R
  after_results
  all_goals (subst hR; rfl)
set_option maxHeartbeats 2000000 in
theorem h2_b2 : StableHlo.after (hostOps2_2 (F := Ideal)) V (Proc.devRef .tc main_v33)
    = rowOf (vslice ![0, 0] slices_S3x64_S1x64_0_0 (V (Proc.devRef .tc main_arg10))) := by
  generalize hR : (_ : (_ : BufTy).Contents (Elt Ideal)) = R
  after_results
  all_goals (subst hR; rfl)
set_option maxHeartbeats 2000000 in
theorem h3_mean : StableHlo.after (hostOps3 (F := Ideal)) V (Proc.devRef .tc main_v38)
    = meanRow (V (Proc.devRef .tc main_v34)) := by
  generalize hR : (_ : (_ : BufTy).Contents (Elt Ideal)) = R
  after_results
  all_goals (subst hR; rfl)
set_option maxHeartbeats 2000000 in
theorem h3_c : StableHlo.after (hostOps3 (F := Ideal)) V (Proc.devRef .tc main_c_6)
    = zeroI := by
  generalize hR : (_ : (_ : BufTy).Contents (Elt Ideal)) = R
  after_results
  all_goals (subst hR; rfl)
set_option maxHeartbeats 2000000 in
theorem h3_var : StableHlo.after (hostOps3_1 (F := Ideal)) V (Proc.devRef .tc main_v39)
    = varRow (V (Proc.devRef .tc main_v34)) (V (Proc.devRef .tc main_c_6)) := by
  generalize hR : (_ : (_ : BufTy).Contents (Elt Ideal)) = R
  after_results
  all_goals (subst hR; rfl)
set_option maxHeartbeats 2000000 in
theorem h3_g : StableHlo.after (hostOps3_2 (F := Ideal)) V (Proc.devRef .tc main_v42)
    = rowOf (vslice ![0, 0] slices_S3x64_S1x64_0_0 (V (Proc.devRef .tc main_arg11))) := by
  generalize hR : (_ : (_ : BufTy).Contents (Elt Ideal)) = R
  after_results
  all_goals (subst hR; rfl)
set_option maxHeartbeats 2000000 in
theorem h3_sh : StableHlo.after (hostOps3_2 (F := Ideal)) V (Proc.devRef .tc main_v45)
    = rowOf (vslice ![0, 0] slices_S3x64_S1x64_0_0 (V (Proc.devRef .tc main_arg12))) := by
  generalize hR : (_ : (_ : BufTy).Contents (Elt Ideal)) = R
  after_results
  all_goals (subst hR; rfl)
set_option maxHeartbeats 2000000 in
theorem h4_mean : StableHlo.after (hostOps4 (F := Ideal)) V (Proc.devRef .tc main_v50)
    = meanRow (V (Proc.devRef .tc main_v46)) := by
  generalize hR : (_ : (_ : BufTy).Contents (Elt Ideal)) = R
  after_results
  all_goals (subst hR; rfl)
set_option maxHeartbeats 2000000 in
theorem h4_c : StableHlo.after (hostOps4 (F := Ideal)) V (Proc.devRef .tc main_c_9)
    = zeroI := by
  generalize hR : (_ : (_ : BufTy).Contents (Elt Ideal)) = R
  after_results
  all_goals (subst hR; rfl)
set_option maxHeartbeats 2000000 in
theorem h4_var : StableHlo.after (hostOps4_1 (F := Ideal)) V (Proc.devRef .tc main_v51)
    = varRow (V (Proc.devRef .tc main_v46)) (V (Proc.devRef .tc main_c_9)) := by
  generalize hR : (_ : (_ : BufTy).Contents (Elt Ideal)) = R
  after_results
  all_goals (subst hR; rfl)
set_option maxHeartbeats 2000000 in
theorem h4_g : StableHlo.after (hostOps4_2 (F := Ideal)) V (Proc.devRef .tc main_v54)
    = rowOf (vslice ![0, 0] slices_S3x64_S1x64_0_0 (V (Proc.devRef .tc main_arg13))) := by
  generalize hR : (_ : (_ : BufTy).Contents (Elt Ideal)) = R
  after_results
  all_goals (subst hR; rfl)
set_option maxHeartbeats 2000000 in
theorem h4_sh : StableHlo.after (hostOps4_2 (F := Ideal)) V (Proc.devRef .tc main_v57)
    = rowOf (vslice ![0, 0] slices_S3x64_S1x64_0_0 (V (Proc.devRef .tc main_arg14))) := by
  generalize hR : (_ : (_ : BufTy).Contents (Elt Ideal)) = R
  after_results
  all_goals (subst hR; rfl)
set_option maxHeartbeats 2000000 in
theorem h5_agg : StableHlo.after (hostOps5 (F := Ideal)) V (Proc.devRef .tc main_v68)
    = agg (V (Proc.devRef .tc main_arg1)) (V (Proc.devRef .tc main_arg2)) (V (Proc.devRef .tc main_v58)) := by
  generalize hR : (_ : (_ : BufTy).Contents (Elt Ideal)) = R
  after_results
  all_goals (subst hR; rfl)
set_option maxHeartbeats 2000000 in
theorem h5_w1 : StableHlo.after (hostOps5 (F := Ideal)) V (Proc.devRef .tc main_v70)
    = wslice ![1, 0, 0] slices_S3x64x64_S1x64x64_1_0_0 (V (Proc.devRef .tc main_arg5)) := by
  generalize hR : (_ : (_ : BufTy).Contents (Elt Ideal)) = R
  after_results
  all_goals (subst hR; rfl)
set_option maxHeartbeats 2000000 in
theorem h5_b1 : StableHlo.after (hostOps5 (F := Ideal)) V (Proc.devRef .tc main_v73)
    = rowOf (vslice ![1, 0] slices_S3x64_S1x64_1_0 (V (Proc.devRef .tc main_arg6))) := by
  generalize hR : (_ : (_ : BufTy).Contents (Elt Ideal)) = R
  after_results
  all_goals (subst hR; rfl)
set_option maxHeartbeats 2000000 in
theorem h6_mean : StableHlo.after (hostOps6 (F := Ideal)) V (Proc.devRef .tc main_v78)
    = meanRow (V (Proc.devRef .tc main_v74)) := by
  generalize hR : (_ : (_ : BufTy).Contents (Elt Ideal)) = R
  after_results
  all_goals (subst hR; rfl)
set_option maxHeartbeats 2000000 in
theorem h6_c : StableHlo.after (hostOps6 (F := Ideal)) V (Proc.devRef .tc main_c_15)
    = zeroI := by
  generalize hR : (_ : (_ : BufTy).Contents (Elt Ideal)) = R
  after_results
  all_goals (subst hR; rfl)
set_option maxHeartbeats 2000000 in
theorem h6_var : StableHlo.after (hostOps6_1 (F := Ideal)) V (Proc.devRef .tc main_v79)
    = varRow (V (Proc.devRef .tc main_v74)) (V (Proc.devRef .tc main_c_15)) := by
  generalize hR : (_ : (_ : BufTy).Contents (Elt Ideal)) = R
  after_results
  all_goals (subst hR; rfl)
set_option maxHeartbeats 2000000 in
theorem h6_g : StableHlo.after (hostOps6_2 (F := Ideal)) V (Proc.devRef .tc main_v82)
    = rowOf (vslice ![1, 0] slices_S3x64_S1x64_1_0 (V (Proc.devRef .tc main_arg7))) := by
  generalize hR : (_ : (_ : BufTy).Contents (Elt Ideal)) = R
  after_results
  all_goals (subst hR; rfl)
set_option maxHeartbeats 2000000 in
theorem h6_sh : StableHlo.after (hostOps6_2 (F := Ideal)) V (Proc.devRef .tc main_v85)
    = rowOf (vslice ![1, 0] slices_S3x64_S1x64_1_0 (V (Proc.devRef .tc main_arg8))) := by
  generalize hR : (_ : (_ : BufTy).Contents (Elt Ideal)) = R
  after_results
  all_goals (subst hR; rfl)
set_option maxHeartbeats 2000000 in
theorem h6_w2 : StableHlo.after (hostOps6_2 (F := Ideal)) V (Proc.devRef .tc main_v87)
    = wslice ![1, 0, 0] slices_S3x64x64_S1x64x64_1_0_0 (V (Proc.devRef .tc main_arg9)) := by
  generalize hR : (_ : (_ : BufTy).Contents (Elt Ideal)) = R
  after_results
  all_goals (subst hR; rfl)
set_option maxHeartbeats 2000000 in
theorem h6_b2 : StableHlo.after (hostOps6_2 (F := Ideal)) V (Proc.devRef .tc main_v90)
    = rowOf (vslice ![1, 0] slices_S3x64_S1x64_1_0 (V (Proc.devRef .tc main_arg10))) := by
  generalize hR : (_ : (_ : BufTy).Contents (Elt Ideal)) = R
  after_results
  all_goals (subst hR; rfl)
set_option maxHeartbeats 2000000 in
theorem h7_mean : StableHlo.after (hostOps7 (F := Ideal)) V (Proc.devRef .tc main_v95)
    = meanRow (V (Proc.devRef .tc main_v91)) := by
  generalize hR : (_ : (_ : BufTy).Contents (Elt Ideal)) = R
  after_results
  all_goals (subst hR; rfl)
set_option maxHeartbeats 2000000 in
theorem h7_c : StableHlo.after (hostOps7 (F := Ideal)) V (Proc.devRef .tc main_c_18)
    = zeroI := by
  generalize hR : (_ : (_ : BufTy).Contents (Elt Ideal)) = R
  after_results
  all_goals (subst hR; rfl)
set_option maxHeartbeats 2000000 in
theorem h7_var : StableHlo.after (hostOps7_1 (F := Ideal)) V (Proc.devRef .tc main_v96)
    = varRow (V (Proc.devRef .tc main_v91)) (V (Proc.devRef .tc main_c_18)) := by
  generalize hR : (_ : (_ : BufTy).Contents (Elt Ideal)) = R
  after_results
  all_goals (subst hR; rfl)
set_option maxHeartbeats 2000000 in
theorem h7_g : StableHlo.after (hostOps7_2 (F := Ideal)) V (Proc.devRef .tc main_v99)
    = rowOf (vslice ![1, 0] slices_S3x64_S1x64_1_0 (V (Proc.devRef .tc main_arg11))) := by
  generalize hR : (_ : (_ : BufTy).Contents (Elt Ideal)) = R
  after_results
  all_goals (subst hR; rfl)
set_option maxHeartbeats 2000000 in
theorem h7_sh : StableHlo.after (hostOps7_2 (F := Ideal)) V (Proc.devRef .tc main_v102)
    = rowOf (vslice ![1, 0] slices_S3x64_S1x64_1_0 (V (Proc.devRef .tc main_arg12))) := by
  generalize hR : (_ : (_ : BufTy).Contents (Elt Ideal)) = R
  after_results
  all_goals (subst hR; rfl)
set_option maxHeartbeats 2000000 in
theorem h8_mean : StableHlo.after (hostOps8 (F := Ideal)) V (Proc.devRef .tc main_v107)
    = meanRow (V (Proc.devRef .tc main_v103)) := by
  generalize hR : (_ : (_ : BufTy).Contents (Elt Ideal)) = R
  after_results
  all_goals (subst hR; rfl)
set_option maxHeartbeats 2000000 in
theorem h8_c : StableHlo.after (hostOps8 (F := Ideal)) V (Proc.devRef .tc main_c_21)
    = zeroI := by
  generalize hR : (_ : (_ : BufTy).Contents (Elt Ideal)) = R
  after_results
  all_goals (subst hR; rfl)
set_option maxHeartbeats 2000000 in
theorem h8_var : StableHlo.after (hostOps8_1 (F := Ideal)) V (Proc.devRef .tc main_v108)
    = varRow (V (Proc.devRef .tc main_v103)) (V (Proc.devRef .tc main_c_21)) := by
  generalize hR : (_ : (_ : BufTy).Contents (Elt Ideal)) = R
  after_results
  all_goals (subst hR; rfl)
set_option maxHeartbeats 2000000 in
theorem h8_g : StableHlo.after (hostOps8_2 (F := Ideal)) V (Proc.devRef .tc main_v111)
    = rowOf (vslice ![1, 0] slices_S3x64_S1x64_1_0 (V (Proc.devRef .tc main_arg13))) := by
  generalize hR : (_ : (_ : BufTy).Contents (Elt Ideal)) = R
  after_results
  all_goals (subst hR; rfl)
set_option maxHeartbeats 2000000 in
theorem h8_sh : StableHlo.after (hostOps8_2 (F := Ideal)) V (Proc.devRef .tc main_v114)
    = rowOf (vslice ![1, 0] slices_S3x64_S1x64_1_0 (V (Proc.devRef .tc main_arg14))) := by
  generalize hR : (_ : (_ : BufTy).Contents (Elt Ideal)) = R
  after_results
  all_goals (subst hR; rfl)
set_option maxHeartbeats 2000000 in
theorem h9_agg : StableHlo.after (hostOps9 (F := Ideal)) V (Proc.devRef .tc main_v125)
    = agg (V (Proc.devRef .tc main_arg1)) (V (Proc.devRef .tc main_arg2)) (V (Proc.devRef .tc main_v115)) := by
  generalize hR : (_ : (_ : BufTy).Contents (Elt Ideal)) = R
  after_results
  all_goals (subst hR; rfl)
set_option maxHeartbeats 2000000 in
theorem h9_w1 : StableHlo.after (hostOps9 (F := Ideal)) V (Proc.devRef .tc main_v127)
    = wslice ![2, 0, 0] slices_S3x64x64_S1x64x64_2_0_0 (V (Proc.devRef .tc main_arg5)) := by
  generalize hR : (_ : (_ : BufTy).Contents (Elt Ideal)) = R
  after_results
  all_goals (subst hR; rfl)
set_option maxHeartbeats 2000000 in
theorem h9_b1 : StableHlo.after (hostOps9 (F := Ideal)) V (Proc.devRef .tc main_v130)
    = rowOf (vslice ![2, 0] slices_S3x64_S1x64_2_0 (V (Proc.devRef .tc main_arg6))) := by
  generalize hR : (_ : (_ : BufTy).Contents (Elt Ideal)) = R
  after_results
  all_goals (subst hR; rfl)
set_option maxHeartbeats 2000000 in
theorem h10_mean : StableHlo.after (hostOps10 (F := Ideal)) V (Proc.devRef .tc main_v135)
    = meanRow (V (Proc.devRef .tc main_v131)) := by
  generalize hR : (_ : (_ : BufTy).Contents (Elt Ideal)) = R
  after_results
  all_goals (subst hR; rfl)
set_option maxHeartbeats 2000000 in
theorem h10_c : StableHlo.after (hostOps10 (F := Ideal)) V (Proc.devRef .tc main_c_27)
    = zeroI := by
  generalize hR : (_ : (_ : BufTy).Contents (Elt Ideal)) = R
  after_results
  all_goals (subst hR; rfl)
set_option maxHeartbeats 2000000 in
theorem h10_var : StableHlo.after (hostOps10_1 (F := Ideal)) V (Proc.devRef .tc main_v136)
    = varRow (V (Proc.devRef .tc main_v131)) (V (Proc.devRef .tc main_c_27)) := by
  generalize hR : (_ : (_ : BufTy).Contents (Elt Ideal)) = R
  after_results
  all_goals (subst hR; rfl)
set_option maxHeartbeats 2000000 in
theorem h10_g : StableHlo.after (hostOps10_2 (F := Ideal)) V (Proc.devRef .tc main_v139)
    = rowOf (vslice ![2, 0] slices_S3x64_S1x64_2_0 (V (Proc.devRef .tc main_arg7))) := by
  generalize hR : (_ : (_ : BufTy).Contents (Elt Ideal)) = R
  after_results
  all_goals (subst hR; rfl)
set_option maxHeartbeats 2000000 in
theorem h10_sh : StableHlo.after (hostOps10_2 (F := Ideal)) V (Proc.devRef .tc main_v142)
    = rowOf (vslice ![2, 0] slices_S3x64_S1x64_2_0 (V (Proc.devRef .tc main_arg8))) := by
  generalize hR : (_ : (_ : BufTy).Contents (Elt Ideal)) = R
  after_results
  all_goals (subst hR; rfl)
set_option maxHeartbeats 2000000 in
theorem h10_w2 : StableHlo.after (hostOps10_2 (F := Ideal)) V (Proc.devRef .tc main_v144)
    = wslice ![2, 0, 0] slices_S3x64x64_S1x64x64_2_0_0 (V (Proc.devRef .tc main_arg9)) := by
  generalize hR : (_ : (_ : BufTy).Contents (Elt Ideal)) = R
  after_results
  all_goals (subst hR; rfl)
set_option maxHeartbeats 2000000 in
theorem h10_b2 : StableHlo.after (hostOps10_2 (F := Ideal)) V (Proc.devRef .tc main_v147)
    = rowOf (vslice ![2, 0] slices_S3x64_S1x64_2_0 (V (Proc.devRef .tc main_arg10))) := by
  generalize hR : (_ : (_ : BufTy).Contents (Elt Ideal)) = R
  after_results
  all_goals (subst hR; rfl)
set_option maxHeartbeats 2000000 in
theorem h11_mean : StableHlo.after (hostOps11 (F := Ideal)) V (Proc.devRef .tc main_v152)
    = meanRow (V (Proc.devRef .tc main_v148)) := by
  generalize hR : (_ : (_ : BufTy).Contents (Elt Ideal)) = R
  after_results
  all_goals (subst hR; rfl)
set_option maxHeartbeats 2000000 in
theorem h11_c : StableHlo.after (hostOps11 (F := Ideal)) V (Proc.devRef .tc main_c_30)
    = zeroI := by
  generalize hR : (_ : (_ : BufTy).Contents (Elt Ideal)) = R
  after_results
  all_goals (subst hR; rfl)
set_option maxHeartbeats 2000000 in
theorem h11_var : StableHlo.after (hostOps11_1 (F := Ideal)) V (Proc.devRef .tc main_v153)
    = varRow (V (Proc.devRef .tc main_v148)) (V (Proc.devRef .tc main_c_30)) := by
  generalize hR : (_ : (_ : BufTy).Contents (Elt Ideal)) = R
  after_results
  all_goals (subst hR; rfl)
set_option maxHeartbeats 2000000 in
theorem h11_g : StableHlo.after (hostOps11_2 (F := Ideal)) V (Proc.devRef .tc main_v156)
    = rowOf (vslice ![2, 0] slices_S3x64_S1x64_2_0 (V (Proc.devRef .tc main_arg11))) := by
  generalize hR : (_ : (_ : BufTy).Contents (Elt Ideal)) = R
  after_results
  all_goals (subst hR; rfl)
set_option maxHeartbeats 2000000 in
theorem h11_sh : StableHlo.after (hostOps11_2 (F := Ideal)) V (Proc.devRef .tc main_v159)
    = rowOf (vslice ![2, 0] slices_S3x64_S1x64_2_0 (V (Proc.devRef .tc main_arg12))) := by
  generalize hR : (_ : (_ : BufTy).Contents (Elt Ideal)) = R
  after_results
  all_goals (subst hR; rfl)
set_option maxHeartbeats 2000000 in
theorem h12_mean : StableHlo.after (hostOps12 (F := Ideal)) V (Proc.devRef .tc main_v164)
    = meanRow (V (Proc.devRef .tc main_v160)) := by
  generalize hR : (_ : (_ : BufTy).Contents (Elt Ideal)) = R
  after_results
  all_goals (subst hR; rfl)
set_option maxHeartbeats 2000000 in
theorem h12_c : StableHlo.after (hostOps12 (F := Ideal)) V (Proc.devRef .tc main_c_33)
    = zeroI := by
  generalize hR : (_ : (_ : BufTy).Contents (Elt Ideal)) = R
  after_results
  all_goals (subst hR; rfl)
set_option maxHeartbeats 2000000 in
theorem h12_var : StableHlo.after (hostOps12_1 (F := Ideal)) V (Proc.devRef .tc main_v165)
    = varRow (V (Proc.devRef .tc main_v160)) (V (Proc.devRef .tc main_c_33)) := by
  generalize hR : (_ : (_ : BufTy).Contents (Elt Ideal)) = R
  after_results
  all_goals (subst hR; rfl)
set_option maxHeartbeats 2000000 in
theorem h12_g : StableHlo.after (hostOps12_2 (F := Ideal)) V (Proc.devRef .tc main_v168)
    = rowOf (vslice ![2, 0] slices_S3x64_S1x64_2_0 (V (Proc.devRef .tc main_arg13))) := by
  generalize hR : (_ : (_ : BufTy).Contents (Elt Ideal)) = R
  after_results
  all_goals (subst hR; rfl)
set_option maxHeartbeats 2000000 in
theorem h12_sh : StableHlo.after (hostOps12_2 (F := Ideal)) V (Proc.devRef .tc main_v171)
    = rowOf (vslice ![2, 0] slices_S3x64_S1x64_2_0 (V (Proc.devRef .tc main_arg14))) := by
  generalize hR : (_ : (_ : BufTy).Contents (Elt Ideal)) = R
  after_results
  all_goals (subst hR; rfl)
set_option maxHeartbeats 2000000 in
theorem h13_gs : StableHlo.after (hostOps13 (F := Ideal)) V (Proc.devRef .tc main_v180)
    = gat (V (Proc.devRef .tc main_arg1)) (V (Proc.devRef .tc main_v1)) := by
  generalize hR : (_ : (_ : BufTy).Contents (Elt Ideal)) = R
  after_results
  all_goals (subst hR; rfl)
set_option maxHeartbeats 2000000 in
theorem h13_gd : StableHlo.after (hostOps13 (F := Ideal)) V (Proc.devRef .tc main_v187)
    = gat (V (Proc.devRef .tc main_arg2)) (V (Proc.devRef .tc main_v1)) := by
  generalize hR : (_ : (_ : BufTy).Contents (Elt Ideal)) = R
  after_results
  all_goals (subst hR; rfl)
set_option maxHeartbeats 2000000 in
theorem h13_a : StableHlo.after (hostOps13 (F := Ideal)) V (Proc.devRef .tc main_v189)
    = pw1 ![0, 0, 0] slices_S4x128x64_S1x64x64_0_0_0 (V (Proc.devRef .tc main_arg15)) := by
  generalize hR : (_ : (_ : BufTy).Contents (Elt Ideal)) = R
  after_results
  all_goals (subst hR; rfl)
set_option maxHeartbeats 2000000 in
theorem h13_c : StableHlo.after (hostOps13 (F := Ideal)) V (Proc.devRef .tc main_v191)
    = pw1 ![0, 64, 0] slices_S4x128x64_S1x64x64_0_64_0 (V (Proc.devRef .tc main_arg15)) := by
  generalize hR : (_ : (_ : BufTy).Contents (Elt Ideal)) = R
  after_results
  all_goals (subst hR; rfl)
set_option maxHeartbeats 2000000 in
theorem h13_b1 : StableHlo.after (hostOps13 (F := Ideal)) V (Proc.devRef .tc main_v194)
    = rowOf (pvec ![0, 0] slices_S4x64_S1x64_0_0 (V (Proc.devRef .tc main_arg16))) := by
  generalize hR : (_ : (_ : BufTy).Contents (Elt Ideal)) = R
  after_results
  all_goals (subst hR; rfl)
set_option maxHeartbeats 2000000 in
theorem h13_w2 : StableHlo.after (hostOps13 (F := Ideal)) V (Proc.devRef .tc main_v196)
    = pw2 ![0, 0, 0] slices_S4x64x2_S1x64x2_0_0_0 (V (Proc.devRef .tc main_arg17)) := by
  generalize hR : (_ : (_ : BufTy).Contents (Elt Ideal)) = R
  after_results
  all_goals (subst hR; rfl)
set_option maxHeartbeats 2000000 in
theorem h13_b2 : StableHlo.after (hostOps13 (F := Ideal)) V (Proc.devRef .tc main_v199)
    = rowOf2 (pvec2 ![0, 0] slices_S4x2_S1x2_0_0 (V (Proc.devRef .tc main_arg18))) := by
  generalize hR : (_ : (_ : BufTy).Contents (Elt Ideal)) = R
  after_results
  all_goals (subst hR; rfl)
set_option maxHeartbeats 2000000 in
theorem h14_gs : StableHlo.after (hostOps14 (F := Ideal)) V (Proc.devRef .tc main_v208)
    = gat (V (Proc.devRef .tc main_arg1)) (V (Proc.devRef .tc main_v58)) := by
  generalize hR : (_ : (_ : BufTy).Contents (Elt Ideal)) = R
  after_results
  all_goals (subst hR; rfl)
set_option maxHeartbeats 2000000 in
theorem h14_gd : StableHlo.after (hostOps14 (F := Ideal)) V (Proc.devRef .tc main_v215)
    = gat (V (Proc.devRef .tc main_arg2)) (V (Proc.devRef .tc main_v58)) := by
  generalize hR : (_ : (_ : BufTy).Contents (Elt Ideal)) = R
  after_results
  all_goals (subst hR; rfl)
set_option maxHeartbeats 2000000 in
theorem h14_a : StableHlo.after (hostOps14 (F := Ideal)) V (Proc.devRef .tc main_v217)
    = pw1 ![1, 0, 0] slices_S4x128x64_S1x64x64_1_0_0 (V (Proc.devRef .tc main_arg15)) := by
  generalize hR : (_ : (_ : BufTy).Contents (Elt Ideal)) = R
  after_results
  all_goals (subst hR; rfl)
set_option maxHeartbeats 2000000 in
theorem h14_c : StableHlo.after (hostOps14 (F := Ideal)) V (Proc.devRef .tc main_v219)
    = pw1 ![1, 64, 0] slices_S4x128x64_S1x64x64_1_64_0 (V (Proc.devRef .tc main_arg15)) := by
  generalize hR : (_ : (_ : BufTy).Contents (Elt Ideal)) = R
  after_results
  all_goals (subst hR; rfl)
set_option maxHeartbeats 2000000 in
theorem h14_b1 : StableHlo.after (hostOps14 (F := Ideal)) V (Proc.devRef .tc main_v222)
    = rowOf (pvec ![1, 0] slices_S4x64_S1x64_1_0 (V (Proc.devRef .tc main_arg16))) := by
  generalize hR : (_ : (_ : BufTy).Contents (Elt Ideal)) = R
  after_results
  all_goals (subst hR; rfl)
set_option maxHeartbeats 2000000 in
theorem h14_w2 : StableHlo.after (hostOps14 (F := Ideal)) V (Proc.devRef .tc main_v224)
    = pw2 ![1, 0, 0] slices_S4x64x2_S1x64x2_1_0_0 (V (Proc.devRef .tc main_arg17)) := by
  generalize hR : (_ : (_ : BufTy).Contents (Elt Ideal)) = R
  after_results
  all_goals (subst hR; rfl)
set_option maxHeartbeats 2000000 in
theorem h14_b2 : StableHlo.after (hostOps14 (F := Ideal)) V (Proc.devRef .tc main_v227)
    = rowOf2 (pvec2 ![1, 0] slices_S4x2_S1x2_1_0 (V (Proc.devRef .tc main_arg18))) := by
  generalize hR : (_ : (_ : BufTy).Contents (Elt Ideal)) = R
  after_results
  all_goals (subst hR; rfl)
set_option maxHeartbeats 2000000 in
theorem h15_gs : StableHlo.after (hostOps15 (F := Ideal)) V (Proc.devRef .tc main_v236)
    = gat (V (Proc.devRef .tc main_arg1)) (V (Proc.devRef .tc main_v115)) := by
  generalize hR : (_ : (_ : BufTy).Contents (Elt Ideal)) = R
  after_results
  all_goals (subst hR; rfl)
set_option maxHeartbeats 2000000 in
theorem h15_gd : StableHlo.after (hostOps15 (F := Ideal)) V (Proc.devRef .tc main_v243)
    = gat (V (Proc.devRef .tc main_arg2)) (V (Proc.devRef .tc main_v115)) := by
  generalize hR : (_ : (_ : BufTy).Contents (Elt Ideal)) = R
  after_results
  all_goals (subst hR; rfl)
set_option maxHeartbeats 2000000 in
theorem h15_a : StableHlo.after (hostOps15 (F := Ideal)) V (Proc.devRef .tc main_v245)
    = pw1 ![2, 0, 0] slices_S4x128x64_S1x64x64_2_0_0 (V (Proc.devRef .tc main_arg15)) := by
  generalize hR : (_ : (_ : BufTy).Contents (Elt Ideal)) = R
  after_results
  all_goals (subst hR; rfl)
set_option maxHeartbeats 2000000 in
theorem h15_c : StableHlo.after (hostOps15 (F := Ideal)) V (Proc.devRef .tc main_v247)
    = pw1 ![2, 64, 0] slices_S4x128x64_S1x64x64_2_64_0 (V (Proc.devRef .tc main_arg15)) := by
  generalize hR : (_ : (_ : BufTy).Contents (Elt Ideal)) = R
  after_results
  all_goals (subst hR; rfl)
set_option maxHeartbeats 2000000 in
theorem h15_b1 : StableHlo.after (hostOps15 (F := Ideal)) V (Proc.devRef .tc main_v250)
    = rowOf (pvec ![2, 0] slices_S4x64_S1x64_2_0 (V (Proc.devRef .tc main_arg16))) := by
  generalize hR : (_ : (_ : BufTy).Contents (Elt Ideal)) = R
  after_results
  all_goals (subst hR; rfl)
set_option maxHeartbeats 2000000 in
theorem h15_w2 : StableHlo.after (hostOps15 (F := Ideal)) V (Proc.devRef .tc main_v252)
    = pw2 ![2, 0, 0] slices_S4x64x2_S1x64x2_2_0_0 (V (Proc.devRef .tc main_arg17)) := by
  generalize hR : (_ : (_ : BufTy).Contents (Elt Ideal)) = R
  after_results
  all_goals (subst hR; rfl)
set_option maxHeartbeats 2000000 in
theorem h15_b2 : StableHlo.after (hostOps15 (F := Ideal)) V (Proc.devRef .tc main_v255)
    = rowOf2 (pvec2 ![2, 0] slices_S4x2_S1x2_2_0 (V (Proc.devRef .tc main_arg18))) := by
  generalize hR : (_ : (_ : BufTy).Contents (Elt Ideal)) = R
  after_results
  all_goals (subst hR; rfl)
set_option maxHeartbeats 2000000 in
theorem h16_gs : StableHlo.after (hostOps16 (F := Ideal)) V (Proc.devRef .tc main_v264)
    = gat (V (Proc.devRef .tc main_arg1)) (V (Proc.devRef .tc main_v172)) := by
  generalize hR : (_ : (_ : BufTy).Contents (Elt Ideal)) = R
  after_results
  all_goals (subst hR; rfl)
set_option maxHeartbeats 2000000 in
theorem h16_gd : StableHlo.after (hostOps16 (F := Ideal)) V (Proc.devRef .tc main_v271)
    = gat (V (Proc.devRef .tc main_arg2)) (V (Proc.devRef .tc main_v172)) := by
  generalize hR : (_ : (_ : BufTy).Contents (Elt Ideal)) = R
  after_results
  all_goals (subst hR; rfl)
set_option maxHeartbeats 2000000 in
theorem h16_a : StableHlo.after (hostOps16 (F := Ideal)) V (Proc.devRef .tc main_v273)
    = pw1 ![3, 0, 0] slices_S4x128x64_S1x64x64_3_0_0 (V (Proc.devRef .tc main_arg15)) := by
  generalize hR : (_ : (_ : BufTy).Contents (Elt Ideal)) = R
  after_results
  all_goals (subst hR; rfl)
set_option maxHeartbeats 2000000 in
theorem h16_c : StableHlo.after (hostOps16 (F := Ideal)) V (Proc.devRef .tc main_v275)
    = pw1 ![3, 64, 0] slices_S4x128x64_S1x64x64_3_64_0 (V (Proc.devRef .tc main_arg15)) := by
  generalize hR : (_ : (_ : BufTy).Contents (Elt Ideal)) = R
  after_results
  all_goals (subst hR; rfl)
set_option maxHeartbeats 2000000 in
theorem h16_b1 : StableHlo.after (hostOps16 (F := Ideal)) V (Proc.devRef .tc main_v278)
    = rowOf (pvec ![3, 0] slices_S4x64_S1x64_3_0 (V (Proc.devRef .tc main_arg16))) := by
  generalize hR : (_ : (_ : BufTy).Contents (Elt Ideal)) = R
  after_results
  all_goals (subst hR; rfl)
set_option maxHeartbeats 2000000 in
theorem h16_w2 : StableHlo.after (hostOps16 (F := Ideal)) V (Proc.devRef .tc main_v280)
    = pw2 ![3, 0, 0] slices_S4x64x2_S1x64x2_3_0_0 (V (Proc.devRef .tc main_arg17)) := by
  generalize hR : (_ : (_ : BufTy).Contents (Elt Ideal)) = R
  after_results
  all_goals (subst hR; rfl)
set_option maxHeartbeats 2000000 in
theorem h16_b2 : StableHlo.after (hostOps16 (F := Ideal)) V (Proc.devRef .tc main_v283)
    = rowOf2 (pvec2 ![3, 0] slices_S4x2_S1x2_3_0 (V (Proc.devRef .tc main_arg18))) := by
  generalize hR : (_ : (_ : BufTy).Contents (Elt Ideal)) = R
  after_results
  all_goals (subst hR; rfl)
set_option maxHeartbeats 2000000 in
theorem h13_z : StableHlo.after (hostOps13 (F := Ideal)) V (Proc.devRef .tc main_v173)
    = zerosE := by
  generalize hR : (_ : (_ : BufTy).Contents (Elt Ideal)) = R
  after_results
  all_goals (subst hR; rfl)
set_option maxHeartbeats 2000000 in
theorem h14_acc : StableHlo.after (hostOps14 (F := Ideal)) V (Proc.devRef .tc main_v201)
    = (addf (F := Ideal) (φ := .f32) (V (Proc.devRef .tc main_v173)) (V (Proc.devRef .tc main_v200)) : C S800000x2 .f32) := by
  generalize hR : (_ : (_ : BufTy).Contents (Elt Ideal)) = R
  after_results
  all_goals (subst hR; rfl)
set_option maxHeartbeats 2000000 in
theorem h15_acc : StableHlo.after (hostOps15 (F := Ideal)) V (Proc.devRef .tc main_v229)
    = (addf (F := Ideal) (φ := .f32) (V (Proc.devRef .tc main_v201)) (V (Proc.devRef .tc main_v228)) : C S800000x2 .f32) := by
  generalize hR : (_ : (_ : BufTy).Contents (Elt Ideal)) = R
  after_results
  all_goals (subst hR; rfl)
set_option maxHeartbeats 2000000 in
theorem h16_acc : StableHlo.after (hostOps16 (F := Ideal)) V (Proc.devRef .tc main_v257)
    = (addf (F := Ideal) (φ := .f32) (V (Proc.devRef .tc main_v229)) (V (Proc.devRef .tc main_v256)) : C S800000x2 .f32) := by
  generalize hR : (_ : (_ : BufTy).Contents (Elt Ideal)) = R
  after_results
  all_goals (subst hR; rfl)
set_option maxHeartbeats 2000000 in
theorem h17_acc : StableHlo.after (hostOps17 (F := Ideal)) V (Proc.devRef .tc main_v285)
    = (addf (F := Ideal) (φ := .f32) (V (Proc.devRef .tc main_v257)) (V (Proc.devRef .tc main_v284)) : C S800000x2 .f32) := by
  generalize hR : (_ : (_ : BufTy).Contents (Elt Ideal)) = R
  after_results
  all_goals (subst hR; rfl)

end Cert.KernelIdeal.KH

end
-- ==== Proof.Spec.lean ====
/-
  The network both programs compute, entry by entry, over the extended reals.

  A node array x (50000 rows of 64 features) goes through an embedding x·W + b and three layers; a layer adds to
  each node the sum of its in-neighbours' rows, applies a dense map, normalises each feature by the batch mean
  and variance (scale, shift, clamp below at 0), applies a second dense map and two more normalise-and-clamp
  steps. The score of an edge is the sum over the four node arrays of a two-layer perceptron of the two endpoint
  rows. The neighbour sum, the batch mean and the batch variance are the SAME host operations in both programs and
  are carried here as functions of the array, never opened.
-/
import Idealize.ShloMosaic.Lib.ValueIdx
import Idealize.ShloMosaic.PureOps.Ideal

noncomputable section

namespace GinSpec

open Idealize.ShloMosaic Idealize.ShloMosaic.ValueIdx

/-- An n×m array of extended reals. -/
abbrev Mat (n m : ℕ) := (⟨2, ![n, m]⟩ : Shape).Idx → Ideal .f32
/-- A length-n vector of extended reals. -/
abbrev Vct (n : ℕ) := (⟨1, ![n]⟩ : Shape).Idx → Ideal .f32

/-- The variance offset of the normalisation, as both programs spell it. -/
def eps : Ideal .f32 := Ideal.ofBits .f32 0x3727C5AC#32
/-- The clamp's lower bound. -/
def zero : Ideal .f32 := Ideal.ofBits .f32 0x00000000#32

/-- The product x·w at an entry. -/
def mm {n k m : ℕ} (x : Mat n k) (w : Mat k m) : Mat n m :=
  fun i => ∑ kk : Fin k, x (ix2 (n0 := n) (n1 := k) (i 0) kk) * w (ix2 (n0 := k) (n1 := m) kk (i 1))

/-- x·w + b: the bias vector added to every row. -/
def affine {n k m : ℕ} (x : Mat n k) (w : Mat k m) (b : Vct m) : Mat n m :=
  fun i => mm x w i + b (ix1 (n := m) (i 1))

/-- Normalise feature q of every row by (μ q, σ² q), scale by g q, shift by b q, clamp below at 0. -/
def bnrelu {n : ℕ} (x : Mat n 64) (mu var g b : Vct 64) : Mat n 64 :=
  fun i => max (g (ix1 (n := 64) (i 1)) * (x i - mu (ix1 (n := 64) (i 1)))
      * Ideal.rsqrt (var (ix1 (n := 64) (i 1)) + eps) + b (ix1 (n := 64) (i 1))) zero

/-- What both programs apply to a node array without the proof opening it: the in-neighbour sum, the batch mean
    and the batch variance of each feature. -/
structure Env where
  ag : Mat 50000 64 → Mat 50000 64
  mean : Mat 50000 64 → Vct 64
  var : Mat 50000 64 → Vct 64

/-- One layer's parameters. -/
structure Layer where
  w1 : Mat 64 64
  b1 : Vct 64
  g1 : Vct 64
  c1 : Vct 64
  w2 : Mat 64 64
  b2 : Vct 64
  ga : Vct 64
  ca : Vct 64
  go : Vct 64
  co : Vct 64

/-- (x + neighbours)·W₁ + b₁. -/
def t1 (E : Env) (L : Layer) (x : Mat 50000 64) : Mat 50000 64 :=
  affine (fun i => x i + E.ag x i) L.w1 L.b1
/-- relu(bn(t₁))·W₂ + b₂. -/
def t3 (E : Env) (L : Layer) (x : Mat 50000 64) : Mat 50000 64 :=
  affine (bnrelu (t1 E L x) (E.mean (t1 E L x)) (E.var (t1 E L x)) L.g1 L.c1) L.w2 L.b2
/-- relu(bn(t₃)). -/
def t4 (E : Env) (L : Layer) (x : Mat 50000 64) : Mat 50000 64 :=
  bnrelu (t3 E L x) (E.mean (t3 E L x)) (E.var (t3 E L x)) L.ga L.ca
/-- The layer's output relu(bn(t₄)). -/
def step (E : Env) (L : Layer) (x : Mat 50000 64) : Mat 50000 64 :=
  bnrelu (t4 E L x) (E.mean (t4 E L x)) (E.var (t4 E L x)) L.go L.co

/-- The edge perceptron's hidden layer with the endpoint rows kept apart: relu(s·A + d·B + b). -/
def hid2 {n : ℕ} (s d : Mat n 64) (a b' : Mat 64 64) (b : Vct 64) : Mat n 64 :=
  fun i => max (mm s a i + mm d b' i + b (ix1 (n := 64) (i 1))) zero

/-- The same hidden layer over the endpoint rows laid side by side: relu(e·W + b). -/
def hid1 {n : ℕ} (e : Mat n 128) (w : Mat 128 64) (b : Vct 64) : Mat n 64 :=
  fun i => max (affine e w b i) zero

/-- A [1, m] row read as a vector. -/
def unrow {m : ℕ} (r : Mat 1 m) : Vct m := fun j => r (ix2 (n0 := 1) (n1 := m) (0 : Fin 1) (j 0))

/-! ## Locality: an entry of each map depends on one row of the node array and one column of the parameters -/

theorem mm_congr {n n' k m : ℕ} (x : Mat n k) (x' : Mat n' k) (w w' : Mat k m)
    (i : (⟨2, ![n, m]⟩ : Shape).Idx) (i' : (⟨2, ![n', m]⟩ : Shape).Idx)
    (hx : ∀ kk : Fin k, x (ix2 (n0 := n) (n1 := k) (i 0) kk) = x' (ix2 (n0 := n') (n1 := k) (i' 0) kk))
    (hw : ∀ kk : Fin k, w (ix2 (n0 := k) (n1 := m) kk (i 1)) = w' (ix2 (n0 := k) (n1 := m) kk (i' 1))) :
    mm x w i = mm x' w' i' := by
  unfold mm
  exact Finset.sum_congr rfl fun kk _ => by rw [hx kk, hw kk]

theorem affine_congr {n n' k m : ℕ} (x : Mat n k) (x' : Mat n' k) (w w' : Mat k m) (b b' : Vct m)
    (i : (⟨2, ![n, m]⟩ : Shape).Idx) (i' : (⟨2, ![n', m]⟩ : Shape).Idx)
    (hx : ∀ kk : Fin k, x (ix2 (n0 := n) (n1 := k) (i 0) kk) = x' (ix2 (n0 := n') (n1 := k) (i' 0) kk))
    (hw : ∀ kk : Fin k, w (ix2 (n0 := k) (n1 := m) kk (i 1)) = w' (ix2 (n0 := k) (n1 := m) kk (i' 1)))
    (hb : b (ix1 (n := m) (i 1)) = b' (ix1 (n := m) (i' 1))) :
    affine x w b i = affine x' w' b' i' := by
  unfold affine
  rw [mm_congr x x' w w' i i' hx hw, hb]

theorem bnrelu_congr {n n' : ℕ} (x : Mat n 64) (x' : Mat n' 64) (mu mu' var var' g g' b b' : Vct 64)
    (i : (⟨2, ![n, 64]⟩ : Shape).Idx) (i' : (⟨2, ![n', 64]⟩ : Shape).Idx)
    (hx : x i = x' i') (hmu : mu (ix1 (n := 64) (i 1)) = mu' (ix1 (n := 64) (i' 1)))
    (hvar : var (ix1 (n := 64) (i 1)) = var' (ix1 (n := 64) (i' 1)))
    (hg : g (ix1 (n := 64) (i 1)) = g' (ix1 (n := 64) (i' 1)))
    (hb : b (ix1 (n := 64) (i 1)) = b' (ix1 (n := 64) (i' 1))) :
    bnrelu x mu var g b i = bnrelu x' mu' var' g' b' i' := by
  unfold bnrelu
  rw [hx, hmu, hvar, hg, hb]

theorem hid2_congr {n n' : ℕ} (s d : Mat n 64) (s' d' : Mat n' 64) (a a' c c' : Mat 64 64) (b b' : Vct 64)
    (i : (⟨2, ![n, 64]⟩ : Shape).Idx) (i' : (⟨2, ![n', 64]⟩ : Shape).Idx)
    (hs : ∀ kk : Fin 64, s (ix2 (n0 := n) (n1 := 64) (i 0) kk) = s' (ix2 (n0 := n') (n1 := 64) (i' 0) kk))
    (hd : ∀ kk : Fin 64, d (ix2 (n0 := n) (n1 := 64) (i 0) kk) = d' (ix2 (n0 := n') (n1 := 64) (i' 0) kk))
    (ha : ∀ kk : Fin 64, a (ix2 (n0 := 64) (n1 := 64) kk (i 1)) = a' (ix2 (n0 := 64) (n1 := 64) kk (i' 1)))
    (hc : ∀ kk : Fin 64, c (ix2 (n0 := 64) (n1 := 64) kk (i 1)) = c' (ix2 (n0 := 64) (n1 := 64) kk (i' 1)))
    (hb : b (ix1 (n := 64) (i 1)) = b' (ix1 (n := 64) (i' 1))) :
    hid2 s d a c b i = hid2 s' d' a' c' b' i' := by
  unfold hid2
  rw [mm_congr s s' a a' i i' hs ha, mm_congr d d' c c' i i' hd hc, hb]

end GinSpec

end
-- ==== Proof.KDefs.lean ====
/-
  The kernel program's intermediate arrays, named as functions of the argument arrays as launched.

  The embedded nodes; per layer the neighbour sums and the outputs of its four regions; the four score
  contributions and the running score. Each region's output is the region's one array (x·w + b, the normalise-and-
  clamp step, the edge perceptron) of the arrays it reads; the host stretches between them gather, sum, take means
  and variances and cut the stacked parameters.
-/
import proofs.«107973_j83408264888790_1_alg».proof.Proof.KHost
import proofs.«107973_j83408264888790_1_alg».proof.Proof.Spec

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (c : Dev nD)

/-- An argument array as launched. -/
abbrev A (b : Ref sig .tc) := m ((c : Thread nD τ).loc b)

/-- The embedded nodes. -/
def X0 := GinSpec.affine (n := 50000) (k := 64) (m := 64) (A m c main_arg0) (A m c main_arg3) (GinSpec.unrow (KH.rowOf (A m c main_arg4)))
/-- The neighbour sums of the layer's input. -/
def Ag0 := (KH.agg (A m c main_arg1) (A m c main_arg2) (X0 m c))
/-- Layer 0: (x + neighbours)·W₁ + b₁. -/
def T1_0 := GinSpec.affine (n := 50000) (k := 64) (m := 64) (fun i => (X0 m c) i + (Ag0 m c) i) (KH.wslice ![0, 0, 0] slices_S3x64x64_S1x64x64_0_0_0 (A m c main_arg5)) (GinSpec.unrow (KH.rowOf (KH.vslice ![0, 0] slices_S3x64_S1x64_0_0 (A m c main_arg6))))
/-- Layer 0: relu(bn(t₁))·W₂ + b₂. -/
def T3_0 := GinSpec.affine (n := 50000) (k := 64) (m := 64) (GinSpec.bnrelu (n := 50000) (T1_0 m c) (GinSpec.unrow (KH.meanRow (T1_0 m c))) (GinSpec.unrow (KH.varRow (T1_0 m c) (KH.zeroI))) (GinSpec.unrow (KH.rowOf (KH.vslice ![0, 0] slices_S3x64_S1x64_0_0 (A m c main_arg7)))) (GinSpec.unrow (KH.rowOf (KH.vslice ![0, 0] slices_S3x64_S1x64_0_0 (A m c main_arg8))))) (KH.wslice ![0, 0, 0] slices_S3x64x64_S1x64x64_0_0_0 (A m c main_arg9)) (GinSpec.unrow (KH.rowOf (KH.vslice ![0, 0] slices_S3x64_S1x64_0_0 (A m c main_arg10))))
/-- Layer 0: relu(bn(t₃)). -/
def T4_0 := GinSpec.bnrelu (n := 50000) (T3_0 m c) (GinSpec.unrow (KH.meanRow (T3_0 m c))) (GinSpec.unrow (KH.varRow (T3_0 m c) (KH.zeroI))) (GinSpec.unrow (KH.rowOf (KH.vslice ![0, 0] slices_S3x64_S1x64_0_0 (A m c main_arg11)))) (GinSpec.unrow (KH.rowOf (KH.vslice ![0, 0] slices_S3x64_S1x64_0_0 (A m c main_arg12))))
/-- Layer 0's output: relu(bn(t₄)). -/
def X1 := GinSpec.bnrelu (n := 50000) (T4_0 m c) (GinSpec.unrow (KH.meanRow (T4_0 m c))) (GinSpec.unrow (KH.varRow (T4_0 m c) (KH.zeroI))) (GinSpec.unrow (KH.rowOf (KH.vslice ![0, 0] slices_S3x64_S1x64_0_0 (A m c main_arg13)))) (GinSpec.unrow (KH.rowOf (KH.vslice ![0, 0] slices_S3x64_S1x64_0_0 (A m c main_arg14))))
/-- The neighbour sums of the layer's input. -/
def Ag1 := (KH.agg (A m c main_arg1) (A m c main_arg2) (X1 m c))
/-- Layer 1: (x + neighbours)·W₁ + b₁. -/
def T1_1 := GinSpec.affine (n := 50000) (k := 64) (m := 64) (fun i => (X1 m c) i + (Ag1 m c) i) (KH.wslice ![1, 0, 0] slices_S3x64x64_S1x64x64_1_0_0 (A m c main_arg5)) (GinSpec.unrow (KH.rowOf (KH.vslice ![1, 0] slices_S3x64_S1x64_1_0 (A m c main_arg6))))
/-- Layer 1: relu(bn(t₁))·W₂ + b₂. -/
def T3_1 := GinSpec.affine (n := 50000) (k := 64) (m := 64) (GinSpec.bnrelu (n := 50000) (T1_1 m c) (GinSpec.unrow (KH.meanRow (T1_1 m c))) (GinSpec.unrow (KH.varRow (T1_1 m c) (KH.zeroI))) (GinSpec.unrow (KH.rowOf (KH.vslice ![1, 0] slices_S3x64_S1x64_1_0 (A m c main_arg7)))) (GinSpec.unrow (KH.rowOf (KH.vslice ![1, 0] slices_S3x64_S1x64_1_0 (A m c main_arg8))))) (KH.wslice ![1, 0, 0] slices_S3x64x64_S1x64x64_1_0_0 (A m c main_arg9)) (GinSpec.unrow (KH.rowOf (KH.vslice ![1, 0] slices_S3x64_S1x64_1_0 (A m c main_arg10))))
/-- Layer 1: relu(bn(t₃)). -/
def T4_1 := GinSpec.bnrelu (n := 50000) (T3_1 m c) (GinSpec.unrow (KH.meanRow (T3_1 m c))) (GinSpec.unrow (KH.varRow (T3_1 m c) (KH.zeroI))) (GinSpec.unrow (KH.rowOf (KH.vslice ![1, 0] slices_S3x64_S1x64_1_0 (A m c main_arg11)))) (GinSpec.unrow (KH.rowOf (KH.vslice ![1, 0] slices_S3x64_S1x64_1_0 (A m c main_arg12))))
/-- Layer 1's output: relu(bn(t₄)). -/
def X2 := GinSpec.bnrelu (n := 50000) (T4_1 m c) (GinSpec.unrow (KH.meanRow (T4_1 m c))) (GinSpec.unrow (KH.varRow (T4_1 m c) (KH.zeroI))) (GinSpec.unrow (KH.rowOf (KH.vslice ![1, 0] slices_S3x64_S1x64_1_0 (A m c main_arg13)))) (GinSpec.unrow (KH.rowOf (KH.vslice ![1, 0] slices_S3x64_S1x64_1_0 (A m c main_arg14))))
/-- The neighbour sums of the layer's input. -/
def Ag2 := (KH.agg (A m c main_arg1) (A m c main_arg2) (X2 m c))
/-- Layer 2: (x + neighbours)·W₁ + b₁. -/
def T1_2 := GinSpec.affine (n := 50000) (k := 64) (m := 64) (fun i => (X2 m c) i + (Ag2 m c) i) (KH.wslice ![2, 0, 0] slices_S3x64x64_S1x64x64_2_0_0 (A m c main_arg5)) (GinSpec.unrow (KH.rowOf (KH.vslice ![2, 0] slices_S3x64_S1x64_2_0 (A m c main_arg6))))
/-- Layer 2: relu(bn(t₁))·W₂ + b₂. -/
def T3_2 := GinSpec.affine (n := 50000) (k := 64) (m := 64) (GinSpec.bnrelu (n := 50000) (T1_2 m c) (GinSpec.unrow (KH.meanRow (T1_2 m c))) (GinSpec.unrow (KH.varRow (T1_2 m c) (KH.zeroI))) (GinSpec.unrow (KH.rowOf (KH.vslice ![2, 0] slices_S3x64_S1x64_2_0 (A m c main_arg7)))) (GinSpec.unrow (KH.rowOf (KH.vslice ![2, 0] slices_S3x64_S1x64_2_0 (A m c main_arg8))))) (KH.wslice ![2, 0, 0] slices_S3x64x64_S1x64x64_2_0_0 (A m c main_arg9)) (GinSpec.unrow (KH.rowOf (KH.vslice ![2, 0] slices_S3x64_S1x64_2_0 (A m c main_arg10))))
/-- Layer 2: relu(bn(t₃)). -/
def T4_2 := GinSpec.bnrelu (n := 50000) (T3_2 m c) (GinSpec.unrow (KH.meanRow (T3_2 m c))) (GinSpec.unrow (KH.varRow (T3_2 m c) (KH.zeroI))) (GinSpec.unrow (KH.rowOf (KH.vslice ![2, 0] slices_S3x64_S1x64_2_0 (A m c main_arg11)))) (GinSpec.unrow (KH.rowOf (KH.vslice ![2, 0] slices_S3x64_S1x64_2_0 (A m c main_arg12))))
/-- Layer 2's output: relu(bn(t₄)). -/
def X3 := GinSpec.bnrelu (n := 50000) (T4_2 m c) (GinSpec.unrow (KH.meanRow (T4_2 m c))) (GinSpec.unrow (KH.varRow (T4_2 m c) (KH.zeroI))) (GinSpec.unrow (KH.rowOf (KH.vslice ![2, 0] slices_S3x64_S1x64_2_0 (A m c main_arg13)))) (GinSpec.unrow (KH.rowOf (KH.vslice ![2, 0] slices_S3x64_S1x64_2_0 (A m c main_arg14))))
/-- The score contribution of node array 0. -/
def Ctr0 := GinSpec.affine (n := 800000) (k := 64) (m := 2) (GinSpec.hid2 (n := 800000) (KH.gat (A m c main_arg1) (X0 m c)) (KH.gat (A m c main_arg2) (X0 m c)) (KH.pw1 ![0, 0, 0] slices_S4x128x64_S1x64x64_0_0_0 (A m c main_arg15)) (KH.pw1 ![0, 64, 0] slices_S4x128x64_S1x64x64_0_64_0 (A m c main_arg15)) (GinSpec.unrow (KH.rowOf (KH.pvec ![0, 0] slices_S4x64_S1x64_0_0 (A m c main_arg16))))) (KH.pw2 ![0, 0, 0] slices_S4x64x2_S1x64x2_0_0_0 (A m c main_arg17)) (GinSpec.unrow (KH.rowOf2 (KH.pvec2 ![0, 0] slices_S4x2_S1x2_0_0 (A m c main_arg18))))
/-- The score so far. -/
def Sc0 := (addf (F := Ideal) (φ := .f32) (KH.zerosE) (Ctr0 m c))
/-- The score contribution of node array 1. -/
def Ctr1 := GinSpec.affine (n := 800000) (k := 64) (m := 2) (GinSpec.hid2 (n := 800000) (KH.gat (A m c main_arg1) (X1 m c)) (KH.gat (A m c main_arg2) (X1 m c)) (KH.pw1 ![1, 0, 0] slices_S4x128x64_S1x64x64_1_0_0 (A m c main_arg15)) (KH.pw1 ![1, 64, 0] slices_S4x128x64_S1x64x64_1_64_0 (A m c main_arg15)) (GinSpec.unrow (KH.rowOf (KH.pvec ![1, 0] slices_S4x64_S1x64_1_0 (A m c main_arg16))))) (KH.pw2 ![1, 0, 0] slices_S4x64x2_S1x64x2_1_0_0 (A m c main_arg17)) (GinSpec.unrow (KH.rowOf2 (KH.pvec2 ![1, 0] slices_S4x2_S1x2_1_0 (A m c main_arg18))))
/-- The score so far. -/
def Sc1 := (addf (F := Ideal) (φ := .f32) (Sc0 m c) (Ctr1 m c))
/-- The score contribution of node array 2. -/
def Ctr2 := GinSpec.affine (n := 800000) (k := 64) (m := 2) (GinSpec.hid2 (n := 800000) (KH.gat (A m c main_arg1) (X2 m c)) (KH.gat (A m c main_arg2) (X2 m c)) (KH.pw1 ![2, 0, 0] slices_S4x128x64_S1x64x64_2_0_0 (A m c main_arg15)) (KH.pw1 ![2, 64, 0] slices_S4x128x64_S1x64x64_2_64_0 (A m c main_arg15)) (GinSpec.unrow (KH.rowOf (KH.pvec ![2, 0] slices_S4x64_S1x64_2_0 (A m c main_arg16))))) (KH.pw2 ![2, 0, 0] slices_S4x64x2_S1x64x2_2_0_0 (A m c main_arg17)) (GinSpec.unrow (KH.rowOf2 (KH.pvec2 ![2, 0] slices_S4x2_S1x2_2_0 (A m c main_arg18))))
/-- The score so far. -/
def Sc2 := (addf (F := Ideal) (φ := .f32) (Sc1 m c) (Ctr2 m c))
/-- The score contribution of node array 3. -/
def Ctr3 := GinSpec.affine (n := 800000) (k := 64) (m := 2) (GinSpec.hid2 (n := 800000) (KH.gat (A m c main_arg1) (X3 m c)) (KH.gat (A m c main_arg2) (X3 m c)) (KH.pw1 ![3, 0, 0] slices_S4x128x64_S1x64x64_3_0_0 (A m c main_arg15)) (KH.pw1 ![3, 64, 0] slices_S4x128x64_S1x64x64_3_64_0 (A m c main_arg15)) (GinSpec.unrow (KH.rowOf (KH.pvec ![3, 0] slices_S4x64_S1x64_3_0 (A m c main_arg16))))) (KH.pw2 ![3, 0, 0] slices_S4x64x2_S1x64x2_3_0_0 (A m c main_arg17)) (GinSpec.unrow (KH.rowOf2 (KH.pvec2 ![3, 0] slices_S4x2_S1x2_3_0 (A m c main_arg18))))
/-- The score so far. -/
def Sc3 := (addf (F := Ideal) (φ := .f32) (Sc2 m c) (Ctr3 m c))

end Cert.KernelIdeal.Chain

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibHostDotIdx.lean ====
/-
  A host product of two matrices at exact arithmetic, read at an entry: the sum over the contracted axis of the
  products of the left factor's row entries with the right factor's column entries. Stated for any contraction
  record between two-axis shapes whose operand indices are "row of the result, contracted position" and
  "contracted position, column of the result" — the same reading the TensorCore product has, so that the two
  meet in one sum.
-/
import Idealize.ShloMosaic.Lib.ValueIdx
import Idealize.ShloMosaic.PureOps.Ideal.Laws

noncomputable section

namespace LibHostDotIdx

open Idealize.ShloMosaic Idealize.ShloMosaic.ValueIdx

/-- The host's `dot_general` of an M×K by a K×N matrix, at entry `j`: Σ_k l[j₀,k] · r[k,j₁]. -/
theorem hostDot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j
      = ∑ k : Fin K, l (ix2 (n0 := M) (n1 := K) (j 0) k) * r (ix2 (n0 := K) (n1 := N) k (j 1)) := by
  simp only [Host.dotGeneral]
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibHostDotIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibDenseLayer.lean ====
/-
  One dense layer in the two programs' spellings, at exact arithmetic.

  A product of an M×K by a K×N matrix, whether the TensorCore's (into a zero accumulator, operands narrowed to bf16, which
  is the identity on extended reals) or the host's, is at entry (p, q) the sum over k of l[p,k] · r[k,q]. A bias vector
  [N] laid out as the row [1, N] and repeated down the M rows reads b[q] at (p, q) in either spelling. So a layer
  "product, plus bias" and its clamp below at 0 are the same array in both programs.
-/
import Idealize.ShloMosaic.Lib.ValueIdx
import Idealize.ShloMosaic.Lib.Pipeline.Value
import Idealize.ShloMosaic.PureOps.Ideal.Laws
import proofs.«107973_j83408264888790_1_alg».proof.Proof.LibMatmulIdx
import proofs.«107973_j83408264888790_1_alg».proof.Proof.LibHostDotIdx
import proofs.«107973_j83408264888790_1_alg».proof.Proof.LibRowOps

noncomputable section

namespace LibDenseLayer

open Idealize.ShloMosaic Idealize.ShloMosaic.ValueIdx

/-- The contraction record of a plain matrix product: left axis 1 against right axis 0, no batch axes. -/
abbrev mmDims (M K N : ℕ)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : ℕ} (wf : DotDims.WF ⟨2, ![M, K]⟩ ⟨2, ![K, N]⟩ ⟨2, ![M, N]⟩ [1] [0] [0] [1] [] [])

theorem mm_l0 (j : (⟨2, ![M, N]⟩ : Shape).Idx) (k : (mmDims M K N wf).contr.Idx) :
    ((mmDims M K N wf).lhsIdx j k 0).val = (j 0).val := by
  unfold DotDims.lhsIdx
  rw [dif_neg (show ¬(0 : Fin 2) ∈ (mmDims M K N wf).lhsBatch from List.not_mem_nil),
    dif_pos (show (0 : Fin 2) ∈ (mmDims M K N wf).lhsNonContracting from List.mem_singleton.mpr rfl)]
  rfl

theorem mm_l1 (j : (⟨2, ![M, N]⟩ : Shape).Idx) (k : (mmDims M K N wf).contr.Idx) :
    ((mmDims M K N wf).lhsIdx j k 1).val = (k ⟨0, (Nat.zero_lt_one : 0 < 1)⟩).val :=
  (mmDims M K N wf).lhsIdx_val_of_single rfl j k

theorem mm_r0 (j : (⟨2, ![M, N]⟩ : Shape).Idx) (k : (mmDims M K N wf).contr.Idx) :
    ((mmDims M K N wf).rhsIdx j k 0).val = (k ⟨0, (Nat.zero_lt_one : 0 < 1)⟩).val :=
  (mmDims M K N wf).rhsIdx_val_of_single rfl j k

theorem mm_r1 (j : (⟨2, ![M, N]⟩ : Shape).Idx) (k : (mmDims M K N wf).contr.Idx) :
    ((mmDims M K N wf).rhsIdx j k 1).val = (j 1).val := by
  unfold DotDims.rhsIdx
  rw [dif_neg (show ¬(1 : Fin 2) ∈ (mmDims M K N wf).rhsBatch from List.not_mem_nil),
    dif_pos (show (1 : Fin 2) ∈ (mmDims M K N wf).rhsNonContracting from List.mem_singleton.mpr rfl)]
  rfl

/-- The TensorCore product into a zero accumulator at an entry. -/
theorem tc_apply {φ₁ φ₂ : FTy} (l : FVec Ideal ⟨2, ![M, K]⟩ φ₁) (r : FVec Ideal ⟨2, ![K, N]⟩ φ₂)
    (j : (⟨2, ![M, N]⟩ : Shape).Idx) :
    FloatOps.matmul (F := Ideal) (mmDims M K N wf) none l r (constant ⟨2, ![M, N]⟩ .f32 0x00000000#32) j
      = ∑ k : Fin K, l (ix2 (n0 := M) (n1 := K) (j 0) k) * r (ix2 (n0 := K) (n1 := N) k (j 1)) :=
  LibMatmulIdx.matmul2_apply (mmDims M K N wf) rfl rfl (mm_l0 wf) (mm_l1 wf) (mm_r0 wf) (mm_r1 wf) none l r j

/-- The host product at an entry. -/
theorem host_apply {φ₁ φ₂ : FTy} (l : FVec Ideal ⟨2, ![M, K]⟩ φ₁) (r : FVec Ideal ⟨2, ![K, N]⟩ φ₂)
    (j : (⟨2, ![M, N]⟩ : Shape).Idx) :
    Host.dotGeneral (F := Ideal) (mmDims M K N wf) none l r j
      = ∑ k : Fin K, l (ix2 (n0 := M) (n1 := K) (j 0) k) * r (ix2 (n0 := K) (n1 := N) k (j 1)) :=
  LibHostDotIdx.hostDot2_apply (mmDims M K N wf) rfl rfl (mm_l0 wf) (mm_l1 wf) (mm_r0 wf) (mm_r1 wf) none l r j

/-- The two products of the same operands are one array (narrowing an operand to bf16 is the identity). -/
theorem tc_eq_host (wf' : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) (hb : FTy.bits .bf16 < FTy.bits .f32) :
    FloatOps.matmul (F := Ideal) (mmDims M K N wf) none (truncf .bf16 l hb) (truncf .bf16 r hb)
        (constant ⟨2, ![M, N]⟩ .f32 0x00000000#32)
      = Host.dotGeneral (F := Ideal) (mmDims M K N wf') none l r := by
  funext j
  rw [tc_apply, host_apply]
  rfl
end

/-- A bias [n] as the row [1, n] repeated down [m, n], in the host's spelling, at an entry. -/
theorem bias_host_apply {α : Type} {m n : ℕ}
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (i : (⟨2, ![m, n]⟩ : Shape).Idx) :
    broadcastInDim ⟨2, ![m, n]⟩ ![0, 1] h2 (broadcastInDim ⟨2, ![1, n]⟩ ![1] h1 y) i = y (ix1 (n := n) (i 1)) := by
  have hi1 : (i 1).val < n := idx2_lt1 i
  refine (broadcastInDim_apply ![0, 1] h2 _ i (ix2 (n0 := 1) (n1 := n) (0 : Fin 1) (i 1)) (fun a => ?_)).trans
    (broadcastInDim_apply ![1] h1 y _ (ix1 (n := n) (i 1)) (fun a => ?_))
  · match a with
    | ⟨0, _⟩ => show (0 : ℕ) = if (1 : ℕ) = 1 then 0 else (i 0).val; rw [if_pos rfl]
    | ⟨1, _⟩ => show (i 1).val = if n = 1 then 0 else (i 1).val; split <;> omega
  · match a with
    | ⟨0, _⟩ => show (i 1).val = if n = 1 then 0 else (i 1).val; split <;> omega

/-- The same bias in the kernel's spelling: the vector cast to the row [1, n], re-cast to itself, broadcast to [m, n]. -/
theorem bias_kernel_apply {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (y : (⟨1, ![n]⟩ : Shape).Idx → α) (i : (⟨2, ![m, n]⟩ : Shape).Idx) :
    broadcastTo ⟨2, ![m, n]⟩ (shapeCast ⟨2, ![1, n]⟩ (shapeCast ⟨2, ![1, n]⟩ y hc) hs) hb i = y (ix1 (n := n) (i 1)) := by
  rw [shapeCast_self]
  obtain ⟨p, q, rfl⟩ : ∃ (p : Fin m) (q : Fin n), i = ix2 p q := ⟨i 0, i 1, eq_ix2 i⟩
  rw [LibRowOps.broadcastTo_row_apply, LibRowOps.shapeCast_row_apply]
  rfl

/-- The bias row is the same array in both spellings. -/
theorem bias_eq {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) :
    broadcastTo ⟨2, ![m, n]⟩ (shapeCast ⟨2, ![1, n]⟩ (shapeCast ⟨2, ![1, n]⟩ y hc) hs) hb
      = broadcastInDim ⟨2, ![m, n]⟩ ![0, 1] h2 (broadcastInDim ⟨2, ![1, n]⟩ ![1] h1 y) :=
  funext fun i => (bias_kernel_apply hc hs hb y i).trans (bias_host_apply h1 h2 y i).symm

/-- A scalar word splat over a shape is the same array whether splat in a kernel or broadcast from a rank-0 constant. -/
theorem splat_eq {s : Shape} (h : (⟨0, ![]⟩ : Shape).BroadcastsInDim s ![]) (w : BitVec 32) :
    (broadcast s (Scalar.ofBits (F := Ideal) .f32 w) : FVec Ideal s .f32)
      = broadcastInDim s ![] h (constant (F := Ideal) ⟨0, ![]⟩ .f32 w) :=
  funext fun i =>
    (show (broadcast s (Scalar.ofBits (F := Ideal) .f32 w) : FVec Ideal s .f32) i
        = constant (F := Ideal) ⟨0, ![]⟩ .f32 w ix0 from rfl).trans
      (broadcastInDim_apply ![] h (constant (F := Ideal) ⟨0, ![]⟩ .f32 w) i ix0 (fun a => a.elim0)).symm

end LibDenseLayer

end
-- ==== Proof.KPay.lean ====
/-
  The region bodies' arithmetic at an entry, for any number of rows.

  Each body works on a block of rows and on parameters that are whole small arrays. At entry (p, q) of the block:
  a product into a zero accumulator plus a bias row is the row-p-by-column-q sum plus the bias entry q; the
  normalise-scale-shift-clamp step reads the block at (p, q) and each parameter row at q.
-/
import proofs.«107973_j83408264888790_1_alg».proof.Proof.LibDenseLayer
import proofs.«107973_j83408264888790_1_alg».proof.Proof.Spec
import Idealize.ShloMosaic.Lib.ValueIdx
import Idealize.ShloMosaic.Lib.Pipeline.Value

noncomputable section

namespace GinPay

open Idealize.ShloMosaic Idealize.ShloMosaic.ValueIdx

/-- Product into a zero accumulator (operands narrowed, which is the identity here) plus a bias row, at an entry. -/
theorem mmrow_apply {n k m : ℕ} (wf : DotDims.WF ⟨2, ![n, k]⟩ ⟨2, ![k, m]⟩ ⟨2, ![n, m]⟩ [1] [0] [0] [1] [] [])
    (hb : (⟨2, ![1, m]⟩ : Shape).Broadcasts ⟨2, ![n, m]⟩) (hlt : FTy.bits .bf16 < FTy.bits .f32)
    (l : FVec Ideal ⟨2, ![n, k]⟩ .f32) (r : FVec Ideal ⟨2, ![k, m]⟩ .f32) (b : FVec Ideal ⟨2, ![1, m]⟩ .f32)
    (p : Fin n) (q : Fin m) :
    addf (FloatOps.matmul (F := Ideal) (LibDenseLayer.mmDims n k m wf) none (truncf .bf16 l hlt) (truncf .bf16 r hlt)
        (constant ⟨2, ![n, m]⟩ .f32 0x00000000#32)) (broadcastTo ⟨2, ![n, m]⟩ b hb) (ix2 p q)
      = GinSpec.affine (n := n) (k := k) (m := m) l r (GinSpec.unrow b) (ix2 p q) := by
  show FloatOps.matmul (F := Ideal) (LibDenseLayer.mmDims n k m wf) none (truncf .bf16 l hlt) (truncf .bf16 r hlt)
        (constant ⟨2, ![n, m]⟩ .f32 0x00000000#32) (ix2 p q) + broadcastTo ⟨2, ![n, m]⟩ b hb (ix2 p q) = _
  rw [LibRowOps.broadcastTo_row_apply, LibDenseLayer.tc_apply]
  rfl

/-- The product alone, at an entry. -/
theorem mm_apply {n k m : ℕ} (wf : DotDims.WF ⟨2, ![n, k]⟩ ⟨2, ![k, m]⟩ ⟨2, ![n, m]⟩ [1] [0] [0] [1] [] [])
    (hlt : FTy.bits .bf16 < FTy.bits .f32)
    (l : FVec Ideal ⟨2, ![n, k]⟩ .f32) (r : FVec Ideal ⟨2, ![k, m]⟩ .f32) (p : Fin n) (q : Fin m) :
    FloatOps.matmul (F := Ideal) (LibDenseLayer.mmDims n k m wf) none (truncf .bf16 l hlt) (truncf .bf16 r hlt)
        (constant ⟨2, ![n, m]⟩ .f32 0x00000000#32) (ix2 p q)
      = GinSpec.mm (n := n) (k := k) (m := m) l r (ix2 p q) := by
  rw [LibDenseLayer.tc_apply]
  rfl

/-- Normalise, scale, shift, clamp below at 0: the block at (p, q), each parameter row at q. -/
theorem bn_apply {n : ℕ} (hb : (⟨2, ![1, 64]⟩ : Shape).Broadcasts ⟨2, ![n, 64]⟩)
    (x : FVec Ideal ⟨2, ![n, 64]⟩ .f32) (mu var g b : FVec Ideal ⟨2, ![1, 64]⟩ .f32) (p : Fin n) (q : Fin 64) :
    maximumf (addf (mulf (mulf (broadcastTo ⟨2, ![n, 64]⟩ g hb) (subf x (broadcastTo ⟨2, ![n, 64]⟩ mu hb)))
        (broadcastTo ⟨2, ![n, 64]⟩ (rsqrt (addf var (broadcast ⟨2, ![1, 64]⟩ (Scalar.ofBits (F := Ideal) .f32 0x3727C5AC#32)))) hb))
        (broadcastTo ⟨2, ![n, 64]⟩ b hb)) (broadcast ⟨2, ![n, 64]⟩ (Scalar.ofBits (F := Ideal) .f32 0x00000000#32)) (ix2 p q)
      = GinSpec.bnrelu (n := n) x (GinSpec.unrow mu) (GinSpec.unrow var) (GinSpec.unrow g) (GinSpec.unrow b) (ix2 p q) := by
  show max (broadcastTo ⟨2, ![n, 64]⟩ g hb (ix2 p q) * (x (ix2 p q) - broadcastTo ⟨2, ![n, 64]⟩ mu hb (ix2 p q))
      * broadcastTo ⟨2, ![n, 64]⟩ (rsqrt (addf var (broadcast ⟨2, ![1, 64]⟩ (Scalar.ofBits (F := Ideal) .f32 0x3727C5AC#32)))) hb (ix2 p q)
      + broadcastTo ⟨2, ![n, 64]⟩ b hb (ix2 p q)) (Scalar.ofBits (F := Ideal) .f32 0x00000000#32) = _
  simp only [LibRowOps.broadcastTo_row_apply]
  rfl

/-- The edge perceptron's hidden layer on a block: two products, the bias row, the clamp, at an entry. -/
theorem hid_apply {n : ℕ} (wf : DotDims.WF ⟨2, ![n, 64]⟩ ⟨2, ![64, 64]⟩ ⟨2, ![n, 64]⟩ [1] [0] [0] [1] [] [])
    (hb : (⟨2, ![1, 64]⟩ : Shape).Broadcasts ⟨2, ![n, 64]⟩) (hlt : FTy.bits .bf16 < FTy.bits .f32)
    (s d : FVec Ideal ⟨2, ![n, 64]⟩ .f32) (a c : FVec Ideal ⟨2, ![64, 64]⟩ .f32) (b : FVec Ideal ⟨2, ![1, 64]⟩ .f32)
    (p : Fin n) (q : Fin 64) :
    maximumf (addf (addf
        (FloatOps.matmul (F := Ideal) (LibDenseLayer.mmDims n 64 64 wf) none (truncf .bf16 s hlt) (truncf .bf16 a hlt)
          (constant ⟨2, ![n, 64]⟩ .f32 0x00000000#32))
        (FloatOps.matmul (F := Ideal) (LibDenseLayer.mmDims n 64 64 wf) none (truncf .bf16 d hlt) (truncf .bf16 c hlt)
          (constant ⟨2, ![n, 64]⟩ .f32 0x00000000#32)))
        (broadcastTo ⟨2, ![n, 64]⟩ b hb)) (broadcast ⟨2, ![n, 64]⟩ (Scalar.ofBits (F := Ideal) .f32 0x00000000#32)) (ix2 p q)
      = GinSpec.hid2 (n := n) s d a c (GinSpec.unrow b) (ix2 p q) := by
  show max (FloatOps.matmul (F := Ideal) (LibDenseLayer.mmDims n 64 64 wf) none (truncf .bf16 s hlt) (truncf .bf16 a hlt)
          (constant ⟨2, ![n, 64]⟩ .f32 0x00000000#32) (ix2 p q)
        + FloatOps.matmul (F := Ideal) (LibDenseLayer.mmDims n 64 64 wf) none (truncf .bf16 d hlt) (truncf .bf16 c hlt)
          (constant ⟨2, ![n, 64]⟩ .f32 0x00000000#32) (ix2 p q)
        + broadcastTo ⟨2, ![n, 64]⟩ b hb (ix2 p q)) (Scalar.ofBits (F := Ideal) .f32 0x00000000#32) = _
  rw [LibRowOps.broadcastTo_row_apply, mm_apply, mm_apply]
  rfl

end GinPay

end
-- ==== Proof.KReg0.lean ====
/-
  What the embedding region leaves in its output array: x·w + b.

  The region tiles the 50000 node rows in 5 blocks of 10000; at each block it forms the product of the block with the
  weight matrix and adds the bias row. Entry (r, q) depends only on row r of the nodes, so the written blocks are
  the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S64x64 .f32) (x2 : Vec Ideal S1x64 .f32) :
    k0_pay1 x0 x1 x2 = GinSpec.affine (n := 10000) (k := 64) (m := 64) x0 x1 (GinSpec.unrow x2) := by
  funext j
  obtain ⟨p, q, rfl⟩ : ∃ (p : Fin 10000) (q : Fin 64), j = ix2 p q := ⟨j 0, j 1, eq_ix2 j⟩
  unfold k0_pay1
  simp only [shapeCast_self]
  exact GinPay.mmrow_apply dot_S10000x64_S64x64_S10000x64_1_0_0_1_n_n_wf _ _ x0 x1 x2 p q

/-- The printed index maps over the grid: the row-tiled windows move down the rows with the point, the parameters stay. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the one array, of the arrays as the region finds them. -/
theorem flushed_eq (c : Dev nD) (t : Fin cfg0.N) :
    (dat0 V c).flushed 3 t = ((cfg0.win 3).blk t).view.read (Elt Ideal)
      (GinSpec.affine (n := 50000) (k := 64) (m := 64) (V c main_arg0) (V c main_arg3) (GinSpec.unrow (V c main_v0))) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  rw [pay_eq]
  obtain ⟨e0, e1, e2, e3, e4, e5, e6, e7⟩ := idx_facts t
  funext j
  show GinSpec.affine (n := 10000) (k := 64) (m := 64) (fun y => V c main_arg0 (((cfg0.win 0).blk t).view.emb y)) (fun y => V c main_arg3 (((cfg0.win 1).blk t).view.emb y)) (GinSpec.unrow (fun y => V c main_v0 (((cfg0.win 2).blk t).view.emb y))) j
      = GinSpec.affine (n := 50000) (k := 64) (m := 64) (V c main_arg0) (V c main_arg3) (GinSpec.unrow (V c main_v0))
        (((cfg0.win 3).blk t).view.emb j)
  have hj0 : (j 0).val < 10000 := (j 0).isLt
  have hj1 : (j 1).val < 64 := (j 1).isLt
  refine GinSpec.affine_congr _ _ _ _ _ _ _ _ (fun kk => ?_) (fun kk => ?_) ?_
  · refine congrArg (V c main_arg0) (funext fun a => Fin.ext ?_)
    match a with
    | ⟨0, _⟩ => have hkk := kk.isLt; show win0_0.index t (0 : Fin 2) * 10000 + 1 * (j 0).val = win0_3.index t (0 : Fin 2) * 10000 + 1 * (j 0).val; omega
    | ⟨1, _⟩ => have hkk := kk.isLt; show win0_0.index t (1 : Fin 2) * 64 + 1 * kk.val = kk.val; omega
  · refine congrArg (V c main_arg3) (funext fun a => Fin.ext ?_)
    match a with
    | ⟨0, _⟩ => have hkk := kk.isLt; show win0_1.index t (0 : Fin 2) * 64 + 1 * kk.val = kk.val; omega
    | ⟨1, _⟩ => have hkk := kk.isLt; show win0_1.index t (1 : Fin 2) * 64 + 1 * (j 1).val = win0_3.index t (1 : Fin 2) * 64 + 1 * (j 1).val; omega
  · refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point t's block iff each coordinate is in the block's range. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Every row lies in the block of the point numbered by its row divided by the block height. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  have ht : (i 0).val / 10000 < cfg0.N := by rw [hN]; omega
  refine ⟨⟨(i 0).val / 10000, ht⟩, flush0_3 _, ?_⟩
  rw [mem_blk]
  obtain ⟨e0, e1, e2, e3, e4, e5, e6, e7⟩ := idx_facts ⟨(i 0).val / 10000, ht⟩
  intro a
  match a with
  | ⟨0, _⟩ =>
    show win0_3.index _ (0 : Fin 2) * 10000 ≤ (i 0).val ∧ (i 0).val < win0_3.index _ (0 : Fin 2) * 10000 + 10000
    rw [e6]
    show (i 0).val / 10000 * 10000 ≤ (i 0).val ∧ (i 0).val < (i 0).val / 10000 * 10000 + 10000
    omega
  | ⟨1, _⟩ =>
    show win0_3.index _ (1 : Fin 2) * 64 ≤ (i 1).val ∧ (i 1).val < win0_3.index _ (1 : Fin 2) * 64 + 64
    rw [e7]
    omega

/-- The output array after the region, of the arrays as the region finds them. -/
theorem final (c : Dev nD) : (dat0 V c).arrAt 3 cfg0.N
    = GinSpec.affine (n := 50000) (k := 64) (m := 64) (V c main_arg0) (V c main_arg3) (GinSpec.unrow (V c main_v0)) :=
  (dat0 V c).arrAt_eq_of_cover 3 _ (fun t _ => flushed_eq V c t) cover

end Cert.KernelIdeal.Reg0

end
-- ==== Proof.KReg1.lean ====
/-
  What a layer's first dense region leaves in its output array: (x + a)·w + b.

  The node rows are tiled in 5 blocks of 10000; at each block the body adds the neighbour sums to the nodes, forms the
  product with the weight matrix and adds the bias row. Entry (r, q) depends only on row r, so the written blocks
  are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The entrywise sum of two arrays. -/
def add2 {n : ℕ} (x y : GinSpec.Mat n 64) : GinSpec.Mat n 64 := fun i => x i + y i

theorem hz : (![0, 0] : Fin 2 → Nat) = fun _ => 0 := funext fun a => by fin_cases a <;> rfl

/-- The body's payload on a block, entry by entry. -/
theorem pay_eq (x0 : Vec Ideal S10000x64 .f32) (x1 : Vec Ideal S10000x64 .f32) (x2 : Vec Ideal S64x64 .f32) (x3 : Vec Ideal S1x64 .f32) :
    k1_pay1 x0 x1 x2 x3 = GinSpec.affine (n := 10000) (k := 64) (m := 64) (add2 (n := 10000) x0 x1) x2 (GinSpec.unrow x3) := by
  funext j
  obtain ⟨p, q, rfl⟩ : ∃ (p : Fin 10000) (q : Fin 64), j = ix2 p q := ⟨j 0, j 1, eq_ix2 j⟩
  unfold k1_pay1
  simp only [shapeCast_self]
  exact GinPay.mmrow_apply dot_S10000x64_S64x64_S10000x64_1_0_0_1_n_n_wf _ _ (addf x0 x1) x2 x3 p q

/-- The printed index maps over the grid: the row-tiled windows move down the rows with the point, the parameters stay. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What point t writes back is block t of the one array, of the arrays as the region finds them. -/
theorem flushed_eq (c : Dev nD) (t : Fin cfg1.N) :
    (dat1 V c).flushed 4 t = ((cfg1.win 4).blk t).view.read (Elt Ideal)
      (GinSpec.affine (n := 50000) (k := 64) (m := 64) (add2 (n := 50000) (V c main_v1) (V c main_v11)) (V c main_v13) (GinSpec.unrow (V c main_v16))) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz, View.ld_unit_zero (S := S1x64) hz]
  rw [pay_eq]
  obtain ⟨e0, e1, e2, e3, e4, e5, e6, e7, e8, e9⟩ := idx_facts t
  funext j
  show GinSpec.affine (n := 10000) (k := 64) (m := 64) (add2 (n := 10000) (fun y => V c main_v1 (((cfg1.win 0).blk t).view.emb y)) (fun y => V c main_v11 (((cfg1.win 1).blk t).view.emb y))) (fun y => V c main_v13 (((cfg1.win 2).blk t).view.emb y)) (GinSpec.unrow (fun y => V c main_v16 (((cfg1.win 3).blk t).view.emb y))) j
      = GinSpec.affine (n := 50000) (k := 64) (m := 64) (add2 (n := 50000) (V c main_v1) (V c main_v11)) (V c main_v13) (GinSpec.unrow (V c main_v16))
        (((cfg1.win 4).blk t).view.emb j)
  have hj0 : (j 0).val < 10000 := (j 0).isLt
  have hj1 : (j 1).val < 64 := (j 1).isLt
  refine GinSpec.affine_congr _ _ _ _ _ _ _ _ (fun kk => ?_) (fun kk => ?_) ?_
  · unfold add2
    refine congrArg₂ (· + ·) ?_ ?_
    · refine congrArg (V c main_v1) (funext fun a => Fin.ext ?_)
      match a with
      | ⟨0, _⟩ => have hkk := kk.isLt; show win1_0.index t (0 : Fin 2) * 10000 + 1 * (j 0).val = win1_4.index t (0 : Fin 2) * 10000 + 1 * (j 0).val; omega
      | ⟨1, _⟩ => have hkk := kk.isLt; show win1_0.index t (1 : Fin 2) * 64 + 1 * kk.val = kk.val; omega
    · refine congrArg (V c main_v11) (funext fun a => Fin.ext ?_)
      match a with
      | ⟨0, _⟩ => have hkk := kk.isLt; show win1_1.index t (0 : Fin 2) * 10000 + 1 * (j 0).val = win1_4.index t (0 : Fin 2) * 10000 + 1 * (j 0).val; omega
      | ⟨1, _⟩ => have hkk := kk.isLt; show win1_1.index t (1 : Fin 2) * 64 + 1 * kk.val = kk.val; omega
  · refine congrArg (V c main_v13) (funext fun a => Fin.ext ?_)
    match a with
    | ⟨0, _⟩ => have hkk := kk.isLt; show win1_2.index t (0 : Fin 2) * 64 + 1 * kk.val = kk.val; omega
    | ⟨1, _⟩ => have hkk := kk.isLt; show win1_2.index t (1 : Fin 2) * 64 + 1 * (j 1).val = win1_4.index t (1 : Fin 2) * 64 + 1 * (j 1).val; omega
  · refine congrArg (V c main_v16) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

/-- An index of the output array is in point t's block iff each coordinate is in the block's range. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v17).slice (win1_4.rect t)).set ↔ _
  rw [View.set_slice_whole, Rect.mem_set_unit]
  exact Iff.rfl

/-- Every row lies in the block of the point numbered by its row divided by the block height. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  have ht : (i 0).val / 10000 < cfg1.N := by rw [hN]; omega
  refine ⟨⟨(i 0).val / 10000, ht⟩, flush1_4 _, ?_⟩
  rw [mem_blk]
  obtain ⟨e0, e1, e2, e3, e4, e5, e6, e7, e8, e9⟩ := idx_facts ⟨(i 0).val / 10000, ht⟩
  intro a
  match a with
  | ⟨0, _⟩ =>
    show win1_4.index _ (0 : Fin 2) * 10000 ≤ (i 0).val ∧ (i 0).val < win1_4.index _ (0 : Fin 2) * 10000 + 10000
    rw [e8]
    show (i 0).val / 10000 * 10000 ≤ (i 0).val ∧ (i 0).val < (i 0).val / 10000 * 10000 + 10000
    omega
  | ⟨1, _⟩ =>
    show win1_4.index _ (1 : Fin 2) * 64 ≤ (i 1).val ∧ (i 1).val < win1_4.index _ (1 : Fin 2) * 64 + 64
    rw [e9]
    omega

/-- The output array after the region, of the arrays as the region finds them. -/
theorem final (c : Dev nD) : (dat1 V c).arrAt 4 cfg1.N
    = GinSpec.affine (n := 50000) (k := 64) (m := 64) (add2 (n := 50000) (V c main_v1) (V c main_v11)) (V c main_v13) (GinSpec.unrow (V c main_v16)) :=
  (dat1 V c).arrAt_eq_of_cover 4 _ (fun t _ => flushed_eq V c t) cover

end Cert.KernelIdeal.Reg1

end
-- ==== Proof.KReg2.lean ====
/-
  What a layer's second dense region leaves in its output array: relu(bn(x))·w + b.

  The node rows are tiled in 5 blocks of 10000; at each block the body normalises, scales, shifts and clamps the block,
  forms the product with the weight matrix and adds the bias row. Entry (r, q) depends only on row r of the
  nodes, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) (x5 : Vec Ideal S64x64 .f32) (x6 : Vec Ideal S1x64 .f32) :
    k2_pay1 x0 x1 x2 x3 x4 x5 x6 = GinSpec.affine (n := 10000) (k := 64) (m := 64) (GinSpec.bnrelu (n := 10000) x0 (GinSpec.unrow x1) (GinSpec.unrow x2) (GinSpec.unrow x3) (GinSpec.unrow x4)) x5 (GinSpec.unrow x6) := by
  funext j
  obtain ⟨p, q, rfl⟩ : ∃ (p : Fin 10000) (q : Fin 64), j = ix2 p q := ⟨j 0, j 1, eq_ix2 j⟩
  unfold k2_pay1
  simp only [shapeCast_self]
  refine (GinPay.mmrow_apply dot_S10000x64_S64x64_S10000x64_1_0_0_1_n_n_wf _ _ _ x5 x6 p q).trans ?_
  refine GinSpec.affine_congr _ _ _ _ _ _ _ _ (fun kk => ?_) (fun kk => rfl) rfl
  exact GinPay.bn_apply _ x0 x1 x2 x3 x4 p kk

/-- The printed index maps over the grid: the row-tiled windows move down the rows with the point, the parameters stay. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- What point t writes back is block t of the one array, of the arrays as the region finds them. -/
theorem flushed_eq (c : Dev nD) (t : Fin cfg2.N) :
    (dat2 V c).flushed 7 t = ((cfg2.win 7).blk t).view.read (Elt Ideal)
      (GinSpec.affine (n := 50000) (k := 64) (m := 64) (GinSpec.bnrelu (n := 50000) (V c main_v17) (GinSpec.unrow (V c main_v21)) (GinSpec.unrow (V c main_v22)) (GinSpec.unrow (V c main_v25)) (GinSpec.unrow (V c main_v28))) (V c main_v30) (GinSpec.unrow (V c main_v33))) := by
  show (cfg2.win 7).cut (grid2.coords t) ((dat2 V c).after 7 t) = _
  rw [after2_7]
  unfold out2_7
  rw [View.canon_unit_zero hz]
  simp only [View.ld_unit_zero (S := S10000x64) hz, View.ld_unit_zero (S := S1x64) hz, View.ld_unit_zero (S := S64x64) hz]
  rw [pay_eq]
  obtain ⟨e0, e1, e2, e3, e4, e5, e6, e7, e8, e9, e10, e11, e12, e13, e14, e15⟩ := idx_facts t
  funext j
  show GinSpec.affine (n := 10000) (k := 64) (m := 64) (GinSpec.bnrelu (n := 10000) (fun y => V c main_v17 (((cfg2.win 0).blk t).view.emb y)) (GinSpec.unrow (fun y => V c main_v21 (((cfg2.win 1).blk t).view.emb y))) (GinSpec.unrow (fun y => V c main_v22 (((cfg2.win 2).blk t).view.emb y))) (GinSpec.unrow (fun y => V c main_v25 (((cfg2.win 3).blk t).view.emb y))) (GinSpec.unrow (fun y => V c main_v28 (((cfg2.win 4).blk t).view.emb y)))) (fun y => V c main_v30 (((cfg2.win 5).blk t).view.emb y)) (GinSpec.unrow (fun y => V c main_v33 (((cfg2.win 6).blk t).view.emb y))) j
      = GinSpec.affine (n := 50000) (k := 64) (m := 64) (GinSpec.bnrelu (n := 50000) (V c main_v17) (GinSpec.unrow (V c main_v21)) (GinSpec.unrow (V c main_v22)) (GinSpec.unrow (V c main_v25)) (GinSpec.unrow (V c main_v28))) (V c main_v30) (GinSpec.unrow (V c main_v33))
        (((cfg2.win 7).blk t).view.emb j)
  have hj0 : (j 0).val < 10000 := (j 0).isLt
  have hj1 : (j 1).val < 64 := (j 1).isLt
  refine GinSpec.affine_congr _ _ _ _ _ _ _ _ (fun kk => ?_) (fun kk => ?_) ?_
  · refine GinSpec.bnrelu_congr _ _ _ _ _ _ _ _ _ _ _ _ ?_ ?_ ?_ ?_ ?_
    · refine congrArg (V c main_v17) (funext fun a => Fin.ext ?_)
      match a with
      | ⟨0, _⟩ => have hkk := kk.isLt; show win2_0.index t (0 : Fin 2) * 10000 + 1 * (j 0).val = win2_7.index t (0 : Fin 2) * 10000 + 1 * (j 0).val; omega
      | ⟨1, _⟩ => have hkk := kk.isLt; show win2_0.index t (1 : Fin 2) * 64 + 1 * kk.val = kk.val; omega
    · refine congrArg (V c main_v21) (funext fun a => Fin.ext ?_)
      match a with
      | ⟨0, _⟩ => have hkk := kk.isLt; show win2_1.index t (0 : Fin 2) * 1 + 1 * 0 = 0; omega
      | ⟨1, _⟩ => have hkk := kk.isLt; show win2_1.index t (1 : Fin 2) * 64 + 1 * kk.val = kk.val; omega
    · refine congrArg (V c main_v22) (funext fun a => Fin.ext ?_)
      match a with
      | ⟨0, _⟩ => have hkk := kk.isLt; show win2_2.index t (0 : Fin 2) * 1 + 1 * 0 = 0; omega
      | ⟨1, _⟩ => have hkk := kk.isLt; show win2_2.index t (1 : Fin 2) * 64 + 1 * kk.val = kk.val; omega
    · refine congrArg (V c main_v25) (funext fun a => Fin.ext ?_)
      match a with
      | ⟨0, _⟩ => have hkk := kk.isLt; show win2_3.index t (0 : Fin 2) * 1 + 1 * 0 = 0; omega
      | ⟨1, _⟩ => have hkk := kk.isLt; show win2_3.index t (1 : Fin 2) * 64 + 1 * kk.val = kk.val; omega
    · refine congrArg (V c main_v28) (funext fun a => Fin.ext ?_)
      match a with
      | ⟨0, _⟩ => have hkk := kk.isLt; show win2_4.index t (0 : Fin 2) * 1 + 1 * 0 = 0; omega
      | ⟨1, _⟩ => have hkk := kk.isLt; show win2_4.index t (1 : Fin 2) * 64 + 1 * kk.val = kk.val; omega
  · refine congrArg (V c main_v30) (funext fun a => Fin.ext ?_)
    match a with
    | ⟨0, _⟩ => have hkk := kk.isLt; show win2_5.index t (0 : Fin 2) * 64 + 1 * kk.val = kk.val; omega
    | ⟨1, _⟩ => have hkk := kk.isLt; show win2_5.index t (1 : Fin 2) * 64 + 1 * (j 1).val = win2_7.index t (1 : Fin 2) * 64 + 1 * (j 1).val; omega
  · refine congrArg (V c main_v33) (funext fun a => Fin.ext ?_)
    match a with
    | ⟨0, _⟩ => show win2_6.index t (0 : Fin 2) * 1 + 1 * 0 = 0; omega
    | ⟨1, _⟩ => show win2_6.index t (1 : Fin 2) * 64 + 1 * (j 1).val = win2_7.index t (1 : Fin 2) * 64 + 1 * (j 1).val; omega

/-- An index of the output array is in point t's block iff each coordinate is in the block's range. -/
theorem mem_blk (t : Fin cfg2.N) (i : S50000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v34).slice (win2_7.rect t)).set ↔ _
  rw [View.set_slice_whole, Rect.mem_set_unit]
  exact Iff.rfl

/-- Every row lies in the block of the point numbered by its row divided by the block height. -/
theorem cover (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 5 := N_2
  have ht : (i 0).val / 10000 < cfg2.N := by rw [hN]; omega
  refine ⟨⟨(i 0).val / 10000, ht⟩, flush2_7 _, ?_⟩
  rw [mem_blk]
  obtain ⟨e0, e1, e2, e3, e4, e5, e6, e7, e8, e9, e10, e11, e12, e13, e14, e15⟩ := idx_facts ⟨(i 0).val / 10000, ht⟩
  intro a
  match a with
  | ⟨0, _⟩ =>
    show win2_7.index _ (0 : Fin 2) * 10000 ≤ (i 0).val ∧ (i 0).val < win2_7.index _ (0 : Fin 2) * 10000 + 10000
    rw [e14]
    show (i 0).val / 10000 * 10000 ≤ (i 0).val ∧ (i 0).val < (i 0).val / 10000 * 10000 + 10000
    omega
  | ⟨1, _⟩ =>
    show win2_7.index _ (1 : Fin 2) * 64 ≤ (i 1).val ∧ (i 1).val < win2_7.index _ (1 : Fin 2) * 64 + 64
    rw [e15]
    omega

/-- The output array after the region, of the arrays as the region finds them. -/
theorem final (c : Dev nD) : (dat2 V c).arrAt 7 cfg2.N
    = GinSpec.affine (n := 50000) (k := 64) (m := 64) (GinSpec.bnrelu (n := 50000) (V c main_v17) (GinSpec.unrow (V c main_v21)) (GinSpec.unrow (V c main_v22)) (GinSpec.unrow (V c main_v25)) (GinSpec.unrow (V c main_v28))) (V c main_v30) (GinSpec.unrow (V c main_v33)) :=
  (dat2 V c).arrAt_eq_of_cover 7 _ (fun t _ => flushed_eq V c t) cover

end Cert.KernelIdeal.Reg2

end
-- ==== Proof.KReg3.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k3_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k3_pay1
  simp only [shapeCast_self]
  exact GinPay.bn_apply _ x0 x1 x2 x3 x4 p q

/-- The printed index maps over the grid: the row-tiled windows move down the rows with the point, the parameters stay. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- What point t writes back is block t of the one array, of the arrays as the region finds them. -/
theorem flushed_eq (c : Dev nD) (t : Fin cfg3.N) :
    (dat3 V c).flushed 5 t = ((cfg3.win 5).blk t).view.read (Elt Ideal)
      (GinSpec.bnrelu (n := 50000) (V c main_v34) (GinSpec.unrow (V c main_v38)) (GinSpec.unrow (V c main_v39)) (GinSpec.unrow (V c main_v42)) (GinSpec.unrow (V c main_v45))) := by
  show (cfg3.win 5).cut (grid3.coords t) ((dat3 V c).after 5 t) = _
  rw [after3_5]
  unfold out3_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v34 (((cfg3.win 0).blk t).view.emb y)) (GinSpec.unrow (fun y => V c main_v38 (((cfg3.win 1).blk t).view.emb y))) (GinSpec.unrow (fun y => V c main_v39 (((cfg3.win 2).blk t).view.emb y))) (GinSpec.unrow (fun y => V c main_v42 (((cfg3.win 3).blk t).view.emb y))) (GinSpec.unrow (fun y => V c main_v45 (((cfg3.win 4).blk t).view.emb y))) j
      = GinSpec.bnrelu (n := 50000) (V c main_v34) (GinSpec.unrow (V c main_v38)) (GinSpec.unrow (V c main_v39)) (GinSpec.unrow (V c main_v42)) (GinSpec.unrow (V c main_v45))
        (((cfg3.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v34) (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * (j 1).val = win3_5.index t (1 : Fin 2) * 64 + 1 * (j 1).val; omega
  · refine congrArg (V c main_v38) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_5.index t (1 : Fin 2) * 64 + 1 * (j 1).val; omega
  · refine congrArg (V c main_v39) (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_5.index t (1 : Fin 2) * 64 + 1 * (j 1).val; omega
  · refine congrArg (V c main_v42) (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega
  · refine congrArg (V c main_v45) (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

/-- An index of the output array is in point t's block iff each coordinate is in the block's range. -/
theorem mem_blk (t : Fin cfg3.N) (i : S50000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v46).slice (win3_5.rect t)).set ↔ _
  rw [View.set_slice_whole, Rect.mem_set_unit]
  exact Iff.rfl

/-- Every row lies in the block of the point numbered by its row divided by the block height. -/
theorem cover (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 5 := N_3
  have ht : (i 0).val / 10000 < cfg3.N := by rw [hN]; omega
  refine ⟨⟨(i 0).val / 10000, ht⟩, flush3_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win3_5.index _ (0 : Fin 2) * 10000 ≤ (i 0).val ∧ (i 0).val < win3_5.index _ (0 : Fin 2) * 10000 + 10000
    rw [e10]
    show (i 0).val / 10000 * 10000 ≤ (i 0).val ∧ (i 0).val < (i 0).val / 10000 * 10000 + 10000
    omega
  | ⟨1, _⟩ =>
    show win3_5.index _ (1 : Fin 2) * 64 ≤ (i 1).val ∧ (i 1).val < win3_5.index _ (1 : Fin 2) * 64 + 64
    rw [e11]
    omega

/-- The output array after the region, of the arrays as the region finds them. -/
theorem final (c : Dev nD) : (dat3 V c).arrAt 5 cfg3.N
    = GinSpec.bnrelu (n := 50000) (V c main_v34) (GinSpec.unrow (V c main_v38)) (GinSpec.unrow (V c main_v39)) (GinSpec.unrow (V c main_v42)) (GinSpec.unrow (V c main_v45)) :=
  (dat3 V c).arrAt_eq_of_cover 5 _ (fun t _ => flushed_eq V c t) cover

end Cert.KernelIdeal.Reg3

end
-- ==== Proof.KReg4.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k4_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k4_pay1
  simp only [shapeCast_self]
  exact GinPay.bn_apply _ x0 x1 x2 x3 x4 p q

/-- The printed index maps over the grid: the row-tiled windows move down the rows with the point, the parameters stay. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- What point t writes back is block t of the one array, of the arrays as the region finds them. -/
theorem flushed_eq (c : Dev nD) (t : Fin cfg4.N) :
    (dat4 V c).flushed 5 t = ((cfg4.win 5).blk t).view.read (Elt Ideal)
      (GinSpec.bnrelu (n := 50000) (V c main_v46) (GinSpec.unrow (V c main_v50)) (GinSpec.unrow (V c main_v51)) (GinSpec.unrow (V c main_v54)) (GinSpec.unrow (V c main_v57))) := by
  show (cfg4.win 5).cut (grid4.coords t) ((dat4 V c).after 5 t) = _
  rw [after4_5]
  unfold out4_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v46 (((cfg4.win 0).blk t).view.emb y)) (GinSpec.unrow (fun y => V c main_v50 (((cfg4.win 1).blk t).view.emb y))) (GinSpec.unrow (fun y => V c main_v51 (((cfg4.win 2).blk t).view.emb y))) (GinSpec.unrow (fun y => V c main_v54 (((cfg4.win 3).blk t).view.emb y))) (GinSpec.unrow (fun y => V c main_v57 (((cfg4.win 4).blk t).view.emb y))) j
      = GinSpec.bnrelu (n := 50000) (V c main_v46) (GinSpec.unrow (V c main_v50)) (GinSpec.unrow (V c main_v51)) (GinSpec.unrow (V c main_v54)) (GinSpec.unrow (V c main_v57))
        (((cfg4.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v46) (funext fun a => Fin.ext ?_)
    match a with
    | ⟨0, _⟩ => show win4_0.index t (0 : Fin 2) * 10000 + 1 * (j 0).val = win4_5.index t (0 : Fin 2) * 10000 + 1 * (j 0).val; omega
    | ⟨1, _⟩ => show win4_0.index t (1 : Fin 2) * 64 + 1 * (j 1).val = win4_5.index t (1 : Fin 2) * 64 + 1 * (j 1).val; omega
  · refine congrArg (V c main_v50) (funext fun a => Fin.ext ?_)
    match a with
    | ⟨0, _⟩ => show win4_1.index t (0 : Fin 2) * 1 + 1 * 0 = 0; omega
    | ⟨1, _⟩ => show win4_1.index t (1 : Fin 2) * 64 + 1 * (j 1).val = win4_5.index t (1 : Fin 2) * 64 + 1 * (j 1).val; omega
  · refine congrArg (V c main_v51) (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_5.index t (1 : Fin 2) * 64 + 1 * (j 1).val; omega
  · refine congrArg (V c main_v54) (funext fun a => Fin.ext ?_)
    match a with
    | ⟨0, _⟩ => show win4_3.index t (0 : Fin 2) * 1 + 1 * 0 = 0; omega
    | ⟨1, _⟩ => show win4_3.index t (1 : Fin 2) * 64 + 1 * (j 1).val = win4_5.index t (1 : Fin 2) * 64 + 1 * (j 1).val; omega
  · refine congrArg (V c main_v57) (funext fun a => Fin.ext ?_)
    match a with
    | ⟨0, _⟩ => show win4_4.index t (0 : Fin 2) * 1 + 1 * 0 = 0; omega
    | ⟨1, _⟩ => show win4_4.index t (1 : Fin 2) * 64 + 1 * (j 1).val = win4_5.index t (1 : Fin 2) * 64 + 1 * (j 1).val; omega

/-- An index of the output array is in point t's block iff each coordinate is in the block's range. -/
theorem mem_blk (t : Fin cfg4.N) (i : S50000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v58).slice (win4_5.rect t)).set ↔ _
  rw [View.set_slice_whole, Rect.mem_set_unit]
  exact Iff.rfl

/-- Every row lies in the block of the point numbered by its row divided by the block height. -/
theorem cover (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 5 := N_4
  have ht : (i 0).val / 10000 < cfg4.N := by rw [hN]; omega
  refine ⟨⟨(i 0).val / 10000, ht⟩, flush4_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win4_5.index _ (0 : Fin 2) * 10000 ≤ (i 0).val ∧ (i 0).val < win4_5.index _ (0 : Fin 2) * 10000 + 10000
    rw [e10]
    show (i 0).val / 10000 * 10000 ≤ (i 0).val ∧ (i 0).val < (i 0).val / 10000 * 10000 + 10000
    omega
  | ⟨1, _⟩ =>
    show win4_5.index _ (1 : Fin 2) * 64 ≤ (i 1).val ∧ (i 1).val < win4_5.index _ (1 : Fin 2) * 64 + 64
    rw [e11]
    omega

/-- The output array after the region, of the arrays as the region finds them. -/
theorem final (c : Dev nD) : (dat4 V c).arrAt 5 cfg4.N
    = GinSpec.bnrelu (n := 50000) (V c main_v46) (GinSpec.unrow (V c main_v50)) (GinSpec.unrow (V c main_v51)) (GinSpec.unrow (V c main_v54)) (GinSpec.unrow (V c main_v57)) :=
  (dat4 V c).arrAt_eq_of_cover 5 _ (fun t _ => flushed_eq V c t) cover

end Cert.KernelIdeal.Reg4

end
-- ==== Proof.KReg5.lean ====
/-
  What a layer's first dense region leaves in its output array: (x + a)·w + b.

  The node rows are tiled in 5 blocks of 10000; at each block the body adds the neighbour sums to the nodes, forms the
  product with the weight matrix and adds the bias row. Entry (r, q) depends only on row r, so the written blocks
  are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg5

open Cert.KernelIdeal Cert.KernelIdeal.Gen

variable (V : (c : Dev nD) → (b : Ref sig .tc) → Buf (Elt Ideal) ((c : Thread nD τ).loc b))

/-- The entrywise sum of two arrays. -/
def add2 {n : ℕ} (x y : GinSpec.Mat n 64) : GinSpec.Mat n 64 := fun i => x i + y i

theorem hz : (![0, 0] : Fin 2 → Nat) = fun _ => 0 := funext fun a => by fin_cases a <;> rfl

/-- The body's payload on a block, entry by entry. -/
theorem pay_eq (x0 : Vec Ideal S10000x64 .f32) (x1 : Vec Ideal S10000x64 .f32) (x2 : Vec Ideal S64x64 .f32) (x3 : Vec Ideal S1x64 .f32) :
    k5_pay1 x0 x1 x2 x3 = GinSpec.affine (n := 10000) (k := 64) (m := 64) (add2 (n := 10000) x0 x1) x2 (GinSpec.unrow x3) := by
  funext j
  obtain ⟨p, q, rfl⟩ : ∃ (p : Fin 10000) (q : Fin 64), j = ix2 p q := ⟨j 0, j 1, eq_ix2 j⟩
  unfold k5_pay1
  simp only [shapeCast_self]
  exact GinPay.mmrow_apply dot_S10000x64_S64x64_S10000x64_1_0_0_1_n_n_wf _ _ (addf x0 x1) x2 x3 p q

/-- The printed index maps over the grid: the row-tiled windows move down the rows with the point, the parameters stay. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- What point t writes back is block t of the one array, of the arrays as the region finds them. -/
theorem flushed_eq (c : Dev nD) (t : Fin cfg5.N) :
    (dat5 V c).flushed 4 t = ((cfg5.win 4).blk t).view.read (Elt Ideal)
      (GinSpec.affine (n := 50000) (k := 64) (m := 64) (add2 (n := 50000) (V c main_v58) (V c main_v68)) (V c main_v70) (GinSpec.unrow (V c main_v73))) := by
  show (cfg5.win 4).cut (grid5.coords t) ((dat5 V c).after 4 t) = _
  rw [after5_4]
  unfold out5_4
  rw [View.canon_unit_zero hz]
  simp only [View.ld_unit_zero (S := S10000x64) hz, View.ld_unit_zero (S := S64x64) hz, View.ld_unit_zero (S := S1x64) hz]
  rw [pay_eq]
  obtain ⟨e0, e1, e2, e3, e4, e5, e6, e7, e8, e9⟩ := idx_facts t
  funext j
  show GinSpec.affine (n := 10000) (k := 64) (m := 64) (add2 (n := 10000) (fun y => V c main_v58 (((cfg5.win 0).blk t).view.emb y)) (fun y => V c main_v68 (((cfg5.win 1).blk t).view.emb y))) (fun y => V c main_v70 (((cfg5.win 2).blk t).view.emb y)) (GinSpec.unrow (fun y => V c main_v73 (((cfg5.win 3).blk t).view.emb y))) j
      = GinSpec.affine (n := 50000) (k := 64) (m := 64) (add2 (n := 50000) (V c main_v58) (V c main_v68)) (V c main_v70) (GinSpec.unrow (V c main_v73))
        (((cfg5.win 4).blk t).view.emb j)
  have hj0 : (j 0).val < 10000 := (j 0).isLt
  have hj1 : (j 1).val < 64 := (j 1).isLt
  refine GinSpec.affine_congr _ _ _ _ _ _ _ _ (fun kk => ?_) (fun kk => ?_) ?_
  · unfold add2
    refine congrArg₂ (· + ·) ?_ ?_
    · refine congrArg (V c main_v58) (funext fun a => Fin.ext ?_)
      match a with
      | ⟨0, _⟩ => have hkk := kk.isLt; show win5_0.index t (0 : Fin 2) * 10000 + 1 * (j 0).val = win5_4.index t (0 : Fin 2) * 10000 + 1 * (j 0).val; omega
      | ⟨1, _⟩ => have hkk := kk.isLt; show win5_0.index t (1 : Fin 2) * 64 + 1 * kk.val = kk.val; omega
    · refine congrArg (V c main_v68) (funext fun a => Fin.ext ?_)
      match a with
      | ⟨0, _⟩ => have hkk := kk.isLt; show win5_1.index t (0 : Fin 2) * 10000 + 1 * (j 0).val = win5_4.index t (0 : Fin 2) * 10000 + 1 * (j 0).val; omega
      | ⟨1, _⟩ => have hkk := kk.isLt; show win5_1.index t (1 : Fin 2) * 64 + 1 * kk.val = kk.val; omega
  · refine congrArg (V c main_v70) (funext fun a => Fin.ext ?_)
    match a with
    | ⟨0, _⟩ => have hkk := kk.isLt; show win5_2.index t (0 : Fin 2) * 64 + 1 * kk.val = kk.val; omega
    | ⟨1, _⟩ => have hkk := kk.isLt; show win5_2.index t (1 : Fin 2) * 64 + 1 * (j 1).val = win5_4.index t (1 : Fin 2) * 64 + 1 * (j 1).val; omega
  · refine congrArg (V c main_v73) (funext fun a => Fin.ext ?_)
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega

/-- An index of the output array is in point t's block iff each coordinate is in the block's range. -/
theorem mem_blk (t : Fin cfg5.N) (i : S50000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v74).slice (win5_4.rect t)).set ↔ _
  rw [View.set_slice_whole, Rect.mem_set_unit]
  exact Iff.rfl

/-- Every row lies in the block of the point numbered by its row divided by the block height. -/
theorem cover (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 5 := N_5
  have ht : (i 0).val / 10000 < cfg5.N := by rw [hN]; omega
  refine ⟨⟨(i 0).val / 10000, ht⟩, flush5_4 _, ?_⟩
  rw [mem_blk]
  obtain ⟨e0, e1, e2, e3, e4, e5, e6, e7, e8, e9⟩ := idx_facts ⟨(i 0).val / 10000, ht⟩
  intro a
  match a with
  | ⟨0, _⟩ =>
    show win5_4.index _ (0 : Fin 2) * 10000 ≤ (i 0).val ∧ (i 0).val < win5_4.index _ (0 : Fin 2) * 10000 + 10000
    rw [e8]
    show (i 0).val / 10000 * 10000 ≤ (i 0).val ∧ (i 0).val < (i 0).val / 10000 * 10000 + 10000
    omega
  | ⟨1, _⟩ =>
    show win5_4.index _ (1 : Fin 2) * 64 ≤ (i 1).val ∧ (i 1).val < win5_4.index _ (1 : Fin 2) * 64 + 64
    rw [e9]
    omega

/-- The output array after the region, of the arrays as the region finds them. -/
theorem final (c : Dev nD) : (dat5 V c).arrAt 4 cfg5.N
    = GinSpec.affine (n := 50000) (k := 64) (m := 64) (add2 (n := 50000) (V c main_v58) (V c main_v68)) (V c main_v70) (GinSpec.unrow (V c main_v73)) :=
  (dat5 V c).arrAt_eq_of_cover 4 _ (fun t _ => flushed_eq V c t) cover

end Cert.KernelIdeal.Reg5

end
-- ==== Proof.KReg6.lean ====
/-
  What a layer's second dense region leaves in its output array: relu(bn(x))·w + b.

  The node rows are tiled in 5 blocks of 10000; at each block the body normalises, scales, shifts and clamps the block,
  forms the product with the weight matrix and adds the bias row. Entry (r, q) depends only on row r of the
  nodes, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) (x5 : Vec Ideal S64x64 .f32) (x6 : Vec Ideal S1x64 .f32) :
    k6_pay1 x0 x1 x2 x3 x4 x5 x6 = GinSpec.affine (n := 10000) (k := 64) (m := 64) (GinSpec.bnrelu (n := 10000) x0 (GinSpec.unrow x1) (GinSpec.unrow x2) (GinSpec.unrow x3) (GinSpec.unrow x4)) x5 (GinSpec.unrow x6) := by
  funext j
  obtain ⟨p, q, rfl⟩ : ∃ (p : Fin 10000) (q : Fin 64), j = ix2 p q := ⟨j 0, j 1, eq_ix2 j⟩
  unfold k6_pay1
  simp only [shapeCast_self]
  refine (GinPay.mmrow_apply dot_S10000x64_S64x64_S10000x64_1_0_0_1_n_n_wf _ _ _ x5 x6 p q).trans ?_
  refine GinSpec.affine_congr _ _ _ _ _ _ _ _ (fun kk => ?_) (fun kk => rfl) rfl
  exact GinPay.bn_apply _ x0 x1 x2 x3 x4 p kk

/-- The printed index maps over the grid: the row-tiled windows move down the rows with the point, the parameters stay. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0 :=
  (by decide +kernel : ∀ t : Fin grid6.N, _)

/-- What point t writes back is block t of the one array, of the arrays as the region finds them. -/
theorem flushed_eq (c : Dev nD) (t : Fin cfg6.N) :
    (dat6 V c).flushed 7 t = ((cfg6.win 7).blk t).view.read (Elt Ideal)
      (GinSpec.affine (n := 50000) (k := 64) (m := 64) (GinSpec.bnrelu (n := 50000) (V c main_v74) (GinSpec.unrow (V c main_v78)) (GinSpec.unrow (V c main_v79)) (GinSpec.unrow (V c main_v82)) (GinSpec.unrow (V c main_v85))) (V c main_v87) (GinSpec.unrow (V c main_v90))) := by
  show (cfg6.win 7).cut (grid6.coords t) ((dat6 V c).after 7 t) = _
  rw [after6_7]
  unfold out6_7
  rw [View.canon_unit_zero hz]
  simp only [View.ld_unit_zero (S := S10000x64) hz, View.ld_unit_zero (S := S1x64) hz, View.ld_unit_zero (S := S64x64) hz]
  rw [pay_eq]
  obtain ⟨e0, e1, e2, e3, e4, e5, e6, e7, e8, e9, e10, e11, e12, e13, e14, e15⟩ := idx_facts t
  funext j
  show GinSpec.affine (n := 10000) (k := 64) (m := 64) (GinSpec.bnrelu (n := 10000) (fun y => V c main_v74 (((cfg6.win 0).blk t).view.emb y)) (GinSpec.unrow (fun y => V c main_v78 (((cfg6.win 1).blk t).view.emb y))) (GinSpec.unrow (fun y => V c main_v79 (((cfg6.win 2).blk t).view.emb y))) (GinSpec.unrow (fun y => V c main_v82 (((cfg6.win 3).blk t).view.emb y))) (GinSpec.unrow (fun y => V c main_v85 (((cfg6.win 4).blk t).view.emb y)))) (fun y => V c main_v87 (((cfg6.win 5).blk t).view.emb y)) (GinSpec.unrow (fun y => V c main_v90 (((cfg6.win 6).blk t).view.emb y))) j
      = GinSpec.affine (n := 50000) (k := 64) (m := 64) (GinSpec.bnrelu (n := 50000) (V c main_v74) (GinSpec.unrow (V c main_v78)) (GinSpec.unrow (V c main_v79)) (GinSpec.unrow (V c main_v82)) (GinSpec.unrow (V c main_v85))) (V c main_v87) (GinSpec.unrow (V c main_v90))
        (((cfg6.win 7).blk t).view.emb j)
  have hj0 : (j 0).val < 10000 := (j 0).isLt
  have hj1 : (j 1).val < 64 := (j 1).isLt
  refine GinSpec.affine_congr _ _ _ _ _ _ _ _ (fun kk => ?_) (fun kk => ?_) ?_
  · refine GinSpec.bnrelu_congr _ _ _ _ _ _ _ _ _ _ _ _ ?_ ?_ ?_ ?_ ?_
    · refine congrArg (V c main_v74) (funext fun a => Fin.ext ?_)
      match a with
      | ⟨0, _⟩ => have hkk := kk.isLt; show win6_0.index t (0 : Fin 2) * 10000 + 1 * (j 0).val = win6_7.index t (0 : Fin 2) * 10000 + 1 * (j 0).val; omega
      | ⟨1, _⟩ => have hkk := kk.isLt; show win6_0.index t (1 : Fin 2) * 64 + 1 * kk.val = kk.val; omega
    · refine congrArg (V c main_v78) (funext fun a => Fin.ext ?_)
      match a with
      | ⟨0, _⟩ => have hkk := kk.isLt; show win6_1.index t (0 : Fin 2) * 1 + 1 * 0 = 0; omega
      | ⟨1, _⟩ => have hkk := kk.isLt; show win6_1.index t (1 : Fin 2) * 64 + 1 * kk.val = kk.val; omega
    · refine congrArg (V c main_v79) (funext fun a => Fin.ext ?_)
      match a with
      | ⟨0, _⟩ => have hkk := kk.isLt; show win6_2.index t (0 : Fin 2) * 1 + 1 * 0 = 0; omega
      | ⟨1, _⟩ => have hkk := kk.isLt; show win6_2.index t (1 : Fin 2) * 64 + 1 * kk.val = kk.val; omega
    · refine congrArg (V c main_v82) (funext fun a => Fin.ext ?_)
      match a with
      | ⟨0, _⟩ => have hkk := kk.isLt; show win6_3.index t (0 : Fin 2) * 1 + 1 * 0 = 0; omega
      | ⟨1, _⟩ => have hkk := kk.isLt; show win6_3.index t (1 : Fin 2) * 64 + 1 * kk.val = kk.val; omega
    · refine congrArg (V c main_v85) (funext fun a => Fin.ext ?_)
      match a with
      | ⟨0, _⟩ => have hkk := kk.isLt; show win6_4.index t (0 : Fin 2) * 1 + 1 * 0 = 0; omega
      | ⟨1, _⟩ => have hkk := kk.isLt; show win6_4.index t (1 : Fin 2) * 64 + 1 * kk.val = kk.val; omega
  · refine congrArg (V c main_v87) (funext fun a => Fin.ext ?_)
    match a with
    | ⟨0, _⟩ => have hkk := kk.isLt; show win6_5.index t (0 : Fin 2) * 64 + 1 * kk.val = kk.val; omega
    | ⟨1, _⟩ => have hkk := kk.isLt; show win6_5.index t (1 : Fin 2) * 64 + 1 * (j 1).val = win6_7.index t (1 : Fin 2) * 64 + 1 * (j 1).val; omega
  · refine congrArg (V c main_v90) (funext fun a => Fin.ext ?_)
    match a with
    | ⟨0, _⟩ => show win6_6.index t (0 : Fin 2) * 1 + 1 * 0 = 0; omega
    | ⟨1, _⟩ => show win6_6.index t (1 : Fin 2) * 64 + 1 * (j 1).val = win6_7.index t (1 : Fin 2) * 64 + 1 * (j 1).val; omega

/-- An index of the output array is in point t's block iff each coordinate is in the block's range. -/
theorem mem_blk (t : Fin cfg6.N) (i : S50000x64.Idx) :
    i ∈ ((cfg6.win 7).blk t).view.set ↔ ∀ a : Fin 2, win6_7.index t a * S10000x64.size a ≤ (i a).val ∧ (i a).val < win6_7.index t a * S10000x64.size a + S10000x64.size a := by
  show i ∈ ((View.whole main_v91).slice (win6_7.rect t)).set ↔ _
  rw [View.set_slice_whole, Rect.mem_set_unit]
  exact Iff.rfl

/-- Every row lies in the block of the point numbered by its row divided by the block height. -/
theorem cover (i : S50000x64.Idx) : ∃ t : Fin cfg6.N, (cfg6.win 7).flush t = true ∧ i ∈ ((cfg6.win 7).blk t).view.set := by
  have hi0 : (i 0).val < 50000 := (i 0).isLt
  have hi1 : (i 1).val < 64 := (i 1).isLt
  have hN : cfg6.N = 5 := N_6
  have ht : (i 0).val / 10000 < cfg6.N := by rw [hN]; omega
  refine ⟨⟨(i 0).val / 10000, ht⟩, flush6_7 _, ?_⟩
  rw [mem_blk]
  obtain ⟨e0, e1, e2, e3, e4, e5, e6, e7, e8, e9, e10, e11, e12, e13, e14, e15⟩ := idx_facts ⟨(i 0).val / 10000, ht⟩
  intro a
  match a with
  | ⟨0, _⟩ =>
    show win6_7.index _ (0 : Fin 2) * 10000 ≤ (i 0).val ∧ (i 0).val < win6_7.index _ (0 : Fin 2) * 10000 + 10000
    rw [e14]
    show (i 0).val / 10000 * 10000 ≤ (i 0).val ∧ (i 0).val < (i 0).val / 10000 * 10000 + 10000
    omega
  | ⟨1, _⟩ =>
    show win6_7.index _ (1 : Fin 2) * 64 ≤ (i 1).val ∧ (i 1).val < win6_7.index _ (1 : Fin 2) * 64 + 64
    rw [e15]
    omega

/-- The output array after the region, of the arrays as the region finds them. -/
theorem final (c : Dev nD) : (dat6 V c).arrAt 7 cfg6.N
    = GinSpec.affine (n := 50000) (k := 64) (m := 64) (GinSpec.bnrelu (n := 50000) (V c main_v74) (GinSpec.unrow (V c main_v78)) (GinSpec.unrow (V c main_v79)) (GinSpec.unrow (V c main_v82)) (GinSpec.unrow (V c main_v85))) (V c main_v87) (GinSpec.unrow (V c main_v90)) :=
  (dat6 V c).arrAt_eq_of_cover 7 _ (fun t _ => flushed_eq V c t) cover

end Cert.KernelIdeal.Reg6

end
-- ==== Proof.KReg7.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k7_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k7_pay1
  simp only [shapeCast_self]
  exact GinPay.bn_apply _ x0 x1 x2 x3 x4 p q

/-- The printed index maps over the grid: the row-tiled windows move down the rows with the point, the parameters stay. -/
theorem idx_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0 :=
  (by decide +kernel : ∀ t : Fin grid7.N, _)

/-- What point t writes back is block t of the one array, of the arrays as the region finds them. -/
theorem flushed_eq (c : Dev nD) (t : Fin cfg7.N) :
    (dat7 V c).flushed 5 t = ((cfg7.win 5).blk t).view.read (Elt Ideal)
      (GinSpec.bnrelu (n := 50000) (V c main_v91) (GinSpec.unrow (V c main_v95)) (GinSpec.unrow (V c main_v96)) (GinSpec.unrow (V c main_v99)) (GinSpec.unrow (V c main_v102))) := by
  show (cfg7.win 5).cut (grid7.coords t) ((dat7 V c).after 5 t) = _
  rw [after7_5]
  unfold out7_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v91 (((cfg7.win 0).blk t).view.emb y)) (GinSpec.unrow (fun y => V c main_v95 (((cfg7.win 1).blk t).view.emb y))) (GinSpec.unrow (fun y => V c main_v96 (((cfg7.win 2).blk t).view.emb y))) (GinSpec.unrow (fun y => V c main_v99 (((cfg7.win 3).blk t).view.emb y))) (GinSpec.unrow (fun y => V c main_v102 (((cfg7.win 4).blk t).view.emb y))) j
      = GinSpec.bnrelu (n := 50000) (V c main_v91) (GinSpec.unrow (V c main_v95)) (GinSpec.unrow (V c main_v96)) (GinSpec.unrow (V c main_v99)) (GinSpec.unrow (V c main_v102))
        (((cfg7.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v91) (funext fun a => Fin.ext ?_)
    match a with
    | ⟨0, _⟩ => show win7_0.index t (0 : Fin 2) * 10000 + 1 * (j 0).val = win7_5.index t (0 : Fin 2) * 10000 + 1 * (j 0).val; omega
    | ⟨1, _⟩ => show win7_0.index t (1 : Fin 2) * 64 + 1 * (j 1).val = win7_5.index t (1 : Fin 2) * 64 + 1 * (j 1).val; omega
  · refine congrArg (V c main_v95) (funext fun a => Fin.ext ?_)
    match a with
    | ⟨0, _⟩ => show win7_1.index t (0 : Fin 2) * 1 + 1 * 0 = 0; omega
    | ⟨1, _⟩ => show win7_1.index t (1 : Fin 2) * 64 + 1 * (j 1).val = win7_5.index t (1 : Fin 2) * 64 + 1 * (j 1).val; omega
  · refine congrArg (V c main_v96) (funext fun a => Fin.ext ?_)
    match a with
    | ⟨0, _⟩ => show win7_2.index t (0 : Fin 2) * 1 + 1 * 0 = 0; omega
    | ⟨1, _⟩ => show win7_2.index t (1 : Fin 2) * 64 + 1 * (j 1).val = win7_5.index t (1 : Fin 2) * 64 + 1 * (j 1).val; omega
  · refine congrArg (V c main_v99) (funext fun a => Fin.ext ?_)
    match a with
    | ⟨0, _⟩ => show win7_3.index t (0 : Fin 2) * 1 + 1 * 0 = 0; omega
    | ⟨1, _⟩ => show win7_3.index t (1 : Fin 2) * 64 + 1 * (j 1).val = win7_5.index t (1 : Fin 2) * 64 + 1 * (j 1).val; omega
  · refine congrArg (V c main_v102) (funext fun a => Fin.ext ?_)
    match a with
    | ⟨0, _⟩ => show win7_4.index t (0 : Fin 2) * 1 + 1 * 0 = 0; omega
    | ⟨1, _⟩ => show win7_4.index t (1 : Fin 2) * 64 + 1 * (j 1).val = win7_5.index t (1 : Fin 2) * 64 + 1 * (j 1).val; omega

/-- An index of the output array is in point t's block iff each coordinate is in the block's range. -/
theorem mem_blk (t : Fin cfg7.N) (i : S50000x64.Idx) :
    i ∈ ((cfg7.win 5).blk t).view.set ↔ ∀ a : Fin 2, win7_5.index t a * S10000x64.size a ≤ (i a).val ∧ (i a).val < win7_5.index t a * S10000x64.size a + S10000x64.size a := by
  show i ∈ ((View.whole main_v103).slice (win7_5.rect t)).set ↔ _
  rw [View.set_slice_whole, Rect.mem_set_unit]
  exact Iff.rfl

/-- Every row lies in the block of the point numbered by its row divided by the block height. -/
theorem cover (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 5 := N_7
  have ht : (i 0).val / 10000 < cfg7.N := by rw [hN]; omega
  refine ⟨⟨(i 0).val / 10000, ht⟩, flush7_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win7_5.index _ (0 : Fin 2) * 10000 ≤ (i 0).val ∧ (i 0).val < win7_5.index _ (0 : Fin 2) * 10000 + 10000
    rw [e10]
    show (i 0).val / 10000 * 10000 ≤ (i 0).val ∧ (i 0).val < (i 0).val / 10000 * 10000 + 10000
    omega
  | ⟨1, _⟩ =>
    show win7_5.index _ (1 : Fin 2) * 64 ≤ (i 1).val ∧ (i 1).val < win7_5.index _ (1 : Fin 2) * 64 + 64
    rw [e11]
    omega

/-- The output array after the region, of the arrays as the region finds them. -/
theorem final (c : Dev nD) : (dat7 V c).arrAt 5 cfg7.N
    = GinSpec.bnrelu (n := 50000) (V c main_v91) (GinSpec.unrow (V c main_v95)) (GinSpec.unrow (V c main_v96)) (GinSpec.unrow (V c main_v99)) (GinSpec.unrow (V c main_v102)) :=
  (dat7 V c).arrAt_eq_of_cover 5 _ (fun t _ => flushed_eq V c t) cover

end Cert.KernelIdeal.Reg7

end
-- ==== Proof.KReg8.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg8

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k8_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k8_pay1
  simp only [shapeCast_self]
  exact GinPay.bn_apply _ x0 x1 x2 x3 x4 p q

/-- The printed index maps over the grid: the row-tiled windows move down the rows with the point, the parameters stay. -/
theorem idx_facts : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0 :=
  (by decide +kernel : ∀ t : Fin grid8.N, _)

/-- What point t writes back is block t of the one array, of the arrays as the region finds them. -/
theorem flushed_eq (c : Dev nD) (t : Fin cfg8.N) :
    (dat8 V c).flushed 5 t = ((cfg8.win 5).blk t).view.read (Elt Ideal)
      (GinSpec.bnrelu (n := 50000) (V c main_v103) (GinSpec.unrow (V c main_v107)) (GinSpec.unrow (V c main_v108)) (GinSpec.unrow (V c main_v111)) (GinSpec.unrow (V c main_v114))) := by
  show (cfg8.win 5).cut (grid8.coords t) ((dat8 V c).after 5 t) = _
  rw [after8_5]
  unfold out8_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v103 (((cfg8.win 0).blk t).view.emb y)) (GinSpec.unrow (fun y => V c main_v107 (((cfg8.win 1).blk t).view.emb y))) (GinSpec.unrow (fun y => V c main_v108 (((cfg8.win 2).blk t).view.emb y))) (GinSpec.unrow (fun y => V c main_v111 (((cfg8.win 3).blk t).view.emb y))) (GinSpec.unrow (fun y => V c main_v114 (((cfg8.win 4).blk t).view.emb y))) j
      = GinSpec.bnrelu (n := 50000) (V c main_v103) (GinSpec.unrow (V c main_v107)) (GinSpec.unrow (V c main_v108)) (GinSpec.unrow (V c main_v111)) (GinSpec.unrow (V c main_v114))
        (((cfg8.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v103) (funext fun a => Fin.ext ?_)
    match a with
    | ⟨0, _⟩ => show win8_0.index t (0 : Fin 2) * 10000 + 1 * (j 0).val = win8_5.index t (0 : Fin 2) * 10000 + 1 * (j 0).val; omega
    | ⟨1, _⟩ => show win8_0.index t (1 : Fin 2) * 64 + 1 * (j 1).val = win8_5.index t (1 : Fin 2) * 64 + 1 * (j 1).val; omega
  · refine congrArg (V c main_v107) (funext fun a => Fin.ext ?_)
    match a with
    | ⟨0, _⟩ => show win8_1.index t (0 : Fin 2) * 1 + 1 * 0 = 0; omega
    | ⟨1, _⟩ => show win8_1.index t (1 : Fin 2) * 64 + 1 * (j 1).val = win8_5.index t (1 : Fin 2) * 64 + 1 * (j 1).val; omega
  · refine congrArg (V c main_v108) (funext fun a => Fin.ext ?_)
    match a with
    | ⟨0, _⟩ => show win8_2.index t (0 : Fin 2) * 1 + 1 * 0 = 0; omega
    | ⟨1, _⟩ => show win8_2.index t (1 : Fin 2) * 64 + 1 * (j 1).val = win8_5.index t (1 : Fin 2) * 64 + 1 * (j 1).val; omega
  · refine congrArg (V c main_v111) (funext fun a => Fin.ext ?_)
    match a with
    | ⟨0, _⟩ => show win8_3.index t (0 : Fin 2) * 1 + 1 * 0 = 0; omega
    | ⟨1, _⟩ => show win8_3.index t (1 : Fin 2) * 64 + 1 * (j 1).val = win8_5.index t (1 : Fin 2) * 64 + 1 * (j 1).val; omega
  · refine congrArg (V c main_v114) (funext fun a => Fin.ext ?_)
    match a with
    | ⟨0, _⟩ => show win8_4.index t (0 : Fin 2) * 1 + 1 * 0 = 0; omega
    | ⟨1, _⟩ => show win8_4.index t (1 : Fin 2) * 64 + 1 * (j 1).val = win8_5.index t (1 : Fin 2) * 64 + 1 * (j 1).val; omega

/-- An index of the output array is in point t's block iff each coordinate is in the block's range. -/
theorem mem_blk (t : Fin cfg8.N) (i : S50000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v115).slice (win8_5.rect t)).set ↔ _
  rw [View.set_slice_whole, Rect.mem_set_unit]
  exact Iff.rfl

/-- Every row lies in the block of the point numbered by its row divided by the block height. -/
theorem cover (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 5 := N_8
  have ht : (i 0).val / 10000 < cfg8.N := by rw [hN]; omega
  refine ⟨⟨(i 0).val / 10000, ht⟩, flush8_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win8_5.index _ (0 : Fin 2) * 10000 ≤ (i 0).val ∧ (i 0).val < win8_5.index _ (0 : Fin 2) * 10000 + 10000
    rw [e10]
    show (i 0).val / 10000 * 10000 ≤ (i 0).val ∧ (i 0).val < (i 0).val / 10000 * 10000 + 10000
    omega
  | ⟨1, _⟩ =>
    show win8_5.index _ (1 : Fin 2) * 64 ≤ (i 1).val ∧ (i 1).val < win8_5.index _ (1 : Fin 2) * 64 + 64
    rw [e11]
    omega

/-- The output array after the region, of the arrays as the region finds them. -/
theorem final (c : Dev nD) : (dat8 V c).arrAt 5 cfg8.N
    = GinSpec.bnrelu (n := 50000) (V c main_v103) (GinSpec.unrow (V c main_v107)) (GinSpec.unrow (V c main_v108)) (GinSpec.unrow (V c main_v111)) (GinSpec.unrow (V c main_v114)) :=
  (dat8 V c).arrAt_eq_of_cover 5 _ (fun t _ => flushed_eq V c t) cover

end Cert.KernelIdeal.Reg8

end
-- ==== Proof.KReg9.lean ====
/-
  What a layer's first dense region leaves in its output array: (x + a)·w + b.

  The node rows are tiled in 5 blocks of 10000; at each block the body adds the neighbour sums to the nodes, forms the
  product with the weight matrix and adds the bias row. Entry (r, q) depends only on row r, so the written blocks
  are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg9

open Cert.KernelIdeal Cert.KernelIdeal.Gen

variable (V : (c : Dev nD) → (b : Ref sig .tc) → Buf (Elt Ideal) ((c : Thread nD τ).loc b))

/-- The entrywise sum of two arrays. -/
def add2 {n : ℕ} (x y : GinSpec.Mat n 64) : GinSpec.Mat n 64 := fun i => x i + y i

theorem hz : (![0, 0] : Fin 2 → Nat) = fun _ => 0 := funext fun a => by fin_cases a <;> rfl

/-- The body's payload on a block, entry by entry. -/
theorem pay_eq (x0 : Vec Ideal S10000x64 .f32) (x1 : Vec Ideal S10000x64 .f32) (x2 : Vec Ideal S64x64 .f32) (x3 : Vec Ideal S1x64 .f32) :
    k9_pay1 x0 x1 x2 x3 = GinSpec.affine (n := 10000) (k := 64) (m := 64) (add2 (n := 10000) x0 x1) x2 (GinSpec.unrow x3) := by
  funext j
  obtain ⟨p, q, rfl⟩ : ∃ (p : Fin 10000) (q : Fin 64), j = ix2 p q := ⟨j 0, j 1, eq_ix2 j⟩
  unfold k9_pay1
  simp only [shapeCast_self]
  exact GinPay.mmrow_apply dot_S10000x64_S64x64_S10000x64_1_0_0_1_n_n_wf _ _ (addf x0 x1) x2 x3 p q

/-- The printed index maps over the grid: the row-tiled windows move down the rows with the point, the parameters stay. -/
theorem idx_facts : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = t.val
    ∧ win9_4.index t (1 : Fin 2) = 0 :=
  (by decide +kernel : ∀ t : Fin grid9.N, _)

/-- What point t writes back is block t of the one array, of the arrays as the region finds them. -/
theorem flushed_eq (c : Dev nD) (t : Fin cfg9.N) :
    (dat9 V c).flushed 4 t = ((cfg9.win 4).blk t).view.read (Elt Ideal)
      (GinSpec.affine (n := 50000) (k := 64) (m := 64) (add2 (n := 50000) (V c main_v115) (V c main_v125)) (V c main_v127) (GinSpec.unrow (V c main_v130))) := by
  show (cfg9.win 4).cut (grid9.coords t) ((dat9 V c).after 4 t) = _
  rw [after9_4]
  unfold out9_4
  rw [View.canon_unit_zero hz]
  simp only [View.ld_unit_zero (S := S10000x64) hz, View.ld_unit_zero (S := S64x64) hz, View.ld_unit_zero (S := S1x64) hz]
  rw [pay_eq]
  obtain ⟨e0, e1, e2, e3, e4, e5, e6, e7, e8, e9⟩ := idx_facts t
  funext j
  show GinSpec.affine (n := 10000) (k := 64) (m := 64) (add2 (n := 10000) (fun y => V c main_v115 (((cfg9.win 0).blk t).view.emb y)) (fun y => V c main_v125 (((cfg9.win 1).blk t).view.emb y))) (fun y => V c main_v127 (((cfg9.win 2).blk t).view.emb y)) (GinSpec.unrow (fun y => V c main_v130 (((cfg9.win 3).blk t).view.emb y))) j
      = GinSpec.affine (n := 50000) (k := 64) (m := 64) (add2 (n := 50000) (V c main_v115) (V c main_v125)) (V c main_v127) (GinSpec.unrow (V c main_v130))
        (((cfg9.win 4).blk t).view.emb j)
  have hj0 : (j 0).val < 10000 := (j 0).isLt
  have hj1 : (j 1).val < 64 := (j 1).isLt
  refine GinSpec.affine_congr _ _ _ _ _ _ _ _ (fun kk => ?_) (fun kk => ?_) ?_
  · unfold add2
    refine congrArg₂ (· + ·) ?_ ?_
    · refine congrArg (V c main_v115) (funext fun a => Fin.ext ?_)
      match a with
      | ⟨0, _⟩ => have hkk := kk.isLt; show win9_0.index t (0 : Fin 2) * 10000 + 1 * (j 0).val = win9_4.index t (0 : Fin 2) * 10000 + 1 * (j 0).val; omega
      | ⟨1, _⟩ => have hkk := kk.isLt; show win9_0.index t (1 : Fin 2) * 64 + 1 * kk.val = kk.val; omega
    · refine congrArg (V c main_v125) (funext fun a => Fin.ext ?_)
      match a with
      | ⟨0, _⟩ => have hkk := kk.isLt; show win9_1.index t (0 : Fin 2) * 10000 + 1 * (j 0).val = win9_4.index t (0 : Fin 2) * 10000 + 1 * (j 0).val; omega
      | ⟨1, _⟩ => have hkk := kk.isLt; show win9_1.index t (1 : Fin 2) * 64 + 1 * kk.val = kk.val; omega
  · refine congrArg (V c main_v127) (funext fun a => Fin.ext ?_)
    match a with
    | ⟨0, _⟩ => have hkk := kk.isLt; show win9_2.index t (0 : Fin 2) * 64 + 1 * kk.val = kk.val; omega
    | ⟨1, _⟩ => have hkk := kk.isLt; show win9_2.index t (1 : Fin 2) * 64 + 1 * (j 1).val = win9_4.index t (1 : Fin 2) * 64 + 1 * (j 1).val; omega
  · refine congrArg (V c main_v130) (funext fun a => Fin.ext ?_)
    match a with
    | ⟨0, _⟩ => show win9_3.index t (0 : Fin 2) * 1 + 1 * 0 = 0; omega
    | ⟨1, _⟩ => show win9_3.index t (1 : Fin 2) * 64 + 1 * (j 1).val = win9_4.index t (1 : Fin 2) * 64 + 1 * (j 1).val; omega

/-- An index of the output array is in point t's block iff each coordinate is in the block's range. -/
theorem mem_blk (t : Fin cfg9.N) (i : S50000x64.Idx) :
    i ∈ ((cfg9.win 4).blk t).view.set ↔ ∀ a : Fin 2, win9_4.index t a * S10000x64.size a ≤ (i a).val ∧ (i a).val < win9_4.index t a * S10000x64.size a + S10000x64.size a := by
  show i ∈ ((View.whole main_v131).slice (win9_4.rect t)).set ↔ _
  rw [View.set_slice_whole, Rect.mem_set_unit]
  exact Iff.rfl

/-- Every row lies in the block of the point numbered by its row divided by the block height. -/
theorem cover (i : S50000x64.Idx) : ∃ t : Fin cfg9.N, (cfg9.win 4).flush t = true ∧ i ∈ ((cfg9.win 4).blk t).view.set := by
  have hi0 : (i 0).val < 50000 := (i 0).isLt
  have hi1 : (i 1).val < 64 := (i 1).isLt
  have hN : cfg9.N = 5 := N_9
  have ht : (i 0).val / 10000 < cfg9.N := by rw [hN]; omega
  refine ⟨⟨(i 0).val / 10000, ht⟩, flush9_4 _, ?_⟩
  rw [mem_blk]
  obtain ⟨e0, e1, e2, e3, e4, e5, e6, e7, e8, e9⟩ := idx_facts ⟨(i 0).val / 10000, ht⟩
  intro a
  match a with
  | ⟨0, _⟩ =>
    show win9_4.index _ (0 : Fin 2) * 10000 ≤ (i 0).val ∧ (i 0).val < win9_4.index _ (0 : Fin 2) * 10000 + 10000
    rw [e8]
    show (i 0).val / 10000 * 10000 ≤ (i 0).val ∧ (i 0).val < (i 0).val / 10000 * 10000 + 10000
    omega
  | ⟨1, _⟩ =>
    show win9_4.index _ (1 : Fin 2) * 64 ≤ (i 1).val ∧ (i 1).val < win9_4.index _ (1 : Fin 2) * 64 + 64
    rw [e9]
    omega

/-- The output array after the region, of the arrays as the region finds them. -/
theorem final (c : Dev nD) : (dat9 V c).arrAt 4 cfg9.N
    = GinSpec.affine (n := 50000) (k := 64) (m := 64) (add2 (n := 50000) (V c main_v115) (V c main_v125)) (V c main_v127) (GinSpec.unrow (V c main_v130)) :=
  (dat9 V c).arrAt_eq_of_cover 4 _ (fun t _ => flushed_eq V c t) cover

end Cert.KernelIdeal.Reg9

end
-- ==== Proof.KReg10.lean ====
/-
  What a layer's second dense region leaves in its output array: relu(bn(x))·w + b.

  The node rows are tiled in 5 blocks of 10000; at each block the body normalises, scales, shifts and clamps the block,
  forms the product with the weight matrix and adds the bias row. Entry (r, q) depends only on row r of the
  nodes, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg10

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) (x5 : Vec Ideal S64x64 .f32) (x6 : Vec Ideal S1x64 .f32) :
    k10_pay1 x0 x1 x2 x3 x4 x5 x6 = GinSpec.affine (n := 10000) (k := 64) (m := 64) (GinSpec.bnrelu (n := 10000) x0 (GinSpec.unrow x1) (GinSpec.unrow x2) (GinSpec.unrow x3) (GinSpec.unrow x4)) x5 (GinSpec.unrow x6) := by
  funext j
  obtain ⟨p, q, rfl⟩ : ∃ (p : Fin 10000) (q : Fin 64), j = ix2 p q := ⟨j 0, j 1, eq_ix2 j⟩
  unfold k10_pay1
  simp only [shapeCast_self]
  refine (GinPay.mmrow_apply dot_S10000x64_S64x64_S10000x64_1_0_0_1_n_n_wf _ _ _ x5 x6 p q).trans ?_
  refine GinSpec.affine_congr _ _ _ _ _ _ _ _ (fun kk => ?_) (fun kk => rfl) rfl
  exact GinPay.bn_apply _ x0 x1 x2 x3 x4 p kk

/-- The printed index maps over the grid: the row-tiled windows move down the rows with the point, the parameters stay. -/
theorem idx_facts : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (0 : Fin 2) = t.val
    ∧ win10_7.index t (1 : Fin 2) = 0 :=
  (by decide +kernel : ∀ t : Fin grid10.N, _)

/-- What point t writes back is block t of the one array, of the arrays as the region finds them. -/
theorem flushed_eq (c : Dev nD) (t : Fin cfg10.N) :
    (dat10 V c).flushed 7 t = ((cfg10.win 7).blk t).view.read (Elt Ideal)
      (GinSpec.affine (n := 50000) (k := 64) (m := 64) (GinSpec.bnrelu (n := 50000) (V c main_v131) (GinSpec.unrow (V c main_v135)) (GinSpec.unrow (V c main_v136)) (GinSpec.unrow (V c main_v139)) (GinSpec.unrow (V c main_v142))) (V c main_v144) (GinSpec.unrow (V c main_v147))) := by
  show (cfg10.win 7).cut (grid10.coords t) ((dat10 V c).after 7 t) = _
  rw [after10_7]
  unfold out10_7
  rw [View.canon_unit_zero hz]
  simp only [View.ld_unit_zero (S := S10000x64) hz, View.ld_unit_zero (S := S1x64) hz, View.ld_unit_zero (S := S64x64) hz]
  rw [pay_eq]
  obtain ⟨e0, e1, e2, e3, e4, e5, e6, e7, e8, e9, e10, e11, e12, e13, e14, e15⟩ := idx_facts t
  funext j
  show GinSpec.affine (n := 10000) (k := 64) (m := 64) (GinSpec.bnrelu (n := 10000) (fun y => V c main_v131 (((cfg10.win 0).blk t).view.emb y)) (GinSpec.unrow (fun y => V c main_v135 (((cfg10.win 1).blk t).view.emb y))) (GinSpec.unrow (fun y => V c main_v136 (((cfg10.win 2).blk t).view.emb y))) (GinSpec.unrow (fun y => V c main_v139 (((cfg10.win 3).blk t).view.emb y))) (GinSpec.unrow (fun y => V c main_v142 (((cfg10.win 4).blk t).view.emb y)))) (fun y => V c main_v144 (((cfg10.win 5).blk t).view.emb y)) (GinSpec.unrow (fun y => V c main_v147 (((cfg10.win 6).blk t).view.emb y))) j
      = GinSpec.affine (n := 50000) (k := 64) (m := 64) (GinSpec.bnrelu (n := 50000) (V c main_v131) (GinSpec.unrow (V c main_v135)) (GinSpec.unrow (V c main_v136)) (GinSpec.unrow (V c main_v139)) (GinSpec.unrow (V c main_v142))) (V c main_v144) (GinSpec.unrow (V c main_v147))
        (((cfg10.win 7).blk t).view.emb j)
  have hj0 : (j 0).val < 10000 := (j 0).isLt
  have hj1 : (j 1).val < 64 := (j 1).isLt
  refine GinSpec.affine_congr _ _ _ _ _ _ _ _ (fun kk => ?_) (fun kk => ?_) ?_
  · refine GinSpec.bnrelu_congr _ _ _ _ _ _ _ _ _ _ _ _ ?_ ?_ ?_ ?_ ?_
    · refine congrArg (V c main_v131) (funext fun a => Fin.ext ?_)
      match a with
      | ⟨0, _⟩ => have hkk := kk.isLt; show win10_0.index t (0 : Fin 2) * 10000 + 1 * (j 0).val = win10_7.index t (0 : Fin 2) * 10000 + 1 * (j 0).val; omega
      | ⟨1, _⟩ => have hkk := kk.isLt; show win10_0.index t (1 : Fin 2) * 64 + 1 * kk.val = kk.val; omega
    · refine congrArg (V c main_v135) (funext fun a => Fin.ext ?_)
      match a with
      | ⟨0, _⟩ => have hkk := kk.isLt; show win10_1.index t (0 : Fin 2) * 1 + 1 * 0 = 0; omega
      | ⟨1, _⟩ => have hkk := kk.isLt; show win10_1.index t (1 : Fin 2) * 64 + 1 * kk.val = kk.val; omega
    · refine congrArg (V c main_v136) (funext fun a => Fin.ext ?_)
      match a with
      | ⟨0, _⟩ => have hkk := kk.isLt; show win10_2.index t (0 : Fin 2) * 1 + 1 * 0 = 0; omega
      | ⟨1, _⟩ => have hkk := kk.isLt; show win10_2.index t (1 : Fin 2) * 64 + 1 * kk.val = kk.val; omega
    · refine congrArg (V c main_v139) (funext fun a => Fin.ext ?_)
      match a with
      | ⟨0, _⟩ => have hkk := kk.isLt; show win10_3.index t (0 : Fin 2) * 1 + 1 * 0 = 0; omega
      | ⟨1, _⟩ => have hkk := kk.isLt; show win10_3.index t (1 : Fin 2) * 64 + 1 * kk.val = kk.val; omega
    · refine congrArg (V c main_v142) (funext fun a => Fin.ext ?_)
      match a with
      | ⟨0, _⟩ => have hkk := kk.isLt; show win10_4.index t (0 : Fin 2) * 1 + 1 * 0 = 0; omega
      | ⟨1, _⟩ => have hkk := kk.isLt; show win10_4.index t (1 : Fin 2) * 64 + 1 * kk.val = kk.val; omega
  · refine congrArg (V c main_v144) (funext fun a => Fin.ext ?_)
    match a with
    | ⟨0, _⟩ => have hkk := kk.isLt; show win10_5.index t (0 : Fin 2) * 64 + 1 * kk.val = kk.val; omega
    | ⟨1, _⟩ => have hkk := kk.isLt; show win10_5.index t (1 : Fin 2) * 64 + 1 * (j 1).val = win10_7.index t (1 : Fin 2) * 64 + 1 * (j 1).val; omega
  · refine congrArg (V c main_v147) (funext fun a => Fin.ext ?_)
    match a with
    | ⟨0, _⟩ => show win10_6.index t (0 : Fin 2) * 1 + 1 * 0 = 0; omega
    | ⟨1, _⟩ => show win10_6.index t (1 : Fin 2) * 64 + 1 * (j 1).val = win10_7.index t (1 : Fin 2) * 64 + 1 * (j 1).val; omega

/-- An index of the output array is in point t's block iff each coordinate is in the block's range. -/
theorem mem_blk (t : Fin cfg10.N) (i : S50000x64.Idx) :
    i ∈ ((cfg10.win 7).blk t).view.set ↔ ∀ a : Fin 2, win10_7.index t a * S10000x64.size a ≤ (i a).val ∧ (i a).val < win10_7.index t a * S10000x64.size a + S10000x64.size a := by
  show i ∈ ((View.whole main_v148).slice (win10_7.rect t)).set ↔ _
  rw [View.set_slice_whole, Rect.mem_set_unit]
  exact Iff.rfl

/-- Every row lies in the block of the point numbered by its row divided by the block height. -/
theorem cover (i : S50000x64.Idx) : ∃ t : Fin cfg10.N, (cfg10.win 7).flush t = true ∧ i ∈ ((cfg10.win 7).blk t).view.set := by
  have hi0 : (i 0).val < 50000 := (i 0).isLt
  have hi1 : (i 1).val < 64 := (i 1).isLt
  have hN : cfg10.N = 5 := N_10
  have ht : (i 0).val / 10000 < cfg10.N := by rw [hN]; omega
  refine ⟨⟨(i 0).val / 10000, ht⟩, flush10_7 _, ?_⟩
  rw [mem_blk]
  obtain ⟨e0, e1, e2, e3, e4, e5, e6, e7, e8, e9, e10, e11, e12, e13, e14, e15⟩ := idx_facts ⟨(i 0).val / 10000, ht⟩
  intro a
  match a with
  | ⟨0, _⟩ =>
    show win10_7.index _ (0 : Fin 2) * 10000 ≤ (i 0).val ∧ (i 0).val < win10_7.index _ (0 : Fin 2) * 10000 + 10000
    rw [e14]
    show (i 0).val / 10000 * 10000 ≤ (i 0).val ∧ (i 0).val < (i 0).val / 10000 * 10000 + 10000
    omega
  | ⟨1, _⟩ =>
    show win10_7.index _ (1 : Fin 2) * 64 ≤ (i 1).val ∧ (i 1).val < win10_7.index _ (1 : Fin 2) * 64 + 64
    rw [e15]
    omega

/-- The output array after the region, of the arrays as the region finds them. -/
theorem final (c : Dev nD) : (dat10 V c).arrAt 7 cfg10.N
    = GinSpec.affine (n := 50000) (k := 64) (m := 64) (GinSpec.bnrelu (n := 50000) (V c main_v131) (GinSpec.unrow (V c main_v135)) (GinSpec.unrow (V c main_v136)) (GinSpec.unrow (V c main_v139)) (GinSpec.unrow (V c main_v142))) (V c main_v144) (GinSpec.unrow (V c main_v147)) :=
  (dat10 V c).arrAt_eq_of_cover 7 _ (fun t _ => flushed_eq V c t) cover

end Cert.KernelIdeal.Reg10

end
-- ==== Proof.KReg11.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg11

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k11_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k11_pay1
  simp only [shapeCast_self]
  exact GinPay.bn_apply _ x0 x1 x2 x3 x4 p q

/-- The printed index maps over the grid: the row-tiled windows move down the rows with the point, the parameters stay. -/
theorem idx_facts : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = t.val
    ∧ win11_5.index t (1 : Fin 2) = 0 :=
  (by decide +kernel : ∀ t : Fin grid11.N, _)

/-- What point t writes back is block t of the one array, of the arrays as the region finds them. -/
theorem flushed_eq (c : Dev nD) (t : Fin cfg11.N) :
    (dat11 V c).flushed 5 t = ((cfg11.win 5).blk t).view.read (Elt Ideal)
      (GinSpec.bnrelu (n := 50000) (V c main_v148) (GinSpec.unrow (V c main_v152)) (GinSpec.unrow (V c main_v153)) (GinSpec.unrow (V c main_v156)) (GinSpec.unrow (V c main_v159))) := by
  show (cfg11.win 5).cut (grid11.coords t) ((dat11 V c).after 5 t) = _
  rw [after11_5]
  unfold out11_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v148 (((cfg11.win 0).blk t).view.emb y)) (GinSpec.unrow (fun y => V c main_v152 (((cfg11.win 1).blk t).view.emb y))) (GinSpec.unrow (fun y => V c main_v153 (((cfg11.win 2).blk t).view.emb y))) (GinSpec.unrow (fun y => V c main_v156 (((cfg11.win 3).blk t).view.emb y))) (GinSpec.unrow (fun y => V c main_v159 (((cfg11.win 4).blk t).view.emb y))) j
      = GinSpec.bnrelu (n := 50000) (V c main_v148) (GinSpec.unrow (V c main_v152)) (GinSpec.unrow (V c main_v153)) (GinSpec.unrow (V c main_v156)) (GinSpec.unrow (V c main_v159))
        (((cfg11.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v148) (funext fun a => Fin.ext ?_)
    match a with
    | ⟨0, _⟩ => show win11_0.index t (0 : Fin 2) * 10000 + 1 * (j 0).val = win11_5.index t (0 : Fin 2) * 10000 + 1 * (j 0).val; omega
    | ⟨1, _⟩ => show win11_0.index t (1 : Fin 2) * 64 + 1 * (j 1).val = win11_5.index t (1 : Fin 2) * 64 + 1 * (j 1).val; omega
  · refine congrArg (V c main_v152) (funext fun a => Fin.ext ?_)
    match a with
    | ⟨0, _⟩ => show win11_1.index t (0 : Fin 2) * 1 + 1 * 0 = 0; omega
    | ⟨1, _⟩ => show win11_1.index t (1 : Fin 2) * 64 + 1 * (j 1).val = win11_5.index t (1 : Fin 2) * 64 + 1 * (j 1).val; omega
  · refine congrArg (V c main_v153) (funext fun a => Fin.ext ?_)
    match a with
    | ⟨0, _⟩ => show win11_2.index t (0 : Fin 2) * 1 + 1 * 0 = 0; omega
    | ⟨1, _⟩ => show win11_2.index t (1 : Fin 2) * 64 + 1 * (j 1).val = win11_5.index t (1 : Fin 2) * 64 + 1 * (j 1).val; omega
  · refine congrArg (V c main_v156) (funext fun a => Fin.ext ?_)
    match a with
    | ⟨0, _⟩ => show win11_3.index t (0 : Fin 2) * 1 + 1 * 0 = 0; omega
    | ⟨1, _⟩ => show win11_3.index t (1 : Fin 2) * 64 + 1 * (j 1).val = win11_5.index t (1 : Fin 2) * 64 + 1 * (j 1).val; omega
  · refine congrArg (V c main_v159) (funext fun a => Fin.ext ?_)
    match a with
    | ⟨0, _⟩ => show win11_4.index t (0 : Fin 2) * 1 + 1 * 0 = 0; omega
    | ⟨1, _⟩ => show win11_4.index t (1 : Fin 2) * 64 + 1 * (j 1).val = win11_5.index t (1 : Fin 2) * 64 + 1 * (j 1).val; omega

/-- An index of the output array is in point t's block iff each coordinate is in the block's range. -/
theorem mem_blk (t : Fin cfg11.N) (i : S50000x64.Idx) :
    i ∈ ((cfg11.win 5).blk t).view.set ↔ ∀ a : Fin 2, win11_5.index t a * S10000x64.size a ≤ (i a).val ∧ (i a).val < win11_5.index t a * S10000x64.size a + S10000x64.size a := by
  show i ∈ ((View.whole main_v160).slice (win11_5.rect t)).set ↔ _
  rw [View.set_slice_whole, Rect.mem_set_unit]
  exact Iff.rfl

/-- Every row lies in the block of the point numbered by its row divided by the block height. -/
theorem cover (i : S50000x64.Idx) : ∃ t : Fin cfg11.N, (cfg11.win 5).flush t = true ∧ i ∈ ((cfg11.win 5).blk t).view.set := by
  have hi0 : (i 0).val < 50000 := (i 0).isLt
  have hi1 : (i 1).val < 64 := (i 1).isLt
  have hN : cfg11.N = 5 := N_11
  have ht : (i 0).val / 10000 < cfg11.N := by rw [hN]; omega
  refine ⟨⟨(i 0).val / 10000, ht⟩, flush11_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win11_5.index _ (0 : Fin 2) * 10000 ≤ (i 0).val ∧ (i 0).val < win11_5.index _ (0 : Fin 2) * 10000 + 10000
    rw [e10]
    show (i 0).val / 10000 * 10000 ≤ (i 0).val ∧ (i 0).val < (i 0).val / 10000 * 10000 + 10000
    omega
  | ⟨1, _⟩ =>
    show win11_5.index _ (1 : Fin 2) * 64 ≤ (i 1).val ∧ (i 1).val < win11_5.index _ (1 : Fin 2) * 64 + 64
    rw [e11]
    omega

/-- The output array after the region, of the arrays as the region finds them. -/
theorem final (c : Dev nD) : (dat11 V c).arrAt 5 cfg11.N
    = GinSpec.bnrelu (n := 50000) (V c main_v148) (GinSpec.unrow (V c main_v152)) (GinSpec.unrow (V c main_v153)) (GinSpec.unrow (V c main_v156)) (GinSpec.unrow (V c main_v159)) :=
  (dat11 V c).arrAt_eq_of_cover 5 _ (fun t _ => flushed_eq V c t) cover

end Cert.KernelIdeal.Reg11

end
-- ==== Proof.KReg12.lean ====
/-
  What a normalise-and-clamp region leaves in its output array.

  The node rows are tiled in 5 blocks of 10000; at each block the body subtracts the mean row, scales by the gain row
  and the inverse root of the variance row plus ε, adds the shift row and clamps below at 0. Entry (r, q) reads
  the block at (r, q) and each parameter row at q, so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg12

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S10000x64 .f32) (x1 : Vec Ideal S1x64 .f32) (x2 : Vec Ideal S1x64 .f32) (x3 : Vec Ideal S1x64 .f32) (x4 : Vec Ideal S1x64 .f32) :
    k12_pay1 x0 x1 x2 x3 x4 = GinSpec.bnrelu (n := 10000) x0 (GinSpec.unrow x1) (GinSpec.unrow x2) (GinSpec.unrow x3) (GinSpec.unrow x4) := by
  funext j
  obtain ⟨p, q, rfl⟩ : ∃ (p : Fin 10000) (q : Fin 64), j = ix2 p q := ⟨j 0, j 1, eq_ix2 j⟩
  unfold k12_pay1
  simp only [shapeCast_self]
  exact GinPay.bn_apply _ x0 x1 x2 x3 x4 p q

/-- The printed index maps over the grid: the row-tiled windows move down the rows with the point, the parameters stay. -/
theorem idx_facts : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = t.val
    ∧ win12_5.index t (1 : Fin 2) = 0 :=
  (by decide +kernel : ∀ t : Fin grid12.N, _)

/-- What point t writes back is block t of the one array, of the arrays as the region finds them. -/
theorem flushed_eq (c : Dev nD) (t : Fin cfg12.N) :
    (dat12 V c).flushed 5 t = ((cfg12.win 5).blk t).view.read (Elt Ideal)
      (GinSpec.bnrelu (n := 50000) (V c main_v160) (GinSpec.unrow (V c main_v164)) (GinSpec.unrow (V c main_v165)) (GinSpec.unrow (V c main_v168)) (GinSpec.unrow (V c main_v171))) := by
  show (cfg12.win 5).cut (grid12.coords t) ((dat12 V c).after 5 t) = _
  rw [after12_5]
  unfold out12_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  show GinSpec.bnrelu (n := 10000) (fun y => V c main_v160 (((cfg12.win 0).blk t).view.emb y)) (GinSpec.unrow (fun y => V c main_v164 (((cfg12.win 1).blk t).view.emb y))) (GinSpec.unrow (fun y => V c main_v165 (((cfg12.win 2).blk t).view.emb y))) (GinSpec.unrow (fun y => V c main_v168 (((cfg12.win 3).blk t).view.emb y))) (GinSpec.unrow (fun y => V c main_v171 (((cfg12.win 4).blk t).view.emb y))) j
      = GinSpec.bnrelu (n := 50000) (V c main_v160) (GinSpec.unrow (V c main_v164)) (GinSpec.unrow (V c main_v165)) (GinSpec.unrow (V c main_v168)) (GinSpec.unrow (V c main_v171))
        (((cfg12.win 5).blk t).view.emb j)
  have hj0 : (j 0).val < 10000 := (j 0).isLt
  have hj1 : (j 1).val < 64 := (j 1).isLt
  refine GinSpec.bnrelu_congr _ _ _ _ _ _ _ _ _ _ _ _ ?_ ?_ ?_ ?_ ?_
  · refine congrArg (V c main_v160) (funext fun a => Fin.ext ?_)
    match a with
    | ⟨0, _⟩ => show win12_0.index t (0 : Fin 2) * 10000 + 1 * (j 0).val = win12_5.index t (0 : Fin 2) * 10000 + 1 * (j 0).val; omega
    | ⟨1, _⟩ => show win12_0.index t (1 : Fin 2) * 64 + 1 * (j 1).val = win12_5.index t (1 : Fin 2) * 64 + 1 * (j 1).val; omega
  · refine congrArg (V c main_v164) (funext fun a => Fin.ext ?_)
    match a with
    | ⟨0, _⟩ => show win12_1.index t (0 : Fin 2) * 1 + 1 * 0 = 0; omega
    | ⟨1, _⟩ => show win12_1.index t (1 : Fin 2) * 64 + 1 * (j 1).val = win12_5.index t (1 : Fin 2) * 64 + 1 * (j 1).val; omega
  · refine congrArg (V c main_v165) (funext fun a => Fin.ext ?_)
    match a with
    | ⟨0, _⟩ => show win12_2.index t (0 : Fin 2) * 1 + 1 * 0 = 0; omega
    | ⟨1, _⟩ => show win12_2.index t (1 : Fin 2) * 64 + 1 * (j 1).val = win12_5.index t (1 : Fin 2) * 64 + 1 * (j 1).val; omega
  · refine congrArg (V c main_v168) (funext fun a => Fin.ext ?_)
    match a with
    | ⟨0, _⟩ => show win12_3.index t (0 : Fin 2) * 1 + 1 * 0 = 0; omega
    | ⟨1, _⟩ => show win12_3.index t (1 : Fin 2) * 64 + 1 * (j 1).val = win12_5.index t (1 : Fin 2) * 64 + 1 * (j 1).val; omega
  · refine congrArg (V c main_v171) (funext fun a => Fin.ext ?_)
    match a with
    | ⟨0, _⟩ => show win12_4.index t (0 : Fin 2) * 1 + 1 * 0 = 0; omega
    | ⟨1, _⟩ => show win12_4.index t (1 : Fin 2) * 64 + 1 * (j 1).val = win12_5.index t (1 : Fin 2) * 64 + 1 * (j 1).val; omega

/-- An index of the output array is in point t's block iff each coordinate is in the block's range. -/
theorem mem_blk (t : Fin cfg12.N) (i : S50000x64.Idx) :
    i ∈ ((cfg12.win 5).blk t).view.set ↔ ∀ a : Fin 2, win12_5.index t a * S10000x64.size a ≤ (i a).val ∧ (i a).val < win12_5.index t a * S10000x64.size a + S10000x64.size a := by
  show i ∈ ((View.whole main_v172).slice (win12_5.rect t)).set ↔ _
  rw [View.set_slice_whole, Rect.mem_set_unit]
  exact Iff.rfl

/-- Every row lies in the block of the point numbered by its row divided by the block height. -/
theorem cover (i : S50000x64.Idx) : ∃ t : Fin cfg12.N, (cfg12.win 5).flush t = true ∧ i ∈ ((cfg12.win 5).blk t).view.set := by
  have hi0 : (i 0).val < 50000 := (i 0).isLt
  have hi1 : (i 1).val < 64 := (i 1).isLt
  have hN : cfg12.N = 5 := N_12
  have ht : (i 0).val / 10000 < cfg12.N := by rw [hN]; omega
  refine ⟨⟨(i 0).val / 10000, ht⟩, flush12_5 _, ?_⟩
  rw [mem_blk]
  obtain ⟨e0, e1, e2, e3, e4, e5, e6, e7, e8, e9, e10, e11⟩ := idx_facts ⟨(i 0).val / 10000, ht⟩
  intro a
  match a with
  | ⟨0, _⟩ =>
    show win12_5.index _ (0 : Fin 2) * 10000 ≤ (i 0).val ∧ (i 0).val < win12_5.index _ (0 : Fin 2) * 10000 + 10000
    rw [e10]
    show (i 0).val / 10000 * 10000 ≤ (i 0).val ∧ (i 0).val < (i 0).val / 10000 * 10000 + 10000
    omega
  | ⟨1, _⟩ =>
    show win12_5.index _ (1 : Fin 2) * 64 ≤ (i 1).val ∧ (i 1).val < win12_5.index _ (1 : Fin 2) * 64 + 64
    rw [e11]
    omega

/-- The output array after the region, of the arrays as the region finds them. -/
theorem final (c : Dev nD) : (dat12 V c).arrAt 5 cfg12.N
    = GinSpec.bnrelu (n := 50000) (V c main_v160) (GinSpec.unrow (V c main_v164)) (GinSpec.unrow (V c main_v165)) (GinSpec.unrow (V c main_v168)) (GinSpec.unrow (V c main_v171)) :=
  (dat12 V c).arrAt_eq_of_cover 5 _ (fun t _ => flushed_eq V c t) cover

end Cert.KernelIdeal.Reg12

end
-- ==== Proof.KReg13.lean ====
/-
  What an edge-perceptron region leaves in its output array: relu(s·A + d·B + b₁)·W₂ + b₂.

  The 800000 edge rows are tiled in 50 blocks of 16000; at each block the body forms the two products of the endpoint rows
  with the two halves of the first weight matrix, adds the bias row, clamps below at 0, forms the product with
  the second weight matrix and adds its bias row. Entry (r, q) depends only on row r of the two endpoint arrays,
  so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg13

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S16000x64 .f32) (x1 : Vec Ideal S16000x64 .f32) (x2 : Vec Ideal S64x64 .f32) (x3 : Vec Ideal S64x64 .f32) (x4 : Vec Ideal S1x64 .f32) (x5 : Vec Ideal S64x2 .f32) (x6 : Vec Ideal S1x2 .f32) :
    k13_pay1 x0 x1 x2 x3 x4 x5 x6 = GinSpec.affine (n := 16000) (k := 64) (m := 2) (GinSpec.hid2 (n := 16000) x0 x1 x2 x3 (GinSpec.unrow x4)) x5 (GinSpec.unrow x6) := by
  funext j
  obtain ⟨p, q, rfl⟩ : ∃ (p : Fin 16000) (q : Fin 2), j = ix2 p q := ⟨j 0, j 1, eq_ix2 j⟩
  unfold k13_pay1
  simp only [shapeCast_self]
  refine (GinPay.mmrow_apply dot_S16000x64_S64x2_S16000x2_1_0_0_1_n_n_wf _ _ _ x5 x6 p q).trans ?_
  refine GinSpec.affine_congr _ _ _ _ _ _ _ _ (fun kk => ?_) (fun kk => rfl) rfl
  exact GinPay.hid_apply dot_S16000x64_S64x64_S16000x64_1_0_0_1_n_n_wf _ _ x0 x1 x2 x3 x4 p kk

/-- The printed index maps over the grid: the row-tiled windows move down the rows with the point, the parameters stay. -/
theorem idx_facts : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = 0
    ∧ win13_6.index t (1 : Fin 2) = 0
    ∧ win13_7.index t (0 : Fin 2) = t.val
    ∧ win13_7.index t (1 : Fin 2) = 0 :=
  (by decide +kernel : ∀ t : Fin grid13.N, _)

/-- What point t writes back is block t of the one array, of the arrays as the region finds them. -/
theorem flushed_eq (c : Dev nD) (t : Fin cfg13.N) :
    (dat13 V c).flushed 7 t = ((cfg13.win 7).blk t).view.read (Elt Ideal)
      (GinSpec.affine (n := 800000) (k := 64) (m := 2) (GinSpec.hid2 (n := 800000) (V c main_v180) (V c main_v187) (V c main_v189) (V c main_v191) (GinSpec.unrow (V c main_v194))) (V c main_v196) (GinSpec.unrow (V c main_v199))) := by
  show (cfg13.win 7).cut (grid13.coords t) ((dat13 V c).after 7 t) = _
  rw [after13_7]
  unfold out13_7
  rw [View.canon_unit_zero hz]
  simp only [View.ld_unit_zero (S := S16000x64) hz, View.ld_unit_zero (S := S64x64) hz, View.ld_unit_zero (S := S1x64) hz, View.ld_unit_zero (S := S64x2) hz, View.ld_unit_zero (S := S1x2) hz]
  rw [pay_eq]
  obtain ⟨e0, e1, e2, e3, e4, e5, e6, e7, e8, e9, e10, e11, e12, e13, e14, e15⟩ := idx_facts t
  funext j
  show GinSpec.affine (n := 16000) (k := 64) (m := 2) (GinSpec.hid2 (n := 16000) (fun y => V c main_v180 (((cfg13.win 0).blk t).view.emb y)) (fun y => V c main_v187 (((cfg13.win 1).blk t).view.emb y)) (fun y => V c main_v189 (((cfg13.win 2).blk t).view.emb y)) (fun y => V c main_v191 (((cfg13.win 3).blk t).view.emb y)) (GinSpec.unrow (fun y => V c main_v194 (((cfg13.win 4).blk t).view.emb y)))) (fun y => V c main_v196 (((cfg13.win 5).blk t).view.emb y)) (GinSpec.unrow (fun y => V c main_v199 (((cfg13.win 6).blk t).view.emb y))) j
      = GinSpec.affine (n := 800000) (k := 64) (m := 2) (GinSpec.hid2 (n := 800000) (V c main_v180) (V c main_v187) (V c main_v189) (V c main_v191) (GinSpec.unrow (V c main_v194))) (V c main_v196) (GinSpec.unrow (V c main_v199))
        (((cfg13.win 7).blk t).view.emb j)
  have hj0 : (j 0).val < 16000 := (j 0).isLt
  have hj1 : (j 1).val < 2 := (j 1).isLt
  refine GinSpec.affine_congr _ _ _ _ _ _ _ _ (fun kk => ?_) (fun kk => ?_) ?_
  · refine GinSpec.hid2_congr _ _ _ _ _ _ _ _ _ _ _ _ (fun kk' => ?_) (fun kk' => ?_) (fun kk' => ?_) (fun kk' => ?_) ?_
    · refine congrArg (V c main_v180) (funext fun a => Fin.ext ?_)
      match a with
      | ⟨0, _⟩ => have hkk' := kk'.isLt; show win13_0.index t (0 : Fin 2) * 16000 + 1 * (j 0).val = win13_7.index t (0 : Fin 2) * 16000 + 1 * (j 0).val; omega
      | ⟨1, _⟩ => have hkk' := kk'.isLt; show win13_0.index t (1 : Fin 2) * 64 + 1 * kk'.val = kk'.val; omega
    · refine congrArg (V c main_v187) (funext fun a => Fin.ext ?_)
      match a with
      | ⟨0, _⟩ => have hkk' := kk'.isLt; show win13_1.index t (0 : Fin 2) * 16000 + 1 * (j 0).val = win13_7.index t (0 : Fin 2) * 16000 + 1 * (j 0).val; omega
      | ⟨1, _⟩ => have hkk' := kk'.isLt; show win13_1.index t (1 : Fin 2) * 64 + 1 * kk'.val = kk'.val; omega
    · refine congrArg (V c main_v189) (funext fun a => Fin.ext ?_)
      match a with
      | ⟨0, _⟩ => have hkk := kk.isLt; have hkk' := kk'.isLt; show win13_2.index t (0 : Fin 2) * 64 + 1 * kk'.val = kk'.val; omega
      | ⟨1, _⟩ => have hkk := kk.isLt; have hkk' := kk'.isLt; show win13_2.index t (1 : Fin 2) * 64 + 1 * kk.val = kk.val; omega
    · refine congrArg (V c main_v191) (funext fun a => Fin.ext ?_)
      match a with
      | ⟨0, _⟩ => have hkk := kk.isLt; have hkk' := kk'.isLt; show win13_3.index t (0 : Fin 2) * 64 + 1 * kk'.val = kk'.val; omega
      | ⟨1, _⟩ => have hkk := kk.isLt; have hkk' := kk'.isLt; show win13_3.index t (1 : Fin 2) * 64 + 1 * kk.val = kk.val; omega
    · refine congrArg (V c main_v194) (funext fun a => Fin.ext ?_)
      match a with
      | ⟨0, _⟩ => have hkk := kk.isLt; show win13_4.index t (0 : Fin 2) * 1 + 1 * 0 = 0; omega
      | ⟨1, _⟩ => have hkk := kk.isLt; show win13_4.index t (1 : Fin 2) * 64 + 1 * kk.val = kk.val; omega
  · refine congrArg (V c main_v196) (funext fun a => Fin.ext ?_)
    match a with
    | ⟨0, _⟩ => have hkk := kk.isLt; show win13_5.index t (0 : Fin 2) * 64 + 1 * kk.val = kk.val; omega
    | ⟨1, _⟩ => have hkk := kk.isLt; show win13_5.index t (1 : Fin 2) * 2 + 1 * (j 1).val = win13_7.index t (1 : Fin 2) * 2 + 1 * (j 1).val; omega
  · refine congrArg (V c main_v199) (funext fun a => Fin.ext ?_)
    match a with
    | ⟨0, _⟩ => show win13_6.index t (0 : Fin 2) * 1 + 1 * 0 = 0; omega
    | ⟨1, _⟩ => show win13_6.index t (1 : Fin 2) * 2 + 1 * (j 1).val = win13_7.index t (1 : Fin 2) * 2 + 1 * (j 1).val; omega

/-- An index of the output array is in point t's block iff each coordinate is in the block's range. -/
theorem mem_blk (t : Fin cfg13.N) (i : S800000x2.Idx) :
    i ∈ ((cfg13.win 7).blk t).view.set ↔ ∀ a : Fin 2, win13_7.index t a * S16000x2.size a ≤ (i a).val ∧ (i a).val < win13_7.index t a * S16000x2.size a + S16000x2.size a := by
  show i ∈ ((View.whole main_v200).slice (win13_7.rect t)).set ↔ _
  rw [View.set_slice_whole, Rect.mem_set_unit]
  exact Iff.rfl

/-- Every row lies in the block of the point numbered by its row divided by the block height. -/
theorem cover (i : S800000x2.Idx) : ∃ t : Fin cfg13.N, (cfg13.win 7).flush t = true ∧ i ∈ ((cfg13.win 7).blk t).view.set := by
  have hi0 : (i 0).val < 800000 := (i 0).isLt
  have hi1 : (i 1).val < 2 := (i 1).isLt
  have hN : cfg13.N = 50 := N_13
  have ht : (i 0).val / 16000 < cfg13.N := by rw [hN]; omega
  refine ⟨⟨(i 0).val / 16000, ht⟩, flush13_7 _, ?_⟩
  rw [mem_blk]
  obtain ⟨e0, e1, e2, e3, e4, e5, e6, e7, e8, e9, e10, e11, e12, e13, e14, e15⟩ := idx_facts ⟨(i 0).val / 16000, ht⟩
  intro a
  match a with
  | ⟨0, _⟩ =>
    show win13_7.index _ (0 : Fin 2) * 16000 ≤ (i 0).val ∧ (i 0).val < win13_7.index _ (0 : Fin 2) * 16000 + 16000
    rw [e14]
    show (i 0).val / 16000 * 16000 ≤ (i 0).val ∧ (i 0).val < (i 0).val / 16000 * 16000 + 16000
    omega
  | ⟨1, _⟩ =>
    show win13_7.index _ (1 : Fin 2) * 2 ≤ (i 1).val ∧ (i 1).val < win13_7.index _ (1 : Fin 2) * 2 + 2
    rw [e15]
    omega

/-- The output array after the region, of the arrays as the region finds them. -/
theorem final (c : Dev nD) : (dat13 V c).arrAt 7 cfg13.N
    = GinSpec.affine (n := 800000) (k := 64) (m := 2) (GinSpec.hid2 (n := 800000) (V c main_v180) (V c main_v187) (V c main_v189) (V c main_v191) (GinSpec.unrow (V c main_v194))) (V c main_v196) (GinSpec.unrow (V c main_v199)) :=
  (dat13 V c).arrAt_eq_of_cover 7 _ (fun t _ => flushed_eq V c t) cover

end Cert.KernelIdeal.Reg13

end
-- ==== Proof.KReg14.lean ====
/-
  What an edge-perceptron region leaves in its output array: relu(s·A + d·B + b₁)·W₂ + b₂.

  The 800000 edge rows are tiled in 50 blocks of 16000; at each block the body forms the two products of the endpoint rows
  with the two halves of the first weight matrix, adds the bias row, clamps below at 0, forms the product with
  the second weight matrix and adds its bias row. Entry (r, q) depends only on row r of the two endpoint arrays,
  so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg14

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S16000x64 .f32) (x1 : Vec Ideal S16000x64 .f32) (x2 : Vec Ideal S64x64 .f32) (x3 : Vec Ideal S64x64 .f32) (x4 : Vec Ideal S1x64 .f32) (x5 : Vec Ideal S64x2 .f32) (x6 : Vec Ideal S1x2 .f32) :
    k14_pay1 x0 x1 x2 x3 x4 x5 x6 = GinSpec.affine (n := 16000) (k := 64) (m := 2) (GinSpec.hid2 (n := 16000) x0 x1 x2 x3 (GinSpec.unrow x4)) x5 (GinSpec.unrow x6) := by
  funext j
  obtain ⟨p, q, rfl⟩ : ∃ (p : Fin 16000) (q : Fin 2), j = ix2 p q := ⟨j 0, j 1, eq_ix2 j⟩
  unfold k14_pay1
  simp only [shapeCast_self]
  refine (GinPay.mmrow_apply dot_S16000x64_S64x2_S16000x2_1_0_0_1_n_n_wf _ _ _ x5 x6 p q).trans ?_
  refine GinSpec.affine_congr _ _ _ _ _ _ _ _ (fun kk => ?_) (fun kk => rfl) rfl
  exact GinPay.hid_apply dot_S16000x64_S64x64_S16000x64_1_0_0_1_n_n_wf _ _ x0 x1 x2 x3 x4 p kk

/-- The printed index maps over the grid: the row-tiled windows move down the rows with the point, the parameters stay. -/
theorem idx_facts : ∀ t : Fin cfg14.N, win14_0.index t (0 : Fin 2) = t.val
    ∧ win14_0.index t (1 : Fin 2) = 0
    ∧ win14_1.index t (0 : Fin 2) = t.val
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (0 : Fin 2) = 0
    ∧ win14_4.index t (1 : Fin 2) = 0
    ∧ win14_5.index t (0 : Fin 2) = 0
    ∧ win14_5.index t (1 : Fin 2) = 0
    ∧ win14_6.index t (0 : Fin 2) = 0
    ∧ win14_6.index t (1 : Fin 2) = 0
    ∧ win14_7.index t (0 : Fin 2) = t.val
    ∧ win14_7.index t (1 : Fin 2) = 0 :=
  (by decide +kernel : ∀ t : Fin grid14.N, _)

/-- What point t writes back is block t of the one array, of the arrays as the region finds them. -/
theorem flushed_eq (c : Dev nD) (t : Fin cfg14.N) :
    (dat14 V c).flushed 7 t = ((cfg14.win 7).blk t).view.read (Elt Ideal)
      (GinSpec.affine (n := 800000) (k := 64) (m := 2) (GinSpec.hid2 (n := 800000) (V c main_v208) (V c main_v215) (V c main_v217) (V c main_v219) (GinSpec.unrow (V c main_v222))) (V c main_v224) (GinSpec.unrow (V c main_v227))) := by
  show (cfg14.win 7).cut (grid14.coords t) ((dat14 V c).after 7 t) = _
  rw [after14_7]
  unfold out14_7
  rw [View.canon_unit_zero hz]
  simp only [View.ld_unit_zero (S := S16000x64) hz, View.ld_unit_zero (S := S64x64) hz, View.ld_unit_zero (S := S1x64) hz, View.ld_unit_zero (S := S64x2) hz, View.ld_unit_zero (S := S1x2) hz]
  rw [pay_eq]
  obtain ⟨e0, e1, e2, e3, e4, e5, e6, e7, e8, e9, e10, e11, e12, e13, e14, e15⟩ := idx_facts t
  funext j
  show GinSpec.affine (n := 16000) (k := 64) (m := 2) (GinSpec.hid2 (n := 16000) (fun y => V c main_v208 (((cfg14.win 0).blk t).view.emb y)) (fun y => V c main_v215 (((cfg14.win 1).blk t).view.emb y)) (fun y => V c main_v217 (((cfg14.win 2).blk t).view.emb y)) (fun y => V c main_v219 (((cfg14.win 3).blk t).view.emb y)) (GinSpec.unrow (fun y => V c main_v222 (((cfg14.win 4).blk t).view.emb y)))) (fun y => V c main_v224 (((cfg14.win 5).blk t).view.emb y)) (GinSpec.unrow (fun y => V c main_v227 (((cfg14.win 6).blk t).view.emb y))) j
      = GinSpec.affine (n := 800000) (k := 64) (m := 2) (GinSpec.hid2 (n := 800000) (V c main_v208) (V c main_v215) (V c main_v217) (V c main_v219) (GinSpec.unrow (V c main_v222))) (V c main_v224) (GinSpec.unrow (V c main_v227))
        (((cfg14.win 7).blk t).view.emb j)
  have hj0 : (j 0).val < 16000 := (j 0).isLt
  have hj1 : (j 1).val < 2 := (j 1).isLt
  refine GinSpec.affine_congr _ _ _ _ _ _ _ _ (fun kk => ?_) (fun kk => ?_) ?_
  · refine GinSpec.hid2_congr _ _ _ _ _ _ _ _ _ _ _ _ (fun kk' => ?_) (fun kk' => ?_) (fun kk' => ?_) (fun kk' => ?_) ?_
    · refine congrArg (V c main_v208) (funext fun a => Fin.ext ?_)
      match a with
      | ⟨0, _⟩ => have hkk' := kk'.isLt; show win14_0.index t (0 : Fin 2) * 16000 + 1 * (j 0).val = win14_7.index t (0 : Fin 2) * 16000 + 1 * (j 0).val; omega
      | ⟨1, _⟩ => have hkk' := kk'.isLt; show win14_0.index t (1 : Fin 2) * 64 + 1 * kk'.val = kk'.val; omega
    · refine congrArg (V c main_v215) (funext fun a => Fin.ext ?_)
      match a with
      | ⟨0, _⟩ => have hkk' := kk'.isLt; show win14_1.index t (0 : Fin 2) * 16000 + 1 * (j 0).val = win14_7.index t (0 : Fin 2) * 16000 + 1 * (j 0).val; omega
      | ⟨1, _⟩ => have hkk' := kk'.isLt; show win14_1.index t (1 : Fin 2) * 64 + 1 * kk'.val = kk'.val; omega
    · refine congrArg (V c main_v217) (funext fun a => Fin.ext ?_)
      match a with
      | ⟨0, _⟩ => have hkk := kk.isLt; have hkk' := kk'.isLt; show win14_2.index t (0 : Fin 2) * 64 + 1 * kk'.val = kk'.val; omega
      | ⟨1, _⟩ => have hkk := kk.isLt; have hkk' := kk'.isLt; show win14_2.index t (1 : Fin 2) * 64 + 1 * kk.val = kk.val; omega
    · refine congrArg (V c main_v219) (funext fun a => Fin.ext ?_)
      match a with
      | ⟨0, _⟩ => have hkk := kk.isLt; have hkk' := kk'.isLt; show win14_3.index t (0 : Fin 2) * 64 + 1 * kk'.val = kk'.val; omega
      | ⟨1, _⟩ => have hkk := kk.isLt; have hkk' := kk'.isLt; show win14_3.index t (1 : Fin 2) * 64 + 1 * kk.val = kk.val; omega
    · refine congrArg (V c main_v222) (funext fun a => Fin.ext ?_)
      match a with
      | ⟨0, _⟩ => have hkk := kk.isLt; show win14_4.index t (0 : Fin 2) * 1 + 1 * 0 = 0; omega
      | ⟨1, _⟩ => have hkk := kk.isLt; show win14_4.index t (1 : Fin 2) * 64 + 1 * kk.val = kk.val; omega
  · refine congrArg (V c main_v224) (funext fun a => Fin.ext ?_)
    match a with
    | ⟨0, _⟩ => have hkk := kk.isLt; show win14_5.index t (0 : Fin 2) * 64 + 1 * kk.val = kk.val; omega
    | ⟨1, _⟩ => have hkk := kk.isLt; show win14_5.index t (1 : Fin 2) * 2 + 1 * (j 1).val = win14_7.index t (1 : Fin 2) * 2 + 1 * (j 1).val; omega
  · refine congrArg (V c main_v227) (funext fun a => Fin.ext ?_)
    match a with
    | ⟨0, _⟩ => show win14_6.index t (0 : Fin 2) * 1 + 1 * 0 = 0; omega
    | ⟨1, _⟩ => show win14_6.index t (1 : Fin 2) * 2 + 1 * (j 1).val = win14_7.index t (1 : Fin 2) * 2 + 1 * (j 1).val; omega

/-- An index of the output array is in point t's block iff each coordinate is in the block's range. -/
theorem mem_blk (t : Fin cfg14.N) (i : S800000x2.Idx) :
    i ∈ ((cfg14.win 7).blk t).view.set ↔ ∀ a : Fin 2, win14_7.index t a * S16000x2.size a ≤ (i a).val ∧ (i a).val < win14_7.index t a * S16000x2.size a + S16000x2.size a := by
  show i ∈ ((View.whole main_v228).slice (win14_7.rect t)).set ↔ _
  rw [View.set_slice_whole, Rect.mem_set_unit]
  exact Iff.rfl

/-- Every row lies in the block of the point numbered by its row divided by the block height. -/
theorem cover (i : S800000x2.Idx) : ∃ t : Fin cfg14.N, (cfg14.win 7).flush t = true ∧ i ∈ ((cfg14.win 7).blk t).view.set := by
  have hi0 : (i 0).val < 800000 := (i 0).isLt
  have hi1 : (i 1).val < 2 := (i 1).isLt
  have hN : cfg14.N = 50 := N_14
  have ht : (i 0).val / 16000 < cfg14.N := by rw [hN]; omega
  refine ⟨⟨(i 0).val / 16000, ht⟩, flush14_7 _, ?_⟩
  rw [mem_blk]
  obtain ⟨e0, e1, e2, e3, e4, e5, e6, e7, e8, e9, e10, e11, e12, e13, e14, e15⟩ := idx_facts ⟨(i 0).val / 16000, ht⟩
  intro a
  match a with
  | ⟨0, _⟩ =>
    show win14_7.index _ (0 : Fin 2) * 16000 ≤ (i 0).val ∧ (i 0).val < win14_7.index _ (0 : Fin 2) * 16000 + 16000
    rw [e14]
    show (i 0).val / 16000 * 16000 ≤ (i 0).val ∧ (i 0).val < (i 0).val / 16000 * 16000 + 16000
    omega
  | ⟨1, _⟩ =>
    show win14_7.index _ (1 : Fin 2) * 2 ≤ (i 1).val ∧ (i 1).val < win14_7.index _ (1 : Fin 2) * 2 + 2
    rw [e15]
    omega

/-- The output array after the region, of the arrays as the region finds them. -/
theorem final (c : Dev nD) : (dat14 V c).arrAt 7 cfg14.N
    = GinSpec.affine (n := 800000) (k := 64) (m := 2) (GinSpec.hid2 (n := 800000) (V c main_v208) (V c main_v215) (V c main_v217) (V c main_v219) (GinSpec.unrow (V c main_v222))) (V c main_v224) (GinSpec.unrow (V c main_v227)) :=
  (dat14 V c).arrAt_eq_of_cover 7 _ (fun t _ => flushed_eq V c t) cover

end Cert.KernelIdeal.Reg14

end
-- ==== Proof.KReg15.lean ====
/-
  What an edge-perceptron region leaves in its output array: relu(s·A + d·B + b₁)·W₂ + b₂.

  The 800000 edge rows are tiled in 50 blocks of 16000; at each block the body forms the two products of the endpoint rows
  with the two halves of the first weight matrix, adds the bias row, clamps below at 0, forms the product with
  the second weight matrix and adds its bias row. Entry (r, q) depends only on row r of the two endpoint arrays,
  so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg15

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S16000x64 .f32) (x1 : Vec Ideal S16000x64 .f32) (x2 : Vec Ideal S64x64 .f32) (x3 : Vec Ideal S64x64 .f32) (x4 : Vec Ideal S1x64 .f32) (x5 : Vec Ideal S64x2 .f32) (x6 : Vec Ideal S1x2 .f32) :
    k15_pay1 x0 x1 x2 x3 x4 x5 x6 = GinSpec.affine (n := 16000) (k := 64) (m := 2) (GinSpec.hid2 (n := 16000) x0 x1 x2 x3 (GinSpec.unrow x4)) x5 (GinSpec.unrow x6) := by
  funext j
  obtain ⟨p, q, rfl⟩ : ∃ (p : Fin 16000) (q : Fin 2), j = ix2 p q := ⟨j 0, j 1, eq_ix2 j⟩
  unfold k15_pay1
  simp only [shapeCast_self]
  refine (GinPay.mmrow_apply dot_S16000x64_S64x2_S16000x2_1_0_0_1_n_n_wf _ _ _ x5 x6 p q).trans ?_
  refine GinSpec.affine_congr _ _ _ _ _ _ _ _ (fun kk => ?_) (fun kk => rfl) rfl
  exact GinPay.hid_apply dot_S16000x64_S64x64_S16000x64_1_0_0_1_n_n_wf _ _ x0 x1 x2 x3 x4 p kk

/-- The printed index maps over the grid: the row-tiled windows move down the rows with the point, the parameters stay. -/
theorem idx_facts : ∀ t : Fin cfg15.N, win15_0.index t (0 : Fin 2) = t.val
    ∧ win15_0.index t (1 : Fin 2) = 0
    ∧ win15_1.index t (0 : Fin 2) = t.val
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = 0
    ∧ win15_5.index t (1 : Fin 2) = 0
    ∧ win15_6.index t (0 : Fin 2) = 0
    ∧ win15_6.index t (1 : Fin 2) = 0
    ∧ win15_7.index t (0 : Fin 2) = t.val
    ∧ win15_7.index t (1 : Fin 2) = 0 :=
  (by decide +kernel : ∀ t : Fin grid15.N, _)

/-- What point t writes back is block t of the one array, of the arrays as the region finds them. -/
theorem flushed_eq (c : Dev nD) (t : Fin cfg15.N) :
    (dat15 V c).flushed 7 t = ((cfg15.win 7).blk t).view.read (Elt Ideal)
      (GinSpec.affine (n := 800000) (k := 64) (m := 2) (GinSpec.hid2 (n := 800000) (V c main_v236) (V c main_v243) (V c main_v245) (V c main_v247) (GinSpec.unrow (V c main_v250))) (V c main_v252) (GinSpec.unrow (V c main_v255))) := by
  show (cfg15.win 7).cut (grid15.coords t) ((dat15 V c).after 7 t) = _
  rw [after15_7]
  unfold out15_7
  rw [View.canon_unit_zero hz]
  simp only [View.ld_unit_zero (S := S16000x64) hz, View.ld_unit_zero (S := S64x64) hz, View.ld_unit_zero (S := S1x64) hz, View.ld_unit_zero (S := S64x2) hz, View.ld_unit_zero (S := S1x2) hz]
  rw [pay_eq]
  obtain ⟨e0, e1, e2, e3, e4, e5, e6, e7, e8, e9, e10, e11, e12, e13, e14, e15⟩ := idx_facts t
  funext j
  show GinSpec.affine (n := 16000) (k := 64) (m := 2) (GinSpec.hid2 (n := 16000) (fun y => V c main_v236 (((cfg15.win 0).blk t).view.emb y)) (fun y => V c main_v243 (((cfg15.win 1).blk t).view.emb y)) (fun y => V c main_v245 (((cfg15.win 2).blk t).view.emb y)) (fun y => V c main_v247 (((cfg15.win 3).blk t).view.emb y)) (GinSpec.unrow (fun y => V c main_v250 (((cfg15.win 4).blk t).view.emb y)))) (fun y => V c main_v252 (((cfg15.win 5).blk t).view.emb y)) (GinSpec.unrow (fun y => V c main_v255 (((cfg15.win 6).blk t).view.emb y))) j
      = GinSpec.affine (n := 800000) (k := 64) (m := 2) (GinSpec.hid2 (n := 800000) (V c main_v236) (V c main_v243) (V c main_v245) (V c main_v247) (GinSpec.unrow (V c main_v250))) (V c main_v252) (GinSpec.unrow (V c main_v255))
        (((cfg15.win 7).blk t).view.emb j)
  have hj0 : (j 0).val < 16000 := (j 0).isLt
  have hj1 : (j 1).val < 2 := (j 1).isLt
  refine GinSpec.affine_congr _ _ _ _ _ _ _ _ (fun kk => ?_) (fun kk => ?_) ?_
  · refine GinSpec.hid2_congr _ _ _ _ _ _ _ _ _ _ _ _ (fun kk' => ?_) (fun kk' => ?_) (fun kk' => ?_) (fun kk' => ?_) ?_
    · refine congrArg (V c main_v236) (funext fun a => Fin.ext ?_)
      match a with
      | ⟨0, _⟩ => have hkk' := kk'.isLt; show win15_0.index t (0 : Fin 2) * 16000 + 1 * (j 0).val = win15_7.index t (0 : Fin 2) * 16000 + 1 * (j 0).val; omega
      | ⟨1, _⟩ => have hkk' := kk'.isLt; show win15_0.index t (1 : Fin 2) * 64 + 1 * kk'.val = kk'.val; omega
    · refine congrArg (V c main_v243) (funext fun a => Fin.ext ?_)
      match a with
      | ⟨0, _⟩ => have hkk' := kk'.isLt; show win15_1.index t (0 : Fin 2) * 16000 + 1 * (j 0).val = win15_7.index t (0 : Fin 2) * 16000 + 1 * (j 0).val; omega
      | ⟨1, _⟩ => have hkk' := kk'.isLt; show win15_1.index t (1 : Fin 2) * 64 + 1 * kk'.val = kk'.val; omega
    · refine congrArg (V c main_v245) (funext fun a => Fin.ext ?_)
      match a with
      | ⟨0, _⟩ => have hkk := kk.isLt; have hkk' := kk'.isLt; show win15_2.index t (0 : Fin 2) * 64 + 1 * kk'.val = kk'.val; omega
      | ⟨1, _⟩ => have hkk := kk.isLt; have hkk' := kk'.isLt; show win15_2.index t (1 : Fin 2) * 64 + 1 * kk.val = kk.val; omega
    · refine congrArg (V c main_v247) (funext fun a => Fin.ext ?_)
      match a with
      | ⟨0, _⟩ => have hkk := kk.isLt; have hkk' := kk'.isLt; show win15_3.index t (0 : Fin 2) * 64 + 1 * kk'.val = kk'.val; omega
      | ⟨1, _⟩ => have hkk := kk.isLt; have hkk' := kk'.isLt; show win15_3.index t (1 : Fin 2) * 64 + 1 * kk.val = kk.val; omega
    · refine congrArg (V c main_v250) (funext fun a => Fin.ext ?_)
      match a with
      | ⟨0, _⟩ => have hkk := kk.isLt; show win15_4.index t (0 : Fin 2) * 1 + 1 * 0 = 0; omega
      | ⟨1, _⟩ => have hkk := kk.isLt; show win15_4.index t (1 : Fin 2) * 64 + 1 * kk.val = kk.val; omega
  · refine congrArg (V c main_v252) (funext fun a => Fin.ext ?_)
    match a with
    | ⟨0, _⟩ => have hkk := kk.isLt; show win15_5.index t (0 : Fin 2) * 64 + 1 * kk.val = kk.val; omega
    | ⟨1, _⟩ => have hkk := kk.isLt; show win15_5.index t (1 : Fin 2) * 2 + 1 * (j 1).val = win15_7.index t (1 : Fin 2) * 2 + 1 * (j 1).val; omega
  · refine congrArg (V c main_v255) (funext fun a => Fin.ext ?_)
    match a with
    | ⟨0, _⟩ => show win15_6.index t (0 : Fin 2) * 1 + 1 * 0 = 0; omega
    | ⟨1, _⟩ => show win15_6.index t (1 : Fin 2) * 2 + 1 * (j 1).val = win15_7.index t (1 : Fin 2) * 2 + 1 * (j 1).val; omega

/-- An index of the output array is in point t's block iff each coordinate is in the block's range. -/
theorem mem_blk (t : Fin cfg15.N) (i : S800000x2.Idx) :
    i ∈ ((cfg15.win 7).blk t).view.set ↔ ∀ a : Fin 2, win15_7.index t a * S16000x2.size a ≤ (i a).val ∧ (i a).val < win15_7.index t a * S16000x2.size a + S16000x2.size a := by
  show i ∈ ((View.whole main_v256).slice (win15_7.rect t)).set ↔ _
  rw [View.set_slice_whole, Rect.mem_set_unit]
  exact Iff.rfl

/-- Every row lies in the block of the point numbered by its row divided by the block height. -/
theorem cover (i : S800000x2.Idx) : ∃ t : Fin cfg15.N, (cfg15.win 7).flush t = true ∧ i ∈ ((cfg15.win 7).blk t).view.set := by
  have hi0 : (i 0).val < 800000 := (i 0).isLt
  have hi1 : (i 1).val < 2 := (i 1).isLt
  have hN : cfg15.N = 50 := N_15
  have ht : (i 0).val / 16000 < cfg15.N := by rw [hN]; omega
  refine ⟨⟨(i 0).val / 16000, ht⟩, flush15_7 _, ?_⟩
  rw [mem_blk]
  obtain ⟨e0, e1, e2, e3, e4, e5, e6, e7, e8, e9, e10, e11, e12, e13, e14, e15⟩ := idx_facts ⟨(i 0).val / 16000, ht⟩
  intro a
  match a with
  | ⟨0, _⟩ =>
    show win15_7.index _ (0 : Fin 2) * 16000 ≤ (i 0).val ∧ (i 0).val < win15_7.index _ (0 : Fin 2) * 16000 + 16000
    rw [e14]
    show (i 0).val / 16000 * 16000 ≤ (i 0).val ∧ (i 0).val < (i 0).val / 16000 * 16000 + 16000
    omega
  | ⟨1, _⟩ =>
    show win15_7.index _ (1 : Fin 2) * 2 ≤ (i 1).val ∧ (i 1).val < win15_7.index _ (1 : Fin 2) * 2 + 2
    rw [e15]
    omega

/-- The output array after the region, of the arrays as the region finds them. -/
theorem final (c : Dev nD) : (dat15 V c).arrAt 7 cfg15.N
    = GinSpec.affine (n := 800000) (k := 64) (m := 2) (GinSpec.hid2 (n := 800000) (V c main_v236) (V c main_v243) (V c main_v245) (V c main_v247) (GinSpec.unrow (V c main_v250))) (V c main_v252) (GinSpec.unrow (V c main_v255)) :=
  (dat15 V c).arrAt_eq_of_cover 7 _ (fun t _ => flushed_eq V c t) cover

end Cert.KernelIdeal.Reg15

end
-- ==== Proof.KReg16.lean ====
/-
  What an edge-perceptron region leaves in its output array: relu(s·A + d·B + b₁)·W₂ + b₂.

  The 800000 edge rows are tiled in 50 blocks of 16000; at each block the body forms the two products of the endpoint rows
  with the two halves of the first weight matrix, adds the bias row, clamps below at 0, forms the product with
  the second weight matrix and adds its bias row. Entry (r, q) depends only on row r of the two endpoint arrays,
  so the written blocks are the restrictions of ONE array.
-/
import proofs.«107973_j83408264888790_1_alg».proof.Proof.Gen.KernelIdeal.Frame
import proofs.«107973_j83408264888790_1_alg».proof.Proof.KPay
import proofs.«107973_j83408264888790_1_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg16

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, entry by entry. -/
theorem pay_eq (x0 : Vec Ideal S16000x64 .f32) (x1 : Vec Ideal S16000x64 .f32) (x2 : Vec Ideal S64x64 .f32) (x3 : Vec Ideal S64x64 .f32) (x4 : Vec Ideal S1x64 .f32) (x5 : Vec Ideal S64x2 .f32) (x6 : Vec Ideal S1x2 .f32) :
    k16_pay1 x0 x1 x2 x3 x4 x5 x6 = GinSpec.affine (n := 16000) (k := 64) (m := 2) (GinSpec.hid2 (n := 16000) x0 x1 x2 x3 (GinSpec.unrow x4)) x5 (GinSpec.unrow x6) := by
  funext j
  obtain ⟨p, q, rfl⟩ : ∃ (p : Fin 16000) (q : Fin 2), j = ix2 p q := ⟨j 0, j 1, eq_ix2 j⟩
  unfold k16_pay1
  simp only [shapeCast_self]
  refine (GinPay.mmrow_apply dot_S16000x64_S64x2_S16000x2_1_0_0_1_n_n_wf _ _ _ x5 x6 p q).trans ?_
  refine GinSpec.affine_congr _ _ _ _ _ _ _ _ (fun kk => ?_) (fun kk => rfl) rfl
  exact GinPay.hid_apply dot_S16000x64_S64x64_S16000x64_1_0_0_1_n_n_wf _ _ x0 x1 x2 x3 x4 p kk

/-- The printed index maps over the grid: the row-tiled windows move down the rows with the point, the parameters stay. -/
theorem idx_facts : ∀ t : Fin cfg16.N, win16_0.index t (0 : Fin 2) = t.val
    ∧ win16_0.index t (1 : Fin 2) = 0
    ∧ win16_1.index t (0 : Fin 2) = t.val
    ∧ win16_1.index t (1 : Fin 2) = 0
    ∧ win16_2.index t (0 : Fin 2) = 0
    ∧ win16_2.index t (1 : Fin 2) = 0
    ∧ win16_3.index t (0 : Fin 2) = 0
    ∧ win16_3.index t (1 : Fin 2) = 0
    ∧ win16_4.index t (0 : Fin 2) = 0
    ∧ win16_4.index t (1 : Fin 2) = 0
    ∧ win16_5.index t (0 : Fin 2) = 0
    ∧ win16_5.index t (1 : Fin 2) = 0
    ∧ win16_6.index t (0 : Fin 2) = 0
    ∧ win16_6.index t (1 : Fin 2) = 0
    ∧ win16_7.index t (0 : Fin 2) = t.val
    ∧ win16_7.index t (1 : Fin 2) = 0 :=
  (by decide +kernel : ∀ t : Fin grid16.N, _)

/-- What point t writes back is block t of the one array, of the arrays as the region finds them. -/
theorem flushed_eq (c : Dev nD) (t : Fin cfg16.N) :
    (dat16 V c).flushed 7 t = ((cfg16.win 7).blk t).view.read (Elt Ideal)
      (GinSpec.affine (n := 800000) (k := 64) (m := 2) (GinSpec.hid2 (n := 800000) (V c main_v264) (V c main_v271) (V c main_v273) (V c main_v275) (GinSpec.unrow (V c main_v278))) (V c main_v280) (GinSpec.unrow (V c main_v283))) := by
  show (cfg16.win 7).cut (grid16.coords t) ((dat16 V c).after 7 t) = _
  rw [after16_7]
  unfold out16_7
  rw [View.canon_unit_zero hz]
  simp only [View.ld_unit_zero (S := S16000x64) hz, View.ld_unit_zero (S := S64x64) hz, View.ld_unit_zero (S := S1x64) hz, View.ld_unit_zero (S := S64x2) hz, View.ld_unit_zero (S := S1x2) hz]
  rw [pay_eq]
  obtain ⟨e0, e1, e2, e3, e4, e5, e6, e7, e8, e9, e10, e11, e12, e13, e14, e15⟩ := idx_facts t
  funext j
  show GinSpec.affine (n := 16000) (k := 64) (m := 2) (GinSpec.hid2 (n := 16000) (fun y => V c main_v264 (((cfg16.win 0).blk t).view.emb y)) (fun y => V c main_v271 (((cfg16.win 1).blk t).view.emb y)) (fun y => V c main_v273 (((cfg16.win 2).blk t).view.emb y)) (fun y => V c main_v275 (((cfg16.win 3).blk t).view.emb y)) (GinSpec.unrow (fun y => V c main_v278 (((cfg16.win 4).blk t).view.emb y)))) (fun y => V c main_v280 (((cfg16.win 5).blk t).view.emb y)) (GinSpec.unrow (fun y => V c main_v283 (((cfg16.win 6).blk t).view.emb y))) j
      = GinSpec.affine (n := 800000) (k := 64) (m := 2) (GinSpec.hid2 (n := 800000) (V c main_v264) (V c main_v271) (V c main_v273) (V c main_v275) (GinSpec.unrow (V c main_v278))) (V c main_v280) (GinSpec.unrow (V c main_v283))
        (((cfg16.win 7).blk t).view.emb j)
  have hj0 : (j 0).val < 16000 := (j 0).isLt
  have hj1 : (j 1).val < 2 := (j 1).isLt
  refine GinSpec.affine_congr _ _ _ _ _ _ _ _ (fun kk => ?_) (fun kk => ?_) ?_
  · refine GinSpec.hid2_congr _ _ _ _ _ _ _ _ _ _ _ _ (fun kk' => ?_) (fun kk' => ?_) (fun kk' => ?_) (fun kk' => ?_) ?_
    · refine congrArg (V c main_v264) (funext fun a => Fin.ext ?_)
      match a with
      | ⟨0, _⟩ => have hkk' := kk'.isLt; show win16_0.index t (0 : Fin 2) * 16000 + 1 * (j 0).val = win16_7.index t (0 : Fin 2) * 16000 + 1 * (j 0).val; omega
      | ⟨1, _⟩ => have hkk' := kk'.isLt; show win16_0.index t (1 : Fin 2) * 64 + 1 * kk'.val = kk'.val; omega
    · refine congrArg (V c main_v271) (funext fun a => Fin.ext ?_)
      match a with
      | ⟨0, _⟩ => have hkk' := kk'.isLt; show win16_1.index t (0 : Fin 2) * 16000 + 1 * (j 0).val = win16_7.index t (0 : Fin 2) * 16000 + 1 * (j 0).val; omega
      | ⟨1, _⟩ => have hkk' := kk'.isLt; show win16_1.index t (1 : Fin 2) * 64 + 1 * kk'.val = kk'.val; omega
    · refine congrArg (V c main_v273) (funext fun a => Fin.ext ?_)
      match a with
      | ⟨0, _⟩ => have hkk := kk.isLt; have hkk' := kk'.isLt; show win16_2.index t (0 : Fin 2) * 64 + 1 * kk'.val = kk'.val; omega
      | ⟨1, _⟩ => have hkk := kk.isLt; have hkk' := kk'.isLt; show win16_2.index t (1 : Fin 2) * 64 + 1 * kk.val = kk.val; omega
    · refine congrArg (V c main_v275) (funext fun a => Fin.ext ?_)
      match a with
      | ⟨0, _⟩ => have hkk := kk.isLt; have hkk' := kk'.isLt; show win16_3.index t (0 : Fin 2) * 64 + 1 * kk'.val = kk'.val; omega
      | ⟨1, _⟩ => have hkk := kk.isLt; have hkk' := kk'.isLt; show win16_3.index t (1 : Fin 2) * 64 + 1 * kk.val = kk.val; omega
    · refine congrArg (V c main_v278) (funext fun a => Fin.ext ?_)
      match a with
      | ⟨0, _⟩ => have hkk := kk.isLt; show win16_4.index t (0 : Fin 2) * 1 + 1 * 0 = 0; omega
      | ⟨1, _⟩ => have hkk := kk.isLt; show win16_4.index t (1 : Fin 2) * 64 + 1 * kk.val = kk.val; omega
  · refine congrArg (V c main_v280) (funext fun a => Fin.ext ?_)
    match a with
    | ⟨0, _⟩ => have hkk := kk.isLt; show win16_5.index t (0 : Fin 2) * 64 + 1 * kk.val = kk.val; omega
    | ⟨1, _⟩ => have hkk := kk.isLt; show win16_5.index t (1 : Fin 2) * 2 + 1 * (j 1).val = win16_7.index t (1 : Fin 2) * 2 + 1 * (j 1).val; omega
  · refine congrArg (V c main_v283) (funext fun a => Fin.ext ?_)
    match a with
    | ⟨0, _⟩ => show win16_6.index t (0 : Fin 2) * 1 + 1 * 0 = 0; omega
    | ⟨1, _⟩ => show win16_6.index t (1 : Fin 2) * 2 + 1 * (j 1).val = win16_7.index t (1 : Fin 2) * 2 + 1 * (j 1).val; omega

/-- An index of the output array is in point t's block iff each coordinate is in the block's range. -/
theorem mem_blk (t : Fin cfg16.N) (i : S800000x2.Idx) :
    i ∈ ((cfg16.win 7).blk t).view.set ↔ ∀ a : Fin 2, win16_7.index t a * S16000x2.size a ≤ (i a).val ∧ (i a).val < win16_7.index t a * S16000x2.size a + S16000x2.size a := by
  show i ∈ ((View.whole main_v284).slice (win16_7.rect t)).set ↔ _
  rw [View.set_slice_whole, Rect.mem_set_unit]
  exact Iff.rfl

/-- Every row lies in the block of the point numbered by its row divided by the block height. -/
theorem cover (i : S800000x2.Idx) : ∃ t : Fin cfg16.N, (cfg16.win 7).flush t = true ∧ i ∈ ((cfg16.win 7).blk t).view.set := by
  have hi0 : (i 0).val < 800000 := (i 0).isLt
  have hi1 : (i 1).val < 2 := (i 1).isLt
  have hN : cfg16.N = 50 := N_16
  have ht : (i 0).val / 16000 < cfg16.N := by rw [hN]; omega
  refine ⟨⟨(i 0).val / 16000, ht⟩, flush16_7 _, ?_⟩
  rw [mem_blk]
  obtain ⟨e0, e1, e2, e3, e4, e5, e6, e7, e8, e9, e10, e11, e12, e13, e14, e15⟩ := idx_facts ⟨(i 0).val / 16000, ht⟩
  intro a
  match a with
  | ⟨0, _⟩ =>
    show win16_7.index _ (0 : Fin 2) * 16000 ≤ (i 0).val ∧ (i 0).val < win16_7.index _ (0 : Fin 2) * 16000 + 16000
    rw [e14]
    show (i 0).val / 16000 * 16000 ≤ (i 0).val ∧ (i 0).val < (i 0).val / 16000 * 16000 + 16000
    omega
  | ⟨1, _⟩ =>
    show win16_7.index _ (1 : Fin 2) * 2 ≤ (i 1).val ∧ (i 1).val < win16_7.index _ (1 : Fin 2) * 2 + 2
    rw [e15]
    omega

/-- The output array after the region, of the arrays as the region finds them. -/
theorem final (c : Dev nD) : (dat16 V c).arrAt 7 cfg16.N
    = GinSpec.affine (n := 800000) (k := 64) (m := 2) (GinSpec.hid2 (n := 800000) (V c main_v264) (V c main_v271) (V c main_v273) (V c main_v275) (GinSpec.unrow (V c main_v278))) (V c main_v280) (GinSpec.unrow (V c main_v283)) :=
  (dat16 V c).arrAt_eq_of_cover 7 _ (fun t _ => flushed_eq V c t) cover

end Cert.KernelIdeal.Reg16

end
-- ==== Proof.KChain.lean ====
/-
  The kernel program's result as a function of its argument arrays.

  Walking the chain of host stretches and regions from the launch memory: every region's output array is the
  region's one array of the buffers it finds, every stretch's result the named function of the buffers it reads,
  and a value once defined is read unchanged at every later boundary. Named here are the node arrays after the
  embedding and after each layer's four regions, the neighbour sums, the four score contributions and the running
  score; the last boundary's result buffer is the last running score.
-/
import proofs.«107973_j83408264888790_1_alg».proof.Proof.KKeep
import proofs.«107973_j83408264888790_1_alg».proof.Proof.KDefs
import proofs.«107973_j83408264888790_1_alg».proof.Proof.KReg0
import proofs.«107973_j83408264888790_1_alg».proof.Proof.KReg1
import proofs.«107973_j83408264888790_1_alg».proof.Proof.KReg2
import proofs.«107973_j83408264888790_1_alg».proof.Proof.KReg3
import proofs.«107973_j83408264888790_1_alg».proof.Proof.KReg4
import proofs.«107973_j83408264888790_1_alg».proof.Proof.KReg5
import proofs.«107973_j83408264888790_1_alg».proof.Proof.KReg6
import proofs.«107973_j83408264888790_1_alg».proof.Proof.KReg7
import proofs.«107973_j83408264888790_1_alg».proof.Proof.KReg8
import proofs.«107973_j83408264888790_1_alg».proof.Proof.KReg9
import proofs.«107973_j83408264888790_1_alg».proof.Proof.KReg10
import proofs.«107973_j83408264888790_1_alg».proof.Proof.KReg11
import proofs.«107973_j83408264888790_1_alg».proof.Proof.KReg12
import proofs.«107973_j83408264888790_1_alg».proof.Proof.KReg13
import proofs.«107973_j83408264888790_1_alg».proof.Proof.KReg14
import proofs.«107973_j83408264888790_1_alg».proof.Proof.KReg15
import proofs.«107973_j83408264888790_1_alg».proof.Proof.KReg16

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem f45_v173 : W45 m ρ c (Proc.devRef .tc main_v173) = (KH.zerosE) := by
  refine (KH.h13_z (W44 m ρ c)).trans ?_
  rfl
theorem f46_v173 : W46 m ρ c (Proc.devRef .tc main_v173) = (KH.zerosE) :=
  (Keep.keep46 m ρ c main_v173 (Keep.ne_of_rix Keep.rix_v173 Keep.rix_v200 (by decide))).trans (f45_v173 m ρ c)
theorem f44_arg1 : W44 m ρ c (Proc.devRef .tc main_arg1) = (A m c main_arg1) :=
  Keep.args44 m ρ c main_arg1 (by simp only [Keep.argRefs, List.mem_cons, eq_self_iff_true, true_or, or_true])
theorem f1_arg0 : W1 m ρ c (Proc.devRef .tc main_arg0) = (A m c main_arg0) :=
  Keep.args1 m ρ c main_arg0 (by simp only [Keep.argRefs, List.mem_cons, eq_self_iff_true, true_or, or_true])
theorem f1_arg3 : W1 m ρ c (Proc.devRef .tc main_arg3) = (A m c main_arg3) :=
  Keep.args1 m ρ c main_arg3 (by simp only [Keep.argRefs, List.mem_cons, eq_self_iff_true, true_or, or_true])
theorem f0_arg4 : W0 m ρ c (Proc.devRef .tc main_arg4) = (A m c main_arg4) :=
  Keep.args0 m ρ c main_arg4 (by simp only [Keep.argRefs, List.mem_cons, eq_self_iff_true, true_or, or_true])
theorem f1_v0 : W1 m ρ c (Proc.devRef .tc main_v0) = (KH.rowOf (A m c main_arg4)) := by
  refine (KH.h0_v0 (W0 m ρ c)).trans ?_
  rw [f0_arg4 m ρ c]
  all_goals rfl
theorem f2_v1 : W2 m ρ c (Proc.devRef .tc main_v1) = (X0 m c) := by
  refine (W2_arr m ρ c (3 : Fin cfg0.W)).trans ?_
  refine (Reg0.final (V1 m ρ) c).trans ?_
  have h0 : V1 m ρ c main_arg0 = (A m c main_arg0) := f1_arg0 m ρ c
  have h1 : V1 m ρ c main_arg3 = (A m c main_arg3) := f1_arg3 m ρ c
  have h2 : V1 m ρ c main_v0 = (KH.rowOf (A m c main_arg4)) := f1_v0 m ρ c
  rw [h0, h1, h2]
  all_goals rfl
theorem f3_v1 : W3 m ρ c (Proc.devRef .tc main_v1) = (X0 m c) :=
  (Keep.keep3 m ρ c main_v1 (Keep.not_mem_of_rix Keep.wr_hostOps1_ix Keep.rix_v1 (by decide))).trans (f2_v1 m ρ c)
theorem f4_v1 : W4 m ρ c (Proc.devRef .tc main_v1) = (X0 m c) :=
  (Keep.keep4 m ρ c main_v1 (Keep.ne_of_rix Keep.rix_v1 Keep.rix_v17 (by decide))).trans (f3_v1 m ρ c)
theorem f5_v1 : W5 m ρ c (Proc.devRef .tc main_v1) = (X0 m c) :=
  (Keep.keep5 m ρ c main_v1 (Keep.not_mem_of_rix Keep.wr_hostOps2_ix Keep.rix_v1 (by decide))).trans (f4_v1 m ρ c)
theorem f6_v1 : W6 m ρ c (Proc.devRef .tc main_v1) = (X0 m c) :=
  (Keep.keep6 m ρ c main_v1 (Keep.not_mem_of_rix Keep.wr_hostOps2_1_ix Keep.rix_v1 (by decide))).trans (f5_v1 m ρ c)
theorem f7_v1 : W7 m ρ c (Proc.devRef .tc main_v1) = (X0 m c) :=
  (Keep.keep7 m ρ c main_v1 (Keep.not_mem_of_rix Keep.wr_hostOps2_2_ix Keep.rix_v1 (by decide))).trans (f6_v1 m ρ c)
theorem f8_v1 : W8 m ρ c (Proc.devRef .tc main_v1) = (X0 m c) :=
  (Keep.keep8 m ρ c main_v1 (Keep.ne_of_rix Keep.rix_v1 Keep.rix_v34 (by decide))).trans (f7_v1 m ρ c)
theorem f9_v1 : W9 m ρ c (Proc.devRef .tc main_v1) = (X0 m c) :=
  (Keep.keep9 m ρ c main_v1 (Keep.not_mem_of_rix Keep.wr_hostOps3_ix Keep.rix_v1 (by decide))).trans (f8_v1 m ρ c)
theorem f10_v1 : W10 m ρ c (Proc.devRef .tc main_v1) = (X0 m c) :=
  (Keep.keep10 m ρ c main_v1 (Keep.not_mem_of_rix Keep.wr_hostOps3_1_ix Keep.rix_v1 (by decide))).trans (f9_v1 m ρ c)
theorem f11_v1 : W11 m ρ c (Proc.devRef .tc main_v1) = (X0 m c) :=
  (Keep.keep11 m ρ c main_v1 (Keep.not_mem_of_rix Keep.wr_hostOps3_2_ix Keep.rix_v1 (by decide))).trans (f10_v1 m ρ c)
theorem f12_v1 : W12 m ρ c (Proc.devRef .tc main_v1) = (X0 m c) :=
  (Keep.keep12 m ρ c main_v1 (Keep.ne_of_rix Keep.rix_v1 Keep.rix_v46 (by decide))).trans (f11_v1 m ρ c)
theorem f13_v1 : W13 m ρ c (Proc.devRef .tc main_v1) = (X0 m c) :=
  (Keep.keep13 m ρ c main_v1 (Keep.not_mem_of_rix Keep.wr_hostOps4_ix Keep.rix_v1 (by decide))).trans (f12_v1 m ρ c)
theorem f14_v1 : W14 m ρ c (Proc.devRef .tc main_v1) = (X0 m c) :=
  (Keep.keep14 m ρ c main_v1 (Keep.not_mem_of_rix Keep.wr_hostOps4_1_ix Keep.rix_v1 (by decide))).trans (f13_v1 m ρ c)
theorem f15_v1 : W15 m ρ c (Proc.devRef .tc main_v1) = (X0 m c) :=
  (Keep.keep15 m ρ c main_v1 (Keep.not_mem_of_rix Keep.wr_hostOps4_2_ix Keep.rix_v1 (by decide))).trans (f14_v1 m ρ c)
theorem f16_v1 : W16 m ρ c (Proc.devRef .tc main_v1) = (X0 m c) :=
  (Keep.keep16 m ρ c main_v1 (Keep.ne_of_rix Keep.rix_v1 Keep.rix_v58 (by decide))).trans (f15_v1 m ρ c)
theorem f17_v1 : W17 m ρ c (Proc.devRef .tc main_v1) = (X0 m c) :=
  (Keep.keep17 m ρ c main_v1 (Keep.not_mem_of_rix Keep.wr_hostOps5_ix Keep.rix_v1 (by decide))).trans (f16_v1 m ρ c)
theorem f18_v1 : W18 m ρ c (Proc.devRef .tc main_v1) = (X0 m c) :=
  (Keep.keep18 m ρ c main_v1 (Keep.ne_of_rix Keep.rix_v1 Keep.rix_v74 (by decide))).trans (f17_v1 m ρ c)
theorem f19_v1 : W19 m ρ c (Proc.devRef .tc main_v1) = (X0 m c) :=
  (Keep.keep19 m ρ c main_v1 (Keep.not_mem_of_rix Keep.wr_hostOps6_ix Keep.rix_v1 (by decide))).trans (f18_v1 m ρ c)
theorem f20_v1 : W20 m ρ c (Proc.devRef .tc main_v1) = (X0 m c) :=
  (Keep.keep20 m ρ c main_v1 (Keep.not_mem_of_rix Keep.wr_hostOps6_1_ix Keep.rix_v1 (by decide))).trans (f19_v1 m ρ c)
theorem f21_v1 : W21 m ρ c (Proc.devRef .tc main_v1) = (X0 m c) :=
  (Keep.keep21 m ρ c main_v1 (Keep.not_mem_of_rix Keep.wr_hostOps6_2_ix Keep.rix_v1 (by decide))).trans (f20_v1 m ρ c)
theorem f22_v1 : W22 m ρ c (Proc.devRef .tc main_v1) = (X0 m c) :=
  (Keep.keep22 m ρ c main_v1 (Keep.ne_of_rix Keep.rix_v1 Keep.rix_v91 (by decide))).trans (f21_v1 m ρ c)
theorem f23_v1 : W23 m ρ c (Proc.devRef .tc main_v1) = (X0 m c) :=
  (Keep.keep23 m ρ c main_v1 (Keep.not_mem_of_rix Keep.wr_hostOps7_ix Keep.rix_v1 (by decide))).trans (f22_v1 m ρ c)
theorem f24_v1 : W24 m ρ c (Proc.devRef .tc main_v1) = (X0 m c) :=
  (Keep.keep24 m ρ c main_v1 (Keep.not_mem_of_rix Keep.wr_hostOps7_1_ix Keep.rix_v1 (by decide))).trans (f23_v1 m ρ c)
theorem f25_v1 : W25 m ρ c (Proc.devRef .tc main_v1) = (X0 m c) :=
  (Keep.keep25 m ρ c main_v1 (Keep.not_mem_of_rix Keep.wr_hostOps7_2_ix Keep.rix_v1 (by decide))).trans (f24_v1 m ρ c)
theorem f26_v1 : W26 m ρ c (Proc.devRef .tc main_v1) = (X0 m c) :=
  (Keep.keep26 m ρ c main_v1 (Keep.ne_of_rix Keep.rix_v1 Keep.rix_v103 (by decide))).trans (f25_v1 m ρ c)
theorem f27_v1 : W27 m ρ c (Proc.devRef .tc main_v1) = (X0 m c) :=
  (Keep.keep27 m ρ c main_v1 (Keep.not_mem_of_rix Keep.wr_hostOps8_ix Keep.rix_v1 (by decide))).trans (f26_v1 m ρ c)
theorem f28_v1 : W28 m ρ c (Proc.devRef .tc main_v1) = (X0 m c) :=
  (Keep.keep28 m ρ c main_v1 (Keep.not_mem_of_rix Keep.wr_hostOps8_1_ix Keep.rix_v1 (by decide))).trans (f27_v1 m ρ c)
theorem f29_v1 : W29 m ρ c (Proc.devRef .tc main_v1) = (X0 m c) :=
  (Keep.keep29 m ρ c main_v1 (Keep.not_mem_of_rix Keep.wr_hostOps8_2_ix Keep.rix_v1 (by decide))).trans (f28_v1 m ρ c)
theorem f30_v1 : W30 m ρ c (Proc.devRef .tc main_v1) = (X0 m c) :=
  (Keep.keep30 m ρ c main_v1 (Keep.ne_of_rix Keep.rix_v1 Keep.rix_v115 (by decide))).trans (f29_v1 m ρ c)
theorem f31_v1 : W31 m ρ c (Proc.devRef .tc main_v1) = (X0 m c) :=
  (Keep.keep31 m ρ c main_v1 (Keep.not_mem_of_rix Keep.wr_hostOps9_ix Keep.rix_v1 (by decide))).trans (f30_v1 m ρ c)
theorem f32_v1 : W32 m ρ c (Proc.devRef .tc main_v1) = (X0 m c) :=
  (Keep.keep32 m ρ c main_v1 (Keep.ne_of_rix Keep.rix_v1 Keep.rix_v131 (by decide))).trans (f31_v1 m ρ c)
theorem f33_v1 : W33 m ρ c (Proc.devRef .tc main_v1) = (X0 m c) :=
  (Keep.keep33 m ρ c main_v1 (Keep.not_mem_of_rix Keep.wr_hostOps10_ix Keep.rix_v1 (by decide))).trans (f32_v1 m ρ c)
theorem f34_v1 : W34 m ρ c (Proc.devRef .tc main_v1) = (X0 m c) :=
  (Keep.keep34 m ρ c main_v1 (Keep.not_mem_of_rix Keep.wr_hostOps10_1_ix Keep.rix_v1 (by decide))).trans (f33_v1 m ρ c)
theorem f35_v1 : W35 m ρ c (Proc.devRef .tc main_v1) = (X0 m c) :=
  (Keep.keep35 m ρ c main_v1 (Keep.not_mem_of_rix Keep.wr_hostOps10_2_ix Keep.rix_v1 (by decide))).trans (f34_v1 m ρ c)
theorem f36_v1 : W36 m ρ c (Proc.devRef .tc main_v1) = (X0 m c) :=
  (Keep.keep36 m ρ c main_v1 (Keep.ne_of_rix Keep.rix_v1 Keep.rix_v148 (by decide))).trans (f35_v1 m ρ c)
theorem f37_v1 : W37 m ρ c (Proc.devRef .tc main_v1) = (X0 m c) :=
  (Keep.keep37 m ρ c main_v1 (Keep.not_mem_of_rix Keep.wr_hostOps11_ix Keep.rix_v1 (by decide))).trans (f36_v1 m ρ c)
theorem f38_v1 : W38 m ρ c (Proc.devRef .tc main_v1) = (X0 m c) :=
  (Keep.keep38 m ρ c main_v1 (Keep.not_mem_of_rix Keep.wr_hostOps11_1_ix Keep.rix_v1 (by decide))).trans (f37_v1 m ρ c)
theorem f39_v1 : W39 m ρ c (Proc.devRef .tc main_v1) = (X0 m c) :=
  (Keep.keep39 m ρ c main_v1 (Keep.not_mem_of_rix Keep.wr_hostOps11_2_ix Keep.rix_v1 (by decide))).trans (f38_v1 m ρ c)
theorem f40_v1 : W40 m ρ c (Proc.devRef .tc main_v1) = (X0 m c) :=
  (Keep.keep40 m ρ c main_v1 (Keep.ne_of_rix Keep.rix_v1 Keep.rix_v160 (by decide))).trans (f39_v1 m ρ c)
theorem f41_v1 : W41 m ρ c (Proc.devRef .tc main_v1) = (X0 m c) :=
  (Keep.keep41 m ρ c main_v1 (Keep.not_mem_of_rix Keep.wr_hostOps12_ix Keep.rix_v1 (by decide))).trans (f40_v1 m ρ c)
theorem f42_v1 : W42 m ρ c (Proc.devRef .tc main_v1) = (X0 m c) :=
  (Keep.keep42 m ρ c main_v1 (Keep.not_mem_of_rix Keep.wr_hostOps12_1_ix Keep.rix_v1 (by decide))).trans (f41_v1 m ρ c)
theorem f43_v1 : W43 m ρ c (Proc.devRef .tc main_v1) = (X0 m c) :=
  (Keep.keep43 m ρ c main_v1 (Keep.not_mem_of_rix Keep.wr_hostOps12_2_ix Keep.rix_v1 (by decide))).trans (f42_v1 m ρ c)
theorem f44_v1 : W44 m ρ c (Proc.devRef .tc main_v1) = (X0 m c) :=
  (Keep.keep44 m ρ c main_v1 (Keep.ne_of_rix Keep.rix_v1 Keep.rix_v172 (by decide))).trans (f43_v1 m ρ c)
theorem f45_v180 : W45 m ρ c (Proc.devRef .tc main_v180) = (KH.gat (A m c main_arg1) (X0 m c)) := by
  refine (KH.h13_gs (W44 m ρ c)).trans ?_
  rw [f44_arg1 m ρ c, f44_v1 m ρ c]
  all_goals rfl
theorem f44_arg2 : W44 m ρ c (Proc.devRef .tc main_arg2) = (A m c main_arg2) :=
  Keep.args44 m ρ c main_arg2 (by simp only [Keep.argRefs, List.mem_cons, eq_self_iff_true, true_or, or_true])
theorem f45_v187 : W45 m ρ c (Proc.devRef .tc main_v187) = (KH.gat (A m c main_arg2) (X0 m c)) := by
  refine (KH.h13_gd (W44 m ρ c)).trans ?_
  rw [f44_arg2 m ρ c, f44_v1 m ρ c]
  all_goals rfl
theorem f44_arg15 : W44 m ρ c (Proc.devRef .tc main_arg15) = (A m c main_arg15) :=
  Keep.args44 m ρ c main_arg15 (by simp only [Keep.argRefs, List.mem_cons, eq_self_iff_true, true_or, or_true])
theorem f45_v189 : W45 m ρ c (Proc.devRef .tc main_v189) = (KH.pw1 ![0, 0, 0] slices_S4x128x64_S1x64x64_0_0_0 (A m c main_arg15)) := by
  refine (KH.h13_a (W44 m ρ c)).trans ?_
  rw [f44_arg15 m ρ c]
  all_goals rfl
theorem f45_v191 : W45 m ρ c (Proc.devRef .tc main_v191) = (KH.pw1 ![0, 64, 0] slices_S4x128x64_S1x64x64_0_64_0 (A m c main_arg15)) := by
  refine (KH.h13_c (W44 m ρ c)).trans ?_
  rw [f44_arg15 m ρ c]
  all_goals rfl
theorem f44_arg16 : W44 m ρ c (Proc.devRef .tc main_arg16) = (A m c main_arg16) :=
  Keep.args44 m ρ c main_arg16 (by simp only [Keep.argRefs, List.mem_cons, eq_self_iff_true, true_or, or_true])
theorem f45_v194 : W45 m ρ c (Proc.devRef .tc main_v194) = (KH.rowOf (KH.pvec ![0, 0] slices_S4x64_S1x64_0_0 (A m c main_arg16))) := by
  refine (KH.h13_b1 (W44 m ρ c)).trans ?_
  rw [f44_arg16 m ρ c]
  all_goals rfl
theorem f44_arg17 : W44 m ρ c (Proc.devRef .tc main_arg17) = (A m c main_arg17) :=
  Keep.args44 m ρ c main_arg17 (by simp only [Keep.argRefs, List.mem_cons, eq_self_iff_true, true_or, or_true])
theorem f45_v196 : W45 m ρ c (Proc.devRef .tc main_v196) = (KH.pw2 ![0, 0, 0] slices_S4x64x2_S1x64x2_0_0_0 (A m c main_arg17)) := by
  refine (KH.h13_w2 (W44 m ρ c)).trans ?_
  rw [f44_arg17 m ρ c]
  all_goals rfl
theorem f44_arg18 : W44 m ρ c (Proc.devRef .tc main_arg18) = (A m c main_arg18) :=
  Keep.args44 m ρ c main_arg18 (by simp only [Keep.argRefs, List.mem_cons, eq_self_iff_true, true_or, or_true])
theorem f45_v199 : W45 m ρ c (Proc.devRef .tc main_v199) = (KH.rowOf2 (KH.pvec2 ![0, 0] slices_S4x2_S1x2_0_0 (A m c main_arg18))) := by
  refine (KH.h13_b2 (W44 m ρ c)).trans ?_
  rw [f44_arg18 m ρ c]
  all_goals rfl
theorem f46_v200 : W46 m ρ c (Proc.devRef .tc main_v200) = (Ctr0 m c) := by
  refine (W46_arr m ρ c (7 : Fin cfg13.W)).trans ?_
  refine (Reg13.final (V45 m ρ) c).trans ?_
  have h0 : V45 m ρ c main_v180 = (KH.gat (A m c main_arg1) (X0 m c)) := f45_v180 m ρ c
  have h1 : V45 m ρ c main_v187 = (KH.gat (A m c main_arg2) (X0 m c)) := f45_v187 m ρ c
  have h2 : V45 m ρ c main_v189 = (KH.pw1 ![0, 0, 0] slices_S4x128x64_S1x64x64_0_0_0 (A m c main_arg15)) := f45_v189 m ρ c
  have h3 : V45 m ρ c main_v191 = (KH.pw1 ![0, 64, 0] slices_S4x128x64_S1x64x64_0_64_0 (A m c main_arg15)) := f45_v191 m ρ c
  have h4 : V45 m ρ c main_v194 = (KH.rowOf (KH.pvec ![0, 0] slices_S4x64_S1x64_0_0 (A m c main_arg16))) := f45_v194 m ρ c
  have h5 : V45 m ρ c main_v196 = (KH.pw2 ![0, 0, 0] slices_S4x64x2_S1x64x2_0_0_0 (A m c main_arg17)) := f45_v196 m ρ c
  have h6 : V45 m ρ c main_v199 = (KH.rowOf2 (KH.pvec2 ![0, 0] slices_S4x2_S1x2_0_0 (A m c main_arg18))) := f45_v199 m ρ c
  rw [h0, h1, h2, h3, h4, h5, h6]
  all_goals rfl
theorem f47_v201 : W47 m ρ c (Proc.devRef .tc main_v201) = (Sc0 m c) := by
  refine (KH.h14_acc (W46 m ρ c)).trans ?_
  rw [f46_v173 m ρ c, f46_v200 m ρ c]
  all_goals rfl
theorem f48_v201 : W48 m ρ c (Proc.devRef .tc main_v201) = (Sc0 m c) :=
  (Keep.keep48 m ρ c main_v201 (Keep.ne_of_rix Keep.rix_v201 Keep.rix_v228 (by decide))).trans (f47_v201 m ρ c)
theorem f46_arg1 : W46 m ρ c (Proc.devRef .tc main_arg1) = (A m c main_arg1) :=
  Keep.args46 m ρ c main_arg1 (by simp only [Keep.argRefs, List.mem_cons, eq_self_iff_true, true_or, or_true])
theorem f2_arg1 : W2 m ρ c (Proc.devRef .tc main_arg1) = (A m c main_arg1) :=
  Keep.args2 m ρ c main_arg1 (by simp only [Keep.argRefs, List.mem_cons, eq_self_iff_true, true_or, or_true])
theorem f2_arg2 : W2 m ρ c (Proc.devRef .tc main_arg2) = (A m c main_arg2) :=
  Keep.args2 m ρ c main_arg2 (by simp only [Keep.argRefs, List.mem_cons, eq_self_iff_true, true_or, or_true])
theorem f3_v11 : W3 m ρ c (Proc.devRef .tc main_v11) = (Ag0 m c) := by
  refine (KH.h1_agg (W2 m ρ c)).trans ?_
  rw [f2_arg1 m ρ c, f2_arg2 m ρ c, f2_v1 m ρ c]
  all_goals rfl
theorem f2_arg5 : W2 m ρ c (Proc.devRef .tc main_arg5) = (A m c main_arg5) :=
  Keep.args2 m ρ c main_arg5 (by simp only [Keep.argRefs, List.mem_cons, eq_self_iff_true, true_or, or_true])
theorem f3_v13 : W3 m ρ c (Proc.devRef .tc main_v13) = (KH.wslice ![0, 0, 0] slices_S3x64x64_S1x64x64_0_0_0 (A m c main_arg5)) := by
  refine (KH.h1_w1 (W2 m ρ c)).trans ?_
  rw [f2_arg5 m ρ c]
  all_goals rfl
theorem f2_arg6 : W2 m ρ c (Proc.devRef .tc main_arg6) = (A m c main_arg6) :=
  Keep.args2 m ρ c main_arg6 (by simp only [Keep.argRefs, List.mem_cons, eq_self_iff_true, true_or, or_true])
theorem f3_v16 : W3 m ρ c (Proc.devRef .tc main_v16) = (KH.rowOf (KH.vslice ![0, 0] slices_S3x64_S1x64_0_0 (A m c main_arg6))) := by
  refine (KH.h1_b1 (W2 m ρ c)).trans ?_
  rw [f2_arg6 m ρ c]
  all_goals rfl
theorem f4_v17 : W4 m ρ c (Proc.devRef .tc main_v17) = (T1_0 m c) := by
  refine (W4_arr m ρ c (4 : Fin cfg1.W)).trans ?_
  refine (Reg1.final (V3 m ρ) c).trans ?_
  have h0 : V3 m ρ c main_v1 = (X0 m c) := f3_v1 m ρ c
  have h1 : V3 m ρ c main_v11 = (Ag0 m c) := f3_v11 m ρ c
  have h2 : V3 m ρ c main_v13 = (KH.wslice ![0, 0, 0] slices_S3x64x64_S1x64x64_0_0_0 (A m c main_arg5)) := f3_v13 m ρ c
  have h3 : V3 m ρ c main_v16 = (KH.rowOf (KH.vslice ![0, 0] slices_S3x64_S1x64_0_0 (A m c main_arg6))) := f3_v16 m ρ c
  rw [h0, h1, h2, h3]
  all_goals rfl
theorem f5_v17 : W5 m ρ c (Proc.devRef .tc main_v17) = (T1_0 m c) :=
  (Keep.keep5 m ρ c main_v17 (Keep.not_mem_of_rix Keep.wr_hostOps2_ix Keep.rix_v17 (by decide))).trans (f4_v17 m ρ c)
theorem f6_v17 : W6 m ρ c (Proc.devRef .tc main_v17) = (T1_0 m c) :=
  (Keep.keep6 m ρ c main_v17 (Keep.not_mem_of_rix Keep.wr_hostOps2_1_ix Keep.rix_v17 (by decide))).trans (f5_v17 m ρ c)
theorem f7_v17 : W7 m ρ c (Proc.devRef .tc main_v17) = (T1_0 m c) :=
  (Keep.keep7 m ρ c main_v17 (Keep.not_mem_of_rix Keep.wr_hostOps2_2_ix Keep.rix_v17 (by decide))).trans (f6_v17 m ρ c)
theorem f5_v21 : W5 m ρ c (Proc.devRef .tc main_v21) = (KH.meanRow (T1_0 m c)) := by
  refine (KH.h2_mean (W4 m ρ c)).trans ?_
  rw [f4_v17 m ρ c]
  all_goals rfl
theorem f6_v21 : W6 m ρ c (Proc.devRef .tc main_v21) = (KH.meanRow (T1_0 m c)) :=
  (Keep.keep6 m ρ c main_v21 (Keep.not_mem_of_rix Keep.wr_hostOps2_1_ix Keep.rix_v21 (by decide))).trans (f5_v21 m ρ c)
theorem f7_v21 : W7 m ρ c (Proc.devRef .tc main_v21) = (KH.meanRow (T1_0 m c)) :=
  (Keep.keep7 m ρ c main_v21 (Keep.not_mem_of_rix Keep.wr_hostOps2_2_ix Keep.rix_v21 (by decide))).trans (f6_v21 m ρ c)
theorem f5_c_3 : W5 m ρ c (Proc.devRef .tc main_c_3) = (KH.zeroI) := by
  refine (KH.h2_c (W4 m ρ c)).trans ?_
  rfl
theorem f6_v22 : W6 m ρ c (Proc.devRef .tc main_v22) = (KH.varRow (T1_0 m c) (KH.zeroI)) := by
  refine (KH.h2_var (W5 m ρ c)).trans ?_
  rw [f5_v17 m ρ c, f5_c_3 m ρ c]
  all_goals rfl
theorem f7_v22 : W7 m ρ c (Proc.devRef .tc main_v22) = (KH.varRow (T1_0 m c) (KH.zeroI)) :=
  (Keep.keep7 m ρ c main_v22 (Keep.not_mem_of_rix Keep.wr_hostOps2_2_ix Keep.rix_v22 (by decide))).trans (f6_v22 m ρ c)
theorem f6_arg7 : W6 m ρ c (Proc.devRef .tc main_arg7) = (A m c main_arg7) :=
  Keep.args6 m ρ c main_arg7 (by simp only [Keep.argRefs, List.mem_cons, eq_self_iff_true, true_or, or_true])
theorem f7_v25 : W7 m ρ c (Proc.devRef .tc main_v25) = (KH.rowOf (KH.vslice ![0, 0] slices_S3x64_S1x64_0_0 (A m c main_arg7))) := by
  refine (KH.h2_g (W6 m ρ c)).trans ?_
  rw [f6_arg7 m ρ c]
  all_goals rfl
theorem f6_arg8 : W6 m ρ c (Proc.devRef .tc main_arg8) = (A m c main_arg8) :=
  Keep.args6 m ρ c main_arg8 (by simp only [Keep.argRefs, List.mem_cons, eq_self_iff_true, true_or, or_true])
theorem f7_v28 : W7 m ρ c (Proc.devRef .tc main_v28) = (KH.rowOf (KH.vslice ![0, 0] slices_S3x64_S1x64_0_0 (A m c main_arg8))) := by
  refine (KH.h2_sh (W6 m ρ c)).trans ?_
  rw [f6_arg8 m ρ c]
  all_goals rfl
theorem f6_arg9 : W6 m ρ c (Proc.devRef .tc main_arg9) = (A m c main_arg9) :=
  Keep.args6 m ρ c main_arg9 (by simp only [Keep.argRefs, List.mem_cons, eq_self_iff_true, true_or, or_true])
theorem f7_v30 : W7 m ρ c (Proc.devRef .tc main_v30) = (KH.wslice ![0, 0, 0] slices_S3x64x64_S1x64x64_0_0_0 (A m c main_arg9)) := by
  refine (KH.h2_w2 (W6 m ρ c)).trans ?_
  rw [f6_arg9 m ρ c]
  all_goals rfl
theorem f6_arg10 : W6 m ρ c (Proc.devRef .tc main_arg10) = (A m c main_arg10) :=
  Keep.args6 m ρ c main_arg10 (by simp only [Keep.argRefs, List.mem_cons, eq_self_iff_true, true_or, or_true])
theorem f7_v33 : W7 m ρ c (Proc.devRef .tc main_v33) = (KH.rowOf (KH.vslice ![0, 0] slices_S3x64_S1x64_0_0 (A m c main_arg10))) := by
  refine (KH.h2_b2 (W6 m ρ c)).trans ?_
  rw [f6_arg10 m ρ c]
  all_goals rfl
theorem f8_v34 : W8 m ρ c (Proc.devRef .tc main_v34) = (T3_0 m c) := by
  refine (W8_arr m ρ c (7 : Fin cfg2.W)).trans ?_
  refine (Reg2.final (V7 m ρ) c).trans ?_
  have h0 : V7 m ρ c main_v17 = (T1_0 m c) := f7_v17 m ρ c
  have h1 : V7 m ρ c main_v21 = (KH.meanRow (T1_0 m c)) := f7_v21 m ρ c
  have h2 : V7 m ρ c main_v22 = (KH.varRow (T1_0 m c) (KH.zeroI)) := f7_v22 m ρ c
  have h3 : V7 m ρ c main_v25 = (KH.rowOf (KH.vslice ![0, 0] slices_S3x64_S1x64_0_0 (A m c main_arg7))) := f7_v25 m ρ c
  have h4 : V7 m ρ c main_v28 = (KH.rowOf (KH.vslice ![0, 0] slices_S3x64_S1x64_0_0 (A m c main_arg8))) := f7_v28 m ρ c
  have h5 : V7 m ρ c main_v30 = (KH.wslice ![0, 0, 0] slices_S3x64x64_S1x64x64_0_0_0 (A m c main_arg9)) := f7_v30 m ρ c
  have h6 : V7 m ρ c main_v33 = (KH.rowOf (KH.vslice ![0, 0] slices_S3x64_S1x64_0_0 (A m c main_arg10))) := f7_v33 m ρ c
  rw [h0, h1, h2, h3, h4, h5, h6]
  all_goals rfl
theorem f9_v34 : W9 m ρ c (Proc.devRef .tc main_v34) = (T3_0 m c) :=
  (Keep.keep9 m ρ c main_v34 (Keep.not_mem_of_rix Keep.wr_hostOps3_ix Keep.rix_v34 (by decide))).trans (f8_v34 m ρ c)
theorem f10_v34 : W10 m ρ c (Proc.devRef .tc main_v34) = (T3_0 m c) :=
  (Keep.keep10 m ρ c main_v34 (Keep.not_mem_of_rix Keep.wr_hostOps3_1_ix Keep.rix_v34 (by decide))).trans (f9_v34 m ρ c)
theorem f11_v34 : W11 m ρ c (Proc.devRef .tc main_v34) = (T3_0 m c) :=
  (Keep.keep11 m ρ c main_v34 (Keep.not_mem_of_rix Keep.wr_hostOps3_2_ix Keep.rix_v34 (by decide))).trans (f10_v34 m ρ c)
theorem f9_v38 : W9 m ρ c (Proc.devRef .tc main_v38) = (KH.meanRow (T3_0 m c)) := by
  refine (KH.h3_mean (W8 m ρ c)).trans ?_
  rw [f8_v34 m ρ c]
  all_goals rfl
theorem f10_v38 : W10 m ρ c (Proc.devRef .tc main_v38) = (KH.meanRow (T3_0 m c)) :=
  (Keep.keep10 m ρ c main_v38 (Keep.not_mem_of_rix Keep.wr_hostOps3_1_ix Keep.rix_v38 (by decide))).trans (f9_v38 m ρ c)
theorem f11_v38 : W11 m ρ c (Proc.devRef .tc main_v38) = (KH.meanRow (T3_0 m c)) :=
  (Keep.keep11 m ρ c main_v38 (Keep.not_mem_of_rix Keep.wr_hostOps3_2_ix Keep.rix_v38 (by decide))).trans (f10_v38 m ρ c)
theorem f9_c_6 : W9 m ρ c (Proc.devRef .tc main_c_6) = (KH.zeroI) := by
  refine (KH.h3_c (W8 m ρ c)).trans ?_
  rfl
theorem f10_v39 : W10 m ρ c (Proc.devRef .tc main_v39) = (KH.varRow (T3_0 m c) (KH.zeroI)) := by
  refine (KH.h3_var (W9 m ρ c)).trans ?_
  rw [f9_v34 m ρ c, f9_c_6 m ρ c]
  all_goals rfl
theorem f11_v39 : W11 m ρ c (Proc.devRef .tc main_v39) = (KH.varRow (T3_0 m c) (KH.zeroI)) :=
  (Keep.keep11 m ρ c main_v39 (Keep.not_mem_of_rix Keep.wr_hostOps3_2_ix Keep.rix_v39 (by decide))).trans (f10_v39 m ρ c)
theorem f10_arg11 : W10 m ρ c (Proc.devRef .tc main_arg11) = (A m c main_arg11) :=
  Keep.args10 m ρ c main_arg11 (by simp only [Keep.argRefs, List.mem_cons, eq_self_iff_true, true_or, or_true])
theorem f11_v42 : W11 m ρ c (Proc.devRef .tc main_v42) = (KH.rowOf (KH.vslice ![0, 0] slices_S3x64_S1x64_0_0 (A m c main_arg11))) := by
  refine (KH.h3_g (W10 m ρ c)).trans ?_
  rw [f10_arg11 m ρ c]
  all_goals rfl
theorem f10_arg12 : W10 m ρ c (Proc.devRef .tc main_arg12) = (A m c main_arg12) :=
  Keep.args10 m ρ c main_arg12 (by simp only [Keep.argRefs, List.mem_cons, eq_self_iff_true, true_or, or_true])
theorem f11_v45 : W11 m ρ c (Proc.devRef .tc main_v45) = (KH.rowOf (KH.vslice ![0, 0] slices_S3x64_S1x64_0_0 (A m c main_arg12))) := by
  refine (KH.h3_sh (W10 m ρ c)).trans ?_
  rw [f10_arg12 m ρ c]
  all_goals rfl
theorem f12_v46 : W12 m ρ c (Proc.devRef .tc main_v46) = (T4_0 m c) := by
  refine (W12_arr m ρ c (5 : Fin cfg3.W)).trans ?_
  refine (Reg3.final (V11 m ρ) c).trans ?_
  have h0 : V11 m ρ c main_v34 = (T3_0 m c) := f11_v34 m ρ c
  have h1 : V11 m ρ c main_v38 = (KH.meanRow (T3_0 m c)) := f11_v38 m ρ c
  have h2 : V11 m ρ c main_v39 = (KH.varRow (T3_0 m c) (KH.zeroI)) := f11_v39 m ρ c
  have h3 : V11 m ρ c main_v42 = (KH.rowOf (KH.vslice ![0, 0] slices_S3x64_S1x64_0_0 (A m c main_arg11))) := f11_v42 m ρ c
  have h4 : V11 m ρ c main_v45 = (KH.rowOf (KH.vslice ![0, 0] slices_S3x64_S1x64_0_0 (A m c main_arg12))) := f11_v45 m ρ c
  rw [h0, h1, h2, h3, h4]
  all_goals rfl
theorem f13_v46 : W13 m ρ c (Proc.devRef .tc main_v46) = (T4_0 m c) :=
  (Keep.keep13 m ρ c main_v46 (Keep.not_mem_of_rix Keep.wr_hostOps4_ix Keep.rix_v46 (by decide))).trans (f12_v46 m ρ c)
theorem f14_v46 : W14 m ρ c (Proc.devRef .tc main_v46) = (T4_0 m c) :=
  (Keep.keep14 m ρ c main_v46 (Keep.not_mem_of_rix Keep.wr_hostOps4_1_ix Keep.rix_v46 (by decide))).trans (f13_v46 m ρ c)
theorem f15_v46 : W15 m ρ c (Proc.devRef .tc main_v46) = (T4_0 m c) :=
  (Keep.keep15 m ρ c main_v46 (Keep.not_mem_of_rix Keep.wr_hostOps4_2_ix Keep.rix_v46 (by decide))).trans (f14_v46 m ρ c)
theorem f13_v50 : W13 m ρ c (Proc.devRef .tc main_v50) = (KH.meanRow (T4_0 m c)) := by
  refine (KH.h4_mean (W12 m ρ c)).trans ?_
  rw [f12_v46 m ρ c]
  all_goals rfl
theorem f14_v50 : W14 m ρ c (Proc.devRef .tc main_v50) = (KH.meanRow (T4_0 m c)) :=
  (Keep.keep14 m ρ c main_v50 (Keep.not_mem_of_rix Keep.wr_hostOps4_1_ix Keep.rix_v50 (by decide))).trans (f13_v50 m ρ c)
theorem f15_v50 : W15 m ρ c (Proc.devRef .tc main_v50) = (KH.meanRow (T4_0 m c)) :=
  (Keep.keep15 m ρ c main_v50 (Keep.not_mem_of_rix Keep.wr_hostOps4_2_ix Keep.rix_v50 (by decide))).trans (f14_v50 m ρ c)
theorem f13_c_9 : W13 m ρ c (Proc.devRef .tc main_c_9) = (KH.zeroI) := by
  refine (KH.h4_c (W12 m ρ c)).trans ?_
  rfl
theorem f14_v51 : W14 m ρ c (Proc.devRef .tc main_v51) = (KH.varRow (T4_0 m c) (KH.zeroI)) := by
  refine (KH.h4_var (W13 m ρ c)).trans ?_
  rw [f13_v46 m ρ c, f13_c_9 m ρ c]
  all_goals rfl
theorem f15_v51 : W15 m ρ c (Proc.devRef .tc main_v51) = (KH.varRow (T4_0 m c) (KH.zeroI)) :=
  (Keep.keep15 m ρ c main_v51 (Keep.not_mem_of_rix Keep.wr_hostOps4_2_ix Keep.rix_v51 (by decide))).trans (f14_v51 m ρ c)
theorem f14_arg13 : W14 m ρ c (Proc.devRef .tc main_arg13) = (A m c main_arg13) :=
  Keep.args14 m ρ c main_arg13 (by simp only [Keep.argRefs, List.mem_cons, eq_self_iff_true, true_or, or_true])
theorem f15_v54 : W15 m ρ c (Proc.devRef .tc main_v54) = (KH.rowOf (KH.vslice ![0, 0] slices_S3x64_S1x64_0_0 (A m c main_arg13))) := by
  refine (KH.h4_g (W14 m ρ c)).trans ?_
  rw [f14_arg13 m ρ c]
  all_goals rfl
theorem f14_arg14 : W14 m ρ c (Proc.devRef .tc main_arg14) = (A m c main_arg14) :=
  Keep.args14 m ρ c main_arg14 (by simp only [Keep.argRefs, List.mem_cons, eq_self_iff_true, true_or, or_true])
theorem f15_v57 : W15 m ρ c (Proc.devRef .tc main_v57) = (KH.rowOf (KH.vslice ![0, 0] slices_S3x64_S1x64_0_0 (A m c main_arg14))) := by
  refine (KH.h4_sh (W14 m ρ c)).trans ?_
  rw [f14_arg14 m ρ c]
  all_goals rfl
theorem f16_v58 : W16 m ρ c (Proc.devRef .tc main_v58) = (X1 m c) := by
  refine (W16_arr m ρ c (5 : Fin cfg4.W)).trans ?_
  refine (Reg4.final (V15 m ρ) c).trans ?_
  have h0 : V15 m ρ c main_v46 = (T4_0 m c) := f15_v46 m ρ c
  have h1 : V15 m ρ c main_v50 = (KH.meanRow (T4_0 m c)) := f15_v50 m ρ c
  have h2 : V15 m ρ c main_v51 = (KH.varRow (T4_0 m c) (KH.zeroI)) := f15_v51 m ρ c
  have h3 : V15 m ρ c main_v54 = (KH.rowOf (KH.vslice ![0, 0] slices_S3x64_S1x64_0_0 (A m c main_arg13))) := f15_v54 m ρ c
  have h4 : V15 m ρ c main_v57 = (KH.rowOf (KH.vslice ![0, 0] slices_S3x64_S1x64_0_0 (A m c main_arg14))) := f15_v57 m ρ c
  rw [h0, h1, h2, h3, h4]
  all_goals rfl
theorem f17_v58 : W17 m ρ c (Proc.devRef .tc main_v58) = (X1 m c) :=
  (Keep.keep17 m ρ c main_v58 (Keep.not_mem_of_rix Keep.wr_hostOps5_ix Keep.rix_v58 (by decide))).trans (f16_v58 m ρ c)
theorem f18_v58 : W18 m ρ c (Proc.devRef .tc main_v58) = (X1 m c) :=
  (Keep.keep18 m ρ c main_v58 (Keep.ne_of_rix Keep.rix_v58 Keep.rix_v74 (by decide))).trans (f17_v58 m ρ c)
theorem f19_v58 : W19 m ρ c (Proc.devRef .tc main_v58) = (X1 m c) :=
  (Keep.keep19 m ρ c main_v58 (Keep.not_mem_of_rix Keep.wr_hostOps6_ix Keep.rix_v58 (by decide))).trans (f18_v58 m ρ c)
theorem f20_v58 : W20 m ρ c (Proc.devRef .tc main_v58) = (X1 m c) :=
  (Keep.keep20 m ρ c main_v58 (Keep.not_mem_of_rix Keep.wr_hostOps6_1_ix Keep.rix_v58 (by decide))).trans (f19_v58 m ρ c)
theorem f21_v58 : W21 m ρ c (Proc.devRef .tc main_v58) = (X1 m c) :=
  (Keep.keep21 m ρ c main_v58 (Keep.not_mem_of_rix Keep.wr_hostOps6_2_ix Keep.rix_v58 (by decide))).trans (f20_v58 m ρ c)
theorem f22_v58 : W22 m ρ c (Proc.devRef .tc main_v58) = (X1 m c) :=
  (Keep.keep22 m ρ c main_v58 (Keep.ne_of_rix Keep.rix_v58 Keep.rix_v91 (by decide))).trans (f21_v58 m ρ c)
theorem f23_v58 : W23 m ρ c (Proc.devRef .tc main_v58) = (X1 m c) :=
  (Keep.keep23 m ρ c main_v58 (Keep.not_mem_of_rix Keep.wr_hostOps7_ix Keep.rix_v58 (by decide))).trans (f22_v58 m ρ c)
theorem f24_v58 : W24 m ρ c (Proc.devRef .tc main_v58) = (X1 m c) :=
  (Keep.keep24 m ρ c main_v58 (Keep.not_mem_of_rix Keep.wr_hostOps7_1_ix Keep.rix_v58 (by decide))).trans (f23_v58 m ρ c)
theorem f25_v58 : W25 m ρ c (Proc.devRef .tc main_v58) = (X1 m c) :=
  (Keep.keep25 m ρ c main_v58 (Keep.not_mem_of_rix Keep.wr_hostOps7_2_ix Keep.rix_v58 (by decide))).trans (f24_v58 m ρ c)
theorem f26_v58 : W26 m ρ c (Proc.devRef .tc main_v58) = (X1 m c) :=
  (Keep.keep26 m ρ c main_v58 (Keep.ne_of_rix Keep.rix_v58 Keep.rix_v103 (by decide))).trans (f25_v58 m ρ c)
theorem f27_v58 : W27 m ρ c (Proc.devRef .tc main_v58) = (X1 m c) :=
  (Keep.keep27 m ρ c main_v58 (Keep.not_mem_of_rix Keep.wr_hostOps8_ix Keep.rix_v58 (by decide))).trans (f26_v58 m ρ c)
theorem f28_v58 : W28 m ρ c (Proc.devRef .tc main_v58) = (X1 m c) :=
  (Keep.keep28 m ρ c main_v58 (Keep.not_mem_of_rix Keep.wr_hostOps8_1_ix Keep.rix_v58 (by decide))).trans (f27_v58 m ρ c)
theorem f29_v58 : W29 m ρ c (Proc.devRef .tc main_v58) = (X1 m c) :=
  (Keep.keep29 m ρ c main_v58 (Keep.not_mem_of_rix Keep.wr_hostOps8_2_ix Keep.rix_v58 (by decide))).trans (f28_v58 m ρ c)
theorem f30_v58 : W30 m ρ c (Proc.devRef .tc main_v58) = (X1 m c) :=
  (Keep.keep30 m ρ c main_v58 (Keep.ne_of_rix Keep.rix_v58 Keep.rix_v115 (by decide))).trans (f29_v58 m ρ c)
theorem f31_v58 : W31 m ρ c (Proc.devRef .tc main_v58) = (X1 m c) :=
  (Keep.keep31 m ρ c main_v58 (Keep.not_mem_of_rix Keep.wr_hostOps9_ix Keep.rix_v58 (by decide))).trans (f30_v58 m ρ c)
theorem f32_v58 : W32 m ρ c (Proc.devRef .tc main_v58) = (X1 m c) :=
  (Keep.keep32 m ρ c main_v58 (Keep.ne_of_rix Keep.rix_v58 Keep.rix_v131 (by decide))).trans (f31_v58 m ρ c)
theorem f33_v58 : W33 m ρ c (Proc.devRef .tc main_v58) = (X1 m c) :=
  (Keep.keep33 m ρ c main_v58 (Keep.not_mem_of_rix Keep.wr_hostOps10_ix Keep.rix_v58 (by decide))).trans (f32_v58 m ρ c)
theorem f34_v58 : W34 m ρ c (Proc.devRef .tc main_v58) = (X1 m c) :=
  (Keep.keep34 m ρ c main_v58 (Keep.not_mem_of_rix Keep.wr_hostOps10_1_ix Keep.rix_v58 (by decide))).trans (f33_v58 m ρ c)
theorem f35_v58 : W35 m ρ c (Proc.devRef .tc main_v58) = (X1 m c) :=
  (Keep.keep35 m ρ c main_v58 (Keep.not_mem_of_rix Keep.wr_hostOps10_2_ix Keep.rix_v58 (by decide))).trans (f34_v58 m ρ c)
theorem f36_v58 : W36 m ρ c (Proc.devRef .tc main_v58) = (X1 m c) :=
  (Keep.keep36 m ρ c main_v58 (Keep.ne_of_rix Keep.rix_v58 Keep.rix_v148 (by decide))).trans (f35_v58 m ρ c)
theorem f37_v58 : W37 m ρ c (Proc.devRef .tc main_v58) = (X1 m c) :=
  (Keep.keep37 m ρ c main_v58 (Keep.not_mem_of_rix Keep.wr_hostOps11_ix Keep.rix_v58 (by decide))).trans (f36_v58 m ρ c)
theorem f38_v58 : W38 m ρ c (Proc.devRef .tc main_v58) = (X1 m c) :=
  (Keep.keep38 m ρ c main_v58 (Keep.not_mem_of_rix Keep.wr_hostOps11_1_ix Keep.rix_v58 (by decide))).trans (f37_v58 m ρ c)
theorem f39_v58 : W39 m ρ c (Proc.devRef .tc main_v58) = (X1 m c) :=
  (Keep.keep39 m ρ c main_v58 (Keep.not_mem_of_rix Keep.wr_hostOps11_2_ix Keep.rix_v58 (by decide))).trans (f38_v58 m ρ c)
theorem f40_v58 : W40 m ρ c (Proc.devRef .tc main_v58) = (X1 m c) :=
  (Keep.keep40 m ρ c main_v58 (Keep.ne_of_rix Keep.rix_v58 Keep.rix_v160 (by decide))).trans (f39_v58 m ρ c)
theorem f41_v58 : W41 m ρ c (Proc.devRef .tc main_v58) = (X1 m c) :=
  (Keep.keep41 m ρ c main_v58 (Keep.not_mem_of_rix Keep.wr_hostOps12_ix Keep.rix_v58 (by decide))).trans (f40_v58 m ρ c)
theorem f42_v58 : W42 m ρ c (Proc.devRef .tc main_v58) = (X1 m c) :=
  (Keep.keep42 m ρ c main_v58 (Keep.not_mem_of_rix Keep.wr_hostOps12_1_ix Keep.rix_v58 (by decide))).trans (f41_v58 m ρ c)
theorem f43_v58 : W43 m ρ c (Proc.devRef .tc main_v58) = (X1 m c) :=
  (Keep.keep43 m ρ c main_v58 (Keep.not_mem_of_rix Keep.wr_hostOps12_2_ix Keep.rix_v58 (by decide))).trans (f42_v58 m ρ c)
theorem f44_v58 : W44 m ρ c (Proc.devRef .tc main_v58) = (X1 m c) :=
  (Keep.keep44 m ρ c main_v58 (Keep.ne_of_rix Keep.rix_v58 Keep.rix_v172 (by decide))).trans (f43_v58 m ρ c)
theorem f45_v58 : W45 m ρ c (Proc.devRef .tc main_v58) = (X1 m c) :=
  (Keep.keep45 m ρ c main_v58 (Keep.not_mem_of_rix Keep.wr_hostOps13_ix Keep.rix_v58 (by decide))).trans (f44_v58 m ρ c)
theorem f46_v58 : W46 m ρ c (Proc.devRef .tc main_v58) = (X1 m c) :=
  (Keep.keep46 m ρ c main_v58 (Keep.ne_of_rix Keep.rix_v58 Keep.rix_v200 (by decide))).trans (f45_v58 m ρ c)
theorem f47_v208 : W47 m ρ c (Proc.devRef .tc main_v208) = (KH.gat (A m c main_arg1) (X1 m c)) := by
  refine (KH.h14_gs (W46 m ρ c)).trans ?_
  rw [f46_arg1 m ρ c, f46_v58 m ρ c]
  all_goals rfl
theorem f46_arg2 : W46 m ρ c (Proc.devRef .tc main_arg2) = (A m c main_arg2) :=
  Keep.args46 m ρ c main_arg2 (by simp only [Keep.argRefs, List.mem_cons, eq_self_iff_true, true_or, or_true])
theorem f47_v215 : W47 m ρ c (Proc.devRef .tc main_v215) = (KH.gat (A m c main_arg2) (X1 m c)) := by
  refine (KH.h14_gd (W46 m ρ c)).trans ?_
  rw [f46_arg2 m ρ c, f46_v58 m ρ c]
  all_goals rfl
theorem f46_arg15 : W46 m ρ c (Proc.devRef .tc main_arg15) = (A m c main_arg15) :=
  Keep.args46 m ρ c main_arg15 (by simp only [Keep.argRefs, List.mem_cons, eq_self_iff_true, true_or, or_true])
theorem f47_v217 : W47 m ρ c (Proc.devRef .tc main_v217) = (KH.pw1 ![1, 0, 0] slices_S4x128x64_S1x64x64_1_0_0 (A m c main_arg15)) := by
  refine (KH.h14_a (W46 m ρ c)).trans ?_
  rw [f46_arg15 m ρ c]
  all_goals rfl
theorem f47_v219 : W47 m ρ c (Proc.devRef .tc main_v219) = (KH.pw1 ![1, 64, 0] slices_S4x128x64_S1x64x64_1_64_0 (A m c main_arg15)) := by
  refine (KH.h14_c (W46 m ρ c)).trans ?_
  rw [f46_arg15 m ρ c]
  all_goals rfl
theorem f46_arg16 : W46 m ρ c (Proc.devRef .tc main_arg16) = (A m c main_arg16) :=
  Keep.args46 m ρ c main_arg16 (by simp only [Keep.argRefs, List.mem_cons, eq_self_iff_true, true_or, or_true])
theorem f47_v222 : W47 m ρ c (Proc.devRef .tc main_v222) = (KH.rowOf (KH.pvec ![1, 0] slices_S4x64_S1x64_1_0 (A m c main_arg16))) := by
  refine (KH.h14_b1 (W46 m ρ c)).trans ?_
  rw [f46_arg16 m ρ c]
  all_goals rfl
theorem f46_arg17 : W46 m ρ c (Proc.devRef .tc main_arg17) = (A m c main_arg17) :=
  Keep.args46 m ρ c main_arg17 (by simp only [Keep.argRefs, List.mem_cons, eq_self_iff_true, true_or, or_true])
theorem f47_v224 : W47 m ρ c (Proc.devRef .tc main_v224) = (KH.pw2 ![1, 0, 0] slices_S4x64x2_S1x64x2_1_0_0 (A m c main_arg17)) := by
  refine (KH.h14_w2 (W46 m ρ c)).trans ?_
  rw [f46_arg17 m ρ c]
  all_goals rfl
theorem f46_arg18 : W46 m ρ c (Proc.devRef .tc main_arg18) = (A m c main_arg18) :=
  Keep.args46 m ρ c main_arg18 (by simp only [Keep.argRefs, List.mem_cons, eq_self_iff_true, true_or, or_true])
theorem f47_v227 : W47 m ρ c (Proc.devRef .tc main_v227) = (KH.rowOf2 (KH.pvec2 ![1, 0] slices_S4x2_S1x2_1_0 (A m c main_arg18))) := by
  refine (KH.h14_b2 (W46 m ρ c)).trans ?_
  rw [f46_arg18 m ρ c]
  all_goals rfl
theorem f48_v228 : W48 m ρ c (Proc.devRef .tc main_v228) = (Ctr1 m c) := by
  refine (W48_arr m ρ c (7 : Fin cfg14.W)).trans ?_
  refine (Reg14.final (V47 m ρ) c).trans ?_
  have h0 : V47 m ρ c main_v208 = (KH.gat (A m c main_arg1) (X1 m c)) := f47_v208 m ρ c
  have h1 : V47 m ρ c main_v215 = (KH.gat (A m c main_arg2) (X1 m c)) := f47_v215 m ρ c
  have h2 : V47 m ρ c main_v217 = (KH.pw1 ![1, 0, 0] slices_S4x128x64_S1x64x64_1_0_0 (A m c main_arg15)) := f47_v217 m ρ c
  have h3 : V47 m ρ c main_v219 = (KH.pw1 ![1, 64, 0] slices_S4x128x64_S1x64x64_1_64_0 (A m c main_arg15)) := f47_v219 m ρ c
  have h4 : V47 m ρ c main_v222 = (KH.rowOf (KH.pvec ![1, 0] slices_S4x64_S1x64_1_0 (A m c main_arg16))) := f47_v222 m ρ c
  have h5 : V47 m ρ c main_v224 = (KH.pw2 ![1, 0, 0] slices_S4x64x2_S1x64x2_1_0_0 (A m c main_arg17)) := f47_v224 m ρ c
  have h6 : V47 m ρ c main_v227 = (KH.rowOf2 (KH.pvec2 ![1, 0] slices_S4x2_S1x2_1_0 (A m c main_arg18))) := f47_v227 m ρ c
  rw [h0, h1, h2, h3, h4, h5, h6]
  all_goals rfl
theorem f49_v229 : W49 m ρ c (Proc.devRef .tc main_v229) = (Sc1 m c) := by
  refine (KH.h15_acc (W48 m ρ c)).trans ?_
  rw [f48_v201 m ρ c, f48_v228 m ρ c]
  all_goals rfl
theorem f50_v229 : W50 m ρ c (Proc.devRef .tc main_v229) = (Sc1 m c) :=
  (Keep.keep50 m ρ c main_v229 (Keep.ne_of_rix Keep.rix_v229 Keep.rix_v256 (by decide))).trans (f49_v229 m ρ c)
theorem f48_arg1 : W48 m ρ c (Proc.devRef .tc main_arg1) = (A m c main_arg1) :=
  Keep.args48 m ρ c main_arg1 (by simp only [Keep.argRefs, List.mem_cons, eq_self_iff_true, true_or, or_true])
theorem f16_arg1 : W16 m ρ c (Proc.devRef .tc main_arg1) = (A m c main_arg1) :=
  Keep.args16 m ρ c main_arg1 (by simp only [Keep.argRefs, List.mem_cons, eq_self_iff_true, true_or, or_true])
theorem f16_arg2 : W16 m ρ c (Proc.devRef .tc main_arg2) = (A m c main_arg2) :=
  Keep.args16 m ρ c main_arg2 (by simp only [Keep.argRefs, List.mem_cons, eq_self_iff_true, true_or, or_true])
theorem f17_v68 : W17 m ρ c (Proc.devRef .tc main_v68) = (Ag1 m c) := by
  refine (KH.h5_agg (W16 m ρ c)).trans ?_
  rw [f16_arg1 m ρ c, f16_arg2 m ρ c, f16_v58 m ρ c]
  all_goals rfl
theorem f16_arg5 : W16 m ρ c (Proc.devRef .tc main_arg5) = (A m c main_arg5) :=
  Keep.args16 m ρ c main_arg5 (by simp only [Keep.argRefs, List.mem_cons, eq_self_iff_true, true_or, or_true])
theorem f17_v70 : W17 m ρ c (Proc.devRef .tc main_v70) = (KH.wslice ![1, 0, 0] slices_S3x64x64_S1x64x64_1_0_0 (A m c main_arg5)) := by
  refine (KH.h5_w1 (W16 m ρ c)).trans ?_
  rw [f16_arg5 m ρ c]
  all_goals rfl
theorem f16_arg6 : W16 m ρ c (Proc.devRef .tc main_arg6) = (A m c main_arg6) :=
  Keep.args16 m ρ c main_arg6 (by simp only [Keep.argRefs, List.mem_cons, eq_self_iff_true, true_or, or_true])
theorem f17_v73 : W17 m ρ c (Proc.devRef .tc main_v73) = (KH.rowOf (KH.vslice ![1, 0] slices_S3x64_S1x64_1_0 (A m c main_arg6))) := by
  refine (KH.h5_b1 (W16 m ρ c)).trans ?_
  rw [f16_arg6 m ρ c]
  all_goals rfl
theorem f18_v74 : W18 m ρ c (Proc.devRef .tc main_v74) = (T1_1 m c) := by
  refine (W18_arr m ρ c (4 : Fin cfg5.W)).trans ?_
  refine (Reg5.final (V17 m ρ) c).trans ?_
  have h0 : V17 m ρ c main_v58 = (X1 m c) := f17_v58 m ρ c
  have h1 : V17 m ρ c main_v68 = (Ag1 m c) := f17_v68 m ρ c
  have h2 : V17 m ρ c main_v70 = (KH.wslice ![1, 0, 0] slices_S3x64x64_S1x64x64_1_0_0 (A m c main_arg5)) := f17_v70 m ρ c
  have h3 : V17 m ρ c main_v73 = (KH.rowOf (KH.vslice ![1, 0] slices_S3x64_S1x64_1_0 (A m c main_arg6))) := f17_v73 m ρ c
  rw [h0, h1, h2, h3]
  all_goals rfl
theorem f19_v74 : W19 m ρ c (Proc.devRef .tc main_v74) = (T1_1 m c) :=
  (Keep.keep19 m ρ c main_v74 (Keep.not_mem_of_rix Keep.wr_hostOps6_ix Keep.rix_v74 (by decide))).trans (f18_v74 m ρ c)
theorem f20_v74 : W20 m ρ c (Proc.devRef .tc main_v74) = (T1_1 m c) :=
  (Keep.keep20 m ρ c main_v74 (Keep.not_mem_of_rix Keep.wr_hostOps6_1_ix Keep.rix_v74 (by decide))).trans (f19_v74 m ρ c)
theorem f21_v74 : W21 m ρ c (Proc.devRef .tc main_v74) = (T1_1 m c) :=
  (Keep.keep21 m ρ c main_v74 (Keep.not_mem_of_rix Keep.wr_hostOps6_2_ix Keep.rix_v74 (by decide))).trans (f20_v74 m ρ c)
theorem f19_v78 : W19 m ρ c (Proc.devRef .tc main_v78) = (KH.meanRow (T1_1 m c)) := by
  refine (KH.h6_mean (W18 m ρ c)).trans ?_
  rw [f18_v74 m ρ c]
  all_goals rfl
theorem f20_v78 : W20 m ρ c (Proc.devRef .tc main_v78) = (KH.meanRow (T1_1 m c)) :=
  (Keep.keep20 m ρ c main_v78 (Keep.not_mem_of_rix Keep.wr_hostOps6_1_ix Keep.rix_v78 (by decide))).trans (f19_v78 m ρ c)
theorem f21_v78 : W21 m ρ c (Proc.devRef .tc main_v78) = (KH.meanRow (T1_1 m c)) :=
  (Keep.keep21 m ρ c main_v78 (Keep.not_mem_of_rix Keep.wr_hostOps6_2_ix Keep.rix_v78 (by decide))).trans (f20_v78 m ρ c)
theorem f19_c_15 : W19 m ρ c (Proc.devRef .tc main_c_15) = (KH.zeroI) := by
  refine (KH.h6_c (W18 m ρ c)).trans ?_
  rfl
theorem f20_v79 : W20 m ρ c (Proc.devRef .tc main_v79) = (KH.varRow (T1_1 m c) (KH.zeroI)) := by
  refine (KH.h6_var (W19 m ρ c)).trans ?_
  rw [f19_v74 m ρ c, f19_c_15 m ρ c]
  all_goals rfl
theorem f21_v79 : W21 m ρ c (Proc.devRef .tc main_v79) = (KH.varRow (T1_1 m c) (KH.zeroI)) :=
  (Keep.keep21 m ρ c main_v79 (Keep.not_mem_of_rix Keep.wr_hostOps6_2_ix Keep.rix_v79 (by decide))).trans (f20_v79 m ρ c)
theorem f20_arg7 : W20 m ρ c (Proc.devRef .tc main_arg7) = (A m c main_arg7) :=
  Keep.args20 m ρ c main_arg7 (by simp only [Keep.argRefs, List.mem_cons, eq_self_iff_true, true_or, or_true])
theorem f21_v82 : W21 m ρ c (Proc.devRef .tc main_v82) = (KH.rowOf (KH.vslice ![1, 0] slices_S3x64_S1x64_1_0 (A m c main_arg7))) := by
  refine (KH.h6_g (W20 m ρ c)).trans ?_
  rw [f20_arg7 m ρ c]
  all_goals rfl
theorem f20_arg8 : W20 m ρ c (Proc.devRef .tc main_arg8) = (A m c main_arg8) :=
  Keep.args20 m ρ c main_arg8 (by simp only [Keep.argRefs, List.mem_cons, eq_self_iff_true, true_or, or_true])
theorem f21_v85 : W21 m ρ c (Proc.devRef .tc main_v85) = (KH.rowOf (KH.vslice ![1, 0] slices_S3x64_S1x64_1_0 (A m c main_arg8))) := by
  refine (KH.h6_sh (W20 m ρ c)).trans ?_
  rw [f20_arg8 m ρ c]
  all_goals rfl
theorem f20_arg9 : W20 m ρ c (Proc.devRef .tc main_arg9) = (A m c main_arg9) :=
  Keep.args20 m ρ c main_arg9 (by simp only [Keep.argRefs, List.mem_cons, eq_self_iff_true, true_or, or_true])
theorem f21_v87 : W21 m ρ c (Proc.devRef .tc main_v87) = (KH.wslice ![1, 0, 0] slices_S3x64x64_S1x64x64_1_0_0 (A m c main_arg9)) := by
  refine (KH.h6_w2 (W20 m ρ c)).trans ?_
  rw [f20_arg9 m ρ c]
  all_goals rfl
theorem f20_arg10 : W20 m ρ c (Proc.devRef .tc main_arg10) = (A m c main_arg10) :=
  Keep.args20 m ρ c main_arg10 (by simp only [Keep.argRefs, List.mem_cons, eq_self_iff_true, true_or, or_true])
theorem f21_v90 : W21 m ρ c (Proc.devRef .tc main_v90) = (KH.rowOf (KH.vslice ![1, 0] slices_S3x64_S1x64_1_0 (A m c main_arg10))) := by
  refine (KH.h6_b2 (W20 m ρ c)).trans ?_
  rw [f20_arg10 m ρ c]
  all_goals rfl
theorem f22_v91 : W22 m ρ c (Proc.devRef .tc main_v91) = (T3_1 m c) := by
  refine (W22_arr m ρ c (7 : Fin cfg6.W)).trans ?_
  refine (Reg6.final (V21 m ρ) c).trans ?_
  have h0 : V21 m ρ c main_v74 = (T1_1 m c) := f21_v74 m ρ c
  have h1 : V21 m ρ c main_v78 = (KH.meanRow (T1_1 m c)) := f21_v78 m ρ c
  have h2 : V21 m ρ c main_v79 = (KH.varRow (T1_1 m c) (KH.zeroI)) := f21_v79 m ρ c
  have h3 : V21 m ρ c main_v82 = (KH.rowOf (KH.vslice ![1, 0] slices_S3x64_S1x64_1_0 (A m c main_arg7))) := f21_v82 m ρ c
  have h4 : V21 m ρ c main_v85 = (KH.rowOf (KH.vslice ![1, 0] slices_S3x64_S1x64_1_0 (A m c main_arg8))) := f21_v85 m ρ c
  have h5 : V21 m ρ c main_v87 = (KH.wslice ![1, 0, 0] slices_S3x64x64_S1x64x64_1_0_0 (A m c main_arg9)) := f21_v87 m ρ c
  have h6 : V21 m ρ c main_v90 = (KH.rowOf (KH.vslice ![1, 0] slices_S3x64_S1x64_1_0 (A m c main_arg10))) := f21_v90 m ρ c
  rw [h0, h1, h2, h3, h4, h5, h6]
  all_goals rfl
theorem f23_v91 : W23 m ρ c (Proc.devRef .tc main_v91) = (T3_1 m c) :=
  (Keep.keep23 m ρ c main_v91 (Keep.not_mem_of_rix Keep.wr_hostOps7_ix Keep.rix_v91 (by decide))).trans (f22_v91 m ρ c)
theorem f24_v91 : W24 m ρ c (Proc.devRef .tc main_v91) = (T3_1 m c) :=
  (Keep.keep24 m ρ c main_v91 (Keep.not_mem_of_rix Keep.wr_hostOps7_1_ix Keep.rix_v91 (by decide))).trans (f23_v91 m ρ c)
theorem f25_v91 : W25 m ρ c (Proc.devRef .tc main_v91) = (T3_1 m c) :=
  (Keep.keep25 m ρ c main_v91 (Keep.not_mem_of_rix Keep.wr_hostOps7_2_ix Keep.rix_v91 (by decide))).trans (f24_v91 m ρ c)
theorem f23_v95 : W23 m ρ c (Proc.devRef .tc main_v95) = (KH.meanRow (T3_1 m c)) := by
  refine (KH.h7_mean (W22 m ρ c)).trans ?_
  rw [f22_v91 m ρ c]
  all_goals rfl
theorem f24_v95 : W24 m ρ c (Proc.devRef .tc main_v95) = (KH.meanRow (T3_1 m c)) :=
  (Keep.keep24 m ρ c main_v95 (Keep.not_mem_of_rix Keep.wr_hostOps7_1_ix Keep.rix_v95 (by decide))).trans (f23_v95 m ρ c)
theorem f25_v95 : W25 m ρ c (Proc.devRef .tc main_v95) = (KH.meanRow (T3_1 m c)) :=
  (Keep.keep25 m ρ c main_v95 (Keep.not_mem_of_rix Keep.wr_hostOps7_2_ix Keep.rix_v95 (by decide))).trans (f24_v95 m ρ c)
theorem f23_c_18 : W23 m ρ c (Proc.devRef .tc main_c_18) = (KH.zeroI) := by
  refine (KH.h7_c (W22 m ρ c)).trans ?_
  rfl
theorem f24_v96 : W24 m ρ c (Proc.devRef .tc main_v96) = (KH.varRow (T3_1 m c) (KH.zeroI)) := by
  refine (KH.h7_var (W23 m ρ c)).trans ?_
  rw [f23_v91 m ρ c, f23_c_18 m ρ c]
  all_goals rfl
theorem f25_v96 : W25 m ρ c (Proc.devRef .tc main_v96) = (KH.varRow (T3_1 m c) (KH.zeroI)) :=
  (Keep.keep25 m ρ c main_v96 (Keep.not_mem_of_rix Keep.wr_hostOps7_2_ix Keep.rix_v96 (by decide))).trans (f24_v96 m ρ c)
theorem f24_arg11 : W24 m ρ c (Proc.devRef .tc main_arg11) = (A m c main_arg11) :=
  Keep.args24 m ρ c main_arg11 (by simp only [Keep.argRefs, List.mem_cons, eq_self_iff_true, true_or, or_true])
theorem f25_v99 : W25 m ρ c (Proc.devRef .tc main_v99) = (KH.rowOf (KH.vslice ![1, 0] slices_S3x64_S1x64_1_0 (A m c main_arg11))) := by
  refine (KH.h7_g (W24 m ρ c)).trans ?_
  rw [f24_arg11 m ρ c]
  all_goals rfl
theorem f24_arg12 : W24 m ρ c (Proc.devRef .tc main_arg12) = (A m c main_arg12) :=
  Keep.args24 m ρ c main_arg12 (by simp only [Keep.argRefs, List.mem_cons, eq_self_iff_true, true_or, or_true])
theorem f25_v102 : W25 m ρ c (Proc.devRef .tc main_v102) = (KH.rowOf (KH.vslice ![1, 0] slices_S3x64_S1x64_1_0 (A m c main_arg12))) := by
  refine (KH.h7_sh (W24 m ρ c)).trans ?_
  rw [f24_arg12 m ρ c]
  all_goals rfl
theorem f26_v103 : W26 m ρ c (Proc.devRef .tc main_v103) = (T4_1 m c) := by
  refine (W26_arr m ρ c (5 : Fin cfg7.W)).trans ?_
  refine (Reg7.final (V25 m ρ) c).trans ?_
  have h0 : V25 m ρ c main_v91 = (T3_1 m c) := f25_v91 m ρ c
  have h1 : V25 m ρ c main_v95 = (KH.meanRow (T3_1 m c)) := f25_v95 m ρ c
  have h2 : V25 m ρ c main_v96 = (KH.varRow (T3_1 m c) (KH.zeroI)) := f25_v96 m ρ c
  have h3 : V25 m ρ c main_v99 = (KH.rowOf (KH.vslice ![1, 0] slices_S3x64_S1x64_1_0 (A m c main_arg11))) := f25_v99 m ρ c
  have h4 : V25 m ρ c main_v102 = (KH.rowOf (KH.vslice ![1, 0] slices_S3x64_S1x64_1_0 (A m c main_arg12))) := f25_v102 m ρ c
  rw [h0, h1, h2, h3, h4]
  all_goals rfl
theorem f27_v103 : W27 m ρ c (Proc.devRef .tc main_v103) = (T4_1 m c) :=
  (Keep.keep27 m ρ c main_v103 (Keep.not_mem_of_rix Keep.wr_hostOps8_ix Keep.rix_v103 (by decide))).trans (f26_v103 m ρ c)
theorem f28_v103 : W28 m ρ c (Proc.devRef .tc main_v103) = (T4_1 m c) :=
  (Keep.keep28 m ρ c main_v103 (Keep.not_mem_of_rix Keep.wr_hostOps8_1_ix Keep.rix_v103 (by decide))).trans (f27_v103 m ρ c)
theorem f29_v103 : W29 m ρ c (Proc.devRef .tc main_v103) = (T4_1 m c) :=
  (Keep.keep29 m ρ c main_v103 (Keep.not_mem_of_rix Keep.wr_hostOps8_2_ix Keep.rix_v103 (by decide))).trans (f28_v103 m ρ c)
theorem f27_v107 : W27 m ρ c (Proc.devRef .tc main_v107) = (KH.meanRow (T4_1 m c)) := by
  refine (KH.h8_mean (W26 m ρ c)).trans ?_
  rw [f26_v103 m ρ c]
  all_goals rfl
theorem f28_v107 : W28 m ρ c (Proc.devRef .tc main_v107) = (KH.meanRow (T4_1 m c)) :=
  (Keep.keep28 m ρ c main_v107 (Keep.not_mem_of_rix Keep.wr_hostOps8_1_ix Keep.rix_v107 (by decide))).trans (f27_v107 m ρ c)
theorem f29_v107 : W29 m ρ c (Proc.devRef .tc main_v107) = (KH.meanRow (T4_1 m c)) :=
  (Keep.keep29 m ρ c main_v107 (Keep.not_mem_of_rix Keep.wr_hostOps8_2_ix Keep.rix_v107 (by decide))).trans (f28_v107 m ρ c)
theorem f27_c_21 : W27 m ρ c (Proc.devRef .tc main_c_21) = (KH.zeroI) := by
  refine (KH.h8_c (W26 m ρ c)).trans ?_
  rfl
theorem f28_v108 : W28 m ρ c (Proc.devRef .tc main_v108) = (KH.varRow (T4_1 m c) (KH.zeroI)) := by
  refine (KH.h8_var (W27 m ρ c)).trans ?_
  rw [f27_v103 m ρ c, f27_c_21 m ρ c]
  all_goals rfl
theorem f29_v108 : W29 m ρ c (Proc.devRef .tc main_v108) = (KH.varRow (T4_1 m c) (KH.zeroI)) :=
  (Keep.keep29 m ρ c main_v108 (Keep.not_mem_of_rix Keep.wr_hostOps8_2_ix Keep.rix_v108 (by decide))).trans (f28_v108 m ρ c)
theorem f28_arg13 : W28 m ρ c (Proc.devRef .tc main_arg13) = (A m c main_arg13) :=
  Keep.args28 m ρ c main_arg13 (by simp only [Keep.argRefs, List.mem_cons, eq_self_iff_true, true_or, or_true])
theorem f29_v111 : W29 m ρ c (Proc.devRef .tc main_v111) = (KH.rowOf (KH.vslice ![1, 0] slices_S3x64_S1x64_1_0 (A m c main_arg13))) := by
  refine (KH.h8_g (W28 m ρ c)).trans ?_
  rw [f28_arg13 m ρ c]
  all_goals rfl
theorem f28_arg14 : W28 m ρ c (Proc.devRef .tc main_arg14) = (A m c main_arg14) :=
  Keep.args28 m ρ c main_arg14 (by simp only [Keep.argRefs, List.mem_cons, eq_self_iff_true, true_or, or_true])
theorem f29_v114 : W29 m ρ c (Proc.devRef .tc main_v114) = (KH.rowOf (KH.vslice ![1, 0] slices_S3x64_S1x64_1_0 (A m c main_arg14))) := by
  refine (KH.h8_sh (W28 m ρ c)).trans ?_
  rw [f28_arg14 m ρ c]
  all_goals rfl
theorem f30_v115 : W30 m ρ c (Proc.devRef .tc main_v115) = (X2 m c) := by
  refine (W30_arr m ρ c (5 : Fin cfg8.W)).trans ?_
  refine (Reg8.final (V29 m ρ) c).trans ?_
  have h0 : V29 m ρ c main_v103 = (T4_1 m c) := f29_v103 m ρ c
  have h1 : V29 m ρ c main_v107 = (KH.meanRow (T4_1 m c)) := f29_v107 m ρ c
  have h2 : V29 m ρ c main_v108 = (KH.varRow (T4_1 m c) (KH.zeroI)) := f29_v108 m ρ c
  have h3 : V29 m ρ c main_v111 = (KH.rowOf (KH.vslice ![1, 0] slices_S3x64_S1x64_1_0 (A m c main_arg13))) := f29_v111 m ρ c
  have h4 : V29 m ρ c main_v114 = (KH.rowOf (KH.vslice ![1, 0] slices_S3x64_S1x64_1_0 (A m c main_arg14))) := f29_v114 m ρ c
  rw [h0, h1, h2, h3, h4]
  all_goals rfl
theorem f31_v115 : W31 m ρ c (Proc.devRef .tc main_v115) = (X2 m c) :=
  (Keep.keep31 m ρ c main_v115 (Keep.not_mem_of_rix Keep.wr_hostOps9_ix Keep.rix_v115 (by decide))).trans (f30_v115 m ρ c)
theorem f32_v115 : W32 m ρ c (Proc.devRef .tc main_v115) = (X2 m c) :=
  (Keep.keep32 m ρ c main_v115 (Keep.ne_of_rix Keep.rix_v115 Keep.rix_v131 (by decide))).trans (f31_v115 m ρ c)
theorem f33_v115 : W33 m ρ c (Proc.devRef .tc main_v115) = (X2 m c) :=
  (Keep.keep33 m ρ c main_v115 (Keep.not_mem_of_rix Keep.wr_hostOps10_ix Keep.rix_v115 (by decide))).trans (f32_v115 m ρ c)
theorem f34_v115 : W34 m ρ c (Proc.devRef .tc main_v115) = (X2 m c) :=
  (Keep.keep34 m ρ c main_v115 (Keep.not_mem_of_rix Keep.wr_hostOps10_1_ix Keep.rix_v115 (by decide))).trans (f33_v115 m ρ c)
theorem f35_v115 : W35 m ρ c (Proc.devRef .tc main_v115) = (X2 m c) :=
  (Keep.keep35 m ρ c main_v115 (Keep.not_mem_of_rix Keep.wr_hostOps10_2_ix Keep.rix_v115 (by decide))).trans (f34_v115 m ρ c)
theorem f36_v115 : W36 m ρ c (Proc.devRef .tc main_v115) = (X2 m c) :=
  (Keep.keep36 m ρ c main_v115 (Keep.ne_of_rix Keep.rix_v115 Keep.rix_v148 (by decide))).trans (f35_v115 m ρ c)
theorem f37_v115 : W37 m ρ c (Proc.devRef .tc main_v115) = (X2 m c) :=
  (Keep.keep37 m ρ c main_v115 (Keep.not_mem_of_rix Keep.wr_hostOps11_ix Keep.rix_v115 (by decide))).trans (f36_v115 m ρ c)
theorem f38_v115 : W38 m ρ c (Proc.devRef .tc main_v115) = (X2 m c) :=
  (Keep.keep38 m ρ c main_v115 (Keep.not_mem_of_rix Keep.wr_hostOps11_1_ix Keep.rix_v115 (by decide))).trans (f37_v115 m ρ c)
theorem f39_v115 : W39 m ρ c (Proc.devRef .tc main_v115) = (X2 m c) :=
  (Keep.keep39 m ρ c main_v115 (Keep.not_mem_of_rix Keep.wr_hostOps11_2_ix Keep.rix_v115 (by decide))).trans (f38_v115 m ρ c)
theorem f40_v115 : W40 m ρ c (Proc.devRef .tc main_v115) = (X2 m c) :=
  (Keep.keep40 m ρ c main_v115 (Keep.ne_of_rix Keep.rix_v115 Keep.rix_v160 (by decide))).trans (f39_v115 m ρ c)
theorem f41_v115 : W41 m ρ c (Proc.devRef .tc main_v115) = (X2 m c) :=
  (Keep.keep41 m ρ c main_v115 (Keep.not_mem_of_rix Keep.wr_hostOps12_ix Keep.rix_v115 (by decide))).trans (f40_v115 m ρ c)
theorem f42_v115 : W42 m ρ c (Proc.devRef .tc main_v115) = (X2 m c) :=
  (Keep.keep42 m ρ c main_v115 (Keep.not_mem_of_rix Keep.wr_hostOps12_1_ix Keep.rix_v115 (by decide))).trans (f41_v115 m ρ c)
theorem f43_v115 : W43 m ρ c (Proc.devRef .tc main_v115) = (X2 m c) :=
  (Keep.keep43 m ρ c main_v115 (Keep.not_mem_of_rix Keep.wr_hostOps12_2_ix Keep.rix_v115 (by decide))).trans (f42_v115 m ρ c)
theorem f44_v115 : W44 m ρ c (Proc.devRef .tc main_v115) = (X2 m c) :=
  (Keep.keep44 m ρ c main_v115 (Keep.ne_of_rix Keep.rix_v115 Keep.rix_v172 (by decide))).trans (f43_v115 m ρ c)
theorem f45_v115 : W45 m ρ c (Proc.devRef .tc main_v115) = (X2 m c) :=
  (Keep.keep45 m ρ c main_v115 (Keep.not_mem_of_rix Keep.wr_hostOps13_ix Keep.rix_v115 (by decide))).trans (f44_v115 m ρ c)
theorem f46_v115 : W46 m ρ c (Proc.devRef .tc main_v115) = (X2 m c) :=
  (Keep.keep46 m ρ c main_v115 (Keep.ne_of_rix Keep.rix_v115 Keep.rix_v200 (by decide))).trans (f45_v115 m ρ c)
theorem f47_v115 : W47 m ρ c (Proc.devRef .tc main_v115) = (X2 m c) :=
  (Keep.keep47 m ρ c main_v115 (Keep.not_mem_of_rix Keep.wr_hostOps14_ix Keep.rix_v115 (by decide))).trans (f46_v115 m ρ c)
theorem f48_v115 : W48 m ρ c (Proc.devRef .tc main_v115) = (X2 m c) :=
  (Keep.keep48 m ρ c main_v115 (Keep.ne_of_rix Keep.rix_v115 Keep.rix_v228 (by decide))).trans (f47_v115 m ρ c)
theorem f49_v236 : W49 m ρ c (Proc.devRef .tc main_v236) = (KH.gat (A m c main_arg1) (X2 m c)) := by
  refine (KH.h15_gs (W48 m ρ c)).trans ?_
  rw [f48_arg1 m ρ c, f48_v115 m ρ c]
  all_goals rfl
theorem f48_arg2 : W48 m ρ c (Proc.devRef .tc main_arg2) = (A m c main_arg2) :=
  Keep.args48 m ρ c main_arg2 (by simp only [Keep.argRefs, List.mem_cons, eq_self_iff_true, true_or, or_true])
theorem f49_v243 : W49 m ρ c (Proc.devRef .tc main_v243) = (KH.gat (A m c main_arg2) (X2 m c)) := by
  refine (KH.h15_gd (W48 m ρ c)).trans ?_
  rw [f48_arg2 m ρ c, f48_v115 m ρ c]
  all_goals rfl
theorem f48_arg15 : W48 m ρ c (Proc.devRef .tc main_arg15) = (A m c main_arg15) :=
  Keep.args48 m ρ c main_arg15 (by simp only [Keep.argRefs, List.mem_cons, eq_self_iff_true, true_or, or_true])
theorem f49_v245 : W49 m ρ c (Proc.devRef .tc main_v245) = (KH.pw1 ![2, 0, 0] slices_S4x128x64_S1x64x64_2_0_0 (A m c main_arg15)) := by
  refine (KH.h15_a (W48 m ρ c)).trans ?_
  rw [f48_arg15 m ρ c]
  all_goals rfl
theorem f49_v247 : W49 m ρ c (Proc.devRef .tc main_v247) = (KH.pw1 ![2, 64, 0] slices_S4x128x64_S1x64x64_2_64_0 (A m c main_arg15)) := by
  refine (KH.h15_c (W48 m ρ c)).trans ?_
  rw [f48_arg15 m ρ c]
  all_goals rfl
theorem f48_arg16 : W48 m ρ c (Proc.devRef .tc main_arg16) = (A m c main_arg16) :=
  Keep.args48 m ρ c main_arg16 (by simp only [Keep.argRefs, List.mem_cons, eq_self_iff_true, true_or, or_true])
theorem f49_v250 : W49 m ρ c (Proc.devRef .tc main_v250) = (KH.rowOf (KH.pvec ![2, 0] slices_S4x64_S1x64_2_0 (A m c main_arg16))) := by
  refine (KH.h15_b1 (W48 m ρ c)).trans ?_
  rw [f48_arg16 m ρ c]
  all_goals rfl
theorem f48_arg17 : W48 m ρ c (Proc.devRef .tc main_arg17) = (A m c main_arg17) :=
  Keep.args48 m ρ c main_arg17 (by simp only [Keep.argRefs, List.mem_cons, eq_self_iff_true, true_or, or_true])
theorem f49_v252 : W49 m ρ c (Proc.devRef .tc main_v252) = (KH.pw2 ![2, 0, 0] slices_S4x64x2_S1x64x2_2_0_0 (A m c main_arg17)) := by
  refine (KH.h15_w2 (W48 m ρ c)).trans ?_
  rw [f48_arg17 m ρ c]
  all_goals rfl
theorem f48_arg18 : W48 m ρ c (Proc.devRef .tc main_arg18) = (A m c main_arg18) :=
  Keep.args48 m ρ c main_arg18 (by simp only [Keep.argRefs, List.mem_cons, eq_self_iff_true, true_or, or_true])
theorem f49_v255 : W49 m ρ c (Proc.devRef .tc main_v255) = (KH.rowOf2 (KH.pvec2 ![2, 0] slices_S4x2_S1x2_2_0 (A m c main_arg18))) := by
  refine (KH.h15_b2 (W48 m ρ c)).trans ?_
  rw [f48_arg18 m ρ c]
  all_goals rfl
theorem f50_v256 : W50 m ρ c (Proc.devRef .tc main_v256) = (Ctr2 m c) := by
  refine (W50_arr m ρ c (7 : Fin cfg15.W)).trans ?_
  refine (Reg15.final (V49 m ρ) c).trans ?_
  have h0 : V49 m ρ c main_v236 = (KH.gat (A m c main_arg1) (X2 m c)) := f49_v236 m ρ c
  have h1 : V49 m ρ c main_v243 = (KH.gat (A m c main_arg2) (X2 m c)) := f49_v243 m ρ c
  have h2 : V49 m ρ c main_v245 = (KH.pw1 ![2, 0, 0] slices_S4x128x64_S1x64x64_2_0_0 (A m c main_arg15)) := f49_v245 m ρ c
  have h3 : V49 m ρ c main_v247 = (KH.pw1 ![2, 64, 0] slices_S4x128x64_S1x64x64_2_64_0 (A m c main_arg15)) := f49_v247 m ρ c
  have h4 : V49 m ρ c main_v250 = (KH.rowOf (KH.pvec ![2, 0] slices_S4x64_S1x64_2_0 (A m c main_arg16))) := f49_v250 m ρ c
  have h5 : V49 m ρ c main_v252 = (KH.pw2 ![2, 0, 0] slices_S4x64x2_S1x64x2_2_0_0 (A m c main_arg17)) := f49_v252 m ρ c
  have h6 : V49 m ρ c main_v255 = (KH.rowOf2 (KH.pvec2 ![2, 0] slices_S4x2_S1x2_2_0 (A m c main_arg18))) := f49_v255 m ρ c
  rw [h0, h1, h2, h3, h4, h5, h6]
  all_goals rfl
theorem f51_v257 : W51 m ρ c (Proc.devRef .tc main_v257) = (Sc2 m c) := by
  refine (KH.h16_acc (W50 m ρ c)).trans ?_
  rw [f50_v229 m ρ c, f50_v256 m ρ c]
  all_goals rfl
theorem f52_v257 : W52 m ρ c (Proc.devRef .tc main_v257) = (Sc2 m c) :=
  (Keep.keep52 m ρ c main_v257 (Keep.ne_of_rix Keep.rix_v257 Keep.rix_v284 (by decide))).trans (f51_v257 m ρ c)
theorem f50_arg1 : W50 m ρ c (Proc.devRef .tc main_arg1) = (A m c main_arg1) :=
  Keep.args50 m ρ c main_arg1 (by simp only [Keep.argRefs, List.mem_cons, eq_self_iff_true, true_or, or_true])
theorem f30_arg1 : W30 m ρ c (Proc.devRef .tc main_arg1) = (A m c main_arg1) :=
  Keep.args30 m ρ c main_arg1 (by simp only [Keep.argRefs, List.mem_cons, eq_self_iff_true, true_or, or_true])
theorem f30_arg2 : W30 m ρ c (Proc.devRef .tc main_arg2) = (A m c main_arg2) :=
  Keep.args30 m ρ c main_arg2 (by simp only [Keep.argRefs, List.mem_cons, eq_self_iff_true, true_or, or_true])
theorem f31_v125 : W31 m ρ c (Proc.devRef .tc main_v125) = (Ag2 m c) := by
  refine (KH.h9_agg (W30 m ρ c)).trans ?_
  rw [f30_arg1 m ρ c, f30_arg2 m ρ c, f30_v115 m ρ c]
  all_goals rfl
theorem f30_arg5 : W30 m ρ c (Proc.devRef .tc main_arg5) = (A m c main_arg5) :=
  Keep.args30 m ρ c main_arg5 (by simp only [Keep.argRefs, List.mem_cons, eq_self_iff_true, true_or, or_true])
theorem f31_v127 : W31 m ρ c (Proc.devRef .tc main_v127) = (KH.wslice ![2, 0, 0] slices_S3x64x64_S1x64x64_2_0_0 (A m c main_arg5)) := by
  refine (KH.h9_w1 (W30 m ρ c)).trans ?_
  rw [f30_arg5 m ρ c]
  all_goals rfl
theorem f30_arg6 : W30 m ρ c (Proc.devRef .tc main_arg6) = (A m c main_arg6) :=
  Keep.args30 m ρ c main_arg6 (by simp only [Keep.argRefs, List.mem_cons, eq_self_iff_true, true_or, or_true])
theorem f31_v130 : W31 m ρ c (Proc.devRef .tc main_v130) = (KH.rowOf (KH.vslice ![2, 0] slices_S3x64_S1x64_2_0 (A m c main_arg6))) := by
  refine (KH.h9_b1 (W30 m ρ c)).trans ?_
  rw [f30_arg6 m ρ c]
  all_goals rfl
theorem f32_v131 : W32 m ρ c (Proc.devRef .tc main_v131) = (T1_2 m c) := by
  refine (W32_arr m ρ c (4 : Fin cfg9.W)).trans ?_
  refine (Reg9.final (V31 m ρ) c).trans ?_
  have h0 : V31 m ρ c main_v115 = (X2 m c) := f31_v115 m ρ c
  have h1 : V31 m ρ c main_v125 = (Ag2 m c) := f31_v125 m ρ c
  have h2 : V31 m ρ c main_v127 = (KH.wslice ![2, 0, 0] slices_S3x64x64_S1x64x64_2_0_0 (A m c main_arg5)) := f31_v127 m ρ c
  have h3 : V31 m ρ c main_v130 = (KH.rowOf (KH.vslice ![2, 0] slices_S3x64_S1x64_2_0 (A m c main_arg6))) := f31_v130 m ρ c
  rw [h0, h1, h2, h3]
  all_goals rfl
theorem f33_v131 : W33 m ρ c (Proc.devRef .tc main_v131) = (T1_2 m c) :=
  (Keep.keep33 m ρ c main_v131 (Keep.not_mem_of_rix Keep.wr_hostOps10_ix Keep.rix_v131 (by decide))).trans (f32_v131 m ρ c)
theorem f34_v131 : W34 m ρ c (Proc.devRef .tc main_v131) = (T1_2 m c) :=
  (Keep.keep34 m ρ c main_v131 (Keep.not_mem_of_rix Keep.wr_hostOps10_1_ix Keep.rix_v131 (by decide))).trans (f33_v131 m ρ c)
theorem f35_v131 : W35 m ρ c (Proc.devRef .tc main_v131) = (T1_2 m c) :=
  (Keep.keep35 m ρ c main_v131 (Keep.not_mem_of_rix Keep.wr_hostOps10_2_ix Keep.rix_v131 (by decide))).trans (f34_v131 m ρ c)
theorem f33_v135 : W33 m ρ c (Proc.devRef .tc main_v135) = (KH.meanRow (T1_2 m c)) := by
  refine (KH.h10_mean (W32 m ρ c)).trans ?_
  rw [f32_v131 m ρ c]
  all_goals rfl
theorem f34_v135 : W34 m ρ c (Proc.devRef .tc main_v135) = (KH.meanRow (T1_2 m c)) :=
  (Keep.keep34 m ρ c main_v135 (Keep.not_mem_of_rix Keep.wr_hostOps10_1_ix Keep.rix_v135 (by decide))).trans (f33_v135 m ρ c)
theorem f35_v135 : W35 m ρ c (Proc.devRef .tc main_v135) = (KH.meanRow (T1_2 m c)) :=
  (Keep.keep35 m ρ c main_v135 (Keep.not_mem_of_rix Keep.wr_hostOps10_2_ix Keep.rix_v135 (by decide))).trans (f34_v135 m ρ c)
theorem f33_c_27 : W33 m ρ c (Proc.devRef .tc main_c_27) = (KH.zeroI) := by
  refine (KH.h10_c (W32 m ρ c)).trans ?_
  rfl
theorem f34_v136 : W34 m ρ c (Proc.devRef .tc main_v136) = (KH.varRow (T1_2 m c) (KH.zeroI)) := by
  refine (KH.h10_var (W33 m ρ c)).trans ?_
  rw [f33_v131 m ρ c, f33_c_27 m ρ c]
  all_goals rfl
theorem f35_v136 : W35 m ρ c (Proc.devRef .tc main_v136) = (KH.varRow (T1_2 m c) (KH.zeroI)) :=
  (Keep.keep35 m ρ c main_v136 (Keep.not_mem_of_rix Keep.wr_hostOps10_2_ix Keep.rix_v136 (by decide))).trans (f34_v136 m ρ c)
theorem f34_arg7 : W34 m ρ c (Proc.devRef .tc main_arg7) = (A m c main_arg7) :=
  Keep.args34 m ρ c main_arg7 (by simp only [Keep.argRefs, List.mem_cons, eq_self_iff_true, true_or, or_true])
theorem f35_v139 : W35 m ρ c (Proc.devRef .tc main_v139) = (KH.rowOf (KH.vslice ![2, 0] slices_S3x64_S1x64_2_0 (A m c main_arg7))) := by
  refine (KH.h10_g (W34 m ρ c)).trans ?_
  rw [f34_arg7 m ρ c]
  all_goals rfl
theorem f34_arg8 : W34 m ρ c (Proc.devRef .tc main_arg8) = (A m c main_arg8) :=
  Keep.args34 m ρ c main_arg8 (by simp only [Keep.argRefs, List.mem_cons, eq_self_iff_true, true_or, or_true])
theorem f35_v142 : W35 m ρ c (Proc.devRef .tc main_v142) = (KH.rowOf (KH.vslice ![2, 0] slices_S3x64_S1x64_2_0 (A m c main_arg8))) := by
  refine (KH.h10_sh (W34 m ρ c)).trans ?_
  rw [f34_arg8 m ρ c]
  all_goals rfl
theorem f34_arg9 : W34 m ρ c (Proc.devRef .tc main_arg9) = (A m c main_arg9) :=
  Keep.args34 m ρ c main_arg9 (by simp only [Keep.argRefs, List.mem_cons, eq_self_iff_true, true_or, or_true])
theorem f35_v144 : W35 m ρ c (Proc.devRef .tc main_v144) = (KH.wslice ![2, 0, 0] slices_S3x64x64_S1x64x64_2_0_0 (A m c main_arg9)) := by
  refine (KH.h10_w2 (W34 m ρ c)).trans ?_
  rw [f34_arg9 m ρ c]
  all_goals rfl
theorem f34_arg10 : W34 m ρ c (Proc.devRef .tc main_arg10) = (A m c main_arg10) :=
  Keep.args34 m ρ c main_arg10 (by simp only [Keep.argRefs, List.mem_cons, eq_self_iff_true, true_or, or_true])
theorem f35_v147 : W35 m ρ c (Proc.devRef .tc main_v147) = (KH.rowOf (KH.vslice ![2, 0] slices_S3x64_S1x64_2_0 (A m c main_arg10))) := by
  refine (KH.h10_b2 (W34 m ρ c)).trans ?_
  rw [f34_arg10 m ρ c]
  all_goals rfl
theorem f36_v148 : W36 m ρ c (Proc.devRef .tc main_v148) = (T3_2 m c) := by
  refine (W36_arr m ρ c (7 : Fin cfg10.W)).trans ?_
  refine (Reg10.final (V35 m ρ) c).trans ?_
  have h0 : V35 m ρ c main_v131 = (T1_2 m c) := f35_v131 m ρ c
  have h1 : V35 m ρ c main_v135 = (KH.meanRow (T1_2 m c)) := f35_v135 m ρ c
  have h2 : V35 m ρ c main_v136 = (KH.varRow (T1_2 m c) (KH.zeroI)) := f35_v136 m ρ c
  have h3 : V35 m ρ c main_v139 = (KH.rowOf (KH.vslice ![2, 0] slices_S3x64_S1x64_2_0 (A m c main_arg7))) := f35_v139 m ρ c
  have h4 : V35 m ρ c main_v142 = (KH.rowOf (KH.vslice ![2, 0] slices_S3x64_S1x64_2_0 (A m c main_arg8))) := f35_v142 m ρ c
  have h5 : V35 m ρ c main_v144 = (KH.wslice ![2, 0, 0] slices_S3x64x64_S1x64x64_2_0_0 (A m c main_arg9)) := f35_v144 m ρ c
  have h6 : V35 m ρ c main_v147 = (KH.rowOf (KH.vslice ![2, 0] slices_S3x64_S1x64_2_0 (A m c main_arg10))) := f35_v147 m ρ c
  rw [h0, h1, h2, h3, h4, h5, h6]
  all_goals rfl
theorem f37_v148 : W37 m ρ c (Proc.devRef .tc main_v148) = (T3_2 m c) :=
  (Keep.keep37 m ρ c main_v148 (Keep.not_mem_of_rix Keep.wr_hostOps11_ix Keep.rix_v148 (by decide))).trans (f36_v148 m ρ c)
theorem f38_v148 : W38 m ρ c (Proc.devRef .tc main_v148) = (T3_2 m c) :=
  (Keep.keep38 m ρ c main_v148 (Keep.not_mem_of_rix Keep.wr_hostOps11_1_ix Keep.rix_v148 (by decide))).trans (f37_v148 m ρ c)
theorem f39_v148 : W39 m ρ c (Proc.devRef .tc main_v148) = (T3_2 m c) :=
  (Keep.keep39 m ρ c main_v148 (Keep.not_mem_of_rix Keep.wr_hostOps11_2_ix Keep.rix_v148 (by decide))).trans (f38_v148 m ρ c)
theorem f37_v152 : W37 m ρ c (Proc.devRef .tc main_v152) = (KH.meanRow (T3_2 m c)) := by
  refine (KH.h11_mean (W36 m ρ c)).trans ?_
  rw [f36_v148 m ρ c]
  all_goals rfl
theorem f38_v152 : W38 m ρ c (Proc.devRef .tc main_v152) = (KH.meanRow (T3_2 m c)) :=
  (Keep.keep38 m ρ c main_v152 (Keep.not_mem_of_rix Keep.wr_hostOps11_1_ix Keep.rix_v152 (by decide))).trans (f37_v152 m ρ c)
theorem f39_v152 : W39 m ρ c (Proc.devRef .tc main_v152) = (KH.meanRow (T3_2 m c)) :=
  (Keep.keep39 m ρ c main_v152 (Keep.not_mem_of_rix Keep.wr_hostOps11_2_ix Keep.rix_v152 (by decide))).trans (f38_v152 m ρ c)
theorem f37_c_30 : W37 m ρ c (Proc.devRef .tc main_c_30) = (KH.zeroI) := by
  refine (KH.h11_c (W36 m ρ c)).trans ?_
  rfl
theorem f38_v153 : W38 m ρ c (Proc.devRef .tc main_v153) = (KH.varRow (T3_2 m c) (KH.zeroI)) := by
  refine (KH.h11_var (W37 m ρ c)).trans ?_
  rw [f37_v148 m ρ c, f37_c_30 m ρ c]
  all_goals rfl
theorem f39_v153 : W39 m ρ c (Proc.devRef .tc main_v153) = (KH.varRow (T3_2 m c) (KH.zeroI)) :=
  (Keep.keep39 m ρ c main_v153 (Keep.not_mem_of_rix Keep.wr_hostOps11_2_ix Keep.rix_v153 (by decide))).trans (f38_v153 m ρ c)
theorem f38_arg11 : W38 m ρ c (Proc.devRef .tc main_arg11) = (A m c main_arg11) :=
  Keep.args38 m ρ c main_arg11 (by simp only [Keep.argRefs, List.mem_cons, eq_self_iff_true, true_or, or_true])
theorem f39_v156 : W39 m ρ c (Proc.devRef .tc main_v156) = (KH.rowOf (KH.vslice ![2, 0] slices_S3x64_S1x64_2_0 (A m c main_arg11))) := by
  refine (KH.h11_g (W38 m ρ c)).trans ?_
  rw [f38_arg11 m ρ c]
  all_goals rfl
theorem f38_arg12 : W38 m ρ c (Proc.devRef .tc main_arg12) = (A m c main_arg12) :=
  Keep.args38 m ρ c main_arg12 (by simp only [Keep.argRefs, List.mem_cons, eq_self_iff_true, true_or, or_true])
theorem f39_v159 : W39 m ρ c (Proc.devRef .tc main_v159) = (KH.rowOf (KH.vslice ![2, 0] slices_S3x64_S1x64_2_0 (A m c main_arg12))) := by
  refine (KH.h11_sh (W38 m ρ c)).trans ?_
  rw [f38_arg12 m ρ c]
  all_goals rfl
theorem f40_v160 : W40 m ρ c (Proc.devRef .tc main_v160) = (T4_2 m c) := by
  refine (W40_arr m ρ c (5 : Fin cfg11.W)).trans ?_
  refine (Reg11.final (V39 m ρ) c).trans ?_
  have h0 : V39 m ρ c main_v148 = (T3_2 m c) := f39_v148 m ρ c
  have h1 : V39 m ρ c main_v152 = (KH.meanRow (T3_2 m c)) := f39_v152 m ρ c
  have h2 : V39 m ρ c main_v153 = (KH.varRow (T3_2 m c) (KH.zeroI)) := f39_v153 m ρ c
  have h3 : V39 m ρ c main_v156 = (KH.rowOf (KH.vslice ![2, 0] slices_S3x64_S1x64_2_0 (A m c main_arg11))) := f39_v156 m ρ c
  have h4 : V39 m ρ c main_v159 = (KH.rowOf (KH.vslice ![2, 0] slices_S3x64_S1x64_2_0 (A m c main_arg12))) := f39_v159 m ρ c
  rw [h0, h1, h2, h3, h4]
  all_goals rfl
theorem f41_v160 : W41 m ρ c (Proc.devRef .tc main_v160) = (T4_2 m c) :=
  (Keep.keep41 m ρ c main_v160 (Keep.not_mem_of_rix Keep.wr_hostOps12_ix Keep.rix_v160 (by decide))).trans (f40_v160 m ρ c)
theorem f42_v160 : W42 m ρ c (Proc.devRef .tc main_v160) = (T4_2 m c) :=
  (Keep.keep42 m ρ c main_v160 (Keep.not_mem_of_rix Keep.wr_hostOps12_1_ix Keep.rix_v160 (by decide))).trans (f41_v160 m ρ c)
theorem f43_v160 : W43 m ρ c (Proc.devRef .tc main_v160) = (T4_2 m c) :=
  (Keep.keep43 m ρ c main_v160 (Keep.not_mem_of_rix Keep.wr_hostOps12_2_ix Keep.rix_v160 (by decide))).trans (f42_v160 m ρ c)
theorem f41_v164 : W41 m ρ c (Proc.devRef .tc main_v164) = (KH.meanRow (T4_2 m c)) := by
  refine (KH.h12_mean (W40 m ρ c)).trans ?_
  rw [f40_v160 m ρ c]
  all_goals rfl
theorem f42_v164 : W42 m ρ c (Proc.devRef .tc main_v164) = (KH.meanRow (T4_2 m c)) :=
  (Keep.keep42 m ρ c main_v164 (Keep.not_mem_of_rix Keep.wr_hostOps12_1_ix Keep.rix_v164 (by decide))).trans (f41_v164 m ρ c)
theorem f43_v164 : W43 m ρ c (Proc.devRef .tc main_v164) = (KH.meanRow (T4_2 m c)) :=
  (Keep.keep43 m ρ c main_v164 (Keep.not_mem_of_rix Keep.wr_hostOps12_2_ix Keep.rix_v164 (by decide))).trans (f42_v164 m ρ c)
theorem f41_c_33 : W41 m ρ c (Proc.devRef .tc main_c_33) = (KH.zeroI) := by
  refine (KH.h12_c (W40 m ρ c)).trans ?_
  rfl
theorem f42_v165 : W42 m ρ c (Proc.devRef .tc main_v165) = (KH.varRow (T4_2 m c) (KH.zeroI)) := by
  refine (KH.h12_var (W41 m ρ c)).trans ?_
  rw [f41_v160 m ρ c, f41_c_33 m ρ c]
  all_goals rfl
theorem f43_v165 : W43 m ρ c (Proc.devRef .tc main_v165) = (KH.varRow (T4_2 m c) (KH.zeroI)) :=
  (Keep.keep43 m ρ c main_v165 (Keep.not_mem_of_rix Keep.wr_hostOps12_2_ix Keep.rix_v165 (by decide))).trans (f42_v165 m ρ c)
theorem f42_arg13 : W42 m ρ c (Proc.devRef .tc main_arg13) = (A m c main_arg13) :=
  Keep.args42 m ρ c main_arg13 (by simp only [Keep.argRefs, List.mem_cons, eq_self_iff_true, true_or, or_true])
theorem f43_v168 : W43 m ρ c (Proc.devRef .tc main_v168) = (KH.rowOf (KH.vslice ![2, 0] slices_S3x64_S1x64_2_0 (A m c main_arg13))) := by
  refine (KH.h12_g (W42 m ρ c)).trans ?_
  rw [f42_arg13 m ρ c]
  all_goals rfl
theorem f42_arg14 : W42 m ρ c (Proc.devRef .tc main_arg14) = (A m c main_arg14) :=
  Keep.args42 m ρ c main_arg14 (by simp only [Keep.argRefs, List.mem_cons, eq_self_iff_true, true_or, or_true])
theorem f43_v171 : W43 m ρ c (Proc.devRef .tc main_v171) = (KH.rowOf (KH.vslice ![2, 0] slices_S3x64_S1x64_2_0 (A m c main_arg14))) := by
  refine (KH.h12_sh (W42 m ρ c)).trans ?_
  rw [f42_arg14 m ρ c]
  all_goals rfl
theorem f44_v172 : W44 m ρ c (Proc.devRef .tc main_v172) = (X3 m c) := by
  refine (W44_arr m ρ c (5 : Fin cfg12.W)).trans ?_
  refine (Reg12.final (V43 m ρ) c).trans ?_
  have h0 : V43 m ρ c main_v160 = (T4_2 m c) := f43_v160 m ρ c
  have h1 : V43 m ρ c main_v164 = (KH.meanRow (T4_2 m c)) := f43_v164 m ρ c
  have h2 : V43 m ρ c main_v165 = (KH.varRow (T4_2 m c) (KH.zeroI)) := f43_v165 m ρ c
  have h3 : V43 m ρ c main_v168 = (KH.rowOf (KH.vslice ![2, 0] slices_S3x64_S1x64_2_0 (A m c main_arg13))) := f43_v168 m ρ c
  have h4 : V43 m ρ c main_v171 = (KH.rowOf (KH.vslice ![2, 0] slices_S3x64_S1x64_2_0 (A m c main_arg14))) := f43_v171 m ρ c
  rw [h0, h1, h2, h3, h4]
  all_goals rfl
theorem f45_v172 : W45 m ρ c (Proc.devRef .tc main_v172) = (X3 m c) :=
  (Keep.keep45 m ρ c main_v172 (Keep.not_mem_of_rix Keep.wr_hostOps13_ix Keep.rix_v172 (by decide))).trans (f44_v172 m ρ c)
theorem f46_v172 : W46 m ρ c (Proc.devRef .tc main_v172) = (X3 m c) :=
  (Keep.keep46 m ρ c main_v172 (Keep.ne_of_rix Keep.rix_v172 Keep.rix_v200 (by decide))).trans (f45_v172 m ρ c)
theorem f47_v172 : W47 m ρ c (Proc.devRef .tc main_v172) = (X3 m c) :=
  (Keep.keep47 m ρ c main_v172 (Keep.not_mem_of_rix Keep.wr_hostOps14_ix Keep.rix_v172 (by decide))).trans (f46_v172 m ρ c)
theorem f48_v172 : W48 m ρ c (Proc.devRef .tc main_v172) = (X3 m c) :=
  (Keep.keep48 m ρ c main_v172 (Keep.ne_of_rix Keep.rix_v172 Keep.rix_v228 (by decide))).trans (f47_v172 m ρ c)
theorem f49_v172 : W49 m ρ c (Proc.devRef .tc main_v172) = (X3 m c) :=
  (Keep.keep49 m ρ c main_v172 (Keep.not_mem_of_rix Keep.wr_hostOps15_ix Keep.rix_v172 (by decide))).trans (f48_v172 m ρ c)
theorem f50_v172 : W50 m ρ c (Proc.devRef .tc main_v172) = (X3 m c) :=
  (Keep.keep50 m ρ c main_v172 (Keep.ne_of_rix Keep.rix_v172 Keep.rix_v256 (by decide))).trans (f49_v172 m ρ c)
theorem f51_v264 : W51 m ρ c (Proc.devRef .tc main_v264) = (KH.gat (A m c main_arg1) (X3 m c)) := by
  refine (KH.h16_gs (W50 m ρ c)).trans ?_
  rw [f50_arg1 m ρ c, f50_v172 m ρ c]
  all_goals rfl
theorem f50_arg2 : W50 m ρ c (Proc.devRef .tc main_arg2) = (A m c main_arg2) :=
  Keep.args50 m ρ c main_arg2 (by simp only [Keep.argRefs, List.mem_cons, eq_self_iff_true, true_or, or_true])
theorem f51_v271 : W51 m ρ c (Proc.devRef .tc main_v271) = (KH.gat (A m c main_arg2) (X3 m c)) := by
  refine (KH.h16_gd (W50 m ρ c)).trans ?_
  rw [f50_arg2 m ρ c, f50_v172 m ρ c]
  all_goals rfl
theorem f50_arg15 : W50 m ρ c (Proc.devRef .tc main_arg15) = (A m c main_arg15) :=
  Keep.args50 m ρ c main_arg15 (by simp only [Keep.argRefs, List.mem_cons, eq_self_iff_true, true_or, or_true])
theorem f51_v273 : W51 m ρ c (Proc.devRef .tc main_v273) = (KH.pw1 ![3, 0, 0] slices_S4x128x64_S1x64x64_3_0_0 (A m c main_arg15)) := by
  refine (KH.h16_a (W50 m ρ c)).trans ?_
  rw [f50_arg15 m ρ c]
  all_goals rfl
theorem f51_v275 : W51 m ρ c (Proc.devRef .tc main_v275) = (KH.pw1 ![3, 64, 0] slices_S4x128x64_S1x64x64_3_64_0 (A m c main_arg15)) := by
  refine (KH.h16_c (W50 m ρ c)).trans ?_
  rw [f50_arg15 m ρ c]
  all_goals rfl
theorem f50_arg16 : W50 m ρ c (Proc.devRef .tc main_arg16) = (A m c main_arg16) :=
  Keep.args50 m ρ c main_arg16 (by simp only [Keep.argRefs, List.mem_cons, eq_self_iff_true, true_or, or_true])
theorem f51_v278 : W51 m ρ c (Proc.devRef .tc main_v278) = (KH.rowOf (KH.pvec ![3, 0] slices_S4x64_S1x64_3_0 (A m c main_arg16))) := by
  refine (KH.h16_b1 (W50 m ρ c)).trans ?_
  rw [f50_arg16 m ρ c]
  all_goals rfl
theorem f50_arg17 : W50 m ρ c (Proc.devRef .tc main_arg17) = (A m c main_arg17) :=
  Keep.args50 m ρ c main_arg17 (by simp only [Keep.argRefs, List.mem_cons, eq_self_iff_true, true_or, or_true])
theorem f51_v280 : W51 m ρ c (Proc.devRef .tc main_v280) = (KH.pw2 ![3, 0, 0] slices_S4x64x2_S1x64x2_3_0_0 (A m c main_arg17)) := by
  refine (KH.h16_w2 (W50 m ρ c)).trans ?_
  rw [f50_arg17 m ρ c]
  all_goals rfl
theorem f50_arg18 : W50 m ρ c (Proc.devRef .tc main_arg18) = (A m c main_arg18) :=
  Keep.args50 m ρ c main_arg18 (by simp only [Keep.argRefs, List.mem_cons, eq_self_iff_true, true_or, or_true])
theorem f51_v283 : W51 m ρ c (Proc.devRef .tc main_v283) = (KH.rowOf2 (KH.pvec2 ![3, 0] slices_S4x2_S1x2_3_0 (A m c main_arg18))) := by
  refine (KH.h16_b2 (W50 m ρ c)).trans ?_
  rw [f50_arg18 m ρ c]
  all_goals rfl
theorem f52_v284 : W52 m ρ c (Proc.devRef .tc main_v284) = (Ctr3 m c) := by
  refine (W52_arr m ρ c (7 : Fin cfg16.W)).trans ?_
  refine (Reg16.final (V51 m ρ) c).trans ?_
  have h0 : V51 m ρ c main_v264 = (KH.gat (A m c main_arg1) (X3 m c)) := f51_v264 m ρ c
  have h1 : V51 m ρ c main_v271 = (KH.gat (A m c main_arg2) (X3 m c)) := f51_v271 m ρ c
  have h2 : V51 m ρ c main_v273 = (KH.pw1 ![3, 0, 0] slices_S4x128x64_S1x64x64_3_0_0 (A m c main_arg15)) := f51_v273 m ρ c
  have h3 : V51 m ρ c main_v275 = (KH.pw1 ![3, 64, 0] slices_S4x128x64_S1x64x64_3_64_0 (A m c main_arg15)) := f51_v275 m ρ c
  have h4 : V51 m ρ c main_v278 = (KH.rowOf (KH.pvec ![3, 0] slices_S4x64_S1x64_3_0 (A m c main_arg16))) := f51_v278 m ρ c
  have h5 : V51 m ρ c main_v280 = (KH.pw2 ![3, 0, 0] slices_S4x64x2_S1x64x2_3_0_0 (A m c main_arg17)) := f51_v280 m ρ c
  have h6 : V51 m ρ c main_v283 = (KH.rowOf2 (KH.pvec2 ![3, 0] slices_S4x2_S1x2_3_0 (A m c main_arg18))) := f51_v283 m ρ c
  rw [h0, h1, h2, h3, h4, h5, h6]
  all_goals rfl
theorem f53_v285 : W53 m ρ c (Proc.devRef .tc main_v285) = (Sc3 m c) := by
  refine (KH.h17_acc (W52 m ρ c)).trans ?_
  rw [f52_v257 m ρ c, f52_v284 m ρ c]
  all_goals rfl

/-- The result buffer at the last boundary is the last running score. -/
theorem result : W53 m ρ c (Proc.devRef .tc main_v285) = Sc3 m c := f53_v285 m ρ c

end Cert.KernelIdeal.Chain

end
-- ==== Proof.RefBase.lean ====
import proofs.«107973_j83408264888790_1_alg».proof.Proof.Gen.ReferenceIdeal
import Idealize.ShloMosaic.Lib.StableHlo.Run
import Idealize.ShloMosaic.Lib.Pipeline.Frame

/-! General facts about a straight line of host operations, used by the reference program's run:
    the one buffer of a listed reference lies in the list's set of device buffers, and a list of
    written references may be enlarged. -/

namespace Cert.ReferenceIdeal.RefRun

open Idealize.ShloMosaic Idealize.ShloMosaic.TcCoe Idealize.SL.Sem Idealize.ShloMosaic.StableHlo

variable {τ' : Topo} {sig' : RefSig} {Val : EltTy → Type}

/-- The one buffer of a reference that occurs in a list is among the list's device buffers. -/
theorem single_sub_of_mem {W : List (Ref sig' .tc)} {y : Ref sig' .tc} (h : y ∈ W) :
    ({Proc.devRef (τ := τ') .tc y} : Finset (DevRef τ' sig')) ⊆ (W.map (Proc.devRef (τ := τ') .tc)).toFinset :=
  Finset.singleton_subset_iff.mpr (List.mem_toFinset.mpr (List.mem_map_of_mem h))

/-- A list of written references may be enlarged. -/
theorem writes_mono {W W' : List (Ref sig' .tc)} (hWW' : ∀ y ∈ W, y ∈ W') {ops : List (HloOp τ' sig' Val)}
    (h : ops.Forall fun op => op.writes ⊆ (W.map (Proc.devRef (τ := τ') .tc)).toFinset) :
    ops.Forall fun op => op.writes ⊆ (W'.map (Proc.devRef (τ := τ') .tc)).toFinset :=
  List.Forall.imp (fun _ hop b hb => by
    obtain ⟨y, hy, he⟩ := List.mem_map.mp (List.mem_toFinset.mp (hop hb))
    exact List.mem_toFinset.mpr (List.mem_map.mpr ⟨y, hWW' y hy, he⟩)) h

end Cert.ReferenceIdeal.RefRun
-- ==== Proof.RefOps0.lean ====
import proofs.«107973_j83408264888790_1_alg».proof.Proof.RefBase

/-! Statements 1 … 60 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 81 operations of statements 1 … 60, in order. -/
noncomputable abbrev ops0 : List (HloOp τ sig (Elt F)) :=
  [ StableHlo.binary main_arg0 main_arg3 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)),
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_arg1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v3 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_arg2 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_arg2 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_arg2 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v3 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v17 main_v18 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_arg1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_arg1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v3 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v26 (broadcastInDim S50000x64 ![] bcast_S_S50000x64 : (⟨S_, .f32⟩ : BufTy).Contents (Elt F) → (⟨S50000x64, .f32⟩ : BufTy).Contents (Elt F)),
    StableHlo.unary main_arg2 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v3 main_v28 main_v29 (addf : (⟨S50000x64, .f32⟩ : BufTy).Contents (Elt F) → (⟨S50000x64, .f32⟩ : BufTy).Contents (Elt F) → (⟨S50000x64, .f32⟩ : BufTy).Contents (Elt F)),
    StableHlo.unary main_arg5 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v30 main_v31 rfl shapeCasts_S1x64x64_S64x64,
    StableHlo.binary main_v29 main_v31 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v33 ((extractStridedSlice S1x64 ![0, 0] · slices_S3x64_S1x64_0_0) : (⟨S3x64, .f32⟩ : BufTy).Contents (Elt F) → (⟨S1x64, .f32⟩ : BufTy).Contents (Elt F)),
    StableHlo.reshape main_v33 main_v34 rfl shapeCasts_S1x64_S64,
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S50000x64 ![0, 1] bcast_S1x64_S50000x64_0_1 : (⟨S1x64, .f32⟩ : BufTy).Contents (Elt F) → (⟨S50000x64, .f32⟩ : BufTy).Contents (Elt F)),
    StableHlo.binary main_v32 main_v36 main_v37 (addf : (⟨S50000x64, .f32⟩ : BufTy).Contents (Elt F) → (⟨S50000x64, .f32⟩ : BufTy).Contents (Elt F) → (⟨S50000x64, .f32⟩ : BufTy).Contents (Elt F)),
    StableHlo.unary main_arg7 main_v38 ((extractStridedSlice S1x64 ![0, 0] · slices_S3x64_S1x64_0_0) : (⟨S3x64, .f32⟩ : BufTy).Contents (Elt F) → (⟨S1x64, .f32⟩ : BufTy).Contents (Elt F)),
    StableHlo.reshape main_v38 main_v39 rfl shapeCasts_S1x64_S64,
    StableHlo.unary main_arg8 main_v40 ((extractStridedSlice S1x64 ![0, 0] · slices_S3x64_S1x64_0_0) : (⟨S3x64, .f32⟩ : BufTy).Contents (Elt F) → (⟨S1x64, .f32⟩ : BufTy).Contents (Elt F)),
    StableHlo.reshape main_v40 main_v41 rfl shapeCasts_S1x64_S64,
    StableHlo.nullary main_cst_5 (constant S_ .f32 0x00000000#32),
    StableHlo.binary main_v37 main_cst_5 main_v42 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_6 (constant S_ .f32 0x47435000#32),
    StableHlo.unary main_cst_6 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call0.cst (constant S_ .f32 0x00000000#32),
    StableHlo.TRef.binary (TRef.of main_v37 : TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (TRef.of main_v37 : TRef sig ⟨S50000x64, .f32⟩) main_call0.v4 main_call0.v5 subf,
    StableHlo.TRef.binary main_call0.v5 main_call0.v5 main_call0.v6 mulf,
    StableHlo.TRef.unary (TRef.of main_c_7 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v44 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S50000x64 ![0, 1] bcast_S1x64_S50000x64_0_1 : (⟨S1x64, .f32⟩ : BufTy).Contents (Elt F) → (⟨S50000x64, .f32⟩ : BufTy).Contents (Elt F)),
    StableHlo.binary main_v37 main_v47 main_v48 (subf : (⟨S50000x64, .f32⟩ : BufTy).Contents (Elt F) → (⟨S50000x64, .f32⟩ : BufTy).Contents (Elt F) → (⟨S50000x64, .f32⟩ : BufTy).Contents (Elt F)),
    StableHlo.unary main_v39 main_v49 (broadcastInDim S1x64 ![1] bcast_S64_S1x64_1 : (⟨S64, .f32⟩ : BufTy).Contents (Elt F) → (⟨S1x64, .f32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part0_eq (c : Dev nD) : main_part0 (F := F) c = seq ops0 := by
  simp only [main_part0, fn_var.body, fn_where.body, fn_relu.body, fn_relu_0.body, seq, bind_assoc, pure_bind]
  rfl

/-- Every buffer an operation of the window touches is a TensorCore reference. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub ..⟩

/-- Every operation of the window determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The references the window writes: one per operation, its result. -/
noncomputable def writes0 : List (Ref sig .tc) :=
  [ main_v0, main_v1, main_v2, main_v3, main_c, main_v4, main_v5, main_c_0,
    main_v6, main_v7, main_v8, main_v9, main_v10, main_c_1, main_v11, main_v12,
    main_c_2, main_v13, main_v14, main_v15, main_v16, main_v17, main_v18, main_c_3,
    main_v19, main_v20, main_c_4, main_v21, main_v22, main_v23, main_v24, main_v25,
    main_cst, main_v26, main_v27, main_v28, main_v29, main_v30, main_v31, main_v32,
    main_v33, main_v34, main_v35, main_v36, main_v37, main_v38, main_v39, main_v40,
    main_v41, main_cst_5, main_v42, main_cst_6, main_v43, main_v44, main_c_7, main_call0_cst,
    main_call0_v0, main_call0_v1, main_call0_cst_0, main_call0_v2, main_call0_v3, main_call0_v4, main_call0_v5, main_call0_v6,
    main_call0_v7, main_call0_cst_1, main_call0_v8, main_call0_cst_2, main_call0_v9, main_call0_v10, main_call0_v11, main_call0_cst_3,
    main_call0_v12, main_call0_cst_4, main_call0_call0_v0, main_call0_call0_v1, main_v45, main_v46, main_v47, main_v48,
    main_v49 ]

/-- Each operation of the window writes its one result buffer, which is in the list. -/
theorem ops0_writes : (ops0 : List (HloOp τ sig (Elt F))).Forall fun op =>
    op.writes ⊆ (writes0.map (Proc.devRef (τ := τ) .tc)).toFinset :=
  ⟨single_sub_of_mem (y := main_v0) (by decide), single_sub_of_mem (y := main_v1) (by decide), single_sub_of_mem (y := main_v2) (by decide),
    single_sub_of_mem (y := main_v3) (by decide), single_sub_of_mem (y := main_c) (by decide), single_sub_of_mem (y := main_v4) (by decide),
    single_sub_of_mem (y := main_v5) (by decide), single_sub_of_mem (y := main_c_0) (by decide), single_sub_of_mem (y := main_v6) (by decide),
    single_sub_of_mem (y := main_v7) (by decide), single_sub_of_mem (y := main_v8) (by decide), single_sub_of_mem (y := main_v9) (by decide),
    single_sub_of_mem (y := main_v10) (by decide), single_sub_of_mem (y := main_c_1) (by decide), single_sub_of_mem (y := main_v11) (by decide),
    single_sub_of_mem (y := main_v12) (by decide), single_sub_of_mem (y := main_c_2) (by decide), single_sub_of_mem (y := main_v13) (by decide),
    single_sub_of_mem (y := main_v14) (by decide), single_sub_of_mem (y := main_v15) (by decide), single_sub_of_mem (y := main_v16) (by decide),
    single_sub_of_mem (y := main_v17) (by decide), single_sub_of_mem (y := main_v18) (by decide), single_sub_of_mem (y := main_c_3) (by decide),
    single_sub_of_mem (y := main_v19) (by decide), single_sub_of_mem (y := main_v20) (by decide), single_sub_of_mem (y := main_c_4) (by decide),
    single_sub_of_mem (y := main_v21) (by decide), single_sub_of_mem (y := main_v22) (by decide), single_sub_of_mem (y := main_v23) (by decide),
    single_sub_of_mem (y := main_v24) (by decide), single_sub_of_mem (y := main_v25) (by decide), single_sub_of_mem (y := main_cst) (by decide),
    single_sub_of_mem (y := main_v26) (by decide), single_sub_of_mem (y := main_v27) (by decide), single_sub_of_mem (y := main_v28) (by decide),
    single_sub_of_mem (y := main_v29) (by decide), single_sub_of_mem (y := main_v30) (by decide), single_sub_of_mem (y := main_v31) (by decide),
    single_sub_of_mem (y := main_v32) (by decide), single_sub_of_mem (y := main_v33) (by decide), single_sub_of_mem (y := main_v34) (by decide),
    single_sub_of_mem (y := main_v35) (by decide), single_sub_of_mem (y := main_v36) (by decide), single_sub_of_mem (y := main_v37) (by decide),
    single_sub_of_mem (y := main_v38) (by decide), single_sub_of_mem (y := main_v39) (by decide), single_sub_of_mem (y := main_v40) (by decide),
    single_sub_of_mem (y := main_v41) (by decide), single_sub_of_mem (y := main_cst_5) (by decide), single_sub_of_mem (y := main_v42) (by decide),
    single_sub_of_mem (y := main_cst_6) (by decide), single_sub_of_mem (y := main_v43) (by decide), single_sub_of_mem (y := main_v44) (by decide),
    single_sub_of_mem (y := main_c_7) (by decide), single_sub_of_mem (y := main_call0_cst) (by decide), single_sub_of_mem (y := main_call0_v0) (by decide),
    single_sub_of_mem (y := main_call0_v1) (by decide), single_sub_of_mem (y := main_call0_cst_0) (by decide), single_sub_of_mem (y := main_call0_v2) (by decide),
    single_sub_of_mem (y := main_call0_v3) (by decide), single_sub_of_mem (y := main_call0_v4) (by decide), single_sub_of_mem (y := main_call0_v5) (by decide),
    single_sub_of_mem (y := main_call0_v6) (by decide), single_sub_of_mem (y := main_call0_v7) (by decide), single_sub_of_mem (y := main_call0_cst_1) (by decide),
    single_sub_of_mem (y := main_call0_v8) (by decide), single_sub_of_mem (y := main_call0_cst_2) (by decide), single_sub_of_mem (y := main_call0_v9) (by decide),
    single_sub_of_mem (y := main_call0_v10) (by decide), single_sub_of_mem (y := main_call0_v11) (by decide), single_sub_of_mem (y := main_call0_cst_3) (by decide),
    single_sub_of_mem (y := main_call0_v12) (by decide), single_sub_of_mem (y := main_call0_cst_4) (by decide), single_sub_of_mem (y := main_call0_call0_v0) (by decide),
    single_sub_of_mem (y := main_call0_call0_v1) (by decide), single_sub_of_mem (y := main_v45) (by decide), single_sub_of_mem (y := main_v46) (by decide),
    single_sub_of_mem (y := main_v47) (by decide), single_sub_of_mem (y := main_v48) (by decide), single_sub_of_mem (y := main_v49) (by decide)⟩

end Cert.ReferenceIdeal.RefRun

end
-- ==== Proof.RefOps1.lean ====
import proofs.«107973_j83408264888790_1_alg».proof.Proof.RefBase

/-! Statements 61 … 120 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 106 operations of statements 61 … 120, in order. -/
noncomputable abbrev ops1 : List (HloOp τ sig (Elt F)) :=
  [ StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v48 main_v51 (mulf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v52 (broadcastInDim S64 ![] bcast_S_S64 : (⟨S_, .f32⟩ : BufTy).Contents (Elt F) → (⟨S64, .f32⟩ : BufTy).Contents (Elt F)),
    StableHlo.binary main_v45 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (mulf : (⟨S50000x64, .f32⟩ : BufTy).Contents (Elt F) → (⟨S50000x64, .f32⟩ : BufTy).Contents (Elt F) → (⟨S50000x64, .f32⟩ : BufTy).Contents (Elt F)),
    StableHlo.unary main_v41 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v59 main_v60 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (TRef.of main_v60 : TRef sig ⟨S50000x64, .f32⟩) main_call1.v0 main_call1.v1 maximumf,
    StableHlo.unary main_arg9 main_v62 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.binary main_v61 main_v63 main_v64 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v65 ((extractStridedSlice S1x64 ![0, 0] · slices_S3x64_S1x64_0_0) : (⟨S3x64, .f32⟩ : BufTy).Contents (Elt F) → (⟨S1x64, .f32⟩ : BufTy).Contents (Elt F)),
    StableHlo.reshape main_v65 main_v66 rfl shapeCasts_S1x64_S64,
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v68 main_v69 (addf : (⟨S50000x64, .f32⟩ : BufTy).Contents (Elt F) → (⟨S50000x64, .f32⟩ : BufTy).Contents (Elt F) → (⟨S50000x64, .f32⟩ : BufTy).Contents (Elt F)),
    StableHlo.unary main_arg11 main_v70 ((extractStridedSlice S1x64 ![0, 0] · slices_S3x64_S1x64_0_0) : (⟨S3x64, .f32⟩ : BufTy).Contents (Elt F) → (⟨S1x64, .f32⟩ : BufTy).Contents (Elt F)),
    StableHlo.reshape main_v70 main_v71 rfl shapeCasts_S1x64_S64,
    StableHlo.unary main_arg12 main_v72 ((extractStridedSlice S1x64 ![0, 0] · slices_S3x64_S1x64_0_0) : (⟨S3x64, .f32⟩ : BufTy).Contents (Elt F) → (⟨S1x64, .f32⟩ : BufTy).Contents (Elt F)),
    StableHlo.reshape main_v72 main_v73 rfl shapeCasts_S1x64_S64,
    StableHlo.nullary main_cst_9 (constant S_ .f32 0x00000000#32),
    StableHlo.binary main_v69 main_cst_9 main_v74 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary (TRef.of main_v69 : TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (TRef.of main_v69 : TRef sig ⟨S50000x64, .f32⟩) main_call2.v4 main_call2.v5 subf,
    StableHlo.TRef.binary main_call2.v5 main_call2.v5 main_call2.v6 mulf,
    StableHlo.TRef.unary (TRef.of main_c_11 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v69 main_v79 main_v80 (subf : (⟨S50000x64, .f32⟩ : BufTy).Contents (Elt F) → (⟨S50000x64, .f32⟩ : BufTy).Contents (Elt F) → (⟨S50000x64, .f32⟩ : BufTy).Contents (Elt F)),
    StableHlo.unary main_v71 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v80 main_v83 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v84 (broadcastInDim S64 ![] bcast_S_S64 : (⟨S_, .f32⟩ : BufTy).Contents (Elt F) → (⟨S64, .f32⟩ : BufTy).Contents (Elt F)),
    StableHlo.binary main_v77 main_v84 main_v85 (addf : (⟨S64, .f32⟩ : BufTy).Contents (Elt F) → (⟨S64, .f32⟩ : BufTy).Contents (Elt F) → (⟨S64, .f32⟩ : BufTy).Contents (Elt F)),
    StableHlo.unary main_v85 main_v86 (Host.rsqrt : (⟨S64, .f32⟩ : BufTy).Contents (Elt F) → (⟨S64, .f32⟩ : BufTy).Contents (Elt F)),
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v88 main_v89 (mulf : (⟨S50000x64, .f32⟩ : BufTy).Contents (Elt F) → (⟨S50000x64, .f32⟩ : BufTy).Contents (Elt F) → (⟨S50000x64, .f32⟩ : BufTy).Contents (Elt F)),
    StableHlo.unary main_v73 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v91 main_v92 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (TRef.of main_v92 : TRef sig ⟨S50000x64, .f32⟩) main_call3.v0 main_call3.v1 maximumf,
    StableHlo.unary main_arg13 main_v94 ((extractStridedSlice S1x64 ![0, 0] · slices_S3x64_S1x64_0_0) : (⟨S3x64, .f32⟩ : BufTy).Contents (Elt F) → (⟨S1x64, .f32⟩ : BufTy).Contents (Elt F)),
    StableHlo.reshape main_v94 main_v95 rfl shapeCasts_S1x64_S64,
    StableHlo.unary main_arg14 main_v96 ((extractStridedSlice S1x64 ![0, 0] · slices_S3x64_S1x64_0_0) : (⟨S3x64, .f32⟩ : BufTy).Contents (Elt F) → (⟨S1x64, .f32⟩ : BufTy).Contents (Elt F)),
    StableHlo.reshape main_v96 main_v97 rfl shapeCasts_S1x64_S64,
    StableHlo.nullary main_cst_13 (constant S_ .f32 0x00000000#32),
    StableHlo.binary main_v93 main_cst_13 main_v98 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_14 (constant S_ .f32 0x47435000#32),
    StableHlo.unary main_cst_14 main_v99 (broadcastInDim S64 ![] bcast_S_S64 : (⟨S_, .f32⟩ : BufTy).Contents (Elt F) → (⟨S64, .f32⟩ : BufTy).Contents (Elt F)),
    StableHlo.binary main_v98 main_v99 main_v100 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call4.cst (constant S_ .f32 0x00000000#32),
    StableHlo.TRef.binary (TRef.of main_v93 : TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (TRef.of main_v93 : TRef sig ⟨S50000x64, .f32⟩) main_call4.v4 main_call4.v5 subf,
    StableHlo.TRef.binary main_call4.v5 main_call4.v5 main_call4.v6 mulf,
    StableHlo.TRef.unary (TRef.of main_c_15 : TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

set_option maxRecDepth 8192 in
set_option maxHeartbeats 1600000 in
/-- The window is that straight line: the functions' definitions unfolded at their calls and the records at their
    fields, both sides are one chain of single-operation steps once sequencing is reassociated. -/
theorem main_part1_eq (c : Dev nD) : main_part1 (F := F) c = seq ops1 := by
  simp only [main_part1, fn_var.body, fn_where.body, fn_relu.body, fn_relu_0.body, seq, bind_assoc, pure_bind]

/-- Every buffer an operation of the window touches is a TensorCore reference. -/
theorem ops1_sub : (ops1 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

/-- Every operation of the window determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- The references the window writes: one per operation, its result. -/
noncomputable def writes1 : List (Ref sig .tc) :=
  [ main_v50, main_v51, main_cst_8, main_v52, main_v53, main_v54, main_v55, main_v56,
    main_v57, main_v58, main_v59, main_v60, main_call1_cst, main_call1_v0, main_v61, main_v62,
    main_v63, main_v64, main_v65, main_v66, main_v67, main_v68, main_v69, main_v70,
    main_v71, main_v72, main_v73, main_cst_9, main_v74, main_cst_10, main_v75, main_v76,
    main_c_11, main_call2_cst, main_call2_v0, main_call2_v1, main_call2_cst_0, main_call2_v2, main_call2_v3, main_call2_v4,
    main_call2_v5, main_call2_v6, main_call2_v7, main_call2_cst_1, main_call2_v8, main_call2_cst_2, main_call2_v9, main_call2_v10,
    main_call2_v11, main_call2_cst_3, main_call2_v12, main_call2_cst_4, main_call2_call0_v0, main_call2_call0_v1, main_v77, main_v78,
    main_v79, main_v80, main_v81, main_v82, main_v83, main_cst_12, main_v84, main_v85,
    main_v86, main_v87, main_v88, main_v89, main_v90, main_v91, main_v92, main_call3_cst,
    main_call3_v0, main_v93, main_v94, main_v95, main_v96, main_v97, main_cst_13, main_v98,
    main_cst_14, main_v99, main_v100, main_c_15, main_call4_cst, main_call4_v0, main_call4_v1, main_call4_cst_0,
    main_call4_v2, main_call4_v3, main_call4_v4, main_call4_v5, main_call4_v6, main_call4_v7, main_call4_cst_1, main_call4_v8,
    main_call4_cst_2, main_call4_v9, main_call4_v10, main_call4_v11, main_call4_cst_3, main_call4_v12, main_call4_cst_4, main_call4_call0_v0,
    main_call4_call0_v1, main_v101 ]

/-- Each operation of the window writes its one result buffer, which is in the list. -/
theorem ops1_writes : (ops1 : List (HloOp τ sig (Elt F))).Forall fun op =>
    op.writes ⊆ (writes1.map (Proc.devRef (τ := τ) .tc)).toFinset :=
  ⟨single_sub_of_mem (y := main_v50) (by decide), single_sub_of_mem (y := main_v51) (by decide), single_sub_of_mem (y := main_cst_8) (by decide),
    single_sub_of_mem (y := main_v52) (by decide), single_sub_of_mem (y := main_v53) (by decide), single_sub_of_mem (y := main_v54) (by decide),
    single_sub_of_mem (y := main_v55) (by decide), single_sub_of_mem (y := main_v56) (by decide), single_sub_of_mem (y := main_v57) (by decide),
    single_sub_of_mem (y := main_v58) (by decide), single_sub_of_mem (y := main_v59) (by decide), single_sub_of_mem (y := main_v60) (by decide),
    single_sub_of_mem (y := main_call1_cst) (by decide), single_sub_of_mem (y := main_call1_v0) (by decide), single_sub_of_mem (y := main_v61) (by decide),
    single_sub_of_mem (y := main_v62) (by decide), single_sub_of_mem (y := main_v63) (by decide), single_sub_of_mem (y := main_v64) (by decide),
    single_sub_of_mem (y := main_v65) (by decide), single_sub_of_mem (y := main_v66) (by decide), single_sub_of_mem (y := main_v67) (by decide),
    single_sub_of_mem (y := main_v68) (by decide), single_sub_of_mem (y := main_v69) (by decide), single_sub_of_mem (y := main_v70) (by decide),
    single_sub_of_mem (y := main_v71) (by decide), single_sub_of_mem (y := main_v72) (by decide), single_sub_of_mem (y := main_v73) (by decide),
    single_sub_of_mem (y := main_cst_9) (by decide), single_sub_of_mem (y := main_v74) (by decide), single_sub_of_mem (y := main_cst_10) (by decide),
    single_sub_of_mem (y := main_v75) (by decide), single_sub_of_mem (y := main_v76) (by decide), single_sub_of_mem (y := main_c_11) (by decide),
    single_sub_of_mem (y := main_call2_cst) (by decide), single_sub_of_mem (y := main_call2_v0) (by decide), single_sub_of_mem (y := main_call2_v1) (by decide),
    single_sub_of_mem (y := main_call2_cst_0) (by decide), single_sub_of_mem (y := main_call2_v2) (by decide), single_sub_of_mem (y := main_call2_v3) (by decide),
    single_sub_of_mem (y := main_call2_v4) (by decide), single_sub_of_mem (y := main_call2_v5) (by decide), single_sub_of_mem (y := main_call2_v6) (by decide),
    single_sub_of_mem (y := main_call2_v7) (by decide), single_sub_of_mem (y := main_call2_cst_1) (by decide), single_sub_of_mem (y := main_call2_v8) (by decide),
    single_sub_of_mem (y := main_call2_cst_2) (by decide), single_sub_of_mem (y := main_call2_v9) (by decide), single_sub_of_mem (y := main_call2_v10) (by decide),
    single_sub_of_mem (y := main_call2_v11) (by decide), single_sub_of_mem (y := main_call2_cst_3) (by decide), single_sub_of_mem (y := main_call2_v12) (by decide),
    single_sub_of_mem (y := main_call2_cst_4) (by decide), single_sub_of_mem (y := main_call2_call0_v0) (by decide), single_sub_of_mem (y := main_call2_call0_v1) (by decide),
    single_sub_of_mem (y := main_v77) (by decide), single_sub_of_mem (y := main_v78) (by decide), single_sub_of_mem (y := main_v79) (by decide),
    single_sub_of_mem (y := main_v80) (by decide), single_sub_of_mem (y := main_v81) (by decide), single_sub_of_mem (y := main_v82) (by decide),
    single_sub_of_mem (y := main_v83) (by decide), single_sub_of_mem (y := main_cst_12) (by decide), single_sub_of_mem (y := main_v84) (by decide),
    single_sub_of_mem (y := main_v85) (by decide), single_sub_of_mem (y := main_v86) (by decide), single_sub_of_mem (y := main_v87) (by decide),
    single_sub_of_mem (y := main_v88) (by decide), single_sub_of_mem (y := main_v89) (by decide), single_sub_of_mem (y := main_v90) (by decide),
    single_sub_of_mem (y := main_v91) (by decide), single_sub_of_mem (y := main_v92) (by decide), single_sub_of_mem (y := main_call3_cst) (by decide),
    single_sub_of_mem (y := main_call3_v0) (by decide), single_sub_of_mem (y := main_v93) (by decide), single_sub_of_mem (y := main_v94) (by decide),
    single_sub_of_mem (y := main_v95) (by decide), single_sub_of_mem (y := main_v96) (by decide), single_sub_of_mem (y := main_v97) (by decide),
    single_sub_of_mem (y := main_cst_13) (by decide), single_sub_of_mem (y := main_v98) (by decide), single_sub_of_mem (y := main_cst_14) (by decide),
    single_sub_of_mem (y := main_v99) (by decide), single_sub_of_mem (y := main_v100) (by decide), single_sub_of_mem (y := main_c_15) (by decide),
    single_sub_of_mem (y := main_call4_cst) (by decide), single_sub_of_mem (y := main_call4_v0) (by decide), single_sub_of_mem (y := main_call4_v1) (by decide),
    single_sub_of_mem (y := main_call4_cst_0) (by decide), single_sub_of_mem (y := main_call4_v2) (by decide), single_sub_of_mem (y := main_call4_v3) (by decide),
    single_sub_of_mem (y := main_call4_v4) (by decide), single_sub_of_mem (y := main_call4_v5) (by decide), single_sub_of_mem (y := main_call4_v6) (by decide),
    single_sub_of_mem (y := main_call4_v7) (by decide), single_sub_of_mem (y := main_call4_cst_1) (by decide), single_sub_of_mem (y := main_call4_v8) (by decide),
    single_sub_of_mem (y := main_call4_cst_2) (by decide), single_sub_of_mem (y := main_call4_v9) (by decide), single_sub_of_mem (y := main_call4_v10) (by decide),
    single_sub_of_mem (y := main_call4_v11) (by decide), single_sub_of_mem (y := main_call4_cst_3) (by decide), single_sub_of_mem (y := main_call4_v12) (by decide),
    single_sub_of_mem (y := main_call4_cst_4) (by decide), single_sub_of_mem (y := main_call4_call0_v0) (by decide), single_sub_of_mem (y := main_call4_call0_v1) (by decide),
    single_sub_of_mem (y := main_v101) (by decide)⟩

end Cert.ReferenceIdeal.RefRun

end
-- ==== Proof.RefOps2.lean ====
import proofs.«107973_j83408264888790_1_alg».proof.Proof.RefBase

/-! Statements 121 … 180 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of statements 121 … 180, in order. -/
noncomputable abbrev ops2 : List (HloOp τ sig (Elt F)) :=
  [ StableHlo.unary main_v100 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S50000x64 ![0, 1] bcast_S1x64_S50000x64_0_1 : (⟨S1x64, .f32⟩ : BufTy).Contents (Elt F) → (⟨S50000x64, .f32⟩ : BufTy).Contents (Elt F)),
    StableHlo.binary main_v93 main_v103 main_v104 (subf : (⟨S50000x64, .f32⟩ : BufTy).Contents (Elt F) → (⟨S50000x64, .f32⟩ : BufTy).Contents (Elt F) → (⟨S50000x64, .f32⟩ : BufTy).Contents (Elt F)),
    StableHlo.unary main_v95 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v104 main_v107 (mulf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x3727C5AC#32),
    StableHlo.unary main_cst_16 main_v108 (broadcastInDim S64 ![] bcast_S_S64 : (⟨S_, .f32⟩ : BufTy).Contents (Elt F) → (⟨S64, .f32⟩ : BufTy).Contents (Elt F)),
    StableHlo.binary main_v101 main_v108 main_v109 (addf : (⟨S64, .f32⟩ : BufTy).Contents (Elt F) → (⟨S64, .f32⟩ : BufTy).Contents (Elt F) → (⟨S64, .f32⟩ : BufTy).Contents (Elt F)),
    StableHlo.unary main_v109 main_v110 (Host.rsqrt : (⟨S64, .f32⟩ : BufTy).Contents (Elt F) → (⟨S64, .f32⟩ : BufTy).Contents (Elt F)),
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v112 main_v113 (mulf : (⟨S50000x64, .f32⟩ : BufTy).Contents (Elt F) → (⟨S50000x64, .f32⟩ : BufTy).Contents (Elt F) → (⟨S50000x64, .f32⟩ : BufTy).Contents (Elt F)),
    StableHlo.unary main_v97 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v115 main_v116 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (TRef.of main_v116 : TRef sig ⟨S50000x64, .f32⟩) main_call5.v0 main_call5.v1 maximumf,
    StableHlo.nullary main_c_17 (constantI S_ 32 0#32),
    StableHlo.unary main_c_17 main_v118 (broadcastInDim S800000 ![] bcast_S_S800000 : (⟨S_, .i32⟩ : BufTy).Contents (Elt F) → (⟨S800000, .i32⟩ : BufTy).Contents (Elt F)),
    StableHlo.binary main_arg1 main_v118 main_v119 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v120 (broadcastInDim S800000 ![] bcast_S_S800000 : (⟨S_, .i32⟩ : BufTy).Contents (Elt F) → (⟨S800000, .i32⟩ : BufTy).Contents (Elt F)),
    StableHlo.binary main_arg1 main_v120 main_v121 (addi : (⟨S800000, .i32⟩ : BufTy).Contents (Elt F) → (⟨S800000, .i32⟩ : BufTy).Contents (Elt F) → (⟨S800000, .i32⟩ : BufTy).Contents (Elt F)),
    StableHlo.ternary main_v119 main_v121 main_arg1 main_v122 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v122 main_v123 (broadcastInDim S800000x1 ![0] bcast_S800000_S800000x1_0 : (⟨S800000, .i32⟩ : BufTy).Contents (Elt F) → (⟨S800000x1, .i32⟩ : BufTy).Contents (Elt F)),
    StableHlo.binary main_v117 main_v123 main_v124 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_19 (constantI S_ 32 0#32),
    StableHlo.unary main_c_19 main_v125 (broadcastInDim S800000 ![] bcast_S_S800000 : (⟨S_, .i32⟩ : BufTy).Contents (Elt F) → (⟨S800000, .i32⟩ : BufTy).Contents (Elt F)),
    StableHlo.binary main_arg2 main_v125 main_v126 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v127 (broadcastInDim S800000 ![] bcast_S_S800000 : (⟨S_, .i32⟩ : BufTy).Contents (Elt F) → (⟨S800000, .i32⟩ : BufTy).Contents (Elt F)),
    StableHlo.binary main_arg2 main_v127 main_v128 (addi : (⟨S800000, .i32⟩ : BufTy).Contents (Elt F) → (⟨S800000, .i32⟩ : BufTy).Contents (Elt F) → (⟨S800000, .i32⟩ : BufTy).Contents (Elt F)),
    StableHlo.ternary main_v126 main_v128 main_arg2 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v129 main_v130 (broadcastInDim S800000x1 ![0] bcast_S800000_S800000x1_0 : (⟨S800000, .i32⟩ : BufTy).Contents (Elt F) → (⟨S800000x1, .i32⟩ : BufTy).Contents (Elt F)),
    StableHlo.binary main_v117 main_v130 main_v131 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v124 main_v131 main_v132 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.nullary main_c_21 (constantI S_ 32 0#32),
    StableHlo.unary main_c_21 main_v133 (broadcastInDim S800000 ![] bcast_S_S800000 : (⟨S_, .i32⟩ : BufTy).Contents (Elt F) → (⟨S800000, .i32⟩ : BufTy).Contents (Elt F)),
    StableHlo.binary main_arg1 main_v133 main_v134 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v135 (broadcastInDim S800000 ![] bcast_S_S800000 : (⟨S_, .i32⟩ : BufTy).Contents (Elt F) → (⟨S800000, .i32⟩ : BufTy).Contents (Elt F)),
    StableHlo.binary main_arg1 main_v135 main_v136 (addi : (⟨S800000, .i32⟩ : BufTy).Contents (Elt F) → (⟨S800000, .i32⟩ : BufTy).Contents (Elt F) → (⟨S800000, .i32⟩ : BufTy).Contents (Elt F)),
    StableHlo.ternary main_v134 main_v136 main_arg1 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v137 main_v138 (broadcastInDim S800000x1 ![0] bcast_S800000_S800000x1_0 : (⟨S800000, .i32⟩ : BufTy).Contents (Elt F) → (⟨S800000x1, .i32⟩ : BufTy).Contents (Elt F)),
    StableHlo.binary main_v117 main_v138 main_v139 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_23 (constant S_ .f32 0x00000000#32),
    StableHlo.unary main_cst_23 main_v140 (broadcastInDim S50000x64 ![] bcast_S_S50000x64 : (⟨S_, .f32⟩ : BufTy).Contents (Elt F) → (⟨S50000x64, .f32⟩ : BufTy).Contents (Elt F)),
    StableHlo.unary main_arg2 main_v141 (broadcastInDim S800000x1 ![0] bcast_S800000_S800000x1_0 : (⟨S800000, .i32⟩ : BufTy).Contents (Elt F) → (⟨S800000x1, .i32⟩ : BufTy).Contents (Elt F)),
    StableHlo.ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v117 main_v142 main_v143 (addf : (⟨S50000x64, .f32⟩ : BufTy).Contents (Elt F) → (⟨S50000x64, .f32⟩ : BufTy).Contents (Elt F) → (⟨S50000x64, .f32⟩ : BufTy).Contents (Elt F)),
    StableHlo.unary main_arg5 main_v144 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v144 main_v145 rfl shapeCasts_S1x64x64_S64x64,
    StableHlo.binary main_v143 main_v145 main_v146 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v147 ((extractStridedSlice S1x64 ![1, 0] · slices_S3x64_S1x64_1_0) : (⟨S3x64, .f32⟩ : BufTy).Contents (Elt F) → (⟨S1x64, .f32⟩ : BufTy).Contents (Elt F)),
    StableHlo.reshape main_v147 main_v148 rfl shapeCasts_S1x64_S64,
    StableHlo.unary main_v148 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),
    StableHlo.binary main_v146 main_v150 main_v151 (addf : (⟨S50000x64, .f32⟩ : BufTy).Contents (Elt F) → (⟨S50000x64, .f32⟩ : BufTy).Contents (Elt F) → (⟨S50000x64, .f32⟩ : BufTy).Contents (Elt F)),
    StableHlo.unary main_arg7 main_v152 ((extractStridedSlice S1x64 ![1, 0] · slices_S3x64_S1x64_1_0) : (⟨S3x64, .f32⟩ : BufTy).Contents (Elt F) → (⟨S1x64, .f32⟩ : BufTy).Contents (Elt F)),
    StableHlo.reshape main_v152 main_v153 rfl shapeCasts_S1x64_S64 ]

set_option maxRecDepth 8192 in
set_option maxHeartbeats 1600000 in
/-- The window is that straight line: the functions' definitions unfolded at their calls and the records at their
    fields, both sides are one chain of single-operation steps once sequencing is reassociated. -/
theorem main_part2_eq (c : Dev nD) : main_part2 (F := F) c = seq ops2 := by
  simp only [main_part2, fn_var.body, fn_where.body, fn_relu.body, fn_relu_0.body, seq, bind_assoc, pure_bind]
  rfl

/-- Every buffer an operation of the window touches is a TensorCore reference. -/
theorem ops2_sub : (ops2 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub ..⟩

/-- Every operation of the window determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl⟩

/-- The references the window writes: one per operation, its result. -/
noncomputable def writes2 : List (Ref sig .tc) :=
  [ main_v102, main_v103, main_v104, main_v105, main_v106, main_v107, main_cst_16, main_v108,
    main_v109, main_v110, main_v111, main_v112, main_v113, main_v114, main_v115, main_v116,
    main_call5_cst, main_call5_v0, main_v117, main_c_17, main_v118, main_v119, main_c_18, main_v120,
    main_v121, main_v122, main_v123, main_v124, main_c_19, main_v125, main_v126, main_c_20,
    main_v127, main_v128, main_v129, main_v130, main_v131, main_v132, main_c_21, main_v133,
    main_v134, main_c_22, main_v135, main_v136, main_v137, main_v138, main_v139, main_cst_23,
    main_v140, main_v141, main_v142, main_v143, main_v144, main_v145, main_v146, main_v147,
    main_v148, main_v149, main_v150, main_v151, main_v152, main_v153 ]

/-- Each operation of the window writes its one result buffer, which is in the list. -/
theorem ops2_writes : (ops2 : List (HloOp τ sig (Elt F))).Forall fun op =>
    op.writes ⊆ (writes2.map (Proc.devRef (τ := τ) .tc)).toFinset :=
  ⟨single_sub_of_mem (y := main_v102) (by decide), single_sub_of_mem (y := main_v103) (by decide), single_sub_of_mem (y := main_v104) (by decide),
    single_sub_of_mem (y := main_v105) (by decide), single_sub_of_mem (y := main_v106) (by decide), single_sub_of_mem (y := main_v107) (by decide),
    single_sub_of_mem (y := main_cst_16) (by decide), single_sub_of_mem (y := main_v108) (by decide), single_sub_of_mem (y := main_v109) (by decide),
    single_sub_of_mem (y := main_v110) (by decide), single_sub_of_mem (y := main_v111) (by decide), single_sub_of_mem (y := main_v112) (by decide),
    single_sub_of_mem (y := main_v113) (by decide), single_sub_of_mem (y := main_v114) (by decide), single_sub_of_mem (y := main_v115) (by decide),
    single_sub_of_mem (y := main_v116) (by decide), single_sub_of_mem (y := main_call5_cst) (by decide), single_sub_of_mem (y := main_call5_v0) (by decide),
    single_sub_of_mem (y := main_v117) (by decide), single_sub_of_mem (y := main_c_17) (by decide), single_sub_of_mem (y := main_v118) (by decide),
    single_sub_of_mem (y := main_v119) (by decide), single_sub_of_mem (y := main_c_18) (by decide), single_sub_of_mem (y := main_v120) (by decide),
    single_sub_of_mem (y := main_v121) (by decide), single_sub_of_mem (y := main_v122) (by decide), single_sub_of_mem (y := main_v123) (by decide),
    single_sub_of_mem (y := main_v124) (by decide), single_sub_of_mem (y := main_c_19) (by decide), single_sub_of_mem (y := main_v125) (by decide),
    single_sub_of_mem (y := main_v126) (by decide), single_sub_of_mem (y := main_c_20) (by decide), single_sub_of_mem (y := main_v127) (by decide),
    single_sub_of_mem (y := main_v128) (by decide), single_sub_of_mem (y := main_v129) (by decide), single_sub_of_mem (y := main_v130) (by decide),
    single_sub_of_mem (y := main_v131) (by decide), single_sub_of_mem (y := main_v132) (by decide), single_sub_of_mem (y := main_c_21) (by decide),
    single_sub_of_mem (y := main_v133) (by decide), single_sub_of_mem (y := main_v134) (by decide), single_sub_of_mem (y := main_c_22) (by decide),
    single_sub_of_mem (y := main_v135) (by decide), single_sub_of_mem (y := main_v136) (by decide), single_sub_of_mem (y := main_v137) (by decide),
    single_sub_of_mem (y := main_v138) (by decide), single_sub_of_mem (y := main_v139) (by decide), single_sub_of_mem (y := main_cst_23) (by decide),
    single_sub_of_mem (y := main_v140) (by decide), single_sub_of_mem (y := main_v141) (by decide), single_sub_of_mem (y := main_v142) (by decide),
    single_sub_of_mem (y := main_v143) (by decide), single_sub_of_mem (y := main_v144) (by decide), single_sub_of_mem (y := main_v145) (by decide),
    single_sub_of_mem (y := main_v146) (by decide), single_sub_of_mem (y := main_v147) (by decide), single_sub_of_mem (y := main_v148) (by decide),
    single_sub_of_mem (y := main_v149) (by decide), single_sub_of_mem (y := main_v150) (by decide), single_sub_of_mem (y := main_v151) (by decide),
    single_sub_of_mem (y := main_v152) (by decide), single_sub_of_mem (y := main_v153) (by decide)⟩

end Cert.ReferenceIdeal.RefRun

end
-- ==== Proof.RefOps3.lean ====
import proofs.«107973_j83408264888790_1_alg».proof.Proof.RefBase

/-! Statements 181 … 240 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 104 operations of statements 181 … 240, in order. -/
noncomputable abbrev ops3 : List (HloOp τ sig (Elt F)) :=
  [ StableHlo.unary main_arg8 main_v154 ((extractStridedSlice S1x64 ![1, 0] · slices_S3x64_S1x64_1_0) : (⟨S3x64, .f32⟩ : BufTy).Contents (Elt F) → (⟨S1x64, .f32⟩ : BufTy).Contents (Elt F)),
    StableHlo.reshape main_v154 main_v155 rfl shapeCasts_S1x64_S64,
    StableHlo.nullary main_cst_24 (constant S_ .f32 0x00000000#32),
    StableHlo.binary main_v151 main_cst_24 main_v156 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_25 (constant S_ .f32 0x47435000#32),
    StableHlo.unary main_cst_25 main_v157 (broadcastInDim S64 ![] bcast_S_S64 : (⟨S_, .f32⟩ : BufTy).Contents (Elt F) → (⟨S64, .f32⟩ : BufTy).Contents (Elt F)),
    StableHlo.binary main_v156 main_v157 main_v158 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call6.cst (constant S_ .f32 0x00000000#32),
    StableHlo.TRef.binary (TRef.of main_v151 : TRef sig ⟨S50000x64, .f32⟩) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (TRef.of main_v151 : TRef sig ⟨S50000x64, .f32⟩) main_call6.v4 main_call6.v5 subf,
    StableHlo.TRef.binary main_call6.v5 main_call6.v5 main_call6.v6 mulf,
    StableHlo.TRef.unary (TRef.of main_c_26 : TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v158 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S50000x64 ![0, 1] bcast_S1x64_S50000x64_0_1 : (⟨S1x64, .f32⟩ : BufTy).Contents (Elt F) → (⟨S50000x64, .f32⟩ : BufTy).Contents (Elt F)),
    StableHlo.binary main_v151 main_v161 main_v162 (subf : (⟨S50000x64, .f32⟩ : BufTy).Contents (Elt F) → (⟨S50000x64, .f32⟩ : BufTy).Contents (Elt F) → (⟨S50000x64, .f32⟩ : BufTy).Contents (Elt F)),
    StableHlo.unary main_v153 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S50000x64 ![0, 1] bcast_S1x64_S50000x64_0_1 : (⟨S1x64, .f32⟩ : BufTy).Contents (Elt F) → (⟨S50000x64, .f32⟩ : BufTy).Contents (Elt F)),
    StableHlo.binary main_v164 main_v162 main_v165 (mulf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3727C5AC#32),
    StableHlo.unary main_cst_27 main_v166 (broadcastInDim S64 ![] bcast_S_S64 : (⟨S_, .f32⟩ : BufTy).Contents (Elt F) → (⟨S64, .f32⟩ : BufTy).Contents (Elt F)),
    StableHlo.binary main_v159 main_v166 main_v167 (addf : (⟨S64, .f32⟩ : BufTy).Contents (Elt F) → (⟨S64, .f32⟩ : BufTy).Contents (Elt F) → (⟨S64, .f32⟩ : BufTy).Contents (Elt F)),
    StableHlo.unary main_v167 main_v168 (Host.rsqrt : (⟨S64, .f32⟩ : BufTy).Contents (Elt F) → (⟨S64, .f32⟩ : BufTy).Contents (Elt F)),
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S50000x64 ![0, 1] bcast_S1x64_S50000x64_0_1 : (⟨S1x64, .f32⟩ : BufTy).Contents (Elt F) → (⟨S50000x64, .f32⟩ : BufTy).Contents (Elt F)),
    StableHlo.binary main_v165 main_v170 main_v171 (mulf : (⟨S50000x64, .f32⟩ : BufTy).Contents (Elt F) → (⟨S50000x64, .f32⟩ : BufTy).Contents (Elt F) → (⟨S50000x64, .f32⟩ : BufTy).Contents (Elt F)),
    StableHlo.unary main_v155 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S50000x64 ![0, 1] bcast_S1x64_S50000x64_0_1 : (⟨S1x64, .f32⟩ : BufTy).Contents (Elt F) → (⟨S50000x64, .f32⟩ : BufTy).Contents (Elt F)),
    StableHlo.binary main_v171 main_v173 main_v174 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (TRef.of main_v174 : TRef sig ⟨S50000x64, .f32⟩) main_call7.v0 main_call7.v1 maximumf,
    StableHlo.unary main_arg9 main_v176 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v176 main_v177 rfl shapeCasts_S1x64x64_S64x64,
    StableHlo.binary main_v175 main_v177 main_v178 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v179 ((extractStridedSlice S1x64 ![1, 0] · slices_S3x64_S1x64_1_0) : (⟨S3x64, .f32⟩ : BufTy).Contents (Elt F) → (⟨S1x64, .f32⟩ : BufTy).Contents (Elt F)),
    StableHlo.reshape main_v179 main_v180 rfl shapeCasts_S1x64_S64,
    StableHlo.unary main_v180 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S50000x64 ![0, 1] bcast_S1x64_S50000x64_0_1 : (⟨S1x64, .f32⟩ : BufTy).Contents (Elt F) → (⟨S50000x64, .f32⟩ : BufTy).Contents (Elt F)),
    StableHlo.binary main_v178 main_v182 main_v183 (addf : (⟨S50000x64, .f32⟩ : BufTy).Contents (Elt F) → (⟨S50000x64, .f32⟩ : BufTy).Contents (Elt F) → (⟨S50000x64, .f32⟩ : BufTy).Contents (Elt F)),
    StableHlo.unary main_arg11 main_v184 ((extractStridedSlice S1x64 ![1, 0] · slices_S3x64_S1x64_1_0) : (⟨S3x64, .f32⟩ : BufTy).Contents (Elt F) → (⟨S1x64, .f32⟩ : BufTy).Contents (Elt F)),
    StableHlo.reshape main_v184 main_v185 rfl shapeCasts_S1x64_S64,
    StableHlo.unary main_arg12 main_v186 ((extractStridedSlice S1x64 ![1, 0] · slices_S3x64_S1x64_1_0) : (⟨S3x64, .f32⟩ : BufTy).Contents (Elt F) → (⟨S1x64, .f32⟩ : BufTy).Contents (Elt F)),
    StableHlo.reshape main_v186 main_v187 rfl shapeCasts_S1x64_S64,
    StableHlo.nullary main_cst_28 (constant S_ .f32 0x00000000#32),
    StableHlo.binary main_v183 main_cst_28 main_v188 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_29 (constant S_ .f32 0x47435000#32),
    StableHlo.unary main_cst_29 main_v189 (broadcastInDim S64 ![] bcast_S_S64 : (⟨S_, .f32⟩ : BufTy).Contents (Elt F) → (⟨S64, .f32⟩ : BufTy).Contents (Elt F)),
    StableHlo.binary main_v188 main_v189 main_v190 (Host.divf : (⟨S64, .f32⟩ : BufTy).Contents (Elt F) → (⟨S64, .f32⟩ : BufTy).Contents (Elt F) → (⟨S64, .f32⟩ : BufTy).Contents (Elt F)),
    StableHlo.nullary main_c_30 (constantI S_ 32 0#32),
    StableHlo.TRef.nullary main_call8.cst (constant S_ .f32 0x00000000#32),
    StableHlo.TRef.binary (TRef.of main_v183 : TRef sig ⟨S50000x64, .f32⟩) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (TRef.of main_v183 : TRef sig ⟨S50000x64, .f32⟩) main_call8.v4 main_call8.v5 subf,
    StableHlo.TRef.binary main_call8.v5 main_call8.v5 main_call8.v6 mulf,
    StableHlo.TRef.unary (TRef.of main_c_30 : TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v190 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v193 main_v194 (subf : (⟨S50000x64, .f32⟩ : BufTy).Contents (Elt F) → (⟨S50000x64, .f32⟩ : BufTy).Contents (Elt F) → (⟨S50000x64, .f32⟩ : BufTy).Contents (Elt F)),
    StableHlo.unary main_v185 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S50000x64 ![0, 1] bcast_S1x64_S50000x64_0_1 : (⟨S1x64, .f32⟩ : BufTy).Contents (Elt F) → (⟨S50000x64, .f32⟩ : BufTy).Contents (Elt F)),
    StableHlo.binary main_v196 main_v194 main_v197 (mulf : (⟨S50000x64, .f32⟩ : BufTy).Contents (Elt F) → (⟨S50000x64, .f32⟩ : BufTy).Contents (Elt F) → (⟨S50000x64, .f32⟩ : BufTy).Contents (Elt F)),
    StableHlo.nullary main_cst_31 (constant S_ .f32 0x3727C5AC#32),
    StableHlo.unary main_cst_31 main_v198 (broadcastInDim S64 ![] bcast_S_S64 : (⟨S_, .f32⟩ : BufTy).Contents (Elt F) → (⟨S64, .f32⟩ : BufTy).Contents (Elt F)),
    StableHlo.binary main_v191 main_v198 main_v199 (addf : (⟨S64, .f32⟩ : BufTy).Contents (Elt F) → (⟨S64, .f32⟩ : BufTy).Contents (Elt F) → (⟨S64, .f32⟩ : BufTy).Contents (Elt F)),
    StableHlo.unary main_v199 main_v200 (Host.rsqrt : (⟨S64, .f32⟩ : BufTy).Contents (Elt F) → (⟨S64, .f32⟩ : BufTy).Contents (Elt F)),
    StableHlo.unary main_v200 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S50000x64 ![0, 1] bcast_S1x64_S50000x64_0_1 : (⟨S1x64, .f32⟩ : BufTy).Contents (Elt F) → (⟨S50000x64, .f32⟩ : BufTy).Contents (Elt F)),
    StableHlo.binary main_v197 main_v202 main_v203 (mulf : (⟨S50000x64, .f32⟩ : BufTy).Contents (Elt F) → (⟨S50000x64, .f32⟩ : BufTy).Contents (Elt F) → (⟨S50000x64, .f32⟩ : BufTy).Contents (Elt F)),
    StableHlo.unary main_v187 main_v204 (broadcastInDim S1x64 ![1] bcast_S64_S1x64_1 : (⟨S64, .f32⟩ : BufTy).Contents (Elt F) → (⟨S1x64, .f32⟩ : BufTy).Contents (Elt F)),
    StableHlo.unary main_v204 main_v205 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part3_eq (c : Dev nD) : main_part3 (F := F) c = seq ops3 := by
  simp only [main_part3, fn_var.body, fn_where.body, fn_relu.body, fn_relu_0.body, seq, bind_assoc, pure_bind]
  rfl

/-- Every buffer an operation of the window touches is a TensorCore reference. -/
theorem ops3_sub : (ops3 : List (HloOp τ sig (Elt F))).Forall fun op => op.bufs ⊆ tcRefs τ sig :=
  ⟨unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub ..⟩

/-- Every operation of the window determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- The references the window writes: one per operation, its result. -/
noncomputable def writes3 : List (Ref sig .tc) :=
  [ main_v154, main_v155, main_cst_24, main_v156, main_cst_25, main_v157, main_v158, main_c_26,
    main_call6_cst, main_call6_v0, main_call6_v1, main_call6_cst_0, main_call6_v2, main_call6_v3, main_call6_v4, main_call6_v5,
    main_call6_v6, main_call6_v7, main_call6_cst_1, main_call6_v8, main_call6_cst_2, main_call6_v9, main_call6_v10, main_call6_v11,
    main_call6_cst_3, main_call6_v12, main_call6_cst_4, main_call6_call0_v0, main_call6_call0_v1, main_v159, main_v160, main_v161,
    main_v162, main_v163, main_v164, main_v165, main_cst_27, main_v166, main_v167, main_v168,
    main_v169, main_v170, main_v171, main_v172, main_v173, main_v174, main_call7_cst, main_call7_v0,
    main_v175, main_v176, main_v177, main_v178, main_v179, main_v180, main_v181, main_v182,
    main_v183, main_v184, main_v185, main_v186, main_v187, main_cst_28, main_v188, main_cst_29,
    main_v189, main_v190, main_c_30, main_call8_cst, main_call8_v0, main_call8_v1, main_call8_cst_0, main_call8_v2,
    main_call8_v3, main_call8_v4, main_call8_v5, main_call8_v6, main_call8_v7, main_call8_cst_1, main_call8_v8, main_call8_cst_2,
    main_call8_v9, main_call8_v10, main_call8_v11, main_call8_cst_3, main_call8_v12, main_call8_cst_4, main_call8_call0_v0, main_call8_call0_v1,
    main_v191, main_v192, main_v193, main_v194, main_v195, main_v196, main_v197, main_cst_31,
    main_v198, main_v199, main_v200, main_v201, main_v202, main_v203, main_v204, main_v205 ]

/-- Each operation of the window writes its one result buffer, which is in the list. -/
theorem ops3_writes : (ops3 : List (HloOp τ sig (Elt F))).Forall fun op =>
    op.writes ⊆ (writes3.map (Proc.devRef (τ := τ) .tc)).toFinset :=
  ⟨single_sub_of_mem (y := main_v154) (by decide), single_sub_of_mem (y := main_v155) (by decide), single_sub_of_mem (y := main_cst_24) (by decide),
    single_sub_of_mem (y := main_v156) (by decide), single_sub_of_mem (y := main_cst_25) (by decide), single_sub_of_mem (y := main_v157) (by decide),
    single_sub_of_mem (y := main_v158) (by decide), single_sub_of_mem (y := main_c_26) (by decide), single_sub_of_mem (y := main_call6_cst) (by decide),
    single_sub_of_mem (y := main_call6_v0) (by decide), single_sub_of_mem (y := main_call6_v1) (by decide), single_sub_of_mem (y := main_call6_cst_0) (by decide),
    single_sub_of_mem (y := main_call6_v2) (by decide), single_sub_of_mem (y := main_call6_v3) (by decide), single_sub_of_mem (y := main_call6_v4) (by decide),
    single_sub_of_mem (y := main_call6_v5) (by decide), single_sub_of_mem (y := main_call6_v6) (by decide), single_sub_of_mem (y := main_call6_v7) (by decide),
    single_sub_of_mem (y := main_call6_cst_1) (by decide), single_sub_of_mem (y := main_call6_v8) (by decide), single_sub_of_mem (y := main_call6_cst_2) (by decide),
    single_sub_of_mem (y := main_call6_v9) (by decide), single_sub_of_mem (y := main_call6_v10) (by decide), single_sub_of_mem (y := main_call6_v11) (by decide),
    single_sub_of_mem (y := main_call6_cst_3) (by decide), single_sub_of_mem (y := main_call6_v12) (by decide), single_sub_of_mem (y := main_call6_cst_4) (by decide),
    single_sub_of_mem (y := main_call6_call0_v0) (by decide), single_sub_of_mem (y := main_call6_call0_v1) (by decide), single_sub_of_mem (y := main_v159) (by decide),
    single_sub_of_mem (y := main_v160) (by decide), single_sub_of_mem (y := main_v161) (by decide), single_sub_of_mem (y := main_v162) (by decide),
    single_sub_of_mem (y := main_v163) (by decide), single_sub_of_mem (y := main_v164) (by decide), single_sub_of_mem (y := main_v165) (by decide),
    single_sub_of_mem (y := main_cst_27) (by decide), single_sub_of_mem (y := main_v166) (by decide), single_sub_of_mem (y := main_v167) (by decide),
    single_sub_of_mem (y := main_v168) (by decide), single_sub_of_mem (y := main_v169) (by decide), single_sub_of_mem (y := main_v170) (by decide),
    single_sub_of_mem (y := main_v171) (by decide), single_sub_of_mem (y := main_v172) (by decide), single_sub_of_mem (y := main_v173) (by decide),
    single_sub_of_mem (y := main_v174) (by decide), single_sub_of_mem (y := main_call7_cst) (by decide), single_sub_of_mem (y := main_call7_v0) (by decide),
    single_sub_of_mem (y := main_v175) (by decide), single_sub_of_mem (y := main_v176) (by decide), single_sub_of_mem (y := main_v177) (by decide),
    single_sub_of_mem (y := main_v178) (by decide), single_sub_of_mem (y := main_v179) (by decide), single_sub_of_mem (y := main_v180) (by decide),
    single_sub_of_mem (y := main_v181) (by decide), single_sub_of_mem (y := main_v182) (by decide), single_sub_of_mem (y := main_v183) (by decide),
    single_sub_of_mem (y := main_v184) (by decide), single_sub_of_mem (y := main_v185) (by decide), single_sub_of_mem (y := main_v186) (by decide),
    single_sub_of_mem (y := main_v187) (by decide), single_sub_of_mem (y := main_cst_28) (by decide), single_sub_of_mem (y := main_v188) (by decide),
    single_sub_of_mem (y := main_cst_29) (by decide), single_sub_of_mem (y := main_v189) (by decide), single_sub_of_mem (y := main_v190) (by decide),
    single_sub_of_mem (y := main_c_30) (by decide), single_sub_of_mem (y := main_call8_cst) (by decide), single_sub_of_mem (y := main_call8_v0) (by decide),
    single_sub_of_mem (y := main_call8_v1) (by decide), single_sub_of_mem (y := main_call8_cst_0) (by decide), single_sub_of_mem (y := main_call8_v2) (by decide),
    single_sub_of_mem (y := main_call8_v3) (by decide), single_sub_of_mem (y := main_call8_v4) (by decide), single_sub_of_mem (y := main_call8_v5) (by decide),
    single_sub_of_mem (y := main_call8_v6) (by decide), single_sub_of_mem (y := main_call8_v7) (by decide), single_sub_of_mem (y := main_call8_cst_1) (by decide),
    single_sub_of_mem (y := main_call8_v8) (by decide), single_sub_of_mem (y := main_call8_cst_2) (by decide), single_sub_of_mem (y := main_call8_v9) (by decide),
    single_sub_of_mem (y := main_call8_v10) (by decide), single_sub_of_mem (y := main_call8_v11) (by decide), single_sub_of_mem (y := main_call8_cst_3) (by decide),
    single_sub_of_mem (y := main_call8_v12) (by decide), single_sub_of_mem (y := main_call8_cst_4) (by decide), single_sub_of_mem (y := main_call8_call0_v0) (by decide),
    single_sub_of_mem (y := main_call8_call0_v1) (by decide), single_sub_of_mem (y := main_v191) (by decide), single_sub_of_mem (y := main_v192) (by decide),
    single_sub_of_mem (y := main_v193) (by decide), single_sub_of_mem (y := main_v194) (by decide), single_sub_of_mem (y := main_v195) (by decide),
    single_sub_of_mem (y := main_v196) (by decide), single_sub_of_mem (y := main_v197) (by decide), single_sub_of_mem (y := main_cst_31) (by decide),
    single_sub_of_mem (y := main_v198) (by decide), single_sub_of_mem (y := main_v199) (by decide), single_sub_of_mem (y := main_v200) (by decide),
    single_sub_of_mem (y := main_v201) (by decide), single_sub_of_mem (y := main_v202) (by decide), single_sub_of_mem (y := main_v203) (by decide),
    single_sub_of_mem (y := main_v204) (by decide), single_sub_of_mem (y := main_v205) (by decide)⟩

end Cert.ReferenceIdeal.RefRun

end
-- ==== Proof.RefOps4.lean ====
import proofs.«107973_j83408264888790_1_alg».proof.Proof.RefBase

/-! Statements 241 … 300 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 85 operations of statements 241 … 300, in order. -/
noncomputable abbrev ops4 : List (HloOp τ sig (Elt F)) :=
  [ StableHlo.binary main_v203 main_v205 main_v206 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (TRef.of main_v206 : TRef sig ⟨S50000x64, .f32⟩) main_call9.v0 main_call9.v1 maximumf,
    StableHlo.unary main_arg13 main_v208 ((extractStridedSlice S1x64 ![1, 0] · slices_S3x64_S1x64_1_0) : (⟨S3x64, .f32⟩ : BufTy).Contents (Elt F) → (⟨S1x64, .f32⟩ : BufTy).Contents (Elt F)),
    StableHlo.reshape main_v208 main_v209 rfl shapeCasts_S1x64_S64,
    StableHlo.unary main_arg14 main_v210 ((extractStridedSlice S1x64 ![1, 0] · slices_S3x64_S1x64_1_0) : (⟨S3x64, .f32⟩ : BufTy).Contents (Elt F) → (⟨S1x64, .f32⟩ : BufTy).Contents (Elt F)),
    StableHlo.reshape main_v210 main_v211 rfl shapeCasts_S1x64_S64,
    StableHlo.nullary main_cst_32 (constant S_ .f32 0x00000000#32),
    StableHlo.binary main_v207 main_cst_32 main_v212 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_33 (constant S_ .f32 0x47435000#32),
    StableHlo.unary main_cst_33 main_v213 (broadcastInDim S64 ![] bcast_S_S64 : (⟨S_, .f32⟩ : BufTy).Contents (Elt F) → (⟨S64, .f32⟩ : BufTy).Contents (Elt F)),
    StableHlo.binary main_v212 main_v213 main_v214 (Host.divf : (⟨S64, .f32⟩ : BufTy).Contents (Elt F) → (⟨S64, .f32⟩ : BufTy).Contents (Elt F) → (⟨S64, .f32⟩ : BufTy).Contents (Elt F)),
    StableHlo.nullary main_c_34 (constantI S_ 32 0#32),
    StableHlo.TRef.nullary main_call10.cst (constant S_ .f32 0x00000000#32),
    StableHlo.TRef.binary (TRef.of main_v207 : TRef sig ⟨S50000x64, .f32⟩) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (TRef.of main_v207 : TRef sig ⟨S50000x64, .f32⟩) main_call10.v4 main_call10.v5 subf,
    StableHlo.TRef.binary main_call10.v5 main_call10.v5 main_call10.v6 mulf,
    StableHlo.TRef.unary (TRef.of main_c_34 : TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v214 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S50000x64 ![0, 1] bcast_S1x64_S50000x64_0_1 : (⟨S1x64, .f32⟩ : BufTy).Contents (Elt F) → (⟨S50000x64, .f32⟩ : BufTy).Contents (Elt F)),
    StableHlo.binary main_v207 main_v217 main_v218 (subf : (⟨S50000x64, .f32⟩ : BufTy).Contents (Elt F) → (⟨S50000x64, .f32⟩ : BufTy).Contents (Elt F) → (⟨S50000x64, .f32⟩ : BufTy).Contents (Elt F)),
    StableHlo.unary main_v209 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v218 main_v221 (mulf : (⟨S50000x64, .f32⟩ : BufTy).Contents (Elt F) → (⟨S50000x64, .f32⟩ : BufTy).Contents (Elt F) → (⟨S50000x64, .f32⟩ : BufTy).Contents (Elt F)),
    StableHlo.nullary main_cst_35 (constant S_ .f32 0x3727C5AC#32),
    StableHlo.unary main_cst_35 main_v222 (broadcastInDim S64 ![] bcast_S_S64 : (⟨S_, .f32⟩ : BufTy).Contents (Elt F) → (⟨S64, .f32⟩ : BufTy).Contents (Elt F)),
    StableHlo.binary main_v215 main_v222 main_v223 (addf : (⟨S64, .f32⟩ : BufTy).Contents (Elt F) → (⟨S64, .f32⟩ : BufTy).Contents (Elt F) → (⟨S64, .f32⟩ : BufTy).Contents (Elt F)),
    StableHlo.unary main_v223 main_v224 (Host.rsqrt : (⟨S64, .f32⟩ : BufTy).Contents (Elt F) → (⟨S64, .f32⟩ : BufTy).Contents (Elt F)),
    StableHlo.unary main_v224 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S50000x64 ![0, 1] bcast_S1x64_S50000x64_0_1 : (⟨S1x64, .f32⟩ : BufTy).Contents (Elt F) → (⟨S50000x64, .f32⟩ : BufTy).Contents (Elt F)),
    StableHlo.binary main_v221 main_v226 main_v227 (mulf : (⟨S50000x64, .f32⟩ : BufTy).Contents (Elt F) → (⟨S50000x64, .f32⟩ : BufTy).Contents (Elt F) → (⟨S50000x64, .f32⟩ : BufTy).Contents (Elt F)),
    StableHlo.unary main_v211 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S50000x64 ![0, 1] bcast_S1x64_S50000x64_0_1 : (⟨S1x64, .f32⟩ : BufTy).Contents (Elt F) → (⟨S50000x64, .f32⟩ : BufTy).Contents (Elt F)),
    StableHlo.binary main_v227 main_v229 main_v230 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (TRef.of main_v230 : TRef sig ⟨S50000x64, .f32⟩) main_call11.v0 main_call11.v1 maximumf,
    StableHlo.nullary main_c_36 (constantI S_ 32 0#32),
    StableHlo.unary main_c_36 main_v232 (broadcastInDim S800000 ![] bcast_S_S800000 : (⟨S_, .i32⟩ : BufTy).Contents (Elt F) → (⟨S800000, .i32⟩ : BufTy).Contents (Elt F)),
    StableHlo.binary main_arg1 main_v232 main_v233 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v234 (broadcastInDim S800000 ![] bcast_S_S800000 : (⟨S_, .i32⟩ : BufTy).Contents (Elt F) → (⟨S800000, .i32⟩ : BufTy).Contents (Elt F)),
    StableHlo.binary main_arg1 main_v234 main_v235 (addi : (⟨S800000, .i32⟩ : BufTy).Contents (Elt F) → (⟨S800000, .i32⟩ : BufTy).Contents (Elt F) → (⟨S800000, .i32⟩ : BufTy).Contents (Elt F)),
    StableHlo.ternary main_v233 main_v235 main_arg1 main_v236 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v236 main_v237 (broadcastInDim S800000x1 ![0] bcast_S800000_S800000x1_0 : (⟨S800000, .i32⟩ : BufTy).Contents (Elt F) → (⟨S800000x1, .i32⟩ : BufTy).Contents (Elt F)),
    StableHlo.binary main_v231 main_v237 main_v238 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_38 (constantI S_ 32 0#32),
    StableHlo.unary main_c_38 main_v239 (broadcastInDim S800000 ![] bcast_S_S800000 : (⟨S_, .i32⟩ : BufTy).Contents (Elt F) → (⟨S800000, .i32⟩ : BufTy).Contents (Elt F)),
    StableHlo.binary main_arg2 main_v239 main_v240 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v241 (broadcastInDim S800000 ![] bcast_S_S800000 : (⟨S_, .i32⟩ : BufTy).Contents (Elt F) → (⟨S800000, .i32⟩ : BufTy).Contents (Elt F)),
    StableHlo.binary main_arg2 main_v241 main_v242 (addi : (⟨S800000, .i32⟩ : BufTy).Contents (Elt F) → (⟨S800000, .i32⟩ : BufTy).Contents (Elt F) → (⟨S800000, .i32⟩ : BufTy).Contents (Elt F)),
    StableHlo.ternary main_v240 main_v242 main_arg2 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v243 main_v244 (broadcastInDim S800000x1 ![0] bcast_S800000_S800000x1_0 : (⟨S800000, .i32⟩ : BufTy).Contents (Elt F) → (⟨S800000x1, .i32⟩ : BufTy).Contents (Elt F)),
    StableHlo.binary main_v231 main_v244 main_v245 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v238 main_v245 main_v246 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.nullary main_c_40 (constantI S_ 32 0#32),
    StableHlo.unary main_c_40 main_v247 (broadcastInDim S800000 ![] bcast_S_S800000 : (⟨S_, .i32⟩ : BufTy).Contents (Elt F) → (⟨S800000, .i32⟩ : BufTy).Contents (Elt F)),
    StableHlo.binary main_arg1 main_v247 main_v248 (cmpi .slt : (⟨S800000, .i32⟩ : BufTy).Contents (Elt F) → (⟨S800000, .i32⟩ : BufTy).Contents (Elt F) → (⟨S800000, .i1⟩ : BufTy).Contents (Elt F)),
    StableHlo.nullary main_c_41 (constantI S_ 32 50000#32),
    StableHlo.unary main_c_41 main_v249 (broadcastInDim S800000 ![] bcast_S_S800000 : (⟨S_, .i32⟩ : BufTy).Contents (Elt F) → (⟨S800000, .i32⟩ : BufTy).Contents (Elt F)),
    StableHlo.binary main_arg1 main_v249 main_v250 (addi : (⟨S800000, .i32⟩ : BufTy).Contents (Elt F) → (⟨S800000, .i32⟩ : BufTy).Contents (Elt F) → (⟨S800000, .i32⟩ : BufTy).Contents (Elt F)),
    StableHlo.ternary main_v248 main_v250 main_arg1 main_v251 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v251 main_v252 (broadcastInDim S800000x1 ![0] bcast_S800000_S800000x1_0 : (⟨S800000, .i32⟩ : BufTy).Contents (Elt F) → (⟨S800000x1, .i32⟩ : BufTy).Contents (Elt F)),
    StableHlo.binary main_v231 main_v252 main_v253 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_42 (constant S_ .f32 0x00000000#32),
    StableHlo.unary main_cst_42 main_v254 (broadcastInDim S50000x64 ![] bcast_S_S50000x64 : (⟨S_, .f32⟩ : BufTy).Contents (Elt F) → (⟨S50000x64, .f32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part4_eq (c : Dev nD) : main_part4 (F := F) c = seq ops4 := by
  simp only [main_part4, fn_var.body, fn_where.body, fn_relu.body, fn_relu_0.body, seq, bind_assoc, pure_bind]
  rfl

/-- Every buffer an operation of the window touches is a TensorCore reference. -/
theorem ops4_sub : (ops4 : List (HloOp τ sig (Elt F))).Forall fun op => op.bufs ⊆ tcRefs τ sig :=
  ⟨binary_bufs_sub .., nullary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub ..⟩

/-- Every operation of the window determines its result. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

/-- The references the window writes: one per operation, its result. -/
noncomputable def writes4 : List (Ref sig .tc) :=
  [ main_v206, main_call9_cst, main_call9_v0, main_v207, main_v208, main_v209, main_v210, main_v211,
    main_cst_32, main_v212, main_cst_33, main_v213, main_v214, main_c_34, main_call10_cst, main_call10_v0,
    main_call10_v1, main_call10_cst_0, main_call10_v2, main_call10_v3, main_call10_v4, main_call10_v5, main_call10_v6, main_call10_v7,
    main_call10_cst_1, main_call10_v8, main_call10_cst_2, main_call10_v9, main_call10_v10, main_call10_v11, main_call10_cst_3, main_call10_v12,
    main_call10_cst_4, main_call10_call0_v0, main_call10_call0_v1, main_v215, main_v216, main_v217, main_v218, main_v219,
    main_v220, main_v221, main_cst_35, main_v222, main_v223, main_v224, main_v225, main_v226,
    main_v227, main_v228, main_v229, main_v230, main_call11_cst, main_call11_v0, main_v231, main_c_36,
    main_v232, main_v233, main_c_37, main_v234, main_v235, main_v236, main_v237, main_v238,
    main_c_38, main_v239, main_v240, main_c_39, main_v241, main_v242, main_v243, main_v244,
    main_v245, main_v246, main_c_40, main_v247, main_v248, main_c_41, main_v249, main_v250,
    main_v251, main_v252, main_v253, main_cst_42, main_v254 ]

/-- Each operation of the window writes its one result buffer, which is in the list. -/
theorem ops4_writes : (ops4 : List (HloOp τ sig (Elt F))).Forall fun op =>
    op.writes ⊆ (writes4.map (Proc.devRef (τ := τ) .tc)).toFinset :=
  ⟨single_sub_of_mem (y := main_v206) (by decide), single_sub_of_mem (y := main_call9_cst) (by decide), single_sub_of_mem (y := main_call9_v0) (by decide),
    single_sub_of_mem (y := main_v207) (by decide), single_sub_of_mem (y := main_v208) (by decide), single_sub_of_mem (y := main_v209) (by decide),
    single_sub_of_mem (y := main_v210) (by decide), single_sub_of_mem (y := main_v211) (by decide), single_sub_of_mem (y := main_cst_32) (by decide),
    single_sub_of_mem (y := main_v212) (by decide), single_sub_of_mem (y := main_cst_33) (by decide), single_sub_of_mem (y := main_v213) (by decide),
    single_sub_of_mem (y := main_v214) (by decide), single_sub_of_mem (y := main_c_34) (by decide), single_sub_of_mem (y := main_call10_cst) (by decide),
    single_sub_of_mem (y := main_call10_v0) (by decide), single_sub_of_mem (y := main_call10_v1) (by decide), single_sub_of_mem (y := main_call10_cst_0) (by decide),
    single_sub_of_mem (y := main_call10_v2) (by decide), single_sub_of_mem (y := main_call10_v3) (by decide), single_sub_of_mem (y := main_call10_v4) (by decide),
    single_sub_of_mem (y := main_call10_v5) (by decide), single_sub_of_mem (y := main_call10_v6) (by decide), single_sub_of_mem (y := main_call10_v7) (by decide),
    single_sub_of_mem (y := main_call10_cst_1) (by decide), single_sub_of_mem (y := main_call10_v8) (by decide), single_sub_of_mem (y := main_call10_cst_2) (by decide),
    single_sub_of_mem (y := main_call10_v9) (by decide), single_sub_of_mem (y := main_call10_v10) (by decide), single_sub_of_mem (y := main_call10_v11) (by decide),
    single_sub_of_mem (y := main_call10_cst_3) (by decide), single_sub_of_mem (y := main_call10_v12) (by decide), single_sub_of_mem (y := main_call10_cst_4) (by decide),
    single_sub_of_mem (y := main_call10_call0_v0) (by decide), single_sub_of_mem (y := main_call10_call0_v1) (by decide), single_sub_of_mem (y := main_v215) (by decide),
    single_sub_of_mem (y := main_v216) (by decide), single_sub_of_mem (y := main_v217) (by decide), single_sub_of_mem (y := main_v218) (by decide),
    single_sub_of_mem (y := main_v219) (by decide), single_sub_of_mem (y := main_v220) (by decide), single_sub_of_mem (y := main_v221) (by decide),
    single_sub_of_mem (y := main_cst_35) (by decide), single_sub_of_mem (y := main_v222) (by decide), single_sub_of_mem (y := main_v223) (by decide),
    single_sub_of_mem (y := main_v224) (by decide), single_sub_of_mem (y := main_v225) (by decide), single_sub_of_mem (y := main_v226) (by decide),
    single_sub_of_mem (y := main_v227) (by decide), single_sub_of_mem (y := main_v228) (by decide), single_sub_of_mem (y := main_v229) (by decide),
    single_sub_of_mem (y := main_v230) (by decide), single_sub_of_mem (y := main_call11_cst) (by decide), single_sub_of_mem (y := main_call11_v0) (by decide),
    single_sub_of_mem (y := main_v231) (by decide), single_sub_of_mem (y := main_c_36) (by decide), single_sub_of_mem (y := main_v232) (by decide),
    single_sub_of_mem (y := main_v233) (by decide), single_sub_of_mem (y := main_c_37) (by decide), single_sub_of_mem (y := main_v234) (by decide),
    single_sub_of_mem (y := main_v235) (by decide), single_sub_of_mem (y := main_v236) (by decide), single_sub_of_mem (y := main_v237) (by decide),
    single_sub_of_mem (y := main_v238) (by decide), single_sub_of_mem (y := main_c_38) (by decide), single_sub_of_mem (y := main_v239) (by decide),
    single_sub_of_mem (y := main_v240) (by decide), single_sub_of_mem (y := main_c_39) (by decide), single_sub_of_mem (y := main_v241) (by decide),
    single_sub_of_mem (y := main_v242) (by decide), single_sub_of_mem (y := main_v243) (by decide), single_sub_of_mem (y := main_v244) (by decide),
    single_sub_of_mem (y := main_v245) (by decide), single_sub_of_mem (y := main_v246) (by decide), single_sub_of_mem (y := main_c_40) (by decide),
    single_sub_of_mem (y := main_v247) (by decide), single_sub_of_mem (y := main_v248) (by decide), single_sub_of_mem (y := main_c_41) (by decide),
    single_sub_of_mem (y := main_v249) (by decide), single_sub_of_mem (y := main_v250) (by decide), single_sub_of_mem (y := main_v251) (by decide),
    single_sub_of_mem (y := main_v252) (by decide), single_sub_of_mem (y := main_v253) (by decide), single_sub_of_mem (y := main_cst_42) (by decide),
    single_sub_of_mem (y := main_v254) (by decide)⟩

end Cert.ReferenceIdeal.RefRun

end
-- ==== Proof.RefOps5.lean ====
import proofs.«107973_j83408264888790_1_alg».proof.Proof.RefBase

/-! Statements 301 … 360 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 104 operations of statements 301 … 360, in order. -/
noncomputable abbrev ops5 : List (HloOp τ sig (Elt F)) :=
  [ StableHlo.unary main_arg2 main_v255 (broadcastInDim S800000x1 ![0] bcast_S800000_S800000x1_0 : (⟨S800000, .i32⟩ : BufTy).Contents (Elt F) → (⟨S800000x1, .i32⟩ : BufTy).Contents (Elt F)),
    StableHlo.ternary main_v254 main_v255 main_v253 main_v256 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v231 main_v256 main_v257 (addf : (⟨S50000x64, .f32⟩ : BufTy).Contents (Elt F) → (⟨S50000x64, .f32⟩ : BufTy).Contents (Elt F) → (⟨S50000x64, .f32⟩ : BufTy).Contents (Elt F)),
    StableHlo.unary main_arg5 main_v258 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v258 main_v259 rfl shapeCasts_S1x64x64_S64x64,
    StableHlo.binary main_v257 main_v259 main_v260 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v261 ((extractStridedSlice S1x64 ![2, 0] · slices_S3x64_S1x64_2_0) : (⟨S3x64, .f32⟩ : BufTy).Contents (Elt F) → (⟨S1x64, .f32⟩ : BufTy).Contents (Elt F)),
    StableHlo.reshape main_v261 main_v262 rfl shapeCasts_S1x64_S64,
    StableHlo.unary main_v262 main_v263 (broadcastInDim S1x64 ![1] bcast_S64_S1x64_1 : (⟨S64, .f32⟩ : BufTy).Contents (Elt F) → (⟨S1x64, .f32⟩ : BufTy).Contents (Elt F)),
    StableHlo.unary main_v263 main_v264 (broadcastInDim S50000x64 ![0, 1] bcast_S1x64_S50000x64_0_1 : (⟨S1x64, .f32⟩ : BufTy).Contents (Elt F) → (⟨S50000x64, .f32⟩ : BufTy).Contents (Elt F)),
    StableHlo.binary main_v260 main_v264 main_v265 (addf : (⟨S50000x64, .f32⟩ : BufTy).Contents (Elt F) → (⟨S50000x64, .f32⟩ : BufTy).Contents (Elt F) → (⟨S50000x64, .f32⟩ : BufTy).Contents (Elt F)),
    StableHlo.unary main_arg7 main_v266 ((extractStridedSlice S1x64 ![2, 0] · slices_S3x64_S1x64_2_0) : (⟨S3x64, .f32⟩ : BufTy).Contents (Elt F) → (⟨S1x64, .f32⟩ : BufTy).Contents (Elt F)),
    StableHlo.reshape main_v266 main_v267 rfl shapeCasts_S1x64_S64,
    StableHlo.unary main_arg8 main_v268 ((extractStridedSlice S1x64 ![2, 0] · slices_S3x64_S1x64_2_0) : (⟨S3x64, .f32⟩ : BufTy).Contents (Elt F) → (⟨S1x64, .f32⟩ : BufTy).Contents (Elt F)),
    StableHlo.reshape main_v268 main_v269 rfl shapeCasts_S1x64_S64,
    StableHlo.nullary main_cst_43 (constant S_ .f32 0x00000000#32),
    StableHlo.binary main_v265 main_cst_43 main_v270 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_44 (constant S_ .f32 0x47435000#32),
    StableHlo.unary main_cst_44 main_v271 (broadcastInDim S64 ![] bcast_S_S64 : (⟨S_, .f32⟩ : BufTy).Contents (Elt F) → (⟨S64, .f32⟩ : BufTy).Contents (Elt F)),
    StableHlo.binary main_v270 main_v271 main_v272 (Host.divf : (⟨S64, .f32⟩ : BufTy).Contents (Elt F) → (⟨S64, .f32⟩ : BufTy).Contents (Elt F) → (⟨S64, .f32⟩ : BufTy).Contents (Elt F)),
    StableHlo.nullary main_c_45 (constantI S_ 32 0#32),
    StableHlo.TRef.nullary main_call12.cst (constant S_ .f32 0x00000000#32),
    StableHlo.TRef.binary (TRef.of main_v265 : TRef sig ⟨S50000x64, .f32⟩) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (TRef.of main_v265 : TRef sig ⟨S50000x64, .f32⟩) main_call12.v4 main_call12.v5 subf,
    StableHlo.TRef.binary main_call12.v5 main_call12.v5 main_call12.v6 mulf,
    StableHlo.TRef.unary (TRef.of main_c_45 : TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v272 main_v274 (broadcastInDim S1x64 ![1] bcast_S64_S1x64_1 : (⟨S64, .f32⟩ : BufTy).Contents (Elt F) → (⟨S1x64, .f32⟩ : BufTy).Contents (Elt F)),
    StableHlo.unary main_v274 main_v275 (broadcastInDim S50000x64 ![0, 1] bcast_S1x64_S50000x64_0_1 : (⟨S1x64, .f32⟩ : BufTy).Contents (Elt F) → (⟨S50000x64, .f32⟩ : BufTy).Contents (Elt F)),
    StableHlo.binary main_v265 main_v275 main_v276 (subf : (⟨S50000x64, .f32⟩ : BufTy).Contents (Elt F) → (⟨S50000x64, .f32⟩ : BufTy).Contents (Elt F) → (⟨S50000x64, .f32⟩ : BufTy).Contents (Elt F)),
    StableHlo.unary main_v267 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S50000x64 ![0, 1] bcast_S1x64_S50000x64_0_1 : (⟨S1x64, .f32⟩ : BufTy).Contents (Elt F) → (⟨S50000x64, .f32⟩ : BufTy).Contents (Elt F)),
    StableHlo.binary main_v278 main_v276 main_v279 (mulf : (⟨S50000x64, .f32⟩ : BufTy).Contents (Elt F) → (⟨S50000x64, .f32⟩ : BufTy).Contents (Elt F) → (⟨S50000x64, .f32⟩ : BufTy).Contents (Elt F)),
    StableHlo.nullary main_cst_46 (constant S_ .f32 0x3727C5AC#32),
    StableHlo.unary main_cst_46 main_v280 (broadcastInDim S64 ![] bcast_S_S64 : (⟨S_, .f32⟩ : BufTy).Contents (Elt F) → (⟨S64, .f32⟩ : BufTy).Contents (Elt F)),
    StableHlo.binary main_v273 main_v280 main_v281 (addf : (⟨S64, .f32⟩ : BufTy).Contents (Elt F) → (⟨S64, .f32⟩ : BufTy).Contents (Elt F) → (⟨S64, .f32⟩ : BufTy).Contents (Elt F)),
    StableHlo.unary main_v281 main_v282 (Host.rsqrt : (⟨S64, .f32⟩ : BufTy).Contents (Elt F) → (⟨S64, .f32⟩ : BufTy).Contents (Elt F)),
    StableHlo.unary main_v282 main_v283 (broadcastInDim S1x64 ![1] bcast_S64_S1x64_1 : (⟨S64, .f32⟩ : BufTy).Contents (Elt F) → (⟨S1x64, .f32⟩ : BufTy).Contents (Elt F)),
    StableHlo.unary main_v283 main_v284 (broadcastInDim S50000x64 ![0, 1] bcast_S1x64_S50000x64_0_1 : (⟨S1x64, .f32⟩ : BufTy).Contents (Elt F) → (⟨S50000x64, .f32⟩ : BufTy).Contents (Elt F)),
    StableHlo.binary main_v279 main_v284 main_v285 (mulf : (⟨S50000x64, .f32⟩ : BufTy).Contents (Elt F) → (⟨S50000x64, .f32⟩ : BufTy).Contents (Elt F) → (⟨S50000x64, .f32⟩ : BufTy).Contents (Elt F)),
    StableHlo.unary main_v269 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S50000x64 ![0, 1] bcast_S1x64_S50000x64_0_1 : (⟨S1x64, .f32⟩ : BufTy).Contents (Elt F) → (⟨S50000x64, .f32⟩ : BufTy).Contents (Elt F)),
    StableHlo.binary main_v285 main_v287 main_v288 (addf : (⟨S50000x64, .f32⟩ : BufTy).Contents (Elt F) → (⟨S50000x64, .f32⟩ : BufTy).Contents (Elt F) → (⟨S50000x64, .f32⟩ : BufTy).Contents (Elt F)),
    StableHlo.TRef.nullary main_call13.cst (constant S_ .f32 0x00000000#32),
    StableHlo.TRef.unary main_call13.cst main_call13.v0 (broadcastInDim S50000x64 ![] bcast_S_S50000x64),
    StableHlo.TRef.binary (TRef.of main_v288 : TRef sig ⟨S50000x64, .f32⟩) main_call13.v0 main_call13.v1 maximumf,
    StableHlo.unary main_arg9 main_v290 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v290 main_v291 rfl shapeCasts_S1x64x64_S64x64,
    StableHlo.binary main_v289 main_v291 main_v292 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v293 ((extractStridedSlice S1x64 ![2, 0] · slices_S3x64_S1x64_2_0) : (⟨S3x64, .f32⟩ : BufTy).Contents (Elt F) → (⟨S1x64, .f32⟩ : BufTy).Contents (Elt F)),
    StableHlo.reshape main_v293 main_v294 rfl shapeCasts_S1x64_S64,
    StableHlo.unary main_v294 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S50000x64 ![0, 1] bcast_S1x64_S50000x64_0_1 : (⟨S1x64, .f32⟩ : BufTy).Contents (Elt F) → (⟨S50000x64, .f32⟩ : BufTy).Contents (Elt F)),
    StableHlo.binary main_v292 main_v296 main_v297 (addf : (⟨S50000x64, .f32⟩ : BufTy).Contents (Elt F) → (⟨S50000x64, .f32⟩ : BufTy).Contents (Elt F) → (⟨S50000x64, .f32⟩ : BufTy).Contents (Elt F)),
    StableHlo.unary main_arg11 main_v298 ((extractStridedSlice S1x64 ![2, 0] · slices_S3x64_S1x64_2_0) : (⟨S3x64, .f32⟩ : BufTy).Contents (Elt F) → (⟨S1x64, .f32⟩ : BufTy).Contents (Elt F)),
    StableHlo.reshape main_v298 main_v299 rfl shapeCasts_S1x64_S64,
    StableHlo.unary main_arg12 main_v300 ((extractStridedSlice S1x64 ![2, 0] · slices_S3x64_S1x64_2_0) : (⟨S3x64, .f32⟩ : BufTy).Contents (Elt F) → (⟨S1x64, .f32⟩ : BufTy).Contents (Elt F)),
    StableHlo.reshape main_v300 main_v301 rfl shapeCasts_S1x64_S64,
    StableHlo.nullary main_cst_47 (constant S_ .f32 0x00000000#32),
    StableHlo.binary main_v297 main_cst_47 main_v302 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_48 (constant S_ .f32 0x47435000#32),
    StableHlo.unary main_cst_48 main_v303 (broadcastInDim S64 ![] bcast_S_S64 : (⟨S_, .f32⟩ : BufTy).Contents (Elt F) → (⟨S64, .f32⟩ : BufTy).Contents (Elt F)),
    StableHlo.binary main_v302 main_v303 main_v304 (Host.divf : (⟨S64, .f32⟩ : BufTy).Contents (Elt F) → (⟨S64, .f32⟩ : BufTy).Contents (Elt F) → (⟨S64, .f32⟩ : BufTy).Contents (Elt F)),
    StableHlo.nullary main_c_49 (constantI S_ 32 0#32),
    StableHlo.TRef.nullary main_call14.cst (constant S_ .f32 0x00000000#32),
    StableHlo.TRef.binary (TRef.of main_v297 : TRef sig ⟨S50000x64, .f32⟩) main_call14.cst main_call14.v0 (fun x v => Host.reduceAdd x v reducesTo_S50000x64_S64_d0 h_S_),
    StableHlo.TRef.unary main_call14.v0 main_call14.v1 (broadcastInDim S1x64 ![1] bcast_S64_S1x64_1),
    StableHlo.TRef.nullary main_call14.cst_0 (constant S_ .f32 0x47435000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S50000x64 ![0, 1] bcast_S1x64_S50000x64_0_1),
    StableHlo.TRef.binary (TRef.of main_v297 : TRef sig ⟨S50000x64, .f32⟩) main_call14.v4 main_call14.v5 subf,
    StableHlo.TRef.binary main_call14.v5 main_call14.v5 main_call14.v6 mulf,
    StableHlo.TRef.unary (TRef.of main_c_49 : TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v304 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part5_eq (c : Dev nD) : main_part5 (F := F) c = seq ops5 := by
  simp only [main_part5, fn_var.body, fn_where.body, fn_relu.body, fn_relu_0.body, seq, bind_assoc, pure_bind]
  rfl

/-- Every buffer an operation of the window touches is a TensorCore reference. -/
theorem ops5_sub : (ops5 : List (HloOp τ sig (Elt F))).Forall fun op => op.bufs ⊆ tcRefs τ sig :=
  ⟨unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub ..⟩

/-- Every operation of the window determines its result. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- The references the window writes: one per operation, its result. -/
noncomputable def writes5 : List (Ref sig .tc) :=
  [ main_v255, main_v256, main_v257, main_v258, main_v259, main_v260, main_v261, main_v262,
    main_v263, main_v264, main_v265, main_v266, main_v267, main_v268, main_v269, main_cst_43,
    main_v270, main_cst_44, main_v271, main_v272, main_c_45, main_call12_cst, main_call12_v0, main_call12_v1,
    main_call12_cst_0, main_call12_v2, main_call12_v3, main_call12_v4, main_call12_v5, main_call12_v6, main_call12_v7, main_call12_cst_1,
    main_call12_v8, main_call12_cst_2, main_call12_v9, main_call12_v10, main_call12_v11, main_call12_cst_3, main_call12_v12, main_call12_cst_4,
    main_call12_call0_v0, main_call12_call0_v1, main_v273, main_v274, main_v275, main_v276, main_v277, main_v278,
    main_v279, main_cst_46, main_v280, main_v281, main_v282, main_v283, main_v284, main_v285,
    main_v286, main_v287, main_v288, main_call13_cst, main_call13_v0, main_v289, main_v290, main_v291,
    main_v292, main_v293, main_v294, main_v295, main_v296, main_v297, main_v298, main_v299,
    main_v300, main_v301, main_cst_47, main_v302, main_cst_48, main_v303, main_v304, main_c_49,
    main_call14_cst, main_call14_v0, main_call14_v1, main_call14_cst_0, main_call14_v2, main_call14_v3, main_call14_v4, main_call14_v5,
    main_call14_v6, main_call14_v7, main_call14_cst_1, main_call14_v8, main_call14_cst_2, main_call14_v9, main_call14_v10, main_call14_v11,
    main_call14_cst_3, main_call14_v12, main_call14_cst_4, main_call14_call0_v0, main_call14_call0_v1, main_v305, main_v306, main_v307 ]

/-- Each operation of the window writes its one result buffer, which is in the list. -/
theorem ops5_writes : (ops5 : List (HloOp τ sig (Elt F))).Forall fun op =>
    op.writes ⊆ (writes5.map (Proc.devRef (τ := τ) .tc)).toFinset :=
  ⟨single_sub_of_mem (y := main_v255) (by decide), single_sub_of_mem (y := main_v256) (by decide), single_sub_of_mem (y := main_v257) (by decide),
    single_sub_of_mem (y := main_v258) (by decide), single_sub_of_mem (y := main_v259) (by decide), single_sub_of_mem (y := main_v260) (by decide),
    single_sub_of_mem (y := main_v261) (by decide), single_sub_of_mem (y := main_v262) (by decide), single_sub_of_mem (y := main_v263) (by decide),
    single_sub_of_mem (y := main_v264) (by decide), single_sub_of_mem (y := main_v265) (by decide), single_sub_of_mem (y := main_v266) (by decide),
    single_sub_of_mem (y := main_v267) (by decide), single_sub_of_mem (y := main_v268) (by decide), single_sub_of_mem (y := main_v269) (by decide),
    single_sub_of_mem (y := main_cst_43) (by decide), single_sub_of_mem (y := main_v270) (by decide), single_sub_of_mem (y := main_cst_44) (by decide),
    single_sub_of_mem (y := main_v271) (by decide), single_sub_of_mem (y := main_v272) (by decide), single_sub_of_mem (y := main_c_45) (by decide),
    single_sub_of_mem (y := main_call12_cst) (by decide), single_sub_of_mem (y := main_call12_v0) (by decide), single_sub_of_mem (y := main_call12_v1) (by decide),
    single_sub_of_mem (y := main_call12_cst_0) (by decide), single_sub_of_mem (y := main_call12_v2) (by decide), single_sub_of_mem (y := main_call12_v3) (by decide),
    single_sub_of_mem (y := main_call12_v4) (by decide), single_sub_of_mem (y := main_call12_v5) (by decide), single_sub_of_mem (y := main_call12_v6) (by decide),
    single_sub_of_mem (y := main_call12_v7) (by decide), single_sub_of_mem (y := main_call12_cst_1) (by decide), single_sub_of_mem (y := main_call12_v8) (by decide),
    single_sub_of_mem (y := main_call12_cst_2) (by decide), single_sub_of_mem (y := main_call12_v9) (by decide), single_sub_of_mem (y := main_call12_v10) (by decide),
    single_sub_of_mem (y := main_call12_v11) (by decide), single_sub_of_mem (y := main_call12_cst_3) (by decide), single_sub_of_mem (y := main_call12_v12) (by decide),
    single_sub_of_mem (y := main_call12_cst_4) (by decide), single_sub_of_mem (y := main_call12_call0_v0) (by decide), single_sub_of_mem (y := main_call12_call0_v1) (by decide),
    single_sub_of_mem (y := main_v273) (by decide), single_sub_of_mem (y := main_v274) (by decide), single_sub_of_mem (y := main_v275) (by decide),
    single_sub_of_mem (y := main_v276) (by decide), single_sub_of_mem (y := main_v277) (by decide), single_sub_of_mem (y := main_v278) (by decide),
    single_sub_of_mem (y := main_v279) (by decide), single_sub_of_mem (y := main_cst_46) (by decide), single_sub_of_mem (y := main_v280) (by decide),
    single_sub_of_mem (y := main_v281) (by decide), single_sub_of_mem (y := main_v282) (by decide), single_sub_of_mem (y := main_v283) (by decide),
    single_sub_of_mem (y := main_v284) (by decide), single_sub_of_mem (y := main_v285) (by decide), single_sub_of_mem (y := main_v286) (by decide),
    single_sub_of_mem (y := main_v287) (by decide), single_sub_of_mem (y := main_v288) (by decide), single_sub_of_mem (y := main_call13_cst) (by decide),
    single_sub_of_mem (y := main_call13_v0) (by decide), single_sub_of_mem (y := main_v289) (by decide), single_sub_of_mem (y := main_v290) (by decide),
    single_sub_of_mem (y := main_v291) (by decide), single_sub_of_mem (y := main_v292) (by decide), single_sub_of_mem (y := main_v293) (by decide),
    single_sub_of_mem (y := main_v294) (by decide), single_sub_of_mem (y := main_v295) (by decide), single_sub_of_mem (y := main_v296) (by decide),
    single_sub_of_mem (y := main_v297) (by decide), single_sub_of_mem (y := main_v298) (by decide), single_sub_of_mem (y := main_v299) (by decide),
    single_sub_of_mem (y := main_v300) (by decide), single_sub_of_mem (y := main_v301) (by decide), single_sub_of_mem (y := main_cst_47) (by decide),
    single_sub_of_mem (y := main_v302) (by decide), single_sub_of_mem (y := main_cst_48) (by decide), single_sub_of_mem (y := main_v303) (by decide),
    single_sub_of_mem (y := main_v304) (by decide), single_sub_of_mem (y := main_c_49) (by decide), single_sub_of_mem (y := main_call14_cst) (by decide),
    single_sub_of_mem (y := main_call14_v0) (by decide), single_sub_of_mem (y := main_call14_v1) (by decide), single_sub_of_mem (y := main_call14_cst_0) (by decide),
    single_sub_of_mem (y := main_call14_v2) (by decide), single_sub_of_mem (y := main_call14_v3) (by decide), single_sub_of_mem (y := main_call14_v4) (by decide),
    single_sub_of_mem (y := main_call14_v5) (by decide), single_sub_of_mem (y := main_call14_v6) (by decide), single_sub_of_mem (y := main_call14_v7) (by decide),
    single_sub_of_mem (y := main_call14_cst_1) (by decide), single_sub_of_mem (y := main_call14_v8) (by decide), single_sub_of_mem (y := main_call14_cst_2) (by decide),
    single_sub_of_mem (y := main_call14_v9) (by decide), single_sub_of_mem (y := main_call14_v10) (by decide), single_sub_of_mem (y := main_call14_v11) (by decide),
    single_sub_of_mem (y := main_call14_cst_3) (by decide), single_sub_of_mem (y := main_call14_v12) (by decide), single_sub_of_mem (y := main_call14_cst_4) (by decide),
    single_sub_of_mem (y := main_call14_call0_v0) (by decide), single_sub_of_mem (y := main_call14_call0_v1) (by decide), single_sub_of_mem (y := main_v305) (by decide),
    single_sub_of_mem (y := main_v306) (by decide), single_sub_of_mem (y := main_v307) (by decide)⟩

end Cert.ReferenceIdeal.RefRun

end
-- ==== Proof.RefOps6.lean ====
import proofs.«107973_j83408264888790_1_alg».proof.Proof.RefBase

/-! Statements 361 … 420 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 85 operations of statements 361 … 420, in order. -/
noncomputable abbrev ops6 : List (HloOp τ sig (Elt F)) :=
  [ StableHlo.binary main_v297 main_v307 main_v308 (subf : (⟨S50000x64, .f32⟩ : BufTy).Contents (Elt F) → (⟨S50000x64, .f32⟩ : BufTy).Contents (Elt F) → (⟨S50000x64, .f32⟩ : BufTy).Contents (Elt F)),
    StableHlo.unary main_v299 main_v309 (broadcastInDim S1x64 ![1] bcast_S64_S1x64_1 : (⟨S64, .f32⟩ : BufTy).Contents (Elt F) → (⟨S1x64, .f32⟩ : BufTy).Contents (Elt F)),
    StableHlo.unary main_v309 main_v310 (broadcastInDim S50000x64 ![0, 1] bcast_S1x64_S50000x64_0_1 : (⟨S1x64, .f32⟩ : BufTy).Contents (Elt F) → (⟨S50000x64, .f32⟩ : BufTy).Contents (Elt F)),
    StableHlo.binary main_v310 main_v308 main_v311 (mulf : (⟨S50000x64, .f32⟩ : BufTy).Contents (Elt F) → (⟨S50000x64, .f32⟩ : BufTy).Contents (Elt F) → (⟨S50000x64, .f32⟩ : BufTy).Contents (Elt F)),
    StableHlo.nullary main_cst_50 (constant S_ .f32 0x3727C5AC#32),
    StableHlo.unary main_cst_50 main_v312 (broadcastInDim S64 ![] bcast_S_S64 : (⟨S_, .f32⟩ : BufTy).Contents (Elt F) → (⟨S64, .f32⟩ : BufTy).Contents (Elt F)),
    StableHlo.binary main_v305 main_v312 main_v313 (addf : (⟨S64, .f32⟩ : BufTy).Contents (Elt F) → (⟨S64, .f32⟩ : BufTy).Contents (Elt F) → (⟨S64, .f32⟩ : BufTy).Contents (Elt F)),
    StableHlo.unary main_v313 main_v314 (Host.rsqrt : (⟨S64, .f32⟩ : BufTy).Contents (Elt F) → (⟨S64, .f32⟩ : BufTy).Contents (Elt F)),
    StableHlo.unary main_v314 main_v315 (broadcastInDim S1x64 ![1] bcast_S64_S1x64_1 : (⟨S64, .f32⟩ : BufTy).Contents (Elt F) → (⟨S1x64, .f32⟩ : BufTy).Contents (Elt F)),
    StableHlo.unary main_v315 main_v316 (broadcastInDim S50000x64 ![0, 1] bcast_S1x64_S50000x64_0_1 : (⟨S1x64, .f32⟩ : BufTy).Contents (Elt F) → (⟨S50000x64, .f32⟩ : BufTy).Contents (Elt F)),
    StableHlo.binary main_v311 main_v316 main_v317 (mulf : (⟨S50000x64, .f32⟩ : BufTy).Contents (Elt F) → (⟨S50000x64, .f32⟩ : BufTy).Contents (Elt F) → (⟨S50000x64, .f32⟩ : BufTy).Contents (Elt F)),
    StableHlo.unary main_v301 main_v318 (broadcastInDim S1x64 ![1] bcast_S64_S1x64_1 : (⟨S64, .f32⟩ : BufTy).Contents (Elt F) → (⟨S1x64, .f32⟩ : BufTy).Contents (Elt F)),
    StableHlo.unary main_v318 main_v319 (broadcastInDim S50000x64 ![0, 1] bcast_S1x64_S50000x64_0_1 : (⟨S1x64, .f32⟩ : BufTy).Contents (Elt F) → (⟨S50000x64, .f32⟩ : BufTy).Contents (Elt F)),
    StableHlo.binary main_v317 main_v319 main_v320 (addf : (⟨S50000x64, .f32⟩ : BufTy).Contents (Elt F) → (⟨S50000x64, .f32⟩ : BufTy).Contents (Elt F) → (⟨S50000x64, .f32⟩ : BufTy).Contents (Elt F)),
    StableHlo.TRef.nullary main_call15.cst (constant S_ .f32 0x00000000#32),
    StableHlo.TRef.unary main_call15.cst main_call15.v0 (broadcastInDim S50000x64 ![] bcast_S_S50000x64),
    StableHlo.TRef.binary (TRef.of main_v320 : TRef sig ⟨S50000x64, .f32⟩) main_call15.v0 main_call15.v1 maximumf,
    StableHlo.unary main_arg13 main_v322 ((extractStridedSlice S1x64 ![2, 0] · slices_S3x64_S1x64_2_0) : (⟨S3x64, .f32⟩ : BufTy).Contents (Elt F) → (⟨S1x64, .f32⟩ : BufTy).Contents (Elt F)),
    StableHlo.reshape main_v322 main_v323 rfl shapeCasts_S1x64_S64,
    StableHlo.unary main_arg14 main_v324 ((extractStridedSlice S1x64 ![2, 0] · slices_S3x64_S1x64_2_0) : (⟨S3x64, .f32⟩ : BufTy).Contents (Elt F) → (⟨S1x64, .f32⟩ : BufTy).Contents (Elt F)),
    StableHlo.reshape main_v324 main_v325 rfl shapeCasts_S1x64_S64,
    StableHlo.nullary main_cst_51 (constant S_ .f32 0x00000000#32),
    StableHlo.binary main_v321 main_cst_51 main_v326 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_52 (constant S_ .f32 0x47435000#32),
    StableHlo.unary main_cst_52 main_v327 (broadcastInDim S64 ![] bcast_S_S64 : (⟨S_, .f32⟩ : BufTy).Contents (Elt F) → (⟨S64, .f32⟩ : BufTy).Contents (Elt F)),
    StableHlo.binary main_v326 main_v327 main_v328 (Host.divf : (⟨S64, .f32⟩ : BufTy).Contents (Elt F) → (⟨S64, .f32⟩ : BufTy).Contents (Elt F) → (⟨S64, .f32⟩ : BufTy).Contents (Elt F)),
    StableHlo.nullary main_c_53 (constantI S_ 32 0#32),
    StableHlo.TRef.nullary main_call16.cst (constant S_ .f32 0x00000000#32),
    StableHlo.TRef.binary (TRef.of main_v321 : TRef sig ⟨S50000x64, .f32⟩) main_call16.cst main_call16.v0 (fun x v => Host.reduceAdd x v reducesTo_S50000x64_S64_d0 h_S_),
    StableHlo.TRef.unary main_call16.v0 main_call16.v1 (broadcastInDim S1x64 ![1] bcast_S64_S1x64_1),
    StableHlo.TRef.nullary main_call16.cst_0 (constant S_ .f32 0x47435000#32),
    StableHlo.TRef.unary main_call16.cst_0 main_call16.v2 (broadcastInDim S1x64 ![] bcast_S_S1x64),
    StableHlo.TRef.binary main_call16.v1 main_call16.v2 main_call16.v3 Host.divf,
    StableHlo.TRef.unary main_call16.v3 main_call16.v4 (broadcastInDim S50000x64 ![0, 1] bcast_S1x64_S50000x64_0_1),
    StableHlo.TRef.binary (TRef.of main_v321 : TRef sig ⟨S50000x64, .f32⟩) main_call16.v4 main_call16.v5 subf,
    StableHlo.TRef.binary main_call16.v5 main_call16.v5 main_call16.v6 mulf,
    StableHlo.TRef.unary (TRef.of main_c_53 : TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x64_S64_d0 h_S_),
    StableHlo.TRef.unary main_call16.v8 main_call16.v10 (broadcastInDim S64 ![] bcast_S_S64),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S64 ![] bcast_S_S64),
    StableHlo.TRef.ternary main_call16.v12 main_call16.v11 main_call16.call0.v1 main_call16.call0.v2 (fun p a b => select (broadcastInDim S64 ![] bcast_S_S64 p) a b),
    StableHlo.unary main_v328 main_v330 (broadcastInDim S1x64 ![1] bcast_S64_S1x64_1 : (⟨S64, .f32⟩ : BufTy).Contents (Elt F) → (⟨S1x64, .f32⟩ : BufTy).Contents (Elt F)),
    StableHlo.unary main_v330 main_v331 (broadcastInDim S50000x64 ![0, 1] bcast_S1x64_S50000x64_0_1 : (⟨S1x64, .f32⟩ : BufTy).Contents (Elt F) → (⟨S50000x64, .f32⟩ : BufTy).Contents (Elt F)),
    StableHlo.binary main_v321 main_v331 main_v332 (subf : (⟨S50000x64, .f32⟩ : BufTy).Contents (Elt F) → (⟨S50000x64, .f32⟩ : BufTy).Contents (Elt F) → (⟨S50000x64, .f32⟩ : BufTy).Contents (Elt F)),
    StableHlo.unary main_v323 main_v333 (broadcastInDim S1x64 ![1] bcast_S64_S1x64_1 : (⟨S64, .f32⟩ : BufTy).Contents (Elt F) → (⟨S1x64, .f32⟩ : BufTy).Contents (Elt F)),
    StableHlo.unary main_v333 main_v334 (broadcastInDim S50000x64 ![0, 1] bcast_S1x64_S50000x64_0_1 : (⟨S1x64, .f32⟩ : BufTy).Contents (Elt F) → (⟨S50000x64, .f32⟩ : BufTy).Contents (Elt F)),
    StableHlo.binary main_v334 main_v332 main_v335 (mulf : (⟨S50000x64, .f32⟩ : BufTy).Contents (Elt F) → (⟨S50000x64, .f32⟩ : BufTy).Contents (Elt F) → (⟨S50000x64, .f32⟩ : BufTy).Contents (Elt F)),
    StableHlo.nullary main_cst_54 (constant S_ .f32 0x3727C5AC#32),
    StableHlo.unary main_cst_54 main_v336 (broadcastInDim S64 ![] bcast_S_S64 : (⟨S_, .f32⟩ : BufTy).Contents (Elt F) → (⟨S64, .f32⟩ : BufTy).Contents (Elt F)),
    StableHlo.binary main_v329 main_v336 main_v337 (addf : (⟨S64, .f32⟩ : BufTy).Contents (Elt F) → (⟨S64, .f32⟩ : BufTy).Contents (Elt F) → (⟨S64, .f32⟩ : BufTy).Contents (Elt F)),
    StableHlo.unary main_v337 main_v338 (Host.rsqrt : (⟨S64, .f32⟩ : BufTy).Contents (Elt F) → (⟨S64, .f32⟩ : BufTy).Contents (Elt F)),
    StableHlo.unary main_v338 main_v339 (broadcastInDim S1x64 ![1] bcast_S64_S1x64_1 : (⟨S64, .f32⟩ : BufTy).Contents (Elt F) → (⟨S1x64, .f32⟩ : BufTy).Contents (Elt F)),
    StableHlo.unary main_v339 main_v340 (broadcastInDim S50000x64 ![0, 1] bcast_S1x64_S50000x64_0_1 : (⟨S1x64, .f32⟩ : BufTy).Contents (Elt F) → (⟨S50000x64, .f32⟩ : BufTy).Contents (Elt F)),
    StableHlo.binary main_v335 main_v340 main_v341 (mulf : (⟨S50000x64, .f32⟩ : BufTy).Contents (Elt F) → (⟨S50000x64, .f32⟩ : BufTy).Contents (Elt F) → (⟨S50000x64, .f32⟩ : BufTy).Contents (Elt F)),
    StableHlo.unary main_v325 main_v342 (broadcastInDim S1x64 ![1] bcast_S64_S1x64_1 : (⟨S64, .f32⟩ : BufTy).Contents (Elt F) → (⟨S1x64, .f32⟩ : BufTy).Contents (Elt F)),
    StableHlo.unary main_v342 main_v343 (broadcastInDim S50000x64 ![0, 1] bcast_S1x64_S50000x64_0_1 : (⟨S1x64, .f32⟩ : BufTy).Contents (Elt F) → (⟨S50000x64, .f32⟩ : BufTy).Contents (Elt F)),
    StableHlo.binary main_v341 main_v343 main_v344 (addf : (⟨S50000x64, .f32⟩ : BufTy).Contents (Elt F) → (⟨S50000x64, .f32⟩ : BufTy).Contents (Elt F) → (⟨S50000x64, .f32⟩ : BufTy).Contents (Elt F)),
    StableHlo.TRef.nullary main_call17.cst (constant S_ .f32 0x00000000#32),
    StableHlo.TRef.unary main_call17.cst main_call17.v0 (broadcastInDim S50000x64 ![] bcast_S_S50000x64),
    StableHlo.TRef.binary (TRef.of main_v344 : TRef sig ⟨S50000x64, .f32⟩) main_call17.v0 main_call17.v1 maximumf,
    StableHlo.nullary main_c_55 (constantI S_ 32 0#32),
    StableHlo.unary main_c_55 main_v346 (broadcastInDim S800000 ![] bcast_S_S800000 : (⟨S_, .i32⟩ : BufTy).Contents (Elt F) → (⟨S800000, .i32⟩ : BufTy).Contents (Elt F)),
    StableHlo.binary main_arg1 main_v346 main_v347 (cmpi .slt : (⟨S800000, .i32⟩ : BufTy).Contents (Elt F) → (⟨S800000, .i32⟩ : BufTy).Contents (Elt F) → (⟨S800000, .i1⟩ : BufTy).Contents (Elt F)),
    StableHlo.nullary main_c_56 (constantI S_ 32 50000#32),
    StableHlo.unary main_c_56 main_v348 (broadcastInDim S800000 ![] bcast_S_S800000 : (⟨S_, .i32⟩ : BufTy).Contents (Elt F) → (⟨S800000, .i32⟩ : BufTy).Contents (Elt F)),
    StableHlo.binary main_arg1 main_v348 main_v349 (addi : (⟨S800000, .i32⟩ : BufTy).Contents (Elt F) → (⟨S800000, .i32⟩ : BufTy).Contents (Elt F) → (⟨S800000, .i32⟩ : BufTy).Contents (Elt F)),
    StableHlo.ternary main_v347 main_v349 main_arg1 main_v350 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v350 main_v351 (broadcastInDim S800000x1 ![0] bcast_S800000_S800000x1_0 : (⟨S800000, .i32⟩ : BufTy).Contents (Elt F) → (⟨S800000x1, .i32⟩ : BufTy).Contents (Elt F)),
    StableHlo.binary main_v345 main_v351 main_v352 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_57 (constantI S_ 32 0#32),
    StableHlo.unary main_c_57 main_v353 (broadcastInDim S800000 ![] bcast_S_S800000 : (⟨S_, .i32⟩ : BufTy).Contents (Elt F) → (⟨S800000, .i32⟩ : BufTy).Contents (Elt F)),
    StableHlo.binary main_arg2 main_v353 main_v354 (cmpi .slt : (⟨S800000, .i32⟩ : BufTy).Contents (Elt F) → (⟨S800000, .i32⟩ : BufTy).Contents (Elt F) → (⟨S800000, .i1⟩ : BufTy).Contents (Elt F)),
    StableHlo.nullary main_c_58 (constantI S_ 32 50000#32),
    StableHlo.unary main_c_58 main_v355 (broadcastInDim S800000 ![] bcast_S_S800000 : (⟨S_, .i32⟩ : BufTy).Contents (Elt F) → (⟨S800000, .i32⟩ : BufTy).Contents (Elt F)),
    StableHlo.binary main_arg2 main_v355 main_v356 (addi : (⟨S800000, .i32⟩ : BufTy).Contents (Elt F) → (⟨S800000, .i32⟩ : BufTy).Contents (Elt F) → (⟨S800000, .i32⟩ : BufTy).Contents (Elt F)),
    StableHlo.ternary main_v354 main_v356 main_arg2 main_v357 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v357 main_v358 (broadcastInDim S800000x1 ![0] bcast_S800000_S800000x1_0 : (⟨S800000, .i32⟩ : BufTy).Contents (Elt F) → (⟨S800000x1, .i32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part6_eq (c : Dev nD) : main_part6 (F := F) c = seq ops6 := by
  simp only [main_part6, fn_var.body, fn_where.body, fn_relu.body, fn_relu_0.body, seq, bind_assoc, pure_bind]
  rfl

/-- Every buffer an operation of the window touches is a TensorCore reference. -/
theorem ops6_sub : (ops6 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub ..⟩

/-- Every operation of the window determines its result. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

/-- The references the window writes: one per operation, its result. -/
noncomputable def writes6 : List (Ref sig .tc) :=
  [ main_v308, main_v309, main_v310, main_v311, main_cst_50, main_v312, main_v313, main_v314,
    main_v315, main_v316, main_v317, main_v318, main_v319, main_v320, main_call15_cst, main_call15_v0,
    main_v321, main_v322, main_v323, main_v324, main_v325, main_cst_51, main_v326, main_cst_52,
    main_v327, main_v328, main_c_53, main_call16_cst, main_call16_v0, main_call16_v1, main_call16_cst_0, main_call16_v2,
    main_call16_v3, main_call16_v4, main_call16_v5, main_call16_v6, main_call16_v7, main_call16_cst_1, main_call16_v8, main_call16_cst_2,
    main_call16_v9, main_call16_v10, main_call16_v11, main_call16_cst_3, main_call16_v12, main_call16_cst_4, main_call16_call0_v0, main_call16_call0_v1,
    main_v329, main_v330, main_v331, main_v332, main_v333, main_v334, main_v335, main_cst_54,
    main_v336, main_v337, main_v338, main_v339, main_v340, main_v341, main_v342, main_v343,
    main_v344, main_call17_cst, main_call17_v0, main_v345, main_c_55, main_v346, main_v347, main_c_56,
    main_v348, main_v349, main_v350, main_v351, main_v352, main_c_57, main_v353, main_v354,
    main_c_58, main_v355, main_v356, main_v357, main_v358 ]

/-- Each operation of the window writes its one result buffer, which is in the list. -/
theorem ops6_writes : (ops6 : List (HloOp τ sig (Elt F))).Forall fun op =>
    op.writes ⊆ (writes6.map (Proc.devRef (τ := τ) .tc)).toFinset :=
  ⟨single_sub_of_mem (y := main_v308) (by decide), single_sub_of_mem (y := main_v309) (by decide), single_sub_of_mem (y := main_v310) (by decide),
    single_sub_of_mem (y := main_v311) (by decide), single_sub_of_mem (y := main_cst_50) (by decide), single_sub_of_mem (y := main_v312) (by decide),
    single_sub_of_mem (y := main_v313) (by decide), single_sub_of_mem (y := main_v314) (by decide), single_sub_of_mem (y := main_v315) (by decide),
    single_sub_of_mem (y := main_v316) (by decide), single_sub_of_mem (y := main_v317) (by decide), single_sub_of_mem (y := main_v318) (by decide),
    single_sub_of_mem (y := main_v319) (by decide), single_sub_of_mem (y := main_v320) (by decide), single_sub_of_mem (y := main_call15_cst) (by decide),
    single_sub_of_mem (y := main_call15_v0) (by decide), single_sub_of_mem (y := main_v321) (by decide), single_sub_of_mem (y := main_v322) (by decide),
    single_sub_of_mem (y := main_v323) (by decide), single_sub_of_mem (y := main_v324) (by decide), single_sub_of_mem (y := main_v325) (by decide),
    single_sub_of_mem (y := main_cst_51) (by decide), single_sub_of_mem (y := main_v326) (by decide), single_sub_of_mem (y := main_cst_52) (by decide),
    single_sub_of_mem (y := main_v327) (by decide), single_sub_of_mem (y := main_v328) (by decide), single_sub_of_mem (y := main_c_53) (by decide),
    single_sub_of_mem (y := main_call16_cst) (by decide), single_sub_of_mem (y := main_call16_v0) (by decide), single_sub_of_mem (y := main_call16_v1) (by decide),
    single_sub_of_mem (y := main_call16_cst_0) (by decide), single_sub_of_mem (y := main_call16_v2) (by decide), single_sub_of_mem (y := main_call16_v3) (by decide),
    single_sub_of_mem (y := main_call16_v4) (by decide), single_sub_of_mem (y := main_call16_v5) (by decide), single_sub_of_mem (y := main_call16_v6) (by decide),
    single_sub_of_mem (y := main_call16_v7) (by decide), single_sub_of_mem (y := main_call16_cst_1) (by decide), single_sub_of_mem (y := main_call16_v8) (by decide),
    single_sub_of_mem (y := main_call16_cst_2) (by decide), single_sub_of_mem (y := main_call16_v9) (by decide), single_sub_of_mem (y := main_call16_v10) (by decide),
    single_sub_of_mem (y := main_call16_v11) (by decide), single_sub_of_mem (y := main_call16_cst_3) (by decide), single_sub_of_mem (y := main_call16_v12) (by decide),
    single_sub_of_mem (y := main_call16_cst_4) (by decide), single_sub_of_mem (y := main_call16_call0_v0) (by decide), single_sub_of_mem (y := main_call16_call0_v1) (by decide),
    single_sub_of_mem (y := main_v329) (by decide), single_sub_of_mem (y := main_v330) (by decide), single_sub_of_mem (y := main_v331) (by decide),
    single_sub_of_mem (y := main_v332) (by decide), single_sub_of_mem (y := main_v333) (by decide), single_sub_of_mem (y := main_v334) (by decide),
    single_sub_of_mem (y := main_v335) (by decide), single_sub_of_mem (y := main_cst_54) (by decide), single_sub_of_mem (y := main_v336) (by decide),
    single_sub_of_mem (y := main_v337) (by decide), single_sub_of_mem (y := main_v338) (by decide), single_sub_of_mem (y := main_v339) (by decide),
    single_sub_of_mem (y := main_v340) (by decide), single_sub_of_mem (y := main_v341) (by decide), single_sub_of_mem (y := main_v342) (by decide),
    single_sub_of_mem (y := main_v343) (by decide), single_sub_of_mem (y := main_v344) (by decide), single_sub_of_mem (y := main_call17_cst) (by decide),
    single_sub_of_mem (y := main_call17_v0) (by decide), single_sub_of_mem (y := main_v345) (by decide), single_sub_of_mem (y := main_c_55) (by decide),
    single_sub_of_mem (y := main_v346) (by decide), single_sub_of_mem (y := main_v347) (by decide), single_sub_of_mem (y := main_c_56) (by decide),
    single_sub_of_mem (y := main_v348) (by decide), single_sub_of_mem (y := main_v349) (by decide), single_sub_of_mem (y := main_v350) (by decide),
    single_sub_of_mem (y := main_v351) (by decide), single_sub_of_mem (y := main_v352) (by decide), single_sub_of_mem (y := main_c_57) (by decide),
    single_sub_of_mem (y := main_v353) (by decide), single_sub_of_mem (y := main_v354) (by decide), single_sub_of_mem (y := main_c_58) (by decide),
    single_sub_of_mem (y := main_v355) (by decide), single_sub_of_mem (y := main_v356) (by decide), single_sub_of_mem (y := main_v357) (by decide),
    single_sub_of_mem (y := main_v358) (by decide)⟩

end Cert.ReferenceIdeal.RefRun

end
-- ==== Proof.RefOps7.lean ====
import proofs.«107973_j83408264888790_1_alg».proof.Proof.RefBase

/-! Statements 421 … 480 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of statements 421 … 480, in order. -/
noncomputable abbrev ops7 : List (HloOp τ sig (Elt F)) :=
  [ StableHlo.binary main_v345 main_v358 main_v359 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v352 main_v359 main_v360 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.nullary main_cst_59 (constant S_ .f32 0x00000000#32),
    StableHlo.unary main_cst_59 main_v361 (broadcastInDim S800000x2 ![] bcast_S_S800000x2 : (⟨S_, .f32⟩ : BufTy).Contents (Elt F) → (⟨S800000x2, .f32⟩ : BufTy).Contents (Elt F)),
    StableHlo.unary main_arg15 main_v362 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v362 main_v363 rfl shapeCasts_S1x128x64_S128x64,
    StableHlo.binary main_v18 main_v363 main_v364 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg16 main_v365 ((extractStridedSlice S1x64 ![0, 0] · slices_S4x64_S1x64_0_0) : (⟨S4x64, .f32⟩ : BufTy).Contents (Elt F) → (⟨S1x64, .f32⟩ : BufTy).Contents (Elt F)),
    StableHlo.reshape main_v365 main_v366 rfl shapeCasts_S1x64_S64,
    StableHlo.unary main_v366 main_v367 (broadcastInDim S1x64 ![1] bcast_S64_S1x64_1 : (⟨S64, .f32⟩ : BufTy).Contents (Elt F) → (⟨S1x64, .f32⟩ : BufTy).Contents (Elt F)),
    StableHlo.unary main_v367 main_v368 (broadcastInDim S800000x64 ![0, 1] bcast_S1x64_S800000x64_0_1 : (⟨S1x64, .f32⟩ : BufTy).Contents (Elt F) → (⟨S800000x64, .f32⟩ : BufTy).Contents (Elt F)),
    StableHlo.binary main_v364 main_v368 main_v369 (addf : (⟨S800000x64, .f32⟩ : BufTy).Contents (Elt F) → (⟨S800000x64, .f32⟩ : BufTy).Contents (Elt F) → (⟨S800000x64, .f32⟩ : BufTy).Contents (Elt F)),
    StableHlo.TRef.nullary main_call18.cst (constant S_ .f32 0x00000000#32),
    StableHlo.TRef.unary main_call18.cst main_call18.v0 (broadcastInDim S800000x64 ![] bcast_S_S800000x64),
    StableHlo.TRef.binary (TRef.of main_v369 : TRef sig ⟨S800000x64, .f32⟩) main_call18.v0 main_call18.v1 maximumf,
    StableHlo.unary main_arg17 main_v371 ((extractStridedSlice S1x64x2 ![0, 0, 0] · slices_S4x64x2_S1x64x2_0_0_0) : (⟨S4x64x2, .f32⟩ : BufTy).Contents (Elt F) → (⟨S1x64x2, .f32⟩ : BufTy).Contents (Elt F)),
    StableHlo.reshape main_v371 main_v372 rfl shapeCasts_S1x64x2_S64x2,
    StableHlo.binary main_v370 main_v372 main_v373 ((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)),
    StableHlo.binary main_v361 main_v373 main_v374 (addf : (⟨S800000x2, .f32⟩ : BufTy).Contents (Elt F) → (⟨S800000x2, .f32⟩ : BufTy).Contents (Elt F) → (⟨S800000x2, .f32⟩ : BufTy).Contents (Elt F)),
    StableHlo.unary main_arg18 main_v375 ((extractStridedSlice S1x2 ![0, 0] · slices_S4x2_S1x2_0_0) : (⟨S4x2, .f32⟩ : BufTy).Contents (Elt F) → (⟨S1x2, .f32⟩ : BufTy).Contents (Elt F)),
    StableHlo.reshape main_v375 main_v376 rfl shapeCasts_S1x2_S2,
    StableHlo.unary main_v376 main_v377 (broadcastInDim S1x2 ![1] bcast_S2_S1x2_1 : (⟨S2, .f32⟩ : BufTy).Contents (Elt F) → (⟨S1x2, .f32⟩ : BufTy).Contents (Elt F)),
    StableHlo.unary main_v377 main_v378 (broadcastInDim S800000x2 ![0, 1] bcast_S1x2_S800000x2_0_1 : (⟨S1x2, .f32⟩ : BufTy).Contents (Elt F) → (⟨S800000x2, .f32⟩ : BufTy).Contents (Elt F)),
    StableHlo.binary main_v374 main_v378 main_v379 (addf : (⟨S800000x2, .f32⟩ : BufTy).Contents (Elt F) → (⟨S800000x2, .f32⟩ : BufTy).Contents (Elt F) → (⟨S800000x2, .f32⟩ : BufTy).Contents (Elt F)),
    StableHlo.unary main_arg15 main_v380 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v380 main_v381 rfl shapeCasts_S1x128x64_S128x64,
    StableHlo.binary main_v132 main_v381 main_v382 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg16 main_v383 ((extractStridedSlice S1x64 ![1, 0] · slices_S4x64_S1x64_1_0) : (⟨S4x64, .f32⟩ : BufTy).Contents (Elt F) → (⟨S1x64, .f32⟩ : BufTy).Contents (Elt F)),
    StableHlo.reshape main_v383 main_v384 rfl shapeCasts_S1x64_S64,
    StableHlo.unary main_v384 main_v385 (broadcastInDim S1x64 ![1] bcast_S64_S1x64_1 : (⟨S64, .f32⟩ : BufTy).Contents (Elt F) → (⟨S1x64, .f32⟩ : BufTy).Contents (Elt F)),
    StableHlo.unary main_v385 main_v386 (broadcastInDim S800000x64 ![0, 1] bcast_S1x64_S800000x64_0_1 : (⟨S1x64, .f32⟩ : BufTy).Contents (Elt F) → (⟨S800000x64, .f32⟩ : BufTy).Contents (Elt F)),
    StableHlo.binary main_v382 main_v386 main_v387 (addf : (⟨S800000x64, .f32⟩ : BufTy).Contents (Elt F) → (⟨S800000x64, .f32⟩ : BufTy).Contents (Elt F) → (⟨S800000x64, .f32⟩ : BufTy).Contents (Elt F)),
    StableHlo.TRef.nullary main_call19.cst (constant S_ .f32 0x00000000#32),
    StableHlo.TRef.unary main_call19.cst main_call19.v0 (broadcastInDim S800000x64 ![] bcast_S_S800000x64),
    StableHlo.TRef.binary (TRef.of main_v387 : TRef sig ⟨S800000x64, .f32⟩) main_call19.v0 main_call19.v1 maximumf,
    StableHlo.unary main_arg17 main_v389 ((extractStridedSlice S1x64x2 ![1, 0, 0] · slices_S4x64x2_S1x64x2_1_0_0) : (⟨S4x64x2, .f32⟩ : BufTy).Contents (Elt F) → (⟨S1x64x2, .f32⟩ : BufTy).Contents (Elt F)),
    StableHlo.reshape main_v389 main_v390 rfl shapeCasts_S1x64x2_S64x2,
    StableHlo.binary main_v388 main_v390 main_v391 ((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)),
    StableHlo.binary main_v379 main_v391 main_v392 (addf : (⟨S800000x2, .f32⟩ : BufTy).Contents (Elt F) → (⟨S800000x2, .f32⟩ : BufTy).Contents (Elt F) → (⟨S800000x2, .f32⟩ : BufTy).Contents (Elt F)),
    StableHlo.unary main_arg18 main_v393 ((extractStridedSlice S1x2 ![1, 0] · slices_S4x2_S1x2_1_0) : (⟨S4x2, .f32⟩ : BufTy).Contents (Elt F) → (⟨S1x2, .f32⟩ : BufTy).Contents (Elt F)),
    StableHlo.reshape main_v393 main_v394 rfl shapeCasts_S1x2_S2,
    StableHlo.unary main_v394 main_v395 (broadcastInDim S1x2 ![1] bcast_S2_S1x2_1 : (⟨S2, .f32⟩ : BufTy).Contents (Elt F) → (⟨S1x2, .f32⟩ : BufTy).Contents (Elt F)),
    StableHlo.unary main_v395 main_v396 (broadcastInDim S800000x2 ![0, 1] bcast_S1x2_S800000x2_0_1 : (⟨S1x2, .f32⟩ : BufTy).Contents (Elt F) → (⟨S800000x2, .f32⟩ : BufTy).Contents (Elt F)),
    StableHlo.binary main_v392 main_v396 main_v397 (addf : (⟨S800000x2, .f32⟩ : BufTy).Contents (Elt F) → (⟨S800000x2, .f32⟩ : BufTy).Contents (Elt F) → (⟨S800000x2, .f32⟩ : BufTy).Contents (Elt F)),
    StableHlo.unary main_arg15 main_v398 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v398 main_v399 rfl shapeCasts_S1x128x64_S128x64,
    StableHlo.binary main_v246 main_v399 main_v400 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg16 main_v401 ((extractStridedSlice S1x64 ![2, 0] · slices_S4x64_S1x64_2_0) : (⟨S4x64, .f32⟩ : BufTy).Contents (Elt F) → (⟨S1x64, .f32⟩ : BufTy).Contents (Elt F)),
    StableHlo.reshape main_v401 main_v402 rfl shapeCasts_S1x64_S64,
    StableHlo.unary main_v402 main_v403 (broadcastInDim S1x64 ![1] bcast_S64_S1x64_1 : (⟨S64, .f32⟩ : BufTy).Contents (Elt F) → (⟨S1x64, .f32⟩ : BufTy).Contents (Elt F)),
    StableHlo.unary main_v403 main_v404 (broadcastInDim S800000x64 ![0, 1] bcast_S1x64_S800000x64_0_1 : (⟨S1x64, .f32⟩ : BufTy).Contents (Elt F) → (⟨S800000x64, .f32⟩ : BufTy).Contents (Elt F)),
    StableHlo.binary main_v400 main_v404 main_v405 (addf : (⟨S800000x64, .f32⟩ : BufTy).Contents (Elt F) → (⟨S800000x64, .f32⟩ : BufTy).Contents (Elt F) → (⟨S800000x64, .f32⟩ : BufTy).Contents (Elt F)),
    StableHlo.TRef.nullary main_call20.cst (constant S_ .f32 0x00000000#32),
    StableHlo.TRef.unary main_call20.cst main_call20.v0 (broadcastInDim S800000x64 ![] bcast_S_S800000x64),
    StableHlo.TRef.binary (TRef.of main_v405 : TRef sig ⟨S800000x64, .f32⟩) main_call20.v0 main_call20.v1 maximumf,
    StableHlo.unary main_arg17 main_v407 ((extractStridedSlice S1x64x2 ![2, 0, 0] · slices_S4x64x2_S1x64x2_2_0_0) : (⟨S4x64x2, .f32⟩ : BufTy).Contents (Elt F) → (⟨S1x64x2, .f32⟩ : BufTy).Contents (Elt F)),
    StableHlo.reshape main_v407 main_v408 rfl shapeCasts_S1x64x2_S64x2,
    StableHlo.binary main_v406 main_v408 main_v409 ((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)),
    StableHlo.binary main_v397 main_v409 main_v410 (addf : (⟨S800000x2, .f32⟩ : BufTy).Contents (Elt F) → (⟨S800000x2, .f32⟩ : BufTy).Contents (Elt F) → (⟨S800000x2, .f32⟩ : BufTy).Contents (Elt F)),
    StableHlo.unary main_arg18 main_v411 ((extractStridedSlice S1x2 ![2, 0] · slices_S4x2_S1x2_2_0) : (⟨S4x2, .f32⟩ : BufTy).Contents (Elt F) → (⟨S1x2, .f32⟩ : BufTy).Contents (Elt F)),
    StableHlo.reshape main_v411 main_v412 rfl shapeCasts_S1x2_S2,
    StableHlo.unary main_v412 main_v413 (broadcastInDim S1x2 ![1] bcast_S2_S1x2_1 : (⟨S2, .f32⟩ : BufTy).Contents (Elt F) → (⟨S1x2, .f32⟩ : BufTy).Contents (Elt F)),
    StableHlo.unary main_v413 main_v414 (broadcastInDim S800000x2 ![0, 1] bcast_S1x2_S800000x2_0_1 : (⟨S1x2, .f32⟩ : BufTy).Contents (Elt F) → (⟨S800000x2, .f32⟩ : BufTy).Contents (Elt F)),
    StableHlo.binary main_v410 main_v414 main_v415 (addf : (⟨S800000x2, .f32⟩ : BufTy).Contents (Elt F) → (⟨S800000x2, .f32⟩ : BufTy).Contents (Elt F) → (⟨S800000x2, .f32⟩ : BufTy).Contents (Elt F)),
    StableHlo.unary main_arg15 main_v416 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v416 main_v417 rfl shapeCasts_S1x128x64_S128x64 ]

set_option maxRecDepth 8192 in
set_option maxHeartbeats 1600000 in
/-- The window is that straight line: the functions' definitions unfolded at their calls and the records at their
    fields, both sides are one chain of single-operation steps once sequencing is reassociated. -/
theorem main_part7_eq (c : Dev nD) : main_part7 (F := F) c = seq ops7 := by
  simp only [main_part7, fn_var.body, fn_where.body, fn_relu.body, fn_relu_0.body, seq, bind_assoc, pure_bind]
  rfl

/-- Every buffer an operation of the window touches is a TensorCore reference. -/
theorem ops7_sub : (ops7 : List (HloOp τ sig (Elt F))).Forall fun op => op.bufs ⊆ tcRefs τ sig :=
  ⟨binary_bufs_sub .., binary_bufs_sub .., nullary_bufs_sub .., unary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    binary_bufs_sub .., unary_bufs_sub .., reshape_bufs_sub .., unary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., binary_bufs_sub .., unary_bufs_sub .., reshape_bufs_sub .., unary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., binary_bufs_sub .., unary_bufs_sub ..,
    reshape_bufs_sub .., unary_bufs_sub .., unary_bufs_sub .., binary_bufs_sub .., unary_bufs_sub .., reshape_bufs_sub ..⟩

/-- Every operation of the window determines its result. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩

/-- The references the window writes: one per operation, its result. -/
noncomputable def writes7 : List (Ref sig .tc) :=
  [ main_v359, main_v360, main_cst_59, main_v361, main_v362, main_v363, main_v364, main_v365,
    main_v366, main_v367, main_v368, main_v369, main_call18_cst, main_call18_v0, main_v370, main_v371,
    main_v372, main_v373, main_v374, main_v375, main_v376, main_v377, main_v378, main_v379,
    main_v380, main_v381, main_v382, main_v383, main_v384, main_v385, main_v386, main_v387,
    main_call19_cst, main_call19_v0, main_v388, main_v389, main_v390, main_v391, main_v392, main_v393,
    main_v394, main_v395, main_v396, main_v397, main_v398, main_v399, main_v400, main_v401,
    main_v402, main_v403, main_v404, main_v405, main_call20_cst, main_call20_v0, main_v406, main_v407,
    main_v408, main_v409, main_v410, main_v411, main_v412, main_v413, main_v414, main_v415,
    main_v416, main_v417 ]

/-- Each operation of the window writes its one result buffer, which is in the list. -/
theorem ops7_writes : (ops7 : List (HloOp τ sig (Elt F))).Forall fun op =>
    op.writes ⊆ (writes7.map (Proc.devRef (τ := τ) .tc)).toFinset :=
  ⟨single_sub_of_mem (y := main_v359) (by decide), single_sub_of_mem (y := main_v360) (by decide), single_sub_of_mem (y := main_cst_59) (by decide),
    single_sub_of_mem (y := main_v361) (by decide), single_sub_of_mem (y := main_v362) (by decide), single_sub_of_mem (y := main_v363) (by decide),
    single_sub_of_mem (y := main_v364) (by decide), single_sub_of_mem (y := main_v365) (by decide), single_sub_of_mem (y := main_v366) (by decide),
    single_sub_of_mem (y := main_v367) (by decide), single_sub_of_mem (y := main_v368) (by decide), single_sub_of_mem (y := main_v369) (by decide),
    single_sub_of_mem (y := main_call18_cst) (by decide), single_sub_of_mem (y := main_call18_v0) (by decide), single_sub_of_mem (y := main_v370) (by decide),
    single_sub_of_mem (y := main_v371) (by decide), single_sub_of_mem (y := main_v372) (by decide), single_sub_of_mem (y := main_v373) (by decide),
    single_sub_of_mem (y := main_v374) (by decide), single_sub_of_mem (y := main_v375) (by decide), single_sub_of_mem (y := main_v376) (by decide),
    single_sub_of_mem (y := main_v377) (by decide), single_sub_of_mem (y := main_v378) (by decide), single_sub_of_mem (y := main_v379) (by decide),
    single_sub_of_mem (y := main_v380) (by decide), single_sub_of_mem (y := main_v381) (by decide), single_sub_of_mem (y := main_v382) (by decide),
    single_sub_of_mem (y := main_v383) (by decide), single_sub_of_mem (y := main_v384) (by decide), single_sub_of_mem (y := main_v385) (by decide),
    single_sub_of_mem (y := main_v386) (by decide), single_sub_of_mem (y := main_v387) (by decide), single_sub_of_mem (y := main_call19_cst) (by decide),
    single_sub_of_mem (y := main_call19_v0) (by decide), single_sub_of_mem (y := main_v388) (by decide), single_sub_of_mem (y := main_v389) (by decide),
    single_sub_of_mem (y := main_v390) (by decide), single_sub_of_mem (y := main_v391) (by decide), single_sub_of_mem (y := main_v392) (by decide),
    single_sub_of_mem (y := main_v393) (by decide), single_sub_of_mem (y := main_v394) (by decide), single_sub_of_mem (y := main_v395) (by decide),
    single_sub_of_mem (y := main_v396) (by decide), single_sub_of_mem (y := main_v397) (by decide), single_sub_of_mem (y := main_v398) (by decide),
    single_sub_of_mem (y := main_v399) (by decide), single_sub_of_mem (y := main_v400) (by decide), single_sub_of_mem (y := main_v401) (by decide),
    single_sub_of_mem (y := main_v402) (by decide), single_sub_of_mem (y := main_v403) (by decide), single_sub_of_mem (y := main_v404) (by decide),
    single_sub_of_mem (y := main_v405) (by decide), single_sub_of_mem (y := main_call20_cst) (by decide), single_sub_of_mem (y := main_call20_v0) (by decide),
    single_sub_of_mem (y := main_v406) (by decide), single_sub_of_mem (y := main_v407) (by decide), single_sub_of_mem (y := main_v408) (by decide),
    single_sub_of_mem (y := main_v409) (by decide), single_sub_of_mem (y := main_v410) (by decide), single_sub_of_mem (y := main_v411) (by decide),
    single_sub_of_mem (y := main_v412) (by decide), single_sub_of_mem (y := main_v413) (by decide), single_sub_of_mem (y := main_v414) (by decide),
    single_sub_of_mem (y := main_v415) (by decide), single_sub_of_mem (y := main_v416) (by decide), single_sub_of_mem (y := main_v417) (by decide)⟩

end Cert.ReferenceIdeal.RefRun

end
-- ==== Proof.RefOps8.lean ====
import proofs.«107973_j83408264888790_1_alg».proof.Proof.RefBase

/-! Statements 481 … 497 of the reference program's @main as a list of host operations: each printed statement
    is one entry, and a call of a module-local function is replaced by the function's own operations over the
    buffers of that call's record (a call of @_var by its nineteen operations and then the three of the @_where
    it calls; a call of @relu or @relu_0 by its three). With the list: the window of @main equals the list run
    in order; every buffer an operation touches is a TensorCore reference; no operation leaves a result
    undetermined; and the references the window writes, as a literal list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 18 operations of statements 481 … 497, in order. -/
noncomputable abbrev ops8 : List (HloOp τ sig (Elt F)) :=
  [ StableHlo.binary main_v360 main_v417 main_v418 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg16 main_v419 ((extractStridedSlice S1x64 ![3, 0] · slices_S4x64_S1x64_3_0) : (⟨S4x64, .f32⟩ : BufTy).Contents (Elt F) → (⟨S1x64, .f32⟩ : BufTy).Contents (Elt F)),
    StableHlo.reshape main_v419 main_v420 rfl shapeCasts_S1x64_S64,
    StableHlo.unary main_v420 main_v421 (broadcastInDim S1x64 ![1] bcast_S64_S1x64_1 : (⟨S64, .f32⟩ : BufTy).Contents (Elt F) → (⟨S1x64, .f32⟩ : BufTy).Contents (Elt F)),
    StableHlo.unary main_v421 main_v422 (broadcastInDim S800000x64 ![0, 1] bcast_S1x64_S800000x64_0_1 : (⟨S1x64, .f32⟩ : BufTy).Contents (Elt F) → (⟨S800000x64, .f32⟩ : BufTy).Contents (Elt F)),
    StableHlo.binary main_v418 main_v422 main_v423 (addf : (⟨S800000x64, .f32⟩ : BufTy).Contents (Elt F) → (⟨S800000x64, .f32⟩ : BufTy).Contents (Elt F) → (⟨S800000x64, .f32⟩ : BufTy).Contents (Elt F)),
    StableHlo.TRef.nullary main_call21.cst (constant S_ .f32 0x00000000#32),
    StableHlo.TRef.unary main_call21.cst main_call21.v0 (broadcastInDim S800000x64 ![] bcast_S_S800000x64),
    StableHlo.TRef.binary (TRef.of main_v423 : TRef sig ⟨S800000x64, .f32⟩) main_call21.v0 main_call21.v1 maximumf,
    StableHlo.unary main_arg17 main_v425 ((extractStridedSlice S1x64x2 ![3, 0, 0] · slices_S4x64x2_S1x64x2_3_0_0) : (⟨S4x64x2, .f32⟩ : BufTy).Contents (Elt F) → (⟨S1x64x2, .f32⟩ : BufTy).Contents (Elt F)),
    StableHlo.reshape main_v425 main_v426 rfl shapeCasts_S1x64x2_S64x2,
    StableHlo.binary main_v424 main_v426 main_v427 ((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)),
    StableHlo.binary main_v415 main_v427 main_v428 (addf : (⟨S800000x2, .f32⟩ : BufTy).Contents (Elt F) → (⟨S800000x2, .f32⟩ : BufTy).Contents (Elt F) → (⟨S800000x2, .f32⟩ : BufTy).Contents (Elt F)),
    StableHlo.unary main_arg18 main_v429 ((extractStridedSlice S1x2 ![3, 0] · slices_S4x2_S1x2_3_0) : (⟨S4x2, .f32⟩ : BufTy).Contents (Elt F) → (⟨S1x2, .f32⟩ : BufTy).Contents (Elt F)),
    StableHlo.reshape main_v429 main_v430 rfl shapeCasts_S1x2_S2,
    StableHlo.unary main_v430 main_v431 (broadcastInDim S1x2 ![1] bcast_S2_S1x2_1 : (⟨S2, .f32⟩ : BufTy).Contents (Elt F) → (⟨S1x2, .f32⟩ : BufTy).Contents (Elt F)),
    StableHlo.unary main_v431 main_v432 (broadcastInDim S800000x2 ![0, 1] bcast_S1x2_S800000x2_0_1 : (⟨S1x2, .f32⟩ : BufTy).Contents (Elt F) → (⟨S800000x2, .f32⟩ : BufTy).Contents (Elt F)),
    StableHlo.binary main_v428 main_v432 main_v433 (addf : (⟨S800000x2, .f32⟩ : BufTy).Contents (Elt F) → (⟨S800000x2, .f32⟩ : BufTy).Contents (Elt F) → (⟨S800000x2, .f32⟩ : BufTy).Contents (Elt F)) ]

set_option maxRecDepth 8192 in
set_option maxHeartbeats 1600000 in
/-- The window is that straight line: the functions' definitions unfolded at their calls and the records at their
    fields, both sides are one chain of single-operation steps once sequencing is reassociated. -/
theorem main_part8_eq (c : Dev nD) : main_part8 (F := F) c = seq ops8 := by
  simp only [main_part8, fn_var.body, fn_where.body, fn_relu.body, fn_relu_0.body, seq, bind_assoc, pure_bind]

/-- Every buffer an operation of the window touches is a TensorCore reference. -/
theorem ops8_sub : (ops8 : List (HloOp τ sig (Elt F))).Forall fun op => op.bufs ⊆ tcRefs τ sig :=
  ⟨binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    binary_bufs_sub .., unary_bufs_sub .., reshape_bufs_sub .., unary_bufs_sub .., unary_bufs_sub .., binary_bufs_sub ..⟩

/-- Every operation of the window determines its result. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl⟩

/-- The references the window writes: one per operation, its result. -/
noncomputable def writes8 : List (Ref sig .tc) :=
  [ main_v418, main_v419, main_v420, main_v421, main_v422, main_v423, main_call21_cst, main_call21_v0,
    main_v424, main_v425, main_v426, main_v427, main_v428, main_v429, main_v430, main_v431,
    main_v432, main_v433 ]

/-- Each operation of the window writes its one result buffer, which is in the list. -/
theorem ops8_writes : (ops8 : List (HloOp τ sig (Elt F))).Forall fun op =>
    op.writes ⊆ (writes8.map (Proc.devRef (τ := τ) .tc)).toFinset :=
  ⟨single_sub_of_mem (y := main_v418) (by decide), single_sub_of_mem (y := main_v419) (by decide), single_sub_of_mem (y := main_v420) (by decide),
    single_sub_of_mem (y := main_v421) (by decide), single_sub_of_mem (y := main_v422) (by decide), single_sub_of_mem (y := main_v423) (by decide),
    single_sub_of_mem (y := main_call21_cst) (by decide), single_sub_of_mem (y := main_call21_v0) (by decide), single_sub_of_mem (y := main_v424) (by decide),
    single_sub_of_mem (y := main_v425) (by decide), single_sub_of_mem (y := main_v426) (by decide), single_sub_of_mem (y := main_v427) (by decide),
    single_sub_of_mem (y := main_v428) (by decide), single_sub_of_mem (y := main_v429) (by decide), single_sub_of_mem (y := main_v430) (by decide),
    single_sub_of_mem (y := main_v431) (by decide), single_sub_of_mem (y := main_v432) (by decide), single_sub_of_mem (y := main_v433) (by decide)⟩

end Cert.ReferenceIdeal.RefRun

end
-- ==== Proof.RefRun.lean ====
import proofs.«107973_j83408264888790_1_alg».proof.Proof.RefOps0
import proofs.«107973_j83408264888790_1_alg».proof.Proof.RefOps1
import proofs.«107973_j83408264888790_1_alg».proof.Proof.RefOps2
import proofs.«107973_j83408264888790_1_alg».proof.Proof.RefOps3
import proofs.«107973_j83408264888790_1_alg».proof.Proof.RefOps4
import proofs.«107973_j83408264888790_1_alg».proof.Proof.RefOps5
import proofs.«107973_j83408264888790_1_alg».proof.Proof.RefOps6
import proofs.«107973_j83408264888790_1_alg».proof.Proof.RefOps7
import proofs.«107973_j83408264888790_1_alg».proof.Proof.RefOps8

/-! The reference program's @main as ONE list of host operations — the nine windows' lists in order — and its
    run read back: every weakly fair execution terminates with each TensorCore buffer at the fold of the
    operations' results over its launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_app {α : Type} {p : α → Prop} {xs ys : List α} (hx : xs.Forall p) (hy : ys.Forall p) : (xs ++ ys).Forall p :=
  List.forall_append.mpr ⟨hx, hy⟩

/-- @main's 711 operations, in order: the nine windows' lists one after the other. -/
abbrev ops : List (HloOp τ sig (Elt F)) :=
  ops0 ++ ops1 ++ ops2 ++ ops3 ++ ops4 ++ ops5 ++ ops6 ++ ops7 ++ ops8

/-- @main runs its nine windows in order, each the run of its list; lists run one after the other are their
    concatenation run as one. -/
theorem main_eq (c : Dev nD) : main (F := F) c = seq ops := by
  simp only [ops, main, main_part0_eq, main_part1_eq, main_part2_eq, main_part3_eq, main_part4_eq, main_part5_eq, main_part6_eq, main_part7_eq, main_part8_eq, seq_append, bind_assoc]

/-- Every buffer an operation of @main touches is a TensorCore reference. -/
theorem ops_sub : (ops : List (HloOp τ sig (Elt F))).Forall fun op => op.bufs ⊆ tcRefs τ sig :=
  forall_app (forall_app (forall_app (forall_app (forall_app (forall_app (forall_app (forall_app (ops0_sub) ops1_sub) ops2_sub) ops3_sub) ops4_sub) ops5_sub) ops6_sub) ops7_sub) ops8_sub

/-- Every operation of @main determines its result. -/
theorem ops_fresh : (ops : List (HloOp τ sig (Elt F))).Forall fun op => op.fresh = ∅ :=
  forall_app (forall_app (forall_app (forall_app (forall_app (forall_app (forall_app (forall_app (ops0_fresh) ops1_fresh) ops2_fresh) ops3_fresh) ops4_fresh) ops5_fresh) ops6_fresh) ops7_fresh) ops8_fresh

/-- The references @main writes: the nine windows' lists one after the other. -/
def writes : List (Ref sig .tc) :=
  writes0 ++ writes1 ++ writes2 ++ writes3 ++ writes4 ++ writes5 ++ writes6 ++ writes7 ++ writes8

/-- Each operation of @main writes its one result buffer, which is in the list. -/
theorem ops_writes : (ops : List (HloOp τ sig (Elt F))).Forall fun op =>
    op.writes ⊆ (writes.map (Proc.devRef (τ := τ) .tc)).toFinset :=
  forall_app
    (forall_app
    (forall_app
    (forall_app
    (forall_app
    (forall_app
    (forall_app
    (forall_app
    (writes_mono (W' := writes) (fun y h => by simp only [writes, List.mem_append, h, true_or, or_true]) ops0_writes)
    (writes_mono (W' := writes) (fun y h => by simp only [writes, List.mem_append, h, true_or, or_true]) ops1_writes))
    (writes_mono (W' := writes) (fun y h => by simp only [writes, List.mem_append, h, true_or, or_true]) ops2_writes))
    (writes_mono (W' := writes) (fun y h => by simp only [writes, List.mem_append, h, true_or, or_true]) ops3_writes))
    (writes_mono (W' := writes) (fun y h => by simp only [writes, List.mem_append, h, true_or, or_true]) ops4_writes))
    (writes_mono (W' := writes) (fun y h => by simp only [writes, List.mem_append, h, true_or, or_true]) ops5_writes))
    (writes_mono (W' := writes) (fun y h => by simp only [writes, List.mem_append, h, true_or, or_true]) ops6_writes))
    (writes_mono (W' := writes) (fun y h => by simp only [writes, List.mem_append, h, true_or, or_true]) ops7_writes))
    (writes_mono (W' := writes) (fun y h => by simp only [writes, List.mem_append, h, true_or, or_true]) ops8_writes)

/-- The contents after @main's operations: the windows' folds composed, first window innermost. -/
theorem after_ops (V : Valuation τ sig (Elt F)) :
    after ops V = after ops8 (after ops7 (after ops6 (after ops5 (after ops4 (after ops3 (after ops2 (after ops1 (after ops0 (V))))))))) := by
  simp only [ops, StableHlo.after_append]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    on the TensorCores terminates, and every final state has each TensorCore buffer at the operations' fold over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefFrame.lean ====
import proofs.«107973_j83408264888790_1_alg».proof.Defs
import proofs.«107973_j83408264888790_1_alg».proof.Proof.RefRun

/-! The reference program's frame: no operation of @main writes an argument's buffer (the argument is not among
    the references the operations write), so every argument's buffer holds its launch contents when @main ends. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A reference @main's operations do not write keeps its contents. -/
theorem after_ops_of_not_mem {r : Ref sig .tc} (V : Valuation τ sig (Elt F)) (h : r ∉ writes) :
    after ops V (r : DevRef τ sig) = V (r : DevRef τ sig) :=
  after_of_writes_sub ops V ops_writes h

theorem arg0_eq (V : Valuation τ sig (Elt F)) : after ops V (main_arg0 : DevRef τ sig) = V (main_arg0 : DevRef τ sig) :=
  after_ops_of_not_mem V (by decide)
theorem arg1_eq (V : Valuation τ sig (Elt F)) : after ops V (main_arg1 : DevRef τ sig) = V (main_arg1 : DevRef τ sig) :=
  after_ops_of_not_mem V (by decide)
theorem arg2_eq (V : Valuation τ sig (Elt F)) : after ops V (main_arg2 : DevRef τ sig) = V (main_arg2 : DevRef τ sig) :=
  after_ops_of_not_mem V (by decide)
theorem arg3_eq (V : Valuation τ sig (Elt F)) : after ops V (main_arg3 : DevRef τ sig) = V (main_arg3 : DevRef τ sig) :=
  after_ops_of_not_mem V (by decide)
theorem arg4_eq (V : Valuation τ sig (Elt F)) : after ops V (main_arg4 : DevRef τ sig) = V (main_arg4 : DevRef τ sig) :=
  after_ops_of_not_mem V (by decide)
theorem arg5_eq (V : Valuation τ sig (Elt F)) : after ops V (main_arg5 : DevRef τ sig) = V (main_arg5 : DevRef τ sig) :=
  after_ops_of_not_mem V (by decide)
theorem arg6_eq (V : Valuation τ sig (Elt F)) : after ops V (main_arg6 : DevRef τ sig) = V (main_arg6 : DevRef τ sig) :=
  after_ops_of_not_mem V (by decide)
theorem arg7_eq (V : Valuation τ sig (Elt F)) : after ops V (main_arg7 : DevRef τ sig) = V (main_arg7 : DevRef τ sig) :=
  after_ops_of_not_mem V (by decide)
theorem arg8_eq (V : Valuation τ sig (Elt F)) : after ops V (main_arg8 : DevRef τ sig) = V (main_arg8 : DevRef τ sig) :=
  after_ops_of_not_mem V (by decide)
theorem arg9_eq (V : Valuation τ sig (Elt F)) : after ops V (main_arg9 : DevRef τ sig) = V (main_arg9 : DevRef τ sig) :=
  after_ops_of_not_mem V (by decide)
theorem arg10_eq (V : Valuation τ sig (Elt F)) : after ops V (main_arg10 : DevRef τ sig) = V (main_arg10 : DevRef τ sig) :=
  after_ops_of_not_mem V (by decide)
theorem arg11_eq (V : Valuation τ sig (Elt F)) : after ops V (main_arg11 : DevRef τ sig) = V (main_arg11 : DevRef τ sig) :=
  after_ops_of_not_mem V (by decide)
theorem arg12_eq (V : Valuation τ sig (Elt F)) : after ops V (main_arg12 : DevRef τ sig) = V (main_arg12 : DevRef τ sig) :=
  after_ops_of_not_mem V (by decide)
theorem arg13_eq (V : Valuation τ sig (Elt F)) : after ops V (main_arg13 : DevRef τ sig) = V (main_arg13 : DevRef τ sig) :=
  after_ops_of_not_mem V (by decide)
theorem arg14_eq (V : Valuation τ sig (Elt F)) : after ops V (main_arg14 : DevRef τ sig) = V (main_arg14 : DevRef τ sig) :=
  after_ops_of_not_mem V (by decide)
theorem arg15_eq (V : Valuation τ sig (Elt F)) : after ops V (main_arg15 : DevRef τ sig) = V (main_arg15 : DevRef τ sig) :=
  after_ops_of_not_mem V (by decide)
theorem arg16_eq (V : Valuation τ sig (Elt F)) : after ops V (main_arg16 : DevRef τ sig) = V (main_arg16 : DevRef τ sig) :=
  after_ops_of_not_mem V (by decide)
theorem arg17_eq (V : Valuation τ sig (Elt F)) : after ops V (main_arg17 : DevRef τ sig) = V (main_arg17 : DevRef τ sig) :=
  after_ops_of_not_mem V (by decide)
theorem arg18_eq (V : Valuation τ sig (Elt F)) : after ops V (main_arg18 : DevRef τ sig) = V (main_arg18 : DevRef τ sig) :=
  after_ops_of_not_mem V (by decide)

/-- From any memory with zero counters: every weakly fair execution of @main terminates, and every final state has
    each argument's buffer at its launch contents. -/
theorem frame [hReferenceIdeal : Cert.ReferenceIdeal.Facts] [hPre_finite_inputs : Cert.Pre_finite_inputs.Facts] :
    Cert.frame_ReferenceIdeal :=
  fun m ρ _ => (θ_run _ _ _).mono (fun _ h c =>
    ⟨(h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _),
     (h c main_arg12).trans (arg12_eq _),
     (h c main_arg13).trans (arg13_eq _),
     (h c main_arg14).trans (arg14_eq _),
     (h c main_arg15).trans (arg15_eq _),
     (h c main_arg16).trans (arg16_eq _),
     (h c main_arg17).trans (arg17_eq _),
     (h c main_arg18).trans (arg18_eq _)⟩)
    (run m ρ)

end Cert.ReferenceIdeal.RefRun

end
-- ==== Proof.RKeep.lean ====
/-
  The reference program's contents window by window, and which windows leave a buffer alone.

  The program is one straight line of host operations, read in nine windows; every buffer is written once. A window
  leaves every buffer it does not name as a result as it was, so a value once defined is read unchanged after every
  later window, and the argument arrays are the launch memory's throughout.
-/
import proofs.«107973_j83408264888790_1_alg».proof.Proof.RefRun
import Idealize.ShloMosaic.Lib.StableHlo.Run
import Idealize.ShloMosaic.PureOps.Ideal

set_option maxRecDepth 16384

noncomputable section

namespace Cert.ReferenceIdeal.RKeep

open Cert.ReferenceIdeal Cert.ReferenceIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- The argument arrays. -/
noncomputable def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- The contents at launch. -/
abbrev R0 : Valuation τ sig (Elt F) := launchContents m c
/-- The contents after window 0. -/
abbrev R1 : Valuation τ sig (Elt F) := StableHlo.after (RefRun.ops0 (F := F)) (R0 m c)
/-- The contents after window 1. -/
abbrev R2 : Valuation τ sig (Elt F) := StableHlo.after (RefRun.ops1 (F := F)) (R1 m c)
/-- The contents after window 2. -/
abbrev R3 : Valuation τ sig (Elt F) := StableHlo.after (RefRun.ops2 (F := F)) (R2 m c)
/-- The contents after window 3. -/
abbrev R4 : Valuation τ sig (Elt F) := StableHlo.after (RefRun.ops3 (F := F)) (R3 m c)
/-- The contents after window 4. -/
abbrev R5 : Valuation τ sig (Elt F) := StableHlo.after (RefRun.ops4 (F := F)) (R4 m c)
/-- The contents after window 5. -/
abbrev R6 : Valuation τ sig (Elt F) := StableHlo.after (RefRun.ops5 (F := F)) (R5 m c)
/-- The contents after window 6. -/
abbrev R7 : Valuation τ sig (Elt F) := StableHlo.after (RefRun.ops6 (F := F)) (R6 m c)
/-- The contents after window 7. -/
abbrev R8 : Valuation τ sig (Elt F) := StableHlo.after (RefRun.ops7 (F := F)) (R7 m c)
/-- The contents after window 8. -/
abbrev R9 : Valuation τ sig (Elt F) := StableHlo.after (RefRun.ops8 (F := F)) (R8 m c)

/-- The contents after the whole program are those after the last window. -/
theorem after_ops_eq : StableHlo.after (RefRun.ops (F := F)) (launchContents m c) = R9 m c := RefRun.after_ops _

theorem args0 (b : Ref sig .tc) (hb : b ∈ argRefs) : R0 m c (Proc.devRef .tc b) = m ((c : Thread nD τ).loc b) := rfl
theorem keep1 (b : Ref sig .tc) (hb : b ∉ RefRun.writes0) :
    R1 m c (Proc.devRef .tc b) = R0 m c (Proc.devRef .tc b) :=
  StableHlo.after_of_writes_sub (RefRun.ops0 (F := F)) (R0 m c) RefRun.ops0_writes hb
theorem args1 (b : Ref sig .tc) (hb : b ∈ argRefs) : R1 m c (Proc.devRef .tc b) = m ((c : Thread nD τ).loc b) :=
  (keep1 m c b ((by decide : ∀ b ∈ argRefs, b ∉ RefRun.writes0) b hb)).trans (args0 m c b hb)
theorem keep2 (b : Ref sig .tc) (hb : b ∉ RefRun.writes1) :
    R2 m c (Proc.devRef .tc b) = R1 m c (Proc.devRef .tc b) :=
  StableHlo.after_of_writes_sub (RefRun.ops1 (F := F)) (R1 m c) RefRun.ops1_writes hb
theorem args2 (b : Ref sig .tc) (hb : b ∈ argRefs) : R2 m c (Proc.devRef .tc b) = m ((c : Thread nD τ).loc b) :=
  (keep2 m c b ((by decide : ∀ b ∈ argRefs, b ∉ RefRun.writes1) b hb)).trans (args1 m c b hb)
theorem keep3 (b : Ref sig .tc) (hb : b ∉ RefRun.writes2) :
    R3 m c (Proc.devRef .tc b) = R2 m c (Proc.devRef .tc b) :=
  StableHlo.after_of_writes_sub (RefRun.ops2 (F := F)) (R2 m c) RefRun.ops2_writes hb
theorem args3 (b : Ref sig .tc) (hb : b ∈ argRefs) : R3 m c (Proc.devRef .tc b) = m ((c : Thread nD τ).loc b) :=
  (keep3 m c b ((by decide : ∀ b ∈ argRefs, b ∉ RefRun.writes2) b hb)).trans (args2 m c b hb)
theorem keep4 (b : Ref sig .tc) (hb : b ∉ RefRun.writes3) :
    R4 m c (Proc.devRef .tc b) = R3 m c (Proc.devRef .tc b) :=
  StableHlo.after_of_writes_sub (RefRun.ops3 (F := F)) (R3 m c) RefRun.ops3_writes hb
theorem args4 (b : Ref sig .tc) (hb : b ∈ argRefs) : R4 m c (Proc.devRef .tc b) = m ((c : Thread nD τ).loc b) :=
  (keep4 m c b ((by decide : ∀ b ∈ argRefs, b ∉ RefRun.writes3) b hb)).trans (args3 m c b hb)
theorem keep5 (b : Ref sig .tc) (hb : b ∉ RefRun.writes4) :
    R5 m c (Proc.devRef .tc b) = R4 m c (Proc.devRef .tc b) :=
  StableHlo.after_of_writes_sub (RefRun.ops4 (F := F)) (R4 m c) RefRun.ops4_writes hb
theorem args5 (b : Ref sig .tc) (hb : b ∈ argRefs) : R5 m c (Proc.devRef .tc b) = m ((c : Thread nD τ).loc b) :=
  (keep5 m c b ((by decide : ∀ b ∈ argRefs, b ∉ RefRun.writes4) b hb)).trans (args4 m c b hb)
theorem keep6 (b : Ref sig .tc) (hb : b ∉ RefRun.writes5) :
    R6 m c (Proc.devRef .tc b) = R5 m c (Proc.devRef .tc b) :=
  StableHlo.after_of_writes_sub (RefRun.ops5 (F := F)) (R5 m c) RefRun.ops5_writes hb
theorem args6 (b : Ref sig .tc) (hb : b ∈ argRefs) : R6 m c (Proc.devRef .tc b) = m ((c : Thread nD τ).loc b) :=
  (keep6 m c b ((by decide : ∀ b ∈ argRefs, b ∉ RefRun.writes5) b hb)).trans (args5 m c b hb)
theorem keep7 (b : Ref sig .tc) (hb : b ∉ RefRun.writes6) :
    R7 m c (Proc.devRef .tc b) = R6 m c (Proc.devRef .tc b) :=
  StableHlo.after_of_writes_sub (RefRun.ops6 (F := F)) (R6 m c) RefRun.ops6_writes hb
theorem args7 (b : Ref sig .tc) (hb : b ∈ argRefs) : R7 m c (Proc.devRef .tc b) = m ((c : Thread nD τ).loc b) :=
  (keep7 m c b ((by decide : ∀ b ∈ argRefs, b ∉ RefRun.writes6) b hb)).trans (args6 m c b hb)
theorem keep8 (b : Ref sig .tc) (hb : b ∉ RefRun.writes7) :
    R8 m c (Proc.devRef .tc b) = R7 m c (Proc.devRef .tc b) :=
  StableHlo.after_of_writes_sub (RefRun.ops7 (F := F)) (R7 m c) RefRun.ops7_writes hb
theorem args8 (b : Ref sig .tc) (hb : b ∈ argRefs) : R8 m c (Proc.devRef .tc b) = m ((c : Thread nD τ).loc b) :=
  (keep8 m c b ((by decide : ∀ b ∈ argRefs, b ∉ RefRun.writes7) b hb)).trans (args7 m c b hb)
theorem keep9 (b : Ref sig .tc) (hb : b ∉ RefRun.writes8) :
    R9 m c (Proc.devRef .tc b) = R8 m c (Proc.devRef .tc b) :=
  StableHlo.after_of_writes_sub (RefRun.ops8 (F := F)) (R8 m c) RefRun.ops8_writes hb
theorem args9 (b : Ref sig .tc) (hb : b ∈ argRefs) : R9 m c (Proc.devRef .tc b) = m ((c : Thread nD τ).loc b) :=
  (keep9 m c b ((by decide : ∀ b ∈ argRefs, b ∉ RefRun.writes8) b hb)).trans (args8 m c b hb)

end Cert.ReferenceIdeal.RKeep

end
-- ==== Proof.RDefs.lean ====
/-
  The reference program's intermediate arrays, named as functions of the argument arrays as launched: the node
  arrays after the embedding and after each layer, the endpoint rows side by side, the neighbour sums, each layer's
  intermediate arrays with their batch means and variances, the perceptrons' hidden layers and the running score —
  each the composition of the program's own host operations over the arrays named before it.
-/

import proofs.«107973_j83408264888790_1_alg».proof.Proof.Gen.ReferenceIdeal
import Idealize.ShloMosaic.Lib.StableHlo.Run
import Idealize.ShloMosaic.PureOps.Ideal

set_option maxRecDepth 16384

noncomputable section

namespace Cert.ReferenceIdeal.Chain

open Cert.ReferenceIdeal Cert.ReferenceIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- An argument array as launched. -/
abbrev A (b : Ref sig .tc) := m ((c : Thread nD τ).loc b)

/-- The embedded nodes. -/
def X0 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (A m c main_arg0) (A m c main_arg3)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (A m c main_arg4))))
/-- The endpoint rows of node array 0, side by side. -/
def E0 := (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X0 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X0 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 50000#32))) (A m c main_arg2)))))
/-- The neighbour sums of the layer's input. -/
def Ag0 := (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (A m c main_arg2)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X0 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))))
/-- (x + neighbours)·W₁ + b₁. -/
def T1_0 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (X0 m c) (Ag0 m c)) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (A m c main_arg5)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg6))))))
/-- Its batch mean. -/
def M1_0 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T1_0 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr1_0 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T1_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_0 m c) (constant (F := F) S_ .f32 0x00000000#32))) ((broadcastInDim S1x64 ![] bcast_S_S1x64) (constant (F := F) S_ .f32 0x47435000#32))))) ((subf (F := F)) (T1_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_0 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₁)). -/
def U1_0 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg7))))) ((subf (F := F) : (⟨S50000x64, .f32⟩ : BufTy).Contents (Elt F) → (⟨S50000x64, .f32⟩ : BufTy).Contents (Elt F) → (⟨S50000x64, .f32⟩ : BufTy).Contents (Elt F)) (T1_0 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M1_0 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr1_0 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg8)))))) ((broadcastInDim S50000x64 ![] bcast_S_S50000x64) (constant (F := F) S_ .f32 0x00000000#32)))
/-- relu(bn(t₁))·W₂ + b₂. -/
def T3_0 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (U1_0 m c) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (A m c main_arg9)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg10))))))
/-- Its batch mean. -/
def M2_0 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T3_0 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr2_0 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T3_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_0 m c) (constant (F := F) S_ .f32 0x00000000#32))) ((broadcastInDim S1x64 ![] bcast_S_S1x64) (constant (F := F) S_ .f32 0x47435000#32))))) ((subf (F := F)) (T3_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_0 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₃)). -/
def T4_0 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg11))))) ((subf (F := F) : (⟨S50000x64, .f32⟩ : BufTy).Contents (Elt F) → (⟨S50000x64, .f32⟩ : BufTy).Contents (Elt F) → (⟨S50000x64, .f32⟩ : BufTy).Contents (Elt F)) (T3_0 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M2_0 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr2_0 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg12)))))) ((broadcastInDim S50000x64 ![] bcast_S_S50000x64) (constant (F := F) S_ .f32 0x00000000#32)))
/-- Its batch mean. -/
def M3_0 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T4_0 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr3_0 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T4_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_0 m c) (constant (F := F) S_ .f32 0x00000000#32))) ((broadcastInDim S1x64 ![] bcast_S_S1x64) (constant (F := F) S_ .f32 0x47435000#32))))) ((subf (F := F)) (T4_0 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_0 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- Layer 0's output. -/
def X1 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg13))))) ((subf (F := F) : (⟨S50000x64, .f32⟩ : BufTy).Contents (Elt F) → (⟨S50000x64, .f32⟩ : BufTy).Contents (Elt F) → (⟨S50000x64, .f32⟩ : BufTy).Contents (Elt F)) (T4_0 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M3_0 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr3_0 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg14)))))) ((broadcastInDim S50000x64 ![] bcast_S_S50000x64) (constant (F := F) S_ .f32 0x00000000#32)))
/-- The endpoint rows of node array 1, side by side. -/
def E1 := (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X1 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X1 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 50000#32))) (A m c main_arg2)))))
/-- The neighbour sums of the layer's input. -/
def Ag1 := (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (A m c main_arg2)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X1 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))))
/-- (x + neighbours)·W₁ + b₁. -/
def T1_1 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (X1 m c) (Ag1 m c)) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (A m c main_arg5)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg6))))))
/-- Its batch mean. -/
def M1_1 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T1_1 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr1_1 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T1_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_1 m c) (constant (F := F) S_ .f32 0x00000000#32))) ((broadcastInDim S1x64 ![] bcast_S_S1x64) (constant (F := F) S_ .f32 0x47435000#32))))) ((subf (F := F)) (T1_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_1 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₁)). -/
def U1_1 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg7))))) ((subf (F := F) : (⟨S50000x64, .f32⟩ : BufTy).Contents (Elt F) → (⟨S50000x64, .f32⟩ : BufTy).Contents (Elt F) → (⟨S50000x64, .f32⟩ : BufTy).Contents (Elt F)) (T1_1 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M1_1 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr1_1 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg8)))))) ((broadcastInDim S50000x64 ![] bcast_S_S50000x64) (constant (F := F) S_ .f32 0x00000000#32)))
/-- relu(bn(t₁))·W₂ + b₂. -/
def T3_1 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (U1_1 m c) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (A m c main_arg9)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg10))))))
/-- Its batch mean. -/
def M2_1 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T3_1 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr2_1 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T3_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_1 m c) (constant (F := F) S_ .f32 0x00000000#32))) ((broadcastInDim S1x64 ![] bcast_S_S1x64) (constant (F := F) S_ .f32 0x47435000#32))))) ((subf (F := F)) (T3_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_1 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₃)). -/
def T4_1 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg11))))) ((subf (F := F) : (⟨S50000x64, .f32⟩ : BufTy).Contents (Elt F) → (⟨S50000x64, .f32⟩ : BufTy).Contents (Elt F) → (⟨S50000x64, .f32⟩ : BufTy).Contents (Elt F)) (T3_1 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M2_1 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr2_1 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg12)))))) ((broadcastInDim S50000x64 ![] bcast_S_S50000x64) (constant (F := F) S_ .f32 0x00000000#32)))
/-- Its batch mean. -/
def M3_1 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T4_1 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr3_1 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T4_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_1 m c) (constant (F := F) S_ .f32 0x00000000#32))) ((broadcastInDim S1x64 ![] bcast_S_S1x64) (constant (F := F) S_ .f32 0x47435000#32))))) ((subf (F := F)) (T4_1 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_1 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- Layer 1's output. -/
def X2 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg13))))) ((subf (F := F) : (⟨S50000x64, .f32⟩ : BufTy).Contents (Elt F) → (⟨S50000x64, .f32⟩ : BufTy).Contents (Elt F) → (⟨S50000x64, .f32⟩ : BufTy).Contents (Elt F)) (T4_1 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M3_1 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr3_1 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg14)))))) ((broadcastInDim S50000x64 ![] bcast_S_S50000x64) (constant (F := F) S_ .f32 0x00000000#32)))
/-- The endpoint rows of node array 2, side by side. -/
def E2 := (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X2 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X2 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 50000#32))) (A m c main_arg2)))))
/-- The neighbour sums of the layer's input. -/
def Ag2 := (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (A m c main_arg2)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X2 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))))
/-- (x + neighbours)·W₁ + b₁. -/
def T1_2 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (X2 m c) (Ag2 m c)) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (A m c main_arg5)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg6))))))
/-- Its batch mean. -/
def M1_2 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T1_2 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr1_2 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T1_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_2 m c) (constant (F := F) S_ .f32 0x00000000#32))) ((broadcastInDim S1x64 ![] bcast_S_S1x64) (constant (F := F) S_ .f32 0x47435000#32))))) ((subf (F := F)) (T1_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T1_2 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₁)). -/
def U1_2 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg7))))) ((subf (F := F) : (⟨S50000x64, .f32⟩ : BufTy).Contents (Elt F) → (⟨S50000x64, .f32⟩ : BufTy).Contents (Elt F) → (⟨S50000x64, .f32⟩ : BufTy).Contents (Elt F)) (T1_2 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M1_2 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr1_2 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg8)))))) ((broadcastInDim S50000x64 ![] bcast_S_S50000x64) (constant (F := F) S_ .f32 0x00000000#32)))
/-- relu(bn(t₁))·W₂ + b₂. -/
def T3_2 := ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (U1_2 m c) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (A m c main_arg9)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg10))))))
/-- Its batch mean. -/
def M2_2 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T3_2 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr2_2 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T3_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_2 m c) (constant (F := F) S_ .f32 0x00000000#32))) ((broadcastInDim S1x64 ![] bcast_S_S1x64) (constant (F := F) S_ .f32 0x47435000#32))))) ((subf (F := F)) (T3_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T3_2 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- relu(bn(t₃)). -/
def T4_2 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg11))))) ((subf (F := F) : (⟨S50000x64, .f32⟩ : BufTy).Contents (Elt F) → (⟨S50000x64, .f32⟩ : BufTy).Contents (Elt F) → (⟨S50000x64, .f32⟩ : BufTy).Contents (Elt F)) (T3_2 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M2_2 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr2_2 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg12)))))) ((broadcastInDim S50000x64 ![] bcast_S_S50000x64) (constant (F := F) S_ .f32 0x00000000#32)))
/-- Its batch mean. -/
def M3_2 := ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (T4_2 m c) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))
/-- Its batch variance. -/
def Vr3_2 := ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (T4_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_2 m c) (constant (F := F) S_ .f32 0x00000000#32))) ((broadcastInDim S1x64 ![] bcast_S_S1x64) (constant (F := F) S_ .f32 0x47435000#32))))) ((subf (F := F)) (T4_2 m c) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (T4_2 m c) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32))))
/-- Layer 2's output. -/
def X3 := ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg13))))) ((subf (F := F) : (⟨S50000x64, .f32⟩ : BufTy).Contents (Elt F) → (⟨S50000x64, .f32⟩ : BufTy).Contents (Elt F) → (⟨S50000x64, .f32⟩ : BufTy).Contents (Elt F)) (T4_2 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M3_2 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr3_2 m c) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg14)))))) ((broadcastInDim S50000x64 ![] bcast_S_S50000x64) (constant (F := F) S_ .f32 0x00000000#32)))
/-- The endpoint rows of node array 3, side by side. -/
def E3 := (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X3 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X3 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 50000#32))) (A m c main_arg2)))))
/-- The zero score. -/
def Z (_ : (ℓ : Loc nD τ sig) → Buf (Elt F) ℓ) (_ : Dev nD) : (⟨S800000x2, .f32⟩ : BufTy).Contents (Elt F) := ((broadcastInDim S800000x2 ![] bcast_S_S800000x2 : (⟨S_, .f32⟩ : BufTy).Contents (Elt F) → (⟨S800000x2, .f32⟩ : BufTy).Contents (Elt F)) (constant (F := F) S_ .f32 0x00000000#32))
/-- The perceptron's hidden layer. -/
def H0 := ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (E0 m c) ((shapeCast S128x64 · shapeCasts_S1x128x64_S128x64) (((extractStridedSlice S1x128x64 ![0, 0, 0] · slices_S4x128x64_S1x128x64_0_0_0) : (⟨S4x128x64, .f32⟩ : BufTy).Contents (Elt F) → (⟨S1x128x64, .f32⟩ : BufTy).Contents (Elt F)) (A m c main_arg15)))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S4x64_S1x64_0_0) : (⟨S4x64, .f32⟩ : BufTy).Contents (Elt F) → (⟨S1x64, .f32⟩ : BufTy).Contents (Elt F)) (A m c main_arg16)))))) ((broadcastInDim S800000x64 ![] bcast_S_S800000x64) (constant (F := F) S_ .f32 0x00000000#32)))
/-- The score plus the hidden layer's product. -/
def Sa0 := ((addf (F := F) : (⟨S800000x2, .f32⟩ : BufTy).Contents (Elt F) → (⟨S800000x2, .f32⟩ : BufTy).Contents (Elt F) → (⟨S800000x2, .f32⟩ : BufTy).Contents (Elt F)) (Z m c) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) (H0 m c) ((shapeCast S64x2 · shapeCasts_S1x64x2_S64x2) (((extractStridedSlice S1x64x2 ![0, 0, 0] · slices_S4x64x2_S1x64x2_0_0_0) : (⟨S4x64x2, .f32⟩ : BufTy).Contents (Elt F) → (⟨S1x64x2, .f32⟩ : BufTy).Contents (Elt F)) (A m c main_arg17)))))
/-- … plus the output bias. -/
def Sb0 := ((addf (F := F) : (⟨S800000x2, .f32⟩ : BufTy).Contents (Elt F) → (⟨S800000x2, .f32⟩ : BufTy).Contents (Elt F) → (⟨S800000x2, .f32⟩ : BufTy).Contents (Elt F)) (Sa0 m c) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![0, 0] · slices_S4x2_S1x2_0_0) : (⟨S4x2, .f32⟩ : BufTy).Contents (Elt F) → (⟨S1x2, .f32⟩ : BufTy).Contents (Elt F)) (A m c main_arg18))))))
/-- The perceptron's hidden layer. -/
def H1 := ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (E1 m c) ((shapeCast S128x64 · shapeCasts_S1x128x64_S128x64) (((extractStridedSlice S1x128x64 ![1, 0, 0] · slices_S4x128x64_S1x128x64_1_0_0) : (⟨S4x128x64, .f32⟩ : BufTy).Contents (Elt F) → (⟨S1x128x64, .f32⟩ : BufTy).Contents (Elt F)) (A m c main_arg15)))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S4x64_S1x64_1_0) : (⟨S4x64, .f32⟩ : BufTy).Contents (Elt F) → (⟨S1x64, .f32⟩ : BufTy).Contents (Elt F)) (A m c main_arg16)))))) ((broadcastInDim S800000x64 ![] bcast_S_S800000x64) (constant (F := F) S_ .f32 0x00000000#32)))
/-- The score plus the hidden layer's product. -/
def Sa1 := ((addf (F := F) : (⟨S800000x2, .f32⟩ : BufTy).Contents (Elt F) → (⟨S800000x2, .f32⟩ : BufTy).Contents (Elt F) → (⟨S800000x2, .f32⟩ : BufTy).Contents (Elt F)) (Sb0 m c) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) (H1 m c) ((shapeCast S64x2 · shapeCasts_S1x64x2_S64x2) (((extractStridedSlice S1x64x2 ![1, 0, 0] · slices_S4x64x2_S1x64x2_1_0_0) : (⟨S4x64x2, .f32⟩ : BufTy).Contents (Elt F) → (⟨S1x64x2, .f32⟩ : BufTy).Contents (Elt F)) (A m c main_arg17)))))
/-- … plus the output bias. -/
def Sb1 := ((addf (F := F) : (⟨S800000x2, .f32⟩ : BufTy).Contents (Elt F) → (⟨S800000x2, .f32⟩ : BufTy).Contents (Elt F) → (⟨S800000x2, .f32⟩ : BufTy).Contents (Elt F)) (Sa1 m c) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![1, 0] · slices_S4x2_S1x2_1_0) : (⟨S4x2, .f32⟩ : BufTy).Contents (Elt F) → (⟨S1x2, .f32⟩ : BufTy).Contents (Elt F)) (A m c main_arg18))))))
/-- The perceptron's hidden layer. -/
def H2 := ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (E2 m c) ((shapeCast S128x64 · shapeCasts_S1x128x64_S128x64) (((extractStridedSlice S1x128x64 ![2, 0, 0] · slices_S4x128x64_S1x128x64_2_0_0) : (⟨S4x128x64, .f32⟩ : BufTy).Contents (Elt F) → (⟨S1x128x64, .f32⟩ : BufTy).Contents (Elt F)) (A m c main_arg15)))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S4x64_S1x64_2_0) : (⟨S4x64, .f32⟩ : BufTy).Contents (Elt F) → (⟨S1x64, .f32⟩ : BufTy).Contents (Elt F)) (A m c main_arg16)))))) ((broadcastInDim S800000x64 ![] bcast_S_S800000x64) (constant (F := F) S_ .f32 0x00000000#32)))
/-- The score plus the hidden layer's product. -/
def Sa2 := ((addf (F := F) : (⟨S800000x2, .f32⟩ : BufTy).Contents (Elt F) → (⟨S800000x2, .f32⟩ : BufTy).Contents (Elt F) → (⟨S800000x2, .f32⟩ : BufTy).Contents (Elt F)) (Sb1 m c) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) (H2 m c) ((shapeCast S64x2 · shapeCasts_S1x64x2_S64x2) (((extractStridedSlice S1x64x2 ![2, 0, 0] · slices_S4x64x2_S1x64x2_2_0_0) : (⟨S4x64x2, .f32⟩ : BufTy).Contents (Elt F) → (⟨S1x64x2, .f32⟩ : BufTy).Contents (Elt F)) (A m c main_arg17)))))
/-- … plus the output bias. -/
def Sb2 := ((addf (F := F) : (⟨S800000x2, .f32⟩ : BufTy).Contents (Elt F) → (⟨S800000x2, .f32⟩ : BufTy).Contents (Elt F) → (⟨S800000x2, .f32⟩ : BufTy).Contents (Elt F)) (Sa2 m c) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![2, 0] · slices_S4x2_S1x2_2_0) : (⟨S4x2, .f32⟩ : BufTy).Contents (Elt F) → (⟨S1x2, .f32⟩ : BufTy).Contents (Elt F)) (A m c main_arg18))))))
/-- The perceptron's hidden layer. -/
def H3 := ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (E3 m c) ((shapeCast S128x64 · shapeCasts_S1x128x64_S128x64) (((extractStridedSlice S1x128x64 ![3, 0, 0] · slices_S4x128x64_S1x128x64_3_0_0) : (⟨S4x128x64, .f32⟩ : BufTy).Contents (Elt F) → (⟨S1x128x64, .f32⟩ : BufTy).Contents (Elt F)) (A m c main_arg15)))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![3, 0] · slices_S4x64_S1x64_3_0) : (⟨S4x64, .f32⟩ : BufTy).Contents (Elt F) → (⟨S1x64, .f32⟩ : BufTy).Contents (Elt F)) (A m c main_arg16)))))) ((broadcastInDim S800000x64 ![] bcast_S_S800000x64) (constant (F := F) S_ .f32 0x00000000#32)))
/-- The score plus the hidden layer's product. -/
def Sa3 := ((addf (F := F) : (⟨S800000x2, .f32⟩ : BufTy).Contents (Elt F) → (⟨S800000x2, .f32⟩ : BufTy).Contents (Elt F) → (⟨S800000x2, .f32⟩ : BufTy).Contents (Elt F)) (Sb2 m c) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) (H3 m c) ((shapeCast S64x2 · shapeCasts_S1x64x2_S64x2) (((extractStridedSlice S1x64x2 ![3, 0, 0] · slices_S4x64x2_S1x64x2_3_0_0) : (⟨S4x64x2, .f32⟩ : BufTy).Contents (Elt F) → (⟨S1x64x2, .f32⟩ : BufTy).Contents (Elt F)) (A m c main_arg17)))))
/-- … plus the output bias. -/
def Sb3 := ((addf (F := F) : (⟨S800000x2, .f32⟩ : BufTy).Contents (Elt F) → (⟨S800000x2, .f32⟩ : BufTy).Contents (Elt F) → (⟨S800000x2, .f32⟩ : BufTy).Contents (Elt F)) (Sa3 m c) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![3, 0] · slices_S4x2_S1x2_3_0) : (⟨S4x2, .f32⟩ : BufTy).Contents (Elt F) → (⟨S1x2, .f32⟩ : BufTy).Contents (Elt F)) (A m c main_arg18))))))

end Cert.ReferenceIdeal.Chain

end
-- ==== Proof.RHost0.lean ====
/-
  Window 0 of the reference program, read one result at a time: each buffer the later windows read, after the
  window has run from any contents, as the composition of the window's operations over the buffers it finds.
-/
import proofs.«107973_j83408264888790_1_alg».proof.Proof.RefOps0
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s0_v18 : StableHlo.after (RefRun.ops0 (F := F)) V (Proc.devRef .tc main_v18)
    = (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 50000#32))) (V (Proc.devRef .tc main_arg2)))))) := by
  after_results_simp
  rfl

set_option maxHeartbeats 4000000 in
theorem s0_v49 : StableHlo.after (RefRun.ops0 (F := F)) V (Proc.devRef .tc main_v49)
    = ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg7))))) := by
  after_results_simp
  rfl

set_option maxHeartbeats 4000000 in
theorem s0_v48 : StableHlo.after (RefRun.ops0 (F := F)) V (Proc.devRef .tc main_v48)
    = ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))))) := by
  after_results_simp
  rfl

set_option maxHeartbeats 4000000 in
theorem s0_v45 : StableHlo.after (RefRun.ops0 (F := F)) V (Proc.devRef .tc main_v45)
    = ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_arg0)) (V (Proc.devRef .tc main_arg3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg4))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) := by
  after_results_simp
  rfl

set_option maxHeartbeats 4000000 in
theorem s0_v41 : StableHlo.after (RefRun.ops0 (F := F)) V (Proc.devRef .tc main_v41)
    = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg8)))) := by
  after_results_simp
  rfl

end Cert.ReferenceIdeal.RH

end
-- ==== Proof.RHost1.lean ====
/-
  Window 1 of the reference program, read one result at a time: each buffer the later windows read, after the
  window has run from any contents, as the composition of the window's operations over the buffers it finds.
-/
import proofs.«107973_j83408264888790_1_alg».proof.Proof.RefOps1
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s1_v95 : StableHlo.after (RefRun.ops1 (F := F)) V (Proc.devRef .tc main_v95)
    = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg13)))) := by
  after_results_simp
  rfl

set_option maxHeartbeats 4000000 in
theorem s1_v93 : StableHlo.after (RefRun.ops1 (F := F)) V (Proc.devRef .tc main_v93)
    = ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) := by
  after_results_simp
  rfl

set_option maxHeartbeats 4000000 in
theorem s1_v100 : StableHlo.after (RefRun.ops1 (F := F)) V (Proc.devRef .tc main_v100)
    = ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))) := by
  after_results_simp
  rfl

set_option maxHeartbeats 4000000 in
theorem s1_v101 : StableHlo.after (RefRun.ops1 (F := F)) V (Proc.devRef .tc main_v101)
    = ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) (V (Proc.devRef .tc main_v49))) (V (Proc.devRef .tc main_v48))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v45)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v41))))) ((broadcastInDim S50000x64 ![] bcast_S_S50000x64) (constant (F := F) S_ .f32 0x00000000#32))) ((shapeCast S64x64 · shapeCasts_S1x64x64_S64x64) (((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg12))))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) := by
  after_results_simp
  rfl

set_option maxHeartbeats 4000000 in
theorem s1_v97 : StableHlo.after (RefRun.ops1 (F := F)) V (Proc.devRef .tc main_v97)
    = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (V (Proc.devRef .tc main_arg14)))) := by
  after_results_simp
  rfl

end Cert.ReferenceIdeal.RH

end
-- ==== Proof.RHost2.lean ====
/-
  Window 2 of the reference program, read one result at a time: each buffer the later windows read, after the
  window has run from any contents, as the composition of the window's operations over the buffers it finds.
-/
import proofs.«107973_j83408264888790_1_alg».proof.Proof.RefOps2
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s2_v132 : StableHlo.after (RefRun.ops2 (F := F)) V (Proc.devRef .tc main_v132)
    = (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v95)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v93)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v100)))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v101)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v97))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v95)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v93)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v100)))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v101)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v97))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 50000#32))) (V (Proc.devRef .tc main_arg2)))))) := by
  after_results_simp
  rfl

set_option maxHeartbeats 4000000 in
theorem s2_v153 : StableHlo.after (RefRun.ops2 (F := F)) V (Proc.devRef .tc main_v153)
    = ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg7)))) := by
  after_results_simp
  rfl

set_option maxHeartbeats 4000000 in
theorem s2_v151 : StableHlo.after (RefRun.ops2 (F := F)) V (Proc.devRef .tc main_v151)
    = ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v95)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v93)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v100)))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v101)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v97))))) ((broadcastInDim S50000x64 ![] bcast_S_S50000x64) (constant (F := F) S_ .f32 0x00000000#32))) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (V (Proc.devRef .tc main_arg2))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v95)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v93)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v100)))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v101)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v97))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg6))))))) := by
  after_results_simp
  rfl

end Cert.ReferenceIdeal.RH

end
-- ==== Proof.RHost3.lean ====
/-
  Window 3 of the reference program, read one result at a time: each buffer the later windows read, after the
  window has run from any contents, as the composition of the window's operations over the buffers it finds.
-/
import proofs.«107973_j83408264888790_1_alg».proof.Proof.RefOps3
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s3_v203 : StableHlo.after (RefRun.ops3 (F := F)) V (Proc.devRef .tc main_v203)
    = ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg11)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v153)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v151)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) (V (Proc.devRef .tc main_v151)) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32))))) ((subf (F := F)) (V (Proc.devRef .tc main_v151)) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) (V (Proc.devRef .tc main_v151)) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) := by
  after_results_simp
  rfl

set_option maxHeartbeats 4000000 in
theorem s3_v205 : StableHlo.after (RefRun.ops3 (F := F)) V (Proc.devRef .tc main_v205)
    = ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg12)))))) := by
  after_results_simp
  rfl

end Cert.ReferenceIdeal.RH

end
-- ==== Proof.RHost4.lean ====
/-
  Window 4 of the reference program, read one result at a time: each buffer the later windows read, after the
  window has run from any contents, as the composition of the window's operations over the buffers it finds.
-/
import proofs.«107973_j83408264888790_1_alg».proof.Proof.RefOps4
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s4_v246 : StableHlo.after (RefRun.ops4 (F := F)) V (Proc.devRef .tc main_v246)
    = (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 50000#32))) (V (Proc.devRef .tc main_arg2)))))) := by
  after_results_simp
  rfl

set_option maxHeartbeats 4000000 in
theorem s4_v231 : StableHlo.after (RefRun.ops4 (F := F)) V (Proc.devRef .tc main_v231)
    = ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) := by
  after_results_simp
  rfl

set_option maxHeartbeats 4000000 in
theorem s4_v254 : StableHlo.after (RefRun.ops4 (F := F)) V (Proc.devRef .tc main_v254)
    = ((broadcastInDim S50000x64 ![] bcast_S_S50000x64 : (⟨S_, .f32⟩ : BufTy).Contents (Elt F) → (⟨S50000x64, .f32⟩ : BufTy).Contents (Elt F)) (constant (F := F) S_ .f32 0x00000000#32)) := by
  after_results_simp

set_option maxHeartbeats 4000000 in
theorem s4_v253 : StableHlo.after (RefRun.ops4 (F := F)) V (Proc.devRef .tc main_v253)
    = (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v203)) (V (Proc.devRef .tc main_v205))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))) := by
  after_results_simp
  rfl

end Cert.ReferenceIdeal.RH

end
-- ==== Proof.RHost5.lean ====
/-
  Window 5 of the reference program, read one result at a time: each buffer the later windows read, after the
  window has run from any contents, as the composition of the window's operations over the buffers it finds.
-/
import proofs.«107973_j83408264888790_1_alg».proof.Proof.RefOps5
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s5_v299 : StableHlo.after (RefRun.ops5 (F := F)) V (Proc.devRef .tc main_v299)
    = ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg11)))) := by
  after_results_simp
  rfl

set_option maxHeartbeats 4000000 in
theorem s5_v297 : StableHlo.after (RefRun.ops5 (F := F)) V (Proc.devRef .tc main_v297)
    = ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) := by
  after_results_simp
  rfl

set_option maxHeartbeats 4000000 in
theorem s5_v307 : StableHlo.after (RefRun.ops5 (F := F)) V (Proc.devRef .tc main_v307)
    = ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))) := by
  after_results_simp
  rfl

set_option maxHeartbeats 4000000 in
theorem s5_v305 : StableHlo.after (RefRun.ops5 (F := F)) V (Proc.devRef .tc main_v305)
    = ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg7)))))) ((subf (F := F) : (⟨S50000x64, .f32⟩ : BufTy).Contents (Elt F) → (⟨S50000x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32))))) ((subf (F := F)) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((addf (F := F) : (⟨S50000x64, .f32⟩ : BufTy).Contents (Elt F) → (⟨S50000x64, .f32⟩ : BufTy).Contents (Elt F) → (⟨S50000x64, .f32⟩ : BufTy).Contents (Elt F)) (((fun l r => Host.dotGeneral (F := F) dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((addf (F := F) : (⟨S50000x64, .f32⟩ : BufTy).Contents (Elt F) → (⟨S50000x64, .f32⟩ : BufTy).Contents (Elt F) → (⟨S50000x64, .f32⟩ : BufTy).Contents (Elt F)) (V (Proc.devRef .tc main_v231)) (((fun x i u => Host.scatterAdd (F := F) (φ := .f32) scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) (V (Proc.devRef .tc main_v254)) ((broadcastInDim S800000x1 ![0] bcast_S800000_S800000x1_0 : (⟨S800000, .i32⟩ : BufTy).Contents (Elt F) → (⟨S800000x1, .i32⟩ : BufTy).Contents (Elt F)) (V (Proc.devRef .tc main_arg2))) (V (Proc.devRef .tc main_v253)))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg6))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg8))))))) ((broadcastInDim S50000x64 ![] bcast_S_S50000x64) (constant (F := F) S_ .f32 0x00000000#32))) ((shapeCast S64x64 · shapeCasts_S1x64x64_S64x64) (((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg9))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg10))))))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) := by
  after_results_simp
  rfl

set_option maxHeartbeats 4000000 in
theorem s5_v301 : StableHlo.after (RefRun.ops5 (F := F)) V (Proc.devRef .tc main_v301)
    = ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg12)))) := by
  after_results_simp
  rfl

end Cert.ReferenceIdeal.RH

end
-- ==== Proof.RHost6.lean ====
/-
  Window 6 of the reference program, read one result at a time: each buffer the later windows read, after the
  window has run from any contents, as the composition of the window's operations over the buffers it finds.
-/
import proofs.«107973_j83408264888790_1_alg».proof.Proof.RefOps6
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s6_v352 : StableHlo.after (RefRun.ops6 (F := F)) V (Proc.devRef .tc main_v352)
    = (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg1)) ((broadcastInDim S800000 ![] bcast_S_S800000 : (⟨S_, .i32⟩ : BufTy).Contents (Elt F) → (⟨S800000, .i32⟩ : BufTy).Contents (Elt F)) (constantI S_ 32 50000#32))) (V (Proc.devRef .tc main_arg1))))) := by
  after_results_simp
  rfl

set_option maxHeartbeats 4000000 in
theorem s6_v345 : StableHlo.after (RefRun.ops6 (F := F)) V (Proc.devRef .tc main_v345)
    = ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg13)))))) ((subf (F := F) : (⟨S50000x64, .f32⟩ : BufTy).Contents (Elt F) → (⟨S50000x64, .f32⟩ : BufTy).Contents (Elt F) → (⟨S50000x64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf (F := F) : (⟨S64, .f32⟩ : BufTy).Contents (Elt F) → (⟨S64, .f32⟩ : BufTy).Contents (Elt F) → (⟨S64, .f32⟩ : BufTy).Contents (Elt F)) (((fun x v => Host.reduceAdd (F := F) x v reducesTo_S50000x64_S64_d0 h_S_) : (⟨S50000x64, .f32⟩ : BufTy).Contents (Elt F) → (⟨S_, .f32⟩ : BufTy).Contents (Elt F) → (⟨S64, .f32⟩ : BufTy).Contents (Elt F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf (F := F) .ogt) ((subf (F := F)) (constant (F := F) S_ .f32 0x47435000#32) ((sitofp (F := F) .f32) (constantI S_ 32 0#32))) (constant (F := F) S_ .f32 0x00000000#32)) ((Host.divf (F := F)) ((fun x v => Host.reduceAdd (F := F) x v reducesTo_S50000x64_S64_d0 h_S_) ((mulf (F := F)) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32))))) ((subf (F := F)) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) ((broadcastInDim S50000x64 ![0, 1] bcast_S1x64_S50000x64_0_1) ((Host.divf (F := F)) ((broadcastInDim S1x64 ![1] bcast_S64_S1x64_1) ((fun x v => Host.reduceAdd (F := F) x v reducesTo_S50000x64_S64_d0 h_S_) ((maximumf (F := F)) ((addf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v299)))) ((subf (F := F) : (⟨S50000x64, .f32⟩ : BufTy).Contents (Elt F) → (⟨S50000x64, .f32⟩ : BufTy).Contents (Elt F) → (⟨S50000x64, .f32⟩ : BufTy).Contents (Elt F)) (V (Proc.devRef .tc main_v297)) (V (Proc.devRef .tc main_v307)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (V (Proc.devRef .tc main_v305)) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_v301))))) ((broadcastInDim S50000x64 ![] bcast_S_S50000x64) (constant (F := F) S_ .f32 0x00000000#32))) (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) ((subf (F := F)) (constant (F := F) S_ .f32 0x47435000#32) ((sitofp (F := F) .f32) (constantI S_ 32 0#32))))) ((broadcastInDim S64 ![] bcast_S_S64) (id (constant (F := F) S_ .f32 0x7FC00000#32)))) ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (V (Proc.devRef .tc main_arg14))))))) ((broadcastInDim S50000x64 ![] bcast_S_S50000x64) (constant (F := F) S_ .f32 0x00000000#32))) := by
  after_results_simp
  rfl

set_option maxHeartbeats 4000000 in
theorem s6_v358 : StableHlo.after (RefRun.ops6 (F := F)) V (Proc.devRef .tc main_v358)
    = ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (V (Proc.devRef .tc main_arg2)) ((broadcastInDim S800000 ![] bcast_S_S800000 : (⟨S_, .i32⟩ : BufTy).Contents (Elt F) → (⟨S800000, .i32⟩ : BufTy).Contents (Elt F)) (constantI S_ 32 50000#32))) (V (Proc.devRef .tc main_arg2)))) := by
  after_results_simp

end Cert.ReferenceIdeal.RH

end
-- ==== Proof.RHost7.lean ====
/-
  Window 7 of the reference program, read one result at a time: each buffer the later windows read, after the
  window has run from any contents, as the composition of the window's operations over the buffers it finds.
-/
import proofs.«107973_j83408264888790_1_alg».proof.Proof.RefOps7
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s7_v415 : StableHlo.after (RefRun.ops7 (F := F)) V (Proc.devRef .tc main_v415)
    = ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) ((broadcastInDim S800000x2 ![] bcast_S_S800000x2 : (⟨S_, .f32⟩ : BufTy).Contents (Elt F) → (⟨S800000x2, .f32⟩ : BufTy).Contents (Elt F)) (constant (F := F) S_ .f32 0x00000000#32)) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (V (Proc.devRef .tc main_v18)) ((shapeCast S128x64 · shapeCasts_S1x128x64_S128x64) (((extractStridedSlice S1x128x64 ![0, 0, 0] · slices_S4x128x64_S1x128x64_0_0_0) : (⟨S4x128x64, .f32⟩ : BufTy).Contents (Elt F) → (⟨S1x128x64, .f32⟩ : BufTy).Contents (Elt F)) (V (Proc.devRef .tc main_arg15))))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S4x64_S1x64_0_0) : (⟨S4x64, .f32⟩ : BufTy).Contents (Elt F) → (⟨S1x64, .f32⟩ : BufTy).Contents (Elt F)) (V (Proc.devRef .tc main_arg16))))))) ((broadcastInDim S800000x64 ![] bcast_S_S800000x64) (constant (F := F) S_ .f32 0x00000000#32))) ((shapeCast S64x2 · shapeCasts_S1x64x2_S64x2) (((extractStridedSlice S1x64x2 ![0, 0, 0] · slices_S4x64x2_S1x64x2_0_0_0) : (⟨S4x64x2, .f32⟩ : BufTy).Contents (Elt F) → (⟨S1x64x2, .f32⟩ : BufTy).Contents (Elt F)) (V (Proc.devRef .tc main_arg17)))))) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![0, 0] · slices_S4x2_S1x2_0_0) : (⟨S4x2, .f32⟩ : BufTy).Contents (Elt F) → (⟨S1x2, .f32⟩ : BufTy).Contents (Elt F)) (V (Proc.devRef .tc main_arg18))))))) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (V (Proc.devRef .tc main_v132)) ((shapeCast S128x64 · shapeCasts_S1x128x64_S128x64) (((extractStridedSlice S1x128x64 ![1, 0, 0] · slices_S4x128x64_S1x128x64_1_0_0) : (⟨S4x128x64, .f32⟩ : BufTy).Contents (Elt F) → (⟨S1x128x64, .f32⟩ : BufTy).Contents (Elt F)) (V (Proc.devRef .tc main_arg15))))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S4x64_S1x64_1_0) : (⟨S4x64, .f32⟩ : BufTy).Contents (Elt F) → (⟨S1x64, .f32⟩ : BufTy).Contents (Elt F)) (V (Proc.devRef .tc main_arg16))))))) ((broadcastInDim S800000x64 ![] bcast_S_S800000x64) (constant (F := F) S_ .f32 0x00000000#32))) ((shapeCast S64x2 · shapeCasts_S1x64x2_S64x2) (((extractStridedSlice S1x64x2 ![1, 0, 0] · slices_S4x64x2_S1x64x2_1_0_0) : (⟨S4x64x2, .f32⟩ : BufTy).Contents (Elt F) → (⟨S1x64x2, .f32⟩ : BufTy).Contents (Elt F)) (V (Proc.devRef .tc main_arg17)))))) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![1, 0] · slices_S4x2_S1x2_1_0) : (⟨S4x2, .f32⟩ : BufTy).Contents (Elt F) → (⟨S1x2, .f32⟩ : BufTy).Contents (Elt F)) (V (Proc.devRef .tc main_arg18))))))) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (V (Proc.devRef .tc main_v246)) ((shapeCast S128x64 · shapeCasts_S1x128x64_S128x64) (((extractStridedSlice S1x128x64 ![2, 0, 0] · slices_S4x128x64_S1x128x64_2_0_0) : (⟨S4x128x64, .f32⟩ : BufTy).Contents (Elt F) → (⟨S1x128x64, .f32⟩ : BufTy).Contents (Elt F)) (V (Proc.devRef .tc main_arg15))))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![2, 0] · slices_S4x64_S1x64_2_0) : (⟨S4x64, .f32⟩ : BufTy).Contents (Elt F) → (⟨S1x64, .f32⟩ : BufTy).Contents (Elt F)) (V (Proc.devRef .tc main_arg16))))))) ((broadcastInDim S800000x64 ![] bcast_S_S800000x64) (constant (F := F) S_ .f32 0x00000000#32))) ((shapeCast S64x2 · shapeCasts_S1x64x2_S64x2) (((extractStridedSlice S1x64x2 ![2, 0, 0] · slices_S4x64x2_S1x64x2_2_0_0) : (⟨S4x64x2, .f32⟩ : BufTy).Contents (Elt F) → (⟨S1x64x2, .f32⟩ : BufTy).Contents (Elt F)) (V (Proc.devRef .tc main_arg17)))))) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![2, 0] · slices_S4x2_S1x2_2_0) : (⟨S4x2, .f32⟩ : BufTy).Contents (Elt F) → (⟨S1x2, .f32⟩ : BufTy).Contents (Elt F)) (V (Proc.devRef .tc main_arg18))))))) := by
  after_results_simp
  rfl

set_option maxHeartbeats 4000000 in
theorem s7_v360 : StableHlo.after (RefRun.ops7 (F := F)) V (Proc.devRef .tc main_v360)
    = (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (V (Proc.devRef .tc main_v352)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (V (Proc.devRef .tc main_v345)) (V (Proc.devRef .tc main_v358)))) := by
  after_results_simp
  rfl

set_option maxHeartbeats 4000000 in
theorem s7_v417 : StableHlo.after (RefRun.ops7 (F := F)) V (Proc.devRef .tc main_v417)
    = ((shapeCast S128x64 · shapeCasts_S1x128x64_S128x64) (((extractStridedSlice S1x128x64 ![3, 0, 0] · slices_S4x128x64_S1x128x64_3_0_0) : (⟨S4x128x64, .f32⟩ : BufTy).Contents (Elt F) → (⟨S1x128x64, .f32⟩ : BufTy).Contents (Elt F)) (V (Proc.devRef .tc main_arg15)))) := by
  after_results_simp
  rfl

end Cert.ReferenceIdeal.RH

end
-- ==== Proof.RHost8.lean ====
/-
  Window 8 of the reference program, read one result at a time: each buffer the later windows read, after the
  window has run from any contents, as the composition of the window's operations over the buffers it finds.
-/
import proofs.«107973_j83408264888790_1_alg».proof.Proof.RefOps8
import Idealize.ShloMosaic.Lib.StableHlo.Run
import Idealize.ShloMosaic.PureOps.Ideal

set_option maxRecDepth 16384

noncomputable section

namespace Cert.ReferenceIdeal.RH

open Cert.ReferenceIdeal Cert.ReferenceIdeal.Gen
open Idealize.ShloMosaic Idealize.ShloMosaic.TcCoe Idealize.SL.Sem Idealize.ShloMosaic.StableHlo

variable {F : FTy → Type} [FloatOps F] (V : Valuation τ sig (Elt F))

attribute [local irreducible] Host.gather Host.scatterAdd Host.reduceAdd

set_option maxHeartbeats 4000000 in
theorem s8_v433 : StableHlo.after (RefRun.ops8 (F := F)) V (Proc.devRef .tc main_v433)
    = ((addf (F := F) : (⟨S800000x2, .f32⟩ : BufTy).Contents (Elt F) → (⟨S800000x2, .f32⟩ : BufTy).Contents (Elt F) → (⟨S800000x2, .f32⟩ : BufTy).Contents (Elt F)) ((addf (F := F) : (⟨S800000x2, .f32⟩ : BufTy).Contents (Elt F) → (⟨S800000x2, .f32⟩ : BufTy).Contents (Elt F) → (⟨S800000x2, .f32⟩ : BufTy).Contents (Elt F)) (V (Proc.devRef .tc main_v415)) (((fun l r => Host.dotGeneral (F := F) dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) ((maximumf (F := F)) ((addf (F := F) : (⟨S800000x64, .f32⟩ : BufTy).Contents (Elt F) → (⟨S800000x64, .f32⟩ : BufTy).Contents (Elt F) → (⟨S800000x64, .f32⟩ : BufTy).Contents (Elt F)) (((fun l r => Host.dotGeneral (F := F) dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (V (Proc.devRef .tc main_v360)) (V (Proc.devRef .tc main_v417))) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![3, 0] · slices_S4x64_S1x64_3_0) : (⟨S4x64, .f32⟩ : BufTy).Contents (Elt F) → (⟨S1x64, .f32⟩ : BufTy).Contents (Elt F)) (V (Proc.devRef .tc main_arg16))))))) ((broadcastInDim S800000x64 ![] bcast_S_S800000x64) (constant (F := F) S_ .f32 0x00000000#32))) ((shapeCast S64x2 · shapeCasts_S1x64x2_S64x2) (((extractStridedSlice S1x64x2 ![3, 0, 0] · slices_S4x64x2_S1x64x2_3_0_0) : (⟨S4x64x2, .f32⟩ : BufTy).Contents (Elt F) → (⟨S1x64x2, .f32⟩ : BufTy).Contents (Elt F)) (V (Proc.devRef .tc main_arg17)))))) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) ((shapeCast S2 · shapeCasts_S1x2_S2) (((extractStridedSlice S1x2 ![3, 0] · slices_S4x2_S1x2_3_0) : (⟨S4x2, .f32⟩ : BufTy).Contents (Elt F) → (⟨S1x2, .f32⟩ : BufTy).Contents (Elt F)) (V (Proc.devRef .tc main_arg18))))))) := by
  after_results_simp
  rfl

end Cert.ReferenceIdeal.RH

end
-- ==== Proof.RChain.lean ====
/-
  The reference program's result as a function of its argument arrays.

  Walking the nine windows from the launch memory: a buffer defined in a window is the window's composition over
  the buffers it finds, and a value once defined is read unchanged after every later window. Named here are the
  node arrays after the embedding and after each layer, the endpoint rows side by side, the neighbour sums, each
  layer's intermediate arrays with their batch means and variances, the perceptrons' hidden layers and the running
  score; the result buffer after the last window is the last running score.
-/
import proofs.«107973_j83408264888790_1_alg».proof.Proof.RKeep
import proofs.«107973_j83408264888790_1_alg».proof.Proof.RDefs
import proofs.«107973_j83408264888790_1_alg».proof.Proof.RHost0
import proofs.«107973_j83408264888790_1_alg».proof.Proof.RHost1
import proofs.«107973_j83408264888790_1_alg».proof.Proof.RHost2
import proofs.«107973_j83408264888790_1_alg».proof.Proof.RHost3
import proofs.«107973_j83408264888790_1_alg».proof.Proof.RHost4
import proofs.«107973_j83408264888790_1_alg».proof.Proof.RHost5
import proofs.«107973_j83408264888790_1_alg».proof.Proof.RHost6
import proofs.«107973_j83408264888790_1_alg».proof.Proof.RHost7
import proofs.«107973_j83408264888790_1_alg».proof.Proof.RHost8
import Idealize.ShloMosaic.Lib.StableHlo.Run
import Idealize.ShloMosaic.PureOps.Ideal

set_option maxRecDepth 16384

noncomputable section

namespace Cert.ReferenceIdeal.Chain

open Cert.ReferenceIdeal Cert.ReferenceIdeal.Gen
open Idealize.ShloMosaic Idealize.ShloMosaic.TcCoe Idealize.SL.Sem Idealize.ShloMosaic.StableHlo

open Cert.ReferenceIdeal.RKeep

variable {F : FTy → Type} [FloatOps F] (m : (ℓ : Loc nD τ sig) → Buf (Elt F) ℓ) (c : Dev nD)

theorem g0_arg0 : R0 m c (Proc.devRef .tc main_arg0) = (A m c main_arg0) :=
  RKeep.args0 m c main_arg0 (by decide)
theorem g0_arg3 : R0 m c (Proc.devRef .tc main_arg3) = (A m c main_arg3) :=
  RKeep.args0 m c main_arg3 (by decide)
theorem g0_arg4 : R0 m c (Proc.devRef .tc main_arg4) = (A m c main_arg4) :=
  RKeep.args0 m c main_arg4 (by decide)
theorem g0_arg1 : R0 m c (Proc.devRef .tc main_arg1) = (A m c main_arg1) :=
  RKeep.args0 m c main_arg1 (by decide)
theorem g0_arg2 : R0 m c (Proc.devRef .tc main_arg2) = (A m c main_arg2) :=
  RKeep.args0 m c main_arg2 (by decide)
theorem g1_v18 : R1 m c (Proc.devRef .tc main_v18) = (E0 m c) := by
  refine (RH.s0_v18 (R0 m c)).trans ?_
  rw [g0_arg0 m c, g0_arg3 m c, g0_arg4 m c, g0_arg1 m c, g0_arg2 m c]
  rfl
theorem g2_v18 : R2 m c (Proc.devRef .tc main_v18) = (E0 m c) :=
  (RKeep.keep2 m c main_v18 (by decide)).trans (g1_v18 m c)
theorem g3_v18 : R3 m c (Proc.devRef .tc main_v18) = (E0 m c) :=
  (RKeep.keep3 m c main_v18 (by decide)).trans (g2_v18 m c)
theorem g4_v18 : R4 m c (Proc.devRef .tc main_v18) = (E0 m c) :=
  (RKeep.keep4 m c main_v18 (by decide)).trans (g3_v18 m c)
theorem g5_v18 : R5 m c (Proc.devRef .tc main_v18) = (E0 m c) :=
  (RKeep.keep5 m c main_v18 (by decide)).trans (g4_v18 m c)
theorem g6_v18 : R6 m c (Proc.devRef .tc main_v18) = (E0 m c) :=
  (RKeep.keep6 m c main_v18 (by decide)).trans (g5_v18 m c)
theorem g7_v18 : R7 m c (Proc.devRef .tc main_v18) = (E0 m c) :=
  (RKeep.keep7 m c main_v18 (by decide)).trans (g6_v18 m c)
theorem g7_arg15 : R7 m c (Proc.devRef .tc main_arg15) = (A m c main_arg15) :=
  RKeep.args7 m c main_arg15 (by decide)
theorem g7_arg16 : R7 m c (Proc.devRef .tc main_arg16) = (A m c main_arg16) :=
  RKeep.args7 m c main_arg16 (by decide)
theorem g7_arg17 : R7 m c (Proc.devRef .tc main_arg17) = (A m c main_arg17) :=
  RKeep.args7 m c main_arg17 (by decide)
theorem g7_arg18 : R7 m c (Proc.devRef .tc main_arg18) = (A m c main_arg18) :=
  RKeep.args7 m c main_arg18 (by decide)
theorem g1_arg13 : R1 m c (Proc.devRef .tc main_arg13) = (A m c main_arg13) :=
  RKeep.args1 m c main_arg13 (by decide)
theorem g2_v95 : R2 m c (Proc.devRef .tc main_v95) = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg13))) := by
  refine (RH.s1_v95 (R1 m c)).trans ?_
  rw [g1_arg13 m c]
theorem g1_arg11 : R1 m c (Proc.devRef .tc main_arg11) = (A m c main_arg11) :=
  RKeep.args1 m c main_arg11 (by decide)
theorem g0_arg7 : R0 m c (Proc.devRef .tc main_arg7) = (A m c main_arg7) :=
  RKeep.args0 m c main_arg7 (by decide)
theorem g1_v49 : R1 m c (Proc.devRef .tc main_v49) = ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg7)))) := by
  refine (RH.s0_v49 (R0 m c)).trans ?_
  rw [g0_arg7 m c]
theorem g0_arg5 : R0 m c (Proc.devRef .tc main_arg5) = (A m c main_arg5) :=
  RKeep.args0 m c main_arg5 (by decide)
theorem g0_arg6 : R0 m c (Proc.devRef .tc main_arg6) = (A m c main_arg6) :=
  RKeep.args0 m c main_arg6 (by decide)
theorem g1_v48 : R1 m c (Proc.devRef .tc main_v48) = ((subf (F := F) : (⟨S50000x64, .f32⟩ : BufTy).Contents (Elt F) → (⟨S50000x64, .f32⟩ : BufTy).Contents (Elt F) → (⟨S50000x64, .f32⟩ : BufTy).Contents (Elt F)) (T1_0 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M1_0 m c)))) := by
  refine (RH.s0_v48 (R0 m c)).trans ?_
  rw [g0_arg0 m c, g0_arg3 m c, g0_arg4 m c, g0_arg2 m c, g0_arg1 m c, g0_arg5 m c, g0_arg6 m c]
  rfl
theorem g1_v45 : R1 m c (Proc.devRef .tc main_v45) = (Vr1_0 m c) := by
  refine (RH.s0_v45 (R0 m c)).trans ?_
  rw [g0_arg0 m c, g0_arg3 m c, g0_arg4 m c, g0_arg2 m c, g0_arg1 m c, g0_arg5 m c, g0_arg6 m c]
  rfl
theorem g0_arg8 : R0 m c (Proc.devRef .tc main_arg8) = (A m c main_arg8) :=
  RKeep.args0 m c main_arg8 (by decide)
theorem g1_v41 : R1 m c (Proc.devRef .tc main_v41) = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg8))) := by
  refine (RH.s0_v41 (R0 m c)).trans ?_
  rw [g0_arg8 m c]
theorem g1_arg9 : R1 m c (Proc.devRef .tc main_arg9) = (A m c main_arg9) :=
  RKeep.args1 m c main_arg9 (by decide)
theorem g1_arg10 : R1 m c (Proc.devRef .tc main_arg10) = (A m c main_arg10) :=
  RKeep.args1 m c main_arg10 (by decide)
theorem g1_arg12 : R1 m c (Proc.devRef .tc main_arg12) = (A m c main_arg12) :=
  RKeep.args1 m c main_arg12 (by decide)
theorem g2_v93 : R2 m c (Proc.devRef .tc main_v93) = (T4_0 m c) := by
  refine (RH.s1_v93 (R1 m c)).trans ?_
  rw [g1_arg11 m c, g1_v49 m c, g1_v48 m c, g1_v45 m c, g1_v41 m c, g1_arg9 m c, g1_arg10 m c, g1_arg12 m c]
  rfl
theorem g2_v100 : R2 m c (Proc.devRef .tc main_v100) = (M3_0 m c) := by
  refine (RH.s1_v100 (R1 m c)).trans ?_
  rw [g1_arg11 m c, g1_v49 m c, g1_v48 m c, g1_v45 m c, g1_v41 m c, g1_arg9 m c, g1_arg10 m c, g1_arg12 m c]
  rfl
theorem g2_v101 : R2 m c (Proc.devRef .tc main_v101) = (Vr3_0 m c) := by
  refine (RH.s1_v101 (R1 m c)).trans ?_
  rw [g1_arg11 m c, g1_v49 m c, g1_v48 m c, g1_v45 m c, g1_v41 m c, g1_arg9 m c, g1_arg10 m c, g1_arg12 m c]
  rfl
theorem g1_arg14 : R1 m c (Proc.devRef .tc main_arg14) = (A m c main_arg14) :=
  RKeep.args1 m c main_arg14 (by decide)
theorem g2_v97 : R2 m c (Proc.devRef .tc main_v97) = ((shapeCast S64 · shapeCasts_S1x64_S64) (((extractStridedSlice S1x64 ![0, 0] · slices_S3x64_S1x64_0_0) : (⟨S3x64, .f32⟩ : BufTy).Contents (Elt F) → (⟨S1x64, .f32⟩ : BufTy).Contents (Elt F)) (A m c main_arg14))) := by
  refine (RH.s1_v97 (R1 m c)).trans ?_
  rw [g1_arg14 m c]
theorem g2_arg1 : R2 m c (Proc.devRef .tc main_arg1) = (A m c main_arg1) :=
  RKeep.args2 m c main_arg1 (by decide)
theorem g2_arg2 : R2 m c (Proc.devRef .tc main_arg2) = (A m c main_arg2) :=
  RKeep.args2 m c main_arg2 (by decide)
theorem g3_v132 : R3 m c (Proc.devRef .tc main_v132) = (E1 m c) := by
  refine (RH.s2_v132 (R2 m c)).trans ?_
  rw [g2_v95 m c, g2_v93 m c, g2_v100 m c, g2_v101 m c, g2_v97 m c, g2_arg1 m c, g2_arg2 m c]
  rfl
theorem g4_v132 : R4 m c (Proc.devRef .tc main_v132) = (E1 m c) :=
  (RKeep.keep4 m c main_v132 (by decide)).trans (g3_v132 m c)
theorem g5_v132 : R5 m c (Proc.devRef .tc main_v132) = (E1 m c) :=
  (RKeep.keep5 m c main_v132 (by decide)).trans (g4_v132 m c)
theorem g6_v132 : R6 m c (Proc.devRef .tc main_v132) = (E1 m c) :=
  (RKeep.keep6 m c main_v132 (by decide)).trans (g5_v132 m c)
theorem g7_v132 : R7 m c (Proc.devRef .tc main_v132) = (E1 m c) :=
  (RKeep.keep7 m c main_v132 (by decide)).trans (g6_v132 m c)
theorem g4_arg13 : R4 m c (Proc.devRef .tc main_arg13) = (A m c main_arg13) :=
  RKeep.args4 m c main_arg13 (by decide)
theorem g3_arg11 : R3 m c (Proc.devRef .tc main_arg11) = (A m c main_arg11) :=
  RKeep.args3 m c main_arg11 (by decide)
theorem g2_arg7 : R2 m c (Proc.devRef .tc main_arg7) = (A m c main_arg7) :=
  RKeep.args2 m c main_arg7 (by decide)
theorem g3_v153 : R3 m c (Proc.devRef .tc main_v153) = ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg7))) := by
  refine (RH.s2_v153 (R2 m c)).trans ?_
  rw [g2_arg7 m c]
theorem g2_arg5 : R2 m c (Proc.devRef .tc main_arg5) = (A m c main_arg5) :=
  RKeep.args2 m c main_arg5 (by decide)
theorem g2_arg6 : R2 m c (Proc.devRef .tc main_arg6) = (A m c main_arg6) :=
  RKeep.args2 m c main_arg6 (by decide)
theorem g3_v151 : R3 m c (Proc.devRef .tc main_v151) = (T1_1 m c) := by
  refine (RH.s2_v151 (R2 m c)).trans ?_
  rw [g2_v95 m c, g2_v93 m c, g2_v100 m c, g2_v101 m c, g2_v97 m c, g2_arg2 m c, g2_arg1 m c, g2_arg5 m c, g2_arg6 m c]
  rfl
theorem g3_arg8 : R3 m c (Proc.devRef .tc main_arg8) = (A m c main_arg8) :=
  RKeep.args3 m c main_arg8 (by decide)
theorem g3_arg9 : R3 m c (Proc.devRef .tc main_arg9) = (A m c main_arg9) :=
  RKeep.args3 m c main_arg9 (by decide)
theorem g3_arg10 : R3 m c (Proc.devRef .tc main_arg10) = (A m c main_arg10) :=
  RKeep.args3 m c main_arg10 (by decide)
theorem g4_v203 : R4 m c (Proc.devRef .tc main_v203) = ((mulf (F := F) : (⟨S50000x64, .f32⟩ : BufTy).Contents (Elt F) → (⟨S50000x64, .f32⟩ : BufTy).Contents (Elt F) → (⟨S50000x64, .f32⟩ : BufTy).Contents (Elt F)) ((mulf (F := F) : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg11))))) ((subf (F := F) : (⟨S50000x64, .f32⟩ : BufTy).Contents (Elt F) → (⟨S50000x64, .f32⟩ : BufTy).Contents (Elt F) → (⟨S50000x64, .f32⟩ : BufTy).Contents (Elt F)) (T3_1 m c) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M2_1 m c))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt (F := F) : (⟨S64, .f32⟩ : BufTy).Contents (Elt F) → (⟨S64, .f32⟩ : BufTy).Contents (Elt F)) ((addf (F := F) : (⟨S64, .f32⟩ : BufTy).Contents (Elt F) → (⟨S64, .f32⟩ : BufTy).Contents (Elt F) → (⟨S64, .f32⟩ : BufTy).Contents (Elt F)) (Vr2_1 m c) ((broadcastInDim S64 ![] bcast_S_S64 : (⟨S_, .f32⟩ : BufTy).Contents (Elt F) → (⟨S64, .f32⟩ : BufTy).Contents (Elt F)) (constant (F := F) S_ .f32 0x3727C5AC#32))))))) := by
  refine (RH.s3_v203 (R3 m c)).trans ?_
  rw [g3_arg11 m c, g3_v153 m c, g3_v151 m c, g3_arg8 m c, g3_arg9 m c, g3_arg10 m c]
  rfl
theorem g3_arg12 : R3 m c (Proc.devRef .tc main_arg12) = (A m c main_arg12) :=
  RKeep.args3 m c main_arg12 (by decide)
theorem g4_v205 : R4 m c (Proc.devRef .tc main_v205) = ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((shapeCast S64 · shapeCasts_S1x64_S64) (((extractStridedSlice S1x64 ![1, 0] · slices_S3x64_S1x64_1_0) : (⟨S3x64, .f32⟩ : BufTy).Contents (Elt F) → (⟨S1x64, .f32⟩ : BufTy).Contents (Elt F)) (A m c main_arg12))))) := by
  refine (RH.s3_v205 (R3 m c)).trans ?_
  rw [g3_arg12 m c]
theorem g4_arg14 : R4 m c (Proc.devRef .tc main_arg14) = (A m c main_arg14) :=
  RKeep.args4 m c main_arg14 (by decide)
theorem g4_arg1 : R4 m c (Proc.devRef .tc main_arg1) = (A m c main_arg1) :=
  RKeep.args4 m c main_arg1 (by decide)
theorem g4_arg2 : R4 m c (Proc.devRef .tc main_arg2) = (A m c main_arg2) :=
  RKeep.args4 m c main_arg2 (by decide)
theorem g5_v246 : R5 m c (Proc.devRef .tc main_v246) = (E2 m c) := by
  refine (RH.s4_v246 (R4 m c)).trans ?_
  rw [g4_arg13 m c, g4_v203 m c, g4_v205 m c, g4_arg14 m c, g4_arg1 m c, g4_arg2 m c]
  rfl
theorem g6_v246 : R6 m c (Proc.devRef .tc main_v246) = (E2 m c) :=
  (RKeep.keep6 m c main_v246 (by decide)).trans (g5_v246 m c)
theorem g7_v246 : R7 m c (Proc.devRef .tc main_v246) = (E2 m c) :=
  (RKeep.keep7 m c main_v246 (by decide)).trans (g6_v246 m c)
theorem g8_v415 : R8 m c (Proc.devRef .tc main_v415) = (Sb2 m c) := by
  refine (RH.s7_v415 (R7 m c)).trans ?_
  rw [g7_v18 m c, g7_arg15 m c, g7_arg16 m c, g7_arg17 m c, g7_arg18 m c, g7_v132 m c, g7_v246 m c]
  rfl
theorem g6_arg13 : R6 m c (Proc.devRef .tc main_arg13) = (A m c main_arg13) :=
  RKeep.args6 m c main_arg13 (by decide)
theorem g5_arg11 : R5 m c (Proc.devRef .tc main_arg11) = (A m c main_arg11) :=
  RKeep.args5 m c main_arg11 (by decide)
theorem g6_v299 : R6 m c (Proc.devRef .tc main_v299) = ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg11))) := by
  refine (RH.s5_v299 (R5 m c)).trans ?_
  rw [g5_arg11 m c]
theorem g5_arg7 : R5 m c (Proc.devRef .tc main_arg7) = (A m c main_arg7) :=
  RKeep.args5 m c main_arg7 (by decide)
theorem g5_v231 : R5 m c (Proc.devRef .tc main_v231) = (X2 m c) := by
  refine (RH.s4_v231 (R4 m c)).trans ?_
  rw [g4_arg13 m c, g4_v203 m c, g4_v205 m c, g4_arg14 m c]
  rfl
theorem g5_v254 : R5 m c (Proc.devRef .tc main_v254) = ((broadcastInDim S50000x64 ![] bcast_S_S50000x64 : (⟨S_, .f32⟩ : BufTy).Contents (Elt F) → (⟨S50000x64, .f32⟩ : BufTy).Contents (Elt F)) (constant (F := F) S_ .f32 0x00000000#32)) := by
  refine (RH.s4_v254 (R4 m c)).trans ?_
  rfl
theorem g5_arg2 : R5 m c (Proc.devRef .tc main_arg2) = (A m c main_arg2) :=
  RKeep.args5 m c main_arg2 (by decide)
theorem g5_v253 : R5 m c (Proc.devRef .tc main_v253) = (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X2 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) := by
  refine (RH.s4_v253 (R4 m c)).trans ?_
  rw [g4_arg13 m c, g4_v203 m c, g4_v205 m c, g4_arg14 m c, g4_arg1 m c]
  rfl
theorem g5_arg5 : R5 m c (Proc.devRef .tc main_arg5) = (A m c main_arg5) :=
  RKeep.args5 m c main_arg5 (by decide)
theorem g5_arg6 : R5 m c (Proc.devRef .tc main_arg6) = (A m c main_arg6) :=
  RKeep.args5 m c main_arg6 (by decide)
theorem g5_arg8 : R5 m c (Proc.devRef .tc main_arg8) = (A m c main_arg8) :=
  RKeep.args5 m c main_arg8 (by decide)
theorem g5_arg9 : R5 m c (Proc.devRef .tc main_arg9) = (A m c main_arg9) :=
  RKeep.args5 m c main_arg9 (by decide)
theorem g5_arg10 : R5 m c (Proc.devRef .tc main_arg10) = (A m c main_arg10) :=
  RKeep.args5 m c main_arg10 (by decide)
theorem g6_v297 : R6 m c (Proc.devRef .tc main_v297) = (T3_2 m c) := by
  refine (RH.s5_v297 (R5 m c)).trans ?_
  rw [g5_arg7 m c, g5_v231 m c, g5_v254 m c, g5_arg2 m c, g5_v253 m c, g5_arg5 m c, g5_arg6 m c, g5_arg8 m c, g5_arg9 m c, g5_arg10 m c]
  rfl
theorem g6_v307 : R6 m c (Proc.devRef .tc main_v307) = ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (M2_2 m c))) := by
  refine (RH.s5_v307 (R5 m c)).trans ?_
  rw [g5_arg7 m c, g5_v231 m c, g5_v254 m c, g5_arg2 m c, g5_v253 m c, g5_arg5 m c, g5_arg6 m c, g5_arg8 m c, g5_arg9 m c, g5_arg10 m c]
  rfl
theorem g6_v305 : R6 m c (Proc.devRef .tc main_v305) = (Vr2_2 m c) := by
  refine (RH.s5_v305 (R5 m c)).trans ?_
  rw [g5_arg7 m c, g5_v231 m c, g5_v254 m c, g5_arg2 m c, g5_v253 m c, g5_arg5 m c, g5_arg6 m c, g5_arg8 m c, g5_arg9 m c, g5_arg10 m c]
  rfl
theorem g5_arg12 : R5 m c (Proc.devRef .tc main_arg12) = (A m c main_arg12) :=
  RKeep.args5 m c main_arg12 (by decide)
theorem g6_v301 : R6 m c (Proc.devRef .tc main_v301) = ((shapeCast S64 · shapeCasts_S1x64_S64) (((extractStridedSlice S1x64 ![2, 0] · slices_S3x64_S1x64_2_0) : (⟨S3x64, .f32⟩ : BufTy).Contents (Elt F) → (⟨S1x64, .f32⟩ : BufTy).Contents (Elt F)) (A m c main_arg12))) := by
  refine (RH.s5_v301 (R5 m c)).trans ?_
  rw [g5_arg12 m c]
theorem g6_arg14 : R6 m c (Proc.devRef .tc main_arg14) = (A m c main_arg14) :=
  RKeep.args6 m c main_arg14 (by decide)
theorem g6_arg1 : R6 m c (Proc.devRef .tc main_arg1) = (A m c main_arg1) :=
  RKeep.args6 m c main_arg1 (by decide)
theorem g7_v352 : R7 m c (Proc.devRef .tc main_v352) = (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (X3 m c) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg1) ((broadcastInDim S800000 ![] bcast_S_S800000 : (⟨S_, .i32⟩ : BufTy).Contents (Elt F) → (⟨S800000, .i32⟩ : BufTy).Contents (Elt F)) (constantI S_ 32 50000#32))) (A m c main_arg1)))) := by
  refine (RH.s6_v352 (R6 m c)).trans ?_
  rw [g6_arg13 m c, g6_v299 m c, g6_v297 m c, g6_v307 m c, g6_v305 m c, g6_v301 m c, g6_arg14 m c, g6_arg1 m c]
  rfl
theorem g7_v345 : R7 m c (Proc.devRef .tc main_v345) = (X3 m c) := by
  refine (RH.s6_v345 (R6 m c)).trans ?_
  rw [g6_arg13 m c, g6_v299 m c, g6_v297 m c, g6_v307 m c, g6_v305 m c, g6_v301 m c, g6_arg14 m c]
  rfl
theorem g6_arg2 : R6 m c (Proc.devRef .tc main_arg2) = (A m c main_arg2) :=
  RKeep.args6 m c main_arg2 (by decide)
theorem g7_v358 : R7 m c (Proc.devRef .tc main_v358) = ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (A m c main_arg2) ((broadcastInDim S800000 ![] bcast_S_S800000 : (⟨S_, .i32⟩ : BufTy).Contents (Elt F) → (⟨S800000, .i32⟩ : BufTy).Contents (Elt F)) (constantI S_ 32 50000#32))) (A m c main_arg2))) := by
  refine (RH.s6_v358 (R6 m c)).trans ?_
  rw [g6_arg2 m c]
theorem g8_v360 : R8 m c (Proc.devRef .tc main_v360) = (E3 m c) := by
  refine (RH.s7_v360 (R7 m c)).trans ?_
  rw [g7_v352 m c, g7_v345 m c, g7_v358 m c]
  rfl
theorem g8_v417 : R8 m c (Proc.devRef .tc main_v417) = ((shapeCast S128x64 · shapeCasts_S1x128x64_S128x64) (((extractStridedSlice S1x128x64 ![3, 0, 0] · slices_S4x128x64_S1x128x64_3_0_0) : (⟨S4x128x64, .f32⟩ : BufTy).Contents (Elt F) → (⟨S1x128x64, .f32⟩ : BufTy).Contents (Elt F)) (A m c main_arg15))) := by
  refine (RH.s7_v417 (R7 m c)).trans ?_
  rw [g7_arg15 m c]
theorem g8_arg16 : R8 m c (Proc.devRef .tc main_arg16) = (A m c main_arg16) :=
  RKeep.args8 m c main_arg16 (by decide)
theorem g8_arg17 : R8 m c (Proc.devRef .tc main_arg17) = (A m c main_arg17) :=
  RKeep.args8 m c main_arg17 (by decide)
theorem g8_arg18 : R8 m c (Proc.devRef .tc main_arg18) = (A m c main_arg18) :=
  RKeep.args8 m c main_arg18 (by decide)
theorem g9_v433 : R9 m c (Proc.devRef .tc main_v433) = (Sb3 m c) := by
  refine (RH.s8_v433 (R8 m c)).trans ?_
  rw [g8_v415 m c, g8_v360 m c, g8_v417 m c, g8_arg16 m c, g8_arg17 m c, g8_arg18 m c]
  rfl

/-- The result buffer after the whole program is the last running score. -/
theorem result : StableHlo.after (RefRun.ops (F := F)) (launchContents m c) (Proc.devRef .tc main_v433) = Sb3 m c := by
  rw [RKeep.after_ops_eq]
  exact g9_v433 m c

end Cert.ReferenceIdeal.Chain

end
-- ==== Proof.RPay.lean ====
/-
  The reference program's whole-array operations, read entry by entry.

  At exact arithmetic the host's matrix product is, at entry (p, q), the sum over k of x[p,k] · w[k,q]; a bias
  vector laid out as a one-row array and repeated down the rows reads b[q] at (p, q); a scalar constant repeated
  over an array reads that constant everywhere; and the pointwise operations (sum, difference, product, maximum,
  reciprocal square root) act on the entries. Reading each whole-array expression at an entry (p, q) therefore gives
  the specification's formula at (p, q):
    product plus bias                         is  x·w + b;
    scale · (x − mean) · rsqrt(var + ε) + shift, clamped below at 0,  is the normalise-and-clamp step;
    product plus bias clamped below at 0      is  the edge perceptron's hidden layer.
-/
import Idealize.ShloMosaic.Lib.ValueIdx
import Idealize.ShloMosaic.Lib.Pipeline.Value
import Idealize.ShloMosaic.PureOps.Ideal
import proofs.«107973_j83408264888790_1_alg».proof.Proof.Spec
import proofs.«107973_j83408264888790_1_alg».proof.Proof.LibDenseLayer

noncomputable section

namespace GinHost

open Idealize.ShloMosaic Idealize.ShloMosaic.ValueIdx

/-- A rank-0 constant repeated over a shape reads that constant at every index. -/
theorem scalar_bcast_apply {s : Shape} (h : (⟨0, ![]⟩ : Shape).BroadcastsInDim s ![]) (c : BitVec 32) (i : s.Idx) :
    broadcastInDim s ![] h (constant (F := Ideal) ⟨0, ![]⟩ .f32 c) i = Ideal.ofBits .f32 c :=
  broadcastInDim_apply ![] h (constant (F := Ideal) ⟨0, ![]⟩ .f32 c) i ix0 (fun a => a.elim0)

/-- The host product of x and w is the specification's product. -/
theorem dot_eq {n k m : ℕ} (wf : DotDims.WF ⟨2, ![n, k]⟩ ⟨2, ![k, m]⟩ ⟨2, ![n, m]⟩ [1] [0] [0] [1] [] [])
    (x : GinSpec.Mat n k) (w : GinSpec.Mat k m) :
    Host.dotGeneral (F := Ideal) (LibDenseLayer.mmDims n k m wf) none x w = GinSpec.mm x w := by
  funext i
  rw [LibDenseLayer.host_apply]
  rfl

/-- Host product plus the bias row repeated down the rows is x·w + b. -/
theorem dense_eq {n k m : ℕ} (wf : DotDims.WF ⟨2, ![n, k]⟩ ⟨2, ![k, m]⟩ ⟨2, ![n, m]⟩ [1] [0] [0] [1] [] [])
    (h1 : (⟨1, ![m]⟩ : Shape).BroadcastsInDim ⟨2, ![1, m]⟩ ![1])
    (h2 : (⟨2, ![1, m]⟩ : Shape).BroadcastsInDim ⟨2, ![n, m]⟩ ![0, 1])
    (x : GinSpec.Mat n k) (w : GinSpec.Mat k m) (b : GinSpec.Vct m) :
    addf (Host.dotGeneral (F := Ideal) (LibDenseLayer.mmDims n k m wf) none x w)
        (broadcastInDim ⟨2, ![n, m]⟩ ![0, 1] h2 (broadcastInDim ⟨2, ![1, m]⟩ ![1] h1 b))
      = GinSpec.affine x w b := by
  funext i
  rw [addf_apply, LibDenseLayer.host_apply, LibDenseLayer.bias_host_apply]
  rfl

/-- The reference's normalise-and-clamp expression is the specification's, entry by entry. -/
theorem bnhost_eq {n : ℕ}
    (h1 : (⟨1, ![64]⟩ : Shape).BroadcastsInDim ⟨2, ![1, 64]⟩ ![1])
    (h2 : (⟨2, ![1, 64]⟩ : Shape).BroadcastsInDim ⟨2, ![n, 64]⟩ ![0, 1])
    (c0 : (⟨0, ![]⟩ : Shape).BroadcastsInDim ⟨1, ![64]⟩ ![])
    (cn : (⟨0, ![]⟩ : Shape).BroadcastsInDim ⟨2, ![n, 64]⟩ ![])
    (x : GinSpec.Mat n 64) (mu var g b : GinSpec.Vct 64) :
    maximumf
        (addf
          (mulf
            (mulf (broadcastInDim ⟨2, ![n, 64]⟩ ![0, 1] h2 (broadcastInDim ⟨2, ![1, 64]⟩ ![1] h1 g))
              (subf x (broadcastInDim ⟨2, ![n, 64]⟩ ![0, 1] h2 (broadcastInDim ⟨2, ![1, 64]⟩ ![1] h1 mu))))
            (broadcastInDim ⟨2, ![n, 64]⟩ ![0, 1] h2 (broadcastInDim ⟨2, ![1, 64]⟩ ![1] h1
              (Host.rsqrt (addf var
                (broadcastInDim ⟨1, ![64]⟩ ![] c0 (constant (F := Ideal) ⟨0, ![]⟩ .f32 0x3727C5AC#32)))))))
          (broadcastInDim ⟨2, ![n, 64]⟩ ![0, 1] h2 (broadcastInDim ⟨2, ![1, 64]⟩ ![1] h1 b)))
        (broadcastInDim ⟨2, ![n, 64]⟩ ![] cn (constant (F := Ideal) ⟨0, ![]⟩ .f32 0x00000000#32))
      = GinSpec.bnrelu x mu var g b := by
  funext i
  rw [maximumf_apply, addf_apply, mulf_apply, mulf_apply, subf_apply, scalar_bcast_apply,
    LibDenseLayer.bias_host_apply h1 h2 g, LibDenseLayer.bias_host_apply h1 h2 mu,
    LibDenseLayer.bias_host_apply h1 h2 b, LibDenseLayer.bias_host_apply h1 h2 (Host.rsqrt _)]
  show max (g (ix1 (n := 64) (i 1)) * (x i - mu (ix1 (n := 64) (i 1)))
      * Ideal.rsqrt (var (ix1 (n := 64) (i 1))
          + broadcastInDim ⟨1, ![64]⟩ ![] c0 (constant (F := Ideal) ⟨0, ![]⟩ .f32 0x3727C5AC#32) (ix1 (n := 64) (i 1)))
      + b (ix1 (n := 64) (i 1))) (Ideal.ofBits .f32 0x00000000#32) = _
  rw [scalar_bcast_apply]
  rfl

/-- The reference's hidden layer of the edge perceptron is the specification's. -/
theorem hid1host_eq {n : ℕ} (wf : DotDims.WF ⟨2, ![n, 128]⟩ ⟨2, ![128, 64]⟩ ⟨2, ![n, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![n, 64]⟩ ![0, 1])
    (cn : (⟨0, ![]⟩ : Shape).BroadcastsInDim ⟨2, ![n, 64]⟩ ![])
    (e : GinSpec.Mat n 128) (w : GinSpec.Mat 128 64) (b : GinSpec.Vct 64) :
    maximumf
        (addf (Host.dotGeneral (F := Ideal) (LibDenseLayer.mmDims n 128 64 wf) none e w)
          (broadcastInDim ⟨2, ![n, 64]⟩ ![0, 1] h2 (broadcastInDim ⟨2, ![1, 64]⟩ ![1] h1 b)))
        (broadcastInDim ⟨2, ![n, 64]⟩ ![] cn (constant (F := Ideal) ⟨0, ![]⟩ .f32 0x00000000#32))
      = GinSpec.hid1 e w b := by
  rw [dense_eq wf h1 h2 e w b]
  funext i
  rw [maximumf_apply, scalar_bcast_apply]
  rfl

end GinHost

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.Alg.lean ====
/-
  The edge perceptron's hidden layer, with the two endpoint rows laid side by side or kept apart.

  A row of the side-by-side array e has 128 entries: the first 64 are the source row s, the last 64 the target row d.
  The weight matrix w has 128 rows: the first 64 are a, the last 64 are c. The sum over the 128 products of a row of
  e with a column of w is then the sum over the first 64 plus the sum over the last 64, i.e. (s·a) + (d·c) at that
  entry. This uses only that the extended reals are a commutative additive monoid; no finiteness is needed.

  The score of an edge adds to a start value four pairs (product, bias). Adding each pair as one term or adding its
  two members one after the other gives the same result, because addition of extended reals is associative.
-/
import Mathlib.Algebra.BigOperators.Fin
import Idealize.ShloMosaic.Lib.ValueIdx
import Idealize.ShloMosaic.PureOps.Ideal
import proofs.«107973_j83408264888790_1_alg».proof.Proof.Spec
import proofs.«107973_j83408264888790_1_alg».proof.Proof.LibTileSums

noncomputable section

namespace GinAlg

open Idealize.ShloMosaic Idealize.ShloMosaic.ValueIdx

/-- A sum over 128 consecutive indices is the sum over the first 64 plus the sum over the last 64. -/
theorem sum_128 {M : Type*} [AddCommMonoid M] (f : Fin 128 → M) :
    ∑ k : Fin 128, f k
      = ∑ k : Fin 64, f ⟨k.val, by have := k.isLt; omega⟩ + ∑ k : Fin 64, f ⟨64 + k.val, by have := k.isLt; omega⟩ := by
  have h := LibTileSums.sum_halves 64 (fun j : ℕ => if hj : j < 128 then f ⟨j, hj⟩ else 0)
  have e0 : ∑ k : Fin 128, f k = ∑ k : Fin (64 + 64), (if hj : k.val < 128 then f ⟨k.val, hj⟩ else 0) :=
    Finset.sum_congr rfl fun k _ => by rw [dif_pos k.isLt]
  have e1 : ∑ k : Fin 64, (if hj : k.val < 128 then f ⟨k.val, hj⟩ else 0)
      = ∑ k : Fin 64, f ⟨k.val, by have := k.isLt; omega⟩ :=
    Finset.sum_congr rfl fun k _ => dif_pos (by have := k.isLt; omega)
  have e2 : ∑ k : Fin 64, (if hj : 64 + k.val < 128 then f ⟨64 + k.val, hj⟩ else 0)
      = ∑ k : Fin 64, f ⟨64 + k.val, by have := k.isLt; omega⟩ :=
    Finset.sum_congr rfl fun k _ => dif_pos (by have := k.isLt; omega)
  rw [e0, ← e1, ← e2]
  exact h

/-- relu(e·w + b) = relu(s·a + d·c + b) when e is s and d side by side and w is a on top of c. -/
theorem hid_split {n : ℕ} (s d : GinSpec.Mat n 64) (e : GinSpec.Mat n 128) (w : GinSpec.Mat 128 64)
    (a c : GinSpec.Mat 64 64) (b : GinSpec.Vct 64)
    (he1 : ∀ (r : Fin n) (k : Fin 64),
      e (ix2 (n0 := n) (n1 := 128) r ⟨k.val, by have := k.isLt; omega⟩) = s (ix2 (n0 := n) (n1 := 64) r k))
    (he2 : ∀ (r : Fin n) (k : Fin 64),
      e (ix2 (n0 := n) (n1 := 128) r ⟨64 + k.val, by have := k.isLt; omega⟩) = d (ix2 (n0 := n) (n1 := 64) r k))
    (hw1 : ∀ (k q : Fin 64),
      w (ix2 (n0 := 128) (n1 := 64) ⟨k.val, by have := k.isLt; omega⟩ q) = a (ix2 (n0 := 64) (n1 := 64) k q))
    (hw2 : ∀ (k q : Fin 64),
      w (ix2 (n0 := 128) (n1 := 64) ⟨64 + k.val, by have := k.isLt; omega⟩ q) = c (ix2 (n0 := 64) (n1 := 64) k q)) :
    GinSpec.hid1 e w b = GinSpec.hid2 s d a c b := by
  funext i
  unfold GinSpec.hid1 GinSpec.hid2 GinSpec.affine GinSpec.mm
  rw [sum_128]
  have h1 : ∀ k : Fin 64,
      e (ix2 (n0 := n) (n1 := 128) (i 0) ⟨k.val, by have := k.isLt; omega⟩)
          * w (ix2 (n0 := 128) (n1 := 64) ⟨k.val, by have := k.isLt; omega⟩ (i 1))
        = s (ix2 (n0 := n) (n1 := 64) (i 0) k) * a (ix2 (n0 := 64) (n1 := 64) k (i 1)) := fun k => by
    rw [he1 (i 0) k, hw1 k (i 1)]
  have h2 : ∀ k : Fin 64,
      e (ix2 (n0 := n) (n1 := 128) (i 0) ⟨64 + k.val, by have := k.isLt; omega⟩)
          * w (ix2 (n0 := 128) (n1 := 64) ⟨64 + k.val, by have := k.isLt; omega⟩ (i 1))
        = d (ix2 (n0 := n) (n1 := 64) (i 0) k) * c (ix2 (n0 := 64) (n1 := 64) k (i 1)) := fun k => by
    rw [he2 (i 0) k, hw2 k (i 1)]
  rw [Finset.sum_congr rfl fun k _ => h1 k, Finset.sum_congr rfl fun k _ => h2 k]

/-- Four (product, bias) pairs added to a start value: pair by pair, or member by member. -/
theorem score_assoc (z d0 b0 d1 b1 d2 b2 d3 b3 : Ideal .f32) :
    (((z + (d0 + b0)) + (d1 + b1)) + (d2 + b2)) + (d3 + b3)
      = (((((((z + d0) + b0) + d1) + b1) + d2) + b2) + d3) + b3 := by
  simp only [add_assoc]

end GinAlg

end
-- ==== Proof.Layout.lean ====
/-
  Slices, reshapes and a side-by-side join of arrays, read at an entry.

  Slab l of an [L, R, C] array restricted to the rows o, …, o + r − 1, with the unit leading axis dropped, is the
  [r, C] matrix whose entry (p, q) is the array's entry (l, o + p, q): dropping a unit axis keeps the row-major
  position, and a slice shifts each coordinate by its offset. Row l of an [L, C] array, taken as a one-row slice
  and read as a vector, has at q the array's entry (l, q); laid out again as a [1, C] row it has that entry at
  (0, q). Two [n, 64] arrays joined along the second axis give an [n, 128] array whose row r is the first array's
  row r followed by the second array's row r.
  All statements hold for any proofs of the side conditions.
-/
import Idealize.ShloMosaic.Lib.ValueIdx
import Idealize.ShloMosaic.Lib.Pipeline.Value
import proofs.«107973_j83408264888790_1_alg».proof.Proof.Spec
import proofs.«107973_j83408264888790_1_alg».proof.Proof.LibRowOps

noncomputable section

namespace GinLayout

open Idealize.ShloMosaic Idealize.ShloMosaic.ValueIdx

/-! ## One slab of a three-axis array, some of its rows, as a matrix -/

/-- Slab l, rows o … o + r − 1, as an [r, C] matrix, at (p, q): the array at (l, p', q) where p' = o + p. -/
theorem slice3_at {α : Type} {L R C r : ℕ} (l o : ℕ) (hl : l < L) (X : (⟨3, ![L, R, C]⟩ : Shape).Idx → α)
    (hs : (⟨3, ![L, R, C]⟩ : Shape).Slices ![l, o, 0] ⟨3, ![1, r, C]⟩)
    (hc : (⟨3, ![1, r, C]⟩ : Shape).ShapeCasts ⟨2, ![r, C]⟩)
    (p : Fin r) (p' : Fin R) (hp : p'.val = o + p.val) (q : Fin C) :
    shapeCast ⟨2, ![r, C]⟩ (extractStridedSlice ⟨3, ![1, r, C]⟩ ![l, o, 0] X hs) hc (ix2 (n0 := r) (n1 := C) p q)
      = X (ix3 (n0 := L) (n1 := R) (n2 := C) ⟨l, hl⟩ p' q) := by
  refine (shapeCast_apply (extractStridedSlice ⟨3, ![1, r, C]⟩ ![l, o, 0] X hs) hc (ix2 (n0 := r) (n1 := C) p q)
    (ix3 (n0 := 1) (n1 := r) (n2 := C) (0 : Fin 1) p q) ?_).trans ?_
  · rewrite [Shape.rowMajor_val_three, Shape.rowMajor_val_two]
    show (0 * r + p.val) * C + q.val = p.val * C + q.val
    rw [Nat.zero_mul, Nat.zero_add]
  · exact extractStridedSlice_apply ![l, o, 0] X hs (ix3 (n0 := 1) (n1 := r) (n2 := C) (0 : Fin 1) p q)
      (ix3 (n0 := L) (n1 := R) (n2 := C) ⟨l, hl⟩ p' q) (fun a => match a with
      | ⟨0, _⟩ => by show l = l + 0; omega
      | ⟨1, _⟩ => by show p'.val = o + p.val; exact hp
      | ⟨2, _⟩ => by show q.val = 0 + q.val; omega)

/-- The same with the row written out as o + p. -/
theorem slice3_entry {α : Type} {L R C r : ℕ} (l o : ℕ) (hl : l < L) (X : (⟨3, ![L, R, C]⟩ : Shape).Idx → α)
    (hs : (⟨3, ![L, R, C]⟩ : Shape).Slices ![l, o, 0] ⟨3, ![1, r, C]⟩)
    (hc : (⟨3, ![1, r, C]⟩ : Shape).ShapeCasts ⟨2, ![r, C]⟩)
    (p : Fin r) (q : Fin C) (hp : o + p.val < R) :
    shapeCast ⟨2, ![r, C]⟩ (extractStridedSlice ⟨3, ![1, r, C]⟩ ![l, o, 0] X hs) hc (ix2 (n0 := r) (n1 := C) p q)
      = X (ix3 (n0 := L) (n1 := R) (n2 := C) ⟨l, hl⟩ ⟨o + p.val, hp⟩ q) :=
  slice3_at l o hl X hs hc p ⟨o + p.val, hp⟩ rfl q

/-- A whole [64, 64] slab of a [3, 64, 64] array. -/
theorem slice3_3_64_64 {α : Type} (l : ℕ) (hl : l < 3) (X : (⟨3, ![3, 64, 64]⟩ : Shape).Idx → α)
    (hs : (⟨3, ![3, 64, 64]⟩ : Shape).Slices ![l, 0, 0] ⟨3, ![1, 64, 64]⟩)
    (hc : (⟨3, ![1, 64, 64]⟩ : Shape).ShapeCasts ⟨2, ![64, 64]⟩) (p q : Fin 64) :
    shapeCast ⟨2, ![64, 64]⟩ (extractStridedSlice ⟨3, ![1, 64, 64]⟩ ![l, 0, 0] X hs) hc
        (ix2 (n0 := 64) (n1 := 64) p q)
      = X (ix3 (n0 := 3) (n1 := 64) (n2 := 64) ⟨l, hl⟩ p q) :=
  slice3_at l 0 hl X hs hc p p (by omega) q

/-- The upper 64 rows (rows 0 … 63) of a [128, 64] slab of a [4, 128, 64] array. -/
theorem slice3_4_128_64_lo {α : Type} (l : ℕ) (hl : l < 4) (X : (⟨3, ![4, 128, 64]⟩ : Shape).Idx → α)
    (hs : (⟨3, ![4, 128, 64]⟩ : Shape).Slices ![l, 0, 0] ⟨3, ![1, 64, 64]⟩)
    (hc : (⟨3, ![1, 64, 64]⟩ : Shape).ShapeCasts ⟨2, ![64, 64]⟩) (p q : Fin 64) :
    shapeCast ⟨2, ![64, 64]⟩ (extractStridedSlice ⟨3, ![1, 64, 64]⟩ ![l, 0, 0] X hs) hc
        (ix2 (n0 := 64) (n1 := 64) p q)
      = X (ix3 (n0 := 4) (n1 := 128) (n2 := 64) ⟨l, hl⟩ ⟨p.val, by have := p.isLt; omega⟩ q) :=
  slice3_at l 0 hl X hs hc p ⟨p.val, by have := p.isLt; omega⟩ (by show p.val = 0 + p.val; omega) q

/-- The lower 64 rows (rows 64 … 127) of a [128, 64] slab of a [4, 128, 64] array. -/
theorem slice3_4_128_64_hi {α : Type} (l : ℕ) (hl : l < 4) (X : (⟨3, ![4, 128, 64]⟩ : Shape).Idx → α)
    (hs : (⟨3, ![4, 128, 64]⟩ : Shape).Slices ![l, 64, 0] ⟨3, ![1, 64, 64]⟩)
    (hc : (⟨3, ![1, 64, 64]⟩ : Shape).ShapeCasts ⟨2, ![64, 64]⟩) (p q : Fin 64) :
    shapeCast ⟨2, ![64, 64]⟩ (extractStridedSlice ⟨3, ![1, 64, 64]⟩ ![l, 64, 0] X hs) hc
        (ix2 (n0 := 64) (n1 := 64) p q)
      = X (ix3 (n0 := 4) (n1 := 128) (n2 := 64) ⟨l, hl⟩ ⟨64 + p.val, by have := p.isLt; omega⟩ q) :=
  slice3_at l 64 hl X hs hc p ⟨64 + p.val, by have := p.isLt; omega⟩ rfl q

/-- A whole [128, 64] slab of a [4, 128, 64] array. -/
theorem slice3_4_128_64_all {α : Type} (l : ℕ) (hl : l < 4) (X : (⟨3, ![4, 128, 64]⟩ : Shape).Idx → α)
    (hs : (⟨3, ![4, 128, 64]⟩ : Shape).Slices ![l, 0, 0] ⟨3, ![1, 128, 64]⟩)
    (hc : (⟨3, ![1, 128, 64]⟩ : Shape).ShapeCasts ⟨2, ![128, 64]⟩) (p : Fin 128) (q : Fin 64) :
    shapeCast ⟨2, ![128, 64]⟩ (extractStridedSlice ⟨3, ![1, 128, 64]⟩ ![l, 0, 0] X hs) hc
        (ix2 (n0 := 128) (n1 := 64) p q)
      = X (ix3 (n0 := 4) (n1 := 128) (n2 := 64) ⟨l, hl⟩ p q) :=
  slice3_at l 0 hl X hs hc p p (by omega) q

/-- A whole [64, 2] slab of a [4, 64, 2] array. -/
theorem slice3_4_64_2 {α : Type} (l : ℕ) (hl : l < 4) (X : (⟨3, ![4, 64, 2]⟩ : Shape).Idx → α)
    (hs : (⟨3, ![4, 64, 2]⟩ : Shape).Slices ![l, 0, 0] ⟨3, ![1, 64, 2]⟩)
    (hc : (⟨3, ![1, 64, 2]⟩ : Shape).ShapeCasts ⟨2, ![64, 2]⟩) (p : Fin 64) (q : Fin 2) :
    shapeCast ⟨2, ![64, 2]⟩ (extractStridedSlice ⟨3, ![1, 64, 2]⟩ ![l, 0, 0] X hs) hc
        (ix2 (n0 := 64) (n1 := 2) p q)
      = X (ix3 (n0 := 4) (n1 := 64) (n2 := 2) ⟨l, hl⟩ p q) :=
  slice3_at l 0 hl X hs hc p p (by omega) q

/-! ## One row of a two-axis array, as a vector and as a one-row array -/

/-- Row l of an [L, C] array, as a vector, at q: the array at (l, q). -/
theorem slice2_entry {α : Type} {L C : ℕ} (l : ℕ) (hl : l < L) (B : (⟨2, ![L, C]⟩ : Shape).Idx → α)
    (hs : (⟨2, ![L, C]⟩ : Shape).Slices ![l, 0] ⟨2, ![1, C]⟩)
    (hc : (⟨2, ![1, C]⟩ : Shape).ShapeCasts ⟨1, ![C]⟩) (q : Fin C) :
    shapeCast ⟨1, ![C]⟩ (extractStridedSlice ⟨2, ![1, C]⟩ ![l, 0] B hs) hc (ix1 (n := C) q)
      = B (ix2 (n0 := L) (n1 := C) ⟨l, hl⟩ q) := by
  refine (shapeCast_apply (extractStridedSlice ⟨2, ![1, C]⟩ ![l, 0] B hs) hc (ix1 (n := C) q)
    (ix2 (n0 := 1) (n1 := C) (0 : Fin 1) q) ?_).trans ?_
  · rewrite [Shape.rowMajor_val_two, Shape.rowMajor_val_one]
    show 0 * C + q.val = q.val
    rw [Nat.zero_mul, Nat.zero_add]
  · exact extractStridedSlice_apply ![l, 0] B hs (ix2 (n0 := 1) (n1 := C) (0 : Fin 1) q)
      (ix2 (n0 := L) (n1 := C) ⟨l, hl⟩ q) (fun a => match a with
      | ⟨0, _⟩ => by show l = l + 0; omega
      | ⟨1, _⟩ => by show q.val = 0 + q.val; omega)

/-- The same vector as a function of its index. -/
theorem slice2_vec {α : Type} {L C : ℕ} (l : ℕ) (hl : l < L) (B : (⟨2, ![L, C]⟩ : Shape).Idx → α)
    (hs : (⟨2, ![L, C]⟩ : Shape).Slices ![l, 0] ⟨2, ![1, C]⟩)
    (hc : (⟨2, ![1, C]⟩ : Shape).ShapeCasts ⟨1, ![C]⟩) :
    shapeCast ⟨1, ![C]⟩ (extractStridedSlice ⟨2, ![1, C]⟩ ![l, 0] B hs) hc
      = fun j : (⟨1, ![C]⟩ : Shape).Idx => B (ix2 (n0 := L) (n1 := C) ⟨l, hl⟩ (j 0)) := by
  funext j
  rw [eq_ix1 j]
  exact slice2_entry l hl B hs hc (j 0)

/-- Row l of an [L, C] array laid out again as a [1, C] row, at (z, q): the array at (l, q). -/
theorem slice2_row_entry {α : Type} {L C : ℕ} (l : ℕ) (hl : l < L) (B : (⟨2, ![L, C]⟩ : Shape).Idx → α)
    (hs : (⟨2, ![L, C]⟩ : Shape).Slices ![l, 0] ⟨2, ![1, C]⟩)
    (hc : (⟨2, ![1, C]⟩ : Shape).ShapeCasts ⟨1, ![C]⟩)
    (hr : (⟨1, ![C]⟩ : Shape).ShapeCasts ⟨2, ![1, C]⟩) (z : Fin 1) (q : Fin C) :
    shapeCast ⟨2, ![1, C]⟩ (shapeCast ⟨1, ![C]⟩ (extractStridedSlice ⟨2, ![1, C]⟩ ![l, 0] B hs) hc) hr
        (ix2 (n0 := 1) (n1 := C) z q)
      = B (ix2 (n0 := L) (n1 := C) ⟨l, hl⟩ q) :=
  (LibRowOps.shapeCast_row_apply _ hr z q).trans (slice2_entry l hl B hs hc q)

/-- A vector laid out as a [1, m] row and read back as a vector is the vector. -/
theorem unrow_row {m : ℕ} (v : GinSpec.Vct m) (hr : (⟨1, ![m]⟩ : Shape).ShapeCasts ⟨2, ![1, m]⟩) :
    GinSpec.unrow (shapeCast ⟨2, ![1, m]⟩ v hr) = v := by
  funext j
  unfold GinSpec.unrow
  rw [LibRowOps.shapeCast_row_apply v hr (0 : Fin 1) (j 0)]
  exact congrArg v (eq_ix1 j).symm

/-! ## Two [n, 64] arrays side by side -/

/-- The first 64 entries of row r of the joined array are row r of the first array. -/
theorem concat_left {α : Type} {n : ℕ} (a b : (⟨2, ![n, 64]⟩ : Shape).Idx → α)
    (hc : Shape.Concatenates [(⟨2, ![n, 64]⟩ : Shape), ⟨2, ![n, 64]⟩] ⟨2, ![n, 128]⟩ 1)
    (r : Fin n) (k : Fin 64) :
    concatenate ⟨2, ![n, 128]⟩ 1 [⟨⟨2, ![n, 64]⟩, a⟩, ⟨⟨2, ![n, 64]⟩, b⟩] hc
        (ix2 (n0 := n) (n1 := 128) r ⟨k.val, by have := k.isLt; omega⟩)
      = a (ix2 (n0 := n) (n1 := 64) r k) :=
  concatenate_pair_apply_left 1 a b hc _ rfl (ix2 (n0 := n) (n1 := 64) r k) (fun c => match c with
    | ⟨0, _⟩ => rfl
    | ⟨1, _⟩ => rfl)

/-- The last 64 entries of row r of the joined array are row r of the second array. -/
theorem concat_right {α : Type} {n : ℕ} (a b : (⟨2, ![n, 64]⟩ : Shape).Idx → α)
    (hc : Shape.Concatenates [(⟨2, ![n, 64]⟩ : Shape), ⟨2, ![n, 64]⟩] ⟨2, ![n, 128]⟩ 1)
    (r : Fin n) (k : Fin 64) :
    concatenate ⟨2, ![n, 128]⟩ 1 [⟨⟨2, ![n, 64]⟩, a⟩, ⟨⟨2, ![n, 64]⟩, b⟩] hc
        (ix2 (n0 := n) (n1 := 128) r ⟨64 + k.val, by have := k.isLt; omega⟩)
      = b (ix2 (n0 := n) (n1 := 64) r k) :=
  concatenate_pair_apply_right 1 a b hc _ rfl rfl (ix2 (n0 := n) (n1 := 64) r k) (fun c hne => match c, hne with
    | ⟨0, _⟩, _ => rfl
    | ⟨1, _⟩, hne => absurd rfl hne) (by show k.val + 64 = 64 + k.val; omega)

end GinLayout

end
-- ==== Proof.Stage.lean ====
/-
  The stages where the two programs spell one array differently, over arbitrary arrays.

  A feature's batch mean and variance are kept by one program as [1, 64] rows and by the other as vectors of
  length 64: dividing a vector laid out as a row by a repeated scalar, or choosing between such a quotient and a
  repeated scalar by a repeated flag, gives entry (0, q) of the row equal to entry q of the same expression over the
  vector. A score step adds a product and then a bias to the running score, or adds (product + bias) at once:
  the same by associativity of addition. The edge perceptron's hidden layer over the two endpoint rows side by
  side, with the full [128, 64] slab of the stacked weights, is the hidden layer over the two rows kept apart with
  the slab's upper and lower halves.
-/
import Idealize.ShloMosaic.Lib.ValueIdx
import Idealize.ShloMosaic.Lib.Pipeline.Value
import Idealize.ShloMosaic.PureOps.Ideal
import proofs.«107973_j83408264888790_1_alg».proof.Proof.Spec
import proofs.«107973_j83408264888790_1_alg».proof.Proof.LibDenseLayer
import proofs.«107973_j83408264888790_1_alg».proof.Proof.RPay
import proofs.«107973_j83408264888790_1_alg».proof.Proof.Alg
import proofs.«107973_j83408264888790_1_alg».proof.Proof.Layout

noncomputable section

namespace GinStage

open Idealize.ShloMosaic Idealize.ShloMosaic.ValueIdx

/-- A rank-0 array repeated over a shape reads its one entry everywhere. -/
theorem bc0_apply {α : Type} {s : Shape} (h : (⟨0, ![]⟩ : Shape).BroadcastsInDim s ![])
    (v : (⟨0, ![]⟩ : Shape).Idx → α) (i : s.Idx) : broadcastInDim s ![] h v i = v ix0 :=
  broadcastInDim_apply ![] h v i ix0 (fun a => a.elim0)

/-- A vector laid out as a [1, m] row reads, at (z, q), the vector at q. -/
theorem bc_row_apply {α : Type} {m : ℕ} (h1 : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h1 v (ix2 (n0 := 1) (n1 := m) z q) = v (ix1 (n := m) q) := by
  have hq : q.val < m := q.isLt
  refine broadcastInDim_apply ![1] h1 v (ix2 (n0 := 1) (n1 := m) z q) (ix1 (n := m) q) (fun a => ?_)
  match a with
  | ⟨0, _⟩ => show q.val = if m = 1 then 0 else q.val; split <;> omega

/-- A vector laid out as a row and read back as a vector is the vector. -/
theorem unrow_bc_row {m : ℕ} (h1 : (⟨1, ![m]⟩ : Shape).BroadcastsInDim ⟨2, ![1, m]⟩ ![1]) (v : GinSpec.Vct m) :
    GinSpec.unrow (broadcastInDim ⟨2, ![1, m]⟩ ![1] h1 v) = v := by
  funext j
  unfold GinSpec.unrow
  rw [bc_row_apply h1 v (0 : Fin 1) (j 0)]
  exact congrArg v (eq_ix1 j).symm

/-- (row of R) / (repeated scalar), read back as a vector, is R / (repeated scalar). -/
theorem row_div_eq {m : ℕ} (b1 : (⟨1, ![m]⟩ : Shape).BroadcastsInDim ⟨2, ![1, m]⟩ ![1])
    (s1 : (⟨0, ![]⟩ : Shape).BroadcastsInDim ⟨2, ![1, m]⟩ ![]) (s0 : (⟨0, ![]⟩ : Shape).BroadcastsInDim ⟨1, ![m]⟩ ![])
    (R : GinSpec.Vct m) (d : FVec Ideal ⟨0, ![]⟩ .f32) :
    GinSpec.unrow (Host.divf (F := Ideal) (broadcastInDim ⟨2, ![1, m]⟩ ![1] b1 R)
        (broadcastInDim ⟨2, ![1, m]⟩ ![] s1 d))
      = Host.divf (F := Ideal) R (broadcastInDim ⟨1, ![m]⟩ ![] s0 d) := by
  funext j
  unfold GinSpec.unrow
  show FloatOps.hostDivf (broadcastInDim ⟨2, ![1, m]⟩ ![1] b1 R (ix2 (n0 := 1) (n1 := m) (0 : Fin 1) (j 0)))
        (broadcastInDim ⟨2, ![1, m]⟩ ![] s1 d (ix2 (n0 := 1) (n1 := m) (0 : Fin 1) (j 0)))
      = FloatOps.hostDivf (R j) (broadcastInDim ⟨1, ![m]⟩ ![] s0 d j)
  rw [bc_row_apply b1 R (0 : Fin 1) (j 0), bc0_apply s1 d, bc0_apply s0 d]
  exact congrArg (fun t => FloatOps.hostDivf (R t) (d ix0)) (eq_ix1 j).symm

/-- The choice, by a repeated flag, between (row of R) / (repeated scalar) and a repeated scalar, read back as a
    vector, is the same choice over vectors. -/
theorem row_sel_div_eq {m : ℕ} (b1 : (⟨1, ![m]⟩ : Shape).BroadcastsInDim ⟨2, ![1, m]⟩ ![1])
    (s1 : (⟨0, ![]⟩ : Shape).BroadcastsInDim ⟨2, ![1, m]⟩ ![]) (s0 : (⟨0, ![]⟩ : Shape).BroadcastsInDim ⟨1, ![m]⟩ ![])
    (p : IVec ⟨0, ![]⟩ 1) (R : GinSpec.Vct m) (d e : FVec Ideal ⟨0, ![]⟩ .f32) :
    GinSpec.unrow (select (broadcastInDim ⟨2, ![1, m]⟩ ![] s1 p)
        (Host.divf (F := Ideal) (broadcastInDim ⟨2, ![1, m]⟩ ![1] b1 R) (broadcastInDim ⟨2, ![1, m]⟩ ![] s1 d))
        (broadcastInDim ⟨2, ![1, m]⟩ ![] s1 e))
      = select (broadcastInDim ⟨1, ![m]⟩ ![] s0 p)
          (Host.divf (F := Ideal) R (broadcastInDim ⟨1, ![m]⟩ ![] s0 d)) (broadcastInDim ⟨1, ![m]⟩ ![] s0 e) := by
  funext j
  unfold GinSpec.unrow
  show Scalar.select (broadcastInDim ⟨2, ![1, m]⟩ ![] s1 p (ix2 (n0 := 1) (n1 := m) (0 : Fin 1) (j 0)))
        (FloatOps.hostDivf (broadcastInDim ⟨2, ![1, m]⟩ ![1] b1 R (ix2 (n0 := 1) (n1 := m) (0 : Fin 1) (j 0)))
          (broadcastInDim ⟨2, ![1, m]⟩ ![] s1 d (ix2 (n0 := 1) (n1 := m) (0 : Fin 1) (j 0))))
        (broadcastInDim ⟨2, ![1, m]⟩ ![] s1 e (ix2 (n0 := 1) (n1 := m) (0 : Fin 1) (j 0)))
      = Scalar.select (broadcastInDim ⟨1, ![m]⟩ ![] s0 p j)
          (FloatOps.hostDivf (R j) (broadcastInDim ⟨1, ![m]⟩ ![] s0 d j)) (broadcastInDim ⟨1, ![m]⟩ ![] s0 e j)
  rw [bc_row_apply b1 R (0 : Fin 1) (j 0), bc0_apply s1 p, bc0_apply s1 d, bc0_apply s1 e, bc0_apply s0 p,
    bc0_apply s0 d, bc0_apply s0 e]
  exact congrArg (fun t => Scalar.select (p ix0) (FloatOps.hostDivf (R t) (d ix0)) (e ix0)) (eq_ix1 j).symm

/-- x·w + b with the bias given as a vector laid out as a [1, m] row and read back. -/
theorem affine_unrow {n k m : ℕ} (x : GinSpec.Mat n k) (w : GinSpec.Mat k m) (v : GinSpec.Vct m)
    (hr : (⟨1, ![m]⟩ : Shape).ShapeCasts ⟨2, ![1, m]⟩) :
    GinSpec.affine x w (GinSpec.unrow (shapeCast ⟨2, ![1, m]⟩ v hr)) = GinSpec.affine x w v := by
  rw [GinLayout.unrow_row]

/-- One score step: (S + H·W) + b = S + (H·W + b). -/
theorem score_step {n k m : ℕ} (wf : DotDims.WF ⟨2, ![n, k]⟩ ⟨2, ![k, m]⟩ ⟨2, ![n, m]⟩ [1] [0] [0] [1] [] [])
    (h1 : (⟨1, ![m]⟩ : Shape).BroadcastsInDim ⟨2, ![1, m]⟩ ![1])
    (h2 : (⟨2, ![1, m]⟩ : Shape).BroadcastsInDim ⟨2, ![n, m]⟩ ![0, 1])
    (S : GinSpec.Mat n m) (H : GinSpec.Mat n k) (W : GinSpec.Mat k m) (b : GinSpec.Vct m) :
    addf (addf S (Host.dotGeneral (F := Ideal) (LibDenseLayer.mmDims n k m wf) none H W))
        (broadcastInDim ⟨2, ![n, m]⟩ ![0, 1] h2 (broadcastInDim ⟨2, ![1, m]⟩ ![1] h1 b))
      = addf S (GinSpec.affine H W b) := by
  funext i
  rw [addf_apply, addf_apply, addf_apply, LibDenseLayer.host_apply, LibDenseLayer.bias_host_apply]
  exact add_assoc _ _ _

/-- The hidden layer over the joined endpoint rows is the hidden layer over the rows kept apart, for any split
    of the weights into an upper and a lower half. -/
theorem hid_stage {n : ℕ} (wf : DotDims.WF ⟨2, ![n, 128]⟩ ⟨2, ![128, 64]⟩ ⟨2, ![n, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![n, 64]⟩ ![0, 1])
    (cn : (⟨0, ![]⟩ : Shape).BroadcastsInDim ⟨2, ![n, 64]⟩ ![])
    (hcat : Shape.Concatenates [(⟨2, ![n, 64]⟩ : Shape), ⟨2, ![n, 64]⟩] ⟨2, ![n, 128]⟩ 1)
    (s d : GinSpec.Mat n 64) (w : GinSpec.Mat 128 64) (a c : GinSpec.Mat 64 64) (b : GinSpec.Vct 64)
    (hw1 : ∀ (k q : Fin 64),
      w (ix2 (n0 := 128) (n1 := 64) ⟨k.val, by have := k.isLt; omega⟩ q) = a (ix2 (n0 := 64) (n1 := 64) k q))
    (hw2 : ∀ (k q : Fin 64),
      w (ix2 (n0 := 128) (n1 := 64) ⟨64 + k.val, by have := k.isLt; omega⟩ q) = c (ix2 (n0 := 64) (n1 := 64) k q)) :
    maximumf
        (addf (Host.dotGeneral (F := Ideal) (LibDenseLayer.mmDims n 128 64 wf) none
            (concatenate ⟨2, ![n, 128]⟩ 1 [⟨⟨2, ![n, 64]⟩, s⟩, ⟨⟨2, ![n, 64]⟩, d⟩] hcat) w)
          (broadcastInDim ⟨2, ![n, 64]⟩ ![0, 1] h2 (broadcastInDim ⟨2, ![1, 64]⟩ ![1] h1 b)))
        (broadcastInDim ⟨2, ![n, 64]⟩ ![] cn (constant (F := Ideal) ⟨0, ![]⟩ .f32 0x00000000#32))
      = GinSpec.hid2 s d a c b :=
  (GinHost.hid1host_eq wf h1 h2 cn _ w b).trans
    (GinAlg.hid_split s d _ w a c b (GinLayout.concat_left s d hcat) (GinLayout.concat_right s d hcat) hw1 hw2)

/-- The same with the weights cut out of a stacked [4, 128, 64] array: the full slab l against its two halves. -/
theorem hid_stage_slab {n : ℕ} (wf : DotDims.WF ⟨2, ![n, 128]⟩ ⟨2, ![128, 64]⟩ ⟨2, ![n, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![n, 64]⟩ ![0, 1])
    (cn : (⟨0, ![]⟩ : Shape).BroadcastsInDim ⟨2, ![n, 64]⟩ ![])
    (hcat : Shape.Concatenates [(⟨2, ![n, 64]⟩ : Shape), ⟨2, ![n, 64]⟩] ⟨2, ![n, 128]⟩ 1)
    (s d : GinSpec.Mat n 64) (l : ℕ) (hl : l < 4) (X : (⟨3, ![4, 128, 64]⟩ : Shape).Idx → Ideal .f32)
    (hsA : (⟨3, ![4, 128, 64]⟩ : Shape).Slices ![l, 0, 0] ⟨3, ![1, 128, 64]⟩)
    (hcA : (⟨3, ![1, 128, 64]⟩ : Shape).ShapeCasts ⟨2, ![128, 64]⟩)
    (hsL : (⟨3, ![4, 128, 64]⟩ : Shape).Slices ![l, 0, 0] ⟨3, ![1, 64, 64]⟩)
    (hsH : (⟨3, ![4, 128, 64]⟩ : Shape).Slices ![l, 64, 0] ⟨3, ![1, 64, 64]⟩)
    (hcL : (⟨3, ![1, 64, 64]⟩ : Shape).ShapeCasts ⟨2, ![64, 64]⟩) (b : GinSpec.Vct 64) :
    maximumf
        (addf (Host.dotGeneral (F := Ideal) (LibDenseLayer.mmDims n 128 64 wf) none
            (concatenate ⟨2, ![n, 128]⟩ 1 [⟨⟨2, ![n, 64]⟩, s⟩, ⟨⟨2, ![n, 64]⟩, d⟩] hcat)
            (shapeCast ⟨2, ![128, 64]⟩ (extractStridedSlice ⟨3, ![1, 128, 64]⟩ ![l, 0, 0] X hsA) hcA))
          (broadcastInDim ⟨2, ![n, 64]⟩ ![0, 1] h2 (broadcastInDim ⟨2, ![1, 64]⟩ ![1] h1 b)))
        (broadcastInDim ⟨2, ![n, 64]⟩ ![] cn (constant (F := Ideal) ⟨0, ![]⟩ .f32 0x00000000#32))
      = GinSpec.hid2 s d (shapeCast ⟨2, ![64, 64]⟩ (extractStridedSlice ⟨3, ![1, 64, 64]⟩ ![l, 0, 0] X hsL) hcL)
          (shapeCast ⟨2, ![64, 64]⟩ (extractStridedSlice ⟨3, ![1, 64, 64]⟩ ![l, 64, 0] X hsH) hcL) b :=
  hid_stage wf h1 h2 cn hcat s d _ _ _ b
    (fun k q => by rw [GinLayout.slice3_4_128_64_all l hl, GinLayout.slice3_4_128_64_lo l hl])
    (fun k q => by rw [GinLayout.slice3_4_128_64_all l hl, GinLayout.slice3_4_128_64_hi l hl])

end GinStage

end
-- ==== Proof.Bridge.lean ====
/-
  The two programs' intermediate arrays are equal, stage by stage.

  From memories that agree on the nineteen argument arrays, each array the reference program computes equals the
  array the kernel program computes at the same point: the embedded nodes; in every layer the neighbour sums, the
  first dense map, the batch means and variances (one program keeps them as vectors, the other as one-row arrays),
  the normalise-and-clamp steps and the second dense map; for every node array the edge perceptron's hidden layer
  (one program multiplies the joined endpoint rows by a [128, 64] slab, the other multiplies each endpoint row by one
  half of the slab); and the running score (one program adds product and bias one after the other, the other adds
  their sum). The neighbour sums and the reductions inside the means and variances are the same host operations on
  both sides and are never opened.
-/
import proofs.«107973_j83408264888790_1_alg».proof.Proof.KDefs
import proofs.«107973_j83408264888790_1_alg».proof.Proof.RDefs
import proofs.«107973_j83408264888790_1_alg».proof.Proof.RPay
import proofs.«107973_j83408264888790_1_alg».proof.Proof.Alg
import proofs.«107973_j83408264888790_1_alg».proof.Proof.Layout
import proofs.«107973_j83408264888790_1_alg».proof.Proof.Stage

set_option maxRecDepth 16384

noncomputable section

namespace GinBridge

open Idealize.ShloMosaic Idealize.ShloMosaic.ValueIdx Idealize.ShloMosaic.TcCoe Idealize.SL.Sem

attribute [local irreducible] Host.reduceAdd Host.gather Host.scatterAdd

/-- The two memories hold the same nineteen argument arrays. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

/-- A vector laid out as a [1, 64] row and read back is the vector. -/
theorem unrow_rowOf (v : Cert.KernelIdeal.KH.C Cert.KernelIdeal.S64 .f32) : GinSpec.unrow (Cert.KernelIdeal.KH.rowOf v) = v :=
  GinLayout.unrow_row v _
/-- A vector laid out as a [1, 2] row and read back is the vector. -/
theorem unrow_rowOf2 (v : Cert.KernelIdeal.KH.C Cert.KernelIdeal.S2 .f32) : GinSpec.unrow (Cert.KernelIdeal.KH.rowOf2 v) = v :=
  GinLayout.unrow_row v _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD) (h : Agree m m' c)
include h

theorem hA0 : Cert.ReferenceIdeal.Chain.A m' c Cert.ReferenceIdeal.main_arg0 = Cert.KernelIdeal.Chain.A m c Cert.KernelIdeal.main_arg0 := h.1
theorem hA1 : Cert.ReferenceIdeal.Chain.A m' c Cert.ReferenceIdeal.main_arg1 = Cert.KernelIdeal.Chain.A m c Cert.KernelIdeal.main_arg1 := h.2.1
theorem hA2 : Cert.ReferenceIdeal.Chain.A m' c Cert.ReferenceIdeal.main_arg2 = Cert.KernelIdeal.Chain.A m c Cert.KernelIdeal.main_arg2 := h.2.2.1
theorem hA3 : Cert.ReferenceIdeal.Chain.A m' c Cert.ReferenceIdeal.main_arg3 = Cert.KernelIdeal.Chain.A m c Cert.KernelIdeal.main_arg3 := h.2.2.2.1
theorem hA4 : Cert.ReferenceIdeal.Chain.A m' c Cert.ReferenceIdeal.main_arg4 = Cert.KernelIdeal.Chain.A m c Cert.KernelIdeal.main_arg4 := h.2.2.2.2.1
theorem hA5 : Cert.ReferenceIdeal.Chain.A m' c Cert.ReferenceIdeal.main_arg5 = Cert.KernelIdeal.Chain.A m c Cert.KernelIdeal.main_arg5 := h.2.2.2.2.2.1
theorem hA6 : Cert.ReferenceIdeal.Chain.A m' c Cert.ReferenceIdeal.main_arg6 = Cert.KernelIdeal.Chain.A m c Cert.KernelIdeal.main_arg6 := h.2.2.2.2.2.2.1
theorem hA7 : Cert.ReferenceIdeal.Chain.A m' c Cert.ReferenceIdeal.main_arg7 = Cert.KernelIdeal.Chain.A m c Cert.KernelIdeal.main_arg7 := h.2.2.2.2.2.2.2.1
theorem hA8 : Cert.ReferenceIdeal.Chain.A m' c Cert.ReferenceIdeal.main_arg8 = Cert.KernelIdeal.Chain.A m c Cert.KernelIdeal.main_arg8 := h.2.2.2.2.2.2.2.2.1
theorem hA9 : Cert.ReferenceIdeal.Chain.A m' c Cert.ReferenceIdeal.main_arg9 = Cert.KernelIdeal.Chain.A m c Cert.KernelIdeal.main_arg9 := h.2.2.2.2.2.2.2.2.2.1
theorem hA10 : Cert.ReferenceIdeal.Chain.A m' c Cert.ReferenceIdeal.main_arg10 = Cert.KernelIdeal.Chain.A m c Cert.KernelIdeal.main_arg10 := h.2.2.2.2.2.2.2.2.2.2.1
theorem hA11 : Cert.ReferenceIdeal.Chain.A m' c Cert.ReferenceIdeal.main_arg11 = Cert.KernelIdeal.Chain.A m c Cert.KernelIdeal.main_arg11 := h.2.2.2.2.2.2.2.2.2.2.2.1
theorem hA12 : Cert.ReferenceIdeal.Chain.A m' c Cert.ReferenceIdeal.main_arg12 = Cert.KernelIdeal.Chain.A m c Cert.KernelIdeal.main_arg12 := h.2.2.2.2.2.2.2.2.2.2.2.2.1
theorem hA13 : Cert.ReferenceIdeal.Chain.A m' c Cert.ReferenceIdeal.main_arg13 = Cert.KernelIdeal.Chain.A m c Cert.KernelIdeal.main_arg13 := h.2.2.2.2.2.2.2.2.2.2.2.2.2.1
theorem hA14 : Cert.ReferenceIdeal.Chain.A m' c Cert.ReferenceIdeal.main_arg14 = Cert.KernelIdeal.Chain.A m c Cert.KernelIdeal.main_arg14 := h.2.2.2.2.2.2.2.2.2.2.2.2.2.2.1
theorem hA15 : Cert.ReferenceIdeal.Chain.A m' c Cert.ReferenceIdeal.main_arg15 = Cert.KernelIdeal.Chain.A m c Cert.KernelIdeal.main_arg15 := h.2.2.2.2.2.2.2.2.2.2.2.2.2.2.2.1
theorem hA16 : Cert.ReferenceIdeal.Chain.A m' c Cert.ReferenceIdeal.main_arg16 = Cert.KernelIdeal.Chain.A m c Cert.KernelIdeal.main_arg16 := h.2.2.2.2.2.2.2.2.2.2.2.2.2.2.2.2.1
theorem hA17 : Cert.ReferenceIdeal.Chain.A m' c Cert.ReferenceIdeal.main_arg17 = Cert.KernelIdeal.Chain.A m c Cert.KernelIdeal.main_arg17 := h.2.2.2.2.2.2.2.2.2.2.2.2.2.2.2.2.2.1
theorem hA18 : Cert.ReferenceIdeal.Chain.A m' c Cert.ReferenceIdeal.main_arg18 = Cert.KernelIdeal.Chain.A m c Cert.KernelIdeal.main_arg18 := h.2.2.2.2.2.2.2.2.2.2.2.2.2.2.2.2.2.2

/-- The embedded nodes. -/
theorem X0_eq : Cert.ReferenceIdeal.Chain.X0 m' c = Cert.KernelIdeal.Chain.X0 m c := by
  unfold Cert.ReferenceIdeal.Chain.X0 Cert.KernelIdeal.Chain.X0
  rw [hA0 m m' c h, hA3 m m' c h, hA4 m m' c h, unrow_rowOf]
  exact GinHost.dense_eq _ _ _ _ _ _

/-! ## Layer 0 -/

/-- Layer 0: the neighbour sums (the same gather and scatter-add on both sides). -/
theorem Ag0_eq : Cert.ReferenceIdeal.Chain.Ag0 m' c = Cert.KernelIdeal.Chain.Ag0 m c := by
  unfold Cert.ReferenceIdeal.Chain.Ag0 Cert.KernelIdeal.Chain.Ag0
  rw [X0_eq m m' c h, hA1 m m' c h, hA2 m m' c h]
  rfl

/-- Layer 0: (x + neighbours)·W₁ + b₁. -/
theorem T1_0_eq : Cert.ReferenceIdeal.Chain.T1_0 m' c = Cert.KernelIdeal.Chain.T1_0 m c := by
  unfold Cert.ReferenceIdeal.Chain.T1_0 Cert.KernelIdeal.Chain.T1_0
  rw [X0_eq m m' c h, Ag0_eq m m' c h, hA5 m m' c h, hA6 m m' c h, unrow_rowOf]
  exact GinHost.dense_eq _ _ _ _ _ _

/-- Layer 0: the batch mean of T1, a vector on one side and a row on the other. -/
theorem M1_0_eq : Cert.ReferenceIdeal.Chain.M1_0 m' c = GinSpec.unrow (Cert.KernelIdeal.KH.meanRow (Cert.KernelIdeal.Chain.T1_0 m c)) := by
  unfold Cert.ReferenceIdeal.Chain.M1_0
  rw [T1_0_eq m m' c h]
  exact (GinStage.row_div_eq _ _ _ _ _).symm

/-- Layer 0: the batch variance of T1, a vector on one side and a row on the other. -/
theorem Vr1_0_eq :
    Cert.ReferenceIdeal.Chain.Vr1_0 m' c = GinSpec.unrow (Cert.KernelIdeal.KH.varRow (Cert.KernelIdeal.Chain.T1_0 m c) Cert.KernelIdeal.KH.zeroI) := by
  unfold Cert.ReferenceIdeal.Chain.Vr1_0
  rw [T1_0_eq m m' c h]
  exact (GinStage.row_sel_div_eq _ _ _ _ _ _ _).symm

/-- Layer 0: relu(bn(t₁))·W₂ + b₂. -/
theorem T3_0_eq : Cert.ReferenceIdeal.Chain.T3_0 m' c = Cert.KernelIdeal.Chain.T3_0 m c := by
  unfold Cert.ReferenceIdeal.Chain.T3_0 Cert.ReferenceIdeal.Chain.U1_0 Cert.KernelIdeal.Chain.T3_0
  rw [T1_0_eq m m' c h, M1_0_eq m m' c h, Vr1_0_eq m m' c h, hA7 m m' c h, hA8 m m' c h, hA9 m m' c h, hA10 m m' c h]
  simp only [unrow_rowOf]
  refine (GinHost.dense_eq _ _ _ _ _ _).trans ?_
  rw [GinHost.bnhost_eq]
  rfl

/-- Layer 0: the batch mean of T3, a vector on one side and a row on the other. -/
theorem M2_0_eq : Cert.ReferenceIdeal.Chain.M2_0 m' c = GinSpec.unrow (Cert.KernelIdeal.KH.meanRow (Cert.KernelIdeal.Chain.T3_0 m c)) := by
  unfold Cert.ReferenceIdeal.Chain.M2_0
  rw [T3_0_eq m m' c h]
  exact (GinStage.row_div_eq _ _ _ _ _).symm

/-- Layer 0: the batch variance of T3, a vector on one side and a row on the other. -/
theorem Vr2_0_eq :
    Cert.ReferenceIdeal.Chain.Vr2_0 m' c = GinSpec.unrow (Cert.KernelIdeal.KH.varRow (Cert.KernelIdeal.Chain.T3_0 m c) Cert.KernelIdeal.KH.zeroI) := by
  unfold Cert.ReferenceIdeal.Chain.Vr2_0
  rw [T3_0_eq m m' c h]
  exact (GinStage.row_sel_div_eq _ _ _ _ _ _ _).symm

/-- Layer 0: relu(bn(t₃)). -/
theorem T4_0_eq : Cert.ReferenceIdeal.Chain.T4_0 m' c = Cert.KernelIdeal.Chain.T4_0 m c := by
  unfold Cert.ReferenceIdeal.Chain.T4_0 Cert.KernelIdeal.Chain.T4_0
  rw [T3_0_eq m m' c h, M2_0_eq m m' c h, Vr2_0_eq m m' c h, hA11 m m' c h, hA12 m m' c h]
  simp only [unrow_rowOf]
  exact GinHost.bnhost_eq _ _ _ _ _ _ _ _ _

/-- Layer 0: the batch mean of T4, a vector on one side and a row on the other. -/
theorem M3_0_eq : Cert.ReferenceIdeal.Chain.M3_0 m' c = GinSpec.unrow (Cert.KernelIdeal.KH.meanRow (Cert.KernelIdeal.Chain.T4_0 m c)) := by
  unfold Cert.ReferenceIdeal.Chain.M3_0
  rw [T4_0_eq m m' c h]
  exact (GinStage.row_div_eq _ _ _ _ _).symm

/-- Layer 0: the batch variance of T4, a vector on one side and a row on the other. -/
theorem Vr3_0_eq :
    Cert.ReferenceIdeal.Chain.Vr3_0 m' c = GinSpec.unrow (Cert.KernelIdeal.KH.varRow (Cert.KernelIdeal.Chain.T4_0 m c) Cert.KernelIdeal.KH.zeroI) := by
  unfold Cert.ReferenceIdeal.Chain.Vr3_0
  rw [T4_0_eq m m' c h]
  exact (GinStage.row_sel_div_eq _ _ _ _ _ _ _).symm

/-- Layer 0's output: relu(bn(t₄)). -/
theorem X1_eq : Cert.ReferenceIdeal.Chain.X1 m' c = Cert.KernelIdeal.Chain.X1 m c := by
  unfold Cert.ReferenceIdeal.Chain.X1 Cert.KernelIdeal.Chain.X1
  rw [T4_0_eq m m' c h, M3_0_eq m m' c h, Vr3_0_eq m m' c h, hA13 m m' c h, hA14 m m' c h]
  simp only [unrow_rowOf]
  exact GinHost.bnhost_eq _ _ _ _ _ _ _ _ _

/-! ## Layer 1 -/

/-- Layer 1: the neighbour sums (the same gather and scatter-add on both sides). -/
theorem Ag1_eq : Cert.ReferenceIdeal.Chain.Ag1 m' c = Cert.KernelIdeal.Chain.Ag1 m c := by
  unfold Cert.ReferenceIdeal.Chain.Ag1 Cert.KernelIdeal.Chain.Ag1
  rw [X1_eq m m' c h, hA1 m m' c h, hA2 m m' c h]
  rfl

/-- Layer 1: (x + neighbours)·W₁ + b₁. -/
theorem T1_1_eq : Cert.ReferenceIdeal.Chain.T1_1 m' c = Cert.KernelIdeal.Chain.T1_1 m c := by
  unfold Cert.ReferenceIdeal.Chain.T1_1 Cert.KernelIdeal.Chain.T1_1
  rw [X1_eq m m' c h, Ag1_eq m m' c h, hA5 m m' c h, hA6 m m' c h, unrow_rowOf]
  exact GinHost.dense_eq _ _ _ _ _ _

/-- Layer 1: the batch mean of T1, a vector on one side and a row on the other. -/
theorem M1_1_eq : Cert.ReferenceIdeal.Chain.M1_1 m' c = GinSpec.unrow (Cert.KernelIdeal.KH.meanRow (Cert.KernelIdeal.Chain.T1_1 m c)) := by
  unfold Cert.ReferenceIdeal.Chain.M1_1
  rw [T1_1_eq m m' c h]
  exact (GinStage.row_div_eq _ _ _ _ _).symm

/-- Layer 1: the batch variance of T1, a vector on one side and a row on the other. -/
theorem Vr1_1_eq :
    Cert.ReferenceIdeal.Chain.Vr1_1 m' c = GinSpec.unrow (Cert.KernelIdeal.KH.varRow (Cert.KernelIdeal.Chain.T1_1 m c) Cert.KernelIdeal.KH.zeroI) := by
  unfold Cert.ReferenceIdeal.Chain.Vr1_1
  rw [T1_1_eq m m' c h]
  exact (GinStage.row_sel_div_eq _ _ _ _ _ _ _).symm

/-- Layer 1: relu(bn(t₁))·W₂ + b₂. -/
theorem T3_1_eq : Cert.ReferenceIdeal.Chain.T3_1 m' c = Cert.KernelIdeal.Chain.T3_1 m c := by
  unfold Cert.ReferenceIdeal.Chain.T3_1 Cert.ReferenceIdeal.Chain.U1_1 Cert.KernelIdeal.Chain.T3_1
  rw [T1_1_eq m m' c h, M1_1_eq m m' c h, Vr1_1_eq m m' c h, hA7 m m' c h, hA8 m m' c h, hA9 m m' c h, hA10 m m' c h]
  simp only [unrow_rowOf]
  refine (GinHost.dense_eq _ _ _ _ _ _).trans ?_
  rw [GinHost.bnhost_eq]
  rfl

/-- Layer 1: the batch mean of T3, a vector on one side and a row on the other. -/
theorem M2_1_eq : Cert.ReferenceIdeal.Chain.M2_1 m' c = GinSpec.unrow (Cert.KernelIdeal.KH.meanRow (Cert.KernelIdeal.Chain.T3_1 m c)) := by
  unfold Cert.ReferenceIdeal.Chain.M2_1
  rw [T3_1_eq m m' c h]
  exact (GinStage.row_div_eq _ _ _ _ _).symm

/-- Layer 1: the batch variance of T3, a vector on one side and a row on the other. -/
theorem Vr2_1_eq :
    Cert.ReferenceIdeal.Chain.Vr2_1 m' c = GinSpec.unrow (Cert.KernelIdeal.KH.varRow (Cert.KernelIdeal.Chain.T3_1 m c) Cert.KernelIdeal.KH.zeroI) := by
  unfold Cert.ReferenceIdeal.Chain.Vr2_1
  rw [T3_1_eq m m' c h]
  exact (GinStage.row_sel_div_eq _ _ _ _ _ _ _).symm

/-- Layer 1: relu(bn(t₃)). -/
theorem T4_1_eq : Cert.ReferenceIdeal.Chain.T4_1 m' c = Cert.KernelIdeal.Chain.T4_1 m c := by
  unfold Cert.ReferenceIdeal.Chain.T4_1 Cert.KernelIdeal.Chain.T4_1
  rw [T3_1_eq m m' c h, M2_1_eq m m' c h, Vr2_1_eq m m' c h, hA11 m m' c h, hA12 m m' c h]
  simp only [unrow_rowOf]
  exact GinHost.bnhost_eq _ _ _ _ _ _ _ _ _

/-- Layer 1: the batch mean of T4, a vector on one side and a row on the other. -/
theorem M3_1_eq : Cert.ReferenceIdeal.Chain.M3_1 m' c = GinSpec.unrow (Cert.KernelIdeal.KH.meanRow (Cert.KernelIdeal.Chain.T4_1 m c)) := by
  unfold Cert.ReferenceIdeal.Chain.M3_1
  rw [T4_1_eq m m' c h]
  exact (GinStage.row_div_eq _ _ _ _ _).symm

/-- Layer 1: the batch variance of T4, a vector on one side and a row on the other. -/
theorem Vr3_1_eq :
    Cert.ReferenceIdeal.Chain.Vr3_1 m' c = GinSpec.unrow (Cert.KernelIdeal.KH.varRow (Cert.KernelIdeal.Chain.T4_1 m c) Cert.KernelIdeal.KH.zeroI) := by
  unfold Cert.ReferenceIdeal.Chain.Vr3_1
  rw [T4_1_eq m m' c h]
  exact (GinStage.row_sel_div_eq _ _ _ _ _ _ _).symm

/-- Layer 1's output: relu(bn(t₄)). -/
theorem X2_eq : Cert.ReferenceIdeal.Chain.X2 m' c = Cert.KernelIdeal.Chain.X2 m c := by
  unfold Cert.ReferenceIdeal.Chain.X2 Cert.KernelIdeal.Chain.X2
  rw [T4_1_eq m m' c h, M3_1_eq m m' c h, Vr3_1_eq m m' c h, hA13 m m' c h, hA14 m m' c h]
  simp only [unrow_rowOf]
  exact GinHost.bnhost_eq _ _ _ _ _ _ _ _ _

/-! ## Layer 2 -/

/-- Layer 2: the neighbour sums (the same gather and scatter-add on both sides). -/
theorem Ag2_eq : Cert.ReferenceIdeal.Chain.Ag2 m' c = Cert.KernelIdeal.Chain.Ag2 m c := by
  unfold Cert.ReferenceIdeal.Chain.Ag2 Cert.KernelIdeal.Chain.Ag2
  rw [X2_eq m m' c h, hA1 m m' c h, hA2 m m' c h]
  rfl

/-- Layer 2: (x + neighbours)·W₁ + b₁. -/
theorem T1_2_eq : Cert.ReferenceIdeal.Chain.T1_2 m' c = Cert.KernelIdeal.Chain.T1_2 m c := by
  unfold Cert.ReferenceIdeal.Chain.T1_2 Cert.KernelIdeal.Chain.T1_2
  rw [X2_eq m m' c h, Ag2_eq m m' c h, hA5 m m' c h, hA6 m m' c h, unrow_rowOf]
  exact GinHost.dense_eq _ _ _ _ _ _

/-- Layer 2: the batch mean of T1, a vector on one side and a row on the other. -/
theorem M1_2_eq : Cert.ReferenceIdeal.Chain.M1_2 m' c = GinSpec.unrow (Cert.KernelIdeal.KH.meanRow (Cert.KernelIdeal.Chain.T1_2 m c)) := by
  unfold Cert.ReferenceIdeal.Chain.M1_2
  rw [T1_2_eq m m' c h]
  exact (GinStage.row_div_eq _ _ _ _ _).symm

/-- Layer 2: the batch variance of T1, a vector on one side and a row on the other. -/
theorem Vr1_2_eq :
    Cert.ReferenceIdeal.Chain.Vr1_2 m' c = GinSpec.unrow (Cert.KernelIdeal.KH.varRow (Cert.KernelIdeal.Chain.T1_2 m c) Cert.KernelIdeal.KH.zeroI) := by
  unfold Cert.ReferenceIdeal.Chain.Vr1_2
  rw [T1_2_eq m m' c h]
  exact (GinStage.row_sel_div_eq _ _ _ _ _ _ _).symm

/-- Layer 2: relu(bn(t₁))·W₂ + b₂. -/
theorem T3_2_eq : Cert.ReferenceIdeal.Chain.T3_2 m' c = Cert.KernelIdeal.Chain.T3_2 m c := by
  unfold Cert.ReferenceIdeal.Chain.T3_2 Cert.ReferenceIdeal.Chain.U1_2 Cert.KernelIdeal.Chain.T3_2
  rw [T1_2_eq m m' c h, M1_2_eq m m' c h, Vr1_2_eq m m' c h, hA7 m m' c h, hA8 m m' c h, hA9 m m' c h, hA10 m m' c h]
  simp only [unrow_rowOf]
  refine (GinHost.dense_eq _ _ _ _ _ _).trans ?_
  rw [GinHost.bnhost_eq]
  rfl

/-- Layer 2: the batch mean of T3, a vector on one side and a row on the other. -/
theorem M2_2_eq : Cert.ReferenceIdeal.Chain.M2_2 m' c = GinSpec.unrow (Cert.KernelIdeal.KH.meanRow (Cert.KernelIdeal.Chain.T3_2 m c)) := by
  unfold Cert.ReferenceIdeal.Chain.M2_2
  rw [T3_2_eq m m' c h]
  exact (GinStage.row_div_eq _ _ _ _ _).symm

/-- Layer 2: the batch variance of T3, a vector on one side and a row on the other. -/
theorem Vr2_2_eq :
    Cert.ReferenceIdeal.Chain.Vr2_2 m' c = GinSpec.unrow (Cert.KernelIdeal.KH.varRow (Cert.KernelIdeal.Chain.T3_2 m c) Cert.KernelIdeal.KH.zeroI) := by
  unfold Cert.ReferenceIdeal.Chain.Vr2_2
  rw [T3_2_eq m m' c h]
  exact (GinStage.row_sel_div_eq _ _ _ _ _ _ _).symm

/-- Layer 2: relu(bn(t₃)). -/
theorem T4_2_eq : Cert.ReferenceIdeal.Chain.T4_2 m' c = Cert.KernelIdeal.Chain.T4_2 m c := by
  unfold Cert.ReferenceIdeal.Chain.T4_2 Cert.KernelIdeal.Chain.T4_2
  rw [T3_2_eq m m' c h, M2_2_eq m m' c h, Vr2_2_eq m m' c h, hA11 m m' c h, hA12 m m' c h]
  simp only [unrow_rowOf]
  exact GinHost.bnhost_eq _ _ _ _ _ _ _ _ _

/-- Layer 2: the batch mean of T4, a vector on one side and a row on the other. -/
theorem M3_2_eq : Cert.ReferenceIdeal.Chain.M3_2 m' c = GinSpec.unrow (Cert.KernelIdeal.KH.meanRow (Cert.KernelIdeal.Chain.T4_2 m c)) := by
  unfold Cert.ReferenceIdeal.Chain.M3_2
  rw [T4_2_eq m m' c h]
  exact (GinStage.row_div_eq _ _ _ _ _).symm

/-- Layer 2: the batch variance of T4, a vector on one side and a row on the other. -/
theorem Vr3_2_eq :
    Cert.ReferenceIdeal.Chain.Vr3_2 m' c = GinSpec.unrow (Cert.KernelIdeal.KH.varRow (Cert.KernelIdeal.Chain.T4_2 m c) Cert.KernelIdeal.KH.zeroI) := by
  unfold Cert.ReferenceIdeal.Chain.Vr3_2
  rw [T4_2_eq m m' c h]
  exact (GinStage.row_sel_div_eq _ _ _ _ _ _ _).symm

/-- Layer 2's output: relu(bn(t₄)). -/
theorem X3_eq : Cert.ReferenceIdeal.Chain.X3 m' c = Cert.KernelIdeal.Chain.X3 m c := by
  unfold Cert.ReferenceIdeal.Chain.X3 Cert.KernelIdeal.Chain.X3
  rw [T4_2_eq m m' c h, M3_2_eq m m' c h, Vr3_2_eq m m' c h, hA13 m m' c h, hA14 m m' c h]
  simp only [unrow_rowOf]
  exact GinHost.bnhost_eq _ _ _ _ _ _ _ _ _

/-! ## The edge perceptrons and the running score -/

/-- The hidden layer over node array 0: joined endpoint rows and the full slab, or the rows apart and the halves. -/
theorem H0_eq :
    Cert.ReferenceIdeal.Chain.H0 m' c
      = GinSpec.hid2 (n := 800000) (Cert.KernelIdeal.KH.gat (Cert.KernelIdeal.Chain.A m c Cert.KernelIdeal.main_arg1) (Cert.KernelIdeal.Chain.X0 m c))
          (Cert.KernelIdeal.KH.gat (Cert.KernelIdeal.Chain.A m c Cert.KernelIdeal.main_arg2) (Cert.KernelIdeal.Chain.X0 m c))
          (Cert.KernelIdeal.KH.pw1 ![0, 0, 0] Cert.KernelIdeal.Gen.slices_S4x128x64_S1x64x64_0_0_0 (Cert.KernelIdeal.Chain.A m c Cert.KernelIdeal.main_arg15))
          (Cert.KernelIdeal.KH.pw1 ![0, 64, 0] Cert.KernelIdeal.Gen.slices_S4x128x64_S1x64x64_0_64_0 (Cert.KernelIdeal.Chain.A m c Cert.KernelIdeal.main_arg15))
          (Cert.KernelIdeal.KH.pvec ![0, 0] Cert.KernelIdeal.Gen.slices_S4x64_S1x64_0_0 (Cert.KernelIdeal.Chain.A m c Cert.KernelIdeal.main_arg16)) := by
  unfold Cert.ReferenceIdeal.Chain.H0 Cert.ReferenceIdeal.Chain.E0
  rw [X0_eq m m' c h, hA1 m m' c h, hA2 m m' c h, hA15 m m' c h, hA16 m m' c h]
  exact GinStage.hid_stage_slab _ _ _ _ _ _ _ 0 (by omega) _ _ _ _ _ _ _

/-- The score after node array 0. -/
theorem Sb0_eq : Cert.ReferenceIdeal.Chain.Sb0 m' c = Cert.KernelIdeal.Chain.Sc0 m c := by
  unfold Cert.ReferenceIdeal.Chain.Sb0 Cert.ReferenceIdeal.Chain.Sa0 Cert.KernelIdeal.Chain.Sc0 Cert.KernelIdeal.Chain.Ctr0
  rw [H0_eq m m' c h, hA17 m m' c h, hA18 m m' c h, unrow_rowOf, unrow_rowOf2]
  exact GinStage.score_step _ _ _ _ _ _ _

/-- The hidden layer over node array 1: joined endpoint rows and the full slab, or the rows apart and the halves. -/
theorem H1_eq :
    Cert.ReferenceIdeal.Chain.H1 m' c
      = GinSpec.hid2 (n := 800000) (Cert.KernelIdeal.KH.gat (Cert.KernelIdeal.Chain.A m c Cert.KernelIdeal.main_arg1) (Cert.KernelIdeal.Chain.X1 m c))
          (Cert.KernelIdeal.KH.gat (Cert.KernelIdeal.Chain.A m c Cert.KernelIdeal.main_arg2) (Cert.KernelIdeal.Chain.X1 m c))
          (Cert.KernelIdeal.KH.pw1 ![1, 0, 0] Cert.KernelIdeal.Gen.slices_S4x128x64_S1x64x64_1_0_0 (Cert.KernelIdeal.Chain.A m c Cert.KernelIdeal.main_arg15))
          (Cert.KernelIdeal.KH.pw1 ![1, 64, 0] Cert.KernelIdeal.Gen.slices_S4x128x64_S1x64x64_1_64_0 (Cert.KernelIdeal.Chain.A m c Cert.KernelIdeal.main_arg15))
          (Cert.KernelIdeal.KH.pvec ![1, 0] Cert.KernelIdeal.Gen.slices_S4x64_S1x64_1_0 (Cert.KernelIdeal.Chain.A m c Cert.KernelIdeal.main_arg16)) := by
  unfold Cert.ReferenceIdeal.Chain.H1 Cert.ReferenceIdeal.Chain.E1
  rw [X1_eq m m' c h, hA1 m m' c h, hA2 m m' c h, hA15 m m' c h, hA16 m m' c h]
  exact GinStage.hid_stage_slab _ _ _ _ _ _ _ 1 (by omega) _ _ _ _ _ _ _

/-- The score after node array 1. -/
theorem Sb1_eq : Cert.ReferenceIdeal.Chain.Sb1 m' c = Cert.KernelIdeal.Chain.Sc1 m c := by
  unfold Cert.ReferenceIdeal.Chain.Sb1 Cert.ReferenceIdeal.Chain.Sa1 Cert.KernelIdeal.Chain.Sc1 Cert.KernelIdeal.Chain.Ctr1
  rw [H1_eq m m' c h, Sb0_eq m m' c h, hA17 m m' c h, hA18 m m' c h, unrow_rowOf, unrow_rowOf2]
  exact GinStage.score_step _ _ _ _ _ _ _

/-- The hidden layer over node array 2: joined endpoint rows and the full slab, or the rows apart and the halves. -/
theorem H2_eq :
    Cert.ReferenceIdeal.Chain.H2 m' c
      = GinSpec.hid2 (n := 800000) (Cert.KernelIdeal.KH.gat (Cert.KernelIdeal.Chain.A m c Cert.KernelIdeal.main_arg1) (Cert.KernelIdeal.Chain.X2 m c))
          (Cert.KernelIdeal.KH.gat (Cert.KernelIdeal.Chain.A m c Cert.KernelIdeal.main_arg2) (Cert.KernelIdeal.Chain.X2 m c))
          (Cert.KernelIdeal.KH.pw1 ![2, 0, 0] Cert.KernelIdeal.Gen.slices_S4x128x64_S1x64x64_2_0_0 (Cert.KernelIdeal.Chain.A m c Cert.KernelIdeal.main_arg15))
          (Cert.KernelIdeal.KH.pw1 ![2, 64, 0] Cert.KernelIdeal.Gen.slices_S4x128x64_S1x64x64_2_64_0 (Cert.KernelIdeal.Chain.A m c Cert.KernelIdeal.main_arg15))
          (Cert.KernelIdeal.KH.pvec ![2, 0] Cert.KernelIdeal.Gen.slices_S4x64_S1x64_2_0 (Cert.KernelIdeal.Chain.A m c Cert.KernelIdeal.main_arg16)) := by
  unfold Cert.ReferenceIdeal.Chain.H2 Cert.ReferenceIdeal.Chain.E2
  rw [X2_eq m m' c h, hA1 m m' c h, hA2 m m' c h, hA15 m m' c h, hA16 m m' c h]
  exact GinStage.hid_stage_slab _ _ _ _ _ _ _ 2 (by omega) _ _ _ _ _ _ _

/-- The score after node array 2. -/
theorem Sb2_eq : Cert.ReferenceIdeal.Chain.Sb2 m' c = Cert.KernelIdeal.Chain.Sc2 m c := by
  unfold Cert.ReferenceIdeal.Chain.Sb2 Cert.ReferenceIdeal.Chain.Sa2 Cert.KernelIdeal.Chain.Sc2 Cert.KernelIdeal.Chain.Ctr2
  rw [H2_eq m m' c h, Sb1_eq m m' c h, hA17 m m' c h, hA18 m m' c h, unrow_rowOf, unrow_rowOf2]
  exact GinStage.score_step _ _ _ _ _ _ _

/-- The hidden layer over node array 3: joined endpoint rows and the full slab, or the rows apart and the halves. -/
theorem H3_eq :
    Cert.ReferenceIdeal.Chain.H3 m' c
      = GinSpec.hid2 (n := 800000) (Cert.KernelIdeal.KH.gat (Cert.KernelIdeal.Chain.A m c Cert.KernelIdeal.main_arg1) (Cert.KernelIdeal.Chain.X3 m c))
          (Cert.KernelIdeal.KH.gat (Cert.KernelIdeal.Chain.A m c Cert.KernelIdeal.main_arg2) (Cert.KernelIdeal.Chain.X3 m c))
          (Cert.KernelIdeal.KH.pw1 ![3, 0, 0] Cert.KernelIdeal.Gen.slices_S4x128x64_S1x64x64_3_0_0 (Cert.KernelIdeal.Chain.A m c Cert.KernelIdeal.main_arg15))
          (Cert.KernelIdeal.KH.pw1 ![3, 64, 0] Cert.KernelIdeal.Gen.slices_S4x128x64_S1x64x64_3_64_0 (Cert.KernelIdeal.Chain.A m c Cert.KernelIdeal.main_arg15))
          (Cert.KernelIdeal.KH.pvec ![3, 0] Cert.KernelIdeal.Gen.slices_S4x64_S1x64_3_0 (Cert.KernelIdeal.Chain.A m c Cert.KernelIdeal.main_arg16)) := by
  unfold Cert.ReferenceIdeal.Chain.H3 Cert.ReferenceIdeal.Chain.E3
  rw [X3_eq m m' c h, hA1 m m' c h, hA2 m m' c h, hA15 m m' c h, hA16 m m' c h]
  exact GinStage.hid_stage_slab _ _ _ _ _ _ _ 3 (by omega) _ _ _ _ _ _ _

/-- The score after node array 3. -/
theorem Sb3_eq : Cert.ReferenceIdeal.Chain.Sb3 m' c = Cert.KernelIdeal.Chain.Sc3 m c := by
  unfold Cert.ReferenceIdeal.Chain.Sb3 Cert.ReferenceIdeal.Chain.Sa3 Cert.KernelIdeal.Chain.Sc3 Cert.KernelIdeal.Chain.Ctr3
  rw [H3_eq m m' c h, Sb2_eq m m' c h, hA17 m m' c h, hA18 m m' c h, unrow_rowOf, unrow_rowOf2]
  exact GinStage.score_step _ _ _ _ _ _ _

/-- From memories agreeing on the argument arrays, the two programs' final scores are equal. -/
theorem bridge : Cert.ReferenceIdeal.Chain.Sb3 m' c = Cert.KernelIdeal.Chain.Sc3 m c := Sb3_eq m m' c h

end

end GinBridge

end
-- ==== Proof.Claims.lean ====
/-
  The five claims.

  Both kernel programs' frames are the generated ones. The reference program is a straight line of host
  operations: it runs, and no operation writes an argument. Nothing was rewritten on the way to exact arithmetic.
  At exact arithmetic the kernel program ends with its result buffer at the running score after the fourth edge
  perceptron, the reference program at its own running score, and the two are one array: the same network, entry
  by entry — a dense map is the same sum in the TensorCore's and the host's spelling, the normalisation reads the
  same batch mean and variance, the first perceptron layer over the endpoint rows side by side is the sum of its two
  halves, and the running sums differ only in how they are bracketed.
-/
import proofs.«107973_j83408264888790_1_alg».proof.Defs
import proofs.«107973_j83408264888790_1_alg».proof.Proof.Gen.Kernel
import proofs.«107973_j83408264888790_1_alg».proof.Proof.Gen.Kernel.Frame
import proofs.«107973_j83408264888790_1_alg».proof.Proof.Gen.KernelIdeal
import proofs.«107973_j83408264888790_1_alg».proof.Proof.Gen.KernelIdeal.Frame
import proofs.«107973_j83408264888790_1_alg».proof.Proof.Gen.ReferenceIdeal
import proofs.«107973_j83408264888790_1_alg».proof.Proof.Gen.Pre_finite_inputs
import proofs.«107973_j83408264888790_1_alg».proof.Proof.KRun
import proofs.«107973_j83408264888790_1_alg».proof.Proof.KChain
import proofs.«107973_j83408264888790_1_alg».proof.Proof.RefFrame
import proofs.«107973_j83408264888790_1_alg».proof.Proof.RChain
import proofs.«107973_j83408264888790_1_alg».proof.Proof.Bridge

set_option maxRecDepth 16384

noncomputable section

namespace Cert.Proof.GinClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefRun.frame
theorem preserves : Cert.preserves_Kernel_KernelIdeal := trivial

theorem algebraic : Cert.algebraic_KernelIdeal_ReferenceIdeal := by
  intro m ρ m' ρ' _ hagree
  refine ⟨fun c => Cert.KernelIdeal.Chain.Sc3 m c, ?_, ?_⟩
  · refine (θ_run Cert.KernelIdeal.defs _ _).mono (fun r h c => ?_) (Cert.KernelIdeal.RunVal.run_all m ρ)
    exact ⟨(h c _ (Cert.KernelIdeal.Gen.mem_uc Cert.KernelIdeal.main_v285 (by decide))).trans (Cert.KernelIdeal.Chain.result m ρ c),
      (h c _ (Cert.KernelIdeal.Gen.mem_uc Cert.KernelIdeal.main_arg0 (by decide))).trans (Cert.KernelIdeal.Gen.W53_main_arg0 m ρ c),
      (h c _ (Cert.KernelIdeal.Gen.mem_uc Cert.KernelIdeal.main_arg1 (by decide))).trans (Cert.KernelIdeal.Gen.W53_main_arg1 m ρ c),
      (h c _ (Cert.KernelIdeal.Gen.mem_uc Cert.KernelIdeal.main_arg2 (by decide))).trans (Cert.KernelIdeal.Gen.W53_main_arg2 m ρ c),
      (h c _ (Cert.KernelIdeal.Gen.mem_uc Cert.KernelIdeal.main_arg3 (by decide))).trans (Cert.KernelIdeal.Gen.W53_main_arg3 m ρ c),
      (h c _ (Cert.KernelIdeal.Gen.mem_uc Cert.KernelIdeal.main_arg4 (by decide))).trans (Cert.KernelIdeal.Gen.W53_main_arg4 m ρ c),
      (h c _ (Cert.KernelIdeal.Gen.mem_uc Cert.KernelIdeal.main_arg5 (by decide))).trans (Cert.KernelIdeal.Gen.W53_main_arg5 m ρ c),
      (h c _ (Cert.KernelIdeal.Gen.mem_uc Cert.KernelIdeal.main_arg6 (by decide))).trans (Cert.KernelIdeal.Gen.W53_main_arg6 m ρ c),
      (h c _ (Cert.KernelIdeal.Gen.mem_uc Cert.KernelIdeal.main_arg7 (by decide))).trans (Cert.KernelIdeal.Gen.W53_main_arg7 m ρ c),
      (h c _ (Cert.KernelIdeal.Gen.mem_uc Cert.KernelIdeal.main_arg8 (by decide))).trans (Cert.KernelIdeal.Gen.W53_main_arg8 m ρ c),
      (h c _ (Cert.KernelIdeal.Gen.mem_uc Cert.KernelIdeal.main_arg9 (by decide))).trans (Cert.KernelIdeal.Gen.W53_main_arg9 m ρ c),
      (h c _ (Cert.KernelIdeal.Gen.mem_uc Cert.KernelIdeal.main_arg10 (by decide))).trans (Cert.KernelIdeal.Gen.W53_main_arg10 m ρ c),
      (h c _ (Cert.KernelIdeal.Gen.mem_uc Cert.KernelIdeal.main_arg11 (by decide))).trans (Cert.KernelIdeal.Gen.W53_main_arg11 m ρ c),
      (h c _ (Cert.KernelIdeal.Gen.mem_uc Cert.KernelIdeal.main_arg12 (by decide))).trans (Cert.KernelIdeal.Gen.W53_main_arg12 m ρ c),
      (h c _ (Cert.KernelIdeal.Gen.mem_uc Cert.KernelIdeal.main_arg13 (by decide))).trans (Cert.KernelIdeal.Gen.W53_main_arg13 m ρ c),
      (h c _ (Cert.KernelIdeal.Gen.mem_uc Cert.KernelIdeal.main_arg14 (by decide))).trans (Cert.KernelIdeal.Gen.W53_main_arg14 m ρ c),
      (h c _ (Cert.KernelIdeal.Gen.mem_uc Cert.KernelIdeal.main_arg15 (by decide))).trans (Cert.KernelIdeal.Gen.W53_main_arg15 m ρ c),
      (h c _ (Cert.KernelIdeal.Gen.mem_uc Cert.KernelIdeal.main_arg16 (by decide))).trans (Cert.KernelIdeal.Gen.W53_main_arg16 m ρ c),
      (h c _ (Cert.KernelIdeal.Gen.mem_uc Cert.KernelIdeal.main_arg17 (by decide))).trans (Cert.KernelIdeal.Gen.W53_main_arg17 m ρ c),
      (h c _ (Cert.KernelIdeal.Gen.mem_uc Cert.KernelIdeal.main_arg18 (by decide))).trans (Cert.KernelIdeal.Gen.W53_main_arg18 m ρ c)⟩
  · refine (θ_run Cert.ReferenceIdeal.defs _ _).mono (fun r h c => ?_) (Cert.ReferenceIdeal.RefRun.run m' ρ')
    exact ⟨(h c Cert.ReferenceIdeal.main_v433).trans ((Cert.ReferenceIdeal.Chain.result m' c).trans (GinBridge.bridge m m' c (hagree c))),
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _),
      (h c Cert.ReferenceIdeal.main_arg15).trans (Cert.ReferenceIdeal.RefRun.arg15_eq _),
      (h c Cert.ReferenceIdeal.main_arg16).trans (Cert.ReferenceIdeal.RefRun.arg16_eq _),
      (h c Cert.ReferenceIdeal.main_arg17).trans (Cert.ReferenceIdeal.RefRun.arg17_eq _),
      (h c Cert.ReferenceIdeal.main_arg18).trans (Cert.ReferenceIdeal.RefRun.arg18_eq _)⟩

end Cert.Proof.GinClaims

end
-- ==== Proof.lean ====
/-
  The certificate: the kernel program and the reference program, both read at exact arithmetic, compute the same
  edge scores. The five claims are proved in Proof/Claims.lean; the programs' stated side conditions are the
  generated instances.
-/
import proofs.«107973_j83408264888790_1_alg».proof.Defs
import proofs.«107973_j83408264888790_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GinClaims.frame_k, GinClaims.frame_ki, GinClaims.frame_ri, GinClaims.preserves, GinClaims.algebraic⟩

end Cert.Proof

end
